-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)) →
    ∃ (v0 : (c : Dev Cert.KernelIdeal.nD) → Buf (Elt Ideal) ((c.tc : Thread Cert.KernelIdeal.nD Cert.KernelIdeal.τ).loc Cert.KernelIdeal.main_v302)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v302) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v325) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S2x320000 : Shape := ⟨2, ![2, 320000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part6 {F : FTy → Type} [FloatOps F] (main_arg23 : FVec F S64 .f32) (main_arg24 : FVec F S64x32 .f32) (main_arg25 : FVec F S32 .f32) (main_v98 : IVec S_ 1) (main_v101 : IVec S128x64 1) (main_c_39 : IVec S_ 1) : IVec S_ 1 :=
  let main_v102 : IVec S_ 1 := (fun x v => Host.reduce IntOp.andi x v reducesTo_S128x64_S_d0_1 h_S_) main_v101 main_c_39
  let main_v103 : IVec S_ 1 := andi main_v98 main_v102
  let main_v104 : FVec F S64 .f32 := Host.absf main_arg23
  let main_cst_40 : FVec F S_ .f32 := constant S_ .f32 0x7F800000#32
  let main_v105 : FVec F S64 .f32 := broadcastInDim S64 ![] bcast_S_S64 main_cst_40
  let main_v106 : IVec S64 1 := cmpf .olt main_v104 main_v105
  let main_c_41 : IVec S_ 1 := constantI S_ 1 1#1
  let main_v107 : IVec S_ 1 := (fun x v => Host.reduce IntOp.andi x v reducesTo_S64_S_d0 h_S_) main_v106 main_c_41
  let main_v108 : IVec S_ 1 := andi main_v103 main_v107
  let main_v109 : FVec F S64x32 .f32 := Host.absf main_arg24
  let main_cst_42 : FVec F S_ .f32 := constant S_ .f32 0x7F800000#32
  let main_v110 : FVec F S64x32 .f32 := broadcastInDim S64x32 ![] bcast_S_S64x32 main_cst_42
  let main_v111 : IVec S64x32 1 := cmpf .olt main_v109 main_v110
  let main_c_43 : IVec S_ 1 := constantI S_ 1 1#1
  let main_v112 : IVec S_ 1 := (fun x v => Host.reduce IntOp.andi x v reducesTo_S64x32_S_d0_1 h_S_) main_v111 main_c_43
  let main_v113 : IVec S_ 1 := andi main_v108 main_v112
  let main_v114 : FVec F S32 .f32 := Host.absf main_arg25
  let main_cst_44 : FVec F S_ .f32 := constant S_ .f32 0x7F800000#32
  let main_v115 : FVec F S32 .f32 := broadcastInDim S32 ![] bcast_S_S32 main_cst_44
  let main_v116 : IVec S32 1 := cmpf .olt main_v114 main_v115
  let main_c_45 : IVec S_ 1 := constantI S_ 1 1#1
  let main_v117 : IVec S_ 1 := (fun x v => Host.reduce IntOp.andi x v reducesTo_S32_S_d0 h_S_) main_v116 main_c_45
  let main_v118 : IVec S_ 1 := andi main_v113 main_v117
  main_v118

def fn_part5 {F : FTy → Type} [FloatOps F] (main_arg20 : FVec F S128x128 .f32) (main_arg21 : FVec F S128 .f32) (main_arg22 : FVec F S128x64 .f32) (main_arg23 : FVec F S64 .f32) (main_arg24 : FVec F S64x32 .f32) (main_arg25 : FVec F S32 .f32) (main_v83 : IVec S_ 1) (main_v84 : FVec F S32 .f32) (main_cst_32 : FVec F S_ .f32) : IVec S_ 1 :=
  let main_v85 : FVec F S32 .f32 := broadcastInDim S32 ![] bcast_S_S32 main_cst_32
  let main_v86 : IVec S32 1 := cmpf .olt main_v84 main_v85
  let main_c_33 : IVec S_ 1 := constantI S_ 1 1#1
  let main_v87 : IVec S_ 1 := (fun x v => Host.reduce IntOp.andi x v reducesTo_S32_S_d0 h_S_) main_v86 main_c_33
  let main_v88 : IVec S_ 1 := andi main_v83 main_v87
  let main_v89 : FVec F S128x128 .f32 := Host.absf main_arg20
  let main_cst_34 : FVec F S_ .f32 := constant S_ .f32 0x7F800000#32
  let main_v90 : FVec F S128x128 .f32 := broadcastInDim S128x128 ![] bcast_S_S128x128 main_cst_34
  let main_v91 : IVec S128x128 1 := cmpf .olt main_v89 main_v90
  let main_c_35 : IVec S_ 1 := constantI S_ 1 1#1
  let main_v92 : IVec S_ 1 := (fun x v => Host.reduce IntOp.andi x v reducesTo_S128x128_S_d0_1 h_S_) main_v91 main_c_35
  let main_v93 : IVec S_ 1 := andi main_v88 main_v92
  let main_v94 : FVec F S128 .f32 := Host.absf main_arg21
  let main_cst_36 : FVec F S_ .f32 := constant S_ .f32 0x7F800000#32
  let main_v95 : FVec F S128 .f32 := broadcastInDim S128 ![] bcast_S_S128 main_cst_36
  let main_v96 : IVec S128 1 := cmpf .olt main_v94 main_v95
  let main_c_37 : IVec S_ 1 := constantI S_ 1 1#1
  let main_v97 : IVec S_ 1 := (fun x v => Host.reduce IntOp.andi x v reducesTo_S128_S_d0 h_S_) main_v96 main_c_37
  let main_v98 : IVec S_ 1 := andi main_v93 main_v97
  let main_v99 : FVec F S128x64 .f32 := Host.absf main_arg22
  let main_cst_38 : FVec F S_ .f32 := constant S_ .f32 0x7F800000#32
  let main_v100 : FVec F S128x64 .f32 := broadcastInDim S128x64 ![] bcast_S_S128x64 main_cst_38
  let main_v101 : IVec S128x64 1 := cmpf .olt main_v99 main_v100
  let main_c_39 : IVec S_ 1 := constantI S_ 1 1#1
  fn_part6 (F := F) main_arg23 main_arg24 main_arg25 main_v98 main_v101 main_c_39

def fn_part4 {F : FTy → Type} [FloatOps F] (main_arg16 : FVec F S128x64 .f32) (main_arg17 : FVec F S64 .f32) (main_arg18 : FVec F S64x32 .f32) (main_arg19 : FVec F S32 .f32) (main_arg20 : FVec F S128x128 .f32) (main_arg21 : FVec F S128 .f32) (main_arg22 : FVec F S128x64 .f32) (main_arg23 : FVec F S64 .f32) (main_arg24 : FVec F S64x32 .f32) (main_arg25 : FVec F S32 .f32) (main_v63 : IVec S_ 1) (main_v67 : IVec S_ 1) : IVec S_ 1 :=
  let main_v68 : IVec S_ 1 := andi main_v63 main_v67
  let main_v69 : FVec F S128x64 .f32 := Host.absf main_arg16
  let main_cst_26 : FVec F S_ .f32 := constant S_ .f32 0x7F800000#32
  let main_v70 : FVec F S128x64 .f32 := broadcastInDim S128x64 ![] bcast_S_S128x64 main_cst_26
  let main_v71 : IVec S128x64 1 := cmpf .olt main_v69 main_v70
  let main_c_27 : IVec S_ 1 := constantI S_ 1 1#1
  let main_v72 : IVec S_ 1 := (fun x v => Host.reduce IntOp.andi x v reducesTo_S128x64_S_d0_1 h_S_) main_v71 main_c_27
  let main_v73 : IVec S_ 1 := andi main_v68 main_v72
  let main_v74 : FVec F S64 .f32 := Host.absf main_arg17
  let main_cst_28 : FVec F S_ .f32 := constant S_ .f32 0x7F800000#32
  let main_v75 : FVec F S64 .f32 := broadcastInDim S64 ![] bcast_S_S64 main_cst_28
  let main_v76 : IVec S64 1 := cmpf .olt main_v74 main_v75
  let main_c_29 : IVec S_ 1 := constantI S_ 1 1#1
  let main_v77 : IVec S_ 1 := (fun x v => Host.reduce IntOp.andi x v reducesTo_S64_S_d0 h_S_) main_v76 main_c_29
  let main_v78 : IVec S_ 1 := andi main_v73 main_v77
  let main_v79 : FVec F S64x32 .f32 := Host.absf main_arg18
  let main_cst_30 : FVec F S_ .f32 := constant S_ .f32 0x7F800000#32
  let main_v80 : FVec F S64x32 .f32 := broadcastInDim S64x32 ![] bcast_S_S64x32 main_cst_30
  let main_v81 : IVec S64x32 1 := cmpf .olt main_v79 main_v80
  let main_c_31 : IVec S_ 1 := constantI S_ 1 1#1
  let main_v82 : IVec S_ 1 := (fun x v => Host.reduce IntOp.andi x v reducesTo_S64x32_S_d0_1 h_S_) main_v81 main_c_31
  let main_v83 : IVec S_ 1 := andi main_v78 main_v82
  let main_v84 : FVec F S32 .f32 := Host.absf main_arg19
  let main_cst_32 : FVec F S_ .f32 := constant S_ .f32 0x7F800000#32
  fn_part5 (F := F) main_arg20 main_arg21 main_arg22 main_arg23 main_arg24 main_arg25 main_v83 main_v84 main_cst_32

def fn_part3 {F : FTy → Type} [FloatOps F] (main_arg13 : FVec F S128 .f32) (main_arg14 : FVec F S128x128 .f32) (main_arg15 : FVec F S128 .f32) (main_arg16 : FVec F S128x64 .f32) (main_arg17 : FVec F S64 .f32) (main_arg18 : FVec F S64x32 .f32) (main_arg19 : FVec F S32 .f32) (main_arg20 : FVec F S128x128 .f32) (main_arg21 : FVec F S128 .f32) (main_arg22 : FVec F S128x64 .f32) (main_arg23 : FVec F S64 .f32) (main_arg24 : FVec F S64x32 .f32) (main_arg25 : FVec F S32 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x128 .f32 := Host.absf main_arg14
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg15
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg16 main_arg17 main_arg18 main_arg19 main_arg20 main_arg21 main_arg22 main_arg23 main_arg24 main_arg25 main_v63 main_v67

def fn_part2 {F : FTy → Type} [FloatOps F] (main_arg9 : FVec F S128 .f32) (main_arg10 : FVec F S128x128 .f32) (main_arg11 : FVec F S128 .f32) (main_arg12 : FVec F S128x128 .f32) (main_arg13 : FVec F S128 .f32) (main_arg14 : FVec F S128x128 .f32) (main_arg15 : FVec F S128 .f32) (main_arg16 : FVec F S128x64 .f32) (main_arg17 : FVec F S64 .f32) (main_arg18 : FVec F S64x32 .f32) (main_arg19 : FVec F S32 .f32) (main_arg20 : FVec F S128x128 .f32) (main_arg21 : FVec F S128 .f32) (main_arg22 : FVec F S128x64 .f32) (main_arg23 : FVec F S64 .f32) (main_arg24 : FVec F S64x32 .f32) (main_arg25 : FVec F S32 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg10
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg12
  let main_cst_18 : FVec F S_ .f32 := constant S_ .f32 0x7F800000#32
  let main_v50 : FVec F S128x128 .f32 := broadcastInDim S128x128 ![] bcast_S_S128x128 main_cst_18
  fn_part3 (F := F) main_arg13 main_arg14 main_arg15 main_arg16 main_arg17 main_arg18 main_arg19 main_arg20 main_arg21 main_arg22 main_arg23 main_arg24 main_arg25 main_v48 main_v49 main_v50

def fn_part1 {F : FTy → Type} [FloatOps F] (main_arg6 : FVec F S128x128 .f32) (main_arg7 : FVec F S128 .f32) (main_arg8 : FVec F S128x128 .f32) (main_arg9 : FVec F S128 .f32) (main_arg10 : FVec F S128x128 .f32) (main_arg11 : FVec F S128 .f32) (main_arg12 : FVec F S128x128 .f32) (main_arg13 : FVec F S128 .f32) (main_arg14 : FVec F S128x128 .f32) (main_arg15 : FVec F S128 .f32) (main_arg16 : FVec F S128x64 .f32) (main_arg17 : FVec F S64 .f32) (main_arg18 : FVec F S64x32 .f32) (main_arg19 : FVec F S32 .f32) (main_arg20 : FVec F S128x128 .f32) (main_arg21 : FVec F S128 .f32) (main_arg22 : FVec F S128x64 .f32) (main_arg23 : FVec F S64 .f32) (main_arg24 : FVec F S64x32 .f32) (main_arg25 : FVec F S32 .f32) (main_v13 : IVec S_ 1) (main_v16 : IVec S10000x10000 1) : IVec S_ 1 :=
  let main_c_5 : IVec S_ 1 := constantI S_ 1 1#1
  let main_v17 : IVec S_ 1 := (fun x v => Host.reduce IntOp.andi x v reducesTo_S10000x10000_S_d0_1 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_arg22 main_arg23 main_arg24 main_arg25 main_v33

def fn {F : FTy → Type} [FloatOps F] (main_arg0 : FVec F S10000x128 .f32) (main_arg1 : FVec F S10000x128 .f32) (main_arg2 : FVec F S10000x10000 .f32) (main_arg3 : FVec F S10000x10000 .f32) (main_arg4 : IVec S2x320000 32) (main_arg5 : IVec S2x320000 32) (main_arg6 : FVec F S128x128 .f32) (main_arg7 : FVec F S128 .f32) (main_arg8 : FVec F S128x128 .f32) (main_arg9 : FVec F S128 .f32) (main_arg10 : FVec F S128x128 .f32) (main_arg11 : FVec F S128 .f32) (main_arg12 : FVec F S128x128 .f32) (main_arg13 : FVec F S128 .f32) (main_arg14 : FVec F S128x128 .f32) (main_arg15 : FVec F S128 .f32) (main_arg16 : FVec F S128x64 .f32) (main_arg17 : FVec F S64 .f32) (main_arg18 : FVec F S64x32 .f32) (main_arg19 : FVec F S32 .f32) (main_arg20 : FVec F S128x128 .f32) (main_arg21 : FVec F S128 .f32) (main_arg22 : FVec F S128x64 .f32) (main_arg23 : FVec F S64 .f32) (main_arg24 : FVec F S64x32 .f32) (main_arg25 : FVec F S32 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x128 .f32 := Host.absf main_arg1
  let main_cst_0 : FVec F S_ .f32 := constant S_ .f32 0x7F800000#32
  let main_v5 : FVec F S10000x128 .f32 := broadcastInDim S10000x128 ![] bcast_S_S10000x128 main_cst_0
  let main_v6 : IVec S10000x128 1 := cmpf .olt main_v4 main_v5
  let main_c_1 : IVec S_ 1 := constantI S_ 1 1#1
  let main_v7 : IVec S_ 1 := (fun x v => Host.reduce IntOp.andi x v reducesTo_S10000x128_S_d0_1 h_S_) main_v6 main_c_1
  let main_v8 : IVec S_ 1 := andi main_v3 main_v7
  let main_v9 : FVec F S10000x10000 .f32 := Host.absf main_arg2
  let main_cst_2 : FVec F S_ .f32 := constant S_ .f32 0x7F800000#32
  let main_v10 : FVec F S10000x10000 .f32 := broadcastInDim S10000x10000 ![] bcast_S_S10000x10000 main_cst_2
  let main_v11 : IVec S10000x10000 1 := cmpf .olt main_v9 main_v10
  let main_c_3 : IVec S_ 1 := constantI S_ 1 1#1
  let main_v12 : IVec S_ 1 := (fun x v => Host.reduce IntOp.andi x v reducesTo_S10000x10000_S_d0_1 h_S_) main_v11 main_c_3
  let main_v13 : IVec S_ 1 := andi main_v8 main_v12
  let main_v14 : FVec F S10000x10000 .f32 := Host.absf main_arg3
  let main_cst_4 : FVec F S_ .f32 := constant S_ .f32 0x7F800000#32
  let main_v15 : FVec F S10000x10000 .f32 := broadcastInDim S10000x10000 ![] bcast_S_S10000x10000 main_cst_4
  let main_v16 : IVec S10000x10000 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_arg22 main_arg23 main_arg24 main_arg25 main_v13 main_v16
-- ==== Kernel.lean ====
abbrev S10000x128 : Shape := ⟨2, ![10000, 128]⟩
abbrev S10000x10000 : Shape := ⟨2, ![10000, 10000]⟩
abbrev S2x320000 : Shape := ⟨2, ![2, 320000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S1x320000 : Shape := ⟨2, ![1, 320000]⟩
abbrev S320000 : Shape := ⟨1, ![320000]⟩
abbrev S_ : Shape := ⟨0, ![]⟩
abbrev S320000x1 : Shape := ⟨2, ![320000, 1]⟩
abbrev S320000x2 : Shape := ⟨2, ![320000, 2]⟩
abbrev S10000 : Shape := ⟨1, ![10000]⟩
abbrev S330000 : Shape := ⟨1, ![330000]⟩
abbrev S330000x1 : Shape := ⟨2, ![330000, 1]⟩
abbrev S330000x128 : Shape := ⟨2, ![330000, 128]⟩
abbrev S1x128 : Shape := ⟨2, ![1, 128]⟩
abbrev S1x64 : Shape := ⟨2, ![1, 64]⟩
abbrev S1x32 : Shape := ⟨2, ![1, 32]⟩
abbrev S10000x32 : Shape := ⟨2, ![10000, 32]⟩
abbrev S1000x128 : Shape := ⟨2, ![1000, 128]⟩
abbrev S1000x32 : Shape := ⟨2, ![1000, 32]⟩
abbrev S1000x64 : Shape := ⟨2, ![1000, 64]⟩
abbrev S1280x32 : Shape := ⟨2, ![1280, 32]⟩
abbrev S1000x1280 : Shape := ⟨2, ![1000, 1280]⟩
abbrev S32x1280 : Shape := ⟨2, ![32, 1280]⟩

abbrev nBuf : Space → Nat
  | .hbm => 403
  | .vmem => 26
  | .smem => 0
  | _ => 0

abbrev hbmTy0_0 (i : Nat) : BufTy := match i % 128 with
  | 0 => ⟨S10000x128, .f32⟩
  | 1 => ⟨S10000x128, .f32⟩
  | 2 => ⟨S10000x10000, .f32⟩
  | 3 => ⟨S10000x10000, .f32⟩
  | 4 => ⟨S2x320000, .i32⟩
  | 5 => ⟨S2x320000, .i32⟩
  | 6 => ⟨S128x128, .f32⟩
  | 7 => ⟨S128, .f32⟩
  | 8 => ⟨S128x128, .f32⟩
  | 9 => ⟨S128, .f32⟩
  | 10 => ⟨S128x128, .f32⟩
  | 11 => ⟨S128, .f32⟩
  | 12 => ⟨S128x128, .f32⟩
  | 13 => ⟨S128, .f32⟩
  | 14 => ⟨S128x128, .f32⟩
  | 15 => ⟨S128, .f32⟩
  | 16 => ⟨S128x64, .f32⟩
  | 17 => ⟨S64, .f32⟩
  | 18 => ⟨S64x32, .f32⟩
  | 19 => ⟨S32, .f32⟩
  | 20 => ⟨S128x128, .f32⟩
  | 21 => ⟨S128, .f32⟩
  | 22 => ⟨S128x64, .f32⟩
  | 23 => ⟨S64, .f32⟩
  | 24 => ⟨S64x32, .f32⟩
  | 25 => ⟨S32, .f32⟩
  | 26 => ⟨S1x320000, .i32⟩
  | 27 => ⟨S320000, .i32⟩
  | 28 => ⟨S1x320000, .i32⟩
  | 29 => ⟨S320000, .i32⟩
  | 30 => ⟨S1x320000, .i32⟩
  | 31 => ⟨S320000, .i32⟩
  | 32 => ⟨S1x320000, .i32⟩
  | 33 => ⟨S320000, .i32⟩
  | 34 => ⟨S_, .i32⟩
  | 35 => ⟨S320000, .i32⟩
  | 36 => ⟨S320000, .i1⟩
  | 37 => ⟨S_, .i32⟩
  | 38 => ⟨S320000, .i32⟩
  | 39 => ⟨S320000, .i32⟩
  | 40 => ⟨S320000, .i32⟩
  | 41 => ⟨S_, .i32⟩
  | 42 => ⟨S320000, .i32⟩
  | 43 => ⟨S320000, .i1⟩
  | 44 => ⟨S_, .i32⟩
  | 45 => ⟨S320000, .i32⟩
  | 46 => ⟨S320000, .i32⟩
  | 47 => ⟨S320000, .i32⟩
  | 48 => ⟨S320000x1, .i32⟩
  | 49 => ⟨S320000x1, .i32⟩
  | 50 => ⟨S320000x2, .i32⟩
  | 51 => ⟨S320000, .f32⟩
  | 52 => ⟨S_, .i32⟩
  | 53 => ⟨S320000, .i32⟩
  | 54 => ⟨S320000, .i1⟩
  | 55 => ⟨S_, .i32⟩
  | 56 => ⟨S320000, .i32⟩
  | 57 => ⟨S320000, .i32⟩
  | 58 => ⟨S320000, .i32⟩
  | 59 => ⟨S_, .i32⟩
  | 60 => ⟨S320000, .i32⟩
  | 61 => ⟨S320000, .i1⟩
  | 62 => ⟨S_, .i32⟩
  | 63 => ⟨S320000, .i32⟩
  | 64 => ⟨S320000, .i32⟩
  | 65 => ⟨S320000, .i32⟩
  | 66 => ⟨S320000x1, .i32⟩
  | 67 => ⟨S320000x1, .i32⟩
  | 68 => ⟨S320000x2, .i32⟩
  | 69 => ⟨S320000, .f32⟩
  | 70 => ⟨S10000x128, .f32⟩
  | 71 => ⟨S10000, .i32⟩
  | 72 => ⟨S330000, .i32⟩
  | 73 => ⟨S330000, .i32⟩
  | 74 => ⟨S_, .f32⟩
  | 75 => ⟨S10000, .f32⟩
  | 76 => ⟨S330000, .f32⟩
  | 77 => ⟨S_, .f32⟩
  | 78 => ⟨S10000, .f32⟩
  | 79 => ⟨S330000x1, .i32⟩
  | 80 => ⟨S10000, .f32⟩
  | 81 => ⟨S10000, .f32⟩
  | 82 => ⟨S_, .i32⟩
  | 83 => ⟨S330000, .i32⟩
  | 84 => ⟨S330000, .i1⟩
  | 85 => ⟨S_, .i32⟩
  | 86 => ⟨S330000, .i32⟩
  | 87 => ⟨S330000, .i32⟩
  | 88 => ⟨S330000, .i32⟩
  | 89 => ⟨S330000x1, .i32⟩
  | 90 => ⟨S330000, .f32⟩
  | 91 => ⟨S330000, .f32⟩
  | 92 => ⟨S_, .i32⟩
  | 93 => ⟨S330000, .i32⟩
  | 94 => ⟨S330000, .i1⟩
  | 95 => ⟨S_, .i32⟩
  | 96 => ⟨S330000, .i32⟩
  | 97 => ⟨S330000, .i32⟩
  | 98 => ⟨S330000, .i32⟩
  | 99 => ⟨S330000x1, .i32⟩
  | 100 => ⟨S330000, .f32⟩
  | 101 => ⟨S330000, .f32⟩
  | 102 => ⟨S_, .i32⟩
  | 103 => ⟨S330000, .i32⟩
  | 104 => ⟨S330000, .i1⟩
  | 105 => ⟨S_, .i32⟩
  | 106 => ⟨S330000, .i32⟩
  | 107 => ⟨S330000, .i32⟩
  | 108 => ⟨S330000, .i32⟩
  | 109 => ⟨S330000x1, .i32⟩
  | 110 => ⟨S330000x128, .f32⟩
  | 111 => ⟨S330000x1, .f32⟩
  | 112 => ⟨S330000x128, .f32⟩
  | 113 => ⟨S330000x128, .f32⟩
  | 114 => ⟨S_, .f32⟩
  | 115 => ⟨S10000x128, .f32⟩
  | 116 => ⟨S330000x1, .i32⟩
  | 117 => ⟨S10000x128, .f32⟩
  | 118 => ⟨S1x128, .f32⟩
  | 119 => ⟨S10000x128, .f32⟩
  | 120 => ⟨S10000x128, .f32⟩
  | 121 => ⟨S_, .f32⟩
  | 122 => ⟨S10000x128, .f32⟩
  | 123 => ⟨S10000x128, .f32⟩
  | 124 => ⟨S10000x128, .f32⟩
  | 125 => ⟨S10000, .i32⟩
  | 126 => ⟨S330000, .i32⟩
  | 127 => ⟨S330000, .i32⟩
  | _ => ⟨S10000x128, .f32⟩

abbrev hbmTy0_1 (i : Nat) : BufTy := match i % 128 with
  | 0 => ⟨S_, .f32⟩
  | 1 => ⟨S10000, .f32⟩
  | 2 => ⟨S330000, .f32⟩
  | 3 => ⟨S_, .f32⟩
  | 4 => ⟨S10000, .f32⟩
  | 5 => ⟨S330000x1, .i32⟩
  | 6 => ⟨S10000, .f32⟩
  | 7 => ⟨S10000, .f32⟩
  | 8 => ⟨S_, .i32⟩
  | 9 => ⟨S330000, .i32⟩
  | 10 => ⟨S330000, .i1⟩
  | 11 => ⟨S_, .i32⟩
  | 12 => ⟨S330000, .i32⟩
  | 13 => ⟨S330000, .i32⟩
  | 14 => ⟨S330000, .i32⟩
  | 15 => ⟨S330000x1, .i32⟩
  | 16 => ⟨S330000, .f32⟩
  | 17 => ⟨S330000, .f32⟩
  | 18 => ⟨S_, .i32⟩
  | 19 => ⟨S330000, .i32⟩
  | 20 => ⟨S330000, .i1⟩
  | 21 => ⟨S_, .i32⟩
  | 22 => ⟨S330000, .i32⟩
  | 23 => ⟨S330000, .i32⟩
  | 24 => ⟨S330000, .i32⟩
  | 25 => ⟨S330000x1, .i32⟩
  | 26 => ⟨S330000, .f32⟩
  | 27 => ⟨S330000, .f32⟩
  | 28 => ⟨S_, .i32⟩
  | 29 => ⟨S330000, .i32⟩
  | 30 => ⟨S330000, .i1⟩
  | 31 => ⟨S_, .i32⟩
  | 32 => ⟨S330000, .i32⟩
  | 33 => ⟨S330000, .i32⟩
  | 34 => ⟨S330000, .i32⟩
  | 35 => ⟨S330000x1, .i32⟩
  | 36 => ⟨S330000x128, .f32⟩
  | 37 => ⟨S330000x1, .f32⟩
  | 38 => ⟨S330000x128, .f32⟩
  | 39 => ⟨S330000x128, .f32⟩
  | 40 => ⟨S_, .f32⟩
  | 41 => ⟨S10000x128, .f32⟩
  | 42 => ⟨S330000x1, .i32⟩
  | 43 => ⟨S10000x128, .f32⟩
  | 44 => ⟨S1x128, .f32⟩
  | 45 => ⟨S10000x128, .f32⟩
  | 46 => ⟨S10000x128, .f32⟩
  | 47 => ⟨S_, .f32⟩
  | 48 => ⟨S10000x128, .f32⟩
  | 49 => ⟨S10000x128, .f32⟩
  | 50 => ⟨S10000x128, .f32⟩
  | 51 => ⟨S10000, .i32⟩
  | 52 => ⟨S330000, .i32⟩
  | 53 => ⟨S330000, .i32⟩
  | 54 => ⟨S_, .f32⟩
  | 55 => ⟨S10000, .f32⟩
  | 56 => ⟨S330000, .f32⟩
  | 57 => ⟨S_, .f32⟩
  | 58 => ⟨S10000, .f32⟩
  | 59 => ⟨S330000x1, .i32⟩
  | 60 => ⟨S10000, .f32⟩
  | 61 => ⟨S10000, .f32⟩
  | 62 => ⟨S_, .i32⟩
  | 63 => ⟨S330000, .i32⟩
  | 64 => ⟨S330000, .i1⟩
  | 65 => ⟨S_, .i32⟩
  | 66 => ⟨S330000, .i32⟩
  | 67 => ⟨S330000, .i32⟩
  | 68 => ⟨S330000, .i32⟩
  | 69 => ⟨S330000x1, .i32⟩
  | 70 => ⟨S330000, .f32⟩
  | 71 => ⟨S330000, .f32⟩
  | 72 => ⟨S_, .i32⟩
  | 73 => ⟨S330000, .i32⟩
  | 74 => ⟨S330000, .i1⟩
  | 75 => ⟨S_, .i32⟩
  | 76 => ⟨S330000, .i32⟩
  | 77 => ⟨S330000, .i32⟩
  | 78 => ⟨S330000, .i32⟩
  | 79 => ⟨S330000x1, .i32⟩
  | 80 => ⟨S330000, .f32⟩
  | 81 => ⟨S330000, .f32⟩
  | 82 => ⟨S_, .i32⟩
  | 83 => ⟨S330000, .i32⟩
  | 84 => ⟨S330000, .i1⟩
  | 85 => ⟨S_, .i32⟩
  | 86 => ⟨S330000, .i32⟩
  | 87 => ⟨S330000, .i32⟩
  | 88 => ⟨S330000, .i32⟩
  | 89 => ⟨S330000x1, .i32⟩
  | 90 => ⟨S330000x128, .f32⟩
  | 91 => ⟨S330000x1, .f32⟩
  | 92 => ⟨S330000x128, .f32⟩
  | 93 => ⟨S330000x128, .f32⟩
  | 94 => ⟨S_, .f32⟩
  | 95 => ⟨S10000x128, .f32⟩
  | 96 => ⟨S330000x1, .i32⟩
  | 97 => ⟨S10000x128, .f32⟩
  | 98 => ⟨S1x128, .f32⟩
  | 99 => ⟨S10000x128, .f32⟩
  | 100 => ⟨S10000x128, .f32⟩
  | 101 => ⟨S_, .f32⟩
  | 102 => ⟨S10000x128, .f32⟩
  | 103 => ⟨S10000x128, .f32⟩
  | 104 => ⟨S10000x128, .f32⟩
  | 105 => ⟨S10000, .i32⟩
  | 106 => ⟨S330000, .i32⟩
  | 107 => ⟨S330000, .i32⟩
  | 108 => ⟨S_, .f32⟩
  | 109 => ⟨S10000, .f32⟩
  | 110 => ⟨S330000, .f32⟩
  | 111 => ⟨S_, .f32⟩
  | 112 => ⟨S10000, .f32⟩
  | 113 => ⟨S330000x1, .i32⟩
  | 114 => ⟨S10000, .f32⟩
  | 115 => ⟨S10000, .f32⟩
  | 116 => ⟨S_, .i32⟩
  | 117 => ⟨S330000, .i32⟩
  | 118 => ⟨S330000, .i1⟩
  | 119 => ⟨S_, .i32⟩
  | 120 => ⟨S330000, .i32⟩
  | 121 => ⟨S330000, .i32⟩
  | 122 => ⟨S330000, .i32⟩
  | 123 => ⟨S330000x1, .i32⟩
  | 124 => ⟨S330000, .f32⟩
  | 125 => ⟨S330000, .f32⟩
  | 126 => ⟨S_, .i32⟩
  | 127 => ⟨S330000, .i32⟩
  | _ => ⟨S10000x128, .f32⟩

abbrev hbmTy0_2 (i : Nat) : BufTy := match i % 128 with
  | 0 => ⟨S330000, .i1⟩
  | 1 => ⟨S_, .i32⟩
  | 2 => ⟨S330000, .i32⟩
  | 3 => ⟨S330000, .i32⟩
  | 4 => ⟨S330000, .i32⟩
  | 5 => ⟨S330000x1, .i32⟩
  | 6 => ⟨S330000, .f32⟩
  | 7 => ⟨S330000, .f32⟩
  | 8 => ⟨S_, .i32⟩
  | 9 => ⟨S330000, .i32⟩
  | 10 => ⟨S330000, .i1⟩
  | 11 => ⟨S_, .i32⟩
  | 12 => ⟨S330000, .i32⟩
  | 13 => ⟨S330000, .i32⟩
  | 14 => ⟨S330000, .i32⟩
  | 15 => ⟨S330000x1, .i32⟩
  | 16 => ⟨S330000x128, .f32⟩
  | 17 => ⟨S330000x1, .f32⟩
  | 18 => ⟨S330000x128, .f32⟩
  | 19 => ⟨S330000x128, .f32⟩
  | 20 => ⟨S_, .f32⟩
  | 21 => ⟨S10000x128, .f32⟩
  | 22 => ⟨S330000x1, .i32⟩
  | 23 => ⟨S10000x128, .f32⟩
  | 24 => ⟨S1x128, .f32⟩
  | 25 => ⟨S10000x128, .f32⟩
  | 26 => ⟨S10000x128, .f32⟩
  | 27 => ⟨S_, .f32⟩
  | 28 => ⟨S10000x128, .f32⟩
  | 29 => ⟨S10000x128, .f32⟩
  | 30 => ⟨S10000x128, .f32⟩
  | 31 => ⟨S10000, .i32⟩
  | 32 => ⟨S330000, .i32⟩
  | 33 => ⟨S330000, .i32⟩
  | 34 => ⟨S_, .f32⟩
  | 35 => ⟨S10000, .f32⟩
  | 36 => ⟨S330000, .f32⟩
  | 37 => ⟨S_, .f32⟩
  | 38 => ⟨S10000, .f32⟩
  | 39 => ⟨S330000x1, .i32⟩
  | 40 => ⟨S10000, .f32⟩
  | 41 => ⟨S10000, .f32⟩
  | 42 => ⟨S_, .i32⟩
  | 43 => ⟨S330000, .i32⟩
  | 44 => ⟨S330000, .i1⟩
  | 45 => ⟨S_, .i32⟩
  | 46 => ⟨S330000, .i32⟩
  | 47 => ⟨S330000, .i32⟩
  | 48 => ⟨S330000, .i32⟩
  | 49 => ⟨S330000x1, .i32⟩
  | 50 => ⟨S330000, .f32⟩
  | 51 => ⟨S330000, .f32⟩
  | 52 => ⟨S_, .i32⟩
  | 53 => ⟨S330000, .i32⟩
  | 54 => ⟨S330000, .i1⟩
  | 55 => ⟨S_, .i32⟩
  | 56 => ⟨S330000, .i32⟩
  | 57 => ⟨S330000, .i32⟩
  | 58 => ⟨S330000, .i32⟩
  | 59 => ⟨S330000x1, .i32⟩
  | 60 => ⟨S330000, .f32⟩
  | 61 => ⟨S330000, .f32⟩
  | 62 => ⟨S_, .i32⟩
  | 63 => ⟨S330000, .i32⟩
  | 64 => ⟨S330000, .i1⟩
  | 65 => ⟨S_, .i32⟩
  | 66 => ⟨S330000, .i32⟩
  | 67 => ⟨S330000, .i32⟩
  | 68 => ⟨S330000, .i32⟩
  | 69 => ⟨S330000x1, .i32⟩
  | 70 => ⟨S330000x128, .f32⟩
  | 71 => ⟨S330000x1, .f32⟩
  | 72 => ⟨S330000x128, .f32⟩
  | 73 => ⟨S330000x128, .f32⟩
  | 74 => ⟨S_, .f32⟩
  | 75 => ⟨S10000x128, .f32⟩
  | 76 => ⟨S330000x1, .i32⟩
  | 77 => ⟨S10000x128, .f32⟩
  | 78 => ⟨S1x128, .f32⟩
  | 79 => ⟨S10000x128, .f32⟩
  | 80 => ⟨S10000x128, .f32⟩
  | 81 => ⟨S_, .f32⟩
  | 82 => ⟨S10000x128, .f32⟩
  | 83 => ⟨S10000x128, .f32⟩
  | 84 => ⟨S10000x128, .f32⟩
  | 85 => ⟨S10000, .i32⟩
  | 86 => ⟨S330000, .i32⟩
  | 87 => ⟨S330000, .i32⟩
  | 88 => ⟨S_, .f32⟩
  | 89 => ⟨S10000, .f32⟩
  | 90 => ⟨S330000, .f32⟩
  | 91 => ⟨S_, .f32⟩
  | 92 => ⟨S10000, .f32⟩
  | 93 => ⟨S330000x1, .i32⟩
  | 94 => ⟨S10000, .f32⟩
  | 95 => ⟨S10000, .f32⟩
  | 96 => ⟨S_, .i32⟩
  | 97 => ⟨S330000, .i32⟩
  | 98 => ⟨S330000, .i1⟩
  | 99 => ⟨S_, .i32⟩
  | 100 => ⟨S330000, .i32⟩
  | 101 => ⟨S330000, .i32⟩
  | 102 => ⟨S330000, .i32⟩
  | 103 => ⟨S330000x1, .i32⟩
  | 104 => ⟨S330000, .f32⟩
  | 105 => ⟨S330000, .f32⟩
  | 106 => ⟨S_, .i32⟩
  | 107 => ⟨S330000, .i32⟩
  | 108 => ⟨S330000, .i1⟩
  | 109 => ⟨S_, .i32⟩
  | 110 => ⟨S330000, .i32⟩
  | 111 => ⟨S330000, .i32⟩
  | 112 => ⟨S330000, .i32⟩
  | 113 => ⟨S330000x1, .i32⟩
  | 114 => ⟨S330000, .f32⟩
  | 115 => ⟨S330000, .f32⟩
  | 116 => ⟨S_, .i32⟩
  | 117 => ⟨S330000, .i32⟩
  | 118 => ⟨S330000, .i1⟩
  | 119 => ⟨S_, .i32⟩
  | 120 => ⟨S330000, .i32⟩
  | 121 => ⟨S330000, .i32⟩
  | 122 => ⟨S330000, .i32⟩
  | 123 => ⟨S330000x1, .i32⟩
  | 124 => ⟨S330000x128, .f32⟩
  | 125 => ⟨S330000x1, .f32⟩
  | 126 => ⟨S330000x128, .f32⟩
  | 127 => ⟨S330000x128, .f32⟩
  | _ => ⟨S10000x128, .f32⟩

abbrev hbmTy0_3 (i : Nat) : BufTy := match i % 128 with
  | 0 => ⟨S_, .f32⟩
  | 1 => ⟨S10000x128, .f32⟩
  | 2 => ⟨S330000x1, .i32⟩
  | 3 => ⟨S10000x128, .f32⟩
  | 4 => ⟨S1x128, .f32⟩
  | 5 => ⟨S10000x128, .f32⟩
  | 6 => ⟨S10000x128, .f32⟩
  | 7 => ⟨S_, .f32⟩
  | 8 => ⟨S10000x128, .f32⟩
  | 9 => ⟨S10000x128, .f32⟩
  | 10 => ⟨S1x128, .f32⟩
  | 11 => ⟨S1x64, .f32⟩
  | 12 => ⟨S1x32, .f32⟩
  | 13 => ⟨S10000x32, .f32⟩
  | 14 => ⟨S1x128, .f32⟩
  | 15 => ⟨S1x64, .f32⟩
  | 16 => ⟨S1x32, .f32⟩
  | 17 => ⟨S10000x32, .f32⟩
  | 18 => ⟨S10000x10000, .f32⟩
  | _ => ⟨S10000x128, .f32⟩

abbrev hbmTy (i : Nat) : BufTy := match i / 128 with
  | 0 => hbmTy0_0 i
  | 1 => hbmTy0_1 i
  | 2 => hbmTy0_2 i
  | 3 => hbmTy0_3 i
  | _ => ⟨S10000x128, .f32⟩

abbrev bufTy : (tb : Table) → Fin (tcTables nBuf tb) → BufTy
  | .hbm, ⟨i, _⟩ => hbmTy i
  | .local _ .vmem, ⟨0, _⟩ => ⟨S1000x128, .f32⟩
  | .local _ .vmem, ⟨1, _⟩ => ⟨S1000x128, .f32⟩
  | .local _ .vmem, ⟨2, _⟩ => ⟨S128x128, .f32⟩
  | .local _ .vmem, ⟨3, _⟩ => ⟨S1x128, .f32⟩
  | .local _ .vmem, ⟨4, _⟩ => ⟨S128x64, .f32⟩
  | .local _ .vmem, ⟨5, _⟩ => ⟨S1x64, .f32⟩
  | .local _ .vmem, ⟨6, _⟩ => ⟨S64x32, .f32⟩
  | .local _ .vmem, ⟨7, _⟩ => ⟨S1x32, .f32⟩
  | .local _ .vmem, ⟨8, _⟩ => ⟨S1000x32, .f32⟩
  | .local _ .vmem, ⟨9, _⟩ => ⟨S1000x32, .f32⟩
  | .local _ .vmem, ⟨10, _⟩ => ⟨S1000x128, .f32⟩
  | .local _ .vmem, ⟨11, _⟩ => ⟨S1000x128, .f32⟩
  | .local _ .vmem, ⟨12, _⟩ => ⟨S128x128, .f32⟩
  | .local _ .vmem, ⟨13, _⟩ => ⟨S1x128, .f32⟩
  | .local _ .vmem, ⟨14, _⟩ => ⟨S128x64, .f32⟩
  | .local _ .vmem, ⟨15, _⟩ => ⟨S1x64, .f32⟩
  | .local _ .vmem, ⟨16, _⟩ => ⟨S64x32, .f32⟩
  | .local _ .vmem, ⟨17, _⟩ => ⟨S1x32, .f32⟩
  | .local _ .vmem, ⟨18, _⟩ => ⟨S1000x32, .f32⟩
  | .local _ .vmem, ⟨19, _⟩ => ⟨S1000x32, .f32⟩
  | .local _ .vmem, ⟨20, _⟩ => ⟨S1000x32, .f32⟩
  | .local _ .vmem, ⟨21, _⟩ => ⟨S1000x32, .f32⟩
  | .local _ .vmem, ⟨22, _⟩ => ⟨S1280x32, .f32⟩
  | .local _ .vmem, ⟨23, _⟩ => ⟨S1280x32, .f32⟩
  | .local _ .vmem, ⟨24, _⟩ => ⟨S1000x1280, .f32⟩
  | .local _ .vmem, ⟨25, _⟩ => ⟨S1000x1280, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_c : Ref sig .tc := ⟨.hbm, 34, rfl⟩
abbrev main_v8 : Ref sig .tc := ⟨.hbm, 35, rfl⟩
abbrev main_v9 : Ref sig .tc := ⟨.hbm, 36, rfl⟩
abbrev main_c_0 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_c_1 : Ref sig .tc := ⟨.hbm, 41, rfl⟩
abbrev main_v13 : Ref sig .tc := ⟨.hbm, 42, rfl⟩
abbrev main_v14 : Ref sig .tc := ⟨.hbm, 43, rfl⟩
abbrev main_c_2 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_c_3 : Ref sig .tc := ⟨.hbm, 52, rfl⟩
abbrev main_v22 : Ref sig .tc := ⟨.hbm, 53, rfl⟩
abbrev main_v23 : Ref sig .tc := ⟨.hbm, 54, rfl⟩
abbrev main_c_4 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_c_5 : Ref sig .tc := ⟨.hbm, 59, rfl⟩
abbrev main_v27 : Ref sig .tc := ⟨.hbm, 60, rfl⟩
abbrev main_v28 : Ref sig .tc := ⟨.hbm, 61, rfl⟩
abbrev main_c_6 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_cst : Ref sig .tc := ⟨.hbm, 74, rfl⟩
abbrev main_v40 : Ref sig .tc := ⟨.hbm, 75, rfl⟩
abbrev main_v41 : Ref sig .tc := ⟨.hbm, 76, rfl⟩
abbrev main_cst_7 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_c_8 : Ref sig .tc := ⟨.hbm, 82, rfl⟩
abbrev main_v46 : Ref sig .tc := ⟨.hbm, 83, rfl⟩
abbrev main_v47 : Ref sig .tc := ⟨.hbm, 84, rfl⟩
abbrev main_c_9 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_c_10 : Ref sig .tc := ⟨.hbm, 92, rfl⟩
abbrev main_v54 : Ref sig .tc := ⟨.hbm, 93, rfl⟩
abbrev main_v55 : Ref sig .tc := ⟨.hbm, 94, rfl⟩
abbrev main_c_11 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_c_12 : Ref sig .tc := ⟨.hbm, 102, rfl⟩
abbrev main_v62 : Ref sig .tc := ⟨.hbm, 103, rfl⟩
abbrev main_v63 : Ref sig .tc := ⟨.hbm, 104, rfl⟩
abbrev main_c_13 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_cst_14 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_call0_cst : Ref sig .tc := ⟨.hbm, 121, rfl⟩
abbrev main_call0_v0 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_cst_15 : Ref sig .tc := ⟨.hbm, 128, rfl⟩
abbrev main_v83 : Ref sig .tc := ⟨.hbm, 129, rfl⟩
abbrev main_v84 : Ref sig .tc := ⟨.hbm, 130, rfl⟩
abbrev main_cst_16 : Ref sig .tc := ⟨.hbm, 131, rfl⟩
abbrev main_v85 : Ref sig .tc := ⟨.hbm, 132, rfl⟩
abbrev main_v86 : Ref sig .tc := ⟨.hbm, 133, rfl⟩
abbrev main_v87 : Ref sig .tc := ⟨.hbm, 134, rfl⟩
abbrev main_v88 : Ref sig .tc := ⟨.hbm, 135, rfl⟩
abbrev main_c_17 : Ref sig .tc := ⟨.hbm, 136, rfl⟩
abbrev main_v89 : Ref sig .tc := ⟨.hbm, 137, rfl⟩
abbrev main_v90 : Ref sig .tc := ⟨.hbm, 138, rfl⟩
abbrev main_c_18 : Ref sig .tc := ⟨.hbm, 139, rfl⟩
abbrev main_v91 : Ref sig .tc := ⟨.hbm, 140, rfl⟩
abbrev main_v92 : Ref sig .tc := ⟨.hbm, 141, rfl⟩
abbrev main_v93 : Ref sig .tc := ⟨.hbm, 142, rfl⟩
abbrev main_v94 : Ref sig .tc := ⟨.hbm, 143, rfl⟩
abbrev main_v95 : Ref sig .tc := ⟨.hbm, 144, rfl⟩
abbrev main_v96 : Ref sig .tc := ⟨.hbm, 145, rfl⟩
abbrev main_c_19 : Ref sig .tc := ⟨.hbm, 146, rfl⟩
abbrev main_v97 : Ref sig .tc := ⟨.hbm, 147, rfl⟩
abbrev main_v98 : Ref sig .tc := ⟨.hbm, 148, rfl⟩
abbrev main_c_20 : Ref sig .tc := ⟨.hbm, 149, rfl⟩
abbrev main_v99 : Ref sig .tc := ⟨.hbm, 150, rfl⟩
abbrev main_v100 : Ref sig .tc := ⟨.hbm, 151, rfl⟩
abbrev main_v101 : Ref sig .tc := ⟨.hbm, 152, rfl⟩
abbrev main_v102 : Ref sig .tc := ⟨.hbm, 153, rfl⟩
abbrev main_v103 : Ref sig .tc := ⟨.hbm, 154, rfl⟩
abbrev main_v104 : Ref sig .tc := ⟨.hbm, 155, rfl⟩
abbrev main_c_21 : Ref sig .tc := ⟨.hbm, 156, rfl⟩
abbrev main_v105 : Ref sig .tc := ⟨.hbm, 157, rfl⟩
abbrev main_v106 : Ref sig .tc := ⟨.hbm, 158, rfl⟩
abbrev main_c_22 : Ref sig .tc := ⟨.hbm, 159, rfl⟩
abbrev main_v107 : Ref sig .tc := ⟨.hbm, 160, rfl⟩
abbrev main_v108 : Ref sig .tc := ⟨.hbm, 161, rfl⟩
abbrev main_v109 : Ref sig .tc := ⟨.hbm, 162, rfl⟩
abbrev main_v110 : Ref sig .tc := ⟨.hbm, 163, rfl⟩
abbrev main_v111 : Ref sig .tc := ⟨.hbm, 164, rfl⟩
abbrev main_v112 : Ref sig .tc := ⟨.hbm, 165, rfl⟩
abbrev main_v113 : Ref sig .tc := ⟨.hbm, 166, rfl⟩
abbrev main_v114 : Ref sig .tc := ⟨.hbm, 167, rfl⟩
abbrev main_cst_23 : Ref sig .tc := ⟨.hbm, 168, rfl⟩
abbrev main_v115 : Ref sig .tc := ⟨.hbm, 169, rfl⟩
abbrev main_v116 : Ref sig .tc := ⟨.hbm, 170, rfl⟩
abbrev main_v117 : Ref sig .tc := ⟨.hbm, 171, rfl⟩
abbrev main_v118 : Ref sig .tc := ⟨.hbm, 172, rfl⟩
abbrev main_v119 : Ref sig .tc := ⟨.hbm, 173, rfl⟩
abbrev main_v120 : Ref sig .tc := ⟨.hbm, 174, rfl⟩
abbrev main_call1_cst : Ref sig .tc := ⟨.hbm, 175, rfl⟩
abbrev main_call1_v0 : Ref sig .tc := ⟨.hbm, 176, rfl⟩
abbrev main_v121 : Ref sig .tc := ⟨.hbm, 177, rfl⟩
abbrev main_v122 : Ref sig .tc := ⟨.hbm, 178, rfl⟩
abbrev main_v123 : Ref sig .tc := ⟨.hbm, 179, rfl⟩
abbrev main_v124 : Ref sig .tc := ⟨.hbm, 180, rfl⟩
abbrev main_v125 : Ref sig .tc := ⟨.hbm, 181, rfl⟩
abbrev main_cst_24 : Ref sig .tc := ⟨.hbm, 182, rfl⟩
abbrev main_v126 : Ref sig .tc := ⟨.hbm, 183, rfl⟩
abbrev main_v127 : Ref sig .tc := ⟨.hbm, 184, rfl⟩
abbrev main_cst_25 : Ref sig .tc := ⟨.hbm, 185, rfl⟩
abbrev main_v128 : Ref sig .tc := ⟨.hbm, 186, rfl⟩
abbrev main_v129 : Ref sig .tc := ⟨.hbm, 187, rfl⟩
abbrev main_v130 : Ref sig .tc := ⟨.hbm, 188, rfl⟩
abbrev main_v131 : Ref sig .tc := ⟨.hbm, 189, rfl⟩
abbrev main_c_26 : Ref sig .tc := ⟨.hbm, 190, rfl⟩
abbrev main_v132 : Ref sig .tc := ⟨.hbm, 191, rfl⟩
abbrev main_v133 : Ref sig .tc := ⟨.hbm, 192, rfl⟩
abbrev main_c_27 : Ref sig .tc := ⟨.hbm, 193, rfl⟩
abbrev main_v134 : Ref sig .tc := ⟨.hbm, 194, rfl⟩
abbrev main_v135 : Ref sig .tc := ⟨.hbm, 195, rfl⟩
abbrev main_v136 : Ref sig .tc := ⟨.hbm, 196, rfl⟩
abbrev main_v137 : Ref sig .tc := ⟨.hbm, 197, rfl⟩
abbrev main_v138 : Ref sig .tc := ⟨.hbm, 198, rfl⟩
abbrev main_v139 : Ref sig .tc := ⟨.hbm, 199, rfl⟩
abbrev main_c_28 : Ref sig .tc := ⟨.hbm, 200, rfl⟩
abbrev main_v140 : Ref sig .tc := ⟨.hbm, 201, rfl⟩
abbrev main_v141 : Ref sig .tc := ⟨.hbm, 202, rfl⟩
abbrev main_c_29 : Ref sig .tc := ⟨.hbm, 203, rfl⟩
abbrev main_v142 : Ref sig .tc := ⟨.hbm, 204, rfl⟩
abbrev main_v143 : Ref sig .tc := ⟨.hbm, 205, rfl⟩
abbrev main_v144 : Ref sig .tc := ⟨.hbm, 206, rfl⟩
abbrev main_v145 : Ref sig .tc := ⟨.hbm, 207, rfl⟩
abbrev main_v146 : Ref sig .tc := ⟨.hbm, 208, rfl⟩
abbrev main_v147 : Ref sig .tc := ⟨.hbm, 209, rfl⟩
abbrev main_c_30 : Ref sig .tc := ⟨.hbm, 210, rfl⟩
abbrev main_v148 : Ref sig .tc := ⟨.hbm, 211, rfl⟩
abbrev main_v149 : Ref sig .tc := ⟨.hbm, 212, rfl⟩
abbrev main_c_31 : Ref sig .tc := ⟨.hbm, 213, rfl⟩
abbrev main_v150 : Ref sig .tc := ⟨.hbm, 214, rfl⟩
abbrev main_v151 : Ref sig .tc := ⟨.hbm, 215, rfl⟩
abbrev main_v152 : Ref sig .tc := ⟨.hbm, 216, rfl⟩
abbrev main_v153 : Ref sig .tc := ⟨.hbm, 217, rfl⟩
abbrev main_v154 : Ref sig .tc := ⟨.hbm, 218, rfl⟩
abbrev main_v155 : Ref sig .tc := ⟨.hbm, 219, rfl⟩
abbrev main_v156 : Ref sig .tc := ⟨.hbm, 220, rfl⟩
abbrev main_v157 : Ref sig .tc := ⟨.hbm, 221, rfl⟩
abbrev main_cst_32 : Ref sig .tc := ⟨.hbm, 222, rfl⟩
abbrev main_v158 : Ref sig .tc := ⟨.hbm, 223, rfl⟩
abbrev main_v159 : Ref sig .tc := ⟨.hbm, 224, rfl⟩
abbrev main_v160 : Ref sig .tc := ⟨.hbm, 225, rfl⟩
abbrev main_v161 : Ref sig .tc := ⟨.hbm, 226, rfl⟩
abbrev main_v162 : Ref sig .tc := ⟨.hbm, 227, rfl⟩
abbrev main_v163 : Ref sig .tc := ⟨.hbm, 228, rfl⟩
abbrev main_call2_cst : Ref sig .tc := ⟨.hbm, 229, rfl⟩
abbrev main_call2_v0 : Ref sig .tc := ⟨.hbm, 230, rfl⟩
abbrev main_v164 : Ref sig .tc := ⟨.hbm, 231, rfl⟩
abbrev main_v165 : Ref sig .tc := ⟨.hbm, 232, rfl⟩
abbrev main_v166 : Ref sig .tc := ⟨.hbm, 233, rfl⟩
abbrev main_v167 : Ref sig .tc := ⟨.hbm, 234, rfl⟩
abbrev main_v168 : Ref sig .tc := ⟨.hbm, 235, rfl⟩
abbrev main_cst_33 : Ref sig .tc := ⟨.hbm, 236, rfl⟩
abbrev main_v169 : Ref sig .tc := ⟨.hbm, 237, rfl⟩
abbrev main_v170 : Ref sig .tc := ⟨.hbm, 238, rfl⟩
abbrev main_cst_34 : Ref sig .tc := ⟨.hbm, 239, rfl⟩
abbrev main_v171 : Ref sig .tc := ⟨.hbm, 240, rfl⟩
abbrev main_v172 : Ref sig .tc := ⟨.hbm, 241, rfl⟩
abbrev main_v173 : Ref sig .tc := ⟨.hbm, 242, rfl⟩
abbrev main_v174 : Ref sig .tc := ⟨.hbm, 243, rfl⟩
abbrev main_c_35 : Ref sig .tc := ⟨.hbm, 244, rfl⟩
abbrev main_v175 : Ref sig .tc := ⟨.hbm, 245, rfl⟩
abbrev main_v176 : Ref sig .tc := ⟨.hbm, 246, rfl⟩
abbrev main_c_36 : Ref sig .tc := ⟨.hbm, 247, rfl⟩
abbrev main_v177 : Ref sig .tc := ⟨.hbm, 248, rfl⟩
abbrev main_v178 : Ref sig .tc := ⟨.hbm, 249, rfl⟩
abbrev main_v179 : Ref sig .tc := ⟨.hbm, 250, rfl⟩
abbrev main_v180 : Ref sig .tc := ⟨.hbm, 251, rfl⟩
abbrev main_v181 : Ref sig .tc := ⟨.hbm, 252, rfl⟩
abbrev main_v182 : Ref sig .tc := ⟨.hbm, 253, rfl⟩
abbrev main_c_37 : Ref sig .tc := ⟨.hbm, 254, rfl⟩
abbrev main_v183 : Ref sig .tc := ⟨.hbm, 255, rfl⟩
abbrev main_v184 : Ref sig .tc := ⟨.hbm, 256, rfl⟩
abbrev main_c_38 : Ref sig .tc := ⟨.hbm, 257, rfl⟩
abbrev main_v185 : Ref sig .tc := ⟨.hbm, 258, rfl⟩
abbrev main_v186 : Ref sig .tc := ⟨.hbm, 259, rfl⟩
abbrev main_v187 : Ref sig .tc := ⟨.hbm, 260, rfl⟩
abbrev main_v188 : Ref sig .tc := ⟨.hbm, 261, rfl⟩
abbrev main_v189 : Ref sig .tc := ⟨.hbm, 262, rfl⟩
abbrev main_v190 : Ref sig .tc := ⟨.hbm, 263, rfl⟩
abbrev main_c_39 : Ref sig .tc := ⟨.hbm, 264, rfl⟩
abbrev main_v191 : Ref sig .tc := ⟨.hbm, 265, rfl⟩
abbrev main_v192 : Ref sig .tc := ⟨.hbm, 266, rfl⟩
abbrev main_c_40 : Ref sig .tc := ⟨.hbm, 267, rfl⟩
abbrev main_v193 : Ref sig .tc := ⟨.hbm, 268, rfl⟩
abbrev main_v194 : Ref sig .tc := ⟨.hbm, 269, rfl⟩
abbrev main_v195 : Ref sig .tc := ⟨.hbm, 270, rfl⟩
abbrev main_v196 : Ref sig .tc := ⟨.hbm, 271, rfl⟩
abbrev main_v197 : Ref sig .tc := ⟨.hbm, 272, rfl⟩
abbrev main_v198 : Ref sig .tc := ⟨.hbm, 273, rfl⟩
abbrev main_v199 : Ref sig .tc := ⟨.hbm, 274, rfl⟩
abbrev main_v200 : Ref sig .tc := ⟨.hbm, 275, rfl⟩
abbrev main_cst_41 : Ref sig .tc := ⟨.hbm, 276, rfl⟩
abbrev main_v201 : Ref sig .tc := ⟨.hbm, 277, rfl⟩
abbrev main_v202 : Ref sig .tc := ⟨.hbm, 278, rfl⟩
abbrev main_v203 : Ref sig .tc := ⟨.hbm, 279, rfl⟩
abbrev main_v204 : Ref sig .tc := ⟨.hbm, 280, rfl⟩
abbrev main_v205 : Ref sig .tc := ⟨.hbm, 281, rfl⟩
abbrev main_v206 : Ref sig .tc := ⟨.hbm, 282, rfl⟩
abbrev main_call3_cst : Ref sig .tc := ⟨.hbm, 283, rfl⟩
abbrev main_call3_v0 : Ref sig .tc := ⟨.hbm, 284, rfl⟩
abbrev main_v207 : Ref sig .tc := ⟨.hbm, 285, rfl⟩
abbrev main_v208 : Ref sig .tc := ⟨.hbm, 286, rfl⟩
abbrev main_v209 : Ref sig .tc := ⟨.hbm, 287, rfl⟩
abbrev main_v210 : Ref sig .tc := ⟨.hbm, 288, rfl⟩
abbrev main_v211 : Ref sig .tc := ⟨.hbm, 289, rfl⟩
abbrev main_cst_42 : Ref sig .tc := ⟨.hbm, 290, rfl⟩
abbrev main_v212 : Ref sig .tc := ⟨.hbm, 291, rfl⟩
abbrev main_v213 : Ref sig .tc := ⟨.hbm, 292, rfl⟩
abbrev main_cst_43 : Ref sig .tc := ⟨.hbm, 293, rfl⟩
abbrev main_v214 : Ref sig .tc := ⟨.hbm, 294, rfl⟩
abbrev main_v215 : Ref sig .tc := ⟨.hbm, 295, rfl⟩
abbrev main_v216 : Ref sig .tc := ⟨.hbm, 296, rfl⟩
abbrev main_v217 : Ref sig .tc := ⟨.hbm, 297, rfl⟩
abbrev main_c_44 : Ref sig .tc := ⟨.hbm, 298, rfl⟩
abbrev main_v218 : Ref sig .tc := ⟨.hbm, 299, rfl⟩
abbrev main_v219 : Ref sig .tc := ⟨.hbm, 300, rfl⟩
abbrev main_c_45 : Ref sig .tc := ⟨.hbm, 301, rfl⟩
abbrev main_v220 : Ref sig .tc := ⟨.hbm, 302, rfl⟩
abbrev main_v221 : Ref sig .tc := ⟨.hbm, 303, rfl⟩
abbrev main_v222 : Ref sig .tc := ⟨.hbm, 304, rfl⟩
abbrev main_v223 : Ref sig .tc := ⟨.hbm, 305, rfl⟩
abbrev main_v224 : Ref sig .tc := ⟨.hbm, 306, rfl⟩
abbrev main_v225 : Ref sig .tc := ⟨.hbm, 307, rfl⟩
abbrev main_c_46 : Ref sig .tc := ⟨.hbm, 308, rfl⟩
abbrev main_v226 : Ref sig .tc := ⟨.hbm, 309, rfl⟩
abbrev main_v227 : Ref sig .tc := ⟨.hbm, 310, rfl⟩
abbrev main_c_47 : Ref sig .tc := ⟨.hbm, 311, rfl⟩
abbrev main_v228 : Ref sig .tc := ⟨.hbm, 312, rfl⟩
abbrev main_v229 : Ref sig .tc := ⟨.hbm, 313, rfl⟩
abbrev main_v230 : Ref sig .tc := ⟨.hbm, 314, rfl⟩
abbrev main_v231 : Ref sig .tc := ⟨.hbm, 315, rfl⟩
abbrev main_v232 : Ref sig .tc := ⟨.hbm, 316, rfl⟩
abbrev main_v233 : Ref sig .tc := ⟨.hbm, 317, rfl⟩
abbrev main_c_48 : Ref sig .tc := ⟨.hbm, 318, rfl⟩
abbrev main_v234 : Ref sig .tc := ⟨.hbm, 319, rfl⟩
abbrev main_v235 : Ref sig .tc := ⟨.hbm, 320, rfl⟩
abbrev main_c_49 : Ref sig .tc := ⟨.hbm, 321, rfl⟩
abbrev main_v236 : Ref sig .tc := ⟨.hbm, 322, rfl⟩
abbrev main_v237 : Ref sig .tc := ⟨.hbm, 323, rfl⟩
abbrev main_v238 : Ref sig .tc := ⟨.hbm, 324, rfl⟩
abbrev main_v239 : Ref sig .tc := ⟨.hbm, 325, rfl⟩
abbrev main_v240 : Ref sig .tc := ⟨.hbm, 326, rfl⟩
abbrev main_v241 : Ref sig .tc := ⟨.hbm, 327, rfl⟩
abbrev main_v242 : Ref sig .tc := ⟨.hbm, 328, rfl⟩
abbrev main_v243 : Ref sig .tc := ⟨.hbm, 329, rfl⟩
abbrev main_cst_50 : Ref sig .tc := ⟨.hbm, 330, rfl⟩
abbrev main_v244 : Ref sig .tc := ⟨.hbm, 331, rfl⟩
abbrev main_v245 : Ref sig .tc := ⟨.hbm, 332, rfl⟩
abbrev main_v246 : Ref sig .tc := ⟨.hbm, 333, rfl⟩
abbrev main_v247 : Ref sig .tc := ⟨.hbm, 334, rfl⟩
abbrev main_v248 : Ref sig .tc := ⟨.hbm, 335, rfl⟩
abbrev main_v249 : Ref sig .tc := ⟨.hbm, 336, rfl⟩
abbrev main_call4_cst : Ref sig .tc := ⟨.hbm, 337, rfl⟩
abbrev main_call4_v0 : Ref sig .tc := ⟨.hbm, 338, rfl⟩
abbrev main_v250 : Ref sig .tc := ⟨.hbm, 339, rfl⟩
abbrev main_v251 : Ref sig .tc := ⟨.hbm, 340, rfl⟩
abbrev main_v252 : Ref sig .tc := ⟨.hbm, 341, rfl⟩
abbrev main_v253 : Ref sig .tc := ⟨.hbm, 342, rfl⟩
abbrev main_v254 : Ref sig .tc := ⟨.hbm, 343, rfl⟩
abbrev main_cst_51 : Ref sig .tc := ⟨.hbm, 344, rfl⟩
abbrev main_v255 : Ref sig .tc := ⟨.hbm, 345, rfl⟩
abbrev main_v256 : Ref sig .tc := ⟨.hbm, 346, rfl⟩
abbrev main_cst_52 : Ref sig .tc := ⟨.hbm, 347, rfl⟩
abbrev main_v257 : Ref sig .tc := ⟨.hbm, 348, rfl⟩
abbrev main_v258 : Ref sig .tc := ⟨.hbm, 349, rfl⟩
abbrev main_v259 : Ref sig .tc := ⟨.hbm, 350, rfl⟩
abbrev main_v260 : Ref sig .tc := ⟨.hbm, 351, rfl⟩
abbrev main_c_53 : Ref sig .tc := ⟨.hbm, 352, rfl⟩
abbrev main_v261 : Ref sig .tc := ⟨.hbm, 353, rfl⟩
abbrev main_v262 : Ref sig .tc := ⟨.hbm, 354, rfl⟩
abbrev main_c_54 : Ref sig .tc := ⟨.hbm, 355, rfl⟩
abbrev main_v263 : Ref sig .tc := ⟨.hbm, 356, rfl⟩
abbrev main_v264 : Ref sig .tc := ⟨.hbm, 357, rfl⟩
abbrev main_v265 : Ref sig .tc := ⟨.hbm, 358, rfl⟩
abbrev main_v266 : Ref sig .tc := ⟨.hbm, 359, rfl⟩
abbrev main_v267 : Ref sig .tc := ⟨.hbm, 360, rfl⟩
abbrev main_v268 : Ref sig .tc := ⟨.hbm, 361, rfl⟩
abbrev main_c_55 : Ref sig .tc := ⟨.hbm, 362, rfl⟩
abbrev main_v269 : Ref sig .tc := ⟨.hbm, 363, rfl⟩
abbrev main_v270 : Ref sig .tc := ⟨.hbm, 364, rfl⟩
abbrev main_c_56 : Ref sig .tc := ⟨.hbm, 365, rfl⟩
abbrev main_v271 : Ref sig .tc := ⟨.hbm, 366, rfl⟩
abbrev main_v272 : Ref sig .tc := ⟨.hbm, 367, rfl⟩
abbrev main_v273 : Ref sig .tc := ⟨.hbm, 368, rfl⟩
abbrev main_v274 : Ref sig .tc := ⟨.hbm, 369, rfl⟩
abbrev main_v275 : Ref sig .tc := ⟨.hbm, 370, rfl⟩
abbrev main_v276 : Ref sig .tc := ⟨.hbm, 371, rfl⟩
abbrev main_c_57 : Ref sig .tc := ⟨.hbm, 372, rfl⟩
abbrev main_v277 : Ref sig .tc := ⟨.hbm, 373, rfl⟩
abbrev main_v278 : Ref sig .tc := ⟨.hbm, 374, rfl⟩
abbrev main_c_58 : Ref sig .tc := ⟨.hbm, 375, rfl⟩
abbrev main_v279 : Ref sig .tc := ⟨.hbm, 376, rfl⟩
abbrev main_v280 : Ref sig .tc := ⟨.hbm, 377, rfl⟩
abbrev main_v281 : Ref sig .tc := ⟨.hbm, 378, rfl⟩
abbrev main_v282 : Ref sig .tc := ⟨.hbm, 379, rfl⟩
abbrev main_v283 : Ref sig .tc := ⟨.hbm, 380, rfl⟩
abbrev main_v284 : Ref sig .tc := ⟨.hbm, 381, rfl⟩
abbrev main_v285 : Ref sig .tc := ⟨.hbm, 382, rfl⟩
abbrev main_v286 : Ref sig .tc := ⟨.hbm, 383, rfl⟩
abbrev main_cst_59 : Ref sig .tc := ⟨.hbm, 384, rfl⟩
abbrev main_v287 : Ref sig .tc := ⟨.hbm, 385, rfl⟩
abbrev main_v288 : Ref sig .tc := ⟨.hbm, 386, rfl⟩
abbrev main_v289 : Ref sig .tc := ⟨.hbm, 387, rfl⟩
abbrev main_v290 : Ref sig .tc := ⟨.hbm, 388, rfl⟩
abbrev main_v291 : Ref sig .tc := ⟨.hbm, 389, rfl⟩
abbrev main_v292 : Ref sig .tc := ⟨.hbm, 390, rfl⟩
abbrev main_call5_cst : Ref sig .tc := ⟨.hbm, 391, rfl⟩
abbrev main_call5_v0 : Ref sig .tc := ⟨.hbm, 392, rfl⟩
abbrev main_v293 : Ref sig .tc := ⟨.hbm, 393, rfl⟩
abbrev main_v294 : Ref sig .tc := ⟨.hbm, 394, rfl⟩
abbrev main_v295 : Ref sig .tc := ⟨.hbm, 395, rfl⟩
abbrev main_v296 : Ref sig .tc := ⟨.hbm, 396, rfl⟩
abbrev main_v297 : Ref sig .tc := ⟨.hbm, 397, rfl⟩
abbrev main_v298 : Ref sig .tc := ⟨.hbm, 398, rfl⟩
abbrev main_v299 : Ref sig .tc := ⟨.hbm, 399, rfl⟩
abbrev main_v300 : Ref sig .tc := ⟨.hbm, 400, rfl⟩
abbrev main_v301 : Ref sig .tc := ⟨.hbm, 401, rfl⟩
abbrev main_v302 : Ref sig .tc := ⟨.hbm, 402, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg7_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg2_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem7_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem2_1 : DmaSem sig := 25

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1000x32 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x32 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x32 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S1000x32 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨2, ![10, 8], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1280x32 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1000x1280 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S320000 : S_.BroadcastsInDim S320000 (![] : Fin 0 → Fin S320000.rank)
  bcast_S320000_S320000x1_0 : S320000.BroadcastsInDim S320000x1 (![0] : Fin 1 → Fin S320000x1.rank)
  concatenates_S320000x1_S320000x1_S320000x2_d1 : Shape.Concatenates [S320000x1, S320000x1] S320000x2 1
  concatenates_S320000_S10000_S330000_d0 : Shape.Concatenates [S320000, S10000] S330000 0
  bcast_S_S10000 : S_.BroadcastsInDim S10000 (![] : Fin 0 → Fin S10000.rank)
  bcast_S330000_S330000x1_0 : S330000.BroadcastsInDim S330000x1 (![0] : Fin 1 → Fin S330000x1.rank)
  bcast_S_S330000 : S_.BroadcastsInDim S330000 (![] : Fin 0 → Fin S330000.rank)
  bcast_S330000x1_S330000x128_0_1 : S330000x1.BroadcastsInDim S330000x128 (![0, 1] : Fin 2 → Fin S330000x128.rank)
  bcast_S_S10000x128 : S_.BroadcastsInDim S10000x128 (![] : Fin 0 → Fin S10000x128.rank)
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  shapeCasts_S128_S1x128 : S128.ShapeCasts S1x128
  shapeCasts_S64_S1x64 : S64.ShapeCasts S1x64
  shapeCasts_S32_S1x32 : S32.ShapeCasts S1x32
  inb_S1000x128_S1000x128_0_0 : ∀ a, (![0, 0] : Fin 2 → Nat) a + S1000x128.size a ≤ S1000x128.size a
  h_S1000x128 : 0 < S1000x128.numel
  shapeCasts_S1000x128_S1000x128 : S1000x128.ShapeCasts S1000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1000x128 : S1x128.Broadcasts S1000x128
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S1000x64 : S1x64.Broadcasts S1000x64
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S1000x32 : S1x32.Broadcasts S1000x32
  inb_S1000x32_S1000x32_0_0 : ∀ a, (![0, 0] : Fin 2 → Nat) a + S1000x32.size a ≤ S1000x32.size a
  h_S1000x32 : 0 < S1000x32.numel
  shapeCasts_S1000x32_S1000x32 : S1000x32.ShapeCasts S1000x32
  inb_S1280x32_S1280x32_0_0 : ∀ a, (![0, 0] : Fin 2 → Nat) a + S1280x32.size a ≤ S1280x32.size a
  h_S1280x32 : 0 < S1280x32.numel
  shapeCasts_S1280x32_S1280x32 : S1280x32.ShapeCasts S1280x32
  transposes_S1280x32_p1_0_S32x1280 : S1280x32.Transposes [1, 0] S32x1280
  inb_S1000x1280_S1000x1280_0_0 : ∀ a, (![0, 0] : Fin 2 → Nat) a + S1000x1280.size a ≤ S1000x1280.size a
  h_S1000x1280 : 0 < S1000x1280.numel
  gather_S10000x10000_S320000x2_S320000_n_01_n_n_01_1_11_wf : GatherDims.WF S10000x10000 S320000x2 S320000 [] [0, 1] [] [0, 1] [] 1 ![1, 1]
  dot_S10000x128_S128x128_S10000x128_1_0_0_1_n_n_wf : DotDims.WF S10000x128 S128x128 S10000x128 [1] [0] [0] [1] [] []
  scatter_S10000_S330000x1_S330000_n_0_0_1_wf : ScatterDims.WF S10000 S330000x1 S330000 [] [0] [0] 1
  gather_S10000_S330000x1_S330000_n_0_n_n_0_1_1_wf : GatherDims.WF S10000 S330000x1 S330000 [] [0] [] [0] [] 1 ![1]
  gather_S10000x128_S330000x1_S330000x128_1_0_n_n_0_1_1128_wf : GatherDims.WF S10000x128 S330000x1 S330000x128 [1] [0] [] [0] [] 1 ![1, 128]
  scatter_S10000x128_S330000x1_S330000x128_1_0_0_1_wf : ScatterDims.WF S10000x128 S330000x1 S330000x128 [1] [0] [0] 1
  dot_S1000x128_S128x128_S1000x128_1_0_0_1_n_n_wf : DotDims.WF S1000x128 S128x128 S1000x128 [1] [0] [0] [1] [] []
  dot_S1000x128_S128x64_S1000x64_1_0_0_1_n_n_wf : DotDims.WF S1000x128 S128x64 S1000x64 [1] [0] [0] [1] [] []
  dot_S1000x64_S64x32_S1000x32_1_0_0_1_n_n_wf : DotDims.WF S1000x64 S64x32 S1000x32 [1] [0] [0] [1] [] []
  dot_S1000x32_S32x1280_S1000x1280_1_0_0_1_n_n_wf : DotDims.WF S1000x32 S32x1280 S1000x1280 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x128.size a ≤ S10000x128.size a
  hwx0_0 : ∀ i : grid0.Coords, EltTy.bits .f32 = 32 ∨ (Rect.block (s := S10000x128) S1000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x64.size a ≤ S128x64.size a
  hwx0_3 : ∀ i : grid0.Coords, EltTy.bits .f32 = 32 ∨ (Rect.block (s := S128x64) S128x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x32.size a ≤ S64x32.size a
  hwx0_5 : ∀ i : grid0.Coords, EltTy.bits .f32 = 32 ∨ (Rect.block (s := S64x32) S64x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x32.size a ≤ S1x32.size a
  hwx0_6 : ∀ i : grid0.Coords, EltTy.bits .f32 = 32 ∨ (Rect.block (s := S1x32) S1x32.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1000x32.size a ≤ S10000x32.size a
  hwx0_7 : ∀ i : grid0.Coords, EltTy.bits .f32 = 32 ∨ (Rect.block (s := S10000x32) S1000x32.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x128.size a ≤ S10000x128.size a
  hwx1_0 : ∀ i : grid1.Coords, EltTy.bits .f32 = 32 ∨ (Rect.block (s := S10000x128) S1000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .f32 = 32 ∨ (Rect.block (s := S128x64) S128x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x32.size a ≤ S64x32.size a
  hwx1_5 : ∀ i : grid1.Coords, EltTy.bits .f32 = 32 ∨ (Rect.block (s := S64x32) S64x32.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x32.size a ≤ S1x32.size a
  hwx1_6 : ∀ i : grid1.Coords, EltTy.bits .f32 = 32 ∨ (Rect.block (s := S1x32) S1x32.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1000x32.size a ≤ S10000x32.size a
  hwx1_7 : ∀ i : grid1.Coords, EltTy.bits .f32 = 32 ∨ (Rect.block (s := S10000x32) S1000x32.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x32.size a ≤ S10000x32.size a
  hwx2_0 : ∀ i : grid2.Coords, EltTy.bits .f32 = 32 ∨ (Rect.block (s := S10000x32) S1000x32.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hstart2_1 : ∀ (i : grid2.Coords) a, cc2_transform_1 i a * S1280x32.size a < S10000x32.size a
  hwx2_1 : ∀ i : grid2.Coords, EltTy.bits .f32 = 32 ∨ (Rect.unit (s := S10000x32) (fun a => cc2_transform_1 i a * S1280x32.size a) (fun a => (Pipeline.Clip.of (cc2_transform_1 i a) (S1280x32.size a) (S10000x32.size a)).extent (S1280x32.size a)) fun a => Pipeline.Clip.inb (Pipeline.Clip.ok_of (hstart2_1 i a))).WholeWords (EltTy.packing .f32)
  hwxs2_1 : ∀ i : grid2.Coords, EltTy.bits .f32 = 32 ∨ (Rect.unit (s := S1280x32) (fun _ => 0) (fun a => (Pipeline.Clip.of (cc2_transform_1 i a) (S1280x32.size a) (S10000x32.size a)).extent (S1280x32.size a)) fun a => (Nat.zero_add _).trans_le (Pipeline.Clip.extent_le (Pipeline.Clip.ok_of (hstart2_1 i a)))).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hstart2_2 : ∀ (i : grid2.Coords) a, cc2_transform_2 i a * S1000x1280.size a < S10000x10000.size a
  hwx2_2 : ∀ i : grid2.Coords, EltTy.bits .f32 = 32 ∨ (Rect.unit (s := S10000x10000) (fun a => cc2_transform_2 i a * S1000x1280.size a) (fun a => (Pipeline.Clip.of (cc2_transform_2 i a) (S1000x1280.size a) (S10000x10000.size a)).extent (S1000x1280.size a)) fun a => Pipeline.Clip.inb (Pipeline.Clip.ok_of (hstart2_2 i a))).WholeWords (EltTy.packing .f32)
  hwxs2_2 : ∀ i : grid2.Coords, EltTy.bits .f32 = 32 ∨ (Rect.unit (s := S1000x1280) (fun _ => 0) (fun a => (Pipeline.Clip.of (cc2_transform_2 i a) (S1000x1280.size a) (S10000x10000.size a)).extent (S1000x1280.size a)) fun a => (Nat.zero_add _).trans_le (Pipeline.Clip.extent_le (Pipeline.Clip.ok_of (hstart2_2 i a)))).WholeWords (EltTy.packing .f32)

variable [Facts₀]

def gather_S10000x10000_S320000x2_S320000_n_01_n_n_01_1_11 : GatherDims S10000x10000 S320000x2 S320000 where
  offsetDims := []
  collapsedSliceDims := [0, 1]
  operandBatchingDims := []
  startIndicesBatchingDims := []
  startIndexMap := [0, 1]
  indexVectorDim := 1
  sliceSizes := ![1, 1]
  wf := gather_S10000x10000_S320000x2_S320000_n_01_n_n_01_1_11_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def scatter_S10000_S330000x1_S330000_n_0_0_1 : ScatterDims S10000 S330000x1 S330000 where
  updateWindowDims := []
  insertedWindowDims := [0]
  scatterDimsToOperandDims := [0]
  indexVectorDim := 1
  wf := scatter_S10000_S330000x1_S330000_n_0_0_1_wf
def gather_S10000_S330000x1_S330000_n_0_n_n_0_1_1 : GatherDims S10000 S330000x1 S330000 where
  offsetDims := []
  collapsedSliceDims := [0]
  operandBatchingDims := []
  startIndicesBatchingDims := []
  startIndexMap := [0]
  indexVectorDim := 1
  sliceSizes := ![1]
  wf := gather_S10000_S330000x1_S330000_n_0_n_n_0_1_1_wf
def gather_S10000x128_S330000x1_S330000x128_1_0_n_n_0_1_1128 : GatherDims S10000x128 S330000x1 S330000x128 where
  offsetDims := [1]
  collapsedSliceDims := [0]
  operandBatchingDims := []
  startIndicesBatchingDims := []
  startIndexMap := [0]
  indexVectorDim := 1
  sliceSizes := ![1, 128]
  wf := gather_S10000x128_S330000x1_S330000x128_1_0_n_n_0_1_1128_wf
def scatter_S10000x128_S330000x1_S330000x128_1_0_0_1 : ScatterDims S10000x128 S330000x1 S330000x128 where
  updateWindowDims := [1]
  insertedWindowDims := [0]
  scatterDimsToOperandDims := [0]
  indexVectorDim := 1
  wf := scatter_S10000x128_S330000x1_S330000x128_1_0_0_1_wf
def dot_S1000x128_S128x128_S1000x128_1_0_0_1_n_n : DotDims S1000x128 S128x128 S1000x128 where
  lhsContracting := [1]
  rhsContracting := [0]
  lhsNonContracting := [0]
  rhsNonContracting := [1]
  lhsBatch := []
  rhsBatch := []
  wf := dot_S1000x128_S128x128_S1000x128_1_0_0_1_n_n_wf
def dot_S1000x128_S128x64_S1000x64_1_0_0_1_n_n : DotDims S1000x128 S128x64 S1000x64 where
  lhsContracting := [1]
  rhsContracting := [0]
  lhsNonContracting := [0]
  rhsNonContracting := [1]
  lhsBatch := []
  rhsBatch := []
  wf := dot_S1000x128_S128x64_S1000x64_1_0_0_1_n_n_wf
def dot_S1000x64_S64x32_S1000x32_1_0_0_1_n_n : DotDims S1000x64 S64x32 S1000x32 where
  lhsContracting := [1]
  rhsContracting := [0]
  lhsNonContracting := [0]
  rhsNonContracting := [1]
  lhsBatch := []
  rhsBatch := []
  wf := dot_S1000x64_S64x32_S1000x32_1_0_0_1_n_n_wf
def dot_S1000x32_S32x1280_S1000x1280_1_0_0_1_n_n : DotDims S1000x32 S32x1280 S1000x1280 where
  lhsContracting := [1]
  rhsContracting := [0]
  lhsNonContracting := [0]
  rhsNonContracting := [1]
  lhsBatch := []
  rhsBatch := []
  wf := dot_S1000x32_S32x1280_S1000x1280_1_0_0_1_n_n_wf

abbrev win0_0 : Pipeline.Window sig grid0 :=
  Pipeline.Window.ofSpec (Memref.whole main_v164) S1000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg14) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v294) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg16) S128x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v295) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg18) S64x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v296) S1x32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v297) S1000x32.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v293) S1000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg20) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v298) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg22) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v299) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg24) S64x32.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v300) S1x32.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v301) S1000x32.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v297) S1000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpecClip (Memref.whole main_v301) S1280x32.size cc2_transform_1 reads2_1 false false 2 stage2_1 sem2_1
    hrank2 hreads2_1 hstart2_1 nbuf2_1 (Memref.isWhole_whole _) hwx2_1 hwxs2_1 hstage2_1

abbrev win2_2 : Pipeline.Window sig grid2 :=
  Pipeline.Window.ofSpecClip (Memref.whole main_v302) S1000x1280.size cc2_transform_2 reads2_2 true false 2 stage2_2 sem2_2
    hrank2 hreads2_2 hstart2_2 nbuf2_2 (Memref.isWhole_whole _) hwx2_2 hwxs2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S2x320000 : Shape := ⟨2, ![2, 320000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S1x320000 : Shape := ⟨2, ![1, 320000]⟩
abbrev S320000 : Shape := ⟨1, ![320000]⟩
abbrev S_ : Shape := ⟨0, ![]⟩
abbrev S320000x1 : Shape := ⟨2, ![320000, 1]⟩
abbrev S320000x2 : Shape := ⟨2, ![320000, 2]⟩
abbrev S10000 : Shape := ⟨1, ![10000]⟩
abbrev S330000 : Shape := ⟨1, ![330000]⟩
abbrev S330000x1 : Shape := ⟨2, ![330000, 1]⟩
abbrev S330000x128 : Shape := ⟨2, ![330000, 128]⟩
abbrev S1x128 : Shape := ⟨2, ![1, 128]⟩
abbrev S10000x64 : Shape := ⟨2, ![10000, 64]⟩
abbrev S1x64 : Shape := ⟨2, ![1, 64]⟩
abbrev S10000x32 : Shape := ⟨2, ![10000, 32]⟩
abbrev S1x32 : Shape := ⟨2, ![1, 32]⟩
abbrev S32x10000 : Shape := ⟨2, ![32, 10000]⟩

abbrev nBuf : Space → Nat
  | .hbm => 438
  | .vmem => 0
  | .smem => 0
  | _ => 0

abbrev hbmTy0_0 (i : Nat) : BufTy := match i % 128 with
  | 0 => ⟨S10000x128, .f32⟩
  | 1 => ⟨S10000x128, .f32⟩
  | 2 => ⟨S10000x10000, .f32⟩
  | 3 => ⟨S10000x10000, .f32⟩
  | 4 => ⟨S2x320000, .i32⟩
  | 5 => ⟨S2x320000, .i32⟩
  | 6 => ⟨S128x128, .f32⟩
  | 7 => ⟨S128, .f32⟩
  | 8 => ⟨S128x128, .f32⟩
  | 9 => ⟨S128, .f32⟩
  | 10 => ⟨S128x128, .f32⟩
  | 11 => ⟨S128, .f32⟩
  | 12 => ⟨S128x128, .f32⟩
  | 13 => ⟨S128, .f32⟩
  | 14 => ⟨S128x128, .f32⟩
  | 15 => ⟨S128, .f32⟩
  | 16 => ⟨S128x64, .f32⟩
  | 17 => ⟨S64, .f32⟩
  | 18 => ⟨S64x32, .f32⟩
  | 19 => ⟨S32, .f32⟩
  | 20 => ⟨S128x128, .f32⟩
  | 21 => ⟨S128, .f32⟩
  | 22 => ⟨S128x64, .f32⟩
  | 23 => ⟨S64, .f32⟩
  | 24 => ⟨S64x32, .f32⟩
  | 25 => ⟨S32, .f32⟩
  | 26 => ⟨S1x320000, .i32⟩
  | 27 => ⟨S320000, .i32⟩
  | 28 => ⟨S1x320000, .i32⟩
  | 29 => ⟨S320000, .i32⟩
  | 30 => ⟨S1x320000, .i32⟩
  | 31 => ⟨S320000, .i32⟩
  | 32 => ⟨S1x320000, .i32⟩
  | 33 => ⟨S320000, .i32⟩
  | 34 => ⟨S_, .i32⟩
  | 35 => ⟨S320000, .i32⟩
  | 36 => ⟨S320000, .i1⟩
  | 37 => ⟨S_, .i32⟩
  | 38 => ⟨S320000, .i32⟩
  | 39 => ⟨S320000, .i32⟩
  | 40 => ⟨S320000, .i32⟩
  | 41 => ⟨S_, .i32⟩
  | 42 => ⟨S320000, .i32⟩
  | 43 => ⟨S320000, .i1⟩
  | 44 => ⟨S_, .i32⟩
  | 45 => ⟨S320000, .i32⟩
  | 46 => ⟨S320000, .i32⟩
  | 47 => ⟨S320000, .i32⟩
  | 48 => ⟨S320000x1, .i32⟩
  | 49 => ⟨S320000x1, .i32⟩
  | 50 => ⟨S320000x2, .i32⟩
  | 51 => ⟨S320000, .f32⟩
  | 52 => ⟨S_, .i32⟩
  | 53 => ⟨S320000, .i32⟩
  | 54 => ⟨S320000, .i1⟩
  | 55 => ⟨S_, .i32⟩
  | 56 => ⟨S320000, .i32⟩
  | 57 => ⟨S320000, .i32⟩
  | 58 => ⟨S320000, .i32⟩
  | 59 => ⟨S_, .i32⟩
  | 60 => ⟨S320000, .i32⟩
  | 61 => ⟨S320000, .i1⟩
  | 62 => ⟨S_, .i32⟩
  | 63 => ⟨S320000, .i32⟩
  | 64 => ⟨S320000, .i32⟩
  | 65 => ⟨S320000, .i32⟩
  | 66 => ⟨S320000x1, .i32⟩
  | 67 => ⟨S320000x1, .i32⟩
  | 68 => ⟨S320000x2, .i32⟩
  | 69 => ⟨S320000, .f32⟩
  | 70 => ⟨S10000x128, .f32⟩
  | 71 => ⟨S10000, .i32⟩
  | 72 => ⟨S330000, .i32⟩
  | 73 => ⟨S330000, .i32⟩
  | 74 => ⟨S_, .f32⟩
  | 75 => ⟨S10000, .f32⟩
  | 76 => ⟨S330000, .f32⟩
  | 77 => ⟨S_, .f32⟩
  | 78 => ⟨S10000, .f32⟩
  | 79 => ⟨S330000x1, .i32⟩
  | 80 => ⟨S10000, .f32⟩
  | 81 => ⟨S10000, .f32⟩
  | 82 => ⟨S_, .i32⟩
  | 83 => ⟨S330000, .i32⟩
  | 84 => ⟨S330000, .i1⟩
  | 85 => ⟨S_, .i32⟩
  | 86 => ⟨S330000, .i32⟩
  | 87 => ⟨S330000, .i32⟩
  | 88 => ⟨S330000, .i32⟩
  | 89 => ⟨S330000x1, .i32⟩
  | 90 => ⟨S330000, .f32⟩
  | 91 => ⟨S330000, .f32⟩
  | 92 => ⟨S_, .i32⟩
  | 93 => ⟨S330000, .i32⟩
  | 94 => ⟨S330000, .i1⟩
  | 95 => ⟨S_, .i32⟩
  | 96 => ⟨S330000, .i32⟩
  | 97 => ⟨S330000, .i32⟩
  | 98 => ⟨S330000, .i32⟩
  | 99 => ⟨S330000x1, .i32⟩
  | 100 => ⟨S330000, .f32⟩
  | 101 => ⟨S330000, .f32⟩
  | 102 => ⟨S_, .i32⟩
  | 103 => ⟨S330000, .i32⟩
  | 104 => ⟨S330000, .i1⟩
  | 105 => ⟨S_, .i32⟩
  | 106 => ⟨S330000, .i32⟩
  | 107 => ⟨S330000, .i32⟩
  | 108 => ⟨S330000, .i32⟩
  | 109 => ⟨S330000x1, .i32⟩
  | 110 => ⟨S330000x128, .f32⟩
  | 111 => ⟨S330000x1, .f32⟩
  | 112 => ⟨S330000x128, .f32⟩
  | 113 => ⟨S330000x128, .f32⟩
  | 114 => ⟨S_, .f32⟩
  | 115 => ⟨S10000x128, .f32⟩
  | 116 => ⟨S330000x1, .i32⟩
  | 117 => ⟨S10000x128, .f32⟩
  | 118 => ⟨S1x128, .f32⟩
  | 119 => ⟨S10000x128, .f32⟩
  | 120 => ⟨S10000x128, .f32⟩
  | 121 => ⟨S_, .f32⟩
  | 122 => ⟨S10000x128, .f32⟩
  | 123 => ⟨S10000x128, .f32⟩
  | 124 => ⟨S10000x128, .f32⟩
  | 125 => ⟨S10000, .i32⟩
  | 126 => ⟨S330000, .i32⟩
  | 127 => ⟨S330000, .i32⟩
  | _ => ⟨S10000x128, .f32⟩

abbrev hbmTy0_1 (i : Nat) : BufTy := match i % 128 with
  | 0 => ⟨S_, .f32⟩
  | 1 => ⟨S10000, .f32⟩
  | 2 => ⟨S330000, .f32⟩
  | 3 => ⟨S_, .f32⟩
  | 4 => ⟨S10000, .f32⟩
  | 5 => ⟨S330000x1, .i32⟩
  | 6 => ⟨S10000, .f32⟩
  | 7 => ⟨S10000, .f32⟩
  | 8 => ⟨S_, .i32⟩
  | 9 => ⟨S330000, .i32⟩
  | 10 => ⟨S330000, .i1⟩
  | 11 => ⟨S_, .i32⟩
  | 12 => ⟨S330000, .i32⟩
  | 13 => ⟨S330000, .i32⟩
  | 14 => ⟨S330000, .i32⟩
  | 15 => ⟨S330000x1, .i32⟩
  | 16 => ⟨S330000, .f32⟩
  | 17 => ⟨S330000, .f32⟩
  | 18 => ⟨S_, .i32⟩
  | 19 => ⟨S330000, .i32⟩
  | 20 => ⟨S330000, .i1⟩
  | 21 => ⟨S_, .i32⟩
  | 22 => ⟨S330000, .i32⟩
  | 23 => ⟨S330000, .i32⟩
  | 24 => ⟨S330000, .i32⟩
  | 25 => ⟨S330000x1, .i32⟩
  | 26 => ⟨S330000, .f32⟩
  | 27 => ⟨S330000, .f32⟩
  | 28 => ⟨S_, .i32⟩
  | 29 => ⟨S330000, .i32⟩
  | 30 => ⟨S330000, .i1⟩
  | 31 => ⟨S_, .i32⟩
  | 32 => ⟨S330000, .i32⟩
  | 33 => ⟨S330000, .i32⟩
  | 34 => ⟨S330000, .i32⟩
  | 35 => ⟨S330000x1, .i32⟩
  | 36 => ⟨S330000x128, .f32⟩
  | 37 => ⟨S330000x1, .f32⟩
  | 38 => ⟨S330000x128, .f32⟩
  | 39 => ⟨S330000x128, .f32⟩
  | 40 => ⟨S_, .f32⟩
  | 41 => ⟨S10000x128, .f32⟩
  | 42 => ⟨S330000x1, .i32⟩
  | 43 => ⟨S10000x128, .f32⟩
  | 44 => ⟨S1x128, .f32⟩
  | 45 => ⟨S10000x128, .f32⟩
  | 46 => ⟨S10000x128, .f32⟩
  | 47 => ⟨S_, .f32⟩
  | 48 => ⟨S10000x128, .f32⟩
  | 49 => ⟨S10000x128, .f32⟩
  | 50 => ⟨S10000x128, .f32⟩
  | 51 => ⟨S10000, .i32⟩
  | 52 => ⟨S330000, .i32⟩
  | 53 => ⟨S330000, .i32⟩
  | 54 => ⟨S_, .f32⟩
  | 55 => ⟨S10000, .f32⟩
  | 56 => ⟨S330000, .f32⟩
  | 57 => ⟨S_, .f32⟩
  | 58 => ⟨S10000, .f32⟩
  | 59 => ⟨S330000x1, .i32⟩
  | 60 => ⟨S10000, .f32⟩
  | 61 => ⟨S10000, .f32⟩
  | 62 => ⟨S_, .i32⟩
  | 63 => ⟨S330000, .i32⟩
  | 64 => ⟨S330000, .i1⟩
  | 65 => ⟨S_, .i32⟩
  | 66 => ⟨S330000, .i32⟩
  | 67 => ⟨S330000, .i32⟩
  | 68 => ⟨S330000, .i32⟩
  | 69 => ⟨S330000x1, .i32⟩
  | 70 => ⟨S330000, .f32⟩
  | 71 => ⟨S330000, .f32⟩
  | 72 => ⟨S_, .i32⟩
  | 73 => ⟨S330000, .i32⟩
  | 74 => ⟨S330000, .i1⟩
  | 75 => ⟨S_, .i32⟩
  | 76 => ⟨S330000, .i32⟩
  | 77 => ⟨S330000, .i32⟩
  | 78 => ⟨S330000, .i32⟩
  | 79 => ⟨S330000x1, .i32⟩
  | 80 => ⟨S330000, .f32⟩
  | 81 => ⟨S330000, .f32⟩
  | 82 => ⟨S_, .i32⟩
  | 83 => ⟨S330000, .i32⟩
  | 84 => ⟨S330000, .i1⟩
  | 85 => ⟨S_, .i32⟩
  | 86 => ⟨S330000, .i32⟩
  | 87 => ⟨S330000, .i32⟩
  | 88 => ⟨S330000, .i32⟩
  | 89 => ⟨S330000x1, .i32⟩
  | 90 => ⟨S330000x128, .f32⟩
  | 91 => ⟨S330000x1, .f32⟩
  | 92 => ⟨S330000x128, .f32⟩
  | 93 => ⟨S330000x128, .f32⟩
  | 94 => ⟨S_, .f32⟩
  | 95 => ⟨S10000x128, .f32⟩
  | 96 => ⟨S330000x1, .i32⟩
  | 97 => ⟨S10000x128, .f32⟩
  | 98 => ⟨S1x128, .f32⟩
  | 99 => ⟨S10000x128, .f32⟩
  | 100 => ⟨S10000x128, .f32⟩
  | 101 => ⟨S_, .f32⟩
  | 102 => ⟨S10000x128, .f32⟩
  | 103 => ⟨S10000x128, .f32⟩
  | 104 => ⟨S10000x128, .f32⟩
  | 105 => ⟨S10000, .i32⟩
  | 106 => ⟨S330000, .i32⟩
  | 107 => ⟨S330000, .i32⟩
  | 108 => ⟨S_, .f32⟩
  | 109 => ⟨S10000, .f32⟩
  | 110 => ⟨S330000, .f32⟩
  | 111 => ⟨S_, .f32⟩
  | 112 => ⟨S10000, .f32⟩
  | 113 => ⟨S330000x1, .i32⟩
  | 114 => ⟨S10000, .f32⟩
  | 115 => ⟨S10000, .f32⟩
  | 116 => ⟨S_, .i32⟩
  | 117 => ⟨S330000, .i32⟩
  | 118 => ⟨S330000, .i1⟩
  | 119 => ⟨S_, .i32⟩
  | 120 => ⟨S330000, .i32⟩
  | 121 => ⟨S330000, .i32⟩
  | 122 => ⟨S330000, .i32⟩
  | 123 => ⟨S330000x1, .i32⟩
  | 124 => ⟨S330000, .f32⟩
  | 125 => ⟨S330000, .f32⟩
  | 126 => ⟨S_, .i32⟩
  | 127 => ⟨S330000, .i32⟩
  | _ => ⟨S10000x128, .f32⟩

abbrev hbmTy0_2 (i : Nat) : BufTy := match i % 128 with
  | 0 => ⟨S330000, .i1⟩
  | 1 => ⟨S_, .i32⟩
  | 2 => ⟨S330000, .i32⟩
  | 3 => ⟨S330000, .i32⟩
  | 4 => ⟨S330000, .i32⟩
  | 5 => ⟨S330000x1, .i32⟩
  | 6 => ⟨S330000, .f32⟩
  | 7 => ⟨S330000, .f32⟩
  | 8 => ⟨S_, .i32⟩
  | 9 => ⟨S330000, .i32⟩
  | 10 => ⟨S330000, .i1⟩
  | 11 => ⟨S_, .i32⟩
  | 12 => ⟨S330000, .i32⟩
  | 13 => ⟨S330000, .i32⟩
  | 14 => ⟨S330000, .i32⟩
  | 15 => ⟨S330000x1, .i32⟩
  | 16 => ⟨S330000x128, .f32⟩
  | 17 => ⟨S330000x1, .f32⟩
  | 18 => ⟨S330000x128, .f32⟩
  | 19 => ⟨S330000x128, .f32⟩
  | 20 => ⟨S_, .f32⟩
  | 21 => ⟨S10000x128, .f32⟩
  | 22 => ⟨S330000x1, .i32⟩
  | 23 => ⟨S10000x128, .f32⟩
  | 24 => ⟨S1x128, .f32⟩
  | 25 => ⟨S10000x128, .f32⟩
  | 26 => ⟨S10000x128, .f32⟩
  | 27 => ⟨S_, .f32⟩
  | 28 => ⟨S10000x128, .f32⟩
  | 29 => ⟨S10000x128, .f32⟩
  | 30 => ⟨S10000x128, .f32⟩
  | 31 => ⟨S10000, .i32⟩
  | 32 => ⟨S330000, .i32⟩
  | 33 => ⟨S330000, .i32⟩
  | 34 => ⟨S_, .f32⟩
  | 35 => ⟨S10000, .f32⟩
  | 36 => ⟨S330000, .f32⟩
  | 37 => ⟨S_, .f32⟩
  | 38 => ⟨S10000, .f32⟩
  | 39 => ⟨S330000x1, .i32⟩
  | 40 => ⟨S10000, .f32⟩
  | 41 => ⟨S10000, .f32⟩
  | 42 => ⟨S_, .i32⟩
  | 43 => ⟨S330000, .i32⟩
  | 44 => ⟨S330000, .i1⟩
  | 45 => ⟨S_, .i32⟩
  | 46 => ⟨S330000, .i32⟩
  | 47 => ⟨S330000, .i32⟩
  | 48 => ⟨S330000, .i32⟩
  | 49 => ⟨S330000x1, .i32⟩
  | 50 => ⟨S330000, .f32⟩
  | 51 => ⟨S330000, .f32⟩
  | 52 => ⟨S_, .i32⟩
  | 53 => ⟨S330000, .i32⟩
  | 54 => ⟨S330000, .i1⟩
  | 55 => ⟨S_, .i32⟩
  | 56 => ⟨S330000, .i32⟩
  | 57 => ⟨S330000, .i32⟩
  | 58 => ⟨S330000, .i32⟩
  | 59 => ⟨S330000x1, .i32⟩
  | 60 => ⟨S330000, .f32⟩
  | 61 => ⟨S330000, .f32⟩
  | 62 => ⟨S_, .i32⟩
  | 63 => ⟨S330000, .i32⟩
  | 64 => ⟨S330000, .i1⟩
  | 65 => ⟨S_, .i32⟩
  | 66 => ⟨S330000, .i32⟩
  | 67 => ⟨S330000, .i32⟩
  | 68 => ⟨S330000, .i32⟩
  | 69 => ⟨S330000x1, .i32⟩
  | 70 => ⟨S330000x128, .f32⟩
  | 71 => ⟨S330000x1, .f32⟩
  | 72 => ⟨S330000x128, .f32⟩
  | 73 => ⟨S330000x128, .f32⟩
  | 74 => ⟨S_, .f32⟩
  | 75 => ⟨S10000x128, .f32⟩
  | 76 => ⟨S330000x1, .i32⟩
  | 77 => ⟨S10000x128, .f32⟩
  | 78 => ⟨S1x128, .f32⟩
  | 79 => ⟨S10000x128, .f32⟩
  | 80 => ⟨S10000x128, .f32⟩
  | 81 => ⟨S_, .f32⟩
  | 82 => ⟨S10000x128, .f32⟩
  | 83 => ⟨S10000x128, .f32⟩
  | 84 => ⟨S10000x128, .f32⟩
  | 85 => ⟨S10000, .i32⟩
  | 86 => ⟨S330000, .i32⟩
  | 87 => ⟨S330000, .i32⟩
  | 88 => ⟨S_, .f32⟩
  | 89 => ⟨S10000, .f32⟩
  | 90 => ⟨S330000, .f32⟩
  | 91 => ⟨S_, .f32⟩
  | 92 => ⟨S10000, .f32⟩
  | 93 => ⟨S330000x1, .i32⟩
  | 94 => ⟨S10000, .f32⟩
  | 95 => ⟨S10000, .f32⟩
  | 96 => ⟨S_, .i32⟩
  | 97 => ⟨S330000, .i32⟩
  | 98 => ⟨S330000, .i1⟩
  | 99 => ⟨S_, .i32⟩
  | 100 => ⟨S330000, .i32⟩
  | 101 => ⟨S330000, .i32⟩
  | 102 => ⟨S330000, .i32⟩
  | 103 => ⟨S330000x1, .i32⟩
  | 104 => ⟨S330000, .f32⟩
  | 105 => ⟨S330000, .f32⟩
  | 106 => ⟨S_, .i32⟩
  | 107 => ⟨S330000, .i32⟩
  | 108 => ⟨S330000, .i1⟩
  | 109 => ⟨S_, .i32⟩
  | 110 => ⟨S330000, .i32⟩
  | 111 => ⟨S330000, .i32⟩
  | 112 => ⟨S330000, .i32⟩
  | 113 => ⟨S330000x1, .i32⟩
  | 114 => ⟨S330000, .f32⟩
  | 115 => ⟨S330000, .f32⟩
  | 116 => ⟨S_, .i32⟩
  | 117 => ⟨S330000, .i32⟩
  | 118 => ⟨S330000, .i1⟩
  | 119 => ⟨S_, .i32⟩
  | 120 => ⟨S330000, .i32⟩
  | 121 => ⟨S330000, .i32⟩
  | 122 => ⟨S330000, .i32⟩
  | 123 => ⟨S330000x1, .i32⟩
  | 124 => ⟨S330000x128, .f32⟩
  | 125 => ⟨S330000x1, .f32⟩
  | 126 => ⟨S330000x128, .f32⟩
  | 127 => ⟨S330000x128, .f32⟩
  | _ => ⟨S10000x128, .f32⟩

abbrev hbmTy0_3 (i : Nat) : BufTy := match i % 128 with
  | 0 => ⟨S_, .f32⟩
  | 1 => ⟨S10000x128, .f32⟩
  | 2 => ⟨S330000x1, .i32⟩
  | 3 => ⟨S10000x128, .f32⟩
  | 4 => ⟨S1x128, .f32⟩
  | 5 => ⟨S10000x128, .f32⟩
  | 6 => ⟨S10000x128, .f32⟩
  | 7 => ⟨S_, .f32⟩
  | 8 => ⟨S10000x128, .f32⟩
  | 9 => ⟨S10000x128, .f32⟩
  | 10 => ⟨S10000x128, .f32⟩
  | 11 => ⟨S1x128, .f32⟩
  | 12 => ⟨S10000x128, .f32⟩
  | 13 => ⟨S10000x128, .f32⟩
  | 14 => ⟨S_, .f32⟩
  | 15 => ⟨S10000x128, .f32⟩
  | 16 => ⟨S10000x128, .f32⟩
  | 17 => ⟨S10000x64, .f32⟩
  | 18 => ⟨S1x64, .f32⟩
  | 19 => ⟨S10000x64, .f32⟩
  | 20 => ⟨S10000x64, .f32⟩
  | 21 => ⟨S_, .f32⟩
  | 22 => ⟨S10000x64, .f32⟩
  | 23 => ⟨S10000x64, .f32⟩
  | 24 => ⟨S10000x32, .f32⟩
  | 25 => ⟨S1x32, .f32⟩
  | 26 => ⟨S10000x32, .f32⟩
  | 27 => ⟨S10000x32, .f32⟩
  | 28 => ⟨S_, .f32⟩
  | 29 => ⟨S10000x32, .f32⟩
  | 30 => ⟨S10000x32, .f32⟩
  | 31 => ⟨S10000x128, .f32⟩
  | 32 => ⟨S1x128, .f32⟩
  | 33 => ⟨S10000x128, .f32⟩
  | 34 => ⟨S10000x128, .f32⟩
  | 35 => ⟨S_, .f32⟩
  | 36 => ⟨S10000x128, .f32⟩
  | 37 => ⟨S10000x128, .f32⟩
  | 38 => ⟨S10000x64, .f32⟩
  | 39 => ⟨S1x64, .f32⟩
  | 40 => ⟨S10000x64, .f32⟩
  | 41 => ⟨S10000x64, .f32⟩
  | 42 => ⟨S_, .f32⟩
  | 43 => ⟨S10000x64, .f32⟩
  | 44 => ⟨S10000x64, .f32⟩
  | 45 => ⟨S10000x32, .f32⟩
  | 46 => ⟨S1x32, .f32⟩
  | 47 => ⟨S10000x32, .f32⟩
  | 48 => ⟨S10000x32, .f32⟩
  | 49 => ⟨S_, .f32⟩
  | 50 => ⟨S10000x32, .f32⟩
  | 51 => ⟨S10000x32, .f32⟩
  | 52 => ⟨S32x10000, .f32⟩
  | 53 => ⟨S10000x10000, .f32⟩
  | _ => ⟨S10000x128, .f32⟩

abbrev hbmTy (i : Nat) : BufTy := match i / 128 with
  | 0 => hbmTy0_0 i
  | 1 => hbmTy0_1 i
  | 2 => hbmTy0_2 i
  | 3 => hbmTy0_3 i
  | _ => ⟨S10000x128, .f32⟩

abbrev bufTy : (tb : Table) → Fin (tcTables nBuf tb) → BufTy
  | .hbm, ⟨i, _⟩ => hbmTy i
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_c : Ref sig .tc := ⟨.hbm, 34, rfl⟩
abbrev main_v8 : Ref sig .tc := ⟨.hbm, 35, rfl⟩
abbrev main_v9 : Ref sig .tc := ⟨.hbm, 36, rfl⟩
abbrev main_c_0 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_c_1 : Ref sig .tc := ⟨.hbm, 41, rfl⟩
abbrev main_v13 : Ref sig .tc := ⟨.hbm, 42, rfl⟩
abbrev main_v14 : Ref sig .tc := ⟨.hbm, 43, rfl⟩
abbrev main_c_2 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_c_3 : Ref sig .tc := ⟨.hbm, 52, rfl⟩
abbrev main_v22 : Ref sig .tc := ⟨.hbm, 53, rfl⟩
abbrev main_v23 : Ref sig .tc := ⟨.hbm, 54, rfl⟩
abbrev main_c_4 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_c_5 : Ref sig .tc := ⟨.hbm, 59, rfl⟩
abbrev main_v27 : Ref sig .tc := ⟨.hbm, 60, rfl⟩
abbrev main_v28 : Ref sig .tc := ⟨.hbm, 61, rfl⟩
abbrev main_c_6 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_cst : Ref sig .tc := ⟨.hbm, 74, rfl⟩
abbrev main_v40 : Ref sig .tc := ⟨.hbm, 75, rfl⟩
abbrev main_v41 : Ref sig .tc := ⟨.hbm, 76, rfl⟩
abbrev main_cst_7 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_c_8 : Ref sig .tc := ⟨.hbm, 82, rfl⟩
abbrev main_v46 : Ref sig .tc := ⟨.hbm, 83, rfl⟩
abbrev main_v47 : Ref sig .tc := ⟨.hbm, 84, rfl⟩
abbrev main_c_9 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_c_10 : Ref sig .tc := ⟨.hbm, 92, rfl⟩
abbrev main_v54 : Ref sig .tc := ⟨.hbm, 93, rfl⟩
abbrev main_v55 : Ref sig .tc := ⟨.hbm, 94, rfl⟩
abbrev main_c_11 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_c_12 : Ref sig .tc := ⟨.hbm, 102, rfl⟩
abbrev main_v62 : Ref sig .tc := ⟨.hbm, 103, rfl⟩
abbrev main_v63 : Ref sig .tc := ⟨.hbm, 104, rfl⟩
abbrev main_c_13 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_cst_14 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_call0_cst : Ref sig .tc := ⟨.hbm, 121, rfl⟩
abbrev main_call0_v0 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_cst_15 : Ref sig .tc := ⟨.hbm, 128, rfl⟩
abbrev main_v83 : Ref sig .tc := ⟨.hbm, 129, rfl⟩
abbrev main_v84 : Ref sig .tc := ⟨.hbm, 130, rfl⟩
abbrev main_cst_16 : Ref sig .tc := ⟨.hbm, 131, rfl⟩
abbrev main_v85 : Ref sig .tc := ⟨.hbm, 132, rfl⟩
abbrev main_v86 : Ref sig .tc := ⟨.hbm, 133, rfl⟩
abbrev main_v87 : Ref sig .tc := ⟨.hbm, 134, rfl⟩
abbrev main_v88 : Ref sig .tc := ⟨.hbm, 135, rfl⟩
abbrev main_c_17 : Ref sig .tc := ⟨.hbm, 136, rfl⟩
abbrev main_v89 : Ref sig .tc := ⟨.hbm, 137, rfl⟩
abbrev main_v90 : Ref sig .tc := ⟨.hbm, 138, rfl⟩
abbrev main_c_18 : Ref sig .tc := ⟨.hbm, 139, rfl⟩
abbrev main_v91 : Ref sig .tc := ⟨.hbm, 140, rfl⟩
abbrev main_v92 : Ref sig .tc := ⟨.hbm, 141, rfl⟩
abbrev main_v93 : Ref sig .tc := ⟨.hbm, 142, rfl⟩
abbrev main_v94 : Ref sig .tc := ⟨.hbm, 143, rfl⟩
abbrev main_v95 : Ref sig .tc := ⟨.hbm, 144, rfl⟩
abbrev main_v96 : Ref sig .tc := ⟨.hbm, 145, rfl⟩
abbrev main_c_19 : Ref sig .tc := ⟨.hbm, 146, rfl⟩
abbrev main_v97 : Ref sig .tc := ⟨.hbm, 147, rfl⟩
abbrev main_v98 : Ref sig .tc := ⟨.hbm, 148, rfl⟩
abbrev main_c_20 : Ref sig .tc := ⟨.hbm, 149, rfl⟩
abbrev main_v99 : Ref sig .tc := ⟨.hbm, 150, rfl⟩
abbrev main_v100 : Ref sig .tc := ⟨.hbm, 151, rfl⟩
abbrev main_v101 : Ref sig .tc := ⟨.hbm, 152, rfl⟩
abbrev main_v102 : Ref sig .tc := ⟨.hbm, 153, rfl⟩
abbrev main_v103 : Ref sig .tc := ⟨.hbm, 154, rfl⟩
abbrev main_v104 : Ref sig .tc := ⟨.hbm, 155, rfl⟩
abbrev main_c_21 : Ref sig .tc := ⟨.hbm, 156, rfl⟩
abbrev main_v105 : Ref sig .tc := ⟨.hbm, 157, rfl⟩
abbrev main_v106 : Ref sig .tc := ⟨.hbm, 158, rfl⟩
abbrev main_c_22 : Ref sig .tc := ⟨.hbm, 159, rfl⟩
abbrev main_v107 : Ref sig .tc := ⟨.hbm, 160, rfl⟩
abbrev main_v108 : Ref sig .tc := ⟨.hbm, 161, rfl⟩
abbrev main_v109 : Ref sig .tc := ⟨.hbm, 162, rfl⟩
abbrev main_v110 : Ref sig .tc := ⟨.hbm, 163, rfl⟩
abbrev main_v111 : Ref sig .tc := ⟨.hbm, 164, rfl⟩
abbrev main_v112 : Ref sig .tc := ⟨.hbm, 165, rfl⟩
abbrev main_v113 : Ref sig .tc := ⟨.hbm, 166, rfl⟩
abbrev main_v114 : Ref sig .tc := ⟨.hbm, 167, rfl⟩
abbrev main_cst_23 : Ref sig .tc := ⟨.hbm, 168, rfl⟩
abbrev main_v115 : Ref sig .tc := ⟨.hbm, 169, rfl⟩
abbrev main_v116 : Ref sig .tc := ⟨.hbm, 170, rfl⟩
abbrev main_v117 : Ref sig .tc := ⟨.hbm, 171, rfl⟩
abbrev main_v118 : Ref sig .tc := ⟨.hbm, 172, rfl⟩
abbrev main_v119 : Ref sig .tc := ⟨.hbm, 173, rfl⟩
abbrev main_v120 : Ref sig .tc := ⟨.hbm, 174, rfl⟩
abbrev main_call1_cst : Ref sig .tc := ⟨.hbm, 175, rfl⟩
abbrev main_call1_v0 : Ref sig .tc := ⟨.hbm, 176, rfl⟩
abbrev main_v121 : Ref sig .tc := ⟨.hbm, 177, rfl⟩
abbrev main_v122 : Ref sig .tc := ⟨.hbm, 178, rfl⟩
abbrev main_v123 : Ref sig .tc := ⟨.hbm, 179, rfl⟩
abbrev main_v124 : Ref sig .tc := ⟨.hbm, 180, rfl⟩
abbrev main_v125 : Ref sig .tc := ⟨.hbm, 181, rfl⟩
abbrev main_cst_24 : Ref sig .tc := ⟨.hbm, 182, rfl⟩
abbrev main_v126 : Ref sig .tc := ⟨.hbm, 183, rfl⟩
abbrev main_v127 : Ref sig .tc := ⟨.hbm, 184, rfl⟩
abbrev main_cst_25 : Ref sig .tc := ⟨.hbm, 185, rfl⟩
abbrev main_v128 : Ref sig .tc := ⟨.hbm, 186, rfl⟩
abbrev main_v129 : Ref sig .tc := ⟨.hbm, 187, rfl⟩
abbrev main_v130 : Ref sig .tc := ⟨.hbm, 188, rfl⟩
abbrev main_v131 : Ref sig .tc := ⟨.hbm, 189, rfl⟩
abbrev main_c_26 : Ref sig .tc := ⟨.hbm, 190, rfl⟩
abbrev main_v132 : Ref sig .tc := ⟨.hbm, 191, rfl⟩
abbrev main_v133 : Ref sig .tc := ⟨.hbm, 192, rfl⟩
abbrev main_c_27 : Ref sig .tc := ⟨.hbm, 193, rfl⟩
abbrev main_v134 : Ref sig .tc := ⟨.hbm, 194, rfl⟩
abbrev main_v135 : Ref sig .tc := ⟨.hbm, 195, rfl⟩
abbrev main_v136 : Ref sig .tc := ⟨.hbm, 196, rfl⟩
abbrev main_v137 : Ref sig .tc := ⟨.hbm, 197, rfl⟩
abbrev main_v138 : Ref sig .tc := ⟨.hbm, 198, rfl⟩
abbrev main_v139 : Ref sig .tc := ⟨.hbm, 199, rfl⟩
abbrev main_c_28 : Ref sig .tc := ⟨.hbm, 200, rfl⟩
abbrev main_v140 : Ref sig .tc := ⟨.hbm, 201, rfl⟩
abbrev main_v141 : Ref sig .tc := ⟨.hbm, 202, rfl⟩
abbrev main_c_29 : Ref sig .tc := ⟨.hbm, 203, rfl⟩
abbrev main_v142 : Ref sig .tc := ⟨.hbm, 204, rfl⟩
abbrev main_v143 : Ref sig .tc := ⟨.hbm, 205, rfl⟩
abbrev main_v144 : Ref sig .tc := ⟨.hbm, 206, rfl⟩
abbrev main_v145 : Ref sig .tc := ⟨.hbm, 207, rfl⟩
abbrev main_v146 : Ref sig .tc := ⟨.hbm, 208, rfl⟩
abbrev main_v147 : Ref sig .tc := ⟨.hbm, 209, rfl⟩
abbrev main_c_30 : Ref sig .tc := ⟨.hbm, 210, rfl⟩
abbrev main_v148 : Ref sig .tc := ⟨.hbm, 211, rfl⟩
abbrev main_v149 : Ref sig .tc := ⟨.hbm, 212, rfl⟩
abbrev main_c_31 : Ref sig .tc := ⟨.hbm, 213, rfl⟩
abbrev main_v150 : Ref sig .tc := ⟨.hbm, 214, rfl⟩
abbrev main_v151 : Ref sig .tc := ⟨.hbm, 215, rfl⟩
abbrev main_v152 : Ref sig .tc := ⟨.hbm, 216, rfl⟩
abbrev main_v153 : Ref sig .tc := ⟨.hbm, 217, rfl⟩
abbrev main_v154 : Ref sig .tc := ⟨.hbm, 218, rfl⟩
abbrev main_v155 : Ref sig .tc := ⟨.hbm, 219, rfl⟩
abbrev main_v156 : Ref sig .tc := ⟨.hbm, 220, rfl⟩
abbrev main_v157 : Ref sig .tc := ⟨.hbm, 221, rfl⟩
abbrev main_cst_32 : Ref sig .tc := ⟨.hbm, 222, rfl⟩
abbrev main_v158 : Ref sig .tc := ⟨.hbm, 223, rfl⟩
abbrev main_v159 : Ref sig .tc := ⟨.hbm, 224, rfl⟩
abbrev main_v160 : Ref sig .tc := ⟨.hbm, 225, rfl⟩
abbrev main_v161 : Ref sig .tc := ⟨.hbm, 226, rfl⟩
abbrev main_v162 : Ref sig .tc := ⟨.hbm, 227, rfl⟩
abbrev main_v163 : Ref sig .tc := ⟨.hbm, 228, rfl⟩
abbrev main_call2_cst : Ref sig .tc := ⟨.hbm, 229, rfl⟩
abbrev main_call2_v0 : Ref sig .tc := ⟨.hbm, 230, rfl⟩
abbrev main_v164 : Ref sig .tc := ⟨.hbm, 231, rfl⟩
abbrev main_v165 : Ref sig .tc := ⟨.hbm, 232, rfl⟩
abbrev main_v166 : Ref sig .tc := ⟨.hbm, 233, rfl⟩
abbrev main_v167 : Ref sig .tc := ⟨.hbm, 234, rfl⟩
abbrev main_v168 : Ref sig .tc := ⟨.hbm, 235, rfl⟩
abbrev main_cst_33 : Ref sig .tc := ⟨.hbm, 236, rfl⟩
abbrev main_v169 : Ref sig .tc := ⟨.hbm, 237, rfl⟩
abbrev main_v170 : Ref sig .tc := ⟨.hbm, 238, rfl⟩
abbrev main_cst_34 : Ref sig .tc := ⟨.hbm, 239, rfl⟩
abbrev main_v171 : Ref sig .tc := ⟨.hbm, 240, rfl⟩
abbrev main_v172 : Ref sig .tc := ⟨.hbm, 241, rfl⟩
abbrev main_v173 : Ref sig .tc := ⟨.hbm, 242, rfl⟩
abbrev main_v174 : Ref sig .tc := ⟨.hbm, 243, rfl⟩
abbrev main_c_35 : Ref sig .tc := ⟨.hbm, 244, rfl⟩
abbrev main_v175 : Ref sig .tc := ⟨.hbm, 245, rfl⟩
abbrev main_v176 : Ref sig .tc := ⟨.hbm, 246, rfl⟩
abbrev main_c_36 : Ref sig .tc := ⟨.hbm, 247, rfl⟩
abbrev main_v177 : Ref sig .tc := ⟨.hbm, 248, rfl⟩
abbrev main_v178 : Ref sig .tc := ⟨.hbm, 249, rfl⟩
abbrev main_v179 : Ref sig .tc := ⟨.hbm, 250, rfl⟩
abbrev main_v180 : Ref sig .tc := ⟨.hbm, 251, rfl⟩
abbrev main_v181 : Ref sig .tc := ⟨.hbm, 252, rfl⟩
abbrev main_v182 : Ref sig .tc := ⟨.hbm, 253, rfl⟩
abbrev main_c_37 : Ref sig .tc := ⟨.hbm, 254, rfl⟩
abbrev main_v183 : Ref sig .tc := ⟨.hbm, 255, rfl⟩
abbrev main_v184 : Ref sig .tc := ⟨.hbm, 256, rfl⟩
abbrev main_c_38 : Ref sig .tc := ⟨.hbm, 257, rfl⟩
abbrev main_v185 : Ref sig .tc := ⟨.hbm, 258, rfl⟩
abbrev main_v186 : Ref sig .tc := ⟨.hbm, 259, rfl⟩
abbrev main_v187 : Ref sig .tc := ⟨.hbm, 260, rfl⟩
abbrev main_v188 : Ref sig .tc := ⟨.hbm, 261, rfl⟩
abbrev main_v189 : Ref sig .tc := ⟨.hbm, 262, rfl⟩
abbrev main_v190 : Ref sig .tc := ⟨.hbm, 263, rfl⟩
abbrev main_c_39 : Ref sig .tc := ⟨.hbm, 264, rfl⟩
abbrev main_v191 : Ref sig .tc := ⟨.hbm, 265, rfl⟩
abbrev main_v192 : Ref sig .tc := ⟨.hbm, 266, rfl⟩
abbrev main_c_40 : Ref sig .tc := ⟨.hbm, 267, rfl⟩
abbrev main_v193 : Ref sig .tc := ⟨.hbm, 268, rfl⟩
abbrev main_v194 : Ref sig .tc := ⟨.hbm, 269, rfl⟩
abbrev main_v195 : Ref sig .tc := ⟨.hbm, 270, rfl⟩
abbrev main_v196 : Ref sig .tc := ⟨.hbm, 271, rfl⟩
abbrev main_v197 : Ref sig .tc := ⟨.hbm, 272, rfl⟩
abbrev main_v198 : Ref sig .tc := ⟨.hbm, 273, rfl⟩
abbrev main_v199 : Ref sig .tc := ⟨.hbm, 274, rfl⟩
abbrev main_v200 : Ref sig .tc := ⟨.hbm, 275, rfl⟩
abbrev main_cst_41 : Ref sig .tc := ⟨.hbm, 276, rfl⟩
abbrev main_v201 : Ref sig .tc := ⟨.hbm, 277, rfl⟩
abbrev main_v202 : Ref sig .tc := ⟨.hbm, 278, rfl⟩
abbrev main_v203 : Ref sig .tc := ⟨.hbm, 279, rfl⟩
abbrev main_v204 : Ref sig .tc := ⟨.hbm, 280, rfl⟩
abbrev main_v205 : Ref sig .tc := ⟨.hbm, 281, rfl⟩
abbrev main_v206 : Ref sig .tc := ⟨.hbm, 282, rfl⟩
abbrev main_call3_cst : Ref sig .tc := ⟨.hbm, 283, rfl⟩
abbrev main_call3_v0 : Ref sig .tc := ⟨.hbm, 284, rfl⟩
abbrev main_v207 : Ref sig .tc := ⟨.hbm, 285, rfl⟩
abbrev main_v208 : Ref sig .tc := ⟨.hbm, 286, rfl⟩
abbrev main_v209 : Ref sig .tc := ⟨.hbm, 287, rfl⟩
abbrev main_v210 : Ref sig .tc := ⟨.hbm, 288, rfl⟩
abbrev main_v211 : Ref sig .tc := ⟨.hbm, 289, rfl⟩
abbrev main_cst_42 : Ref sig .tc := ⟨.hbm, 290, rfl⟩
abbrev main_v212 : Ref sig .tc := ⟨.hbm, 291, rfl⟩
abbrev main_v213 : Ref sig .tc := ⟨.hbm, 292, rfl⟩
abbrev main_cst_43 : Ref sig .tc := ⟨.hbm, 293, rfl⟩
abbrev main_v214 : Ref sig .tc := ⟨.hbm, 294, rfl⟩
abbrev main_v215 : Ref sig .tc := ⟨.hbm, 295, rfl⟩
abbrev main_v216 : Ref sig .tc := ⟨.hbm, 296, rfl⟩
abbrev main_v217 : Ref sig .tc := ⟨.hbm, 297, rfl⟩
abbrev main_c_44 : Ref sig .tc := ⟨.hbm, 298, rfl⟩
abbrev main_v218 : Ref sig .tc := ⟨.hbm, 299, rfl⟩
abbrev main_v219 : Ref sig .tc := ⟨.hbm, 300, rfl⟩
abbrev main_c_45 : Ref sig .tc := ⟨.hbm, 301, rfl⟩
abbrev main_v220 : Ref sig .tc := ⟨.hbm, 302, rfl⟩
abbrev main_v221 : Ref sig .tc := ⟨.hbm, 303, rfl⟩
abbrev main_v222 : Ref sig .tc := ⟨.hbm, 304, rfl⟩
abbrev main_v223 : Ref sig .tc := ⟨.hbm, 305, rfl⟩
abbrev main_v224 : Ref sig .tc := ⟨.hbm, 306, rfl⟩
abbrev main_v225 : Ref sig .tc := ⟨.hbm, 307, rfl⟩
abbrev main_c_46 : Ref sig .tc := ⟨.hbm, 308, rfl⟩
abbrev main_v226 : Ref sig .tc := ⟨.hbm, 309, rfl⟩
abbrev main_v227 : Ref sig .tc := ⟨.hbm, 310, rfl⟩
abbrev main_c_47 : Ref sig .tc := ⟨.hbm, 311, rfl⟩
abbrev main_v228 : Ref sig .tc := ⟨.hbm, 312, rfl⟩
abbrev main_v229 : Ref sig .tc := ⟨.hbm, 313, rfl⟩
abbrev main_v230 : Ref sig .tc := ⟨.hbm, 314, rfl⟩
abbrev main_v231 : Ref sig .tc := ⟨.hbm, 315, rfl⟩
abbrev main_v232 : Ref sig .tc := ⟨.hbm, 316, rfl⟩
abbrev main_v233 : Ref sig .tc := ⟨.hbm, 317, rfl⟩
abbrev main_c_48 : Ref sig .tc := ⟨.hbm, 318, rfl⟩
abbrev main_v234 : Ref sig .tc := ⟨.hbm, 319, rfl⟩
abbrev main_v235 : Ref sig .tc := ⟨.hbm, 320, rfl⟩
abbrev main_c_49 : Ref sig .tc := ⟨.hbm, 321, rfl⟩
abbrev main_v236 : Ref sig .tc := ⟨.hbm, 322, rfl⟩
abbrev main_v237 : Ref sig .tc := ⟨.hbm, 323, rfl⟩
abbrev main_v238 : Ref sig .tc := ⟨.hbm, 324, rfl⟩
abbrev main_v239 : Ref sig .tc := ⟨.hbm, 325, rfl⟩
abbrev main_v240 : Ref sig .tc := ⟨.hbm, 326, rfl⟩
abbrev main_v241 : Ref sig .tc := ⟨.hbm, 327, rfl⟩
abbrev main_v242 : Ref sig .tc := ⟨.hbm, 328, rfl⟩
abbrev main_v243 : Ref sig .tc := ⟨.hbm, 329, rfl⟩
abbrev main_cst_50 : Ref sig .tc := ⟨.hbm, 330, rfl⟩
abbrev main_v244 : Ref sig .tc := ⟨.hbm, 331, rfl⟩
abbrev main_v245 : Ref sig .tc := ⟨.hbm, 332, rfl⟩
abbrev main_v246 : Ref sig .tc := ⟨.hbm, 333, rfl⟩
abbrev main_v247 : Ref sig .tc := ⟨.hbm, 334, rfl⟩
abbrev main_v248 : Ref sig .tc := ⟨.hbm, 335, rfl⟩
abbrev main_v249 : Ref sig .tc := ⟨.hbm, 336, rfl⟩
abbrev main_call4_cst : Ref sig .tc := ⟨.hbm, 337, rfl⟩
abbrev main_call4_v0 : Ref sig .tc := ⟨.hbm, 338, rfl⟩
abbrev main_v250 : Ref sig .tc := ⟨.hbm, 339, rfl⟩
abbrev main_v251 : Ref sig .tc := ⟨.hbm, 340, rfl⟩
abbrev main_v252 : Ref sig .tc := ⟨.hbm, 341, rfl⟩
abbrev main_v253 : Ref sig .tc := ⟨.hbm, 342, rfl⟩
abbrev main_v254 : Ref sig .tc := ⟨.hbm, 343, rfl⟩
abbrev main_cst_51 : Ref sig .tc := ⟨.hbm, 344, rfl⟩
abbrev main_v255 : Ref sig .tc := ⟨.hbm, 345, rfl⟩
abbrev main_v256 : Ref sig .tc := ⟨.hbm, 346, rfl⟩
abbrev main_cst_52 : Ref sig .tc := ⟨.hbm, 347, rfl⟩
abbrev main_v257 : Ref sig .tc := ⟨.hbm, 348, rfl⟩
abbrev main_v258 : Ref sig .tc := ⟨.hbm, 349, rfl⟩
abbrev main_v259 : Ref sig .tc := ⟨.hbm, 350, rfl⟩
abbrev main_v260 : Ref sig .tc := ⟨.hbm, 351, rfl⟩
abbrev main_c_53 : Ref sig .tc := ⟨.hbm, 352, rfl⟩
abbrev main_v261 : Ref sig .tc := ⟨.hbm, 353, rfl⟩
abbrev main_v262 : Ref sig .tc := ⟨.hbm, 354, rfl⟩
abbrev main_c_54 : Ref sig .tc := ⟨.hbm, 355, rfl⟩
abbrev main_v263 : Ref sig .tc := ⟨.hbm, 356, rfl⟩
abbrev main_v264 : Ref sig .tc := ⟨.hbm, 357, rfl⟩
abbrev main_v265 : Ref sig .tc := ⟨.hbm, 358, rfl⟩
abbrev main_v266 : Ref sig .tc := ⟨.hbm, 359, rfl⟩
abbrev main_v267 : Ref sig .tc := ⟨.hbm, 360, rfl⟩
abbrev main_v268 : Ref sig .tc := ⟨.hbm, 361, rfl⟩
abbrev main_c_55 : Ref sig .tc := ⟨.hbm, 362, rfl⟩
abbrev main_v269 : Ref sig .tc := ⟨.hbm, 363, rfl⟩
abbrev main_v270 : Ref sig .tc := ⟨.hbm, 364, rfl⟩
abbrev main_c_56 : Ref sig .tc := ⟨.hbm, 365, rfl⟩
abbrev main_v271 : Ref sig .tc := ⟨.hbm, 366, rfl⟩
abbrev main_v272 : Ref sig .tc := ⟨.hbm, 367, rfl⟩
abbrev main_v273 : Ref sig .tc := ⟨.hbm, 368, rfl⟩
abbrev main_v274 : Ref sig .tc := ⟨.hbm, 369, rfl⟩
abbrev main_v275 : Ref sig .tc := ⟨.hbm, 370, rfl⟩
abbrev main_v276 : Ref sig .tc := ⟨.hbm, 371, rfl⟩
abbrev main_c_57 : Ref sig .tc := ⟨.hbm, 372, rfl⟩
abbrev main_v277 : Ref sig .tc := ⟨.hbm, 373, rfl⟩
abbrev main_v278 : Ref sig .tc := ⟨.hbm, 374, rfl⟩
abbrev main_c_58 : Ref sig .tc := ⟨.hbm, 375, rfl⟩
abbrev main_v279 : Ref sig .tc := ⟨.hbm, 376, rfl⟩
abbrev main_v280 : Ref sig .tc := ⟨.hbm, 377, rfl⟩
abbrev main_v281 : Ref sig .tc := ⟨.hbm, 378, rfl⟩
abbrev main_v282 : Ref sig .tc := ⟨.hbm, 379, rfl⟩
abbrev main_v283 : Ref sig .tc := ⟨.hbm, 380, rfl⟩
abbrev main_v284 : Ref sig .tc := ⟨.hbm, 381, rfl⟩
abbrev main_v285 : Ref sig .tc := ⟨.hbm, 382, rfl⟩
abbrev main_v286 : Ref sig .tc := ⟨.hbm, 383, rfl⟩
abbrev main_cst_59 : Ref sig .tc := ⟨.hbm, 384, rfl⟩
abbrev main_v287 : Ref sig .tc := ⟨.hbm, 385, rfl⟩
abbrev main_v288 : Ref sig .tc := ⟨.hbm, 386, rfl⟩
abbrev main_v289 : Ref sig .tc := ⟨.hbm, 387, rfl⟩
abbrev main_v290 : Ref sig .tc := ⟨.hbm, 388, rfl⟩
abbrev main_v291 : Ref sig .tc := ⟨.hbm, 389, rfl⟩
abbrev main_v292 : Ref sig .tc := ⟨.hbm, 390, rfl⟩
abbrev main_call5_cst : Ref sig .tc := ⟨.hbm, 391, rfl⟩
abbrev main_call5_v0 : Ref sig .tc := ⟨.hbm, 392, rfl⟩
abbrev main_v293 : Ref sig .tc := ⟨.hbm, 393, rfl⟩
abbrev main_v294 : Ref sig .tc := ⟨.hbm, 394, rfl⟩
abbrev main_v295 : Ref sig .tc := ⟨.hbm, 395, rfl⟩
abbrev main_v296 : Ref sig .tc := ⟨.hbm, 396, rfl⟩
abbrev main_v297 : Ref sig .tc := ⟨.hbm, 397, rfl⟩
abbrev main_call6_cst : Ref sig .tc := ⟨.hbm, 398, rfl⟩
abbrev main_call6_v0 : Ref sig .tc := ⟨.hbm, 399, rfl⟩
abbrev main_v298 : Ref sig .tc := ⟨.hbm, 400, rfl⟩
abbrev main_v299 : Ref sig .tc := ⟨.hbm, 401, rfl⟩
abbrev main_v300 : Ref sig .tc := ⟨.hbm, 402, rfl⟩
abbrev main_v301 : Ref sig .tc := ⟨.hbm, 403, rfl⟩
abbrev main_v302 : Ref sig .tc := ⟨.hbm, 404, rfl⟩
abbrev main_call7_cst : Ref sig .tc := ⟨.hbm, 405, rfl⟩
abbrev main_call7_v0 : Ref sig .tc := ⟨.hbm, 406, rfl⟩
abbrev main_v303 : Ref sig .tc := ⟨.hbm, 407, rfl⟩
abbrev main_v304 : Ref sig .tc := ⟨.hbm, 408, rfl⟩
abbrev main_v305 : Ref sig .tc := ⟨.hbm, 409, rfl⟩
abbrev main_v306 : Ref sig .tc := ⟨.hbm, 410, rfl⟩
abbrev main_v307 : Ref sig .tc := ⟨.hbm, 411, rfl⟩
abbrev main_call8_cst : Ref sig .tc := ⟨.hbm, 412, rfl⟩
abbrev main_call8_v0 : Ref sig .tc := ⟨.hbm, 413, rfl⟩
abbrev main_v308 : Ref sig .tc := ⟨.hbm, 414, rfl⟩
abbrev main_v309 : Ref sig .tc := ⟨.hbm, 415, rfl⟩
abbrev main_v310 : Ref sig .tc := ⟨.hbm, 416, rfl⟩
abbrev main_v311 : Ref sig .tc := ⟨.hbm, 417, rfl⟩
abbrev main_v312 : Ref sig .tc := ⟨.hbm, 418, rfl⟩
abbrev main_call9_cst : Ref sig .tc := ⟨.hbm, 419, rfl⟩
abbrev main_call9_v0 : Ref sig .tc := ⟨.hbm, 420, rfl⟩
abbrev main_v313 : Ref sig .tc := ⟨.hbm, 421, rfl⟩
abbrev main_v314 : Ref sig .tc := ⟨.hbm, 422, rfl⟩
abbrev main_v315 : Ref sig .tc := ⟨.hbm, 423, rfl⟩
abbrev main_v316 : Ref sig .tc := ⟨.hbm, 424, rfl⟩
abbrev main_v317 : Ref sig .tc := ⟨.hbm, 425, rfl⟩
abbrev main_call10_cst : Ref sig .tc := ⟨.hbm, 426, rfl⟩
abbrev main_call10_v0 : Ref sig .tc := ⟨.hbm, 427, rfl⟩
abbrev main_v318 : Ref sig .tc := ⟨.hbm, 428, rfl⟩
abbrev main_v319 : Ref sig .tc := ⟨.hbm, 429, rfl⟩
abbrev main_v320 : Ref sig .tc := ⟨.hbm, 430, rfl⟩
abbrev main_v321 : Ref sig .tc := ⟨.hbm, 431, rfl⟩
abbrev main_v322 : Ref sig .tc := ⟨.hbm, 432, rfl⟩
abbrev main_call11_cst : Ref sig .tc := ⟨.hbm, 433, rfl⟩
abbrev main_call11_v0 : Ref sig .tc := ⟨.hbm, 434, rfl⟩
abbrev main_v323 : Ref sig .tc := ⟨.hbm, 435, rfl⟩
abbrev main_v324 : Ref sig .tc := ⟨.hbm, 436, rfl⟩
abbrev main_v325 : Ref sig .tc := ⟨.hbm, 437, rfl⟩

abbrev nD : Nat := 1
abbrev τ : Topo := Topo.v7x

variable {F : FTy → Type} [FloatOps F]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S320000 : S_.BroadcastsInDim S320000 (![] : Fin 0 → Fin S320000.rank)
  bcast_S320000_S320000x1_0 : S320000.BroadcastsInDim S320000x1 (![0] : Fin 1 → Fin S320000x1.rank)
  concatenates_S320000x1_S320000x1_S320000x2_d1 : Shape.Concatenates [S320000x1, S320000x1] S320000x2 1
  concatenates_S320000_S10000_S330000_d0 : Shape.Concatenates [S320000, S10000] S330000 0
  bcast_S_S10000 : S_.BroadcastsInDim S10000 (![] : Fin 0 → Fin S10000.rank)
  bcast_S330000_S330000x1_0 : S330000.BroadcastsInDim S330000x1 (![0] : Fin 1 → Fin S330000x1.rank)
  bcast_S_S330000 : S_.BroadcastsInDim S330000 (![] : Fin 0 → Fin S330000.rank)
  bcast_S330000x1_S330000x128_0_1 : S330000x1.BroadcastsInDim S330000x128 (![0, 1] : Fin 2 → Fin S330000x128.rank)
  bcast_S_S10000x128 : S_.BroadcastsInDim S10000x128 (![] : Fin 0 → Fin S10000x128.rank)
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  bcast_S_S10000x64 : S_.BroadcastsInDim S10000x64 (![] : Fin 0 → Fin S10000x64.rank)
  bcast_S32_S1x32_1 : S32.BroadcastsInDim S1x32 (![1] : Fin 1 → Fin S1x32.rank)
  bcast_S1x32_S10000x32_0_1 : S1x32.BroadcastsInDim S10000x32 (![0, 1] : Fin 2 → Fin S10000x32.rank)
  bcast_S_S10000x32 : S_.BroadcastsInDim S10000x32 (![] : Fin 0 → Fin S10000x32.rank)
  transposes_S10000x32_S32x10000_1_0 : S10000x32.Transposes [1, 0] S32x10000
  gather_S10000x10000_S320000x2_S320000_n_01_n_n_01_1_11_wf : GatherDims.WF S10000x10000 S320000x2 S320000 [] [0, 1] [] [0, 1] [] 1 ![1, 1]
  dot_S10000x128_S128x128_S10000x128_1_0_0_1_n_n_wf : DotDims.WF S10000x128 S128x128 S10000x128 [1] [0] [0] [1] [] []
  scatter_S10000_S330000x1_S330000_n_0_0_1_wf : ScatterDims.WF S10000 S330000x1 S330000 [] [0] [0] 1
  gather_S10000_S330000x1_S330000_n_0_n_n_0_1_1_wf : GatherDims.WF S10000 S330000x1 S330000 [] [0] [] [0] [] 1 ![1]
  gather_S10000x128_S330000x1_S330000x128_1_0_n_n_0_1_1128_wf : GatherDims.WF S10000x128 S330000x1 S330000x128 [1] [0] [] [0] [] 1 ![1, 128]
  scatter_S10000x128_S330000x1_S330000x128_1_0_0_1_wf : ScatterDims.WF S10000x128 S330000x1 S330000x128 [1] [0] [0] 1
  dot_S10000x128_S128x64_S10000x64_1_0_0_1_n_n_wf : DotDims.WF S10000x128 S128x64 S10000x64 [1] [0] [0] [1] [] []
  dot_S10000x64_S64x32_S10000x32_1_0_0_1_n_n_wf : DotDims.WF S10000x64 S64x32 S10000x32 [1] [0] [0] [1] [] []
  dot_S10000x32_S32x10000_S10000x10000_1_0_0_1_n_n_wf : DotDims.WF S10000x32 S32x10000 S10000x10000 [1] [0] [0] [1] [] []

variable [Facts₀]

def gather_S10000x10000_S320000x2_S320000_n_01_n_n_01_1_11 : GatherDims S10000x10000 S320000x2 S320000 where
  offsetDims := []
  collapsedSliceDims := [0, 1]
  operandBatchingDims := []
  startIndicesBatchingDims := []
  startIndexMap := [0, 1]
  indexVectorDim := 1
  sliceSizes := ![1, 1]
  wf := gather_S10000x10000_S320000x2_S320000_n_01_n_n_01_1_11_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def scatter_S10000_S330000x1_S330000_n_0_0_1 : ScatterDims S10000 S330000x1 S330000 where
  updateWindowDims := []
  insertedWindowDims := [0]
  scatterDimsToOperandDims := [0]
  indexVectorDim := 1
  wf := scatter_S10000_S330000x1_S330000_n_0_0_1_wf
def gather_S10000_S330000x1_S330000_n_0_n_n_0_1_1 : GatherDims S10000 S330000x1 S330000 where
  offsetDims := []
  collapsedSliceDims := [0]
  operandBatchingDims := []
  startIndicesBatchingDims := []
  startIndexMap := [0]
  indexVectorDim := 1
  sliceSizes := ![1]
  wf := gather_S10000_S330000x1_S330000_n_0_n_n_0_1_1_wf
def gather_S10000x128_S330000x1_S330000x128_1_0_n_n_0_1_1128 : GatherDims S10000x128 S330000x1 S330000x128 where
  offsetDims := [1]
  collapsedSliceDims := [0]
  operandBatchingDims := []
  startIndicesBatchingDims := []
  startIndexMap := [0]
  indexVectorDim := 1
  sliceSizes := ![1, 128]
  wf := gather_S10000x128_S330000x1_S330000x128_1_0_n_n_0_1_1128_wf
def scatter_S10000x128_S330000x1_S330000x128_1_0_0_1 : ScatterDims S10000x128 S330000x1 S330000x128 where
  updateWindowDims := [1]
  insertedWindowDims := [0]
  scatterDimsToOperandDims := [0]
  indexVectorDim := 1
  wf := scatter_S10000x128_S330000x1_S330000x128_1_0_0_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x64_S64x32_S10000x32_1_0_0_1_n_n : DotDims S10000x64 S64x32 S10000x32 where
  lhsContracting := [1]
  rhsContracting := [0]
  lhsNonContracting := [0]
  rhsNonContracting := [1]
  lhsBatch := []
  rhsBatch := []
  wf := dot_S10000x64_S64x32_S10000x32_1_0_0_1_n_n_wf
def dot_S10000x32_S32x10000_S10000x10000_1_0_0_1_n_n : DotDims S10000x32 S32x10000 S10000x10000 where
  lhsContracting := [1]
  rhsContracting := [0]
  lhsNonContracting := [0]
  rhsNonContracting := [1]
  lhsBatch := []
  rhsBatch := []
  wf := dot_S10000x32_S32x10000_S10000x10000_1_0_0_1_n_n_wf

class Facts : Prop extends Facts₀ where

variable [Facts]
-- ==== Proof.BitsMlp0.lean ====
/- The per-region half of the frame for REGION 0 of @main: the fused three-layer perceptron head
   relu(relu(relu(h·W1 + b1)·W2 + b2)·W3 + b3) on row blocks of 1000 rows of a 10000×128 array (grid 10).
   Window 0 is the 1000×128 row block (its index moves with the point); windows 1..6 are the three weight matrices
   and the three biases, whole, at a constant index; window 7 is the 1000×32 output block.
   Everything is stated at a PARAMETER `V`: the TensorCore's buffer contents when the region is entered. -/
import proofs.«154350_j35708358099201_1_alg».proof.Proof.Gen.Kernel.Launch
import proofs.«154350_j35708358099201_1_alg».proof.Proof.Gen.Kernel.Skeleton
import proofs.«154350_j35708358099201_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 1000 rows: the structural recursion goes once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 (the row block of the activations), fetched at every point: its current staging buffer holds its block at
    every point, for ANY proof data whose array is `V`'s (`hA`) and whose body leaves the block in place (`hafter`).
    The window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 (the first layer's weights), fetched at the first point only, its block index constant over the grid: an
    unfetched point finds in the buffer the block of the point before, which is the same block. So its current staging
    buffer holds its block at every point, for ANY proof data whose array is `V`'s (`hA`) and whose body leaves the
    block in place (`hafter`). The window is uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2 (the first layer's bias), fetched at the first point only, its block index constant over the grid: an
    unfetched point finds in the buffer the block of the point before, which is the same block. So its current staging
    buffer holds its block at every point, for ANY proof data whose array is `V`'s (`hA`) and whose body leaves the
    block in place (`hafter`). The window is uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3 (the second layer's weights), fetched at the first point only, its block index constant over the grid: an
    unfetched point finds in the buffer the block of the point before, which is the same block. So its current staging
    buffer holds its block at every point, for ANY proof data whose array is `V`'s (`hA`) and whose body leaves the
    block in place (`hafter`). The window is uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4 (the second layer's bias), fetched at the first point only, its block index constant over the grid: an
    unfetched point finds in the buffer the block of the point before, which is the same block. So its current staging
    buffer holds its block at every point, for ANY proof data whose array is `V`'s (`hA`) and whose body leaves the
    block in place (`hafter`). The window is uncut and never idle. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5 (the third layer's weights), fetched at the first point only, its block index constant over the grid: an
    unfetched point finds in the buffer the block of the point before, which is the same block. So its current staging
    buffer holds its block at every point, for ANY proof data whose array is `V`'s (`hA`) and whose body leaves the
    block in place (`hafter`). The window is uncut and never idle. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6 (the third layer's bias), fetched at the first point only, its block index constant over the grid: an
    unfetched point finds in the buffer the block of the point before, which is the same block. So its current staging
    buffer holds its block at every point, for ANY proof data whose array is `V`'s (`hA`) and whose body leaves the
    block in place (`hafter`). The window is uncut and never idle. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and the one store take the whole buffer -/

abbrev r0_0 : Rect S1000x128 := Rect.unit (s := S1000x128) ![0, 0] S1000x128.size inb_S1000x128_S1000x128_0_0
abbrev r0_1 : Rect S128x128 := Rect.unit (s := S128x128) ![0, 0] S128x128.size inb_S128x128_S128x128_0_0
abbrev r0_2 : Rect S1x128 := Rect.unit (s := S1x128) ![0, 0] S1x128.size inb_S1x128_S1x128_0_0
abbrev r0_3 : Rect S128x64 := Rect.unit (s := S128x64) ![0, 0] S128x64.size inb_S128x64_S128x64_0_0
abbrev r0_4 : Rect S1x64 := Rect.unit (s := S1x64) ![0, 0] S1x64.size inb_S1x64_S1x64_0_0
abbrev r0_5 : Rect S64x32 := Rect.unit (s := S64x32) ![0, 0] S64x32.size inb_S64x32_S64x32_0_0
abbrev r0_6 : Rect S1x32 := Rect.unit (s := S1x32) ![0, 0] S1x32.size inb_S1x32_S1x32_0_0
abbrev r0_7 : Rect S1000x32 := Rect.unit (s := S1000x32) ![0, 0] S1000x32.size inb_S1000x32_S1000x32_0_0

/-! ## What the body leaves in the output window's buffer -/

/-- Window 7's staging buffer after the body, from the seven input blocks: the body's one store, of the whole
    1000×32 block, whose payload is relu(relu(relu(x0·x1 + x2)·x3 + x4)·x5 + x6) (`k0_pay1`). -/
def out0_7 (x0 : Vec F S1000x128 .f32) (x1 : Vec F S128x128 .f32) (x2 : Vec F S1x128 .f32) (x3 : Vec F S128x64 .f32)
    (x4 : Vec F S1x64 .f32) (x5 : Vec F S64x32 .f32) (x6 : Vec F S1x32 .f32) : Vec F S1000x32 .f32 :=
  View.canon [⟨r0_7, k0_pay1 (View.ld x0 r0_0) (View.ld x1 r0_1) (View.ld x2 r0_2) (View.ld x3 r0_3) (View.ld x4 r0_4) (View.ld x5 r0_5) (View.ld x6 r0_6)⟩]

/-- The one store takes the whole buffer, so it covers it. -/
theorem cover0_7 (p0 : Vec F S1000x32 .f32) (y : S1000x32.Idx) :
    ∃ pc ∈ ([⟨r0_7, p0⟩] : List (View.Piece (Elt F) S1000x32 .f32)), y ∈ pc.1.set :=
  View.cover_of_tiled [⟨r0_7, p0⟩] S1000x32.size (by rfl) y

/-! ## The body's triple -/

set_option maxHeartbeats 1000000 in
/-- The kernel body on whole staging memrefs, the seven inputs' at read contents `x0 … x6` and the output's at
    anything, runs to the continuation holding the inputs' as they were and the output's at `out0_7` of the inputs'.
    The body reads the output buffer once before it stores (the value read is not used); the store then takes the whole
    buffer, so what the buffer held before does not survive. -/
theorem sound_kernel0 (c : Dev nD) (E : Set ℕ) (i : grid0.Coords)
    (arg1 : Memref sig .tc .vmem S1000x128 .f32) (harg1 : arg1.IsWhole)
    (arg2 : Memref sig .tc .vmem S128x128 .f32) (harg2 : arg2.IsWhole)
    (arg3 : Memref sig .tc .vmem S1x128 .f32) (harg3 : arg3.IsWhole)
    (arg4 : Memref sig .tc .vmem S128x64 .f32) (harg4 : arg4.IsWhole)
    (arg5 : Memref sig .tc .vmem S1x64 .f32) (harg5 : arg5.IsWhole)
    (arg6 : Memref sig .tc .vmem S64x32 .f32) (harg6 : arg6.IsWhole)
    (arg7 : Memref sig .tc .vmem S1x32 .f32) (harg7 : arg7.IsWhole)
    (arg8 : Memref sig .tc .vmem S1000x32 .f32) (harg8 : arg8.IsWhole)
    (x0 : Vec F S1000x128 .f32) (x1 : Vec F S128x128 .f32) (x2 : Vec F S1x128 .f32) (x3 : Vec F S128x64 .f32) (x4 : Vec F S1x64 .f32) (x5 : Vec F S64x32 .f32) (x6 : Vec F S1x32 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (out0_7 x0 x1 x2 x3 x4 x5 x6)) -∗ K ⟨⟩))
      ⊢ wp frame (wpE (defs₀ (F := F)) Variants.none c none) E (cc0__mlp3_kernel i arg1 harg1 arg2 harg2 arg3 harg3 arg4 harg4 arg5 harg5 arg6 harg6 arg7 harg7 arg8 harg8) K := by
  simp only [cc0__mlp3_kernel_eq_skeleton]; unfold cc0__mlp3_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover0_7 _)

/-! ## The pipeline's proof data -/

/-- The proof data of pipeline 0 on core `c`: the arrays as the region finds them (`V`); after the body at point `t`
    each input's buffer at its block and the output's at `out0_7` of the input blocks; the invariant is the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t) (iblk0 V c 3 t) (iblk0 V c 4 t) (iblk0 V c 5 t) (iblk0 V c 6 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = out0_7 (iblk0 V c 0 t) (iblk0 V c 1 t) (iblk0 V c 2 t) (iblk0 V c 3 t) (iblk0 V c 4 t) (iblk0 V c 5 t) (iblk0 V c 6 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-! ## The body obligation, at a generic point -/

/-- What the body is called with at point `t`: the invariant, the core's debts, and every window's current staging
    buffer at what the pipeline left in it, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

/-- The body at any point: the inputs' memrefs hold their blocks (`before0_W`), so `sound_kernel0` applies; the
    invariant and the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.BitsMlp1.lean ====
/- The per-region half of the frame for REGION 1 of @main: the fused three-layer perceptron head
   relu(relu(relu(h·W1 + b1)·W2 + b2)·W3 + b3) on row blocks of 1000 rows of a 10000×128 array (grid 10).
   Window 0 is the 1000×128 row block (its index moves with the point); windows 1..6 are the three weight matrices
   and the three biases, whole, at a constant index; window 7 is the 1000×32 output block.
   Everything is stated at a PARAMETER `V`: the TensorCore's buffer contents when the region is entered. -/
import proofs.«154350_j35708358099201_1_alg».proof.Proof.Gen.Kernel.Launch
import proofs.«154350_j35708358099201_1_alg».proof.Proof.Gen.Kernel.Skeleton
import proofs.«154350_j35708358099201_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 1000 rows: the structural recursion goes once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 (the row block of the activations), fetched at every point: its current staging buffer holds its block at
    every point, for ANY proof data whose array is `V`'s (`hA`) and whose body leaves the block in place (`hafter`).
    The window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 (the first layer's weights), fetched at the first point only, its block index constant over the grid: an
    unfetched point finds in the buffer the block of the point before, which is the same block. So its current staging
    buffer holds its block at every point, for ANY proof data whose array is `V`'s (`hA`) and whose body leaves the
    block in place (`hafter`). The window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2 (the first layer's bias), fetched at the first point only, its block index constant over the grid: an
    unfetched point finds in the buffer the block of the point before, which is the same block. So its current staging
    buffer holds its block at every point, for ANY proof data whose array is `V`'s (`hA`) and whose body leaves the
    block in place (`hafter`). The window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3 (the second layer's weights), fetched at the first point only, its block index constant over the grid: an
    unfetched point finds in the buffer the block of the point before, which is the same block. So its current staging
    buffer holds its block at every point, for ANY proof data whose array is `V`'s (`hA`) and whose body leaves the
    block in place (`hafter`). The window is uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4 (the second layer's bias), fetched at the first point only, its block index constant over the grid: an
    unfetched point finds in the buffer the block of the point before, which is the same block. So its current staging
    buffer holds its block at every point, for ANY proof data whose array is `V`'s (`hA`) and whose body leaves the
    block in place (`hafter`). The window is uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5 (the third layer's weights), fetched at the first point only, its block index constant over the grid: an
    unfetched point finds in the buffer the block of the point before, which is the same block. So its current staging
    buffer holds its block at every point, for ANY proof data whose array is `V`'s (`hA`) and whose body leaves the
    block in place (`hafter`). The window is uncut and never idle. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6 (the third layer's bias), fetched at the first point only, its block index constant over the grid: an
    unfetched point finds in the buffer the block of the point before, which is the same block. So its current staging
    buffer holds its block at every point, for ANY proof data whose array is `V`'s (`hA`) and whose body leaves the
    block in place (`hafter`). The window is uncut and never idle. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the one store take the whole buffer -/

abbrev r1_0 : Rect S1000x128 := Rect.unit (s := S1000x128) ![0, 0] S1000x128.size inb_S1000x128_S1000x128_0_0
abbrev r1_1 : Rect S128x128 := Rect.unit (s := S128x128) ![0, 0] S128x128.size inb_S128x128_S128x128_0_0
abbrev r1_2 : Rect S1x128 := Rect.unit (s := S1x128) ![0, 0] S1x128.size inb_S1x128_S1x128_0_0
abbrev r1_3 : Rect S128x64 := Rect.unit (s := S128x64) ![0, 0] S128x64.size inb_S128x64_S128x64_0_0
abbrev r1_4 : Rect S1x64 := Rect.unit (s := S1x64) ![0, 0] S1x64.size inb_S1x64_S1x64_0_0
abbrev r1_5 : Rect S64x32 := Rect.unit (s := S64x32) ![0, 0] S64x32.size inb_S64x32_S64x32_0_0
abbrev r1_6 : Rect S1x32 := Rect.unit (s := S1x32) ![0, 0] S1x32.size inb_S1x32_S1x32_0_0
abbrev r1_7 : Rect S1000x32 := Rect.unit (s := S1000x32) ![0, 0] S1000x32.size inb_S1000x32_S1000x32_0_0

/-! ## What the body leaves in the output window's buffer -/

/-- Window 7's staging buffer after the body, from the seven input blocks: the body's one store, of the whole
    1000×32 block, whose payload is relu(relu(relu(x0·x1 + x2)·x3 + x4)·x5 + x6) (`k1_pay1`). -/
def out1_7 (x0 : Vec F S1000x128 .f32) (x1 : Vec F S128x128 .f32) (x2 : Vec F S1x128 .f32) (x3 : Vec F S128x64 .f32)
    (x4 : Vec F S1x64 .f32) (x5 : Vec F S64x32 .f32) (x6 : Vec F S1x32 .f32) : Vec F S1000x32 .f32 :=
  View.canon [⟨r1_7, k1_pay1 (View.ld x0 r1_0) (View.ld x1 r1_1) (View.ld x2 r1_2) (View.ld x3 r1_3) (View.ld x4 r1_4) (View.ld x5 r1_5) (View.ld x6 r1_6)⟩]

/-- The one store takes the whole buffer, so it covers it. -/
theorem cover1_7 (p0 : Vec F S1000x32 .f32) (y : S1000x32.Idx) :
    ∃ pc ∈ ([⟨r1_7, p0⟩] : List (View.Piece (Elt F) S1000x32 .f32)), y ∈ pc.1.set :=
  View.cover_of_tiled [⟨r1_7, p0⟩] S1000x32.size (by rfl) y

/-! ## The body's triple -/

set_option maxHeartbeats 1000000 in
/-- The kernel body on whole staging memrefs, the seven inputs' at read contents `x0 … x6` and the output's at
    anything, runs to the continuation holding the inputs' as they were and the output's at `out1_7` of the inputs'.
    The body reads the output buffer once before it stores (the value read is not used); the store then takes the whole
    buffer, so what the buffer held before does not survive. -/
theorem sound_kernel1 (c : Dev nD) (E : Set ℕ) (i : grid1.Coords)
    (arg1 : Memref sig .tc .vmem S1000x128 .f32) (harg1 : arg1.IsWhole)
    (arg2 : Memref sig .tc .vmem S128x128 .f32) (harg2 : arg2.IsWhole)
    (arg3 : Memref sig .tc .vmem S1x128 .f32) (harg3 : arg3.IsWhole)
    (arg4 : Memref sig .tc .vmem S128x64 .f32) (harg4 : arg4.IsWhole)
    (arg5 : Memref sig .tc .vmem S1x64 .f32) (harg5 : arg5.IsWhole)
    (arg6 : Memref sig .tc .vmem S64x32 .f32) (harg6 : arg6.IsWhole)
    (arg7 : Memref sig .tc .vmem S1x32 .f32) (harg7 : arg7.IsWhole)
    (arg8 : Memref sig .tc .vmem S1000x32 .f32) (harg8 : arg8.IsWhole)
    (x0 : Vec F S1000x128 .f32) (x1 : Vec F S128x128 .f32) (x2 : Vec F S1x128 .f32) (x3 : Vec F S128x64 .f32) (x4 : Vec F S1x64 .f32) (x5 : Vec F S64x32 .f32) (x6 : Vec F S1x32 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (out1_7 x0 x1 x2 x3 x4 x5 x6)) -∗ K ⟨⟩))
      ⊢ wp frame (wpE (defs₀ (F := F)) Variants.none c none) E (cc1__mlp3_kernel i arg1 harg1 arg2 harg2 arg3 harg3 arg4 harg4 arg5 harg5 arg6 harg6 arg7 harg7 arg8 harg8) K := by
  simp only [cc1__mlp3_kernel_eq_skeleton]; unfold cc1__mlp3_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover1_7 _)

/-! ## The pipeline's proof data -/

/-- The proof data of pipeline 1 on core `c`: the arrays as the region finds them (`V`); after the body at point `t`
    each input's buffer at its block and the output's at `out1_7` of the input blocks; the invariant is the scoped
    rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = out1_7 (iblk1 V c 0 t) (iblk1 V c 1 t) (iblk1 V c 2 t) (iblk1 V c 3 t) (iblk1 V c 4 t) (iblk1 V c 5 t) (iblk1 V c 6 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-! ## The body obligation, at a generic point -/

/-- What the body is called with at point `t`: the invariant, the core's debts, and every window's current staging
    buffer at what the pipeline left in it, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

/-- The body at any point: the inputs' memrefs hold their blocks (`before1_W`), so `sound_kernel1` applies; the
    invariant and the core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.BitsGram2.lean ====
/-
  Region 2 of @main: the product x · yᵀ of two 10000 × 32 arrays, computed block by block on a 10 × 8 grid.
  At point (i, j) the body multiplies rows 1000·i ‥ 1000·i + 999 of x by the transpose of rows
  1280·j ‥ 1280·j + 1279 of y and stores the 1000 × 1280 product into the block (i, j) of the result.
  Eight blocks of 1280 rows cover 10240 > 10000 rows: at j = 7 the block of y overhangs its array by 240 rows,
  and the block of the result overhangs its array by 240 columns. The fetch of that block of y fills only the
  first 1040 rows of the staging buffer; the other 240 rows hold words nothing names. The body reads the whole
  buffer, so the last 240 columns of its product are computed from those words; the write-back moves only the
  first 1040 columns, so none of them reaches the result array.

  Because the product is, at an arbitrary float instance, a function of its whole operands, the contents the body
  leaves in the result's staging buffer cannot be named without the unnamed words d of y's buffer. The proof data
  are therefore relational: the body leaves each input buffer as it found it, and leaves the result's buffer at
  the product of x's block with y's block filled out by SOME d.
-/
import proofs.«154350_j35708358099201_1_alg».proof.Proof.Gen.Kernel.Launch
import proofs.«154350_j35708358099201_1_alg».proof.Proof.Gen.Kernel.Skeleton
import proofs.«154350_j35708358099201_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

section Region2
-- the TensorCore's buffer contents when the region is entered: the parameter the region's half is stated at
variable (V : (c : Dev nD) → (b : Ref sig .tc) → Buf (Elt F) ((c : Thread nD τ).loc b))

/-- Window `w`'s block at point `t`, read off its array as the region finds it: the part of the block inside the array. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## The body's accesses: each whole staging buffer -/

abbrev r2_0 : Rect S1000x32 := Rect.unit (s := S1000x32) ![0, 0] S1000x32.size inb_S1000x32_S1000x32_0_0
abbrev r2_1 : Rect S1280x32 := Rect.unit (s := S1280x32) ![0, 0] S1280x32.size inb_S1280x32_S1280x32_0_0
abbrev r2_2 : Rect S1000x1280 := Rect.unit (s := S1000x1280) ![0, 0] S1000x1280.size inb_S1000x1280_S1000x1280_0_0

/-- The result's staging buffer after the body, from the contents x0, x1 of the two input buffers: the one store,
    whose payload is the product x0 · x1ᵀ. -/
def out2_2 (x0 : Vec F S1000x32 .f32) (x1 : Vec F S1280x32 .f32) : Vec F S1000x1280 .f32 :=
  View.canon [⟨r2_2, k2_pay1 (View.ld x0 r2_0) (View.ld x1 r2_1)⟩]

/-- The one store covers the buffer. -/
theorem cover2_2 (p0 : Vec F S1000x1280 .f32) (y : S1000x1280.Idx) :
    ∃ pc ∈ ([⟨r2_2, p0⟩] : List (View.Piece (Elt F) S1000x1280 .f32)), y ∈ pc.1.set :=
  View.cover_of_tiled [⟨r2_2, p0⟩] S1000x1280.size (by rfl) y

set_option maxHeartbeats 1000000 in
/-- The body on whole staging memrefs, the inputs' at contents x0, x1 and the result's at anything, runs to the
    continuation holding the inputs' as they were and the result's at out2_2 x0 x1: two whole loads, a load of the
    result's buffer whose value is not used, the product, one whole store. -/
theorem sound_kernel2 (c : Dev nD) (E : Set ℕ) (i : grid2.Coords)
    (arg2 : Memref sig .tc .vmem S1000x32 .f32) (harg2 : arg2.IsWhole)
    (arg3 : Memref sig .tc .vmem S1280x32 .f32) (harg3 : arg3.IsWhole)
    (arg4 : Memref sig .tc .vmem S1000x1280 .f32) (harg4 : arg4.IsWhole)
    (x0 : Vec F S1000x32 .f32) (x1 : Vec F S1280x32 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out2_2 x0 x1)) -∗ K ⟨⟩))
      ⊢ wp frame (wpE (defs₀ (F := F)) Variants.none c none) E (cc2__xy_matmul_kernel i arg2 harg2 arg3 harg3 arg4 harg4) K := by
  simp only [cc2__xy_matmul_kernel_eq_skeleton]; unfold cc2__xy_matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-- The relational proof data of pipeline 2 on core `c`. -/
def rdat2 (c : Dev nD) : RDat τ (Elt F) Unit ℕ (UR sig nD τ) ℕ cfg2 c where
  A w := V c (Pipeline.arrRef spec2 w)
  after w t := match w with
    | ⟨0, _⟩ => fun Y X => X = Y
    | ⟨1, _⟩ => fun Y X => X = Y
    | ⟨2, _⟩ => fun _ X => ∃ d, X = out2_2 (iblk2 V c 0 t) (win2_1.fill (grid2.coords t) d (iblk2 V c 1 t))
  Φ _ := Pipeline.ΦA spec2 c
  q _ := fullShare
  owed _ := 0

/-- The proof data's arrays are the region-entry contents. -/
theorem rA_eq2 (c : Dev nD) (w : Fin cfg2.W) : (rdat2 V c).A w = V c (Pipeline.arrRef spec2 w) := by
  dsimp only [rdat2]

/-- The relation, window by window. -/
theorem rafter2_0 (c : Dev nD) (t : Fin cfg2.N) (Y X) : (rdat2 V c).after 0 t Y X ↔ X = Y := by dsimp only [rdat2]; exact Iff.rfl
theorem rafter2_1 (c : Dev nD) (t : Fin cfg2.N) (Y X) : (rdat2 V c).after 1 t Y X ↔ X = Y := by dsimp only [rdat2]; exact Iff.rfl
theorem rafter2_2 (c : Dev nD) (t : Fin cfg2.N) (Y X) : (rdat2 V c).after 2 t Y X ↔
    ∃ d, X = out2_2 (iblk2 V c 0 t) (win2_1.fill (grid2.coords t) d (iblk2 V c 1 t)) := by dsimp only [rdat2]; exact Iff.rfl

/-- Window 0 (x) is uncut and its body leaves it as found: whatever the body finds there at point t, fetched there
    or not (the block index moves only with i), is x's block. -/
theorem finds2_0 (c : Dev nD) (t : Fin cfg2.N) (Y) (h : (rdat2 V c).Finds 0 t Y) : Y = iblk2 V c 0 t := by
  obtain ⟨d, hd⟩ := Pipeline.RDat.finds_in_eq_fetched (rdat2 V c) 0 rfl (fun _ _ _ => rfl)
    (fun t Y X h => (rafter2_0 V c t Y X).mp h) t Y h
  rw [hd]; unfold RDat.fetched RDat.blockOf iblk2; rw [rA_eq2]; try rfl

/-- Window 1 (y) is fetched at every point: the body finds y's block on the rows inside the array and some d
    elsewhere. -/
theorem finds2_1 (c : Dev nD) (t : Fin cfg2.N) (Y) (h : (rdat2 V c).Finds 1 t Y) :
    ∃ d, Y = win2_1.fill (grid2.coords t) d (iblk2 V c 1 t) := by
  obtain ⟨d, hd⟩ := ((rdat2 V c).finds_of_fetch (fetch2_1 t) Y).mp h
  refine ⟨d, ?_⟩
  rw [hd]; unfold RDat.fetched RDat.blockOf iblk2; rw [rA_eq2]; try rfl

/-- What the body is called with at point `t`, the windows one by one, and what it returns. -/
def bodyPre2 (c : Dev nD) (t : Fin cfg2.N) (Y : (w : Fin cfg2.W) → (cfg2.win w).block.Idx → Elt F (cfg2.win w).elt) : sProp 𝕄 :=
  iprop((rdat2 V c).Φ t.castSucc ∗ (rdat2 V c).owesAt () t.castSucc
    ∗ owns (c : Thread nD τ) (st2_0 t) fullShare (Y 0)
    ∗ owns (c : Thread nD τ) (st2_1 t) fullShare (Y 1)
    ∗ owns (c : Thread nD τ) (st2_2 t) fullShare (Y 2))

def bodyPost2 (c : Dev nD) (t : Fin cfg2.N) (Y : (w : Fin cfg2.W) → (cfg2.win w).block.Idx → Elt F (cfg2.win w).elt) : sProp 𝕄 :=
  iprop((rdat2 V c).Φ t.succ ∗ (rdat2 V c).owesAt () t.succ
    ∗ (∃ X, ⌜(rdat2 V c).after 0 t (Y 0) X⌝ ∗ owns (c : Thread nD τ) (st2_0 t) fullShare X)
    ∗ (∃ X, ⌜(rdat2 V c).after 1 t (Y 1) X⌝ ∗ owns (c : Thread nD τ) (st2_1 t) fullShare X)
    ∗ (∃ X, ⌜(rdat2 V c).after 2 t (Y 2) X⌝ ∗ owns (c : Thread nD τ) (st2_2 t) fullShare X))

/-- The body at any point, on any contents Y the buffers may then hold: Y 0 is x's block, Y 1 is y's block filled
    out by some d, so what the body leaves in the result's buffer is in the relation with that d. -/
theorem sound_body2 (c : Dev nD) (t : Fin cfg2.N) (Y : (w : Fin cfg2.W) → (cfg2.win w).block.Idx → Elt F (cfg2.win w).elt)
    (hY : ∀ w, (rdat2 V c).Finds w t (Y w)) :
    bodyPre2 V c t Y ⊢ wp frame (wpE (defs₀ (F := F)) Variants.none c none) Set.univ (bodyAt2 t) (fun _ => bodyPost2 V c t Y) := by
  obtain ⟨d1, h1⟩ := finds2_1 V c t (Y 1) (hY 1)
  have h0 := finds2_0 V c t (Y 0) (hY 0)
  unfold bodyPre2 bodyPost2 bodyAt2
  rw [show (rdat2 V c).Φ t.succ = (rdat2 V c).Φ t.castSucc from rfl,
    show (rdat2 V c).owesAt () t.succ = (rdat2 V c).owesAt () t.castSucc from rfl]
  iintro ⟨HΦ, Ho, H0, H1, H2⟩
  iapply (sound_kernel2 c Set.univ _ _ _ _ _ _ _ (Y 0) (Y 1) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]
  · iexists (Y 0); isplitr; · ipureintro; exact (rafter2_0 V c t _ _).mpr rfl
    iexact H0
  isplitl [H1]
  · iexists (Y 1); isplitr; · ipureintro; exact (rafter2_1 V c t _ _).mpr rfl
    iexact H1
  iexists _; isplitr
  swap; · iexact H2
  ipureintro
  refine (rafter2_2 V c t _ _).mpr ⟨d1, ?_⟩
  rw [h0, h1]

/-- The body obligation of the relational data, at every point. -/
theorem body_obligation2 (c : Dev nD) : (rdat2 (F := F) V c).BodyObligation (defs₀ (F := F)) Variants.none () Set.univ := fun t Y hY => by
  rw [bigSep_W2, bigSep_W2]
  exact sound_body2 V c t Y hY

end Region2

end Cert.Kernel.Hand

end
-- ==== Proof.BitsRun.lean ====
/- The run of the whole program, at any float instance.
   The program is eighteen stretches of host operations (the two graph-convolution stacks and the reshaped biases of the
   first head), the first head's launch (ten row blocks of 1000 through the three dense layers), three more host
   operations (the second head's biases), the second head's launch, and the launch of the product x·yᵀ over a 10 × 8
   grid. Between two items every unscoped buffer of a core is held at known contents: the launch memory folded through
   the host operations so far, and, after a launch, that launch's arrays at what its write-backs leave (the inputs as
   entered, the output the fold of its blocks) with every other buffer as it was. No host operation writes an argument
   and no launch has an argument as an output, so each argument's buffer is read back through the fold to its launch
   contents; the result buffer is read back to the fold of the product's blocks. -/
import proofs.«154350_j35708358099201_1_alg».proof.Proof.Gen.Kernel.Launch
import proofs.«154350_j35708358099201_1_alg».proof.Proof.Gen.Kernel.Skeleton
import proofs.«154350_j35708358099201_1_alg».proof.Proof.Gen.Kernel.Points
import proofs.«154350_j35708358099201_1_alg».proof.Proof.BitsMlp0
import proofs.«154350_j35708358099201_1_alg».proof.Proof.BitsMlp1
import proofs.«154350_j35708358099201_1_alg».proof.Proof.BitsGram2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- A core's buffers at launch. -/
abbrev W0 : Dev nD → Valuation τ sig (Elt F) := fun c b => (s₀ m ρ).mem ((c : Dev nD), b)
/-- After host stretch 0. -/
abbrev W1 : Dev nD → Valuation τ sig (Elt F) := fun c => StableHlo.after main_part0_ops0 (W0 m ρ c)
/-- After host stretch 1. -/
abbrev W2 : Dev nD → Valuation τ sig (Elt F) := fun c => StableHlo.after main_part1_ops0 (W1 m ρ c)
/-- After host stretch 2. -/
abbrev W3 : Dev nD → Valuation τ sig (Elt F) := fun c => StableHlo.after main_part1_ops1 (W2 m ρ c)
/-- After host stretch 3. -/
abbrev W4 : Dev nD → Valuation τ sig (Elt F) := fun c => StableHlo.after main_part1_ops2 (W3 m ρ c)
/-- After host stretch 4. -/
abbrev W5 : Dev nD → Valuation τ sig (Elt F) := fun c => StableHlo.after main_part2_ops0 (W4 m ρ c)
/-- After host stretch 5. -/
abbrev W6 : Dev nD → Valuation τ sig (Elt F) := fun c => StableHlo.after main_part2_ops1 (W5 m ρ c)
/-- After host stretch 6. -/
abbrev W7 : Dev nD → Valuation τ sig (Elt F) := fun c => StableHlo.after main_part2_ops2 (W6 m ρ c)
/-- After host stretch 7. -/
abbrev W8 : Dev nD → Valuation τ sig (Elt F) := fun c => StableHlo.after main_part3_ops0 (W7 m ρ c)
/-- After host stretch 8. -/
abbrev W9 : Dev nD → Valuation τ sig (Elt F) := fun c => StableHlo.after main_part3_ops1 (W8 m ρ c)
/-- After host stretch 9. -/
abbrev W10 : Dev nD → Valuation τ sig (Elt F) := fun c => StableHlo.after main_part3_ops2 (W9 m ρ c)
/-- After host stretch 10. -/
abbrev W11 : Dev nD → Valuation τ sig (Elt F) := fun c => StableHlo.after main_part4_ops0 (W10 m ρ c)
/-- After host stretch 11. -/
abbrev W12 : Dev nD → Valuation τ sig (Elt F) := fun c => StableHlo.after main_part4_ops1 (W11 m ρ c)
/-- After host stretch 12. -/
abbrev W13 : Dev nD → Valuation τ sig (Elt F) := fun c => StableHlo.after main_part4_ops2 (W12 m ρ c)
/-- After host stretch 13. -/
abbrev W14 : Dev nD → Valuation τ sig (Elt F) := fun c => StableHlo.after main_part5_ops0 (W13 m ρ c)
/-- After host stretch 14. -/
abbrev W15 : Dev nD → Valuation τ sig (Elt F) := fun c => StableHlo.after main_part5_ops1 (W14 m ρ c)
/-- After host stretch 15. -/
abbrev W16 : Dev nD → Valuation τ sig (Elt F) := fun c => StableHlo.after main_part5_ops2 (W15 m ρ c)
/-- After host stretch 16. -/
abbrev W17 : Dev nD → Valuation τ sig (Elt F) := fun c => StableHlo.after main_part5_ops3 (W16 m ρ c)
/-- After host stretch 17. -/
abbrev W18 : Dev nD → Valuation τ sig (Elt F) := fun c => StableHlo.after main_part5_ops4 (W17 m ρ c)
/-- The contents region 0 is entered from, read at the TensorCore's references. -/
abbrev V18 : (c : Dev nD) → (b : Ref sig .tc) → Buf (Elt F) ((c : Thread nD τ).loc b) := fun c b => W18 m ρ c b
/-- At region 0's exit: its arrays at what the pipeline leaves, every other buffer as entered. -/
def W19 (c : Dev nD) : Valuation τ sig (Elt F) :=
  Pipeline.withArrays spec0 c (W18 m ρ c) fun w => (dat0 (V18 m ρ) c).arrAt w cfg0.N
theorem W19_arr (c : Dev nD) (w : Fin cfg0.W) :
    W19 m ρ c (Proc.devRef .tc (Pipeline.arrRef spec0 w)) = (dat0 (V18 m ρ) c).arrAt w cfg0.N := by
  unfold W19; exact Pipeline.withArrays_arr spec0 launch0.win.arr_inj c _ _ w
theorem W19_of_ne (c : Dev nD) (b : Ref sig .tc) (hb : ∀ w, Pipeline.arrRef spec0 w ≠ b) :
    W19 m ρ c (Proc.devRef .tc b) = W18 m ρ c (Proc.devRef .tc b) := by
  unfold W19; exact Pipeline.withArrays_of_ne spec0 c _ _ b hb
/-- An input window's array leaves the region as it entered. -/
theorem W19_of_in (c : Dev nD) (w : Fin cfg0.W) (hw : (cfg0.win w).isOut = false) :
    W19 m ρ c (Proc.devRef .tc (Pipeline.arrRef spec0 w)) = W18 m ρ c (Proc.devRef .tc (Pipeline.arrRef spec0 w)) :=
  (W19_arr m ρ c w).trans (((dat0 (V18 m ρ) c).arrAt_in w hw _).trans (A_eq0 (V18 m ρ) c w))
abbrev V19 : (c : Dev nD) → (b : Ref sig .tc) → Buf (Elt F) ((c : Thread nD τ).loc b) := fun c b => W19 m ρ c b
theorem hF0 (c : Dev nD) (w : Fin cfg0.W) : (dat0 (V18 m ρ) c).arrAt w cfg0.N = V19 m ρ c (Pipeline.arrRef spec0 w) :=
  (W19_arr m ρ c w).symm
theorem hrest0 (c : Dev nD) : ∀ b, b ∉ Finset.univ.image (Pipeline.arrRef spec0) → V19 m ρ c b = V18 m ρ c b :=
  fun b hb => W19_of_ne m ρ c b fun w e => hb (Finset.mem_image.mpr ⟨w, Finset.mem_univ _, e⟩)
/-- After the three host operations between the two heads. -/
abbrev W20 : Dev nD → Valuation τ sig (Elt F) := fun c => StableHlo.after main_part6_ops0 (W19 m ρ c)
/-- The contents region 1 is entered from, read at the TensorCore's references. -/
abbrev V20 : (c : Dev nD) → (b : Ref sig .tc) → Buf (Elt F) ((c : Thread nD τ).loc b) := fun c b => W20 m ρ c b
/-- At region 1's exit: its arrays at what the pipeline leaves, every other buffer as entered. -/
def W21 (c : Dev nD) : Valuation τ sig (Elt F) :=
  Pipeline.withArrays spec1 c (W20 m ρ c) fun w => (dat1 (V20 m ρ) c).arrAt w cfg1.N
theorem W21_arr (c : Dev nD) (w : Fin cfg1.W) :
    W21 m ρ c (Proc.devRef .tc (Pipeline.arrRef spec1 w)) = (dat1 (V20 m ρ) c).arrAt w cfg1.N := by
  unfold W21; exact Pipeline.withArrays_arr spec1 launch1.win.arr_inj c _ _ w
theorem W21_of_ne (c : Dev nD) (b : Ref sig .tc) (hb : ∀ w, Pipeline.arrRef spec1 w ≠ b) :
    W21 m ρ c (Proc.devRef .tc b) = W20 m ρ c (Proc.devRef .tc b) := by
  unfold W21; exact Pipeline.withArrays_of_ne spec1 c _ _ b hb
/-- An input window's array leaves the region as it entered. -/
theorem W21_of_in (c : Dev nD) (w : Fin cfg1.W) (hw : (cfg1.win w).isOut = false) :
    W21 m ρ c (Proc.devRef .tc (Pipeline.arrRef spec1 w)) = W20 m ρ c (Proc.devRef .tc (Pipeline.arrRef spec1 w)) :=
  (W21_arr m ρ c w).trans (((dat1 (V20 m ρ) c).arrAt_in w hw _).trans (A_eq1 (V20 m ρ) c w))
abbrev V21 : (c : Dev nD) → (b : Ref sig .tc) → Buf (Elt F) ((c : Thread nD τ).loc b) := fun c b => W21 m ρ c b
theorem hF1 (c : Dev nD) (w : Fin cfg1.W) : (dat1 (V20 m ρ) c).arrAt w cfg1.N = V21 m ρ c (Pipeline.arrRef spec1 w) :=
  (W21_arr m ρ c w).symm
theorem hrest1 (c : Dev nD) : ∀ b, b ∉ Finset.univ.image (Pipeline.arrRef spec1) → V21 m ρ c b = V20 m ρ c b :=
  fun b hb => W21_of_ne m ρ c b fun w e => hb (Finset.mem_image.mpr ⟨w, Finset.mem_univ _, e⟩)
/-- At the product's exit, for contents `G` of its three arrays (the two inputs as entered, the result whatever its
    eighty write-backs leave): those arrays at `G`, every other buffer as entered. -/
def W22 (c : Dev nD) (G : (w : Fin cfg2.W) → Buf (Elt F) ((spec2 w).arr.view.loc (c.tc : Thread nD τ))) : Valuation τ sig (Elt F) :=
  Pipeline.withArrays spec2 c (W21 m ρ c) G
theorem W22_arr (c : Dev nD) (G : (w : Fin cfg2.W) → Buf (Elt F) ((spec2 w).arr.view.loc (c.tc : Thread nD τ))) (w : Fin cfg2.W) :
    W22 m ρ c G (Proc.devRef .tc (Pipeline.arrRef spec2 w)) = G w := by
  unfold W22; exact Pipeline.withArrays_arr spec2 launch2.win.arr_inj c _ _ w
theorem W22_of_ne (c : Dev nD) (G : (w : Fin cfg2.W) → Buf (Elt F) ((spec2 w).arr.view.loc (c.tc : Thread nD τ))) (b : Ref sig .tc)
    (hb : ∀ w, Pipeline.arrRef spec2 w ≠ b) : W22 m ρ c G (Proc.devRef .tc b) = W21 m ρ c (Proc.devRef .tc b) := by
  unfold W22; exact Pipeline.withArrays_of_ne spec2 c _ _ b hb
abbrev V22 (c : Dev nD) (G : (w : Fin cfg2.W) → Buf (Elt F) ((spec2 w).arr.view.loc (c.tc : Thread nD τ))) :
    (b : Ref sig .tc) → Buf (Elt F) ((c : Thread nD τ).loc b) := fun b => W22 m ρ c G b
theorem hrest2 (c : Dev nD) (G : (w : Fin cfg2.W) → Buf (Elt F) ((spec2 w).arr.view.loc (c.tc : Thread nD τ))) :
    ∀ b, b ∉ Finset.univ.image (Pipeline.arrRef spec2) → V22 m ρ c G b = V21 m ρ c b :=
  fun b hb => W22_of_ne m ρ c G b fun w e => hb (Finset.mem_image.mpr ⟨w, Finset.mem_univ _, e⟩)

/-! ## What the host stretches write -/

theorem ops0_fresh : (main_part0_ops0 : List (HloOp τ sig (Elt F))).Forall fun op => op.fresh = ∅ := by
  simp only [List.Forall]; repeat' constructor
/-- The references stretch 0's operations write, in order. -/
abbrev ops0_W : List (Ref sig .tc) := [main_v0, main_v1, main_v2, main_v3, main_v4, main_v5, main_v6, main_v7, main_c, main_v8, main_v9, main_c_0, main_v10, main_v11, main_v12, main_c_1, main_v13, main_v14, main_c_2, main_v15, main_v16, main_v17, main_v18, main_v19, main_v20, main_v21, main_c_3, main_v22, main_v23, main_c_4, main_v24, main_v25, main_v26, main_c_5, main_v27, main_v28, main_c_6, main_v29, main_v30, main_v31, main_v32, main_v33, main_v34, main_v35, main_v36, main_v37, main_v38, main_v39, main_cst, main_v40, main_v41, main_cst_7, main_v42, main_v43, main_v44, main_v45, main_c_8, main_v46, main_v47, main_c_9]
theorem ops0_writes : (main_part0_ops0 : List (HloOp τ sig (Elt F))).Forall fun op => op.writes ⊆ (ops0_W.map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
theorem ops1_fresh : (main_part1_ops0 : List (HloOp τ sig (Elt F))).Forall fun op => op.fresh = ∅ := by
  simp only [List.Forall]; repeat' constructor
/-- The references stretch 1's operations write, in order. -/
abbrev ops1_W : List (Ref sig .tc) := [main_v48, main_v49, main_v50, main_v51, main_v52, main_v53, main_c_10, main_v54, main_v55, main_c_11, main_v56, main_v57, main_v58, main_v59, main_v60, main_v61, main_c_12, main_v62, main_v63, main_c_13, main_v64, main_v65, main_v66, main_v67, main_v68, main_v69, main_v70, main_v71, main_cst_14, main_v72, main_v73, main_v74, main_v75, main_v76, main_v77]
theorem ops1_writes : (main_part1_ops0 : List (HloOp τ sig (Elt F))).Forall fun op => op.writes ⊆ (ops1_W.map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
theorem ops2_fresh : (main_part1_ops1 : List (HloOp τ sig (Elt F))).Forall fun op => op.fresh = ∅ := by
  simp only [List.Forall]; repeat' constructor
/-- The references stretch 2's operations write, in order. -/
abbrev ops2_W : List (Ref sig .tc) := [main_call0_cst, main_call0_v0, main_v78]
theorem ops2_writes : (main_part1_ops1 : List (HloOp τ sig (Elt F))).Forall fun op => op.writes ⊆ (ops2_W.map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
theorem ops3_fresh : (main_part1_ops2 : List (HloOp τ sig (Elt F))).Forall fun op => op.fresh = ∅ := by
  simp only [List.Forall]; repeat' constructor
/-- The references stretch 3's operations write, in order. -/
abbrev ops3_W : List (Ref sig .tc) := [main_v79, main_v80, main_v81, main_v82, main_cst_15, main_v83, main_v84, main_cst_16, main_v85, main_v86, main_v87, main_v88, main_c_17, main_v89, main_v90, main_c_18, main_v91, main_v92, main_v93, main_v94, main_v95, main_v96, main_c_19, main_v97]
theorem ops3_writes : (main_part1_ops2 : List (HloOp τ sig (Elt F))).Forall fun op => op.writes ⊆ (ops3_W.map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
theorem ops4_fresh : (main_part2_ops0 : List (HloOp τ sig (Elt F))).Forall fun op => op.fresh = ∅ := by
  simp only [List.Forall]; repeat' constructor
/-- The references stretch 4's operations write, in order. -/
abbrev ops4_W : List (Ref sig .tc) := [main_v98, main_c_20, main_v99, main_v100, main_v101, main_v102, main_v103, main_v104, main_c_21, main_v105, main_v106, main_c_22, main_v107, main_v108, main_v109, main_v110, main_v111, main_v112, main_v113, main_v114, main_cst_23, main_v115, main_v116, main_v117, main_v118, main_v119, main_v120]
theorem ops4_writes : (main_part2_ops0 : List (HloOp τ sig (Elt F))).Forall fun op => op.writes ⊆ (ops4_W.map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
theorem ops5_fresh : (main_part2_ops1 : List (HloOp τ sig (Elt F))).Forall fun op => op.fresh = ∅ := by
  simp only [List.Forall]; repeat' constructor
/-- The references stretch 5's operations write, in order. -/
abbrev ops5_W : List (Ref sig .tc) := [main_call1_cst, main_call1_v0, main_v121]
theorem ops5_writes : (main_part2_ops1 : List (HloOp τ sig (Elt F))).Forall fun op => op.writes ⊆ (ops5_W.map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
theorem ops6_fresh : (main_part2_ops2 : List (HloOp τ sig (Elt F))).Forall fun op => op.fresh = ∅ := by
  simp only [List.Forall]; repeat' constructor
/-- The references stretch 6's operations write, in order. -/
abbrev ops6_W : List (Ref sig .tc) := [main_v122, main_v123, main_v124, main_v125, main_cst_24, main_v126, main_v127, main_cst_25, main_v128, main_v129, main_v130, main_v131, main_c_26, main_v132, main_v133, main_c_27, main_v134, main_v135, main_v136, main_v137, main_v138, main_v139, main_c_28, main_v140, main_v141, main_c_29, main_v142, main_v143, main_v144, main_v145, main_v146, main_v147]
theorem ops6_writes : (main_part2_ops2 : List (HloOp τ sig (Elt F))).Forall fun op => op.writes ⊆ (ops6_W.map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
theorem ops7_fresh : (main_part3_ops0 : List (HloOp τ sig (Elt F))).Forall fun op => op.fresh = ∅ := by
  simp only [List.Forall]; repeat' constructor
/-- The references stretch 7's operations write, in order. -/
abbrev ops7_W : List (Ref sig .tc) := [main_c_30, main_v148, main_v149, main_c_31, main_v150, main_v151, main_v152, main_v153, main_v154, main_v155, main_v156, main_v157, main_cst_32, main_v158, main_v159, main_v160, main_v161, main_v162, main_v163]
theorem ops7_writes : (main_part3_ops0 : List (HloOp τ sig (Elt F))).Forall fun op => op.writes ⊆ (ops7_W.map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
theorem ops8_fresh : (main_part3_ops1 : List (HloOp τ sig (Elt F))).Forall fun op => op.fresh = ∅ := by
  simp only [List.Forall]; repeat' constructor
/-- The references stretch 8's operations write, in order. -/
abbrev ops8_W : List (Ref sig .tc) := [main_call2_cst, main_call2_v0, main_v164]
theorem ops8_writes : (main_part3_ops1 : List (HloOp τ sig (Elt F))).Forall fun op => op.writes ⊆ (ops8_W.map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
theorem ops9_fresh : (main_part3_ops2 : List (HloOp τ sig (Elt F))).Forall fun op => op.fresh = ∅ := by
  simp only [List.Forall]; repeat' constructor
/-- The references stretch 9's operations write, in order. -/
abbrev ops9_W : List (Ref sig .tc) := [main_v165, main_v166, main_v167, main_v168, main_cst_33, main_v169, main_v170, main_cst_34, main_v171, main_v172, main_v173, main_v174, main_c_35, main_v175, main_v176, main_c_36, main_v177, main_v178, main_v179, main_v180, main_v181, main_v182, main_c_37, main_v183, main_v184, main_c_38, main_v185, main_v186, main_v187, main_v188, main_v189, main_v190, main_c_39, main_v191, main_v192, main_c_40, main_v193, main_v194, main_v195, main_v196]
theorem ops9_writes : (main_part3_ops2 : List (HloOp τ sig (Elt F))).Forall fun op => op.writes ⊆ (ops9_W.map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
theorem ops10_fresh : (main_part4_ops0 : List (HloOp τ sig (Elt F))).Forall fun op => op.fresh = ∅ := by
  simp only [List.Forall]; repeat' constructor
/-- The references stretch 10's operations write, in order. -/
abbrev ops10_W : List (Ref sig .tc) := [main_v197, main_v198, main_v199, main_v200, main_cst_41, main_v201, main_v202, main_v203, main_v204, main_v205, main_v206]
theorem ops10_writes : (main_part4_ops0 : List (HloOp τ sig (Elt F))).Forall fun op => op.writes ⊆ (ops10_W.map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
theorem ops11_fresh : (main_part4_ops1 : List (HloOp τ sig (Elt F))).Forall fun op => op.fresh = ∅ := by
  simp only [List.Forall]; repeat' constructor
/-- The references stretch 11's operations write, in order. -/
abbrev ops11_W : List (Ref sig .tc) := [main_call3_cst, main_call3_v0, main_v207]
theorem ops11_writes : (main_part4_ops1 : List (HloOp τ sig (Elt F))).Forall fun op => op.writes ⊆ (ops11_W.map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
theorem ops12_fresh : (main_part4_ops2 : List (HloOp τ sig (Elt F))).Forall fun op => op.fresh = ∅ := by
  simp only [List.Forall]; repeat' constructor
/-- The references stretch 12's operations write, in order. -/
abbrev ops12_W : List (Ref sig .tc) := [main_v208, main_v209, main_v210, main_v211, main_cst_42, main_v212, main_v213, main_cst_43, main_v214, main_v215, main_v216, main_v217, main_c_44, main_v218, main_v219, main_c_45, main_v220, main_v221, main_v222, main_v223, main_v224, main_v225, main_c_46, main_v226, main_v227, main_c_47, main_v228, main_v229, main_v230, main_v231, main_v232, main_v233, main_c_48, main_v234, main_v235, main_c_49, main_v236, main_v237, main_v238, main_v239, main_v240, main_v241, main_v242, main_v243, main_cst_50, main_v244, main_v245, main_v246]
theorem ops12_writes : (main_part4_ops2 : List (HloOp τ sig (Elt F))).Forall fun op => op.writes ⊆ (ops12_W.map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
theorem ops13_fresh : (main_part5_ops0 : List (HloOp τ sig (Elt F))).Forall fun op => op.fresh = ∅ := by
  simp only [List.Forall]; repeat' constructor
/-- The references stretch 13's operations write, in order. -/
abbrev ops13_W : List (Ref sig .tc) := [main_v247, main_v248, main_v249]
theorem ops13_writes : (main_part5_ops0 : List (HloOp τ sig (Elt F))).Forall fun op => op.writes ⊆ (ops13_W.map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
theorem ops14_fresh : (main_part5_ops1 : List (HloOp τ sig (Elt F))).Forall fun op => op.fresh = ∅ := by
  simp only [List.Forall]; repeat' constructor
/-- The references stretch 14's operations write, in order. -/
abbrev ops14_W : List (Ref sig .tc) := [main_call4_cst, main_call4_v0, main_v250]
theorem ops14_writes : (main_part5_ops1 : List (HloOp τ sig (Elt F))).Forall fun op => op.writes ⊆ (ops14_W.map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
theorem ops15_fresh : (main_part5_ops2 : List (HloOp τ sig (Elt F))).Forall fun op => op.fresh = ∅ := by
  simp only [List.Forall]; repeat' constructor
/-- The references stretch 15's operations write, in order. -/
abbrev ops15_W : List (Ref sig .tc) := [main_v251, main_v252, main_v253, main_v254, main_cst_51, main_v255, main_v256, main_cst_52, main_v257, main_v258, main_v259, main_v260, main_c_53, main_v261, main_v262, main_c_54, main_v263, main_v264, main_v265, main_v266, main_v267, main_v268, main_c_55, main_v269, main_v270, main_c_56, main_v271, main_v272, main_v273, main_v274, main_v275, main_v276, main_c_57, main_v277, main_v278, main_c_58, main_v279, main_v280, main_v281, main_v282, main_v283, main_v284, main_v285, main_v286, main_cst_59, main_v287, main_v288, main_v289, main_v290, main_v291, main_v292]
theorem ops15_writes : (main_part5_ops2 : List (HloOp τ sig (Elt F))).Forall fun op => op.writes ⊆ (ops15_W.map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
theorem ops16_fresh : (main_part5_ops3 : List (HloOp τ sig (Elt F))).Forall fun op => op.fresh = ∅ := by
  simp only [List.Forall]; repeat' constructor
/-- The references stretch 16's operations write, in order. -/
abbrev ops16_W : List (Ref sig .tc) := [main_call5_cst, main_call5_v0, main_v293]
theorem ops16_writes : (main_part5_ops3 : List (HloOp τ sig (Elt F))).Forall fun op => op.writes ⊆ (ops16_W.map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
theorem ops17_fresh : (main_part5_ops4 : List (HloOp τ sig (Elt F))).Forall fun op => op.fresh = ∅ := by
  simp only [List.Forall]; repeat' constructor
/-- The references stretch 17's operations write, in order. -/
abbrev ops17_W : List (Ref sig .tc) := [main_v294, main_v295, main_v296]
theorem ops17_writes : (main_part5_ops4 : List (HloOp τ sig (Elt F))).Forall fun op => op.writes ⊆ (ops17_W.map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
theorem ops18_fresh : (main_part6_ops0 : List (HloOp τ sig (Elt F))).Forall fun op => op.fresh = ∅ := by
  simp only [List.Forall]; repeat' constructor
/-- The references stretch 18's operations write, in order. -/
abbrev ops18_W : List (Ref sig .tc) := [main_v298, main_v299, main_v300]
theorem ops18_writes : (main_part6_ops0 : List (HloOp τ sig (Elt F))).Forall fun op => op.writes ⊆ (ops18_W.map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)

/-! ## The arguments end as launched -/

/-- The program's argument arrays. -/
abbrev argRefs : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22, main_arg23, main_arg24, main_arg25]

/-- No host operation writes an argument. -/
theorem arg_not_written : ∀ r ∈ argRefs, r ∉ ops0_W ∧ r ∉ ops1_W ∧ r ∉ ops2_W ∧ r ∉ ops3_W ∧ r ∉ ops4_W ∧ r ∉ ops5_W ∧ r ∉ ops6_W ∧ r ∉ ops7_W ∧ r ∉ ops8_W ∧ r ∉ ops9_W ∧ r ∉ ops10_W ∧ r ∉ ops11_W ∧ r ∉ ops12_W ∧ r ∉ ops13_W ∧ r ∉ ops14_W ∧ r ∉ ops15_W ∧ r ∉ ops16_W ∧ r ∉ ops17_W ∧ r ∉ ops18_W := by decide

/-- An argument is no window's array of a launch, or an input window's. -/
theorem arg_window0 : ∀ r ∈ argRefs, (∀ w, Pipeline.arrRef spec0 w ≠ r) ∨ ∃ w, (cfg0.win w).isOut = false ∧ Pipeline.arrRef spec0 w = r := by decide
theorem arg_window1 : ∀ r ∈ argRefs, (∀ w, Pipeline.arrRef spec1 w ≠ r) ∨ ∃ w, (cfg1.win w).isOut = false ∧ Pipeline.arrRef spec1 w = r := by decide
theorem arg_window2 : ∀ r ∈ argRefs, (∀ w, Pipeline.arrRef spec2 w ≠ r) := by decide

theorem W18_arg (c : Dev nD) (r : Ref sig .tc) (hr : r ∈ argRefs) : W18 m ρ c (Proc.devRef .tc r) = m ((c : Thread nD τ).loc r) := by
  obtain ⟨h0, h1, h2, h3, h4, h5, h6, h7, h8, h9, h10, h11, h12, h13, h14, h15, h16, h17, h18⟩ := arg_not_written r hr
  exact (StableHlo.after_of_writes_sub main_part5_ops4 _ ops17_writes h17).trans <| (StableHlo.after_of_writes_sub main_part5_ops3 _ ops16_writes h16).trans <| (StableHlo.after_of_writes_sub main_part5_ops2 _ ops15_writes h15).trans <| (StableHlo.after_of_writes_sub main_part5_ops1 _ ops14_writes h14).trans <| (StableHlo.after_of_writes_sub main_part5_ops0 _ ops13_writes h13).trans <| (StableHlo.after_of_writes_sub main_part4_ops2 _ ops12_writes h12).trans <| (StableHlo.after_of_writes_sub main_part4_ops1 _ ops11_writes h11).trans <| (StableHlo.after_of_writes_sub main_part4_ops0 _ ops10_writes h10).trans <| (StableHlo.after_of_writes_sub main_part3_ops2 _ ops9_writes h9).trans <| (StableHlo.after_of_writes_sub main_part3_ops1 _ ops8_writes h8).trans <| (StableHlo.after_of_writes_sub main_part3_ops0 _ ops7_writes h7).trans <| (StableHlo.after_of_writes_sub main_part2_ops2 _ ops6_writes h6).trans <| (StableHlo.after_of_writes_sub main_part2_ops1 _ ops5_writes h5).trans <| (StableHlo.after_of_writes_sub main_part2_ops0 _ ops4_writes h4).trans <| (StableHlo.after_of_writes_sub main_part1_ops2 _ ops3_writes h3).trans <| (StableHlo.after_of_writes_sub main_part1_ops1 _ ops2_writes h2).trans <| (StableHlo.after_of_writes_sub main_part1_ops0 _ ops1_writes h1).trans <| (StableHlo.after_of_writes_sub main_part0_ops0 _ ops0_writes h0).trans <| rfl

theorem W22_arg (c : Dev nD) (G : (w : Fin cfg2.W) → Buf (Elt F) ((spec2 w).arr.view.loc (c.tc : Thread nD τ))) (r : Ref sig .tc) (hr : r ∈ argRefs) : W22 m ρ c G (Proc.devRef .tc r) = m ((c : Thread nD τ).loc r) := by
  obtain ⟨h0, h1, h2, h3, h4, h5, h6, h7, h8, h9, h10, h11, h12, h13, h14, h15, h16, h17, h18⟩ := arg_not_written r hr
  have e22 : W22 m ρ c G (Proc.devRef .tc r) = W21 m ρ c (Proc.devRef .tc r) := W22_of_ne m ρ c G r (arg_window2 r hr)
  have e21 : W21 m ρ c (Proc.devRef .tc r) = W20 m ρ c (Proc.devRef .tc r) := by
    rcases arg_window1 r hr with h | ⟨w, hw, rfl⟩
    · exact W21_of_ne m ρ c r h
    · exact W21_of_in m ρ c w hw
  have e20 : W20 m ρ c (Proc.devRef .tc r) = W19 m ρ c (Proc.devRef .tc r) := StableHlo.after_of_writes_sub main_part6_ops0 _ ops18_writes h18
  have e19 : W19 m ρ c (Proc.devRef .tc r) = W18 m ρ c (Proc.devRef .tc r) := by
    rcases arg_window0 r hr with h | ⟨w, hw, rfl⟩
    · exact W19_of_ne m ρ c r h
    · exact W19_of_in m ρ c w hw
  exact e22.trans (e21.trans (e20.trans (e19.trans (W18_arg m ρ c r hr))))

/-- The result buffer ends at the product's third array. -/
theorem W22_result (c : Dev nD) (G : (w : Fin cfg2.W) → Buf (Elt F) ((spec2 w).arr.view.loc (c.tc : Thread nD τ))) :
    W22 m ρ c G (Proc.devRef .tc main_v302) = G 2 :=
  W22_arr m ρ c G 2

/-! ## The proof data family and the thread state -/

abbrev adm : (p : Fin 3) → (pcfgs (F := F) p).Adm := fun p => (cfgs p).toPCfg_adm
/-- Every launch's proof data, each at its region's entry contents: the two heads' exact data read relationally, the
    product's relational (its last column block reads rows past the array's end, whose contents nothing names). -/
def rdats : (p : Fin 3) → (c : Dev nD) → RDat τ (Elt F) Unit ℕ (UR sig nD τ) ℕ (Pipeline.pin (pcfgs (F := F)) adm p) c
  | ⟨0, _⟩ => fun c => (dat0 (V18 m ρ) c).toR
  | ⟨1, _⟩ => fun c => (dat1 (V20 m ρ) c).toR
  | ⟨2, _⟩ => fun c => rdat2 (V21 m ρ) c
/-- The product's arrays as exact data would hold them: only the arrays' shares are read off it, to put the arrays back
    among the unscoped buffers. -/
def datJ2 (c : Dev nD) : Dat τ (Elt F) Unit ℕ (UR sig nD τ) ℕ cfg2 c where
  A w := V21 m ρ c (Pipeline.arrRef spec2 w)
  after w t := Dat.unnamed w t
  Φ _ := Pipeline.ΦA spec2 c
  q _ := fullShare
  owed _ := 0
/-- The same family as exact data (the arrays' shares only). -/
def pdatsJ : (p : Fin 3) → (c : Dev nD) → Dat τ (Elt F) Unit ℕ (UR sig nD τ) ℕ (Pipeline.pin (pcfgs (F := F)) adm p) c
  | ⟨0, _⟩ => fun c => dat0 (V18 m ρ) c
  | ⟨1, _⟩ => fun c => dat1 (V20 m ρ) c
  | ⟨2, _⟩ => fun c => datJ2 m ρ c
/-- The arrays a launch may leave, each at some contents the write-backs allow: one choice of contents for all. -/
theorem arraysAt_elim {cfg : Cfg sig Λ₀} {c : Dev nD} (rd : RDat τ (Elt F) Unit ℕ (UR sig nD τ) ℕ cfg c) (n : Nat) :
    rd.arraysAt n ⊢ (iprop(∃ G, ⌜∀ w, rd.ArrAt w n (G w)⌝ ∗ rd.arrays G) : sProp 𝕄) := by
  unfold RDat.arraysAt RDat.arrays
  refine (bigSep_exists_pi Finset.univ _).trans ?_
  iintro ⟨%G, H⟩
  ihave H' := (bigSep_pure_sep Finset.univ (fun w => rd.ArrAt w n (G w)) _) $$ H
  icases H' with ⟨%h, H⟩
  iexists G
  isplitr
  · ipureintro; exact fun w => h w (Finset.mem_univ w)
  iexact H
abbrev 𝒱₀ : Variants := Variants.none
abbrev L : GSem nD τ sig → Finset Unit := fun _ => ∅
abbrev lv : GSem nD τ sig → Unit → ℕ := fun _ _ => 0
/-- What rides beside the buffers through every item: the core's generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(∃ G, ⌜∀ w, (rdat2 (V21 m ρ) c).ArrAt w cfg2.N (G w)⌝
    ∗ StableHlo.held (c : Thread nD τ) (Pipeline.ucRefs τ sig) (W22 m ρ c G) ∗ ∃ r, prngReg c r)

/-! ## The launches as segments -/

set_option backward.isDefEq.respectTransparency.types false in
/-- Launch 0 over the thread state: its arrays split out of the unscoped buffers and put back at the exit contents; the
    generator register into the launch's invariant and out; nothing owed; no semaphore of the kernel's own. -/
def reg0 : Pipeline.RDat.RegionSeg (pcfgs (F := F)) adm (rdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V18 m ρ) c).loose.toR
  hwaits := Pipeline.RDat.hwaits_of_owed_zero _ _ _ _ L lv 0 fun _ _ => rfl
  pre c := iprop(StableHlo.held (c : Thread nD τ) (Pipeline.ucRefs τ sig) (W18 m ρ c) ∗ R c)
  post c := iprop(StableHlo.held (c : Thread nD τ) (Pipeline.ucRefs τ sig) (W19 m ρ c) ∗ R c)
  X c := iprop(∃ r, prngReg c r)
  Y c := iprop(∃ r, prngReg c r)
  Z c := Pipeline.unscopedRest (Ix := Unit) (Name := ℕ) (U := UR sig nD τ) (Lvl := ℕ) spec0 c (V18 m ρ c)
  hentry c := by
    rw [Pipeline.ownSems0_none]
    have hsplit := Pipeline.RDat.arrays_of_unscopedBufs (p := 0) (pcfgs (F := F)) adm (rdats m ρ) launch0.win launch0.arr_whole c
      ((dat0 (V18 m ρ) c).share_full fun _ => rfl) (V18 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (rdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    rw [show (rdats m ρ 0 c).arraysAt (Pipeline.pin (pcfgs (F := F)) adm 0).N = (dat0 (V18 m ρ) c).toR.arraysAt cfg0.N from rfl,
      Pipeline.Dat.toR_arraysAt_eq]
    have hjoin : iprop((dat0 (V18 m ρ) c).arrays ((dat0 (V18 m ρ) c).arrAt · cfg0.N)
          ∗ Pipeline.unscopedRest (Ix := Unit) (Name := ℕ) (U := UR sig nD τ) (Lvl := ℕ) spec0 c (V18 m ρ c))
        ⊢ (unscopedBufs c (V19 m ρ c) : sProp 𝕄) :=
      Pipeline.unscopedBufs_of_arrays (p := 0) (pcfgs (F := F)) adm (Ix := Unit) (Name := ℕ) (U := UR sig nD τ) (Lvl := ℕ)
        launch0.win launch0.arr_whole c (pdatsJ m ρ) ((pdatsJ m ρ 0 c).share_full fun _ => rfl)
        (V18 m ρ c) (V19 m ρ c) ((pdatsJ m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.RDat.owesAt Pipeline.owesWithin
    icases HO with ⟨%W, -, HO⟩; iexists W; iexact HO

set_option backward.isDefEq.respectTransparency.types false in
/-- Launch 1 over the thread state: its arrays split out of the unscoped buffers and put back at the exit contents; the
    generator register into the launch's invariant and out; nothing owed; no semaphore of the kernel's own. -/
def reg1 : Pipeline.RDat.RegionSeg (pcfgs (F := F)) adm (rdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V20 m ρ) c).loose.toR
  hwaits := Pipeline.RDat.hwaits_of_owed_zero _ _ _ _ L lv 1 fun _ _ => rfl
  pre c := iprop(StableHlo.held (c : Thread nD τ) (Pipeline.ucRefs τ sig) (W20 m ρ c) ∗ R c)
  post c := iprop(StableHlo.held (c : Thread nD τ) (Pipeline.ucRefs τ sig) (W21 m ρ c) ∗ R c)
  X c := iprop(∃ r, prngReg c r)
  Y c := iprop(∃ r, prngReg c r)
  Z c := Pipeline.unscopedRest (Ix := Unit) (Name := ℕ) (U := UR sig nD τ) (Lvl := ℕ) spec1 c (V20 m ρ c)
  hentry c := by
    rw [Pipeline.ownSems0_none]
    have hsplit := Pipeline.RDat.arrays_of_unscopedBufs (p := 1) (pcfgs (F := F)) adm (rdats m ρ) launch1.win launch1.arr_whole c
      ((dat1 (V20 m ρ) c).share_full fun _ => rfl) (V20 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (rdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    rw [show (rdats m ρ 1 c).arraysAt (Pipeline.pin (pcfgs (F := F)) adm 1).N = (dat1 (V20 m ρ) c).toR.arraysAt cfg1.N from rfl,
      Pipeline.Dat.toR_arraysAt_eq]
    have hjoin : iprop((dat1 (V20 m ρ) c).arrays ((dat1 (V20 m ρ) c).arrAt · cfg1.N)
          ∗ Pipeline.unscopedRest (Ix := Unit) (Name := ℕ) (U := UR sig nD τ) (Lvl := ℕ) spec1 c (V20 m ρ c))
        ⊢ (unscopedBufs c (V21 m ρ c) : sProp 𝕄) :=
      Pipeline.unscopedBufs_of_arrays (p := 1) (pcfgs (F := F)) adm (Ix := Unit) (Name := ℕ) (U := UR sig nD τ) (Lvl := ℕ)
        launch1.win launch1.arr_whole c (pdatsJ m ρ) ((pdatsJ m ρ 1 c).share_full fun _ => rfl)
        (V20 m ρ c) (V21 m ρ c) ((pdatsJ m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.RDat.owesAt Pipeline.owesWithin
    icases HO with ⟨%W, -, HO⟩; iexists W; iexact HO

set_option backward.isDefEq.respectTransparency.types false in
/-- Launch 2 over the thread state: its arrays split out of the unscoped buffers and put back at the exit contents; the
    generator register into the launch's invariant and out; nothing owed; no semaphore of the kernel's own. -/
def reg2 : Pipeline.RDat.RegionSeg (pcfgs (F := F)) adm (rdats m ρ) () defs₀ 𝒱₀ L lv 2 where
  win := launch2.win.to₀
  block_pos := launch2.block_pos
  stage_whole := launch2.stage_whole
  K := PEmpty
  osem k := k.elim
  ho := Pipeline.OwnSemFacts.none _
  hbody c := body_obligation2 (V21 m ρ) c
  hwaits := Pipeline.RDat.hwaits_of_owed_zero _ _ _ _ L lv 2 fun _ _ => rfl
  pre c := iprop(StableHlo.held (c : Thread nD τ) (Pipeline.ucRefs τ sig) (W21 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V21 m ρ c)
  hentry c := by
    rw [Pipeline.ownSems0_none]
    have hsplit := Pipeline.RDat.arrays_of_unscopedBufs (p := 2) (pcfgs (F := F)) adm (rdats m ρ) launch2.win launch2.arr_whole c
      ((rdat2 (V21 m ρ) c).share_full fun _ => rfl) (V21 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (rdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    iintro ⟨Ha, HO, HY, Hrest⟩
    ihave Ha' := (arraysAt_elim (rdats m ρ 2 c) cfg2.N) $$ Ha
    icases Ha' with ⟨%G, %hG, Ha⟩
    have hjoin : iprop((rdats m ρ 2 c).arrays G
          ∗ Pipeline.unscopedRest (Ix := Unit) (Name := ℕ) (U := UR sig nD τ) (Lvl := ℕ) spec2 c (V21 m ρ c))
        ⊢ (unscopedBufs c (V22 m ρ c G) : sProp 𝕄) :=
      Pipeline.unscopedBufs_of_arrays (p := 2) (pcfgs (F := F)) adm (Ix := Unit) (Name := ℕ) (U := UR sig nD τ) (Lvl := ℕ)
        launch2.win launch2.arr_whole c (pdatsJ m ρ) ((pdatsJ m ρ 2 c).share_full fun _ => rfl)
        (V21 m ρ c) (V22 m ρ c G) G (fun w => (W22_arr m ρ c G w).symm) (hrest2 m ρ c G)
    rw [Pipeline.unscopedBufs_held] at hjoin
    imodintro
    isplitl [Ha Hrest HY]
    · iexists G
      isplitr; · ipureintro; exact hG
      isplitl [Ha Hrest]
      · iapply hjoin; isplitl [Ha] <;> iassumption
      iexact HY
    unfold Pipeline.RDat.owesAt Pipeline.owesWithin
    icases HO with ⟨%W, -, HO⟩; iexists W; iexact HO

/-! ## The program as segments, and the launch -/

/-- The program's 22 items in order. -/
abbrev segs : List (Pipeline.RDat.Seg (pcfgs (F := F)) adm (rdats m ρ) () defs₀ 𝒱₀ L lv) :=
  [ .host (hseg main_part0_ops0 main_part0_ops0_sub ops0_fresh (W0 m ρ)),
    .host (hseg main_part1_ops0 main_part1_ops0_sub ops1_fresh (W1 m ρ)),
    .host (hseg main_part1_ops1 main_part1_ops1_sub ops2_fresh (W2 m ρ)),
    .host (hseg main_part1_ops2 main_part1_ops2_sub ops3_fresh (W3 m ρ)),
    .host (hseg main_part2_ops0 main_part2_ops0_sub ops4_fresh (W4 m ρ)),
    .host (hseg main_part2_ops1 main_part2_ops1_sub ops5_fresh (W5 m ρ)),
    .host (hseg main_part2_ops2 main_part2_ops2_sub ops6_fresh (W6 m ρ)),
    .host (hseg main_part3_ops0 main_part3_ops0_sub ops7_fresh (W7 m ρ)),
    .host (hseg main_part3_ops1 main_part3_ops1_sub ops8_fresh (W8 m ρ)),
    .host (hseg main_part3_ops2 main_part3_ops2_sub ops9_fresh (W9 m ρ)),
    .host (hseg main_part4_ops0 main_part4_ops0_sub ops10_fresh (W10 m ρ)),
    .host (hseg main_part4_ops1 main_part4_ops1_sub ops11_fresh (W11 m ρ)),
    .host (hseg main_part4_ops2 main_part4_ops2_sub ops12_fresh (W12 m ρ)),
    .host (hseg main_part5_ops0 main_part5_ops0_sub ops13_fresh (W13 m ρ)),
    .host (hseg main_part5_ops1 main_part5_ops1_sub ops14_fresh (W14 m ρ)),
    .host (hseg main_part5_ops2 main_part5_ops2_sub ops15_fresh (W15 m ρ)),
    .host (hseg main_part5_ops3 main_part5_ops3_sub ops16_fresh (W16 m ρ)),
    .host (hseg main_part5_ops4 main_part5_ops4_sub ops17_fresh (W17 m ρ)),
    .region (reg0 m ρ),
    .host (hseg main_part6_ops0 main_part6_ops0_sub ops18_fresh (W19 m ρ)),
    .region (reg1 m ρ),
    .region (reg2 m ρ) ]
/-- The program IS the run of the segments. -/
theorem main_run (c : Dev nD) : main (F := F) c = Pipeline.RDat.Seg.run (segs m ρ) := (main_chain_windows c).trans (by chain_rfl)

set_option backward.isDefEq.respectTransparency.types false in
/-- THE RUN: from any memory with zero counters every weakly fair execution of the program terminates, nothing
    faulting, and every final state holds every unscoped buffer at the last boundary's contents, for some contents of
    the product's arrays that its write-backs allow. -/
theorem run_main : θ_run defs (onTc (τ := τ) (main (F := F))) ⟨m, fun _ => 0, ρ⟩ (fun r => ∀ c : Dev nD,
      ∃ G : (w : Fin cfg2.W) → Buf (Elt F) ((spec2 w).arr.view.loc (c.tc : Thread nD τ)), (∀ w, (rdat2 (V21 m ρ) c).ArrAt w cfg2.N (G w))
      ∧ ∀ b ∈ Pipeline.ucRefs τ sig, r.2.mem (((c : Thread nD τ)).1, b) = W22 m ρ c G b) :=
  Pipeline.RDat.θ_run_regions_kit (pcfgs (F := F)) adm (rdats m ρ) () cellOf_inj emb₁ defs₀ 𝒱₀ L lv m ρ main (segs m ρ)
    (fun c Q => by rw [main_run m ρ c])
    (by simp only [segs, Pipeline.RDat.Seg.pipes_host, Pipeline.RDat.Seg.pipes_region, Pipeline.RDat.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∃ G : (w : Fin cfg2.W) → Buf (Elt F) ((spec2 w).arr.view.loc (c.tc : Thread nD τ)), (∀ w, (rdat2 (V21 m ρ) c).ArrAt w cfg2.N (G w))
      ∧ ∀ b ∈ Pipeline.ucRefs τ sig, s.mem (((c : Thread nD τ)).1, b) = W22 m ρ c G b)
    (hfin := fun c s' => by
      iintro ⟨⟨%G, %hG, Hh, -⟩, HSI⟩
      unfold StableHlo.held
      ihave Hr := (pointsTo_read_all (Pipeline.ucRefs τ sig) (fun b => (((c : Thread nD τ)).1, b)) (W22 m ρ c G) s') $$ [Hh HSI]
      · isplitl [Hh] <;> iassumption
      icases Hr with ⟨%h, HSI⟩
      imodintro
      isplitr
      · ipureintro; exact ⟨G, hG, h⟩
      · iexact HSI)
    (hQ := fun s h => h)

/-- THE FRAME at any float instance: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)) :=
  (θ_run defs _ _).mono (fun s h c => by
    obtain ⟨G, -, hb⟩ := h c
    exact ⟨(hb _ (mem_uc main_arg0 (by decide))).trans (W22_arg m ρ c G main_arg0 (by decide)),
     (hb _ (mem_uc main_arg1 (by decide))).trans (W22_arg m ρ c G main_arg1 (by decide)),
     (hb _ (mem_uc main_arg2 (by decide))).trans (W22_arg m ρ c G main_arg2 (by decide)),
     (hb _ (mem_uc main_arg3 (by decide))).trans (W22_arg m ρ c G main_arg3 (by decide)),
     (hb _ (mem_uc main_arg4 (by decide))).trans (W22_arg m ρ c G main_arg4 (by decide)),
     (hb _ (mem_uc main_arg5 (by decide))).trans (W22_arg m ρ c G main_arg5 (by decide)),
     (hb _ (mem_uc main_arg6 (by decide))).trans (W22_arg m ρ c G main_arg6 (by decide)),
     (hb _ (mem_uc main_arg7 (by decide))).trans (W22_arg m ρ c G main_arg7 (by decide)),
     (hb _ (mem_uc main_arg8 (by decide))).trans (W22_arg m ρ c G main_arg8 (by decide)),
     (hb _ (mem_uc main_arg9 (by decide))).trans (W22_arg m ρ c G main_arg9 (by decide)),
     (hb _ (mem_uc main_arg10 (by decide))).trans (W22_arg m ρ c G main_arg10 (by decide)),
     (hb _ (mem_uc main_arg11 (by decide))).trans (W22_arg m ρ c G main_arg11 (by decide)),
     (hb _ (mem_uc main_arg12 (by decide))).trans (W22_arg m ρ c G main_arg12 (by decide)),
     (hb _ (mem_uc main_arg13 (by decide))).trans (W22_arg m ρ c G main_arg13 (by decide)),
     (hb _ (mem_uc main_arg14 (by decide))).trans (W22_arg m ρ c G main_arg14 (by decide)),
     (hb _ (mem_uc main_arg15 (by decide))).trans (W22_arg m ρ c G main_arg15 (by decide)),
     (hb _ (mem_uc main_arg16 (by decide))).trans (W22_arg m ρ c G main_arg16 (by decide)),
     (hb _ (mem_uc main_arg17 (by decide))).trans (W22_arg m ρ c G main_arg17 (by decide)),
     (hb _ (mem_uc main_arg18 (by decide))).trans (W22_arg m ρ c G main_arg18 (by decide)),
     (hb _ (mem_uc main_arg19 (by decide))).trans (W22_arg m ρ c G main_arg19 (by decide)),
     (hb _ (mem_uc main_arg20 (by decide))).trans (W22_arg m ρ c G main_arg20 (by decide)),
     (hb _ (mem_uc main_arg21 (by decide))).trans (W22_arg m ρ c G main_arg21 (by decide)),
     (hb _ (mem_uc main_arg22 (by decide))).trans (W22_arg m ρ c G main_arg22 (by decide)),
     (hb _ (mem_uc main_arg23 (by decide))).trans (W22_arg m ρ c G main_arg23 (by decide)),
     (hb _ (mem_uc main_arg24 (by decide))).trans (W22_arg m ρ c G main_arg24 (by decide)),
     (hb _ (mem_uc main_arg25 (by decide))).trans (W22_arg m ρ c G main_arg25 (by decide))⟩)
    (run_main m ρ)

end Cert.Kernel.Hand

end
-- ==== Proof.IdealMlp0.lean ====
/- The per-region half of the frame for REGION 0 of @main: the fused three-layer perceptron head
   relu(relu(relu(h·W1 + b1)·W2 + b2)·W3 + b3) on row blocks of 1000 rows of a 10000×128 array (grid 10).
   Window 0 is the 1000×128 row block (its index moves with the point); windows 1..6 are the three weight matrices
   and the three biases, whole, at a constant index; window 7 is the 1000×32 output block.
   Everything is stated at a PARAMETER `V`: the TensorCore's buffer contents when the region is entered. -/
import proofs.«154350_j35708358099201_1_alg».proof.Proof.Gen.KernelIdeal.Launch
import proofs.«154350_j35708358099201_1_alg».proof.Proof.Gen.KernelIdeal.Skeleton
import proofs.«154350_j35708358099201_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 1000 rows: the structural recursion goes once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 (the row block of the activations), fetched at every point: its current staging buffer holds its block at
    every point, for ANY proof data whose array is `V`'s (`hA`) and whose body leaves the block in place (`hafter`).
    The window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 (the first layer's weights), fetched at the first point only, its block index constant over the grid: an
    unfetched point finds in the buffer the block of the point before, which is the same block. So its current staging
    buffer holds its block at every point, for ANY proof data whose array is `V`'s (`hA`) and whose body leaves the
    block in place (`hafter`). The window is uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2 (the first layer's bias), fetched at the first point only, its block index constant over the grid: an
    unfetched point finds in the buffer the block of the point before, which is the same block. So its current staging
    buffer holds its block at every point, for ANY proof data whose array is `V`'s (`hA`) and whose body leaves the
    block in place (`hafter`). The window is uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3 (the second layer's weights), fetched at the first point only, its block index constant over the grid: an
    unfetched point finds in the buffer the block of the point before, which is the same block. So its current staging
    buffer holds its block at every point, for ANY proof data whose array is `V`'s (`hA`) and whose body leaves the
    block in place (`hafter`). The window is uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4 (the second layer's bias), fetched at the first point only, its block index constant over the grid: an
    unfetched point finds in the buffer the block of the point before, which is the same block. So its current staging
    buffer holds its block at every point, for ANY proof data whose array is `V`'s (`hA`) and whose body leaves the
    block in place (`hafter`). The window is uncut and never idle. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5 (the third layer's weights), fetched at the first point only, its block index constant over the grid: an
    unfetched point finds in the buffer the block of the point before, which is the same block. So its current staging
    buffer holds its block at every point, for ANY proof data whose array is `V`'s (`hA`) and whose body leaves the
    block in place (`hafter`). The window is uncut and never idle. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6 (the third layer's bias), fetched at the first point only, its block index constant over the grid: an
    unfetched point finds in the buffer the block of the point before, which is the same block. So its current staging
    buffer holds its block at every point, for ANY proof data whose array is `V`'s (`hA`) and whose body leaves the
    block in place (`hafter`). The window is uncut and never idle. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and the one store take the whole buffer -/

abbrev r0_0 : Rect S1000x128 := Rect.unit (s := S1000x128) ![0, 0] S1000x128.size inb_S1000x128_S1000x128_0_0
abbrev r0_1 : Rect S128x128 := Rect.unit (s := S128x128) ![0, 0] S128x128.size inb_S128x128_S128x128_0_0
abbrev r0_2 : Rect S1x128 := Rect.unit (s := S1x128) ![0, 0] S1x128.size inb_S1x128_S1x128_0_0
abbrev r0_3 : Rect S128x64 := Rect.unit (s := S128x64) ![0, 0] S128x64.size inb_S128x64_S128x64_0_0
abbrev r0_4 : Rect S1x64 := Rect.unit (s := S1x64) ![0, 0] S1x64.size inb_S1x64_S1x64_0_0
abbrev r0_5 : Rect S64x32 := Rect.unit (s := S64x32) ![0, 0] S64x32.size inb_S64x32_S64x32_0_0
abbrev r0_6 : Rect S1x32 := Rect.unit (s := S1x32) ![0, 0] S1x32.size inb_S1x32_S1x32_0_0
abbrev r0_7 : Rect S1000x32 := Rect.unit (s := S1000x32) ![0, 0] S1000x32.size inb_S1000x32_S1000x32_0_0

/-! ## What the body leaves in the output window's buffer -/

/-- Window 7's staging buffer after the body, from the seven input blocks: the body's one store, of the whole
    1000×32 block, whose payload is relu(relu(relu(x0·x1 + x2)·x3 + x4)·x5 + x6) (`k0_pay1`). -/
def out0_7 (x0 : Vec F S1000x128 .f32) (x1 : Vec F S128x128 .f32) (x2 : Vec F S1x128 .f32) (x3 : Vec F S128x64 .f32)
    (x4 : Vec F S1x64 .f32) (x5 : Vec F S64x32 .f32) (x6 : Vec F S1x32 .f32) : Vec F S1000x32 .f32 :=
  View.canon [⟨r0_7, k0_pay1 (View.ld x0 r0_0) (View.ld x1 r0_1) (View.ld x2 r0_2) (View.ld x3 r0_3) (View.ld x4 r0_4) (View.ld x5 r0_5) (View.ld x6 r0_6)⟩]

/-- The one store takes the whole buffer, so it covers it. -/
theorem cover0_7 (p0 : Vec F S1000x32 .f32) (y : S1000x32.Idx) :
    ∃ pc ∈ ([⟨r0_7, p0⟩] : List (View.Piece (Elt F) S1000x32 .f32)), y ∈ pc.1.set :=
  View.cover_of_tiled [⟨r0_7, p0⟩] S1000x32.size (by rfl) y

/-! ## The body's triple -/

set_option maxHeartbeats 1000000 in
/-- The kernel body on whole staging memrefs, the seven inputs' at read contents `x0 … x6` and the output's at
    anything, runs to the continuation holding the inputs' as they were and the output's at `out0_7` of the inputs'.
    The body reads the output buffer once before it stores (the value read is not used); the store then takes the whole
    buffer, so what the buffer held before does not survive. -/
theorem sound_kernel0 (c : Dev nD) (E : Set ℕ) (i : grid0.Coords)
    (arg1 : Memref sig .tc .vmem S1000x128 .f32) (harg1 : arg1.IsWhole)
    (arg2 : Memref sig .tc .vmem S128x128 .f32) (harg2 : arg2.IsWhole)
    (arg3 : Memref sig .tc .vmem S1x128 .f32) (harg3 : arg3.IsWhole)
    (arg4 : Memref sig .tc .vmem S128x64 .f32) (harg4 : arg4.IsWhole)
    (arg5 : Memref sig .tc .vmem S1x64 .f32) (harg5 : arg5.IsWhole)
    (arg6 : Memref sig .tc .vmem S64x32 .f32) (harg6 : arg6.IsWhole)
    (arg7 : Memref sig .tc .vmem S1x32 .f32) (harg7 : arg7.IsWhole)
    (arg8 : Memref sig .tc .vmem S1000x32 .f32) (harg8 : arg8.IsWhole)
    (x0 : Vec F S1000x128 .f32) (x1 : Vec F S128x128 .f32) (x2 : Vec F S1x128 .f32) (x3 : Vec F S128x64 .f32) (x4 : Vec F S1x64 .f32) (x5 : Vec F S64x32 .f32) (x6 : Vec F S1x32 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (out0_7 x0 x1 x2 x3 x4 x5 x6)) -∗ K ⟨⟩))
      ⊢ wp frame (wpE (defs₀ (F := F)) Variants.none c none) E (cc0__mlp3_kernel i arg1 harg1 arg2 harg2 arg3 harg3 arg4 harg4 arg5 harg5 arg6 harg6 arg7 harg7 arg8 harg8) K := by
  simp only [cc0__mlp3_kernel_eq_skeleton]; unfold cc0__mlp3_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover0_7 _)

/-! ## The pipeline's proof data -/

/-- The proof data of pipeline 0 on core `c`: the arrays as the region finds them (`V`); after the body at point `t`
    each input's buffer at its block and the output's at `out0_7` of the input blocks; the invariant is the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t) (iblk0 V c 3 t) (iblk0 V c 4 t) (iblk0 V c 5 t) (iblk0 V c 6 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = out0_7 (iblk0 V c 0 t) (iblk0 V c 1 t) (iblk0 V c 2 t) (iblk0 V c 3 t) (iblk0 V c 4 t) (iblk0 V c 5 t) (iblk0 V c 6 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-! ## The body obligation, at a generic point -/

/-- What the body is called with at point `t`: the invariant, the core's debts, and every window's current staging
    buffer at what the pipeline left in it, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

/-- The body at any point: the inputs' memrefs hold their blocks (`before0_W`), so `sound_kernel0` applies; the
    invariant and the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.IdealMlp1.lean ====
/- The per-region half of the frame for REGION 1 of @main: the fused three-layer perceptron head
   relu(relu(relu(h·W1 + b1)·W2 + b2)·W3 + b3) on row blocks of 1000 rows of a 10000×128 array (grid 10).
   Window 0 is the 1000×128 row block (its index moves with the point); windows 1..6 are the three weight matrices
   and the three biases, whole, at a constant index; window 7 is the 1000×32 output block.
   Everything is stated at a PARAMETER `V`: the TensorCore's buffer contents when the region is entered. -/
import proofs.«154350_j35708358099201_1_alg».proof.Proof.Gen.KernelIdeal.Launch
import proofs.«154350_j35708358099201_1_alg».proof.Proof.Gen.KernelIdeal.Skeleton
import proofs.«154350_j35708358099201_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 1000 rows: the structural recursion goes once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 (the row block of the activations), fetched at every point: its current staging buffer holds its block at
    every point, for ANY proof data whose array is `V`'s (`hA`) and whose body leaves the block in place (`hafter`).
    The window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 (the first layer's weights), fetched at the first point only, its block index constant over the grid: an
    unfetched point finds in the buffer the block of the point before, which is the same block. So its current staging
    buffer holds its block at every point, for ANY proof data whose array is `V`'s (`hA`) and whose body leaves the
    block in place (`hafter`). The window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2 (the first layer's bias), fetched at the first point only, its block index constant over the grid: an
    unfetched point finds in the buffer the block of the point before, which is the same block. So its current staging
    buffer holds its block at every point, for ANY proof data whose array is `V`'s (`hA`) and whose body leaves the
    block in place (`hafter`). The window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3 (the second layer's weights), fetched at the first point only, its block index constant over the grid: an
    unfetched point finds in the buffer the block of the point before, which is the same block. So its current staging
    buffer holds its block at every point, for ANY proof data whose array is `V`'s (`hA`) and whose body leaves the
    block in place (`hafter`). The window is uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4 (the second layer's bias), fetched at the first point only, its block index constant over the grid: an
    unfetched point finds in the buffer the block of the point before, which is the same block. So its current staging
    buffer holds its block at every point, for ANY proof data whose array is `V`'s (`hA`) and whose body leaves the
    block in place (`hafter`). The window is uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5 (the third layer's weights), fetched at the first point only, its block index constant over the grid: an
    unfetched point finds in the buffer the block of the point before, which is the same block. So its current staging
    buffer holds its block at every point, for ANY proof data whose array is `V`'s (`hA`) and whose body leaves the
    block in place (`hafter`). The window is uncut and never idle. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6 (the third layer's bias), fetched at the first point only, its block index constant over the grid: an
    unfetched point finds in the buffer the block of the point before, which is the same block. So its current staging
    buffer holds its block at every point, for ANY proof data whose array is `V`'s (`hA`) and whose body leaves the
    block in place (`hafter`). The window is uncut and never idle. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the one store take the whole buffer -/

abbrev r1_0 : Rect S1000x128 := Rect.unit (s := S1000x128) ![0, 0] S1000x128.size inb_S1000x128_S1000x128_0_0
abbrev r1_1 : Rect S128x128 := Rect.unit (s := S128x128) ![0, 0] S128x128.size inb_S128x128_S128x128_0_0
abbrev r1_2 : Rect S1x128 := Rect.unit (s := S1x128) ![0, 0] S1x128.size inb_S1x128_S1x128_0_0
abbrev r1_3 : Rect S128x64 := Rect.unit (s := S128x64) ![0, 0] S128x64.size inb_S128x64_S128x64_0_0
abbrev r1_4 : Rect S1x64 := Rect.unit (s := S1x64) ![0, 0] S1x64.size inb_S1x64_S1x64_0_0
abbrev r1_5 : Rect S64x32 := Rect.unit (s := S64x32) ![0, 0] S64x32.size inb_S64x32_S64x32_0_0
abbrev r1_6 : Rect S1x32 := Rect.unit (s := S1x32) ![0, 0] S1x32.size inb_S1x32_S1x32_0_0
abbrev r1_7 : Rect S1000x32 := Rect.unit (s := S1000x32) ![0, 0] S1000x32.size inb_S1000x32_S1000x32_0_0

/-! ## What the body leaves in the output window's buffer -/

/-- Window 7's staging buffer after the body, from the seven input blocks: the body's one store, of the whole
    1000×32 block, whose payload is relu(relu(relu(x0·x1 + x2)·x3 + x4)·x5 + x6) (`k1_pay1`). -/
def out1_7 (x0 : Vec F S1000x128 .f32) (x1 : Vec F S128x128 .f32) (x2 : Vec F S1x128 .f32) (x3 : Vec F S128x64 .f32)
    (x4 : Vec F S1x64 .f32) (x5 : Vec F S64x32 .f32) (x6 : Vec F S1x32 .f32) : Vec F S1000x32 .f32 :=
  View.canon [⟨r1_7, k1_pay1 (View.ld x0 r1_0) (View.ld x1 r1_1) (View.ld x2 r1_2) (View.ld x3 r1_3) (View.ld x4 r1_4) (View.ld x5 r1_5) (View.ld x6 r1_6)⟩]

/-- The one store takes the whole buffer, so it covers it. -/
theorem cover1_7 (p0 : Vec F S1000x32 .f32) (y : S1000x32.Idx) :
    ∃ pc ∈ ([⟨r1_7, p0⟩] : List (View.Piece (Elt F) S1000x32 .f32)), y ∈ pc.1.set :=
  View.cover_of_tiled [⟨r1_7, p0⟩] S1000x32.size (by rfl) y

/-! ## The body's triple -/

set_option maxHeartbeats 1000000 in
/-- The kernel body on whole staging memrefs, the seven inputs' at read contents `x0 … x6` and the output's at
    anything, runs to the continuation holding the inputs' as they were and the output's at `out1_7` of the inputs'.
    The body reads the output buffer once before it stores (the value read is not used); the store then takes the whole
    buffer, so what the buffer held before does not survive. -/
theorem sound_kernel1 (c : Dev nD) (E : Set ℕ) (i : grid1.Coords)
    (arg1 : Memref sig .tc .vmem S1000x128 .f32) (harg1 : arg1.IsWhole)
    (arg2 : Memref sig .tc .vmem S128x128 .f32) (harg2 : arg2.IsWhole)
    (arg3 : Memref sig .tc .vmem S1x128 .f32) (harg3 : arg3.IsWhole)
    (arg4 : Memref sig .tc .vmem S128x64 .f32) (harg4 : arg4.IsWhole)
    (arg5 : Memref sig .tc .vmem S1x64 .f32) (harg5 : arg5.IsWhole)
    (arg6 : Memref sig .tc .vmem S64x32 .f32) (harg6 : arg6.IsWhole)
    (arg7 : Memref sig .tc .vmem S1x32 .f32) (harg7 : arg7.IsWhole)
    (arg8 : Memref sig .tc .vmem S1000x32 .f32) (harg8 : arg8.IsWhole)
    (x0 : Vec F S1000x128 .f32) (x1 : Vec F S128x128 .f32) (x2 : Vec F S1x128 .f32) (x3 : Vec F S128x64 .f32) (x4 : Vec F S1x64 .f32) (x5 : Vec F S64x32 .f32) (x6 : Vec F S1x32 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (out1_7 x0 x1 x2 x3 x4 x5 x6)) -∗ K ⟨⟩))
      ⊢ wp frame (wpE (defs₀ (F := F)) Variants.none c none) E (cc1__mlp3_kernel i arg1 harg1 arg2 harg2 arg3 harg3 arg4 harg4 arg5 harg5 arg6 harg6 arg7 harg7 arg8 harg8) K := by
  simp only [cc1__mlp3_kernel_eq_skeleton]; unfold cc1__mlp3_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover1_7 _)

/-! ## The pipeline's proof data -/

/-- The proof data of pipeline 1 on core `c`: the arrays as the region finds them (`V`); after the body at point `t`
    each input's buffer at its block and the output's at `out1_7` of the input blocks; the invariant is the scoped
    rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = out1_7 (iblk1 V c 0 t) (iblk1 V c 1 t) (iblk1 V c 2 t) (iblk1 V c 3 t) (iblk1 V c 4 t) (iblk1 V c 5 t) (iblk1 V c 6 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-! ## The body obligation, at a generic point -/

/-- What the body is called with at point `t`: the invariant, the core's debts, and every window's current staging
    buffer at what the pipeline left in it, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

/-- The body at any point: the inputs' memrefs hold their blocks (`before1_W`), so `sound_kernel1` applies; the
    invariant and the core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.IdealGram2.lean ====
/-
  Region 2 of @main: the product x · yᵀ of two 10000 × 32 arrays, computed block by block on a 10 × 8 grid.
  At point (i, j) the body multiplies rows 1000·i ‥ 1000·i + 999 of x by the transpose of rows
  1280·j ‥ 1280·j + 1279 of y and stores the 1000 × 1280 product into the block (i, j) of the result.
  Eight blocks of 1280 rows cover 10240 > 10000 rows: at j = 7 the block of y overhangs its array by 240 rows,
  and the block of the result overhangs its array by 240 columns. The fetch of that block of y fills only the
  first 1040 rows of the staging buffer; the other 240 rows hold words nothing names. The body reads the whole
  buffer, so the last 240 columns of its product are computed from those words; the write-back moves only the
  first 1040 columns, so none of them reaches the result array.

  Because the product is, at an arbitrary float instance, a function of its whole operands, the contents the body
  leaves in the result's staging buffer cannot be named without the unnamed words d of y's buffer. The proof data
  are therefore relational: the body leaves each input buffer as it found it, and leaves the result's buffer at
  the product of x's block with y's block filled out by SOME d.
-/
import proofs.«154350_j35708358099201_1_alg».proof.Proof.Gen.KernelIdeal.Launch
import proofs.«154350_j35708358099201_1_alg».proof.Proof.Gen.KernelIdeal.Skeleton
import proofs.«154350_j35708358099201_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

section Region2
-- the TensorCore's buffer contents when the region is entered: the parameter the region's half is stated at
variable (V : (c : Dev nD) → (b : Ref sig .tc) → Buf (Elt F) ((c : Thread nD τ).loc b))

/-- Window `w`'s block at point `t`, read off its array as the region finds it: the part of the block inside the array. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## The body's accesses: each whole staging buffer -/

abbrev r2_0 : Rect S1000x32 := Rect.unit (s := S1000x32) ![0, 0] S1000x32.size inb_S1000x32_S1000x32_0_0
abbrev r2_1 : Rect S1280x32 := Rect.unit (s := S1280x32) ![0, 0] S1280x32.size inb_S1280x32_S1280x32_0_0
abbrev r2_2 : Rect S1000x1280 := Rect.unit (s := S1000x1280) ![0, 0] S1000x1280.size inb_S1000x1280_S1000x1280_0_0

/-- The result's staging buffer after the body, from the contents x0, x1 of the two input buffers: the one store,
    whose payload is the product x0 · x1ᵀ. -/
def out2_2 (x0 : Vec F S1000x32 .f32) (x1 : Vec F S1280x32 .f32) : Vec F S1000x1280 .f32 :=
  View.canon [⟨r2_2, k2_pay1 (View.ld x0 r2_0) (View.ld x1 r2_1)⟩]

/-- The one store covers the buffer. -/
theorem cover2_2 (p0 : Vec F S1000x1280 .f32) (y : S1000x1280.Idx) :
    ∃ pc ∈ ([⟨r2_2, p0⟩] : List (View.Piece (Elt F) S1000x1280 .f32)), y ∈ pc.1.set :=
  View.cover_of_tiled [⟨r2_2, p0⟩] S1000x1280.size (by rfl) y

set_option maxHeartbeats 1000000 in
/-- The body on whole staging memrefs, the inputs' at contents x0, x1 and the result's at anything, runs to the
    continuation holding the inputs' as they were and the result's at out2_2 x0 x1: two whole loads, a load of the
    result's buffer whose value is not used, the product, one whole store. -/
theorem sound_kernel2 (c : Dev nD) (E : Set ℕ) (i : grid2.Coords)
    (arg2 : Memref sig .tc .vmem S1000x32 .f32) (harg2 : arg2.IsWhole)
    (arg3 : Memref sig .tc .vmem S1280x32 .f32) (harg3 : arg3.IsWhole)
    (arg4 : Memref sig .tc .vmem S1000x1280 .f32) (harg4 : arg4.IsWhole)
    (x0 : Vec F S1000x32 .f32) (x1 : Vec F S1280x32 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out2_2 x0 x1)) -∗ K ⟨⟩))
      ⊢ wp frame (wpE (defs₀ (F := F)) Variants.none c none) E (cc2__xy_matmul_kernel i arg2 harg2 arg3 harg3 arg4 harg4) K := by
  simp only [cc2__xy_matmul_kernel_eq_skeleton]; unfold cc2__xy_matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-- The relational proof data of pipeline 2 on core `c`. -/
def rdat2 (c : Dev nD) : RDat τ (Elt F) Unit ℕ (UR sig nD τ) ℕ cfg2 c where
  A w := V c (Pipeline.arrRef spec2 w)
  after w t := match w with
    | ⟨0, _⟩ => fun Y X => X = Y
    | ⟨1, _⟩ => fun Y X => X = Y
    | ⟨2, _⟩ => fun _ X => ∃ d, X = out2_2 (iblk2 V c 0 t) (win2_1.fill (grid2.coords t) d (iblk2 V c 1 t))
  Φ _ := Pipeline.ΦA spec2 c
  q _ := fullShare
  owed _ := 0

/-- The proof data's arrays are the region-entry contents. -/
theorem rA_eq2 (c : Dev nD) (w : Fin cfg2.W) : (rdat2 V c).A w = V c (Pipeline.arrRef spec2 w) := by
  dsimp only [rdat2]

/-- The relation, window by window. -/
theorem rafter2_0 (c : Dev nD) (t : Fin cfg2.N) (Y X) : (rdat2 V c).after 0 t Y X ↔ X = Y := by dsimp only [rdat2]; exact Iff.rfl
theorem rafter2_1 (c : Dev nD) (t : Fin cfg2.N) (Y X) : (rdat2 V c).after 1 t Y X ↔ X = Y := by dsimp only [rdat2]; exact Iff.rfl
theorem rafter2_2 (c : Dev nD) (t : Fin cfg2.N) (Y X) : (rdat2 V c).after 2 t Y X ↔
    ∃ d, X = out2_2 (iblk2 V c 0 t) (win2_1.fill (grid2.coords t) d (iblk2 V c 1 t)) := by dsimp only [rdat2]; exact Iff.rfl

/-- Window 0 (x) is uncut and its body leaves it as found: whatever the body finds there at point t, fetched there
    or not (the block index moves only with i), is x's block. -/
theorem finds2_0 (c : Dev nD) (t : Fin cfg2.N) (Y) (h : (rdat2 V c).Finds 0 t Y) : Y = iblk2 V c 0 t := by
  obtain ⟨d, hd⟩ := Pipeline.RDat.finds_in_eq_fetched (rdat2 V c) 0 rfl (fun _ _ _ => rfl)
    (fun t Y X h => (rafter2_0 V c t Y X).mp h) t Y h
  rw [hd]; unfold RDat.fetched RDat.blockOf iblk2; rw [rA_eq2]; try rfl

/-- Window 1 (y) is fetched at every point: the body finds y's block on the rows inside the array and some d
    elsewhere. -/
theorem finds2_1 (c : Dev nD) (t : Fin cfg2.N) (Y) (h : (rdat2 V c).Finds 1 t Y) :
    ∃ d, Y = win2_1.fill (grid2.coords t) d (iblk2 V c 1 t) := by
  obtain ⟨d, hd⟩ := ((rdat2 V c).finds_of_fetch (fetch2_1 t) Y).mp h
  refine ⟨d, ?_⟩
  rw [hd]; unfold RDat.fetched RDat.blockOf iblk2; rw [rA_eq2]; try rfl

/-- What the body is called with at point `t`, the windows one by one, and what it returns. -/
def bodyPre2 (c : Dev nD) (t : Fin cfg2.N) (Y : (w : Fin cfg2.W) → (cfg2.win w).block.Idx → Elt F (cfg2.win w).elt) : sProp 𝕄 :=
  iprop((rdat2 V c).Φ t.castSucc ∗ (rdat2 V c).owesAt () t.castSucc
    ∗ owns (c : Thread nD τ) (st2_0 t) fullShare (Y 0)
    ∗ owns (c : Thread nD τ) (st2_1 t) fullShare (Y 1)
    ∗ owns (c : Thread nD τ) (st2_2 t) fullShare (Y 2))

def bodyPost2 (c : Dev nD) (t : Fin cfg2.N) (Y : (w : Fin cfg2.W) → (cfg2.win w).block.Idx → Elt F (cfg2.win w).elt) : sProp 𝕄 :=
  iprop((rdat2 V c).Φ t.succ ∗ (rdat2 V c).owesAt () t.succ
    ∗ (∃ X, ⌜(rdat2 V c).after 0 t (Y 0) X⌝ ∗ owns (c : Thread nD τ) (st2_0 t) fullShare X)
    ∗ (∃ X, ⌜(rdat2 V c).after 1 t (Y 1) X⌝ ∗ owns (c : Thread nD τ) (st2_1 t) fullShare X)
    ∗ (∃ X, ⌜(rdat2 V c).after 2 t (Y 2) X⌝ ∗ owns (c : Thread nD τ) (st2_2 t) fullShare X))

/-- The body at any point, on any contents Y the buffers may then hold: Y 0 is x's block, Y 1 is y's block filled
    out by some d, so what the body leaves in the result's buffer is in the relation with that d. -/
theorem sound_body2 (c : Dev nD) (t : Fin cfg2.N) (Y : (w : Fin cfg2.W) → (cfg2.win w).block.Idx → Elt F (cfg2.win w).elt)
    (hY : ∀ w, (rdat2 V c).Finds w t (Y w)) :
    bodyPre2 V c t Y ⊢ wp frame (wpE (defs₀ (F := F)) Variants.none c none) Set.univ (bodyAt2 t) (fun _ => bodyPost2 V c t Y) := by
  obtain ⟨d1, h1⟩ := finds2_1 V c t (Y 1) (hY 1)
  have h0 := finds2_0 V c t (Y 0) (hY 0)
  unfold bodyPre2 bodyPost2 bodyAt2
  rw [show (rdat2 V c).Φ t.succ = (rdat2 V c).Φ t.castSucc from rfl,
    show (rdat2 V c).owesAt () t.succ = (rdat2 V c).owesAt () t.castSucc from rfl]
  iintro ⟨HΦ, Ho, H0, H1, H2⟩
  iapply (sound_kernel2 c Set.univ _ _ _ _ _ _ _ (Y 0) (Y 1) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]
  · iexists (Y 0); isplitr; · ipureintro; exact (rafter2_0 V c t _ _).mpr rfl
    iexact H0
  isplitl [H1]
  · iexists (Y 1); isplitr; · ipureintro; exact (rafter2_1 V c t _ _).mpr rfl
    iexact H1
  iexists _; isplitr
  swap; · iexact H2
  ipureintro
  refine (rafter2_2 V c t _ _).mpr ⟨d1, ?_⟩
  rw [h0, h1]

/-- The body obligation of the relational data, at every point. -/
theorem body_obligation2 (c : Dev nD) : (rdat2 (F := F) V c).BodyObligation (defs₀ (F := F)) Variants.none () Set.univ := fun t Y hY => by
  rw [bigSep_W2, bigSep_W2]
  exact sound_body2 V c t Y hY

end Region2

end Cert.KernelIdeal.Hand

end
-- ==== Proof.IdealRun.lean ====
/- The run of the whole program, at any float instance.
   The program is eighteen stretches of host operations (the two graph-convolution stacks and the reshaped biases of the
   first head), the first head's launch (ten row blocks of 1000 through the three dense layers), three more host
   operations (the second head's biases), the second head's launch, and the launch of the product x·yᵀ over a 10 × 8
   grid. Between two items every unscoped buffer of a core is held at known contents: the launch memory folded through
   the host operations so far, and, after a launch, that launch's arrays at what its write-backs leave (the inputs as
   entered, the output the fold of its blocks) with every other buffer as it was. No host operation writes an argument
   and no launch has an argument as an output, so each argument's buffer is read back through the fold to its launch
   contents; the result buffer is read back to the fold of the product's blocks. -/
import proofs.«154350_j35708358099201_1_alg».proof.Proof.Gen.KernelIdeal.Launch
import proofs.«154350_j35708358099201_1_alg».proof.Proof.Gen.KernelIdeal.Skeleton
import proofs.«154350_j35708358099201_1_alg».proof.Proof.Gen.KernelIdeal.Points
import proofs.«154350_j35708358099201_1_alg».proof.Proof.IdealMlp0
import proofs.«154350_j35708358099201_1_alg».proof.Proof.IdealMlp1
import proofs.«154350_j35708358099201_1_alg».proof.Proof.IdealGram2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- A core's buffers at launch. -/
abbrev W0 : Dev nD → Valuation τ sig (Elt F) := fun c b => (s₀ m ρ).mem ((c : Dev nD), b)
/-- After host stretch 0. -/
abbrev W1 : Dev nD → Valuation τ sig (Elt F) := fun c => StableHlo.after main_part0_ops0 (W0 m ρ c)
/-- After host stretch 1. -/
abbrev W2 : Dev nD → Valuation τ sig (Elt F) := fun c => StableHlo.after main_part1_ops0 (W1 m ρ c)
/-- After host stretch 2. -/
abbrev W3 : Dev nD → Valuation τ sig (Elt F) := fun c => StableHlo.after main_part1_ops1 (W2 m ρ c)
/-- After host stretch 3. -/
abbrev W4 : Dev nD → Valuation τ sig (Elt F) := fun c => StableHlo.after main_part1_ops2 (W3 m ρ c)
/-- After host stretch 4. -/
abbrev W5 : Dev nD → Valuation τ sig (Elt F) := fun c => StableHlo.after main_part2_ops0 (W4 m ρ c)
/-- After host stretch 5. -/
abbrev W6 : Dev nD → Valuation τ sig (Elt F) := fun c => StableHlo.after main_part2_ops1 (W5 m ρ c)
/-- After host stretch 6. -/
abbrev W7 : Dev nD → Valuation τ sig (Elt F) := fun c => StableHlo.after main_part2_ops2 (W6 m ρ c)
/-- After host stretch 7. -/
abbrev W8 : Dev nD → Valuation τ sig (Elt F) := fun c => StableHlo.after main_part3_ops0 (W7 m ρ c)
/-- After host stretch 8. -/
abbrev W9 : Dev nD → Valuation τ sig (Elt F) := fun c => StableHlo.after main_part3_ops1 (W8 m ρ c)
/-- After host stretch 9. -/
abbrev W10 : Dev nD → Valuation τ sig (Elt F) := fun c => StableHlo.after main_part3_ops2 (W9 m ρ c)
/-- After host stretch 10. -/
abbrev W11 : Dev nD → Valuation τ sig (Elt F) := fun c => StableHlo.after main_part4_ops0 (W10 m ρ c)
/-- After host stretch 11. -/
abbrev W12 : Dev nD → Valuation τ sig (Elt F) := fun c => StableHlo.after main_part4_ops1 (W11 m ρ c)
/-- After host stretch 12. -/
abbrev W13 : Dev nD → Valuation τ sig (Elt F) := fun c => StableHlo.after main_part4_ops2 (W12 m ρ c)
/-- After host stretch 13. -/
abbrev W14 : Dev nD → Valuation τ sig (Elt F) := fun c => StableHlo.after main_part5_ops0 (W13 m ρ c)
/-- After host stretch 14. -/
abbrev W15 : Dev nD → Valuation τ sig (Elt F) := fun c => StableHlo.after main_part5_ops1 (W14 m ρ c)
/-- After host stretch 15. -/
abbrev W16 : Dev nD → Valuation τ sig (Elt F) := fun c => StableHlo.after main_part5_ops2 (W15 m ρ c)
/-- After host stretch 16. -/
abbrev W17 : Dev nD → Valuation τ sig (Elt F) := fun c => StableHlo.after main_part5_ops3 (W16 m ρ c)
/-- After host stretch 17. -/
abbrev W18 : Dev nD → Valuation τ sig (Elt F) := fun c => StableHlo.after main_part5_ops4 (W17 m ρ c)
/-- The contents region 0 is entered from, read at the TensorCore's references. -/
abbrev V18 : (c : Dev nD) → (b : Ref sig .tc) → Buf (Elt F) ((c : Thread nD τ).loc b) := fun c b => W18 m ρ c b
/-- At region 0's exit: its arrays at what the pipeline leaves, every other buffer as entered. -/
def W19 (c : Dev nD) : Valuation τ sig (Elt F) :=
  Pipeline.withArrays spec0 c (W18 m ρ c) fun w => (dat0 (V18 m ρ) c).arrAt w cfg0.N
theorem W19_arr (c : Dev nD) (w : Fin cfg0.W) :
    W19 m ρ c (Proc.devRef .tc (Pipeline.arrRef spec0 w)) = (dat0 (V18 m ρ) c).arrAt w cfg0.N := by
  unfold W19; exact Pipeline.withArrays_arr spec0 launch0.win.arr_inj c _ _ w
theorem W19_of_ne (c : Dev nD) (b : Ref sig .tc) (hb : ∀ w, Pipeline.arrRef spec0 w ≠ b) :
    W19 m ρ c (Proc.devRef .tc b) = W18 m ρ c (Proc.devRef .tc b) := by
  unfold W19; exact Pipeline.withArrays_of_ne spec0 c _ _ b hb
/-- An input window's array leaves the region as it entered. -/
theorem W19_of_in (c : Dev nD) (w : Fin cfg0.W) (hw : (cfg0.win w).isOut = false) :
    W19 m ρ c (Proc.devRef .tc (Pipeline.arrRef spec0 w)) = W18 m ρ c (Proc.devRef .tc (Pipeline.arrRef spec0 w)) :=
  (W19_arr m ρ c w).trans (((dat0 (V18 m ρ) c).arrAt_in w hw _).trans (A_eq0 (V18 m ρ) c w))
abbrev V19 : (c : Dev nD) → (b : Ref sig .tc) → Buf (Elt F) ((c : Thread nD τ).loc b) := fun c b => W19 m ρ c b
theorem hF0 (c : Dev nD) (w : Fin cfg0.W) : (dat0 (V18 m ρ) c).arrAt w cfg0.N = V19 m ρ c (Pipeline.arrRef spec0 w) :=
  (W19_arr m ρ c w).symm
theorem hrest0 (c : Dev nD) : ∀ b, b ∉ Finset.univ.image (Pipeline.arrRef spec0) → V19 m ρ c b = V18 m ρ c b :=
  fun b hb => W19_of_ne m ρ c b fun w e => hb (Finset.mem_image.mpr ⟨w, Finset.mem_univ _, e⟩)
/-- After the three host operations between the two heads. -/
abbrev W20 : Dev nD → Valuation τ sig (Elt F) := fun c => StableHlo.after main_part6_ops0 (W19 m ρ c)
/-- The contents region 1 is entered from, read at the TensorCore's references. -/
abbrev V20 : (c : Dev nD) → (b : Ref sig .tc) → Buf (Elt F) ((c : Thread nD τ).loc b) := fun c b => W20 m ρ c b
/-- At region 1's exit: its arrays at what the pipeline leaves, every other buffer as entered. -/
def W21 (c : Dev nD) : Valuation τ sig (Elt F) :=
  Pipeline.withArrays spec1 c (W20 m ρ c) fun w => (dat1 (V20 m ρ) c).arrAt w cfg1.N
theorem W21_arr (c : Dev nD) (w : Fin cfg1.W) :
    W21 m ρ c (Proc.devRef .tc (Pipeline.arrRef spec1 w)) = (dat1 (V20 m ρ) c).arrAt w cfg1.N := by
  unfold W21; exact Pipeline.withArrays_arr spec1 launch1.win.arr_inj c _ _ w
theorem W21_of_ne (c : Dev nD) (b : Ref sig .tc) (hb : ∀ w, Pipeline.arrRef spec1 w ≠ b) :
    W21 m ρ c (Proc.devRef .tc b) = W20 m ρ c (Proc.devRef .tc b) := by
  unfold W21; exact Pipeline.withArrays_of_ne spec1 c _ _ b hb
/-- An input window's array leaves the region as it entered. -/
theorem W21_of_in (c : Dev nD) (w : Fin cfg1.W) (hw : (cfg1.win w).isOut = false) :
    W21 m ρ c (Proc.devRef .tc (Pipeline.arrRef spec1 w)) = W20 m ρ c (Proc.devRef .tc (Pipeline.arrRef spec1 w)) :=
  (W21_arr m ρ c w).trans (((dat1 (V20 m ρ) c).arrAt_in w hw _).trans (A_eq1 (V20 m ρ) c w))
abbrev V21 : (c : Dev nD) → (b : Ref sig .tc) → Buf (Elt F) ((c : Thread nD τ).loc b) := fun c b => W21 m ρ c b
theorem hF1 (c : Dev nD) (w : Fin cfg1.W) : (dat1 (V20 m ρ) c).arrAt w cfg1.N = V21 m ρ c (Pipeline.arrRef spec1 w) :=
  (W21_arr m ρ c w).symm
theorem hrest1 (c : Dev nD) : ∀ b, b ∉ Finset.univ.image (Pipeline.arrRef spec1) → V21 m ρ c b = V20 m ρ c b :=
  fun b hb => W21_of_ne m ρ c b fun w e => hb (Finset.mem_image.mpr ⟨w, Finset.mem_univ _, e⟩)
/-- At the product's exit, for contents `G` of its three arrays (the two inputs as entered, the result whatever its
    eighty write-backs leave): those arrays at `G`, every other buffer as entered. -/
def W22 (c : Dev nD) (G : (w : Fin cfg2.W) → Buf (Elt F) ((spec2 w).arr.view.loc (c.tc : Thread nD τ))) : Valuation τ sig (Elt F) :=
  Pipeline.withArrays spec2 c (W21 m ρ c) G
theorem W22_arr (c : Dev nD) (G : (w : Fin cfg2.W) → Buf (Elt F) ((spec2 w).arr.view.loc (c.tc : Thread nD τ))) (w : Fin cfg2.W) :
    W22 m ρ c G (Proc.devRef .tc (Pipeline.arrRef spec2 w)) = G w := by
  unfold W22; exact Pipeline.withArrays_arr spec2 launch2.win.arr_inj c _ _ w
theorem W22_of_ne (c : Dev nD) (G : (w : Fin cfg2.W) → Buf (Elt F) ((spec2 w).arr.view.loc (c.tc : Thread nD τ))) (b : Ref sig .tc)
    (hb : ∀ w, Pipeline.arrRef spec2 w ≠ b) : W22 m ρ c G (Proc.devRef .tc b) = W21 m ρ c (Proc.devRef .tc b) := by
  unfold W22; exact Pipeline.withArrays_of_ne spec2 c _ _ b hb
abbrev V22 (c : Dev nD) (G : (w : Fin cfg2.W) → Buf (Elt F) ((spec2 w).arr.view.loc (c.tc : Thread nD τ))) :
    (b : Ref sig .tc) → Buf (Elt F) ((c : Thread nD τ).loc b) := fun b => W22 m ρ c G b
theorem hrest2 (c : Dev nD) (G : (w : Fin cfg2.W) → Buf (Elt F) ((spec2 w).arr.view.loc (c.tc : Thread nD τ))) :
    ∀ b, b ∉ Finset.univ.image (Pipeline.arrRef spec2) → V22 m ρ c G b = V21 m ρ c b :=
  fun b hb => W22_of_ne m ρ c G b fun w e => hb (Finset.mem_image.mpr ⟨w, Finset.mem_univ _, e⟩)

/-! ## What the host stretches write -/

theorem ops0_fresh : (main_part0_ops0 : List (HloOp τ sig (Elt F))).Forall fun op => op.fresh = ∅ := by
  simp only [List.Forall]; repeat' constructor
/-- The references stretch 0's operations write, in order. -/
abbrev ops0_W : List (Ref sig .tc) := [main_v0, main_v1, main_v2, main_v3, main_v4, main_v5, main_v6, main_v7, main_c, main_v8, main_v9, main_c_0, main_v10, main_v11, main_v12, main_c_1, main_v13, main_v14, main_c_2, main_v15, main_v16, main_v17, main_v18, main_v19, main_v20, main_v21, main_c_3, main_v22, main_v23, main_c_4, main_v24, main_v25, main_v26, main_c_5, main_v27, main_v28, main_c_6, main_v29, main_v30, main_v31, main_v32, main_v33, main_v34, main_v35, main_v36, main_v37, main_v38, main_v39, main_cst, main_v40, main_v41, main_cst_7, main_v42, main_v43, main_v44, main_v45, main_c_8, main_v46, main_v47, main_c_9]
theorem ops0_writes : (main_part0_ops0 : List (HloOp τ sig (Elt F))).Forall fun op => op.writes ⊆ (ops0_W.map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
theorem ops1_fresh : (main_part1_ops0 : List (HloOp τ sig (Elt F))).Forall fun op => op.fresh = ∅ := by
  simp only [List.Forall]; repeat' constructor
/-- The references stretch 1's operations write, in order. -/
abbrev ops1_W : List (Ref sig .tc) := [main_v48, main_v49, main_v50, main_v51, main_v52, main_v53, main_c_10, main_v54, main_v55, main_c_11, main_v56, main_v57, main_v58, main_v59, main_v60, main_v61, main_c_12, main_v62, main_v63, main_c_13, main_v64, main_v65, main_v66, main_v67, main_v68, main_v69, main_v70, main_v71, main_cst_14, main_v72, main_v73, main_v74, main_v75, main_v76, main_v77]
theorem ops1_writes : (main_part1_ops0 : List (HloOp τ sig (Elt F))).Forall fun op => op.writes ⊆ (ops1_W.map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
theorem ops2_fresh : (main_part1_ops1 : List (HloOp τ sig (Elt F))).Forall fun op => op.fresh = ∅ := by
  simp only [List.Forall]; repeat' constructor
/-- The references stretch 2's operations write, in order. -/
abbrev ops2_W : List (Ref sig .tc) := [main_call0_cst, main_call0_v0, main_v78]
theorem ops2_writes : (main_part1_ops1 : List (HloOp τ sig (Elt F))).Forall fun op => op.writes ⊆ (ops2_W.map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
theorem ops3_fresh : (main_part1_ops2 : List (HloOp τ sig (Elt F))).Forall fun op => op.fresh = ∅ := by
  simp only [List.Forall]; repeat' constructor
/-- The references stretch 3's operations write, in order. -/
abbrev ops3_W : List (Ref sig .tc) := [main_v79, main_v80, main_v81, main_v82, main_cst_15, main_v83, main_v84, main_cst_16, main_v85, main_v86, main_v87, main_v88, main_c_17, main_v89, main_v90, main_c_18, main_v91, main_v92, main_v93, main_v94, main_v95, main_v96, main_c_19, main_v97]
theorem ops3_writes : (main_part1_ops2 : List (HloOp τ sig (Elt F))).Forall fun op => op.writes ⊆ (ops3_W.map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
theorem ops4_fresh : (main_part2_ops0 : List (HloOp τ sig (Elt F))).Forall fun op => op.fresh = ∅ := by
  simp only [List.Forall]; repeat' constructor
/-- The references stretch 4's operations write, in order. -/
abbrev ops4_W : List (Ref sig .tc) := [main_v98, main_c_20, main_v99, main_v100, main_v101, main_v102, main_v103, main_v104, main_c_21, main_v105, main_v106, main_c_22, main_v107, main_v108, main_v109, main_v110, main_v111, main_v112, main_v113, main_v114, main_cst_23, main_v115, main_v116, main_v117, main_v118, main_v119, main_v120]
theorem ops4_writes : (main_part2_ops0 : List (HloOp τ sig (Elt F))).Forall fun op => op.writes ⊆ (ops4_W.map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
theorem ops5_fresh : (main_part2_ops1 : List (HloOp τ sig (Elt F))).Forall fun op => op.fresh = ∅ := by
  simp only [List.Forall]; repeat' constructor
/-- The references stretch 5's operations write, in order. -/
abbrev ops5_W : List (Ref sig .tc) := [main_call1_cst, main_call1_v0, main_v121]
theorem ops5_writes : (main_part2_ops1 : List (HloOp τ sig (Elt F))).Forall fun op => op.writes ⊆ (ops5_W.map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
theorem ops6_fresh : (main_part2_ops2 : List (HloOp τ sig (Elt F))).Forall fun op => op.fresh = ∅ := by
  simp only [List.Forall]; repeat' constructor
/-- The references stretch 6's operations write, in order. -/
abbrev ops6_W : List (Ref sig .tc) := [main_v122, main_v123, main_v124, main_v125, main_cst_24, main_v126, main_v127, main_cst_25, main_v128, main_v129, main_v130, main_v131, main_c_26, main_v132, main_v133, main_c_27, main_v134, main_v135, main_v136, main_v137, main_v138, main_v139, main_c_28, main_v140, main_v141, main_c_29, main_v142, main_v143, main_v144, main_v145, main_v146, main_v147]
theorem ops6_writes : (main_part2_ops2 : List (HloOp τ sig (Elt F))).Forall fun op => op.writes ⊆ (ops6_W.map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
theorem ops7_fresh : (main_part3_ops0 : List (HloOp τ sig (Elt F))).Forall fun op => op.fresh = ∅ := by
  simp only [List.Forall]; repeat' constructor
/-- The references stretch 7's operations write, in order. -/
abbrev ops7_W : List (Ref sig .tc) := [main_c_30, main_v148, main_v149, main_c_31, main_v150, main_v151, main_v152, main_v153, main_v154, main_v155, main_v156, main_v157, main_cst_32, main_v158, main_v159, main_v160, main_v161, main_v162, main_v163]
theorem ops7_writes : (main_part3_ops0 : List (HloOp τ sig (Elt F))).Forall fun op => op.writes ⊆ (ops7_W.map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
theorem ops8_fresh : (main_part3_ops1 : List (HloOp τ sig (Elt F))).Forall fun op => op.fresh = ∅ := by
  simp only [List.Forall]; repeat' constructor
/-- The references stretch 8's operations write, in order. -/
abbrev ops8_W : List (Ref sig .tc) := [main_call2_cst, main_call2_v0, main_v164]
theorem ops8_writes : (main_part3_ops1 : List (HloOp τ sig (Elt F))).Forall fun op => op.writes ⊆ (ops8_W.map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
theorem ops9_fresh : (main_part3_ops2 : List (HloOp τ sig (Elt F))).Forall fun op => op.fresh = ∅ := by
  simp only [List.Forall]; repeat' constructor
/-- The references stretch 9's operations write, in order. -/
abbrev ops9_W : List (Ref sig .tc) := [main_v165, main_v166, main_v167, main_v168, main_cst_33, main_v169, main_v170, main_cst_34, main_v171, main_v172, main_v173, main_v174, main_c_35, main_v175, main_v176, main_c_36, main_v177, main_v178, main_v179, main_v180, main_v181, main_v182, main_c_37, main_v183, main_v184, main_c_38, main_v185, main_v186, main_v187, main_v188, main_v189, main_v190, main_c_39, main_v191, main_v192, main_c_40, main_v193, main_v194, main_v195, main_v196]
theorem ops9_writes : (main_part3_ops2 : List (HloOp τ sig (Elt F))).Forall fun op => op.writes ⊆ (ops9_W.map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
theorem ops10_fresh : (main_part4_ops0 : List (HloOp τ sig (Elt F))).Forall fun op => op.fresh = ∅ := by
  simp only [List.Forall]; repeat' constructor
/-- The references stretch 10's operations write, in order. -/
abbrev ops10_W : List (Ref sig .tc) := [main_v197, main_v198, main_v199, main_v200, main_cst_41, main_v201, main_v202, main_v203, main_v204, main_v205, main_v206]
theorem ops10_writes : (main_part4_ops0 : List (HloOp τ sig (Elt F))).Forall fun op => op.writes ⊆ (ops10_W.map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
theorem ops11_fresh : (main_part4_ops1 : List (HloOp τ sig (Elt F))).Forall fun op => op.fresh = ∅ := by
  simp only [List.Forall]; repeat' constructor
/-- The references stretch 11's operations write, in order. -/
abbrev ops11_W : List (Ref sig .tc) := [main_call3_cst, main_call3_v0, main_v207]
theorem ops11_writes : (main_part4_ops1 : List (HloOp τ sig (Elt F))).Forall fun op => op.writes ⊆ (ops11_W.map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
theorem ops12_fresh : (main_part4_ops2 : List (HloOp τ sig (Elt F))).Forall fun op => op.fresh = ∅ := by
  simp only [List.Forall]; repeat' constructor
/-- The references stretch 12's operations write, in order. -/
abbrev ops12_W : List (Ref sig .tc) := [main_v208, main_v209, main_v210, main_v211, main_cst_42, main_v212, main_v213, main_cst_43, main_v214, main_v215, main_v216, main_v217, main_c_44, main_v218, main_v219, main_c_45, main_v220, main_v221, main_v222, main_v223, main_v224, main_v225, main_c_46, main_v226, main_v227, main_c_47, main_v228, main_v229, main_v230, main_v231, main_v232, main_v233, main_c_48, main_v234, main_v235, main_c_49, main_v236, main_v237, main_v238, main_v239, main_v240, main_v241, main_v242, main_v243, main_cst_50, main_v244, main_v245, main_v246]
theorem ops12_writes : (main_part4_ops2 : List (HloOp τ sig (Elt F))).Forall fun op => op.writes ⊆ (ops12_W.map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
theorem ops13_fresh : (main_part5_ops0 : List (HloOp τ sig (Elt F))).Forall fun op => op.fresh = ∅ := by
  simp only [List.Forall]; repeat' constructor
/-- The references stretch 13's operations write, in order. -/
abbrev ops13_W : List (Ref sig .tc) := [main_v247, main_v248, main_v249]
theorem ops13_writes : (main_part5_ops0 : List (HloOp τ sig (Elt F))).Forall fun op => op.writes ⊆ (ops13_W.map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
theorem ops14_fresh : (main_part5_ops1 : List (HloOp τ sig (Elt F))).Forall fun op => op.fresh = ∅ := by
  simp only [List.Forall]; repeat' constructor
/-- The references stretch 14's operations write, in order. -/
abbrev ops14_W : List (Ref sig .tc) := [main_call4_cst, main_call4_v0, main_v250]
theorem ops14_writes : (main_part5_ops1 : List (HloOp τ sig (Elt F))).Forall fun op => op.writes ⊆ (ops14_W.map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
theorem ops15_fresh : (main_part5_ops2 : List (HloOp τ sig (Elt F))).Forall fun op => op.fresh = ∅ := by
  simp only [List.Forall]; repeat' constructor
/-- The references stretch 15's operations write, in order. -/
abbrev ops15_W : List (Ref sig .tc) := [main_v251, main_v252, main_v253, main_v254, main_cst_51, main_v255, main_v256, main_cst_52, main_v257, main_v258, main_v259, main_v260, main_c_53, main_v261, main_v262, main_c_54, main_v263, main_v264, main_v265, main_v266, main_v267, main_v268, main_c_55, main_v269, main_v270, main_c_56, main_v271, main_v272, main_v273, main_v274, main_v275, main_v276, main_c_57, main_v277, main_v278, main_c_58, main_v279, main_v280, main_v281, main_v282, main_v283, main_v284, main_v285, main_v286, main_cst_59, main_v287, main_v288, main_v289, main_v290, main_v291, main_v292]
theorem ops15_writes : (main_part5_ops2 : List (HloOp τ sig (Elt F))).Forall fun op => op.writes ⊆ (ops15_W.map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
theorem ops16_fresh : (main_part5_ops3 : List (HloOp τ sig (Elt F))).Forall fun op => op.fresh = ∅ := by
  simp only [List.Forall]; repeat' constructor
/-- The references stretch 16's operations write, in order. -/
abbrev ops16_W : List (Ref sig .tc) := [main_call5_cst, main_call5_v0, main_v293]
theorem ops16_writes : (main_part5_ops3 : List (HloOp τ sig (Elt F))).Forall fun op => op.writes ⊆ (ops16_W.map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
theorem ops17_fresh : (main_part5_ops4 : List (HloOp τ sig (Elt F))).Forall fun op => op.fresh = ∅ := by
  simp only [List.Forall]; repeat' constructor
/-- The references stretch 17's operations write, in order. -/
abbrev ops17_W : List (Ref sig .tc) := [main_v294, main_v295, main_v296]
theorem ops17_writes : (main_part5_ops4 : List (HloOp τ sig (Elt F))).Forall fun op => op.writes ⊆ (ops17_W.map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)
theorem ops18_fresh : (main_part6_ops0 : List (HloOp τ sig (Elt F))).Forall fun op => op.fresh = ∅ := by
  simp only [List.Forall]; repeat' constructor
/-- The references stretch 18's operations write, in order. -/
abbrev ops18_W : List (Ref sig .tc) := [main_v298, main_v299, main_v300]
theorem ops18_writes : (main_part6_ops0 : List (HloOp τ sig (Elt F))).Forall fun op => op.writes ⊆ (ops18_W.map (Proc.devRef (τ := τ) .tc)).toFinset := by
  simp only [List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)

/-! ## The arguments end as launched -/

/-- The program's argument arrays. -/
abbrev argRefs : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22, main_arg23, main_arg24, main_arg25]

/-- No host operation writes an argument. -/
theorem arg_not_written : ∀ r ∈ argRefs, r ∉ ops0_W ∧ r ∉ ops1_W ∧ r ∉ ops2_W ∧ r ∉ ops3_W ∧ r ∉ ops4_W ∧ r ∉ ops5_W ∧ r ∉ ops6_W ∧ r ∉ ops7_W ∧ r ∉ ops8_W ∧ r ∉ ops9_W ∧ r ∉ ops10_W ∧ r ∉ ops11_W ∧ r ∉ ops12_W ∧ r ∉ ops13_W ∧ r ∉ ops14_W ∧ r ∉ ops15_W ∧ r ∉ ops16_W ∧ r ∉ ops17_W ∧ r ∉ ops18_W := by decide

/-- An argument is no window's array of a launch, or an input window's. -/
theorem arg_window0 : ∀ r ∈ argRefs, (∀ w, Pipeline.arrRef spec0 w ≠ r) ∨ ∃ w, (cfg0.win w).isOut = false ∧ Pipeline.arrRef spec0 w = r := by decide
theorem arg_window1 : ∀ r ∈ argRefs, (∀ w, Pipeline.arrRef spec1 w ≠ r) ∨ ∃ w, (cfg1.win w).isOut = false ∧ Pipeline.arrRef spec1 w = r := by decide
theorem arg_window2 : ∀ r ∈ argRefs, (∀ w, Pipeline.arrRef spec2 w ≠ r) := by decide

theorem W18_arg (c : Dev nD) (r : Ref sig .tc) (hr : r ∈ argRefs) : W18 m ρ c (Proc.devRef .tc r) = m ((c : Thread nD τ).loc r) := by
  obtain ⟨h0, h1, h2, h3, h4, h5, h6, h7, h8, h9, h10, h11, h12, h13, h14, h15, h16, h17, h18⟩ := arg_not_written r hr
  exact (StableHlo.after_of_writes_sub main_part5_ops4 _ ops17_writes h17).trans <| (StableHlo.after_of_writes_sub main_part5_ops3 _ ops16_writes h16).trans <| (StableHlo.after_of_writes_sub main_part5_ops2 _ ops15_writes h15).trans <| (StableHlo.after_of_writes_sub main_part5_ops1 _ ops14_writes h14).trans <| (StableHlo.after_of_writes_sub main_part5_ops0 _ ops13_writes h13).trans <| (StableHlo.after_of_writes_sub main_part4_ops2 _ ops12_writes h12).trans <| (StableHlo.after_of_writes_sub main_part4_ops1 _ ops11_writes h11).trans <| (StableHlo.after_of_writes_sub main_part4_ops0 _ ops10_writes h10).trans <| (StableHlo.after_of_writes_sub main_part3_ops2 _ ops9_writes h9).trans <| (StableHlo.after_of_writes_sub main_part3_ops1 _ ops8_writes h8).trans <| (StableHlo.after_of_writes_sub main_part3_ops0 _ ops7_writes h7).trans <| (StableHlo.after_of_writes_sub main_part2_ops2 _ ops6_writes h6).trans <| (StableHlo.after_of_writes_sub main_part2_ops1 _ ops5_writes h5).trans <| (StableHlo.after_of_writes_sub main_part2_ops0 _ ops4_writes h4).trans <| (StableHlo.after_of_writes_sub main_part1_ops2 _ ops3_writes h3).trans <| (StableHlo.after_of_writes_sub main_part1_ops1 _ ops2_writes h2).trans <| (StableHlo.after_of_writes_sub main_part1_ops0 _ ops1_writes h1).trans <| (StableHlo.after_of_writes_sub main_part0_ops0 _ ops0_writes h0).trans <| rfl

theorem W22_arg (c : Dev nD) (G : (w : Fin cfg2.W) → Buf (Elt F) ((spec2 w).arr.view.loc (c.tc : Thread nD τ))) (r : Ref sig .tc) (hr : r ∈ argRefs) : W22 m ρ c G (Proc.devRef .tc r) = m ((c : Thread nD τ).loc r) := by
  obtain ⟨h0, h1, h2, h3, h4, h5, h6, h7, h8, h9, h10, h11, h12, h13, h14, h15, h16, h17, h18⟩ := arg_not_written r hr
  have e22 : W22 m ρ c G (Proc.devRef .tc r) = W21 m ρ c (Proc.devRef .tc r) := W22_of_ne m ρ c G r (arg_window2 r hr)
  have e21 : W21 m ρ c (Proc.devRef .tc r) = W20 m ρ c (Proc.devRef .tc r) := by
    rcases arg_window1 r hr with h | ⟨w, hw, rfl⟩
    · exact W21_of_ne m ρ c r h
    · exact W21_of_in m ρ c w hw
  have e20 : W20 m ρ c (Proc.devRef .tc r) = W19 m ρ c (Proc.devRef .tc r) := StableHlo.after_of_writes_sub main_part6_ops0 _ ops18_writes h18
  have e19 : W19 m ρ c (Proc.devRef .tc r) = W18 m ρ c (Proc.devRef .tc r) := by
    rcases arg_window0 r hr with h | ⟨w, hw, rfl⟩
    · exact W19_of_ne m ρ c r h
    · exact W19_of_in m ρ c w hw
  exact e22.trans (e21.trans (e20.trans (e19.trans (W18_arg m ρ c r hr))))

/-- The result buffer ends at the product's third array. -/
theorem W22_result (c : Dev nD) (G : (w : Fin cfg2.W) → Buf (Elt F) ((spec2 w).arr.view.loc (c.tc : Thread nD τ))) :
    W22 m ρ c G (Proc.devRef .tc main_v302) = G 2 :=
  W22_arr m ρ c G 2

/-! ## The proof data family and the thread state -/

abbrev adm : (p : Fin 3) → (pcfgs (F := F) p).Adm := fun p => (cfgs p).toPCfg_adm
/-- Every launch's proof data, each at its region's entry contents: the two heads' exact data read relationally, the
    product's relational (its last column block reads rows past the array's end, whose contents nothing names). -/
def rdats : (p : Fin 3) → (c : Dev nD) → RDat τ (Elt F) Unit ℕ (UR sig nD τ) ℕ (Pipeline.pin (pcfgs (F := F)) adm p) c
  | ⟨0, _⟩ => fun c => (dat0 (V18 m ρ) c).toR
  | ⟨1, _⟩ => fun c => (dat1 (V20 m ρ) c).toR
  | ⟨2, _⟩ => fun c => rdat2 (V21 m ρ) c
/-- The product's arrays as exact data would hold them: only the arrays' shares are read off it, to put the arrays back
    among the unscoped buffers. -/
def datJ2 (c : Dev nD) : Dat τ (Elt F) Unit ℕ (UR sig nD τ) ℕ cfg2 c where
  A w := V21 m ρ c (Pipeline.arrRef spec2 w)
  after w t := Dat.unnamed w t
  Φ _ := Pipeline.ΦA spec2 c
  q _ := fullShare
  owed _ := 0
/-- The same family as exact data (the arrays' shares only). -/
def pdatsJ : (p : Fin 3) → (c : Dev nD) → Dat τ (Elt F) Unit ℕ (UR sig nD τ) ℕ (Pipeline.pin (pcfgs (F := F)) adm p) c
  | ⟨0, _⟩ => fun c => dat0 (V18 m ρ) c
  | ⟨1, _⟩ => fun c => dat1 (V20 m ρ) c
  | ⟨2, _⟩ => fun c => datJ2 m ρ c
/-- The arrays a launch may leave, each at some contents the write-backs allow: one choice of contents for all. -/
theorem arraysAt_elim {cfg : Cfg sig Λ₀} {c : Dev nD} (rd : RDat τ (Elt F) Unit ℕ (UR sig nD τ) ℕ cfg c) (n : Nat) :
    rd.arraysAt n ⊢ (iprop(∃ G, ⌜∀ w, rd.ArrAt w n (G w)⌝ ∗ rd.arrays G) : sProp 𝕄) := by
  unfold RDat.arraysAt RDat.arrays
  refine (bigSep_exists_pi Finset.univ _).trans ?_
  iintro ⟨%G, H⟩
  ihave H' := (bigSep_pure_sep Finset.univ (fun w => rd.ArrAt w n (G w)) _) $$ H
  icases H' with ⟨%h, H⟩
  iexists G
  isplitr
  · ipureintro; exact fun w => h w (Finset.mem_univ w)
  iexact H
abbrev 𝒱₀ : Variants := Variants.none
abbrev L : GSem nD τ sig → Finset Unit := fun _ => ∅
abbrev lv : GSem nD τ sig → Unit → ℕ := fun _ _ => 0
/-- What rides beside the buffers through every item: the core's generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(∃ G, ⌜∀ w, (rdat2 (V21 m ρ) c).ArrAt w cfg2.N (G w)⌝
    ∗ StableHlo.held (c : Thread nD τ) (Pipeline.ucRefs τ sig) (W22 m ρ c G) ∗ ∃ r, prngReg c r)

/-! ## The launches as segments -/

set_option backward.isDefEq.respectTransparency.types false in
/-- Launch 0 over the thread state: its arrays split out of the unscoped buffers and put back at the exit contents; the
    generator register into the launch's invariant and out; nothing owed; no semaphore of the kernel's own. -/
def reg0 : Pipeline.RDat.RegionSeg (pcfgs (F := F)) adm (rdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V18 m ρ) c).loose.toR
  hwaits := Pipeline.RDat.hwaits_of_owed_zero _ _ _ _ L lv 0 fun _ _ => rfl
  pre c := iprop(StableHlo.held (c : Thread nD τ) (Pipeline.ucRefs τ sig) (W18 m ρ c) ∗ R c)
  post c := iprop(StableHlo.held (c : Thread nD τ) (Pipeline.ucRefs τ sig) (W19 m ρ c) ∗ R c)
  X c := iprop(∃ r, prngReg c r)
  Y c := iprop(∃ r, prngReg c r)
  Z c := Pipeline.unscopedRest (Ix := Unit) (Name := ℕ) (U := UR sig nD τ) (Lvl := ℕ) spec0 c (V18 m ρ c)
  hentry c := by
    rw [Pipeline.ownSems0_none]
    have hsplit := Pipeline.RDat.arrays_of_unscopedBufs (p := 0) (pcfgs (F := F)) adm (rdats m ρ) launch0.win launch0.arr_whole c
      ((dat0 (V18 m ρ) c).share_full fun _ => rfl) (V18 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (rdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    rw [show (rdats m ρ 0 c).arraysAt (Pipeline.pin (pcfgs (F := F)) adm 0).N = (dat0 (V18 m ρ) c).toR.arraysAt cfg0.N from rfl,
      Pipeline.Dat.toR_arraysAt_eq]
    have hjoin : iprop((dat0 (V18 m ρ) c).arrays ((dat0 (V18 m ρ) c).arrAt · cfg0.N)
          ∗ Pipeline.unscopedRest (Ix := Unit) (Name := ℕ) (U := UR sig nD τ) (Lvl := ℕ) spec0 c (V18 m ρ c))
        ⊢ (unscopedBufs c (V19 m ρ c) : sProp 𝕄) :=
      Pipeline.unscopedBufs_of_arrays (p := 0) (pcfgs (F := F)) adm (Ix := Unit) (Name := ℕ) (U := UR sig nD τ) (Lvl := ℕ)
        launch0.win launch0.arr_whole c (pdatsJ m ρ) ((pdatsJ m ρ 0 c).share_full fun _ => rfl)
        (V18 m ρ c) (V19 m ρ c) ((pdatsJ m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.RDat.owesAt Pipeline.owesWithin
    icases HO with ⟨%W, -, HO⟩; iexists W; iexact HO

set_option backward.isDefEq.respectTransparency.types false in
/-- Launch 1 over the thread state: its arrays split out of the unscoped buffers and put back at the exit contents; the
    generator register into the launch's invariant and out; nothing owed; no semaphore of the kernel's own. -/
def reg1 : Pipeline.RDat.RegionSeg (pcfgs (F := F)) adm (rdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V20 m ρ) c).loose.toR
  hwaits := Pipeline.RDat.hwaits_of_owed_zero _ _ _ _ L lv 1 fun _ _ => rfl
  pre c := iprop(StableHlo.held (c : Thread nD τ) (Pipeline.ucRefs τ sig) (W20 m ρ c) ∗ R c)
  post c := iprop(StableHlo.held (c : Thread nD τ) (Pipeline.ucRefs τ sig) (W21 m ρ c) ∗ R c)
  X c := iprop(∃ r, prngReg c r)
  Y c := iprop(∃ r, prngReg c r)
  Z c := Pipeline.unscopedRest (Ix := Unit) (Name := ℕ) (U := UR sig nD τ) (Lvl := ℕ) spec1 c (V20 m ρ c)
  hentry c := by
    rw [Pipeline.ownSems0_none]
    have hsplit := Pipeline.RDat.arrays_of_unscopedBufs (p := 1) (pcfgs (F := F)) adm (rdats m ρ) launch1.win launch1.arr_whole c
      ((dat1 (V20 m ρ) c).share_full fun _ => rfl) (V20 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (rdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    rw [show (rdats m ρ 1 c).arraysAt (Pipeline.pin (pcfgs (F := F)) adm 1).N = (dat1 (V20 m ρ) c).toR.arraysAt cfg1.N from rfl,
      Pipeline.Dat.toR_arraysAt_eq]
    have hjoin : iprop((dat1 (V20 m ρ) c).arrays ((dat1 (V20 m ρ) c).arrAt · cfg1.N)
          ∗ Pipeline.unscopedRest (Ix := Unit) (Name := ℕ) (U := UR sig nD τ) (Lvl := ℕ) spec1 c (V20 m ρ c))
        ⊢ (unscopedBufs c (V21 m ρ c) : sProp 𝕄) :=
      Pipeline.unscopedBufs_of_arrays (p := 1) (pcfgs (F := F)) adm (Ix := Unit) (Name := ℕ) (U := UR sig nD τ) (Lvl := ℕ)
        launch1.win launch1.arr_whole c (pdatsJ m ρ) ((pdatsJ m ρ 1 c).share_full fun _ => rfl)
        (V20 m ρ c) (V21 m ρ c) ((pdatsJ m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.RDat.owesAt Pipeline.owesWithin
    icases HO with ⟨%W, -, HO⟩; iexists W; iexact HO

set_option backward.isDefEq.respectTransparency.types false in
/-- Launch 2 over the thread state: its arrays split out of the unscoped buffers and put back at the exit contents; the
    generator register into the launch's invariant and out; nothing owed; no semaphore of the kernel's own. -/
def reg2 : Pipeline.RDat.RegionSeg (pcfgs (F := F)) adm (rdats m ρ) () defs₀ 𝒱₀ L lv 2 where
  win := launch2.win.to₀
  block_pos := launch2.block_pos
  stage_whole := launch2.stage_whole
  K := PEmpty
  osem k := k.elim
  ho := Pipeline.OwnSemFacts.none _
  hbody c := body_obligation2 (V21 m ρ) c
  hwaits := Pipeline.RDat.hwaits_of_owed_zero _ _ _ _ L lv 2 fun _ _ => rfl
  pre c := iprop(StableHlo.held (c : Thread nD τ) (Pipeline.ucRefs τ sig) (W21 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V21 m ρ c)
  hentry c := by
    rw [Pipeline.ownSems0_none]
    have hsplit := Pipeline.RDat.arrays_of_unscopedBufs (p := 2) (pcfgs (F := F)) adm (rdats m ρ) launch2.win launch2.arr_whole c
      ((rdat2 (V21 m ρ) c).share_full fun _ => rfl) (V21 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (rdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    iintro ⟨Ha, HO, HY, Hrest⟩
    ihave Ha' := (arraysAt_elim (rdats m ρ 2 c) cfg2.N) $$ Ha
    icases Ha' with ⟨%G, %hG, Ha⟩
    have hjoin : iprop((rdats m ρ 2 c).arrays G
          ∗ Pipeline.unscopedRest (Ix := Unit) (Name := ℕ) (U := UR sig nD τ) (Lvl := ℕ) spec2 c (V21 m ρ c))
        ⊢ (unscopedBufs c (V22 m ρ c G) : sProp 𝕄) :=
      Pipeline.unscopedBufs_of_arrays (p := 2) (pcfgs (F := F)) adm (Ix := Unit) (Name := ℕ) (U := UR sig nD τ) (Lvl := ℕ)
        launch2.win launch2.arr_whole c (pdatsJ m ρ) ((pdatsJ m ρ 2 c).share_full fun _ => rfl)
        (V21 m ρ c) (V22 m ρ c G) G (fun w => (W22_arr m ρ c G w).symm) (hrest2 m ρ c G)
    rw [Pipeline.unscopedBufs_held] at hjoin
    imodintro
    isplitl [Ha Hrest HY]
    · iexists G
      isplitr; · ipureintro; exact hG
      isplitl [Ha Hrest]
      · iapply hjoin; isplitl [Ha] <;> iassumption
      iexact HY
    unfold Pipeline.RDat.owesAt Pipeline.owesWithin
    icases HO with ⟨%W, -, HO⟩; iexists W; iexact HO

/-! ## The program as segments, and the launch -/

/-- The program's 22 items in order. -/
abbrev segs : List (Pipeline.RDat.Seg (pcfgs (F := F)) adm (rdats m ρ) () defs₀ 𝒱₀ L lv) :=
  [ .host (hseg main_part0_ops0 main_part0_ops0_sub ops0_fresh (W0 m ρ)),
    .host (hseg main_part1_ops0 main_part1_ops0_sub ops1_fresh (W1 m ρ)),
    .host (hseg main_part1_ops1 main_part1_ops1_sub ops2_fresh (W2 m ρ)),
    .host (hseg main_part1_ops2 main_part1_ops2_sub ops3_fresh (W3 m ρ)),
    .host (hseg main_part2_ops0 main_part2_ops0_sub ops4_fresh (W4 m ρ)),
    .host (hseg main_part2_ops1 main_part2_ops1_sub ops5_fresh (W5 m ρ)),
    .host (hseg main_part2_ops2 main_part2_ops2_sub ops6_fresh (W6 m ρ)),
    .host (hseg main_part3_ops0 main_part3_ops0_sub ops7_fresh (W7 m ρ)),
    .host (hseg main_part3_ops1 main_part3_ops1_sub ops8_fresh (W8 m ρ)),
    .host (hseg main_part3_ops2 main_part3_ops2_sub ops9_fresh (W9 m ρ)),
    .host (hseg main_part4_ops0 main_part4_ops0_sub ops10_fresh (W10 m ρ)),
    .host (hseg main_part4_ops1 main_part4_ops1_sub ops11_fresh (W11 m ρ)),
    .host (hseg main_part4_ops2 main_part4_ops2_sub ops12_fresh (W12 m ρ)),
    .host (hseg main_part5_ops0 main_part5_ops0_sub ops13_fresh (W13 m ρ)),
    .host (hseg main_part5_ops1 main_part5_ops1_sub ops14_fresh (W14 m ρ)),
    .host (hseg main_part5_ops2 main_part5_ops2_sub ops15_fresh (W15 m ρ)),
    .host (hseg main_part5_ops3 main_part5_ops3_sub ops16_fresh (W16 m ρ)),
    .host (hseg main_part5_ops4 main_part5_ops4_sub ops17_fresh (W17 m ρ)),
    .region (reg0 m ρ),
    .host (hseg main_part6_ops0 main_part6_ops0_sub ops18_fresh (W19 m ρ)),
    .region (reg1 m ρ),
    .region (reg2 m ρ) ]
/-- The program IS the run of the segments. -/
theorem main_run (c : Dev nD) : main (F := F) c = Pipeline.RDat.Seg.run (segs m ρ) := (main_chain_windows c).trans (by chain_rfl)

set_option backward.isDefEq.respectTransparency.types false in
/-- THE RUN: from any memory with zero counters every weakly fair execution of the program terminates, nothing
    faulting, and every final state holds every unscoped buffer at the last boundary's contents, for some contents of
    the product's arrays that its write-backs allow. -/
theorem run_main : θ_run defs (onTc (τ := τ) (main (F := F))) ⟨m, fun _ => 0, ρ⟩ (fun r => ∀ c : Dev nD,
      ∃ G : (w : Fin cfg2.W) → Buf (Elt F) ((spec2 w).arr.view.loc (c.tc : Thread nD τ)), (∀ w, (rdat2 (V21 m ρ) c).ArrAt w cfg2.N (G w))
      ∧ ∀ b ∈ Pipeline.ucRefs τ sig, r.2.mem (((c : Thread nD τ)).1, b) = W22 m ρ c G b) :=
  Pipeline.RDat.θ_run_regions_kit (pcfgs (F := F)) adm (rdats m ρ) () cellOf_inj emb₁ defs₀ 𝒱₀ L lv m ρ main (segs m ρ)
    (fun c Q => by rw [main_run m ρ c])
    (by simp only [segs, Pipeline.RDat.Seg.pipes_host, Pipeline.RDat.Seg.pipes_region, Pipeline.RDat.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∃ G : (w : Fin cfg2.W) → Buf (Elt F) ((spec2 w).arr.view.loc (c.tc : Thread nD τ)), (∀ w, (rdat2 (V21 m ρ) c).ArrAt w cfg2.N (G w))
      ∧ ∀ b ∈ Pipeline.ucRefs τ sig, s.mem (((c : Thread nD τ)).1, b) = W22 m ρ c G b)
    (hfin := fun c s' => by
      iintro ⟨⟨%G, %hG, Hh, -⟩, HSI⟩
      unfold StableHlo.held
      ihave Hr := (pointsTo_read_all (Pipeline.ucRefs τ sig) (fun b => (((c : Thread nD τ)).1, b)) (W22 m ρ c G) s') $$ [Hh HSI]
      · isplitl [Hh] <;> iassumption
      icases Hr with ⟨%h, HSI⟩
      imodintro
      isplitr
      · ipureintro; exact ⟨G, hG, h⟩
      · iexact HSI)
    (hQ := fun s h => h)

/-- THE FRAME at any float instance: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)) :=
  (θ_run defs _ _).mono (fun s h c => by
    obtain ⟨G, -, hb⟩ := h c
    exact ⟨(hb _ (mem_uc main_arg0 (by decide))).trans (W22_arg m ρ c G main_arg0 (by decide)),
     (hb _ (mem_uc main_arg1 (by decide))).trans (W22_arg m ρ c G main_arg1 (by decide)),
     (hb _ (mem_uc main_arg2 (by decide))).trans (W22_arg m ρ c G main_arg2 (by decide)),
     (hb _ (mem_uc main_arg3 (by decide))).trans (W22_arg m ρ c G main_arg3 (by decide)),
     (hb _ (mem_uc main_arg4 (by decide))).trans (W22_arg m ρ c G main_arg4 (by decide)),
     (hb _ (mem_uc main_arg5 (by decide))).trans (W22_arg m ρ c G main_arg5 (by decide)),
     (hb _ (mem_uc main_arg6 (by decide))).trans (W22_arg m ρ c G main_arg6 (by decide)),
     (hb _ (mem_uc main_arg7 (by decide))).trans (W22_arg m ρ c G main_arg7 (by decide)),
     (hb _ (mem_uc main_arg8 (by decide))).trans (W22_arg m ρ c G main_arg8 (by decide)),
     (hb _ (mem_uc main_arg9 (by decide))).trans (W22_arg m ρ c G main_arg9 (by decide)),
     (hb _ (mem_uc main_arg10 (by decide))).trans (W22_arg m ρ c G main_arg10 (by decide)),
     (hb _ (mem_uc main_arg11 (by decide))).trans (W22_arg m ρ c G main_arg11 (by decide)),
     (hb _ (mem_uc main_arg12 (by decide))).trans (W22_arg m ρ c G main_arg12 (by decide)),
     (hb _ (mem_uc main_arg13 (by decide))).trans (W22_arg m ρ c G main_arg13 (by decide)),
     (hb _ (mem_uc main_arg14 (by decide))).trans (W22_arg m ρ c G main_arg14 (by decide)),
     (hb _ (mem_uc main_arg15 (by decide))).trans (W22_arg m ρ c G main_arg15 (by decide)),
     (hb _ (mem_uc main_arg16 (by decide))).trans (W22_arg m ρ c G main_arg16 (by decide)),
     (hb _ (mem_uc main_arg17 (by decide))).trans (W22_arg m ρ c G main_arg17 (by decide)),
     (hb _ (mem_uc main_arg18 (by decide))).trans (W22_arg m ρ c G main_arg18 (by decide)),
     (hb _ (mem_uc main_arg19 (by decide))).trans (W22_arg m ρ c G main_arg19 (by decide)),
     (hb _ (mem_uc main_arg20 (by decide))).trans (W22_arg m ρ c G main_arg20 (by decide)),
     (hb _ (mem_uc main_arg21 (by decide))).trans (W22_arg m ρ c G main_arg21 (by decide)),
     (hb _ (mem_uc main_arg22 (by decide))).trans (W22_arg m ρ c G main_arg22 (by decide)),
     (hb _ (mem_uc main_arg23 (by decide))).trans (W22_arg m ρ c G main_arg23 (by decide)),
     (hb _ (mem_uc main_arg24 (by decide))).trans (W22_arg m ρ c G main_arg24 (by decide)),
     (hb _ (mem_uc main_arg25 (by decide))).trans (W22_arg m ρ c G main_arg25 (by decide))⟩)
    (run_main m ρ)

end Cert.KernelIdeal.Hand

end
-- ==== Proof.Spec.lean ====
/- THE SPECIFICATION: what the program computes from the two graphs' node features after the graph convolutions,
   stated index by index on the extended reals, with no program in sight.

   * `dense X W b` — one dense layer followed by rectification: entry (r, j) is max (Σ_k X(r,k)·W(k,j) + b(j)) 0.
   * `head X W1 b1 W2 b2 W3 b3` — three such layers in sequence, widths 128 → 128 → 64 → 32.
   * `gram x y` — the matrix of inner products of the rows of `x` with the rows of `y`, that is x·yᵀ.

   The result of the whole computation is `gram (head HX …) (head HY …)` at 10000 rows each. The definitions are
   stated for any number of rows: every row of a layer's output depends on the same row of its input only
   (`dense_congr_row`, `head_congr_row`), so the same function describes a block of rows and the whole array, and an
   entry of `gram` depends on one row of each factor (`gram_congr_rows`). The zero of the rectification is kept as the
   word the programs write, `Ideal.ofBits .f32 0x00000000#32`. -/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

/-! ## One layer -/

/-- A dense layer with rectification: entry (r, j) of the output is max (Σ_k X(r,k)·W(k,j) + b(j)) 0. The bias is a
    vector, one entry per output column. -/
def dense {n K M : ℕ} (X : Vec Ideal ⟨2, ![n, K]⟩ .f32) (W : Vec Ideal ⟨2, ![K, M]⟩ .f32) (b : Vec Ideal ⟨1, ![M]⟩ .f32) :
    Vec Ideal ⟨2, ![n, M]⟩ .f32 :=
  fun i => max ((∑ k : Fin K, X (ix2 (i 0) k) * W (ix2 k (i 1))) + b (ix1 (i 1))) (Ideal.ofBits .f32 0x00000000#32)

/-- The layer at the entry (r, j). -/
theorem dense_apply {n K M : ℕ} (X : Vec Ideal ⟨2, ![n, K]⟩ .f32) (W : Vec Ideal ⟨2, ![K, M]⟩ .f32) (b : Vec Ideal ⟨1, ![M]⟩ .f32)
    (r : Fin n) (j : Fin M) :
    dense X W b (ix2 r j) = max ((∑ k : Fin K, X (ix2 r k) * W (ix2 k j)) + b (ix1 j)) (Ideal.ofBits .f32 0x00000000#32) := rfl

/-- Row r of the output is a function of row r of the input: two inputs, of any numbers of rows, that agree on a row
    of each give outputs that agree on those rows. -/
theorem dense_congr_row {n n' K M : ℕ} (X : Vec Ideal ⟨2, ![n, K]⟩ .f32) (X' : Vec Ideal ⟨2, ![n', K]⟩ .f32)
    (W : Vec Ideal ⟨2, ![K, M]⟩ .f32) (b : Vec Ideal ⟨1, ![M]⟩ .f32) (r : Fin n) (r' : Fin n')
    (h : ∀ k : Fin K, X (ix2 r k) = X' (ix2 r' k)) (j : Fin M) :
    dense X W b (ix2 r j) = dense X' W b (ix2 r' j) := by
  rw [dense_apply, dense_apply]
  exact congrArg (fun s => max (s + b (ix1 j)) (Ideal.ofBits .f32 0x00000000#32))
    (Finset.sum_congr rfl fun k _ => by rw [h k])

/-! ## The three-layer head -/

/-- Three dense layers with rectification in sequence: 128 features to 128, to 64, to 32. -/
def head {n : ℕ} (X : Vec Ideal ⟨2, ![n, 128]⟩ .f32)
    (W1 : Vec Ideal ⟨2, ![128, 128]⟩ .f32) (b1 : Vec Ideal ⟨1, ![128]⟩ .f32)
    (W2 : Vec Ideal ⟨2, ![128, 64]⟩ .f32) (b2 : Vec Ideal ⟨1, ![64]⟩ .f32)
    (W3 : Vec Ideal ⟨2, ![64, 32]⟩ .f32) (b3 : Vec Ideal ⟨1, ![32]⟩ .f32) : Vec Ideal ⟨2, ![n, 32]⟩ .f32 :=
  dense (dense (dense X W1 b1) W2 b2) W3 b3

/-- Row r of the head's output is a function of row r of its input. -/
theorem head_congr_row {n n' : ℕ} (X : Vec Ideal ⟨2, ![n, 128]⟩ .f32) (X' : Vec Ideal ⟨2, ![n', 128]⟩ .f32)
    (W1 : Vec Ideal ⟨2, ![128, 128]⟩ .f32) (b1 : Vec Ideal ⟨1, ![128]⟩ .f32)
    (W2 : Vec Ideal ⟨2, ![128, 64]⟩ .f32) (b2 : Vec Ideal ⟨1, ![64]⟩ .f32)
    (W3 : Vec Ideal ⟨2, ![64, 32]⟩ .f32) (b3 : Vec Ideal ⟨1, ![32]⟩ .f32) (r : Fin n) (r' : Fin n')
    (h : ∀ k : Fin 128, X (ix2 r k) = X' (ix2 r' k)) (j : Fin 32) :
    head X W1 b1 W2 b2 W3 b3 (ix2 r j) = head X' W1 b1 W2 b2 W3 b3 (ix2 r' j) := by
  unfold head
  exact dense_congr_row _ _ W3 b3 r r' (fun k3 =>
    dense_congr_row _ _ W2 b2 r r' (fun k2 => dense_congr_row X X' W1 b1 r r' h k2) k3) j

/-! ## The matrix of inner products -/

/-- x·yᵀ: entry (r, s) is the inner product of row r of `x` with row s of `y`. -/
def gram {n m : ℕ} (x : Vec Ideal ⟨2, ![n, 32]⟩ .f32) (y : Vec Ideal ⟨2, ![m, 32]⟩ .f32) : Vec Ideal ⟨2, ![n, m]⟩ .f32 :=
  fun i => ∑ k : Fin 32, x (ix2 (i 0) k) * y (ix2 (i 1) k)

/-- The matrix at the entry (r, s). -/
theorem gram_apply {n m : ℕ} (x : Vec Ideal ⟨2, ![n, 32]⟩ .f32) (y : Vec Ideal ⟨2, ![m, 32]⟩ .f32) (r : Fin n) (s : Fin m) :
    gram x y (ix2 r s) = ∑ k : Fin 32, x (ix2 r k) * y (ix2 s k) := rfl

/-- Entry (r, s) is a function of row r of the first factor and row s of the second. -/
theorem gram_congr_rows {n n' m m' : ℕ} (x : Vec Ideal ⟨2, ![n, 32]⟩ .f32) (x' : Vec Ideal ⟨2, ![n', 32]⟩ .f32)
    (y : Vec Ideal ⟨2, ![m, 32]⟩ .f32) (y' : Vec Ideal ⟨2, ![m', 32]⟩ .f32) (r : Fin n) (r' : Fin n') (s : Fin m) (s' : Fin m')
    (hx : ∀ k : Fin 32, x (ix2 r k) = x' (ix2 r' k)) (hy : ∀ k : Fin 32, y (ix2 s k) = y' (ix2 s' k)) :
    gram x y (ix2 r s) = gram x' y' (ix2 r' s') := by
  rw [gram_apply, gram_apply]
  exact Finset.sum_congr rfl fun k _ => by rw [hx k, hy k]

/-! ## A one-row matrix read as a vector -/

/-- The single row of a 1×n matrix, as a vector of n entries (a bias handed over as a 1×n array). -/
def row {n : ℕ} (B : Vec Ideal ⟨2, ![1, n]⟩ .f32) : Vec Ideal ⟨1, ![n]⟩ .f32 := fun j => B (ix2 (0 : Fin 1) (j 0))

/-- The vector at the entry j. -/
theorem row_apply {n : ℕ} (B : Vec Ideal ⟨2, ![1, n]⟩ .f32) (j : Fin n) : row B (ix1 j) = B (ix2 (0 : Fin 1) j) := rfl

end Cert.Spec

end
-- ==== Proof.IdealGram2Value.lean ====
/-
  Region 2 at the ideal values: what the result array holds after the region's eighty write-backs.

  The body's product is read at an index (k2_pay1_apply): on the extended reals the matrix product is the sum over
  the contracted coordinate of the products of the entries, so entry (a, b) of x0 · x1ᵀ reads row a of x0 and row b
  of x1 and nothing else. At point (i, j) the first operand is the block of x of rows 1000·i ‥ 1000·i + 999 and the
  second is the block of y of rows 1280·j ‥, filled out past the array's end by words d nothing names; a column b the
  write-back moves is below the cut, so row b of the second operand is a row of y: the moved part of the product is
  the block (i, j) of x · yᵀ, whatever d (cut_out_eq_read_gram). The blocks cover the 10000 × 10000 result
  (cover_blk2), each write-back pieces in its block of x · yᵀ, and so the array ends at x · yᵀ (final2).
-/
import proofs.«154350_j35708358099201_1_alg».proof.Proof.Gen.KernelIdeal.Launch
import proofs.«154350_j35708358099201_1_alg».proof.Proof.Gen.KernelIdeal.Skeleton
import proofs.«154350_j35708358099201_1_alg».proof.Proof.Gen.KernelIdeal.Points
import proofs.«154350_j35708358099201_1_alg».proof.Proof.IdealGram2
import proofs.«154350_j35708358099201_1_alg».proof.Proof.Spec
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.ValueIdx
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

open Idealize.ShloMosaic.ValueIdx
open scoped BigOperators

/-! ## The body's payload at an index -/

/-- The body's payload at the ideal values, read at an index: the sum over the 32 contracted coordinates of the
    products of the entries of row a of the first operand and row b of the second. -/
theorem k2_pay1_apply (v0 : Vec Ideal S1000x32 .f32) (v2 : Vec Ideal S1280x32 .f32) (a : Fin 1000) (b : Fin 1280) :
    k2_pay1 v0 v2 (ix2 a b) = ∑ c : Fin 32, v0 (ix2 a c) * v2 (ix2 b c) := by
  unfold k2_pay1
  simp only [matmul]
  rw [Ideal.matmul_constant_zero_apply,
    ← Equiv.sum_comp (contrEquiv1 dot_S1000x32_S32x1280_S1000x1280_1_0_0_1_n_n 32 rfl rfl).symm]
  refine Finset.sum_congr rfl fun c _ => ?_
  have c2 := contrEquiv1_symm_val dot_S1000x32_S32x1280_S1000x1280_1_0_0_1_n_n 32 rfl rfl c
  have l2 : dot_S1000x32_S32x1280_S1000x1280_1_0_0_1_n_n.lhsIdx (ix2 a b) ((contrEquiv1 _ 32 rfl rfl).symm c) = ix2 a c := by
    funext ax; apply Fin.ext
    match ax with
    | ⟨0, _⟩ => simp [DotDims.lhsIdx, dot_S1000x32_S32x1280_S1000x1280_1_0_0_1_n_n]; rfl
    | ⟨1, _⟩ => simp [DotDims.lhsIdx, dot_S1000x32_S32x1280_S1000x1280_1_0_0_1_n_n]; exact c2
  have r2 : dot_S1000x32_S32x1280_S1000x1280_1_0_0_1_n_n.rhsIdx (ix2 a b) ((contrEquiv1 _ 32 rfl rfl).symm c) = ix2 c b := by
    funext ax; apply Fin.ext
    match ax with
    | ⟨0, _⟩ => simp [DotDims.rhsIdx, dot_S1000x32_S32x1280_S1000x1280_1_0_0_1_n_n]; exact c2
    | ⟨1, _⟩ => simp [DotDims.rhsIdx, dot_S1000x32_S32x1280_S1000x1280_1_0_0_1_n_n]; rfl
  rw [l2, r2]
  have e1 : shapeCast S1000x32 v0 shapeCasts_S1000x32_S1000x32 (ix2 a c) = v0 (ix2 a c) :=
    shapeCast_apply v0 _ (ix2 a c) (ix2 a c) rfl
  have e2 : transpose S32x1280 [1, 0] (shapeCast S1280x32 v2 shapeCasts_S1280x32_S1280x32) transposes_S1280x32_p1_0_S32x1280 (ix2 c b)
      = shapeCast S1280x32 v2 shapeCasts_S1280x32_S1280x32 (ix2 b c) :=
    transpose_apply [1, 0] _ _ (ix2 c b) (ix2 b c) (fun b' => by
      match b' with
      | ⟨0, _⟩ => rfl
      | ⟨1, _⟩ => rfl)
  have e3 : shapeCast S1280x32 v2 shapeCasts_S1280x32_S1280x32 (ix2 b c) = v2 (ix2 b c) :=
    shapeCast_apply v2 _ (ix2 b c) (ix2 b c) rfl
  rw [e1, e2, e3]

/-! ## The whole-buffer accesses -/

theorem r2_0_idx (x : S1000x32.Idx) : r2_0.idx x = x := by
  funext a; apply Fin.ext
  match a with
  | ⟨0, _⟩ => show 0 + 1 * (x 0).val = (x 0).val; omega
  | ⟨1, _⟩ => show 0 + 1 * (x 1).val = (x 1).val; omega
theorem r2_1_idx (x : S1280x32.Idx) : r2_1.idx x = x := by
  funext a; apply Fin.ext
  match a with
  | ⟨0, _⟩ => show 0 + 1 * (x 0).val = (x 0).val; omega
  | ⟨1, _⟩ => show 0 + 1 * (x 1).val = (x 1).val; omega
theorem r2_2_emb (x : S1000x1280.Idx) : r2_2.emb x = x := by
  funext a; apply Fin.ext
  match a with
  | ⟨0, _⟩ => show 0 + 1 * (x 0).val = (x 0).val; omega
  | ⟨1, _⟩ => show 0 + 1 * (x 1).val = (x 1).val; omega

/-- What the body leaves in the result's buffer is its payload of the two input buffers' contents, at every index:
    the loads and the store are of the whole buffers. -/
theorem out2_2_apply {F : FTy → Type} [FloatOps F] (x0 : Vec F S1000x32 .f32) (x1 : Vec F S1280x32 .f32) (y : S1000x1280.Idx) :
    out2_2 x0 x1 y = k2_pay1 x0 x1 y := by
  unfold out2_2
  have h0 : View.ld x0 r2_0 = x0 := funext fun x => congrArg x0 (r2_0_idx x)
  have h1 : View.ld x1 r2_1 = x1 := funext fun x => congrArg x1 (r2_1_idx x)
  rw [h0, h1]
  have := View.canon_cons_emb (Val := Elt F) (e := .f32) r2_2 (k2_pay1 x0 x1) [] y
  rw [r2_2_emb] at this
  exact this

/-! ## The blocks at a point -/

/-- Per point: x's block index is the result's row-block index, y's is the result's column-block index, both start at
    column 0; y's block is cut on its rows exactly as the result's is on its columns, and not on its 32 columns. -/
theorem pt_facts2 : ∀ t : Fin grid2.N,
    win2_0.index t 0 = win2_2.index t 0 ∧ win2_0.index t 1 = 0 ∧ win2_1.index t 0 = win2_2.index t 1 ∧ win2_1.index t 1 = 0
    ∧ win2_1.xsize (grid2.coords t) 0 = win2_2.xsize (grid2.coords t) 1 ∧ win2_1.xsize (grid2.coords t) 1 = 32 := by
  decide +kernel

section Value
variable (V : (c : Dev nD) → (b : Ref sig .tc) → Buf (Elt Ideal) ((c : Thread nD τ).loc b))

/-- The two input arrays as the region finds them, and the matrix of the inner products of their rows. -/
abbrev xArr2 (c : Dev nD) : Vec Ideal ⟨2, ![10000, 32]⟩ .f32 := V c main_v297
abbrev yArr2 (c : Dev nD) : Vec Ideal ⟨2, ![10000, 32]⟩ .f32 := V c main_v301
abbrev gram2 (c : Dev nD) : Vec Ideal ⟨2, ![10000, 10000]⟩ .f32 := Cert.Spec.gram (xArr2 V c) (yArr2 V c)

theorem iblk2_0_apply (c : Dev nD) (t : Fin cfg2.N) (j : (win2_0.xblock (grid2.coords t)).Idx) :
    iblk2 V c 0 t j = xArr2 V c ((win2_0.rect t).idx j) := rfl
theorem iblk2_1_apply (c : Dev nD) (t : Fin cfg2.N) (j : (win2_1.xblock (grid2.coords t)).Idx) :
    iblk2 V c 1 t j = yArr2 V c ((win2_1.rect t).idx j) := rfl
theorem read_gram_apply (c : Dev nD) (t : Fin cfg2.N) (j : (win2_2.xblock (grid2.coords t)).Idx) :
    (win2_2.blk t).view.read (Elt Ideal) (gram2 V c) j = gram2 V c ((win2_2.rect t).idx j) := rfl

/-- At every point, whatever words d fill out y's block past the array's end: the part of the body's product that
    the write-back moves is the block of x · yᵀ there. -/
theorem cut_out_eq_read_gram (c : Dev nD) (t : Fin cfg2.N) (d : S1280x32.Idx → Elt Ideal .f32) :
    win2_2.cut (grid2.coords t) (out2_2 (iblk2 V c 0 t) (win2_1.fill (grid2.coords t) d (iblk2 V c 1 t)))
      = (win2_2.blk t).view.read (Elt Ideal) (gram2 V c) := by
  obtain ⟨f1, f2, f3, f4, f5, f6⟩ := pt_facts2 t
  funext j
  rw [read_gram_apply]
  show out2_2 _ _ (win2_2.xinj (grid2.coords t) j) = _
  rw [out2_2_apply]
  have hj0 : (j 0).val < win2_2.xsize (grid2.coords t) 0 := (j 0).isLt
  have hj1 : (j 1).val < win2_2.xsize (grid2.coords t) 1 := (j 1).isLt
  obtain ⟨a, b, hab⟩ : ∃ (a : Fin 1000) (b : Fin 1280), win2_2.xinj (grid2.coords t) j = ix2 a b :=
    ⟨_, _, eq_ix2 (n0 := 1000) (n1 := 1280) (win2_2.xinj (grid2.coords t) j)⟩
  have ha : a.val = (j 0).val := by have := congrArg (fun z => (z 0).val) hab; exact this.symm
  have hb : b.val = (j 1).val := by have := congrArg (fun z => (z 1).val) hab; exact this.symm
  rw [hab, k2_pay1_apply]
  obtain ⟨p, q, hpq⟩ : ∃ (p : Fin 10000) (q : Fin 10000), (win2_2.rect t).idx j = ix2 p q :=
    ⟨_, _, eq_ix2 (n0 := 10000) (n1 := 10000) ((win2_2.rect t).idx j)⟩
  have hp : p.val = win2_2.index t 0 * 1000 + 1 * (j 0).val := by
    have := congrArg (fun z => (z 0).val) hpq; exact this.symm
  have hq : q.val = win2_2.index t 1 * 1280 + 1 * (j 1).val := by
    have := congrArg (fun z => (z 1).val) hpq; exact this.symm
  rw [hpq]
  show _ = ∑ k : Fin 32, xArr2 V c (ix2 p k) * yArr2 V c (ix2 q k)
  refine Finset.sum_congr rfl fun k _ => ?_
  have hk : k.val < 32 := k.isLt
  -- x's block at (a, k) is x at (p, k)
  have ex : iblk2 V c 0 t (ix2 a k) = xArr2 V c (ix2 p k) := by
    rw [iblk2_0_apply]
    refine congrArg (xArr2 V c) ?_
    funext ax; apply Fin.ext
    match ax with
    | ⟨0, _⟩ => show win2_0.index t 0 * 1000 + 1 * a.val = p.val; rw [f1, ha, hp]
    | ⟨1, _⟩ => show win2_0.index t 1 * 32 + 1 * k.val = k.val; rw [f2]; omega
  -- y's filled block at (b, k), b below the cut, is y at (q, k)
  have hm : win2_1.moved (grid2.coords t) (ix2 b k) = true :=
    (win2_1.moved_iff _ _).mpr (Fin.forall_fin_two.mpr ⟨by show b.val < _; rw [f5, hb]; exact hj1, by show k.val < _; rw [f6]; exact hk⟩)
  have ey : win2_1.fill (grid2.coords t) d (iblk2 V c 1 t) (ix2 b k) = yArr2 V c (ix2 q k) := by
    unfold Pipeline.Window.fill
    rw [dif_pos hm, iblk2_1_apply]
    refine congrArg (yArr2 V c) ?_
    funext ax; apply Fin.ext
    match ax with
    | ⟨0, _⟩ => show win2_1.index t 0 * 1280 + 1 * b.val = q.val; rw [f3, hb, hq]
    | ⟨1, _⟩ => show win2_1.index t 1 * 32 + 1 * k.val = k.val; rw [f4]; omega
  rw [ex, ey]

/-! ## The blocks cover the result -/

/-- Every pair of a row-block index and a column-block index is some point's, whose block is cut to 1040 columns
    in the last column block and not otherwise. -/
theorem blocks_facts2 : ∀ (p : Fin 10) (q : Fin 8), ∃ t : Fin grid2.N,
    win2_2.index t 0 = p.val ∧ win2_2.index t 1 = q.val ∧ win2_2.xsize (grid2.coords t) 0 = 1000
    ∧ win2_2.xsize (grid2.coords t) 1 = (if q.val = 7 then 1040 else 1280) := by
  decide +kernel

/-- An index of the result is in point t's block iff each coordinate is among the block's coordinates inside the array. -/
theorem mem_blk2 (t : Fin cfg2.N) (I : S10000x10000.Idx) :
    I ∈ (win2_2.blk t).view.setOn Finset.univ ↔
      ∀ a, win2_2.index t a * win2_2.size a ≤ (I a : Nat) ∧ (I a : Nat) < win2_2.index t a * win2_2.size a + win2_2.xsize (grid2.coords t) a := by
  rw [View.setOn_univ]
  show I ∈ ((View.whole main_v302).slice (win2_2.rect t)).set ↔ _
  rw [View.set_slice_whole, Rect.mem_set_unit]

/-- Every index of the result lies in some point's block: row r in row block r / 1000, column s in column block
    s / 1280, the last of which holds columns 8960 ‥ 9999. -/
theorem cover_blk2 (I : S10000x10000.Idx) : ∃ t : Fin cfg2.N, I ∈ (win2_2.blk t).view.setOn Finset.univ := by
  have h0 : (I 0).val < 10000 := (I 0).isLt
  have h1 : (I 1).val < 10000 := (I 1).isLt
  obtain ⟨t, e0, e1, s0, s1⟩ := blocks_facts2 ⟨(I 0).val / 1000, by omega⟩ ⟨(I 1).val / 1280, by omega⟩
  refine ⟨t, (mem_blk2 t I).mpr (Fin.forall_fin_two.mpr ⟨?_, ?_⟩)⟩
  · show win2_2.index t 0 * 1000 ≤ (I 0).val ∧ (I 0).val < win2_2.index t 0 * 1000 + win2_2.xsize (grid2.coords t) 0
    rw [e0, s0]; dsimp only; omega
  · show win2_2.index t 1 * 1280 ≤ (I 1).val ∧ (I 1).val < win2_2.index t 1 * 1280 + win2_2.xsize (grid2.coords t) 1
    rw [e1, s1]; dsimp only; split <;> omega

/-! ## The result array after the write-backs -/

/-- After the write-backs of the points below n, whatever the result array may hold agrees with x · yᵀ on every
    block written so far: each write-back pieces in the block of x · yᵀ, and a later one overwrites only with the same. -/
theorem arrAt2_inv (c : Dev nD) : ∀ (n : Nat) (hn : n ≤ cfg2.N) (G : Buf (Elt Ideal) ((cfg2.win 2).arr.view.loc (c : Thread nD τ))),
    (rdat2 V c).ArrAt 2 n G →
    ∀ I : S10000x10000.Idx, (∃ t : Fin cfg2.N, t.val < n ∧ I ∈ (win2_2.blk t).view.setOn Finset.univ) → G I = gram2 V c I
  | 0, _, G, _, I, ⟨t, ht, _⟩ => absurd ht (Nat.not_lt_zero _)
  | n + 1, hn, G, h, I, ⟨t, ht, hI⟩ => by
    have hlt : n < cfg2.N := hn
    rw [(rdat2 V c).ArrAt_succ 2 ⟨n, hlt⟩, if_pos (flush2_2 _)] at h
    obtain ⟨G₀, X, hG₀, ⟨Y, _, hYX⟩, rfl⟩ := h
    obtain ⟨d, rfl⟩ := (rafter2_2 V c _ _ _).mp hYX
    rw [cut_out_eq_read_gram, View.write_read_eq_piecewise]
    by_cases hIn : I ∈ (win2_2.blk ⟨n, hlt⟩).view.setOn Finset.univ
    · rw [Finset.piecewise_eq_of_mem _ _ _ hIn]
    · rw [Finset.piecewise_eq_of_notMem _ _ _ hIn]
      refine arrAt2_inv c n (Nat.le_of_lt hlt) G₀ hG₀ I ⟨t, ?_, hI⟩
      rcases Nat.lt_succ_iff_lt_or_eq.mp ht with h' | h'
      · exact h'
      · exact absurd (by have e : t = ⟨n, hlt⟩ := Fin.ext h'; rw [← e]; exact hI) hIn

/-- The result array after the region: x · yᵀ, the matrix of the inner products of the rows of the two inputs. -/
theorem final2 (c : Dev nD) (G : Buf (Elt Ideal) ((cfg2.win 2).arr.view.loc (c : Thread nD τ)))
    (h : (rdat2 (F := Ideal) V c).ArrAt 2 cfg2.N G) : G = Cert.Spec.gram (V c main_v297) (V c main_v301) := by
  funext I
  obtain ⟨t, ht⟩ := cover_blk2 I
  exact arrAt2_inv V c cfg2.N le_rfl G h I ⟨t, t.isLt, ht⟩

end Value

end Cert.KernelIdeal.Hand

end
-- ==== Proof.IdealValue.lean ====
/-
  The program's result at the ideal values, assembled.

  The run holds every unscoped buffer at known contents between any two items; this module reads the result buffer
  back through them. The product's result array is x · yᵀ of the two arrays the product finds (the block-by-block
  fold, whatever filled out the overhanging rows); those two arrays are the two heads' results, which no later item
  writes; each head's result is the specification's three-layer head of the array and weights the head finds; the
  array a head finds is its graph stack's output, which nothing between the stack and the head writes; the weight
  matrices are launch arguments, which nothing writes; and each bias reaches its head as a one-row matrix made by a
  host reshape of a launch argument, whose row is that argument. What the two graph stacks compute from the launch
  arguments, and the two heads' results in closed form, enter as hypotheses of the assembly.
-/
import proofs.«154350_j35708358099201_1_alg».proof.Proof.IdealRun
import proofs.«154350_j35708358099201_1_alg».proof.Proof.IdealGram2Value
import proofs.«154350_j35708358099201_1_alg».proof.Proof.RefReadP
import proofs.«154350_j35708358099201_1_alg».proof.Proof.Spec
import Idealize.ShloMosaic.Lib.ValueIdx
import Idealize.ShloMosaic.Lib.Pipeline.Value
import Idealize.ShloMosaic.Lib.StableHlo.Run

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.StableHlo
open Idealize.SL.Sem
open Idealize.ShloMosaic.Pipeline (Dat RDat Cfg Window)
open Idealize.ShloMosaic.ValueIdx
open scoped BigOperators

variable (m : (ℓ : Loc nD τ sig) → Buf (Elt Ideal) ℓ) (ρ : Dev nD → PrngReg)

/-! ## Small facts -/

/-- A vector stored as a one-row matrix and read back as its row is the vector. -/
theorem row_shapeCast {n : ℕ} (b : Vec Ideal ⟨1, ![n]⟩ .f32) (h : (⟨1, ![n]⟩ : Shape).ShapeCasts ⟨2, ![1, n]⟩) :
    Cert.Spec.row (shapeCast ⟨2, ![1, n]⟩ b h) = b := by
  funext j
  unfold Cert.Spec.row
  refine (shapeCast_addUnit_apply (d := ![n]) b h _).trans (congrArg b ?_)
  funext a
  match a with
  | ⟨0, _⟩ => rfl

/-- The three biases of a head, each stored as a one-row matrix by a host reshape, over any contents before them. -/
theorem bias17_0 (Wp : Valuation τ sig (Elt Ideal)) : StableHlo.after main_part5_ops4 Wp (Proc.devRef .tc main_v294)
    = shapeCast S1x128 (Wp (Proc.devRef .tc main_arg15)) shapeCasts_S128_S1x128 := by
  after_results; rfl
theorem bias17_1 (Wp : Valuation τ sig (Elt Ideal)) : StableHlo.after main_part5_ops4 Wp (Proc.devRef .tc main_v295)
    = shapeCast S1x64 (Wp (Proc.devRef .tc main_arg17)) shapeCasts_S64_S1x64 := by
  after_results; rfl
theorem bias17_2 (Wp : Valuation τ sig (Elt Ideal)) : StableHlo.after main_part5_ops4 Wp (Proc.devRef .tc main_v296)
    = shapeCast S1x32 (Wp (Proc.devRef .tc main_arg19)) shapeCasts_S32_S1x32 := by
  after_results; rfl
theorem bias18_0 (Wp : Valuation τ sig (Elt Ideal)) : StableHlo.after main_part6_ops0 Wp (Proc.devRef .tc main_v298)
    = shapeCast S1x128 (Wp (Proc.devRef .tc main_arg21)) shapeCasts_S128_S1x128 := by
  after_results; rfl
theorem bias18_1 (Wp : Valuation τ sig (Elt Ideal)) : StableHlo.after main_part6_ops0 Wp (Proc.devRef .tc main_v299)
    = shapeCast S1x64 (Wp (Proc.devRef .tc main_arg23)) shapeCasts_S64_S1x64 := by
  after_results; rfl
theorem bias18_2 (Wp : Valuation τ sig (Elt Ideal)) : StableHlo.after main_part6_ops0 Wp (Proc.devRef .tc main_v300)
    = shapeCast S1x32 (Wp (Proc.devRef .tc main_arg25)) shapeCasts_S32_S1x32 := by
  after_results; rfl

/-! ## The arguments at the boundaries inside the run -/

theorem W17_arg (c : Dev nD) (r : Ref sig .tc) (hr : r ∈ argRefs) : W17 m ρ c (Proc.devRef .tc r) = m ((c : Thread nD τ).loc r) :=
  (StableHlo.after_of_writes_sub main_part5_ops4 _ ops17_writes (arg_not_written r hr).2.2.2.2.2.2.2.2.2.2.2.2.2.2.2.2.2.1).symm.trans
    (W18_arg m ρ c r hr)
theorem W19_arg (c : Dev nD) (r : Ref sig .tc) (hr : r ∈ argRefs) : W19 m ρ c (Proc.devRef .tc r) = m ((c : Thread nD τ).loc r) := by
  have e19 : W19 m ρ c (Proc.devRef .tc r) = W18 m ρ c (Proc.devRef .tc r) := by
    rcases arg_window0 r hr with h | ⟨w, hw, rfl⟩
    · exact W19_of_ne m ρ c r h
    · exact W19_of_in m ρ c w hw
  exact e19.trans (W18_arg m ρ c r hr)
theorem W20_arg (c : Dev nD) (r : Ref sig .tc) (hr : r ∈ argRefs) : W20 m ρ c (Proc.devRef .tc r) = m ((c : Thread nD τ).loc r) :=
  (StableHlo.after_of_writes_sub main_part6_ops0 _ ops18_writes (arg_not_written r hr).2.2.2.2.2.2.2.2.2.2.2.2.2.2.2.2.2.2).trans
    (W19_arg m ρ c r hr)

/-! ## The biases as the heads find them -/

theorem W18_v294 (c : Dev nD) : W18 m ρ c (Proc.devRef .tc main_v294) = shapeCast S1x128 (m ((c : Thread nD τ).loc main_arg15)) shapeCasts_S128_S1x128 :=
  (bias17_0 (W17 m ρ c)).trans (congrArg (fun b => shapeCast S1x128 b shapeCasts_S128_S1x128) (W17_arg m ρ c main_arg15 (by decide)))
theorem W18_v295 (c : Dev nD) : W18 m ρ c (Proc.devRef .tc main_v295) = shapeCast S1x64 (m ((c : Thread nD τ).loc main_arg17)) shapeCasts_S64_S1x64 :=
  (bias17_1 (W17 m ρ c)).trans (congrArg (fun b => shapeCast S1x64 b shapeCasts_S64_S1x64) (W17_arg m ρ c main_arg17 (by decide)))
theorem W18_v296 (c : Dev nD) : W18 m ρ c (Proc.devRef .tc main_v296) = shapeCast S1x32 (m ((c : Thread nD τ).loc main_arg19)) shapeCasts_S32_S1x32 :=
  (bias17_2 (W17 m ρ c)).trans (congrArg (fun b => shapeCast S1x32 b shapeCasts_S32_S1x32) (W17_arg m ρ c main_arg19 (by decide)))
theorem W20_v298 (c : Dev nD) : W20 m ρ c (Proc.devRef .tc main_v298) = shapeCast S1x128 (m ((c : Thread nD τ).loc main_arg21)) shapeCasts_S128_S1x128 :=
  (bias18_0 (W19 m ρ c)).trans (congrArg (fun b => shapeCast S1x128 b shapeCasts_S128_S1x128) (W19_arg m ρ c main_arg21 (by decide)))
theorem W20_v299 (c : Dev nD) : W20 m ρ c (Proc.devRef .tc main_v299) = shapeCast S1x64 (m ((c : Thread nD τ).loc main_arg23)) shapeCasts_S64_S1x64 :=
  (bias18_1 (W19 m ρ c)).trans (congrArg (fun b => shapeCast S1x64 b shapeCasts_S64_S1x64) (W19_arg m ρ c main_arg23 (by decide)))
theorem W20_v300 (c : Dev nD) : W20 m ρ c (Proc.devRef .tc main_v300) = shapeCast S1x32 (m ((c : Thread nD τ).loc main_arg25)) shapeCasts_S32_S1x32 :=
  (bias18_2 (W19 m ρ c)).trans (congrArg (fun b => shapeCast S1x32 b shapeCasts_S32_S1x32) (W19_arg m ρ c main_arg25 (by decide)))

/-! ## The two graph stacks' outputs as the heads find them -/

theorem W18_v164 (c : Dev nD) : W18 m ρ c (Proc.devRef .tc main_v164) = W17 m ρ c (Proc.devRef .tc main_v164) :=
  StableHlo.after_of_writes_sub main_part5_ops4 _ ops17_writes (by decide)
theorem W20_v293 (c : Dev nD) : W20 m ρ c (Proc.devRef .tc main_v293) = W17 m ρ c (Proc.devRef .tc main_v293) :=
  (StableHlo.after_of_writes_sub main_part6_ops0 _ ops18_writes (by decide)).trans
    ((W19_of_ne m ρ c main_v293 (by decide)).trans (StableHlo.after_of_writes_sub main_part5_ops4 _ ops17_writes (by decide)))
/-- The first head's result, as the product finds it. -/
theorem W21_v297 (c : Dev nD) : W21 m ρ c (Proc.devRef .tc main_v297) = (dat0 (V18 m ρ) c).arrAt 7 cfg0.N :=
  (W21_of_ne m ρ c main_v297 (by decide)).trans
    ((StableHlo.after_of_writes_sub main_part6_ops0 _ ops18_writes (by decide)).trans (W19_arr m ρ c 7))
theorem W21_v301 (c : Dev nD) : W21 m ρ c (Proc.devRef .tc main_v301) = (dat1 (V20 m ρ) c).arrAt 7 cfg1.N :=
  W21_arr m ρ c 7

/-! ## The assembly -/

/-- The specification's value of the launch's arguments on core c: the matrix of inner products of the two heads'
    outputs, each head applied to its graph stack's output. -/
def RES (c : Dev nD) : Vec Ideal ⟨2, ![10000, 10000]⟩ .f32 :=
  Cert.Spec.gram (n := 10000) (m := 10000)
    (Cert.Spec.head (n := 10000) (Cert.ReferenceIdeal.ReadP.val_main_v164 (F := Ideal) (m ((c.tc : Thread nD τ).loc main_arg0)) (m ((c.tc : Thread nD τ).loc main_arg2)) (m ((c.tc : Thread nD τ).loc main_arg4)) (m ((c.tc : Thread nD τ).loc main_arg6)) (m ((c.tc : Thread nD τ).loc main_arg7)) (m ((c.tc : Thread nD τ).loc main_arg8)) (m ((c.tc : Thread nD τ).loc main_arg9))) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)))
    (Cert.Spec.head (n := 10000) (Cert.ReferenceIdeal.ReadP.val_main_v293 (F := Ideal) (m ((c.tc : Thread nD τ).loc main_arg1)) (m ((c.tc : Thread nD τ).loc main_arg3)) (m ((c.tc : Thread nD τ).loc main_arg5)) (m ((c.tc : Thread nD τ).loc main_arg10)) (m ((c.tc : Thread nD τ).loc main_arg11)) (m ((c.tc : Thread nD τ).loc main_arg12)) (m ((c.tc : Thread nD τ).loc main_arg13))) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)))

section Assembly
-- the two graph stacks read back (the host prefix's value), and the two heads' results in closed form
variable (hkx : ∀ c : Dev nD, W17 m ρ c (Proc.devRef .tc main_v164) = Cert.ReferenceIdeal.ReadP.val_main_v164 (F := Ideal) (m ((c.tc : Thread nD τ).loc main_arg0)) (m ((c.tc : Thread nD τ).loc main_arg2)) (m ((c.tc : Thread nD τ).loc main_arg4)) (m ((c.tc : Thread nD τ).loc main_arg6)) (m ((c.tc : Thread nD τ).loc main_arg7)) (m ((c.tc : Thread nD τ).loc main_arg8)) (m ((c.tc : Thread nD τ).loc main_arg9)))
  (hky : ∀ c : Dev nD, W17 m ρ c (Proc.devRef .tc main_v293) = Cert.ReferenceIdeal.ReadP.val_main_v293 (F := Ideal) (m ((c.tc : Thread nD τ).loc main_arg1)) (m ((c.tc : Thread nD τ).loc main_arg3)) (m ((c.tc : Thread nD τ).loc main_arg5)) (m ((c.tc : Thread nD τ).loc main_arg10)) (m ((c.tc : Thread nD τ).loc main_arg11)) (m ((c.tc : Thread nD τ).loc main_arg12)) (m ((c.tc : Thread nD τ).loc main_arg13)))
  (hf0 : ∀ (V : (c : Dev nD) → (b : Ref sig .tc) → Buf (Elt Ideal) ((c : Thread nD τ).loc b)) (c : Dev nD),
    (dat0 (F := Ideal) V c).arrAt 7 cfg0.N = Cert.Spec.head (V c main_v164) (V c main_arg14) (Cert.Spec.row (V c main_v294))
      (V c main_arg16) (Cert.Spec.row (V c main_v295)) (V c main_arg18) (Cert.Spec.row (V c main_v296)))
  (hf1 : ∀ (V : (c : Dev nD) → (b : Ref sig .tc) → Buf (Elt Ideal) ((c : Thread nD τ).loc b)) (c : Dev nD),
    (dat1 (F := Ideal) V c).arrAt 7 cfg1.N = Cert.Spec.head (V c main_v293) (V c main_arg20) (Cert.Spec.row (V c main_v298))
      (V c main_arg22) (Cert.Spec.row (V c main_v299)) (V c main_arg24) (Cert.Spec.row (V c main_v300)))

include hkx hf0 in
/-- The first head's result is the specification's head of the first graph stack's output and the launch's weights. -/
theorem head0_eq (c : Dev nD) : W21 m ρ c (Proc.devRef .tc main_v297)
    = Cert.Spec.head (n := 10000) (Cert.ReferenceIdeal.ReadP.val_main_v164 (F := Ideal) (m ((c.tc : Thread nD τ).loc main_arg0)) (m ((c.tc : Thread nD τ).loc main_arg2)) (m ((c.tc : Thread nD τ).loc main_arg4)) (m ((c.tc : Thread nD τ).loc main_arg6)) (m ((c.tc : Thread nD τ).loc main_arg7)) (m ((c.tc : Thread nD τ).loc main_arg8)) (m ((c.tc : Thread nD τ).loc main_arg9))) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) := by
  have a0 : V18 m ρ c main_v164 = Cert.ReferenceIdeal.ReadP.val_main_v164 (F := Ideal) (m ((c.tc : Thread nD τ).loc main_arg0)) (m ((c.tc : Thread nD τ).loc main_arg2)) (m ((c.tc : Thread nD τ).loc main_arg4)) (m ((c.tc : Thread nD τ).loc main_arg6)) (m ((c.tc : Thread nD τ).loc main_arg7)) (m ((c.tc : Thread nD τ).loc main_arg8)) (m ((c.tc : Thread nD τ).loc main_arg9)) := (W18_v164 m ρ c).trans (hkx c)
  have a1 : V18 m ρ c main_arg14 = m ((c.tc : Thread nD τ).loc main_arg14) := W18_arg m ρ c main_arg14 (by decide)
  have a2 : Cert.Spec.row (V18 m ρ c main_v294) = m ((c.tc : Thread nD τ).loc main_arg15) :=
    (congrArg Cert.Spec.row (W18_v294 m ρ c)).trans (row_shapeCast _ _)
  have a3 : V18 m ρ c main_arg16 = m ((c.tc : Thread nD τ).loc main_arg16) := W18_arg m ρ c main_arg16 (by decide)
  have a4 : Cert.Spec.row (V18 m ρ c main_v295) = m ((c.tc : Thread nD τ).loc main_arg17) :=
    (congrArg Cert.Spec.row (W18_v295 m ρ c)).trans (row_shapeCast _ _)
  have a5 : V18 m ρ c main_arg18 = m ((c.tc : Thread nD τ).loc main_arg18) := W18_arg m ρ c main_arg18 (by decide)
  have a6 : Cert.Spec.row (V18 m ρ c main_v296) = m ((c.tc : Thread nD τ).loc main_arg19) :=
    (congrArg Cert.Spec.row (W18_v296 m ρ c)).trans (row_shapeCast _ _)
  rw [W21_v297, hf0 (V18 m ρ) c, a0, a1, a2, a3, a4, a5, a6]

include hky hf1 in
/-- The second head's likewise. -/
theorem head1_eq (c : Dev nD) : W21 m ρ c (Proc.devRef .tc main_v301)
    = Cert.Spec.head (n := 10000) (Cert.ReferenceIdeal.ReadP.val_main_v293 (F := Ideal) (m ((c.tc : Thread nD τ).loc main_arg1)) (m ((c.tc : Thread nD τ).loc main_arg3)) (m ((c.tc : Thread nD τ).loc main_arg5)) (m ((c.tc : Thread nD τ).loc main_arg10)) (m ((c.tc : Thread nD τ).loc main_arg11)) (m ((c.tc : Thread nD τ).loc main_arg12)) (m ((c.tc : Thread nD τ).loc main_arg13))) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) := by
  have a0 : V20 m ρ c main_v293 = Cert.ReferenceIdeal.ReadP.val_main_v293 (F := Ideal) (m ((c.tc : Thread nD τ).loc main_arg1)) (m ((c.tc : Thread nD τ).loc main_arg3)) (m ((c.tc : Thread nD τ).loc main_arg5)) (m ((c.tc : Thread nD τ).loc main_arg10)) (m ((c.tc : Thread nD τ).loc main_arg11)) (m ((c.tc : Thread nD τ).loc main_arg12)) (m ((c.tc : Thread nD τ).loc main_arg13)) := (W20_v293 m ρ c).trans (hky c)
  have a1 : V20 m ρ c main_arg20 = m ((c.tc : Thread nD τ).loc main_arg20) := W20_arg m ρ c main_arg20 (by decide)
  have a2 : Cert.Spec.row (V20 m ρ c main_v298) = m ((c.tc : Thread nD τ).loc main_arg21) :=
    (congrArg Cert.Spec.row (W20_v298 m ρ c)).trans (row_shapeCast _ _)
  have a3 : V20 m ρ c main_arg22 = m ((c.tc : Thread nD τ).loc main_arg22) := W20_arg m ρ c main_arg22 (by decide)
  have a4 : Cert.Spec.row (V20 m ρ c main_v299) = m ((c.tc : Thread nD τ).loc main_arg23) :=
    (congrArg Cert.Spec.row (W20_v299 m ρ c)).trans (row_shapeCast _ _)
  have a5 : V20 m ρ c main_arg24 = m ((c.tc : Thread nD τ).loc main_arg24) := W20_arg m ρ c main_arg24 (by decide)
  have a6 : Cert.Spec.row (V20 m ρ c main_v300) = m ((c.tc : Thread nD τ).loc main_arg25) :=
    (congrArg Cert.Spec.row (W20_v300 m ρ c)).trans (row_shapeCast _ _)
  rw [W21_v301, hf1 (V20 m ρ) c, a0, a1, a2, a3, a4, a5, a6]

include hkx hky hf0 hf1 in
/-- At the ideal values, from any memory with zero counters: every weakly fair execution of the program terminates
    with the result buffer at the specification's value of the launch's arguments, and the arguments unchanged. -/
theorem kernel_run_of : θ_run (defs (F := Ideal)) (onTc (τ := τ) (main (F := Ideal))) ⟨m, fun _ => 0, ρ⟩ (fun r => ∀ c : Dev nD,
      r.2.mem ((c.tc : Thread nD τ).loc main_v302) = RES m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)) :=
  (θ_run defs _ _).mono (fun r h c => by
    obtain ⟨G, hG, hb⟩ := h c
    refine ⟨?_,
      (hb _ (mem_uc main_arg0 (by decide))).trans (W22_arg m ρ c G main_arg0 (by decide)),
      (hb _ (mem_uc main_arg1 (by decide))).trans (W22_arg m ρ c G main_arg1 (by decide)),
      (hb _ (mem_uc main_arg2 (by decide))).trans (W22_arg m ρ c G main_arg2 (by decide)),
      (hb _ (mem_uc main_arg3 (by decide))).trans (W22_arg m ρ c G main_arg3 (by decide)),
      (hb _ (mem_uc main_arg4 (by decide))).trans (W22_arg m ρ c G main_arg4 (by decide)),
      (hb _ (mem_uc main_arg5 (by decide))).trans (W22_arg m ρ c G main_arg5 (by decide)),
      (hb _ (mem_uc main_arg6 (by decide))).trans (W22_arg m ρ c G main_arg6 (by decide)),
      (hb _ (mem_uc main_arg7 (by decide))).trans (W22_arg m ρ c G main_arg7 (by decide)),
      (hb _ (mem_uc main_arg8 (by decide))).trans (W22_arg m ρ c G main_arg8 (by decide)),
      (hb _ (mem_uc main_arg9 (by decide))).trans (W22_arg m ρ c G main_arg9 (by decide)),
      (hb _ (mem_uc main_arg10 (by decide))).trans (W22_arg m ρ c G main_arg10 (by decide)),
      (hb _ (mem_uc main_arg11 (by decide))).trans (W22_arg m ρ c G main_arg11 (by decide)),
      (hb _ (mem_uc main_arg12 (by decide))).trans (W22_arg m ρ c G main_arg12 (by decide)),
      (hb _ (mem_uc main_arg13 (by decide))).trans (W22_arg m ρ c G main_arg13 (by decide)),
      (hb _ (mem_uc main_arg14 (by decide))).trans (W22_arg m ρ c G main_arg14 (by decide)),
      (hb _ (mem_uc main_arg15 (by decide))).trans (W22_arg m ρ c G main_arg15 (by decide)),
      (hb _ (mem_uc main_arg16 (by decide))).trans (W22_arg m ρ c G main_arg16 (by decide)),
      (hb _ (mem_uc main_arg17 (by decide))).trans (W22_arg m ρ c G main_arg17 (by decide)),
      (hb _ (mem_uc main_arg18 (by decide))).trans (W22_arg m ρ c G main_arg18 (by decide)),
      (hb _ (mem_uc main_arg19 (by decide))).trans (W22_arg m ρ c G main_arg19 (by decide)),
      (hb _ (mem_uc main_arg20 (by decide))).trans (W22_arg m ρ c G main_arg20 (by decide)),
      (hb _ (mem_uc main_arg21 (by decide))).trans (W22_arg m ρ c G main_arg21 (by decide)),
      (hb _ (mem_uc main_arg22 (by decide))).trans (W22_arg m ρ c G main_arg22 (by decide)),
      (hb _ (mem_uc main_arg23 (by decide))).trans (W22_arg m ρ c G main_arg23 (by decide)),
      (hb _ (mem_uc main_arg24 (by decide))).trans (W22_arg m ρ c G main_arg24 (by decide)),
      (hb _ (mem_uc main_arg25 (by decide))).trans (W22_arg m ρ c G main_arg25 (by decide))⟩
    have e1 : V21 m ρ c main_v297 = _ := head0_eq m ρ hkx hf0 c
    have e2 : V21 m ρ c main_v301 = _ := head1_eq m ρ hky hf1 c
    refine (hb _ (mem_uc main_v302 (by decide))).trans ((W22_result m ρ c G).trans ?_)
    rw [final2 (V21 m ρ) c (G 2) (hG 2), e1, e2]
    rfl)
    (run_main m ρ)

end Assembly

end Cert.KernelIdeal.HandValue

end
-- ==== Proof.MlpLayer.lean ====
/- One layer of the perceptron head as the vector operations compute it — a matrix product accumulated into a zero
   splat, a one-row bias laid along every row and added, the maximum with a zero splat — is the specification's
   `dense` layer, on the extended reals. No program is imported: the statement is over the operations themselves. -/
import proofs.«154350_j35708358099201_1_alg».proof.Proof.Spec
import Idealize.ShloMosaic.Lib.KernelVsHost
import Idealize.ShloMosaic.Lib.StackMember
import Idealize.ShloMosaic.Lib.Pipeline.Value

noncomputable section

open scoped BigOperators

namespace Cert.Spec

open Idealize.ShloMosaic Idealize.ShloMosaic.ValueIdx

/-- The product of an n×K by a K×M matrix accumulated into a zero splat, read at (a, b), is Σ_c A(a,c)·B(c,b). -/
theorem matmul_plain_apply {n K M : ℕ} (D : DotDims ⟨2, ![n, K]⟩ ⟨2, ![K, M]⟩ ⟨2, ![n, M]⟩) (hD : D = DotDims.plain n K M)
    (A : FVec Ideal ⟨2, ![n, K]⟩ .f32) (B : FVec Ideal ⟨2, ![K, M]⟩ .f32) (a : Fin n) (b : Fin M) :
    matmul D none A B (constant ⟨2, ![n, M]⟩ .f32 0x00000000#32) (ix2 a b) = ∑ c : Fin K, A (ix2 a c) * B (ix2 c b) := by
  subst hD
  rw [matmul_zero_eq_dotGeneral]
  exact StackMember.dotGeneral_plain_apply none A B a b

/-- A one-row matrix laid along each of n rows, read at (a, b), is the row's entry b. -/
theorem broadcast_row_apply {n M : ℕ} (B : FVec Ideal ⟨2, ![1, M]⟩ .f32) (hc : (⟨2, ![1, M]⟩ : Shape).ShapeCasts ⟨2, ![1, M]⟩)
    (hb : (⟨2, ![1, M]⟩ : Shape).Broadcasts ⟨2, ![n, M]⟩) (a : Fin n) (b : Fin M) :
    broadcastTo ⟨2, ![n, M]⟩ (shapeCast ⟨2, ![1, M]⟩ B hc) hb (ix2 a b) = row B (ix1 b) := by
  rw [shapeCast_self]
  refine broadcastTo_apply B hb (ix2 a b) (ix2 (0 : Fin 1) b) fun ax => ?_
  match ax with
  | ⟨0, _⟩ => rfl
  | ⟨1, _⟩ =>
    show b.val = if M = 1 then 0 else b.val
    have := b.isLt
    split_ifs <;> omega

/-- ONE LAYER: the product into a zero splat, plus the bias row laid along the rows, against a zero splat under the
    maximum, is the specification's dense layer of the bias row read as a vector. -/
theorem layer_eq_dense {n K M : ℕ} (D : DotDims ⟨2, ![n, K]⟩ ⟨2, ![K, M]⟩ ⟨2, ![n, M]⟩) (hD : D = DotDims.plain n K M)
    (hc : (⟨2, ![1, M]⟩ : Shape).ShapeCasts ⟨2, ![1, M]⟩) (hb : (⟨2, ![1, M]⟩ : Shape).Broadcasts ⟨2, ![n, M]⟩)
    (X : FVec Ideal ⟨2, ![n, K]⟩ .f32) (W : FVec Ideal ⟨2, ![K, M]⟩ .f32) (B : FVec Ideal ⟨2, ![1, M]⟩ .f32) :
    maximumf (addf (matmul D none X W (constant ⟨2, ![n, M]⟩ .f32 0x00000000#32))
        (broadcastTo ⟨2, ![n, M]⟩ (shapeCast ⟨2, ![1, M]⟩ B hc) hb))
      (broadcast ⟨2, ![n, M]⟩ (Scalar.ofBits (F := Ideal) .f32 0x00000000#32))
      = dense X W (row B) := by
  funext i
  obtain ⟨a, b, rfl⟩ : ∃ (a : Fin n) (b : Fin M), i = ix2 a b := ⟨i 0, i 1, eq_ix2 i⟩
  rw [dense_apply, maximumf_apply, addf_apply, matmul_plain_apply D hD, broadcast_row_apply, broadcast_apply]
  rfl

end Cert.Spec

end
-- ==== Proof.IdealMlp0Value.lean ====
/- The value of REGION 0's output array on the extended reals: after the region's ten grid points the 10000×32 array
   holds the three-layer head of the 10000×128 input array and the six weight and bias arrays as the region finds
   them. Point t computes the head of rows 1000·t … 1000·t + 999 — a row of the head is a function of the same row of
   its input —, and the ten row blocks tile the array. -/
import proofs.«154350_j35708358099201_1_alg».proof.Proof.IdealMlp0
import proofs.«154350_j35708358099201_1_alg».proof.Proof.Spec
import proofs.«154350_j35708358099201_1_alg».proof.Proof.MlpLayer
import Idealize.ShloMosaic.Lib.KernelVsHost
import Idealize.ShloMosaic.Lib.StackMember
import Idealize.ShloMosaic.Lib.Pipeline.Value
import Idealize.ShloMosaic.Lib.Tactic

set_option maxRecDepth 16384

noncomputable section

open scoped BigOperators

namespace Cert.KernelIdeal.HandValue

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

-- the TensorCore's buffer contents when the region is entered, on the extended reals
variable (V : (c : Dev nD) → (b : Ref sig .tc) → Buf (Elt Ideal) ((c : Thread nD τ).loc b))

theorem hz0 : (![0, 0] : Fin 2 → Nat) = fun _ => 0 := funext fun a => by fin_cases a <;> rfl

/-! ## Where each window's block lies: decided over the ten grid points -/

/-- The row-block windows (the input 0 and the output 7) are at block row t; every weight and bias window stays at
    block (0, 0). -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-! ## The input blocks as parts of the arrays -/

/-- Row p of the input window's block at point t is row 1000·t + p of the input array. -/
theorem iblk0_0_apply (c : Dev nD) (t : Fin cfg0.N) (p : Fin 1000) (k : Fin 128) (r : Fin 10000) (hr : r.val = t.val * 1000 + p.val) :
    (iblk0 V c 0 t : Vec Ideal S1000x128 .f32) (ix2 p k) = (V c main_v164 : S10000x128.Idx → Ideal .f32) (ix2 r k) := by
  obtain ⟨e0, e1, -⟩ := idx_facts0 t
  unfold iblk0
  rw [View.read_apply]
  show V c main_v164 _ = V c main_v164 _
  congr 1
  funext a
  apply Fin.ext
  match a with
  | ⟨0, _⟩ => show win0_0.index t 0 * 1000 + 1 * p.val = r.val; rw [e0, hr]; omega
  | ⟨1, _⟩ => show win0_0.index t 1 * 128 + 1 * k.val = k.val; rw [e1]; omega

/-- Window 1 (the first layer's weights) takes its whole array at every point. -/
theorem iblk0_1_eq (c : Dev nD) (t : Fin cfg0.N) : (iblk0 V c 1 t : Vec Ideal S128x128 .f32) = V c main_arg14 := by
  obtain ⟨-, -, e0, e1, -⟩ := idx_facts0 t
  funext x
  unfold iblk0
  rw [View.read_apply]
  show V c main_arg14 _ = V c main_arg14 _
  congr 1
  funext a
  apply Fin.ext
  match a with
  | ⟨0, _⟩ => show win0_1.index t 0 * 128 + 1 * (x 0).val = (x 0).val; rw [e0]; omega
  | ⟨1, _⟩ => show win0_1.index t 1 * 128 + 1 * (x 1).val = (x 1).val; rw [e1]; omega

/-- Window 2 (the first layer's bias row) takes its whole array at every point. -/
theorem iblk0_2_eq (c : Dev nD) (t : Fin cfg0.N) : (iblk0 V c 2 t : Vec Ideal S1x128 .f32) = V c main_v294 := by
  obtain ⟨-, -, -, -, e0, e1, -⟩ := idx_facts0 t
  funext x
  unfold iblk0
  rw [View.read_apply]
  show V c main_v294 _ = V c main_v294 _
  congr 1
  funext a
  apply Fin.ext
  match a with
  | ⟨0, _⟩ => show win0_2.index t 0 * 1 + 1 * (x 0).val = (x 0).val; rw [e0]; omega
  | ⟨1, _⟩ => show win0_2.index t 1 * 128 + 1 * (x 1).val = (x 1).val; rw [e1]; omega

/-- Window 3 (the second layer's weights) takes its whole array at every point. -/
theorem iblk0_3_eq (c : Dev nD) (t : Fin cfg0.N) : (iblk0 V c 3 t : Vec Ideal S128x64 .f32) = V c main_arg16 := by
  obtain ⟨-, -, -, -, -, -, e0, e1, -⟩ := idx_facts0 t
  funext x
  unfold iblk0
  rw [View.read_apply]
  show V c main_arg16 _ = V c main_arg16 _
  congr 1
  funext a
  apply Fin.ext
  match a with
  | ⟨0, _⟩ => show win0_3.index t 0 * 128 + 1 * (x 0).val = (x 0).val; rw [e0]; omega
  | ⟨1, _⟩ => show win0_3.index t 1 * 64 + 1 * (x 1).val = (x 1).val; rw [e1]; omega

/-- Window 4 (the second layer's bias row) takes its whole array at every point. -/
theorem iblk0_4_eq (c : Dev nD) (t : Fin cfg0.N) : (iblk0 V c 4 t : Vec Ideal S1x64 .f32) = V c main_v295 := by
  obtain ⟨-, -, -, -, -, -, -, -, e0, e1, -⟩ := idx_facts0 t
  funext x
  unfold iblk0
  rw [View.read_apply]
  show V c main_v295 _ = V c main_v295 _
  congr 1
  funext a
  apply Fin.ext
  match a with
  | ⟨0, _⟩ => show win0_4.index t 0 * 1 + 1 * (x 0).val = (x 0).val; rw [e0]; omega
  | ⟨1, _⟩ => show win0_4.index t 1 * 64 + 1 * (x 1).val = (x 1).val; rw [e1]; omega

/-- Window 5 (the third layer's weights) takes its whole array at every point. -/
theorem iblk0_5_eq (c : Dev nD) (t : Fin cfg0.N) : (iblk0 V c 5 t : Vec Ideal S64x32 .f32) = V c main_arg18 := by
  obtain ⟨-, -, -, -, -, -, -, -, -, -, e0, e1, -⟩ := idx_facts0 t
  funext x
  unfold iblk0
  rw [View.read_apply]
  show V c main_arg18 _ = V c main_arg18 _
  congr 1
  funext a
  apply Fin.ext
  match a with
  | ⟨0, _⟩ => show win0_5.index t 0 * 64 + 1 * (x 0).val = (x 0).val; rw [e0]; omega
  | ⟨1, _⟩ => show win0_5.index t 1 * 32 + 1 * (x 1).val = (x 1).val; rw [e1]; omega

/-- Window 6 (the third layer's bias row) takes its whole array at every point. -/
theorem iblk0_6_eq (c : Dev nD) (t : Fin cfg0.N) : (iblk0 V c 6 t : Vec Ideal S1x32 .f32) = V c main_v296 := by
  obtain ⟨-, -, -, -, -, -, -, -, -, -, -, -, e0, e1, -⟩ := idx_facts0 t
  funext x
  unfold iblk0
  rw [View.read_apply]
  show V c main_v296 _ = V c main_v296 _
  congr 1
  funext a
  apply Fin.ext
  match a with
  | ⟨0, _⟩ => show win0_6.index t 0 * 1 + 1 * (x 0).val = (x 0).val; rw [e0]; omega
  | ⟨1, _⟩ => show win0_6.index t 1 * 32 + 1 * (x 1).val = (x 1).val; rw [e1]; omega

/-! ## The body's payload -/

/-- The body's payload is the three-layer head of the seven loaded blocks, the biases' one-row blocks read as vectors:
    layer by layer, a product into a zero splat plus the bias row laid along the rows, under the maximum with zero. -/
theorem k0_pay1_eq_head (x0 : Vec Ideal S1000x128 .f32) (x1 : Vec Ideal S128x128 .f32) (x2 : Vec Ideal S1x128 .f32)
    (x3 : Vec Ideal S128x64 .f32) (x4 : Vec Ideal S1x64 .f32) (x5 : Vec Ideal S64x32 .f32) (x6 : Vec Ideal S1x32 .f32) :
    k0_pay1 x0 x1 x2 x3 x4 x5 x6 = Cert.Spec.head x0 x1 (Cert.Spec.row x2) x3 (Cert.Spec.row x4) x5 (Cert.Spec.row x6) := by
  unfold k0_pay1 Cert.Spec.head
  dsimp only
  rw [shapeCast_self x0]
  rw [Cert.Spec.layer_eq_dense dot_S1000x128_S128x128_S1000x128_1_0_0_1_n_n rfl,
    Cert.Spec.layer_eq_dense dot_S1000x128_S128x64_S1000x64_1_0_0_1_n_n rfl,
    Cert.Spec.layer_eq_dense dot_S1000x64_S64x32_S1000x32_1_0_0_1_n_n rfl]

/-! ## From the blocks to the array -/

/-- The head of the arrays as the region finds them. -/
abbrev G0 (c : Dev nD) : S10000x32.Idx → Ideal .f32 :=
  Cert.Spec.head (V c main_v164) (V c main_arg14) (Cert.Spec.row (V c main_v294)) (V c main_arg16) (Cert.Spec.row (V c main_v295)) (V c main_arg18) (Cert.Spec.row (V c main_v296))

/-- What point t writes back is block t of `G0`: rows 1000·t … 1000·t + 999 of the head, each a function of the same
    row of the input array. -/
theorem flushed0_eq (c : Dev nD) (t : Fin cfg0.N) :
    (dat0 V c).flushed 7 t = ((cfg0.win 7).blk t).view.read (Elt Ideal) (G0 V c) := by
  show (cfg0.win 7).cut (grid0.coords t) ((dat0 V c).after 7 t) = _
  rw [after0_7]
  unfold out0_7
  rw [View.canon_unit_zero hz0]
  simp only [View.ld_unit_zero (S := S1000x128) hz0, View.ld_unit_zero (S := S128x128) hz0, View.ld_unit_zero (S := S1x128) hz0, View.ld_unit_zero (S := S128x64) hz0, View.ld_unit_zero (S := S1x64) hz0, View.ld_unit_zero (S := S64x32) hz0, View.ld_unit_zero (S := S1x32) hz0]
  rw [k0_pay1_eq_head, iblk0_1_eq, iblk0_2_eq, iblk0_3_eq, iblk0_4_eq, iblk0_5_eq, iblk0_6_eq]
  obtain ⟨-, -, -, -, -, -, -, -, -, -, -, -, -, -, e0, e1⟩ := idx_facts0 t
  have ht : t.val < 10 := Nat.lt_of_lt_of_eq t.isLt (show cfg0.N = 10 from N_0)
  funext j
  obtain ⟨p, q, rfl⟩ : ∃ (p : Fin 1000) (q : Fin 32), j = ix2 p q := ⟨j 0, j 1, eq_ix2 j⟩
  have he : ((cfg0.win 7).blk t).view.emb (ix2 p q) = (ix2 (⟨t.val * 1000 + p.val, by have := p.isLt; omega⟩ : Fin 10000) q : S10000x32.Idx) := by
    funext a
    apply Fin.ext
    match a with
    | ⟨0, _⟩ => show win0_7.index t 0 * 1000 + 1 * p.val = t.val * 1000 + p.val; rw [e0]; omega
    | ⟨1, _⟩ => show win0_7.index t 1 * 32 + 1 * q.val = q.val; rw [e1]; omega
  show Cert.Spec.head (iblk0 V c 0 t) _ _ _ _ _ _ (ix2 p q) = G0 V c (((cfg0.win 7).blk t).view.emb (ix2 p q))
  rw [he]
  exact Cert.Spec.head_congr_row _ _ _ _ _ _ _ _ p _ (fun k => iblk0_0_apply V c t p k _ rfl) q

/-- An index of the array is in point t's block iff each coordinate is in the block's range on its axis. -/
theorem mem_blk0 (t : Fin cfg0.N) (i : S10000x32.Idx) :
    i ∈ ((cfg0.win 7).blk t).view.set ↔ ∀ a : Fin 2, win0_7.index t a * S1000x32.size a ≤ (i a).val ∧ (i a).val < win0_7.index t a * S1000x32.size a + S1000x32.size a := by
  show i ∈ ((View.whole main_v297).slice (win0_7.rect t)).set ↔ _
  rw [View.set_slice_whole, Rect.mem_set_unit]
  exact Iff.rfl

/-- Every index of the array is in some point's block: row r lies in block r / 1000. -/
theorem cover0 (i : S10000x32.Idx) : ∃ t : Fin cfg0.N, (cfg0.win 7).flush t = true ∧ i ∈ ((cfg0.win 7).blk t).view.set := by
  have hi0 : (i 0).val < 10000 := (i 0).isLt
  have hi1 : (i 1).val < 32 := (i 1).isLt
  obtain ⟨t, htv⟩ : ∃ t : Fin cfg0.N, t.val = (i 0).val / 1000 := ⟨⟨(i 0).val / 1000, by rw [show cfg0.N = 10 from N_0]; omega⟩, rfl⟩
  obtain ⟨-, -, -, -, -, -, -, -, -, -, -, -, -, -, e0, e1⟩ := idx_facts0 t
  refine ⟨t, flush0_7 t, ?_⟩
  rw [mem_blk0]
  intro a
  match a with
  | ⟨0, _⟩ => show win0_7.index t 0 * 1000 ≤ (i 0).val ∧ (i 0).val < win0_7.index t 0 * 1000 + 1000; rw [e0, htv]; omega
  | ⟨1, _⟩ => show win0_7.index t 1 * 32 ≤ (i 1).val ∧ (i 1).val < win0_7.index t 1 * 32 + 32; rw [e1]; omega

/-- THE ARRAY after the region: the head of the arrays as the region finds them. -/
theorem final0 (c : Dev nD) : (dat0 V c).arrAt 7 cfg0.N = Cert.Spec.head (V c main_v164) (V c main_arg14) (Cert.Spec.row (V c main_v294)) (V c main_arg16) (Cert.Spec.row (V c main_v295)) (V c main_arg18) (Cert.Spec.row (V c main_v296)) :=
  (dat0 V c).arrAt_eq_of_cover 7 (G0 V c) (fun t _ => flushed0_eq V c t) (cover0)

end Cert.KernelIdeal.HandValue

end
-- ==== Proof.IdealMlp1Value.lean ====
/- The value of REGION 1's output array on the extended reals: after the region's ten grid points the 10000×32 array
   holds the three-layer head of the 10000×128 input array and the six weight and bias arrays as the region finds
   them. Point t computes the head of rows 1000·t … 1000·t + 999 — a row of the head is a function of the same row of
   its input —, and the ten row blocks tile the array. -/
import proofs.«154350_j35708358099201_1_alg».proof.Proof.IdealMlp1
import proofs.«154350_j35708358099201_1_alg».proof.Proof.Spec
import proofs.«154350_j35708358099201_1_alg».proof.Proof.MlpLayer
import Idealize.ShloMosaic.Lib.KernelVsHost
import Idealize.ShloMosaic.Lib.StackMember
import Idealize.ShloMosaic.Lib.Pipeline.Value
import Idealize.ShloMosaic.Lib.Tactic

set_option maxRecDepth 16384

noncomputable section

open scoped BigOperators

namespace Cert.KernelIdeal.HandValue

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

-- the TensorCore's buffer contents when the region is entered, on the extended reals
variable (V : (c : Dev nD) → (b : Ref sig .tc) → Buf (Elt Ideal) ((c : Thread nD τ).loc b))

theorem hz1 : (![0, 0] : Fin 2 → Nat) = fun _ => 0 := funext fun a => by fin_cases a <;> rfl

/-! ## Where each window's block lies: decided over the ten grid points -/

/-- The row-block windows (the input 0 and the output 7) are at block row t; every weight and bias window stays at
    block (0, 0). -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

/-! ## The input blocks as parts of the arrays -/

/-- Row p of the input window's block at point t is row 1000·t + p of the input array. -/
theorem iblk1_0_apply (c : Dev nD) (t : Fin cfg1.N) (p : Fin 1000) (k : Fin 128) (r : Fin 10000) (hr : r.val = t.val * 1000 + p.val) :
    (iblk1 V c 0 t : Vec Ideal S1000x128 .f32) (ix2 p k) = (V c main_v293 : S10000x128.Idx → Ideal .f32) (ix2 r k) := by
  obtain ⟨e0, e1, -⟩ := idx_facts1 t
  unfold iblk1
  rw [View.read_apply]
  show V c main_v293 _ = V c main_v293 _
  congr 1
  funext a
  apply Fin.ext
  match a with
  | ⟨0, _⟩ => show win1_0.index t 0 * 1000 + 1 * p.val = r.val; rw [e0, hr]; omega
  | ⟨1, _⟩ => show win1_0.index t 1 * 128 + 1 * k.val = k.val; rw [e1]; omega

/-- Window 1 (the first layer's weights) takes its whole array at every point. -/
theorem iblk1_1_eq (c : Dev nD) (t : Fin cfg1.N) : (iblk1 V c 1 t : Vec Ideal S128x128 .f32) = V c main_arg20 := by
  obtain ⟨-, -, e0, e1, -⟩ := idx_facts1 t
  funext x
  unfold iblk1
  rw [View.read_apply]
  show V c main_arg20 _ = V c main_arg20 _
  congr 1
  funext a
  apply Fin.ext
  match a with
  | ⟨0, _⟩ => show win1_1.index t 0 * 128 + 1 * (x 0).val = (x 0).val; rw [e0]; omega
  | ⟨1, _⟩ => show win1_1.index t 1 * 128 + 1 * (x 1).val = (x 1).val; rw [e1]; omega

/-- Window 2 (the first layer's bias row) takes its whole array at every point. -/
theorem iblk1_2_eq (c : Dev nD) (t : Fin cfg1.N) : (iblk1 V c 2 t : Vec Ideal S1x128 .f32) = V c main_v298 := by
  obtain ⟨-, -, -, -, e0, e1, -⟩ := idx_facts1 t
  funext x
  unfold iblk1
  rw [View.read_apply]
  show V c main_v298 _ = V c main_v298 _
  congr 1
  funext a
  apply Fin.ext
  match a with
  | ⟨0, _⟩ => show win1_2.index t 0 * 1 + 1 * (x 0).val = (x 0).val; rw [e0]; omega
  | ⟨1, _⟩ => show win1_2.index t 1 * 128 + 1 * (x 1).val = (x 1).val; rw [e1]; omega

/-- Window 3 (the second layer's weights) takes its whole array at every point. -/
theorem iblk1_3_eq (c : Dev nD) (t : Fin cfg1.N) : (iblk1 V c 3 t : Vec Ideal S128x64 .f32) = V c main_arg22 := by
  obtain ⟨-, -, -, -, -, -, e0, e1, -⟩ := idx_facts1 t
  funext x
  unfold iblk1
  rw [View.read_apply]
  show V c main_arg22 _ = V c main_arg22 _
  congr 1
  funext a
  apply Fin.ext
  match a with
  | ⟨0, _⟩ => show win1_3.index t 0 * 128 + 1 * (x 0).val = (x 0).val; rw [e0]; omega
  | ⟨1, _⟩ => show win1_3.index t 1 * 64 + 1 * (x 1).val = (x 1).val; rw [e1]; omega

/-- Window 4 (the second layer's bias row) takes its whole array at every point. -/
theorem iblk1_4_eq (c : Dev nD) (t : Fin cfg1.N) : (iblk1 V c 4 t : Vec Ideal S1x64 .f32) = V c main_v299 := by
  obtain ⟨-, -, -, -, -, -, -, -, e0, e1, -⟩ := idx_facts1 t
  funext x
  unfold iblk1
  rw [View.read_apply]
  show V c main_v299 _ = V c main_v299 _
  congr 1
  funext a
  apply Fin.ext
  match a with
  | ⟨0, _⟩ => show win1_4.index t 0 * 1 + 1 * (x 0).val = (x 0).val; rw [e0]; omega
  | ⟨1, _⟩ => show win1_4.index t 1 * 64 + 1 * (x 1).val = (x 1).val; rw [e1]; omega

/-- Window 5 (the third layer's weights) takes its whole array at every point. -/
theorem iblk1_5_eq (c : Dev nD) (t : Fin cfg1.N) : (iblk1 V c 5 t : Vec Ideal S64x32 .f32) = V c main_arg24 := by
  obtain ⟨-, -, -, -, -, -, -, -, -, -, e0, e1, -⟩ := idx_facts1 t
  funext x
  unfold iblk1
  rw [View.read_apply]
  show V c main_arg24 _ = V c main_arg24 _
  congr 1
  funext a
  apply Fin.ext
  match a with
  | ⟨0, _⟩ => show win1_5.index t 0 * 64 + 1 * (x 0).val = (x 0).val; rw [e0]; omega
  | ⟨1, _⟩ => show win1_5.index t 1 * 32 + 1 * (x 1).val = (x 1).val; rw [e1]; omega

/-- Window 6 (the third layer's bias row) takes its whole array at every point. -/
theorem iblk1_6_eq (c : Dev nD) (t : Fin cfg1.N) : (iblk1 V c 6 t : Vec Ideal S1x32 .f32) = V c main_v300 := by
  obtain ⟨-, -, -, -, -, -, -, -, -, -, -, -, e0, e1, -⟩ := idx_facts1 t
  funext x
  unfold iblk1
  rw [View.read_apply]
  show V c main_v300 _ = V c main_v300 _
  congr 1
  funext a
  apply Fin.ext
  match a with
  | ⟨0, _⟩ => show win1_6.index t 0 * 1 + 1 * (x 0).val = (x 0).val; rw [e0]; omega
  | ⟨1, _⟩ => show win1_6.index t 1 * 32 + 1 * (x 1).val = (x 1).val; rw [e1]; omega

/-! ## The body's payload -/

/-- The body's payload is the three-layer head of the seven loaded blocks, the biases' one-row blocks read as vectors:
    layer by layer, a product into a zero splat plus the bias row laid along the rows, under the maximum with zero. -/
theorem k1_pay1_eq_head (x0 : Vec Ideal S1000x128 .f32) (x1 : Vec Ideal S128x128 .f32) (x2 : Vec Ideal S1x128 .f32)
    (x3 : Vec Ideal S128x64 .f32) (x4 : Vec Ideal S1x64 .f32) (x5 : Vec Ideal S64x32 .f32) (x6 : Vec Ideal S1x32 .f32) :
    k1_pay1 x0 x1 x2 x3 x4 x5 x6 = Cert.Spec.head x0 x1 (Cert.Spec.row x2) x3 (Cert.Spec.row x4) x5 (Cert.Spec.row x6) := by
  unfold k1_pay1 Cert.Spec.head
  dsimp only
  rw [shapeCast_self x0]
  rw [Cert.Spec.layer_eq_dense dot_S1000x128_S128x128_S1000x128_1_0_0_1_n_n rfl,
    Cert.Spec.layer_eq_dense dot_S1000x128_S128x64_S1000x64_1_0_0_1_n_n rfl,
    Cert.Spec.layer_eq_dense dot_S1000x64_S64x32_S1000x32_1_0_0_1_n_n rfl]

/-! ## From the blocks to the array -/

/-- The head of the arrays as the region finds them. -/
abbrev G1 (c : Dev nD) : S10000x32.Idx → Ideal .f32 :=
  Cert.Spec.head (V c main_v293) (V c main_arg20) (Cert.Spec.row (V c main_v298)) (V c main_arg22) (Cert.Spec.row (V c main_v299)) (V c main_arg24) (Cert.Spec.row (V c main_v300))

/-- What point t writes back is block t of `G1`: rows 1000·t … 1000·t + 999 of the head, each a function of the same
    row of the input array. -/
theorem flushed1_eq (c : Dev nD) (t : Fin cfg1.N) :
    (dat1 V c).flushed 7 t = ((cfg1.win 7).blk t).view.read (Elt Ideal) (G1 V c) := by
  show (cfg1.win 7).cut (grid1.coords t) ((dat1 V c).after 7 t) = _
  rw [after1_7]
  unfold out1_7
  rw [View.canon_unit_zero hz1]
  simp only [View.ld_unit_zero (S := S1000x128) hz1, View.ld_unit_zero (S := S128x128) hz1, View.ld_unit_zero (S := S1x128) hz1, View.ld_unit_zero (S := S128x64) hz1, View.ld_unit_zero (S := S1x64) hz1, View.ld_unit_zero (S := S64x32) hz1, View.ld_unit_zero (S := S1x32) hz1]
  rw [k1_pay1_eq_head, iblk1_1_eq, iblk1_2_eq, iblk1_3_eq, iblk1_4_eq, iblk1_5_eq, iblk1_6_eq]
  obtain ⟨-, -, -, -, -, -, -, -, -, -, -, -, -, -, e0, e1⟩ := idx_facts1 t
  have ht : t.val < 10 := Nat.lt_of_lt_of_eq t.isLt (show cfg1.N = 10 from N_1)
  funext j
  obtain ⟨p, q, rfl⟩ : ∃ (p : Fin 1000) (q : Fin 32), j = ix2 p q := ⟨j 0, j 1, eq_ix2 j⟩
  have he : ((cfg1.win 7).blk t).view.emb (ix2 p q) = (ix2 (⟨t.val * 1000 + p.val, by have := p.isLt; omega⟩ : Fin 10000) q : S10000x32.Idx) := by
    funext a
    apply Fin.ext
    match a with
    | ⟨0, _⟩ => show win1_7.index t 0 * 1000 + 1 * p.val = t.val * 1000 + p.val; rw [e0]; omega
    | ⟨1, _⟩ => show win1_7.index t 1 * 32 + 1 * q.val = q.val; rw [e1]; omega
  show Cert.Spec.head (iblk1 V c 0 t) _ _ _ _ _ _ (ix2 p q) = G1 V c (((cfg1.win 7).blk t).view.emb (ix2 p q))
  rw [he]
  exact Cert.Spec.head_congr_row _ _ _ _ _ _ _ _ p _ (fun k => iblk1_0_apply V c t p k _ rfl) q

/-- An index of the array is in point t's block iff each coordinate is in the block's range on its axis. -/
theorem mem_blk1 (t : Fin cfg1.N) (i : S10000x32.Idx) :
    i ∈ ((cfg1.win 7).blk t).view.set ↔ ∀ a : Fin 2, win1_7.index t a * S1000x32.size a ≤ (i a).val ∧ (i a).val < win1_7.index t a * S1000x32.size a + S1000x32.size a := by
  show i ∈ ((View.whole main_v301).slice (win1_7.rect t)).set ↔ _
  rw [View.set_slice_whole, Rect.mem_set_unit]
  exact Iff.rfl

/-- Every index of the array is in some point's block: row r lies in block r / 1000. -/
theorem cover1 (i : S10000x32.Idx) : ∃ t : Fin cfg1.N, (cfg1.win 7).flush t = true ∧ i ∈ ((cfg1.win 7).blk t).view.set := by
  have hi0 : (i 0).val < 10000 := (i 0).isLt
  have hi1 : (i 1).val < 32 := (i 1).isLt
  obtain ⟨t, htv⟩ : ∃ t : Fin cfg1.N, t.val = (i 0).val / 1000 := ⟨⟨(i 0).val / 1000, by rw [show cfg1.N = 10 from N_1]; omega⟩, rfl⟩
  obtain ⟨-, -, -, -, -, -, -, -, -, -, -, -, -, -, e0, e1⟩ := idx_facts1 t
  refine ⟨t, flush1_7 t, ?_⟩
  rw [mem_blk1]
  intro a
  match a with
  | ⟨0, _⟩ => show win1_7.index t 0 * 1000 ≤ (i 0).val ∧ (i 0).val < win1_7.index t 0 * 1000 + 1000; rw [e0, htv]; omega
  | ⟨1, _⟩ => show win1_7.index t 1 * 32 ≤ (i 1).val ∧ (i 1).val < win1_7.index t 1 * 32 + 32; rw [e1]; omega

/-- THE ARRAY after the region: the head of the arrays as the region finds them. -/
theorem final1 (c : Dev nD) : (dat1 V c).arrAt 7 cfg1.N = Cert.Spec.head (V c main_v293) (V c main_arg20) (Cert.Spec.row (V c main_v298)) (V c main_arg22) (Cert.Spec.row (V c main_v299)) (V c main_arg24) (Cert.Spec.row (V c main_v300)) :=
  (dat1 V c).arrAt_eq_of_cover 7 (G1 V c) (fun t _ => flushed1_eq V c t) (cover1)

end Cert.KernelIdeal.HandValue

end
-- ==== Proof.PrefixTac.lean ====
/-
  Two programs that begin with the same straight line of host operations hold the same arrays after it. This module
  holds what the comparison needs and is not about either program: the join of two arrays as a function of the two,
  and the three ways a buffer's contents after a list of operations are read.

  The contents after a list, `StableHlo.after ops W b`, are a fold: each operation rewrites its result buffer to its
  function of the operands' contents and leaves every other buffer. Read at one buffer `b`, the fold is therefore either
  the contents `b` had before the list (no operation of the list writes `b`), or the composed function of the
  operations that lead to `b`, applied to the contents the list's operands had before it. The second is compared with a
  stage of the other program stated as the same composition over named earlier stages: once the operands' contents are
  known to be those earlier stages, both sides are the same operations applied to the same terms, and the equation
  holds by unfolding the stages' names — no operation is ever evaluated.
-/
import Idealize.ShloMosaic.Lib.StableHlo.Run

namespace Cert.PrefixTac

open Idealize.ShloMosaic Idealize.ShloMosaic.StableHlo

/-- The join of two arrays along axis `a`, as a function of the two arrays. A printed join takes its operands inside a
    list of (shape, array) pairs; here they are arguments of their own, so that an equation about an operand's
    contents applies to the join by congruence, as to any other operation. -/
def cat2 {α : Type} (t : Shape) (a : Fin t.rank) {s₁ s₂ : Shape} (h : Shape.Concatenates [s₁, s₂] t a)
    (u : s₁.Idx → α) (v : s₂.Idx → α) : t.Idx → α :=
  concatenate t a [⟨s₁, u⟩, ⟨s₂, v⟩] h

/-- A printed join of two arrays is `cat2` of them. -/
theorem concatenate_pair {α : Type} (t : Shape) (a : Fin t.rank) {s₁ s₂ : Shape} (h : Shape.Concatenates [s₁, s₂] t a)
    (u : s₁.Idx → α) (v : s₂.Idx → α) : concatenate t a [⟨s₁, u⟩, ⟨s₂, v⟩] h = cat2 t a h u v := rfl

/-- Spell the list out and state its joins as `cat2`, before its buffers are read one by one. -/
macro "open_list " l:ident : tactic => `(tactic| simp only [$l:ident, concatenate_pair])

/-- A buffer no operation of the list writes: every operation's result leaves it (the references are told apart by
    computation), so it holds what it held before the list, which the hypothesis names. -/
macro "carried " h:term : tactic => `(tactic| (after_results_simp <;> exact $h))

/-- A buffer the list writes: its contents are the composed function of the operations that lead to it, applied to
    the contents the list's operands had BEFORE the list; those are rewritten to the stages the hypotheses name, and
    the two sides are then the same operations over the same terms (`rfl` unfolds the stage names and the two
    programs' shape and dimension constants, which have the same bodies). -/
syntax "computed " "[" term,* "]" : tactic
macro_rules
  | `(tactic| computed []) => `(tactic| (after_results_simp <;> rfl))
  | `(tactic| computed [$hs,*]) => `(tactic| (after_results_simp <;> (rw [$[$hs:term],*] <;> rfl)))

end Cert.PrefixTac
-- ==== Proof.PrefixInv.lean ====
/-
  The kernel program's host prefix is seventeen lists of operations run one after the other. At the boundary after
  the first k lists (k = 0 … 17) the buffers that a LATER list still reads (or that the comparison ends at) are few:
  the index and weight vectors the layers of a stack share, the current layer's features, and the arguments not yet
  read for the last time. `Inv‹k› W x0 … x13` says that under contents `W` each of them holds the stage of the same name of
  the reference program (`val_main_vN`, a function of the argument arrays `x0 … x13`), and each such argument its array.
  Buffers no later list reads are not mentioned: nothing after the boundary depends on them.
-/
import proofs.«154350_j35708358099201_1_alg».proof.Proof.Gen.KernelIdeal.Launch
import proofs.«154350_j35708358099201_1_alg».proof.Proof.RefReadP
import proofs.«154350_j35708358099201_1_alg».proof.Proof.PrefixTac

noncomputable section

namespace Cert.KernelIdeal.Hand

open Cert.KernelIdeal Cert.KernelIdeal.Gen Idealize.ShloMosaic Idealize.ShloMosaic.TcCoe Idealize.SL.Sem Idealize.ShloMosaic.StableHlo
open Cert.ReferenceIdeal.ReadP

variable {F : FTy → Type} [FloatOps F]

/-- The boundary after 0 of the seventeen lists (the launch): 0 computed buffers and 14 arguments are still to be read. -/
structure Inv0 (W : Valuation τ sig (Elt F)) (x0 : (⟨S10000x128, .f32⟩ : BufTy).Contents (Elt F)) (x1 : (⟨S10000x128, .f32⟩ : BufTy).Contents (Elt F)) (x2 : (⟨S10000x10000, .f32⟩ : BufTy).Contents (Elt F)) (x3 : (⟨S10000x10000, .f32⟩ : BufTy).Contents (Elt F)) (x4 : (⟨S2x320000, .i32⟩ : BufTy).Contents (Elt F)) (x5 : (⟨S2x320000, .i32⟩ : BufTy).Contents (Elt F)) (x6 : (⟨S128x128, .f32⟩ : BufTy).Contents (Elt F)) (x7 : (⟨S128, .f32⟩ : BufTy).Contents (Elt F)) (x8 : (⟨S128x128, .f32⟩ : BufTy).Contents (Elt F)) (x9 : (⟨S128, .f32⟩ : BufTy).Contents (Elt F)) (x10 : (⟨S128x128, .f32⟩ : BufTy).Contents (Elt F)) (x11 : (⟨S128, .f32⟩ : BufTy).Contents (Elt F)) (x12 : (⟨S128x128, .f32⟩ : BufTy).Contents (Elt F)) (x13 : (⟨S128, .f32⟩ : BufTy).Contents (Elt F)) : Prop where
  h_arg0 : W (Proc.devRef .tc main_arg0) = x0
  h_arg1 : W (Proc.devRef .tc main_arg1) = x1
  h_arg2 : W (Proc.devRef .tc main_arg2) = x2
  h_arg3 : W (Proc.devRef .tc main_arg3) = x3
  h_arg4 : W (Proc.devRef .tc main_arg4) = x4
  h_arg5 : W (Proc.devRef .tc main_arg5) = x5
  h_arg6 : W (Proc.devRef .tc main_arg6) = x6
  h_arg7 : W (Proc.devRef .tc main_arg7) = x7
  h_arg8 : W (Proc.devRef .tc main_arg8) = x8
  h_arg9 : W (Proc.devRef .tc main_arg9) = x9
  h_arg10 : W (Proc.devRef .tc main_arg10) = x10
  h_arg11 : W (Proc.devRef .tc main_arg11) = x11
  h_arg12 : W (Proc.devRef .tc main_arg12) = x12
  h_arg13 : W (Proc.devRef .tc main_arg13) = x13

/-- The boundary after 1 of the seventeen lists (the last one run: `main_part0_ops0`): 13 computed buffers and 8 arguments are still to be read. -/
structure Inv1 (W : Valuation τ sig (Elt F)) (x0 : (⟨S10000x128, .f32⟩ : BufTy).Contents (Elt F)) (x1 : (⟨S10000x128, .f32⟩ : BufTy).Contents (Elt F)) (x2 : (⟨S10000x10000, .f32⟩ : BufTy).Contents (Elt F)) (x3 : (⟨S10000x10000, .f32⟩ : BufTy).Contents (Elt F)) (x4 : (⟨S2x320000, .i32⟩ : BufTy).Contents (Elt F)) (x5 : (⟨S2x320000, .i32⟩ : BufTy).Contents (Elt F)) (x6 : (⟨S128x128, .f32⟩ : BufTy).Contents (Elt F)) (x7 : (⟨S128, .f32⟩ : BufTy).Contents (Elt F)) (x8 : (⟨S128x128, .f32⟩ : BufTy).Contents (Elt F)) (x9 : (⟨S128, .f32⟩ : BufTy).Contents (Elt F)) (x10 : (⟨S128x128, .f32⟩ : BufTy).Contents (Elt F)) (x11 : (⟨S128, .f32⟩ : BufTy).Contents (Elt F)) (x12 : (⟨S128x128, .f32⟩ : BufTy).Contents (Elt F)) (x13 : (⟨S128, .f32⟩ : BufTy).Contents (Elt F)) : Prop where
  h_v1 : W (Proc.devRef .tc main_v1) = val_main_v1 (F := F) x4
  h_v3 : W (Proc.devRef .tc main_v3) = val_main_v3 (F := F) x4
  h_v5 : W (Proc.devRef .tc main_v5) = val_main_v5 (F := F) x5
  h_v7 : W (Proc.devRef .tc main_v7) = val_main_v7 (F := F) x5
  h_v21 : W (Proc.devRef .tc main_v21) = val_main_v21 (F := F) x2 x4
  h_v35 : W (Proc.devRef .tc main_v35) = val_main_v35 (F := F) x3 x5
  h_v36 : W (Proc.devRef .tc main_v36) = val_main_v36 (F := F) x0 x6
  h_v38 : W (Proc.devRef .tc main_v38) = val_main_v38 (F := F) x4
  h_v39 : W (Proc.devRef .tc main_v39) = val_main_v39 (F := F) x4
  h_v41 : W (Proc.devRef .tc main_v41) = val_main_v41 (F := F) x2 x4
  h_v45 : W (Proc.devRef .tc main_v45) = val_main_v45 (F := F) x2 x4
  h_v47 : W (Proc.devRef .tc main_v47) = val_main_v47 (F := F) x4
  h_c_9 : W (Proc.devRef .tc main_c_9) = val_main_c_9 (F := F)
  h_arg1 : W (Proc.devRef .tc main_arg1) = x1
  h_arg7 : W (Proc.devRef .tc main_arg7) = x7
  h_arg8 : W (Proc.devRef .tc main_arg8) = x8
  h_arg9 : W (Proc.devRef .tc main_arg9) = x9
  h_arg10 : W (Proc.devRef .tc main_arg10) = x10
  h_arg11 : W (Proc.devRef .tc main_arg11) = x11
  h_arg12 : W (Proc.devRef .tc main_arg12) = x12
  h_arg13 : W (Proc.devRef .tc main_arg13) = x13

/-- The boundary after 2 of the seventeen lists (the last one run: `main_part1_ops0`): 7 computed buffers and 7 arguments are still to be read. -/
structure Inv2 (W : Valuation τ sig (Elt F)) (x0 : (⟨S10000x128, .f32⟩ : BufTy).Contents (Elt F)) (x1 : (⟨S10000x128, .f32⟩ : BufTy).Contents (Elt F)) (x2 : (⟨S10000x10000, .f32⟩ : BufTy).Contents (Elt F)) (x3 : (⟨S10000x10000, .f32⟩ : BufTy).Contents (Elt F)) (x4 : (⟨S2x320000, .i32⟩ : BufTy).Contents (Elt F)) (x5 : (⟨S2x320000, .i32⟩ : BufTy).Contents (Elt F)) (x6 : (⟨S128x128, .f32⟩ : BufTy).Contents (Elt F)) (x7 : (⟨S128, .f32⟩ : BufTy).Contents (Elt F)) (x8 : (⟨S128x128, .f32⟩ : BufTy).Contents (Elt F)) (x9 : (⟨S128, .f32⟩ : BufTy).Contents (Elt F)) (x10 : (⟨S128x128, .f32⟩ : BufTy).Contents (Elt F)) (x11 : (⟨S128, .f32⟩ : BufTy).Contents (Elt F)) (x12 : (⟨S128x128, .f32⟩ : BufTy).Contents (Elt F)) (x13 : (⟨S128, .f32⟩ : BufTy).Contents (Elt F)) : Prop where
  h_v1 : W (Proc.devRef .tc main_v1) = val_main_v1 (F := F) x4
  h_v3 : W (Proc.devRef .tc main_v3) = val_main_v3 (F := F) x4
  h_v5 : W (Proc.devRef .tc main_v5) = val_main_v5 (F := F) x5
  h_v7 : W (Proc.devRef .tc main_v7) = val_main_v7 (F := F) x5
  h_v21 : W (Proc.devRef .tc main_v21) = val_main_v21 (F := F) x2 x4
  h_v35 : W (Proc.devRef .tc main_v35) = val_main_v35 (F := F) x3 x5
  h_v77 : W (Proc.devRef .tc main_v77) = val_main_v77 (F := F) x0 x2 x4 x6 x7
  h_arg1 : W (Proc.devRef .tc main_arg1) = x1
  h_arg8 : W (Proc.devRef .tc main_arg8) = x8
  h_arg9 : W (Proc.devRef .tc main_arg9) = x9
  h_arg10 : W (Proc.devRef .tc main_arg10) = x10
  h_arg11 : W (Proc.devRef .tc main_arg11) = x11
  h_arg12 : W (Proc.devRef .tc main_arg12) = x12
  h_arg13 : W (Proc.devRef .tc main_arg13) = x13

/-- The boundary after 3 of the seventeen lists (the last one run: `main_part1_ops1`): 7 computed buffers and 7 arguments are still to be read. -/
structure Inv3 (W : Valuation τ sig (Elt F)) (x0 : (⟨S10000x128, .f32⟩ : BufTy).Contents (Elt F)) (x1 : (⟨S10000x128, .f32⟩ : BufTy).Contents (Elt F)) (x2 : (⟨S10000x10000, .f32⟩ : BufTy).Contents (Elt F)) (x3 : (⟨S10000x10000, .f32⟩ : BufTy).Contents (Elt F)) (x4 : (⟨S2x320000, .i32⟩ : BufTy).Contents (Elt F)) (x5 : (⟨S2x320000, .i32⟩ : BufTy).Contents (Elt F)) (x6 : (⟨S128x128, .f32⟩ : BufTy).Contents (Elt F)) (x7 : (⟨S128, .f32⟩ : BufTy).Contents (Elt F)) (x8 : (⟨S128x128, .f32⟩ : BufTy).Contents (Elt F)) (x9 : (⟨S128, .f32⟩ : BufTy).Contents (Elt F)) (x10 : (⟨S128x128, .f32⟩ : BufTy).Contents (Elt F)) (x11 : (⟨S128, .f32⟩ : BufTy).Contents (Elt F)) (x12 : (⟨S128x128, .f32⟩ : BufTy).Contents (Elt F)) (x13 : (⟨S128, .f32⟩ : BufTy).Contents (Elt F)) : Prop where
  h_v1 : W (Proc.devRef .tc main_v1) = val_main_v1 (F := F) x4
  h_v3 : W (Proc.devRef .tc main_v3) = val_main_v3 (F := F) x4
  h_v5 : W (Proc.devRef .tc main_v5) = val_main_v5 (F := F) x5
  h_v7 : W (Proc.devRef .tc main_v7) = val_main_v7 (F := F) x5
  h_v21 : W (Proc.devRef .tc main_v21) = val_main_v21 (F := F) x2 x4
  h_v35 : W (Proc.devRef .tc main_v35) = val_main_v35 (F := F) x3 x5
  h_v78 : W (Proc.devRef .tc main_v78) = val_main_v78 (F := F) x0 x2 x4 x6 x7
  h_arg1 : W (Proc.devRef .tc main_arg1) = x1
  h_arg8 : W (Proc.devRef .tc main_arg8) = x8
  h_arg9 : W (Proc.devRef .tc main_arg9) = x9
  h_arg10 : W (Proc.devRef .tc main_arg10) = x10
  h_arg11 : W (Proc.devRef .tc main_arg11) = x11
  h_arg12 : W (Proc.devRef .tc main_arg12) = x12
  h_arg13 : W (Proc.devRef .tc main_arg13) = x13

/-- The boundary after 4 of the seventeen lists (the last one run: `main_part1_ops2`): 12 computed buffers and 7 arguments are still to be read. -/
structure Inv4 (W : Valuation τ sig (Elt F)) (x0 : (⟨S10000x128, .f32⟩ : BufTy).Contents (Elt F)) (x1 : (⟨S10000x128, .f32⟩ : BufTy).Contents (Elt F)) (x2 : (⟨S10000x10000, .f32⟩ : BufTy).Contents (Elt F)) (x3 : (⟨S10000x10000, .f32⟩ : BufTy).Contents (Elt F)) (x4 : (⟨S2x320000, .i32⟩ : BufTy).Contents (Elt F)) (x5 : (⟨S2x320000, .i32⟩ : BufTy).Contents (Elt F)) (x6 : (⟨S128x128, .f32⟩ : BufTy).Contents (Elt F)) (x7 : (⟨S128, .f32⟩ : BufTy).Contents (Elt F)) (x8 : (⟨S128x128, .f32⟩ : BufTy).Contents (Elt F)) (x9 : (⟨S128, .f32⟩ : BufTy).Contents (Elt F)) (x10 : (⟨S128x128, .f32⟩ : BufTy).Contents (Elt F)) (x11 : (⟨S128, .f32⟩ : BufTy).Contents (Elt F)) (x12 : (⟨S128x128, .f32⟩ : BufTy).Contents (Elt F)) (x13 : (⟨S128, .f32⟩ : BufTy).Contents (Elt F)) : Prop where
  h_v1 : W (Proc.devRef .tc main_v1) = val_main_v1 (F := F) x4
  h_v3 : W (Proc.devRef .tc main_v3) = val_main_v3 (F := F) x4
  h_v5 : W (Proc.devRef .tc main_v5) = val_main_v5 (F := F) x5
  h_v7 : W (Proc.devRef .tc main_v7) = val_main_v7 (F := F) x5
  h_v21 : W (Proc.devRef .tc main_v21) = val_main_v21 (F := F) x2 x4
  h_v35 : W (Proc.devRef .tc main_v35) = val_main_v35 (F := F) x3 x5
  h_v79 : W (Proc.devRef .tc main_v79) = val_main_v79 (F := F) x0 x2 x4 x6 x7 x8
  h_v81 : W (Proc.devRef .tc main_v81) = val_main_v81 (F := F) x4
  h_v82 : W (Proc.devRef .tc main_v82) = val_main_v82 (F := F) x4
  h_v88 : W (Proc.devRef .tc main_v88) = val_main_v88 (F := F) x2 x4
  h_v96 : W (Proc.devRef .tc main_v96) = val_main_v96 (F := F) x2 x4
  h_v97 : W (Proc.devRef .tc main_v97) = val_main_v97 (F := F)
  h_arg1 : W (Proc.devRef .tc main_arg1) = x1
  h_arg8 : W (Proc.devRef .tc main_arg8) = x8
  h_arg9 : W (Proc.devRef .tc main_arg9) = x9
  h_arg10 : W (Proc.devRef .tc main_arg10) = x10
  h_arg11 : W (Proc.devRef .tc main_arg11) = x11
  h_arg12 : W (Proc.devRef .tc main_arg12) = x12
  h_arg13 : W (Proc.devRef .tc main_arg13) = x13

/-- The boundary after 5 of the seventeen lists (the last one run: `main_part2_ops0`): 7 computed buffers and 7 arguments are still to be read. -/
structure Inv5 (W : Valuation τ sig (Elt F)) (x0 : (⟨S10000x128, .f32⟩ : BufTy).Contents (Elt F)) (x1 : (⟨S10000x128, .f32⟩ : BufTy).Contents (Elt F)) (x2 : (⟨S10000x10000, .f32⟩ : BufTy).Contents (Elt F)) (x3 : (⟨S10000x10000, .f32⟩ : BufTy).Contents (Elt F)) (x4 : (⟨S2x320000, .i32⟩ : BufTy).Contents (Elt F)) (x5 : (⟨S2x320000, .i32⟩ : BufTy).Contents (Elt F)) (x6 : (⟨S128x128, .f32⟩ : BufTy).Contents (Elt F)) (x7 : (⟨S128, .f32⟩ : BufTy).Contents (Elt F)) (x8 : (⟨S128x128, .f32⟩ : BufTy).Contents (Elt F)) (x9 : (⟨S128, .f32⟩ : BufTy).Contents (Elt F)) (x10 : (⟨S128x128, .f32⟩ : BufTy).Contents (Elt F)) (x11 : (⟨S128, .f32⟩ : BufTy).Contents (Elt F)) (x12 : (⟨S128x128, .f32⟩ : BufTy).Contents (Elt F)) (x13 : (⟨S128, .f32⟩ : BufTy).Contents (Elt F)) : Prop where
  h_v1 : W (Proc.devRef .tc main_v1) = val_main_v1 (F := F) x4
  h_v3 : W (Proc.devRef .tc main_v3) = val_main_v3 (F := F) x4
  h_v5 : W (Proc.devRef .tc main_v5) = val_main_v5 (F := F) x5
  h_v7 : W (Proc.devRef .tc main_v7) = val_main_v7 (F := F) x5
  h_v21 : W (Proc.devRef .tc main_v21) = val_main_v21 (F := F) x2 x4
  h_v35 : W (Proc.devRef .tc main_v35) = val_main_v35 (F := F) x3 x5
  h_v120 : W (Proc.devRef .tc main_v120) = val_main_v120 (F := F) x0 x2 x4 x6 x7 x8 x9
  h_arg1 : W (Proc.devRef .tc main_arg1) = x1
  h_arg8 : W (Proc.devRef .tc main_arg8) = x8
  h_arg9 : W (Proc.devRef .tc main_arg9) = x9
  h_arg10 : W (Proc.devRef .tc main_arg10) = x10
  h_arg11 : W (Proc.devRef .tc main_arg11) = x11
  h_arg12 : W (Proc.devRef .tc main_arg12) = x12
  h_arg13 : W (Proc.devRef .tc main_arg13) = x13

/-- The boundary after 6 of the seventeen lists (the last one run: `main_part2_ops1`): 7 computed buffers and 7 arguments are still to be read. -/
structure Inv6 (W : Valuation τ sig (Elt F)) (x0 : (⟨S10000x128, .f32⟩ : BufTy).Contents (Elt F)) (x1 : (⟨S10000x128, .f32⟩ : BufTy).Contents (Elt F)) (x2 : (⟨S10000x10000, .f32⟩ : BufTy).Contents (Elt F)) (x3 : (⟨S10000x10000, .f32⟩ : BufTy).Contents (Elt F)) (x4 : (⟨S2x320000, .i32⟩ : BufTy).Contents (Elt F)) (x5 : (⟨S2x320000, .i32⟩ : BufTy).Contents (Elt F)) (x6 : (⟨S128x128, .f32⟩ : BufTy).Contents (Elt F)) (x7 : (⟨S128, .f32⟩ : BufTy).Contents (Elt F)) (x8 : (⟨S128x128, .f32⟩ : BufTy).Contents (Elt F)) (x9 : (⟨S128, .f32⟩ : BufTy).Contents (Elt F)) (x10 : (⟨S128x128, .f32⟩ : BufTy).Contents (Elt F)) (x11 : (⟨S128, .f32⟩ : BufTy).Contents (Elt F)) (x12 : (⟨S128x128, .f32⟩ : BufTy).Contents (Elt F)) (x13 : (⟨S128, .f32⟩ : BufTy).Contents (Elt F)) : Prop where
  h_v1 : W (Proc.devRef .tc main_v1) = val_main_v1 (F := F) x4
  h_v3 : W (Proc.devRef .tc main_v3) = val_main_v3 (F := F) x4
  h_v5 : W (Proc.devRef .tc main_v5) = val_main_v5 (F := F) x5
  h_v7 : W (Proc.devRef .tc main_v7) = val_main_v7 (F := F) x5
  h_v21 : W (Proc.devRef .tc main_v21) = val_main_v21 (F := F) x2 x4
  h_v35 : W (Proc.devRef .tc main_v35) = val_main_v35 (F := F) x3 x5
  h_v121 : W (Proc.devRef .tc main_v121) = val_main_v121 (F := F) x0 x2 x4 x6 x7 x8 x9
  h_arg1 : W (Proc.devRef .tc main_arg1) = x1
  h_arg8 : W (Proc.devRef .tc main_arg8) = x8
  h_arg9 : W (Proc.devRef .tc main_arg9) = x9
  h_arg10 : W (Proc.devRef .tc main_arg10) = x10
  h_arg11 : W (Proc.devRef .tc main_arg11) = x11
  h_arg12 : W (Proc.devRef .tc main_arg12) = x12
  h_arg13 : W (Proc.devRef .tc main_arg13) = x13

/-- The boundary after 7 of the seventeen lists (the last one run: `main_part2_ops2`): 7 computed buffers and 6 arguments are still to be read. -/
structure Inv7 (W : Valuation τ sig (Elt F)) (x0 : (⟨S10000x128, .f32⟩ : BufTy).Contents (Elt F)) (x1 : (⟨S10000x128, .f32⟩ : BufTy).Contents (Elt F)) (x2 : (⟨S10000x10000, .f32⟩ : BufTy).Contents (Elt F)) (x3 : (⟨S10000x10000, .f32⟩ : BufTy).Contents (Elt F)) (x4 : (⟨S2x320000, .i32⟩ : BufTy).Contents (Elt F)) (x5 : (⟨S2x320000, .i32⟩ : BufTy).Contents (Elt F)) (x6 : (⟨S128x128, .f32⟩ : BufTy).Contents (Elt F)) (x7 : (⟨S128, .f32⟩ : BufTy).Contents (Elt F)) (x8 : (⟨S128x128, .f32⟩ : BufTy).Contents (Elt F)) (x9 : (⟨S128, .f32⟩ : BufTy).Contents (Elt F)) (x10 : (⟨S128x128, .f32⟩ : BufTy).Contents (Elt F)) (x11 : (⟨S128, .f32⟩ : BufTy).Contents (Elt F)) (x12 : (⟨S128x128, .f32⟩ : BufTy).Contents (Elt F)) (x13 : (⟨S128, .f32⟩ : BufTy).Contents (Elt F)) : Prop where
  h_v5 : W (Proc.devRef .tc main_v5) = val_main_v5 (F := F) x5
  h_v7 : W (Proc.devRef .tc main_v7) = val_main_v7 (F := F) x5
  h_v35 : W (Proc.devRef .tc main_v35) = val_main_v35 (F := F) x3 x5
  h_v122 : W (Proc.devRef .tc main_v122) = val_main_v122 (F := F) x0 x2 x4 x6 x7 x8 x9
  h_v124 : W (Proc.devRef .tc main_v124) = val_main_v124 (F := F) x4
  h_v125 : W (Proc.devRef .tc main_v125) = val_main_v125 (F := F) x4
  h_v147 : W (Proc.devRef .tc main_v147) = val_main_v147 (F := F) x2 x4
  h_arg1 : W (Proc.devRef .tc main_arg1) = x1
  h_arg9 : W (Proc.devRef .tc main_arg9) = x9
  h_arg10 : W (Proc.devRef .tc main_arg10) = x10
  h_arg11 : W (Proc.devRef .tc main_arg11) = x11
  h_arg12 : W (Proc.devRef .tc main_arg12) = x12
  h_arg13 : W (Proc.devRef .tc main_arg13) = x13

/-- The boundary after 8 of the seventeen lists (the last one run: `main_part3_ops0`): 4 computed buffers and 5 arguments are still to be read. -/
structure Inv8 (W : Valuation τ sig (Elt F)) (x0 : (⟨S10000x128, .f32⟩ : BufTy).Contents (Elt F)) (x1 : (⟨S10000x128, .f32⟩ : BufTy).Contents (Elt F)) (x2 : (⟨S10000x10000, .f32⟩ : BufTy).Contents (Elt F)) (x3 : (⟨S10000x10000, .f32⟩ : BufTy).Contents (Elt F)) (x4 : (⟨S2x320000, .i32⟩ : BufTy).Contents (Elt F)) (x5 : (⟨S2x320000, .i32⟩ : BufTy).Contents (Elt F)) (x6 : (⟨S128x128, .f32⟩ : BufTy).Contents (Elt F)) (x7 : (⟨S128, .f32⟩ : BufTy).Contents (Elt F)) (x8 : (⟨S128x128, .f32⟩ : BufTy).Contents (Elt F)) (x9 : (⟨S128, .f32⟩ : BufTy).Contents (Elt F)) (x10 : (⟨S128x128, .f32⟩ : BufTy).Contents (Elt F)) (x11 : (⟨S128, .f32⟩ : BufTy).Contents (Elt F)) (x12 : (⟨S128x128, .f32⟩ : BufTy).Contents (Elt F)) (x13 : (⟨S128, .f32⟩ : BufTy).Contents (Elt F)) : Prop where
  h_v5 : W (Proc.devRef .tc main_v5) = val_main_v5 (F := F) x5
  h_v7 : W (Proc.devRef .tc main_v7) = val_main_v7 (F := F) x5
  h_v35 : W (Proc.devRef .tc main_v35) = val_main_v35 (F := F) x3 x5
  h_v163 : W (Proc.devRef .tc main_v163) = val_main_v163 (F := F) x0 x2 x4 x6 x7 x8 x9
  h_arg1 : W (Proc.devRef .tc main_arg1) = x1
  h_arg10 : W (Proc.devRef .tc main_arg10) = x10
  h_arg11 : W (Proc.devRef .tc main_arg11) = x11
  h_arg12 : W (Proc.devRef .tc main_arg12) = x12
  h_arg13 : W (Proc.devRef .tc main_arg13) = x13

/-- The boundary after 9 of the seventeen lists (the last one run: `main_part3_ops1`): 4 computed buffers and 5 arguments are still to be read. -/
structure Inv9 (W : Valuation τ sig (Elt F)) (x0 : (⟨S10000x128, .f32⟩ : BufTy).Contents (Elt F)) (x1 : (⟨S10000x128, .f32⟩ : BufTy).Contents (Elt F)) (x2 : (⟨S10000x10000, .f32⟩ : BufTy).Contents (Elt F)) (x3 : (⟨S10000x10000, .f32⟩ : BufTy).Contents (Elt F)) (x4 : (⟨S2x320000, .i32⟩ : BufTy).Contents (Elt F)) (x5 : (⟨S2x320000, .i32⟩ : BufTy).Contents (Elt F)) (x6 : (⟨S128x128, .f32⟩ : BufTy).Contents (Elt F)) (x7 : (⟨S128, .f32⟩ : BufTy).Contents (Elt F)) (x8 : (⟨S128x128, .f32⟩ : BufTy).Contents (Elt F)) (x9 : (⟨S128, .f32⟩ : BufTy).Contents (Elt F)) (x10 : (⟨S128x128, .f32⟩ : BufTy).Contents (Elt F)) (x11 : (⟨S128, .f32⟩ : BufTy).Contents (Elt F)) (x12 : (⟨S128x128, .f32⟩ : BufTy).Contents (Elt F)) (x13 : (⟨S128, .f32⟩ : BufTy).Contents (Elt F)) : Prop where
  h_v5 : W (Proc.devRef .tc main_v5) = val_main_v5 (F := F) x5
  h_v7 : W (Proc.devRef .tc main_v7) = val_main_v7 (F := F) x5
  h_v35 : W (Proc.devRef .tc main_v35) = val_main_v35 (F := F) x3 x5
  h_v164 : W (Proc.devRef .tc main_v164) = val_main_v164 (F := F) x0 x2 x4 x6 x7 x8 x9
  h_arg1 : W (Proc.devRef .tc main_arg1) = x1
  h_arg10 : W (Proc.devRef .tc main_arg10) = x10
  h_arg11 : W (Proc.devRef .tc main_arg11) = x11
  h_arg12 : W (Proc.devRef .tc main_arg12) = x12
  h_arg13 : W (Proc.devRef .tc main_arg13) = x13

/-- The boundary after 10 of the seventeen lists (the last one run: `main_part3_ops2`): 8 computed buffers and 3 arguments are still to be read. -/
structure Inv10 (W : Valuation τ sig (Elt F)) (x0 : (⟨S10000x128, .f32⟩ : BufTy).Contents (Elt F)) (x1 : (⟨S10000x128, .f32⟩ : BufTy).Contents (Elt F)) (x2 : (⟨S10000x10000, .f32⟩ : BufTy).Contents (Elt F)) (x3 : (⟨S10000x10000, .f32⟩ : BufTy).Contents (Elt F)) (x4 : (⟨S2x320000, .i32⟩ : BufTy).Contents (Elt F)) (x5 : (⟨S2x320000, .i32⟩ : BufTy).Contents (Elt F)) (x6 : (⟨S128x128, .f32⟩ : BufTy).Contents (Elt F)) (x7 : (⟨S128, .f32⟩ : BufTy).Contents (Elt F)) (x8 : (⟨S128x128, .f32⟩ : BufTy).Contents (Elt F)) (x9 : (⟨S128, .f32⟩ : BufTy).Contents (Elt F)) (x10 : (⟨S128x128, .f32⟩ : BufTy).Contents (Elt F)) (x11 : (⟨S128, .f32⟩ : BufTy).Contents (Elt F)) (x12 : (⟨S128x128, .f32⟩ : BufTy).Contents (Elt F)) (x13 : (⟨S128, .f32⟩ : BufTy).Contents (Elt F)) : Prop where
  h_v5 : W (Proc.devRef .tc main_v5) = val_main_v5 (F := F) x5
  h_v7 : W (Proc.devRef .tc main_v7) = val_main_v7 (F := F) x5
  h_v35 : W (Proc.devRef .tc main_v35) = val_main_v35 (F := F) x3 x5
  h_v164 : W (Proc.devRef .tc main_v164) = val_main_v164 (F := F) x0 x2 x4 x6 x7 x8 x9
  h_v165 : W (Proc.devRef .tc main_v165) = val_main_v165 (F := F) x1 x10
  h_v168 : W (Proc.devRef .tc main_v168) = val_main_v168 (F := F) x5
  h_v190 : W (Proc.devRef .tc main_v190) = val_main_v190 (F := F) x3 x5
  h_v196 : W (Proc.devRef .tc main_v196) = val_main_v196 (F := F) x5
  h_arg11 : W (Proc.devRef .tc main_arg11) = x11
  h_arg12 : W (Proc.devRef .tc main_arg12) = x12
  h_arg13 : W (Proc.devRef .tc main_arg13) = x13

/-- The boundary after 11 of the seventeen lists (the last one run: `main_part4_ops0`): 5 computed buffers and 2 arguments are still to be read. -/
structure Inv11 (W : Valuation τ sig (Elt F)) (x0 : (⟨S10000x128, .f32⟩ : BufTy).Contents (Elt F)) (x1 : (⟨S10000x128, .f32⟩ : BufTy).Contents (Elt F)) (x2 : (⟨S10000x10000, .f32⟩ : BufTy).Contents (Elt F)) (x3 : (⟨S10000x10000, .f32⟩ : BufTy).Contents (Elt F)) (x4 : (⟨S2x320000, .i32⟩ : BufTy).Contents (Elt F)) (x5 : (⟨S2x320000, .i32⟩ : BufTy).Contents (Elt F)) (x6 : (⟨S128x128, .f32⟩ : BufTy).Contents (Elt F)) (x7 : (⟨S128, .f32⟩ : BufTy).Contents (Elt F)) (x8 : (⟨S128x128, .f32⟩ : BufTy).Contents (Elt F)) (x9 : (⟨S128, .f32⟩ : BufTy).Contents (Elt F)) (x10 : (⟨S128x128, .f32⟩ : BufTy).Contents (Elt F)) (x11 : (⟨S128, .f32⟩ : BufTy).Contents (Elt F)) (x12 : (⟨S128x128, .f32⟩ : BufTy).Contents (Elt F)) (x13 : (⟨S128, .f32⟩ : BufTy).Contents (Elt F)) : Prop where
  h_v5 : W (Proc.devRef .tc main_v5) = val_main_v5 (F := F) x5
  h_v7 : W (Proc.devRef .tc main_v7) = val_main_v7 (F := F) x5
  h_v35 : W (Proc.devRef .tc main_v35) = val_main_v35 (F := F) x3 x5
  h_v164 : W (Proc.devRef .tc main_v164) = val_main_v164 (F := F) x0 x2 x4 x6 x7 x8 x9
  h_v206 : W (Proc.devRef .tc main_v206) = val_main_v206 (F := F) x1 x3 x5 x10 x11
  h_arg12 : W (Proc.devRef .tc main_arg12) = x12
  h_arg13 : W (Proc.devRef .tc main_arg13) = x13

/-- The boundary after 12 of the seventeen lists (the last one run: `main_part4_ops1`): 5 computed buffers and 2 arguments are still to be read. -/
structure Inv12 (W : Valuation τ sig (Elt F)) (x0 : (⟨S10000x128, .f32⟩ : BufTy).Contents (Elt F)) (x1 : (⟨S10000x128, .f32⟩ : BufTy).Contents (Elt F)) (x2 : (⟨S10000x10000, .f32⟩ : BufTy).Contents (Elt F)) (x3 : (⟨S10000x10000, .f32⟩ : BufTy).Contents (Elt F)) (x4 : (⟨S2x320000, .i32⟩ : BufTy).Contents (Elt F)) (x5 : (⟨S2x320000, .i32⟩ : BufTy).Contents (Elt F)) (x6 : (⟨S128x128, .f32⟩ : BufTy).Contents (Elt F)) (x7 : (⟨S128, .f32⟩ : BufTy).Contents (Elt F)) (x8 : (⟨S128x128, .f32⟩ : BufTy).Contents (Elt F)) (x9 : (⟨S128, .f32⟩ : BufTy).Contents (Elt F)) (x10 : (⟨S128x128, .f32⟩ : BufTy).Contents (Elt F)) (x11 : (⟨S128, .f32⟩ : BufTy).Contents (Elt F)) (x12 : (⟨S128x128, .f32⟩ : BufTy).Contents (Elt F)) (x13 : (⟨S128, .f32⟩ : BufTy).Contents (Elt F)) : Prop where
  h_v5 : W (Proc.devRef .tc main_v5) = val_main_v5 (F := F) x5
  h_v7 : W (Proc.devRef .tc main_v7) = val_main_v7 (F := F) x5
  h_v35 : W (Proc.devRef .tc main_v35) = val_main_v35 (F := F) x3 x5
  h_v164 : W (Proc.devRef .tc main_v164) = val_main_v164 (F := F) x0 x2 x4 x6 x7 x8 x9
  h_v207 : W (Proc.devRef .tc main_v207) = val_main_v207 (F := F) x1 x3 x5 x10 x11
  h_arg12 : W (Proc.devRef .tc main_arg12) = x12
  h_arg13 : W (Proc.devRef .tc main_arg13) = x13

/-- The boundary after 13 of the seventeen lists (the last one run: `main_part4_ops2`): 5 computed buffers and 2 arguments are still to be read. -/
structure Inv13 (W : Valuation τ sig (Elt F)) (x0 : (⟨S10000x128, .f32⟩ : BufTy).Contents (Elt F)) (x1 : (⟨S10000x128, .f32⟩ : BufTy).Contents (Elt F)) (x2 : (⟨S10000x10000, .f32⟩ : BufTy).Contents (Elt F)) (x3 : (⟨S10000x10000, .f32⟩ : BufTy).Contents (Elt F)) (x4 : (⟨S2x320000, .i32⟩ : BufTy).Contents (Elt F)) (x5 : (⟨S2x320000, .i32⟩ : BufTy).Contents (Elt F)) (x6 : (⟨S128x128, .f32⟩ : BufTy).Contents (Elt F)) (x7 : (⟨S128, .f32⟩ : BufTy).Contents (Elt F)) (x8 : (⟨S128x128, .f32⟩ : BufTy).Contents (Elt F)) (x9 : (⟨S128, .f32⟩ : BufTy).Contents (Elt F)) (x10 : (⟨S128x128, .f32⟩ : BufTy).Contents (Elt F)) (x11 : (⟨S128, .f32⟩ : BufTy).Contents (Elt F)) (x12 : (⟨S128x128, .f32⟩ : BufTy).Contents (Elt F)) (x13 : (⟨S128, .f32⟩ : BufTy).Contents (Elt F)) : Prop where
  h_v5 : W (Proc.devRef .tc main_v5) = val_main_v5 (F := F) x5
  h_v7 : W (Proc.devRef .tc main_v7) = val_main_v7 (F := F) x5
  h_v35 : W (Proc.devRef .tc main_v35) = val_main_v35 (F := F) x3 x5
  h_v164 : W (Proc.devRef .tc main_v164) = val_main_v164 (F := F) x0 x2 x4 x6 x7 x8 x9
  h_v246 : W (Proc.devRef .tc main_v246) = val_main_v246 (F := F) x1 x3 x5 x10 x11 x12
  h_arg12 : W (Proc.devRef .tc main_arg12) = x12
  h_arg13 : W (Proc.devRef .tc main_arg13) = x13

/-- The boundary after 14 of the seventeen lists (the last one run: `main_part5_ops0`): 5 computed buffers and 2 arguments are still to be read. -/
structure Inv14 (W : Valuation τ sig (Elt F)) (x0 : (⟨S10000x128, .f32⟩ : BufTy).Contents (Elt F)) (x1 : (⟨S10000x128, .f32⟩ : BufTy).Contents (Elt F)) (x2 : (⟨S10000x10000, .f32⟩ : BufTy).Contents (Elt F)) (x3 : (⟨S10000x10000, .f32⟩ : BufTy).Contents (Elt F)) (x4 : (⟨S2x320000, .i32⟩ : BufTy).Contents (Elt F)) (x5 : (⟨S2x320000, .i32⟩ : BufTy).Contents (Elt F)) (x6 : (⟨S128x128, .f32⟩ : BufTy).Contents (Elt F)) (x7 : (⟨S128, .f32⟩ : BufTy).Contents (Elt F)) (x8 : (⟨S128x128, .f32⟩ : BufTy).Contents (Elt F)) (x9 : (⟨S128, .f32⟩ : BufTy).Contents (Elt F)) (x10 : (⟨S128x128, .f32⟩ : BufTy).Contents (Elt F)) (x11 : (⟨S128, .f32⟩ : BufTy).Contents (Elt F)) (x12 : (⟨S128x128, .f32⟩ : BufTy).Contents (Elt F)) (x13 : (⟨S128, .f32⟩ : BufTy).Contents (Elt F)) : Prop where
  h_v5 : W (Proc.devRef .tc main_v5) = val_main_v5 (F := F) x5
  h_v7 : W (Proc.devRef .tc main_v7) = val_main_v7 (F := F) x5
  h_v35 : W (Proc.devRef .tc main_v35) = val_main_v35 (F := F) x3 x5
  h_v164 : W (Proc.devRef .tc main_v164) = val_main_v164 (F := F) x0 x2 x4 x6 x7 x8 x9
  h_v249 : W (Proc.devRef .tc main_v249) = val_main_v249 (F := F) x1 x3 x5 x10 x11 x12 x13
  h_arg12 : W (Proc.devRef .tc main_arg12) = x12
  h_arg13 : W (Proc.devRef .tc main_arg13) = x13

/-- The boundary after 15 of the seventeen lists (the last one run: `main_part5_ops1`): 5 computed buffers and 2 arguments are still to be read. -/
structure Inv15 (W : Valuation τ sig (Elt F)) (x0 : (⟨S10000x128, .f32⟩ : BufTy).Contents (Elt F)) (x1 : (⟨S10000x128, .f32⟩ : BufTy).Contents (Elt F)) (x2 : (⟨S10000x10000, .f32⟩ : BufTy).Contents (Elt F)) (x3 : (⟨S10000x10000, .f32⟩ : BufTy).Contents (Elt F)) (x4 : (⟨S2x320000, .i32⟩ : BufTy).Contents (Elt F)) (x5 : (⟨S2x320000, .i32⟩ : BufTy).Contents (Elt F)) (x6 : (⟨S128x128, .f32⟩ : BufTy).Contents (Elt F)) (x7 : (⟨S128, .f32⟩ : BufTy).Contents (Elt F)) (x8 : (⟨S128x128, .f32⟩ : BufTy).Contents (Elt F)) (x9 : (⟨S128, .f32⟩ : BufTy).Contents (Elt F)) (x10 : (⟨S128x128, .f32⟩ : BufTy).Contents (Elt F)) (x11 : (⟨S128, .f32⟩ : BufTy).Contents (Elt F)) (x12 : (⟨S128x128, .f32⟩ : BufTy).Contents (Elt F)) (x13 : (⟨S128, .f32⟩ : BufTy).Contents (Elt F)) : Prop where
  h_v5 : W (Proc.devRef .tc main_v5) = val_main_v5 (F := F) x5
  h_v7 : W (Proc.devRef .tc main_v7) = val_main_v7 (F := F) x5
  h_v35 : W (Proc.devRef .tc main_v35) = val_main_v35 (F := F) x3 x5
  h_v164 : W (Proc.devRef .tc main_v164) = val_main_v164 (F := F) x0 x2 x4 x6 x7 x8 x9
  h_v250 : W (Proc.devRef .tc main_v250) = val_main_v250 (F := F) x1 x3 x5 x10 x11 x12 x13
  h_arg12 : W (Proc.devRef .tc main_arg12) = x12
  h_arg13 : W (Proc.devRef .tc main_arg13) = x13

/-- The boundary after 16 of the seventeen lists (the last one run: `main_part5_ops2`): 2 computed buffers and 0 arguments are still to be read. -/
structure Inv16 (W : Valuation τ sig (Elt F)) (x0 : (⟨S10000x128, .f32⟩ : BufTy).Contents (Elt F)) (x1 : (⟨S10000x128, .f32⟩ : BufTy).Contents (Elt F)) (x2 : (⟨S10000x10000, .f32⟩ : BufTy).Contents (Elt F)) (x3 : (⟨S10000x10000, .f32⟩ : BufTy).Contents (Elt F)) (x4 : (⟨S2x320000, .i32⟩ : BufTy).Contents (Elt F)) (x5 : (⟨S2x320000, .i32⟩ : BufTy).Contents (Elt F)) (x6 : (⟨S128x128, .f32⟩ : BufTy).Contents (Elt F)) (x7 : (⟨S128, .f32⟩ : BufTy).Contents (Elt F)) (x8 : (⟨S128x128, .f32⟩ : BufTy).Contents (Elt F)) (x9 : (⟨S128, .f32⟩ : BufTy).Contents (Elt F)) (x10 : (⟨S128x128, .f32⟩ : BufTy).Contents (Elt F)) (x11 : (⟨S128, .f32⟩ : BufTy).Contents (Elt F)) (x12 : (⟨S128x128, .f32⟩ : BufTy).Contents (Elt F)) (x13 : (⟨S128, .f32⟩ : BufTy).Contents (Elt F)) : Prop where
  h_v164 : W (Proc.devRef .tc main_v164) = val_main_v164 (F := F) x0 x2 x4 x6 x7 x8 x9
  h_v292 : W (Proc.devRef .tc main_v292) = val_main_v292 (F := F) x1 x3 x5 x10 x11 x12 x13

/-- The boundary after 17 of the seventeen lists (the last one run: `main_part5_ops3`): 2 computed buffers and 0 arguments are still to be read. -/
structure Inv17 (W : Valuation τ sig (Elt F)) (x0 : (⟨S10000x128, .f32⟩ : BufTy).Contents (Elt F)) (x1 : (⟨S10000x128, .f32⟩ : BufTy).Contents (Elt F)) (x2 : (⟨S10000x10000, .f32⟩ : BufTy).Contents (Elt F)) (x3 : (⟨S10000x10000, .f32⟩ : BufTy).Contents (Elt F)) (x4 : (⟨S2x320000, .i32⟩ : BufTy).Contents (Elt F)) (x5 : (⟨S2x320000, .i32⟩ : BufTy).Contents (Elt F)) (x6 : (⟨S128x128, .f32⟩ : BufTy).Contents (Elt F)) (x7 : (⟨S128, .f32⟩ : BufTy).Contents (Elt F)) (x8 : (⟨S128x128, .f32⟩ : BufTy).Contents (Elt F)) (x9 : (⟨S128, .f32⟩ : BufTy).Contents (Elt F)) (x10 : (⟨S128x128, .f32⟩ : BufTy).Contents (Elt F)) (x11 : (⟨S128, .f32⟩ : BufTy).Contents (Elt F)) (x12 : (⟨S128x128, .f32⟩ : BufTy).Contents (Elt F)) (x13 : (⟨S128, .f32⟩ : BufTy).Contents (Elt F)) : Prop where
  h_v164 : W (Proc.devRef .tc main_v164) = val_main_v164 (F := F) x0 x2 x4 x6 x7 x8 x9
  h_v293 : W (Proc.devRef .tc main_v293) = val_main_v293 (F := F) x1 x3 x5 x10 x11 x12 x13

end Cert.KernelIdeal.Hand

end
-- ==== Proof.PrefixStepsA.lean ====
/-
  Lists 1 … 1 of the seventeen: each carries the boundary before it to the boundary after it (PrefixInv). Every
  line of a step reads one buffer live after the list: `carried` when no operation of the list writes it, `computed`
  from the named facts about the buffers its operations read when the list writes it (PrefixTac).
-/
import proofs.«154350_j35708358099201_1_alg».proof.Proof.PrefixInv

set_option maxRecDepth 4096

noncomputable section

namespace Cert.KernelIdeal.Hand

open Cert.KernelIdeal Cert.KernelIdeal.Gen Idealize.ShloMosaic Idealize.ShloMosaic.TcCoe Idealize.SL.Sem Idealize.ShloMosaic.StableHlo
open Cert.ReferenceIdeal.ReadP

variable {F : FTy → Type} [FloatOps F]

set_option maxHeartbeats 8000000 in
/-- List 1 (`main_part0_ops0`, 60 operations) carries the boundary before it to the boundary after it: each
    buffer live after the list is either untouched by it, or written by it from buffers live before it. -/
theorem step1 {W : Valuation τ sig (Elt F)} {x0 : (⟨S10000x128, .f32⟩ : BufTy).Contents (Elt F)} {x1 : (⟨S10000x128, .f32⟩ : BufTy).Contents (Elt F)} {x2 : (⟨S10000x10000, .f32⟩ : BufTy).Contents (Elt F)} {x3 : (⟨S10000x10000, .f32⟩ : BufTy).Contents (Elt F)} {x4 : (⟨S2x320000, .i32⟩ : BufTy).Contents (Elt F)} {x5 : (⟨S2x320000, .i32⟩ : BufTy).Contents (Elt F)} {x6 : (⟨S128x128, .f32⟩ : BufTy).Contents (Elt F)} {x7 : (⟨S128, .f32⟩ : BufTy).Contents (Elt F)} {x8 : (⟨S128x128, .f32⟩ : BufTy).Contents (Elt F)} {x9 : (⟨S128, .f32⟩ : BufTy).Contents (Elt F)} {x10 : (⟨S128x128, .f32⟩ : BufTy).Contents (Elt F)} {x11 : (⟨S128, .f32⟩ : BufTy).Contents (Elt F)} {x12 : (⟨S128x128, .f32⟩ : BufTy).Contents (Elt F)} {x13 : (⟨S128, .f32⟩ : BufTy).Contents (Elt F)}
    (h : Inv0 W x0 x1 x2 x3 x4 x5 x6 x7 x8 x9 x10 x11 x12 x13) : Inv1 (StableHlo.after main_part0_ops0 W) x0 x1 x2 x3 x4 x5 x6 x7 x8 x9 x10 x11 x12 x13 := by
  open_list main_part0_ops0
  constructor
  · computed [h.h_arg4]
  · computed [h.h_arg4]
  · computed [h.h_arg5]
  · computed [h.h_arg5]
  · computed [h.h_arg2, h.h_arg4]
  · computed [h.h_arg3, h.h_arg5]
  · computed [h.h_arg0, h.h_arg6]
  · computed [h.h_arg4]
  · computed [h.h_arg4]
  · computed [h.h_arg2, h.h_arg4]
  · computed [h.h_arg4, h.h_arg2]
  · computed [h.h_arg4]
  · computed []
  · carried h.h_arg1
  · carried h.h_arg7
  · carried h.h_arg8
  · carried h.h_arg9
  · carried h.h_arg10
  · carried h.h_arg11
  · carried h.h_arg12
  · carried h.h_arg13

end Cert.KernelIdeal.Hand

end
-- ==== Proof.PrefixStepsB.lean ====
/-
  Lists 2 … 7 of the seventeen: each carries the boundary before it to the boundary after it (PrefixInv). Every
  line of a step reads one buffer live after the list: `carried` when no operation of the list writes it, `computed`
  from the named facts about the buffers its operations read when the list writes it (PrefixTac).
-/
import proofs.«154350_j35708358099201_1_alg».proof.Proof.PrefixInv

set_option maxRecDepth 4096

noncomputable section

namespace Cert.KernelIdeal.Hand

open Cert.KernelIdeal Cert.KernelIdeal.Gen Idealize.ShloMosaic Idealize.ShloMosaic.TcCoe Idealize.SL.Sem Idealize.ShloMosaic.StableHlo
open Cert.ReferenceIdeal.ReadP

variable {F : FTy → Type} [FloatOps F]

set_option maxHeartbeats 8000000 in
/-- List 2 (`main_part1_ops0`, 35 operations) carries the boundary before it to the boundary after it: each
    buffer live after the list is either untouched by it, or written by it from buffers live before it. -/
theorem step2 {W : Valuation τ sig (Elt F)} {x0 : (⟨S10000x128, .f32⟩ : BufTy).Contents (Elt F)} {x1 : (⟨S10000x128, .f32⟩ : BufTy).Contents (Elt F)} {x2 : (⟨S10000x10000, .f32⟩ : BufTy).Contents (Elt F)} {x3 : (⟨S10000x10000, .f32⟩ : BufTy).Contents (Elt F)} {x4 : (⟨S2x320000, .i32⟩ : BufTy).Contents (Elt F)} {x5 : (⟨S2x320000, .i32⟩ : BufTy).Contents (Elt F)} {x6 : (⟨S128x128, .f32⟩ : BufTy).Contents (Elt F)} {x7 : (⟨S128, .f32⟩ : BufTy).Contents (Elt F)} {x8 : (⟨S128x128, .f32⟩ : BufTy).Contents (Elt F)} {x9 : (⟨S128, .f32⟩ : BufTy).Contents (Elt F)} {x10 : (⟨S128x128, .f32⟩ : BufTy).Contents (Elt F)} {x11 : (⟨S128, .f32⟩ : BufTy).Contents (Elt F)} {x12 : (⟨S128x128, .f32⟩ : BufTy).Contents (Elt F)} {x13 : (⟨S128, .f32⟩ : BufTy).Contents (Elt F)}
    (h : Inv1 W x0 x1 x2 x3 x4 x5 x6 x7 x8 x9 x10 x11 x12 x13) : Inv2 (StableHlo.after main_part1_ops0 W) x0 x1 x2 x3 x4 x5 x6 x7 x8 x9 x10 x11 x12 x13 := by
  open_list main_part1_ops0
  constructor
  · carried h.h_v1
  · carried h.h_v3
  · carried h.h_v5
  · carried h.h_v7
  · carried h.h_v21
  · carried h.h_v35
  · computed [h.h_v39, h.h_v36, h.h_v38, h.h_v45, h.h_v47, h.h_c_9, h.h_v41, h.h_arg7]
  · carried h.h_arg1
  · carried h.h_arg8
  · carried h.h_arg9
  · carried h.h_arg10
  · carried h.h_arg11
  · carried h.h_arg12
  · carried h.h_arg13

set_option maxHeartbeats 8000000 in
/-- List 3 (`main_part1_ops1`, 3 operations) carries the boundary before it to the boundary after it: each
    buffer live after the list is either untouched by it, or written by it from buffers live before it. -/
theorem step3 {W : Valuation τ sig (Elt F)} {x0 : (⟨S10000x128, .f32⟩ : BufTy).Contents (Elt F)} {x1 : (⟨S10000x128, .f32⟩ : BufTy).Contents (Elt F)} {x2 : (⟨S10000x10000, .f32⟩ : BufTy).Contents (Elt F)} {x3 : (⟨S10000x10000, .f32⟩ : BufTy).Contents (Elt F)} {x4 : (⟨S2x320000, .i32⟩ : BufTy).Contents (Elt F)} {x5 : (⟨S2x320000, .i32⟩ : BufTy).Contents (Elt F)} {x6 : (⟨S128x128, .f32⟩ : BufTy).Contents (Elt F)} {x7 : (⟨S128, .f32⟩ : BufTy).Contents (Elt F)} {x8 : (⟨S128x128, .f32⟩ : BufTy).Contents (Elt F)} {x9 : (⟨S128, .f32⟩ : BufTy).Contents (Elt F)} {x10 : (⟨S128x128, .f32⟩ : BufTy).Contents (Elt F)} {x11 : (⟨S128, .f32⟩ : BufTy).Contents (Elt F)} {x12 : (⟨S128x128, .f32⟩ : BufTy).Contents (Elt F)} {x13 : (⟨S128, .f32⟩ : BufTy).Contents (Elt F)}
    (h : Inv2 W x0 x1 x2 x3 x4 x5 x6 x7 x8 x9 x10 x11 x12 x13) : Inv3 (StableHlo.after main_part1_ops1 W) x0 x1 x2 x3 x4 x5 x6 x7 x8 x9 x10 x11 x12 x13 := by
  open_list main_part1_ops1
  constructor
  · carried h.h_v1
  · carried h.h_v3
  · carried h.h_v5
  · carried h.h_v7
  · carried h.h_v21
  · carried h.h_v35
  · computed [h.h_v77]
  · carried h.h_arg1
  · carried h.h_arg8
  · carried h.h_arg9
  · carried h.h_arg10
  · carried h.h_arg11
  · carried h.h_arg12
  · carried h.h_arg13

set_option maxHeartbeats 8000000 in
/-- List 4 (`main_part1_ops2`, 24 operations) carries the boundary before it to the boundary after it: each
    buffer live after the list is either untouched by it, or written by it from buffers live before it. -/
theorem step4 {W : Valuation τ sig (Elt F)} {x0 : (⟨S10000x128, .f32⟩ : BufTy).Contents (Elt F)} {x1 : (⟨S10000x128, .f32⟩ : BufTy).Contents (Elt F)} {x2 : (⟨S10000x10000, .f32⟩ : BufTy).Contents (Elt F)} {x3 : (⟨S10000x10000, .f32⟩ : BufTy).Contents (Elt F)} {x4 : (⟨S2x320000, .i32⟩ : BufTy).Contents (Elt F)} {x5 : (⟨S2x320000, .i32⟩ : BufTy).Contents (Elt F)} {x6 : (⟨S128x128, .f32⟩ : BufTy).Contents (Elt F)} {x7 : (⟨S128, .f32⟩ : BufTy).Contents (Elt F)} {x8 : (⟨S128x128, .f32⟩ : BufTy).Contents (Elt F)} {x9 : (⟨S128, .f32⟩ : BufTy).Contents (Elt F)} {x10 : (⟨S128x128, .f32⟩ : BufTy).Contents (Elt F)} {x11 : (⟨S128, .f32⟩ : BufTy).Contents (Elt F)} {x12 : (⟨S128x128, .f32⟩ : BufTy).Contents (Elt F)} {x13 : (⟨S128, .f32⟩ : BufTy).Contents (Elt F)}
    (h : Inv3 W x0 x1 x2 x3 x4 x5 x6 x7 x8 x9 x10 x11 x12 x13) : Inv4 (StableHlo.after main_part1_ops2 W) x0 x1 x2 x3 x4 x5 x6 x7 x8 x9 x10 x11 x12 x13 := by
  open_list main_part1_ops2
  constructor
  · carried h.h_v1
  · carried h.h_v3
  · carried h.h_v5
  · carried h.h_v7
  · carried h.h_v21
  · carried h.h_v35
  · computed [h.h_v78, h.h_arg8]
  · computed [h.h_v1]
  · computed [h.h_v3]
  · computed [h.h_v3, h.h_v21]
  · computed [h.h_v3, h.h_v21, h.h_v1]
  · computed []
  · carried h.h_arg1
  · carried h.h_arg8
  · carried h.h_arg9
  · carried h.h_arg10
  · carried h.h_arg11
  · carried h.h_arg12
  · carried h.h_arg13

set_option maxHeartbeats 8000000 in
/-- List 5 (`main_part2_ops0`, 27 operations) carries the boundary before it to the boundary after it: each
    buffer live after the list is either untouched by it, or written by it from buffers live before it. -/
theorem step5 {W : Valuation τ sig (Elt F)} {x0 : (⟨S10000x128, .f32⟩ : BufTy).Contents (Elt F)} {x1 : (⟨S10000x128, .f32⟩ : BufTy).Contents (Elt F)} {x2 : (⟨S10000x10000, .f32⟩ : BufTy).Contents (Elt F)} {x3 : (⟨S10000x10000, .f32⟩ : BufTy).Contents (Elt F)} {x4 : (⟨S2x320000, .i32⟩ : BufTy).Contents (Elt F)} {x5 : (⟨S2x320000, .i32⟩ : BufTy).Contents (Elt F)} {x6 : (⟨S128x128, .f32⟩ : BufTy).Contents (Elt F)} {x7 : (⟨S128, .f32⟩ : BufTy).Contents (Elt F)} {x8 : (⟨S128x128, .f32⟩ : BufTy).Contents (Elt F)} {x9 : (⟨S128, .f32⟩ : BufTy).Contents (Elt F)} {x10 : (⟨S128x128, .f32⟩ : BufTy).Contents (Elt F)} {x11 : (⟨S128, .f32⟩ : BufTy).Contents (Elt F)} {x12 : (⟨S128x128, .f32⟩ : BufTy).Contents (Elt F)} {x13 : (⟨S128, .f32⟩ : BufTy).Contents (Elt F)}
    (h : Inv4 W x0 x1 x2 x3 x4 x5 x6 x7 x8 x9 x10 x11 x12 x13) : Inv5 (StableHlo.after main_part2_ops0 W) x0 x1 x2 x3 x4 x5 x6 x7 x8 x9 x10 x11 x12 x13 := by
  open_list main_part2_ops0
  constructor
  · carried h.h_v1
  · carried h.h_v3
  · carried h.h_v5
  · carried h.h_v7
  · carried h.h_v21
  · carried h.h_v35
  · computed [h.h_v82, h.h_v79, h.h_v81, h.h_v96, h.h_v88, h.h_v97, h.h_arg9]
  · carried h.h_arg1
  · carried h.h_arg8
  · carried h.h_arg9
  · carried h.h_arg10
  · carried h.h_arg11
  · carried h.h_arg12
  · carried h.h_arg13

set_option maxHeartbeats 8000000 in
/-- List 6 (`main_part2_ops1`, 3 operations) carries the boundary before it to the boundary after it: each
    buffer live after the list is either untouched by it, or written by it from buffers live before it. -/
theorem step6 {W : Valuation τ sig (Elt F)} {x0 : (⟨S10000x128, .f32⟩ : BufTy).Contents (Elt F)} {x1 : (⟨S10000x128, .f32⟩ : BufTy).Contents (Elt F)} {x2 : (⟨S10000x10000, .f32⟩ : BufTy).Contents (Elt F)} {x3 : (⟨S10000x10000, .f32⟩ : BufTy).Contents (Elt F)} {x4 : (⟨S2x320000, .i32⟩ : BufTy).Contents (Elt F)} {x5 : (⟨S2x320000, .i32⟩ : BufTy).Contents (Elt F)} {x6 : (⟨S128x128, .f32⟩ : BufTy).Contents (Elt F)} {x7 : (⟨S128, .f32⟩ : BufTy).Contents (Elt F)} {x8 : (⟨S128x128, .f32⟩ : BufTy).Contents (Elt F)} {x9 : (⟨S128, .f32⟩ : BufTy).Contents (Elt F)} {x10 : (⟨S128x128, .f32⟩ : BufTy).Contents (Elt F)} {x11 : (⟨S128, .f32⟩ : BufTy).Contents (Elt F)} {x12 : (⟨S128x128, .f32⟩ : BufTy).Contents (Elt F)} {x13 : (⟨S128, .f32⟩ : BufTy).Contents (Elt F)}
    (h : Inv5 W x0 x1 x2 x3 x4 x5 x6 x7 x8 x9 x10 x11 x12 x13) : Inv6 (StableHlo.after main_part2_ops1 W) x0 x1 x2 x3 x4 x5 x6 x7 x8 x9 x10 x11 x12 x13 := by
  open_list main_part2_ops1
  constructor
  · carried h.h_v1
  · carried h.h_v3
  · carried h.h_v5
  · carried h.h_v7
  · carried h.h_v21
  · carried h.h_v35
  · computed [h.h_v120]
  · carried h.h_arg1
  · carried h.h_arg8
  · carried h.h_arg9
  · carried h.h_arg10
  · carried h.h_arg11
  · carried h.h_arg12
  · carried h.h_arg13

set_option maxHeartbeats 8000000 in
/-- List 7 (`main_part2_ops2`, 32 operations) carries the boundary before it to the boundary after it: each
    buffer live after the list is either untouched by it, or written by it from buffers live before it. -/
theorem step7 {W : Valuation τ sig (Elt F)} {x0 : (⟨S10000x128, .f32⟩ : BufTy).Contents (Elt F)} {x1 : (⟨S10000x128, .f32⟩ : BufTy).Contents (Elt F)} {x2 : (⟨S10000x10000, .f32⟩ : BufTy).Contents (Elt F)} {x3 : (⟨S10000x10000, .f32⟩ : BufTy).Contents (Elt F)} {x4 : (⟨S2x320000, .i32⟩ : BufTy).Contents (Elt F)} {x5 : (⟨S2x320000, .i32⟩ : BufTy).Contents (Elt F)} {x6 : (⟨S128x128, .f32⟩ : BufTy).Contents (Elt F)} {x7 : (⟨S128, .f32⟩ : BufTy).Contents (Elt F)} {x8 : (⟨S128x128, .f32⟩ : BufTy).Contents (Elt F)} {x9 : (⟨S128, .f32⟩ : BufTy).Contents (Elt F)} {x10 : (⟨S128x128, .f32⟩ : BufTy).Contents (Elt F)} {x11 : (⟨S128, .f32⟩ : BufTy).Contents (Elt F)} {x12 : (⟨S128x128, .f32⟩ : BufTy).Contents (Elt F)} {x13 : (⟨S128, .f32⟩ : BufTy).Contents (Elt F)}
    (h : Inv6 W x0 x1 x2 x3 x4 x5 x6 x7 x8 x9 x10 x11 x12 x13) : Inv7 (StableHlo.after main_part2_ops2 W) x0 x1 x2 x3 x4 x5 x6 x7 x8 x9 x10 x11 x12 x13 := by
  open_list main_part2_ops2
  constructor
  · carried h.h_v5
  · carried h.h_v7
  · carried h.h_v35
  · computed [h.h_v121, h.h_arg8]
  · computed [h.h_v1]
  · computed [h.h_v3]
  · computed [h.h_v3, h.h_v21, h.h_v1]
  · carried h.h_arg1
  · carried h.h_arg9
  · carried h.h_arg10
  · carried h.h_arg11
  · carried h.h_arg12
  · carried h.h_arg13

end Cert.KernelIdeal.Hand

end
-- ==== Proof.PrefixStepsC.lean ====
/-
  Lists 8 … 13 of the seventeen: each carries the boundary before it to the boundary after it (PrefixInv). Every
  line of a step reads one buffer live after the list: `carried` when no operation of the list writes it, `computed`
  from the named facts about the buffers its operations read when the list writes it (PrefixTac).
-/
import proofs.«154350_j35708358099201_1_alg».proof.Proof.PrefixInv

set_option maxRecDepth 4096

noncomputable section

namespace Cert.KernelIdeal.Hand

open Cert.KernelIdeal Cert.KernelIdeal.Gen Idealize.ShloMosaic Idealize.ShloMosaic.TcCoe Idealize.SL.Sem Idealize.ShloMosaic.StableHlo
open Cert.ReferenceIdeal.ReadP

variable {F : FTy → Type} [FloatOps F]

set_option maxHeartbeats 8000000 in
/-- List 8 (`main_part3_ops0`, 19 operations) carries the boundary before it to the boundary after it: each
    buffer live after the list is either untouched by it, or written by it from buffers live before it. -/
theorem step8 {W : Valuation τ sig (Elt F)} {x0 : (⟨S10000x128, .f32⟩ : BufTy).Contents (Elt F)} {x1 : (⟨S10000x128, .f32⟩ : BufTy).Contents (Elt F)} {x2 : (⟨S10000x10000, .f32⟩ : BufTy).Contents (Elt F)} {x3 : (⟨S10000x10000, .f32⟩ : BufTy).Contents (Elt F)} {x4 : (⟨S2x320000, .i32⟩ : BufTy).Contents (Elt F)} {x5 : (⟨S2x320000, .i32⟩ : BufTy).Contents (Elt F)} {x6 : (⟨S128x128, .f32⟩ : BufTy).Contents (Elt F)} {x7 : (⟨S128, .f32⟩ : BufTy).Contents (Elt F)} {x8 : (⟨S128x128, .f32⟩ : BufTy).Contents (Elt F)} {x9 : (⟨S128, .f32⟩ : BufTy).Contents (Elt F)} {x10 : (⟨S128x128, .f32⟩ : BufTy).Contents (Elt F)} {x11 : (⟨S128, .f32⟩ : BufTy).Contents (Elt F)} {x12 : (⟨S128x128, .f32⟩ : BufTy).Contents (Elt F)} {x13 : (⟨S128, .f32⟩ : BufTy).Contents (Elt F)}
    (h : Inv7 W x0 x1 x2 x3 x4 x5 x6 x7 x8 x9 x10 x11 x12 x13) : Inv8 (StableHlo.after main_part3_ops0 W) x0 x1 x2 x3 x4 x5 x6 x7 x8 x9 x10 x11 x12 x13 := by
  open_list main_part3_ops0
  constructor
  · carried h.h_v5
  · carried h.h_v7
  · carried h.h_v35
  · computed [h.h_v125, h.h_v122, h.h_v124, h.h_v147, h.h_arg9]
  · carried h.h_arg1
  · carried h.h_arg10
  · carried h.h_arg11
  · carried h.h_arg12
  · carried h.h_arg13

set_option maxHeartbeats 8000000 in
/-- List 9 (`main_part3_ops1`, 3 operations) carries the boundary before it to the boundary after it: each
    buffer live after the list is either untouched by it, or written by it from buffers live before it. -/
theorem step9 {W : Valuation τ sig (Elt F)} {x0 : (⟨S10000x128, .f32⟩ : BufTy).Contents (Elt F)} {x1 : (⟨S10000x128, .f32⟩ : BufTy).Contents (Elt F)} {x2 : (⟨S10000x10000, .f32⟩ : BufTy).Contents (Elt F)} {x3 : (⟨S10000x10000, .f32⟩ : BufTy).Contents (Elt F)} {x4 : (⟨S2x320000, .i32⟩ : BufTy).Contents (Elt F)} {x5 : (⟨S2x320000, .i32⟩ : BufTy).Contents (Elt F)} {x6 : (⟨S128x128, .f32⟩ : BufTy).Contents (Elt F)} {x7 : (⟨S128, .f32⟩ : BufTy).Contents (Elt F)} {x8 : (⟨S128x128, .f32⟩ : BufTy).Contents (Elt F)} {x9 : (⟨S128, .f32⟩ : BufTy).Contents (Elt F)} {x10 : (⟨S128x128, .f32⟩ : BufTy).Contents (Elt F)} {x11 : (⟨S128, .f32⟩ : BufTy).Contents (Elt F)} {x12 : (⟨S128x128, .f32⟩ : BufTy).Contents (Elt F)} {x13 : (⟨S128, .f32⟩ : BufTy).Contents (Elt F)}
    (h : Inv8 W x0 x1 x2 x3 x4 x5 x6 x7 x8 x9 x10 x11 x12 x13) : Inv9 (StableHlo.after main_part3_ops1 W) x0 x1 x2 x3 x4 x5 x6 x7 x8 x9 x10 x11 x12 x13 := by
  open_list main_part3_ops1
  constructor
  · carried h.h_v5
  · carried h.h_v7
  · carried h.h_v35
  · computed [h.h_v163]
  · carried h.h_arg1
  · carried h.h_arg10
  · carried h.h_arg11
  · carried h.h_arg12
  · carried h.h_arg13

set_option maxHeartbeats 8000000 in
/-- List 10 (`main_part3_ops2`, 40 operations) carries the boundary before it to the boundary after it: each
    buffer live after the list is either untouched by it, or written by it from buffers live before it. -/
theorem step10 {W : Valuation τ sig (Elt F)} {x0 : (⟨S10000x128, .f32⟩ : BufTy).Contents (Elt F)} {x1 : (⟨S10000x128, .f32⟩ : BufTy).Contents (Elt F)} {x2 : (⟨S10000x10000, .f32⟩ : BufTy).Contents (Elt F)} {x3 : (⟨S10000x10000, .f32⟩ : BufTy).Contents (Elt F)} {x4 : (⟨S2x320000, .i32⟩ : BufTy).Contents (Elt F)} {x5 : (⟨S2x320000, .i32⟩ : BufTy).Contents (Elt F)} {x6 : (⟨S128x128, .f32⟩ : BufTy).Contents (Elt F)} {x7 : (⟨S128, .f32⟩ : BufTy).Contents (Elt F)} {x8 : (⟨S128x128, .f32⟩ : BufTy).Contents (Elt F)} {x9 : (⟨S128, .f32⟩ : BufTy).Contents (Elt F)} {x10 : (⟨S128x128, .f32⟩ : BufTy).Contents (Elt F)} {x11 : (⟨S128, .f32⟩ : BufTy).Contents (Elt F)} {x12 : (⟨S128x128, .f32⟩ : BufTy).Contents (Elt F)} {x13 : (⟨S128, .f32⟩ : BufTy).Contents (Elt F)}
    (h : Inv9 W x0 x1 x2 x3 x4 x5 x6 x7 x8 x9 x10 x11 x12 x13) : Inv10 (StableHlo.after main_part3_ops2 W) x0 x1 x2 x3 x4 x5 x6 x7 x8 x9 x10 x11 x12 x13 := by
  open_list main_part3_ops2
  constructor
  · carried h.h_v5
  · carried h.h_v7
  · carried h.h_v35
  · carried h.h_v164
  · computed [h.h_arg1, h.h_arg10]
  · computed [h.h_v7]
  · computed [h.h_v7, h.h_v35, h.h_v5]
  · computed [h.h_v5]
  · carried h.h_arg11
  · carried h.h_arg12
  · carried h.h_arg13

set_option maxHeartbeats 8000000 in
/-- List 11 (`main_part4_ops0`, 11 operations) carries the boundary before it to the boundary after it: each
    buffer live after the list is either untouched by it, or written by it from buffers live before it. -/
theorem step11 {W : Valuation τ sig (Elt F)} {x0 : (⟨S10000x128, .f32⟩ : BufTy).Contents (Elt F)} {x1 : (⟨S10000x128, .f32⟩ : BufTy).Contents (Elt F)} {x2 : (⟨S10000x10000, .f32⟩ : BufTy).Contents (Elt F)} {x3 : (⟨S10000x10000, .f32⟩ : BufTy).Contents (Elt F)} {x4 : (⟨S2x320000, .i32⟩ : BufTy).Contents (Elt F)} {x5 : (⟨S2x320000, .i32⟩ : BufTy).Contents (Elt F)} {x6 : (⟨S128x128, .f32⟩ : BufTy).Contents (Elt F)} {x7 : (⟨S128, .f32⟩ : BufTy).Contents (Elt F)} {x8 : (⟨S128x128, .f32⟩ : BufTy).Contents (Elt F)} {x9 : (⟨S128, .f32⟩ : BufTy).Contents (Elt F)} {x10 : (⟨S128x128, .f32⟩ : BufTy).Contents (Elt F)} {x11 : (⟨S128, .f32⟩ : BufTy).Contents (Elt F)} {x12 : (⟨S128x128, .f32⟩ : BufTy).Contents (Elt F)} {x13 : (⟨S128, .f32⟩ : BufTy).Contents (Elt F)}
    (h : Inv10 W x0 x1 x2 x3 x4 x5 x6 x7 x8 x9 x10 x11 x12 x13) : Inv11 (StableHlo.after main_part4_ops0 W) x0 x1 x2 x3 x4 x5 x6 x7 x8 x9 x10 x11 x12 x13 := by
  open_list main_part4_ops0
  constructor
  · carried h.h_v5
  · carried h.h_v7
  · carried h.h_v35
  · carried h.h_v164
  · computed [h.h_v168, h.h_v165, h.h_v196, h.h_v190, h.h_arg11]
  · carried h.h_arg12
  · carried h.h_arg13

set_option maxHeartbeats 8000000 in
/-- List 12 (`main_part4_ops1`, 3 operations) carries the boundary before it to the boundary after it: each
    buffer live after the list is either untouched by it, or written by it from buffers live before it. -/
theorem step12 {W : Valuation τ sig (Elt F)} {x0 : (⟨S10000x128, .f32⟩ : BufTy).Contents (Elt F)} {x1 : (⟨S10000x128, .f32⟩ : BufTy).Contents (Elt F)} {x2 : (⟨S10000x10000, .f32⟩ : BufTy).Contents (Elt F)} {x3 : (⟨S10000x10000, .f32⟩ : BufTy).Contents (Elt F)} {x4 : (⟨S2x320000, .i32⟩ : BufTy).Contents (Elt F)} {x5 : (⟨S2x320000, .i32⟩ : BufTy).Contents (Elt F)} {x6 : (⟨S128x128, .f32⟩ : BufTy).Contents (Elt F)} {x7 : (⟨S128, .f32⟩ : BufTy).Contents (Elt F)} {x8 : (⟨S128x128, .f32⟩ : BufTy).Contents (Elt F)} {x9 : (⟨S128, .f32⟩ : BufTy).Contents (Elt F)} {x10 : (⟨S128x128, .f32⟩ : BufTy).Contents (Elt F)} {x11 : (⟨S128, .f32⟩ : BufTy).Contents (Elt F)} {x12 : (⟨S128x128, .f32⟩ : BufTy).Contents (Elt F)} {x13 : (⟨S128, .f32⟩ : BufTy).Contents (Elt F)}
    (h : Inv11 W x0 x1 x2 x3 x4 x5 x6 x7 x8 x9 x10 x11 x12 x13) : Inv12 (StableHlo.after main_part4_ops1 W) x0 x1 x2 x3 x4 x5 x6 x7 x8 x9 x10 x11 x12 x13 := by
  open_list main_part4_ops1
  constructor
  · carried h.h_v5
  · carried h.h_v7
  · carried h.h_v35
  · carried h.h_v164
  · computed [h.h_v206]
  · carried h.h_arg12
  · carried h.h_arg13

set_option maxHeartbeats 8000000 in
/-- List 13 (`main_part4_ops2`, 48 operations) carries the boundary before it to the boundary after it: each
    buffer live after the list is either untouched by it, or written by it from buffers live before it. -/
theorem step13 {W : Valuation τ sig (Elt F)} {x0 : (⟨S10000x128, .f32⟩ : BufTy).Contents (Elt F)} {x1 : (⟨S10000x128, .f32⟩ : BufTy).Contents (Elt F)} {x2 : (⟨S10000x10000, .f32⟩ : BufTy).Contents (Elt F)} {x3 : (⟨S10000x10000, .f32⟩ : BufTy).Contents (Elt F)} {x4 : (⟨S2x320000, .i32⟩ : BufTy).Contents (Elt F)} {x5 : (⟨S2x320000, .i32⟩ : BufTy).Contents (Elt F)} {x6 : (⟨S128x128, .f32⟩ : BufTy).Contents (Elt F)} {x7 : (⟨S128, .f32⟩ : BufTy).Contents (Elt F)} {x8 : (⟨S128x128, .f32⟩ : BufTy).Contents (Elt F)} {x9 : (⟨S128, .f32⟩ : BufTy).Contents (Elt F)} {x10 : (⟨S128x128, .f32⟩ : BufTy).Contents (Elt F)} {x11 : (⟨S128, .f32⟩ : BufTy).Contents (Elt F)} {x12 : (⟨S128x128, .f32⟩ : BufTy).Contents (Elt F)} {x13 : (⟨S128, .f32⟩ : BufTy).Contents (Elt F)}
    (h : Inv12 W x0 x1 x2 x3 x4 x5 x6 x7 x8 x9 x10 x11 x12 x13) : Inv13 (StableHlo.after main_part4_ops2 W) x0 x1 x2 x3 x4 x5 x6 x7 x8 x9 x10 x11 x12 x13 := by
  open_list main_part4_ops2
  constructor
  · carried h.h_v5
  · carried h.h_v7
  · carried h.h_v35
  · carried h.h_v164
  · computed [h.h_v7, h.h_v207, h.h_arg12, h.h_v5, h.h_v35]
  · carried h.h_arg12
  · carried h.h_arg13

end Cert.KernelIdeal.Hand

end
-- ==== Proof.PrefixStepsD.lean ====
/-
  Lists 14 … 17 of the seventeen: each carries the boundary before it to the boundary after it (PrefixInv). Every
  line of a step reads one buffer live after the list: `carried` when no operation of the list writes it, `computed`
  from the named facts about the buffers its operations read when the list writes it (PrefixTac).
-/
import proofs.«154350_j35708358099201_1_alg».proof.Proof.PrefixInv

set_option maxRecDepth 4096

noncomputable section

namespace Cert.KernelIdeal.Hand

open Cert.KernelIdeal Cert.KernelIdeal.Gen Idealize.ShloMosaic Idealize.ShloMosaic.TcCoe Idealize.SL.Sem Idealize.ShloMosaic.StableHlo
open Cert.ReferenceIdeal.ReadP

variable {F : FTy → Type} [FloatOps F]

set_option maxHeartbeats 8000000 in
/-- List 14 (`main_part5_ops0`, 3 operations) carries the boundary before it to the boundary after it: each
    buffer live after the list is either untouched by it, or written by it from buffers live before it. -/
theorem step14 {W : Valuation τ sig (Elt F)} {x0 : (⟨S10000x128, .f32⟩ : BufTy).Contents (Elt F)} {x1 : (⟨S10000x128, .f32⟩ : BufTy).Contents (Elt F)} {x2 : (⟨S10000x10000, .f32⟩ : BufTy).Contents (Elt F)} {x3 : (⟨S10000x10000, .f32⟩ : BufTy).Contents (Elt F)} {x4 : (⟨S2x320000, .i32⟩ : BufTy).Contents (Elt F)} {x5 : (⟨S2x320000, .i32⟩ : BufTy).Contents (Elt F)} {x6 : (⟨S128x128, .f32⟩ : BufTy).Contents (Elt F)} {x7 : (⟨S128, .f32⟩ : BufTy).Contents (Elt F)} {x8 : (⟨S128x128, .f32⟩ : BufTy).Contents (Elt F)} {x9 : (⟨S128, .f32⟩ : BufTy).Contents (Elt F)} {x10 : (⟨S128x128, .f32⟩ : BufTy).Contents (Elt F)} {x11 : (⟨S128, .f32⟩ : BufTy).Contents (Elt F)} {x12 : (⟨S128x128, .f32⟩ : BufTy).Contents (Elt F)} {x13 : (⟨S128, .f32⟩ : BufTy).Contents (Elt F)}
    (h : Inv13 W x0 x1 x2 x3 x4 x5 x6 x7 x8 x9 x10 x11 x12 x13) : Inv14 (StableHlo.after main_part5_ops0 W) x0 x1 x2 x3 x4 x5 x6 x7 x8 x9 x10 x11 x12 x13 := by
  open_list main_part5_ops0
  constructor
  · carried h.h_v5
  · carried h.h_v7
  · carried h.h_v35
  · carried h.h_v164
  · computed [h.h_v246, h.h_arg13]
  · carried h.h_arg12
  · carried h.h_arg13

set_option maxHeartbeats 8000000 in
/-- List 15 (`main_part5_ops1`, 3 operations) carries the boundary before it to the boundary after it: each
    buffer live after the list is either untouched by it, or written by it from buffers live before it. -/
theorem step15 {W : Valuation τ sig (Elt F)} {x0 : (⟨S10000x128, .f32⟩ : BufTy).Contents (Elt F)} {x1 : (⟨S10000x128, .f32⟩ : BufTy).Contents (Elt F)} {x2 : (⟨S10000x10000, .f32⟩ : BufTy).Contents (Elt F)} {x3 : (⟨S10000x10000, .f32⟩ : BufTy).Contents (Elt F)} {x4 : (⟨S2x320000, .i32⟩ : BufTy).Contents (Elt F)} {x5 : (⟨S2x320000, .i32⟩ : BufTy).Contents (Elt F)} {x6 : (⟨S128x128, .f32⟩ : BufTy).Contents (Elt F)} {x7 : (⟨S128, .f32⟩ : BufTy).Contents (Elt F)} {x8 : (⟨S128x128, .f32⟩ : BufTy).Contents (Elt F)} {x9 : (⟨S128, .f32⟩ : BufTy).Contents (Elt F)} {x10 : (⟨S128x128, .f32⟩ : BufTy).Contents (Elt F)} {x11 : (⟨S128, .f32⟩ : BufTy).Contents (Elt F)} {x12 : (⟨S128x128, .f32⟩ : BufTy).Contents (Elt F)} {x13 : (⟨S128, .f32⟩ : BufTy).Contents (Elt F)}
    (h : Inv14 W x0 x1 x2 x3 x4 x5 x6 x7 x8 x9 x10 x11 x12 x13) : Inv15 (StableHlo.after main_part5_ops1 W) x0 x1 x2 x3 x4 x5 x6 x7 x8 x9 x10 x11 x12 x13 := by
  open_list main_part5_ops1
  constructor
  · carried h.h_v5
  · carried h.h_v7
  · carried h.h_v35
  · carried h.h_v164
  · computed [h.h_v249]
  · carried h.h_arg12
  · carried h.h_arg13

set_option maxHeartbeats 8000000 in
/-- List 16 (`main_part5_ops2`, 51 operations) carries the boundary before it to the boundary after it: each
    buffer live after the list is either untouched by it, or written by it from buffers live before it. -/
theorem step16 {W : Valuation τ sig (Elt F)} {x0 : (⟨S10000x128, .f32⟩ : BufTy).Contents (Elt F)} {x1 : (⟨S10000x128, .f32⟩ : BufTy).Contents (Elt F)} {x2 : (⟨S10000x10000, .f32⟩ : BufTy).Contents (Elt F)} {x3 : (⟨S10000x10000, .f32⟩ : BufTy).Contents (Elt F)} {x4 : (⟨S2x320000, .i32⟩ : BufTy).Contents (Elt F)} {x5 : (⟨S2x320000, .i32⟩ : BufTy).Contents (Elt F)} {x6 : (⟨S128x128, .f32⟩ : BufTy).Contents (Elt F)} {x7 : (⟨S128, .f32⟩ : BufTy).Contents (Elt F)} {x8 : (⟨S128x128, .f32⟩ : BufTy).Contents (Elt F)} {x9 : (⟨S128, .f32⟩ : BufTy).Contents (Elt F)} {x10 : (⟨S128x128, .f32⟩ : BufTy).Contents (Elt F)} {x11 : (⟨S128, .f32⟩ : BufTy).Contents (Elt F)} {x12 : (⟨S128x128, .f32⟩ : BufTy).Contents (Elt F)} {x13 : (⟨S128, .f32⟩ : BufTy).Contents (Elt F)}
    (h : Inv15 W x0 x1 x2 x3 x4 x5 x6 x7 x8 x9 x10 x11 x12 x13) : Inv16 (StableHlo.after main_part5_ops2 W) x0 x1 x2 x3 x4 x5 x6 x7 x8 x9 x10 x11 x12 x13 := by
  open_list main_part5_ops2
  constructor
  · carried h.h_v164
  · computed [h.h_v7, h.h_v250, h.h_arg12, h.h_v5, h.h_v35, h.h_arg13]

set_option maxHeartbeats 8000000 in
/-- List 17 (`main_part5_ops3`, 3 operations) carries the boundary before it to the boundary after it: each
    buffer live after the list is either untouched by it, or written by it from buffers live before it. -/
theorem step17 {W : Valuation τ sig (Elt F)} {x0 : (⟨S10000x128, .f32⟩ : BufTy).Contents (Elt F)} {x1 : (⟨S10000x128, .f32⟩ : BufTy).Contents (Elt F)} {x2 : (⟨S10000x10000, .f32⟩ : BufTy).Contents (Elt F)} {x3 : (⟨S10000x10000, .f32⟩ : BufTy).Contents (Elt F)} {x4 : (⟨S2x320000, .i32⟩ : BufTy).Contents (Elt F)} {x5 : (⟨S2x320000, .i32⟩ : BufTy).Contents (Elt F)} {x6 : (⟨S128x128, .f32⟩ : BufTy).Contents (Elt F)} {x7 : (⟨S128, .f32⟩ : BufTy).Contents (Elt F)} {x8 : (⟨S128x128, .f32⟩ : BufTy).Contents (Elt F)} {x9 : (⟨S128, .f32⟩ : BufTy).Contents (Elt F)} {x10 : (⟨S128x128, .f32⟩ : BufTy).Contents (Elt F)} {x11 : (⟨S128, .f32⟩ : BufTy).Contents (Elt F)} {x12 : (⟨S128x128, .f32⟩ : BufTy).Contents (Elt F)} {x13 : (⟨S128, .f32⟩ : BufTy).Contents (Elt F)}
    (h : Inv16 W x0 x1 x2 x3 x4 x5 x6 x7 x8 x9 x10 x11 x12 x13) : Inv17 (StableHlo.after main_part5_ops3 W) x0 x1 x2 x3 x4 x5 x6 x7 x8 x9 x10 x11 x12 x13 := by
  open_list main_part5_ops3
  constructor
  · carried h.h_v164
  · computed [h.h_v292]

end Cert.KernelIdeal.Hand

end
-- ==== Proof.PrefixKernel.lean ====
/-
  The two multi-layer heads of the kernel program read two arrays that its host prefix computes: three graph-convolution
  layers over the first graph (buffer `main_v164`) and three over the second (`main_v293`). The reference program
  computes the same two arrays by the same 368 operations, and states them as the stages `val_main_v164` and
  `val_main_v293` of its argument arrays. This module chains the seventeen steps of PrefixStepsA … D from the launch to
  the end of the prefix: whatever the launch contents `V0`, after the seventeen lists the two buffers hold those two
  stages of `V0`'s argument arrays. Nothing is evaluated: a step only matches one list's operations against the
  stages of the same names.
-/
import proofs.«154350_j35708358099201_1_alg».proof.Proof.PrefixStepsA
import proofs.«154350_j35708358099201_1_alg».proof.Proof.PrefixStepsB
import proofs.«154350_j35708358099201_1_alg».proof.Proof.PrefixStepsC
import proofs.«154350_j35708358099201_1_alg».proof.Proof.PrefixStepsD

noncomputable section

namespace Cert.KernelIdeal.Hand

open Cert.KernelIdeal Cert.KernelIdeal.Gen Idealize.ShloMosaic Idealize.ShloMosaic.TcCoe Idealize.SL.Sem Idealize.ShloMosaic.StableHlo
open Cert.ReferenceIdeal.ReadP

variable {F : FTy → Type} [FloatOps F]

/-- The contents after the seventeen lists of the prefix, run in program order from contents `V0`. -/
abbrev prefixFold (V0 : Valuation τ sig (Elt F)) : Valuation τ sig (Elt F) :=
  StableHlo.after main_part5_ops3 <| StableHlo.after main_part5_ops2 <| StableHlo.after main_part5_ops1 <|
  StableHlo.after main_part5_ops0 <| StableHlo.after main_part4_ops2 <| StableHlo.after main_part4_ops1 <|
  StableHlo.after main_part4_ops0 <| StableHlo.after main_part3_ops2 <| StableHlo.after main_part3_ops1 <|
  StableHlo.after main_part3_ops0 <| StableHlo.after main_part2_ops2 <| StableHlo.after main_part2_ops1 <|
  StableHlo.after main_part2_ops0 <| StableHlo.after main_part1_ops2 <| StableHlo.after main_part1_ops1 <|
  StableHlo.after main_part1_ops0 <| StableHlo.after main_part0_ops0 V0

/-- At the launch every argument holds its own array: the boundary before the first list, at the arrays `V0` gives. -/
theorem inv0 (V0 : Valuation τ sig (Elt F)) :
    Inv0 V0
      (V0 (Proc.devRef .tc main_arg0)) (V0 (Proc.devRef .tc main_arg1)) (V0 (Proc.devRef .tc main_arg2))
      (V0 (Proc.devRef .tc main_arg3)) (V0 (Proc.devRef .tc main_arg4)) (V0 (Proc.devRef .tc main_arg5))
      (V0 (Proc.devRef .tc main_arg6)) (V0 (Proc.devRef .tc main_arg7)) (V0 (Proc.devRef .tc main_arg8))
      (V0 (Proc.devRef .tc main_arg9)) (V0 (Proc.devRef .tc main_arg10)) (V0 (Proc.devRef .tc main_arg11))
      (V0 (Proc.devRef .tc main_arg12)) (V0 (Proc.devRef .tc main_arg13)) :=
  ⟨rfl, rfl, rfl, rfl, rfl, rfl, rfl, rfl, rfl, rfl, rfl, rfl, rfl, rfl⟩

/-- The seventeen steps in order: the boundary after the last list, at the arrays `V0` gives. -/
theorem inv17 (V0 : Valuation τ sig (Elt F)) :
    Inv17 (prefixFold V0)
      (V0 (Proc.devRef .tc main_arg0)) (V0 (Proc.devRef .tc main_arg1)) (V0 (Proc.devRef .tc main_arg2))
      (V0 (Proc.devRef .tc main_arg3)) (V0 (Proc.devRef .tc main_arg4)) (V0 (Proc.devRef .tc main_arg5))
      (V0 (Proc.devRef .tc main_arg6)) (V0 (Proc.devRef .tc main_arg7)) (V0 (Proc.devRef .tc main_arg8))
      (V0 (Proc.devRef .tc main_arg9)) (V0 (Proc.devRef .tc main_arg10)) (V0 (Proc.devRef .tc main_arg11))
      (V0 (Proc.devRef .tc main_arg12)) (V0 (Proc.devRef .tc main_arg13)) :=
  step17 <| step16 <| step15 <| step14 <| step13 <| step12 <| step11 <| step10 <| step9 <| step8 <| step7 <| step6 <|
    step5 <| step4 <| step3 <| step2 <| step1 <| inv0 V0

/-- The first head's input: after the prefix, `main_v164` holds the third layer over the first graph, as the reference
    program's stage of the same name at the launch contents of the seven arguments that stack reads. -/
theorem kernel_x (V0 : Valuation τ sig (Elt F)) :
    prefixFold V0 (Proc.devRef .tc main_v164)
      = val_main_v164 (F := F)
          (V0 (Proc.devRef .tc main_arg0)) (V0 (Proc.devRef .tc main_arg2)) (V0 (Proc.devRef .tc main_arg4))
          (V0 (Proc.devRef .tc main_arg6)) (V0 (Proc.devRef .tc main_arg7)) (V0 (Proc.devRef .tc main_arg8))
          (V0 (Proc.devRef .tc main_arg9)) :=
  (inv17 V0).h_v164

/-- The second head's input: `main_v293`, the third layer over the second graph. -/
theorem kernel_y (V0 : Valuation τ sig (Elt F)) :
    prefixFold V0 (Proc.devRef .tc main_v293)
      = val_main_v293 (F := F)
          (V0 (Proc.devRef .tc main_arg1)) (V0 (Proc.devRef .tc main_arg3)) (V0 (Proc.devRef .tc main_arg5))
          (V0 (Proc.devRef .tc main_arg10)) (V0 (Proc.devRef .tc main_arg11)) (V0 (Proc.devRef .tc main_arg12))
          (V0 (Proc.devRef .tc main_arg13)) :=
  (inv17 V0).h_v293

end Cert.KernelIdeal.Hand

end
-- ==== Proof.RefRunArgs.lean ====
/-
  The reference program is one line of 412 host operations. Each operation writes one buffer, its result's; the
  list below names those 412 references in order. No launch argument is among them, so every argument's buffer
  holds after the line what it held before.
-/
import proofs.«154350_j35708358099201_1_alg».proof.Proof.RefRunOpsP
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- The references the 412 operations write, in order: the k-th is the k-th operation's result. -/
abbrev ops_W : List (Ref sig .tc) := [main_v0, main_v1, main_v2, main_v3, main_v4, main_v5, main_v6, main_v7, main_c, main_v8, main_v9, main_c_0, main_v10, main_v11, main_v12, main_c_1, main_v13, main_v14, main_c_2, main_v15, main_v16, main_v17, main_v18, main_v19, main_v20, main_v21, main_c_3, main_v22, main_v23, main_c_4, main_v24, main_v25, main_v26, main_c_5, main_v27, main_v28, main_c_6, main_v29, main_v30, main_v31, main_v32, main_v33, main_v34, main_v35, main_v36, main_v37, main_v38, main_v39, main_cst, main_v40, main_v41, main_cst_7, main_v42, main_v43, main_v44, main_v45, main_c_8, main_v46, main_v47, main_c_9, main_v48, main_v49, main_v50, main_v51, main_v52, main_v53, main_c_10, main_v54, main_v55, main_c_11, main_v56, main_v57, main_v58, main_v59, main_v60, main_v61, main_c_12, main_v62, main_v63, main_c_13, main_v64, main_v65, main_v66, main_v67, main_v68, main_v69, main_v70, main_v71, main_cst_14, main_v72, main_v73, main_v74, main_v75, main_v76, main_v77, main_call0_cst, main_call0_v0, main_v78, main_v79, main_v80, main_v81, main_v82, main_cst_15, main_v83, main_v84, main_cst_16, main_v85, main_v86, main_v87, main_v88, main_c_17, main_v89, main_v90, main_c_18, main_v91, main_v92, main_v93, main_v94, main_v95, main_v96, main_c_19, main_v97, main_v98, main_c_20, main_v99, main_v100, main_v101, main_v102, main_v103, main_v104, main_c_21, main_v105, main_v106, main_c_22, main_v107, main_v108, main_v109, main_v110, main_v111, main_v112, main_v113, main_v114, main_cst_23, main_v115, main_v116, main_v117, main_v118, main_v119, main_v120, main_call1_cst, main_call1_v0, main_v121, main_v122, main_v123, main_v124, main_v125, main_cst_24, main_v126, main_v127, main_cst_25, main_v128, main_v129, main_v130, main_v131, main_c_26, main_v132, main_v133, main_c_27, main_v134, main_v135, main_v136, main_v137, main_v138, main_v139, main_c_28, main_v140, main_v141, main_c_29, main_v142, main_v143, main_v144, main_v145, main_v146, main_v147, main_c_30, main_v148, main_v149, main_c_31, main_v150, main_v151, main_v152, main_v153, main_v154, main_v155, main_v156, main_v157, main_cst_32, main_v158, main_v159, main_v160, main_v161, main_v162, main_v163, main_call2_cst, main_call2_v0, main_v164, main_v165, main_v166, main_v167, main_v168, main_cst_33, main_v169, main_v170, main_cst_34, main_v171, main_v172, main_v173, main_v174, main_c_35, main_v175, main_v176, main_c_36, main_v177, main_v178, main_v179, main_v180, main_v181, main_v182, main_c_37, main_v183, main_v184, main_c_38, main_v185, main_v186, main_v187, main_v188, main_v189, main_v190, main_c_39, main_v191, main_v192, main_c_40, main_v193, main_v194, main_v195, main_v196, main_v197, main_v198, main_v199, main_v200, main_cst_41, main_v201, main_v202, main_v203, main_v204, main_v205, main_v206, main_call3_cst, main_call3_v0, main_v207, main_v208, main_v209, main_v210, main_v211, main_cst_42, main_v212, main_v213, main_cst_43, main_v214, main_v215, main_v216, main_v217, main_c_44, main_v218, main_v219, main_c_45, main_v220, main_v221, main_v222, main_v223, main_v224, main_v225, main_c_46, main_v226, main_v227, main_c_47, main_v228, main_v229, main_v230, main_v231, main_v232, main_v233, main_c_48, main_v234, main_v235, main_c_49, main_v236, main_v237, main_v238, main_v239, main_v240, main_v241, main_v242, main_v243, main_cst_50, main_v244, main_v245, main_v246, main_v247, main_v248, main_v249, main_call4_cst, main_call4_v0, main_v250, main_v251, main_v252, main_v253, main_v254, main_cst_51, main_v255, main_v256, main_cst_52, main_v257, main_v258, main_v259, main_v260, main_c_53, main_v261, main_v262, main_c_54, main_v263, main_v264, main_v265, main_v266, main_v267, main_v268, main_c_55, main_v269, main_v270, main_c_56, main_v271, main_v272, main_v273, main_v274, main_v275, main_v276, main_c_57, main_v277, main_v278, main_c_58, main_v279, main_v280, main_v281, main_v282, main_v283, main_v284, main_v285, main_v286, main_cst_59, main_v287, main_v288, main_v289, main_v290, main_v291, main_v292, main_call5_cst, main_call5_v0, main_v293, main_v294, main_v295, main_v296, main_v297, main_call6_cst, main_call6_v0, main_v298, main_v299, main_v300, main_v301, main_v302, main_call7_cst, main_call7_v0, main_v303, main_v304, main_v305, main_v306, main_v307, main_call8_cst, main_call8_v0, main_v308, main_v309, main_v310, main_v311, main_v312, main_call9_cst, main_call9_v0, main_v313, main_v314, main_v315, main_v316, main_v317, main_call10_cst, main_call10_v0, main_v318, main_v319, main_v320, main_v321, main_v322, main_call11_cst, main_call11_v0, main_v323, main_v324, main_v325]

/-- The program's argument arrays. -/
abbrev argRefs : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22, main_arg23, main_arg24, main_arg25]

/-- If every operation of a line writes exactly the reference at its position in a list, every operation's writes
    lie among the list's references. -/
theorem forall_writes_of_forall₂ {Val : EltTy → Type} :
    ∀ {ops : List (HloOp τ sig Val)} {W : List (Ref sig .tc)},
      List.Forall₂ (fun (op : HloOp τ sig Val) (r : Ref sig .tc) => op.writes = {Proc.devRef (τ := τ) .tc r}) ops W →
      ∀ op ∈ ops, ∃ r ∈ W, op.writes = {Proc.devRef (τ := τ) .tc r}
  | _, _, .nil, op, h => absurd h List.not_mem_nil
  | _, _, .cons (a := a) (b := r) hr ht, op, h => by
    rcases List.mem_cons.mp h with rfl | h
    · exact ⟨r, List.mem_cons_self, hr⟩
    · obtain ⟨r', hr', e⟩ := forall_writes_of_forall₂ ht op h
      exact ⟨r', List.mem_cons_of_mem _ hr', e⟩

set_option maxRecDepth 16384 in
set_option maxHeartbeats 4000000 in
/-- Operation by operation, the k-th operation writes the k-th reference of the list. -/
theorem ops_writes₂ : List.Forall₂ (fun (op : HloOp τ sig (Elt F)) (r : Ref sig .tc) => op.writes = {Proc.devRef (τ := τ) .tc r})
    (OpsP.ops (F := F)) ops_W := by
  repeat' (first | exact List.Forall₂.nil | refine List.Forall₂.cons rfl ?_)

/-- Every operation's writes lie among the listed references. -/
theorem ops_writes : (OpsP.ops : List (HloOp τ sig (Elt F))).Forall fun op => op.writes ⊆ (ops_W.map (Proc.devRef (τ := τ) .tc)).toFinset :=
  List.forall_iff_forall_mem.mpr fun op hop => by
    obtain ⟨r, hr, e⟩ := forall_writes_of_forall₂ (ops_writes₂ (F := F)) op hop
    rw [e, Finset.singleton_subset_iff, List.mem_toFinset]
    exact List.mem_map_of_mem hr

/-- No operation writes an argument. -/
theorem arg_not_written : ∀ r ∈ argRefs, r ∉ ops_W := by decide

/-- An argument's buffer holds after the line what it held before. -/
theorem arg_kept (V : Valuation τ sig (Elt F)) (r : Ref sig .tc) (hr : r ∈ argRefs) :
    StableHlo.after OpsP.ops V (Proc.devRef .tc r) = V (Proc.devRef .tc r) :=
  StableHlo.after_of_writes_sub OpsP.ops V ops_writes (arg_not_written r hr)

end Cert.ReferenceIdeal.HandRun

end
-- ==== Proof.RefSliceInv.lean ====
/-
  At the boundary after the first k slices (k = 0 … 20) of the reference program's operations, the buffers a LATER
  slice still reads (or the result) are few. `Inv‹k› W x0 … x25` says that under contents `W` each of them holds its stage
  (`val_main_vN`, a function of the argument arrays `x0 … x25`), and each argument still to be read its array. Buffers
  no later slice reads are not mentioned: nothing after the boundary depends on them.
-/
import proofs.«154350_j35708358099201_1_alg».proof.Proof.RefReadP
import proofs.«154350_j35708358099201_1_alg».proof.Proof.PrefixTac

noncomputable section

namespace Cert.ReferenceIdeal.HandRun

open Cert.ReferenceIdeal Cert.ReferenceIdeal.Gen Idealize.ShloMosaic Idealize.ShloMosaic.TcCoe Idealize.SL.Sem Idealize.ShloMosaic.StableHlo
open Cert.ReferenceIdeal.ReadP

variable {F : FTy → Type} [FloatOps F]

/-- The boundary after 0 of the twenty slices (the launch): 0 computed buffers and 26 arguments are still to be read. -/
structure Inv0 (W : Valuation τ sig (Elt F)) (x0 : (⟨S10000x128, .f32⟩ : BufTy).Contents (Elt F)) (x1 : (⟨S10000x128, .f32⟩ : BufTy).Contents (Elt F)) (x2 : (⟨S10000x10000, .f32⟩ : BufTy).Contents (Elt F)) (x3 : (⟨S10000x10000, .f32⟩ : BufTy).Contents (Elt F)) (x4 : (⟨S2x320000, .i32⟩ : BufTy).Contents (Elt F)) (x5 : (⟨S2x320000, .i32⟩ : BufTy).Contents (Elt F)) (x6 : (⟨S128x128, .f32⟩ : BufTy).Contents (Elt F)) (x7 : (⟨S128, .f32⟩ : BufTy).Contents (Elt F)) (x8 : (⟨S128x128, .f32⟩ : BufTy).Contents (Elt F)) (x9 : (⟨S128, .f32⟩ : BufTy).Contents (Elt F)) (x10 : (⟨S128x128, .f32⟩ : BufTy).Contents (Elt F)) (x11 : (⟨S128, .f32⟩ : BufTy).Contents (Elt F)) (x12 : (⟨S128x128, .f32⟩ : BufTy).Contents (Elt F)) (x13 : (⟨S128, .f32⟩ : BufTy).Contents (Elt F)) (x14 : (⟨S128x128, .f32⟩ : BufTy).Contents (Elt F)) (x15 : (⟨S128, .f32⟩ : BufTy).Contents (Elt F)) (x16 : (⟨S128x64, .f32⟩ : BufTy).Contents (Elt F)) (x17 : (⟨S64, .f32⟩ : BufTy).Contents (Elt F)) (x18 : (⟨S64x32, .f32⟩ : BufTy).Contents (Elt F)) (x19 : (⟨S32, .f32⟩ : BufTy).Contents (Elt F)) (x20 : (⟨S128x128, .f32⟩ : BufTy).Contents (Elt F)) (x21 : (⟨S128, .f32⟩ : BufTy).Contents (Elt F)) (x22 : (⟨S128x64, .f32⟩ : BufTy).Contents (Elt F)) (x23 : (⟨S64, .f32⟩ : BufTy).Contents (Elt F)) (x24 : (⟨S64x32, .f32⟩ : BufTy).Contents (Elt F)) (x25 : (⟨S32, .f32⟩ : BufTy).Contents (Elt F)) : Prop where
  h_arg0 : W (Proc.devRef .tc main_arg0) = x0
  h_arg1 : W (Proc.devRef .tc main_arg1) = x1
  h_arg2 : W (Proc.devRef .tc main_arg2) = x2
  h_arg3 : W (Proc.devRef .tc main_arg3) = x3
  h_arg4 : W (Proc.devRef .tc main_arg4) = x4
  h_arg5 : W (Proc.devRef .tc main_arg5) = x5
  h_arg6 : W (Proc.devRef .tc main_arg6) = x6
  h_arg7 : W (Proc.devRef .tc main_arg7) = x7
  h_arg8 : W (Proc.devRef .tc main_arg8) = x8
  h_arg9 : W (Proc.devRef .tc main_arg9) = x9
  h_arg10 : W (Proc.devRef .tc main_arg10) = x10
  h_arg11 : W (Proc.devRef .tc main_arg11) = x11
  h_arg12 : W (Proc.devRef .tc main_arg12) = x12
  h_arg13 : W (Proc.devRef .tc main_arg13) = x13
  h_arg14 : W (Proc.devRef .tc main_arg14) = x14
  h_arg15 : W (Proc.devRef .tc main_arg15) = x15
  h_arg16 : W (Proc.devRef .tc main_arg16) = x16
  h_arg17 : W (Proc.devRef .tc main_arg17) = x17
  h_arg18 : W (Proc.devRef .tc main_arg18) = x18
  h_arg19 : W (Proc.devRef .tc main_arg19) = x19
  h_arg20 : W (Proc.devRef .tc main_arg20) = x20
  h_arg21 : W (Proc.devRef .tc main_arg21) = x21
  h_arg22 : W (Proc.devRef .tc main_arg22) = x22
  h_arg23 : W (Proc.devRef .tc main_arg23) = x23
  h_arg24 : W (Proc.devRef .tc main_arg24) = x24
  h_arg25 : W (Proc.devRef .tc main_arg25) = x25

/-- The boundary after 1 of the twenty slices: 13 computed buffers and 20 arguments are still to be read. -/
structure Inv1 (W : Valuation τ sig (Elt F)) (x0 : (⟨S10000x128, .f32⟩ : BufTy).Contents (Elt F)) (x1 : (⟨S10000x128, .f32⟩ : BufTy).Contents (Elt F)) (x2 : (⟨S10000x10000, .f32⟩ : BufTy).Contents (Elt F)) (x3 : (⟨S10000x10000, .f32⟩ : BufTy).Contents (Elt F)) (x4 : (⟨S2x320000, .i32⟩ : BufTy).Contents (Elt F)) (x5 : (⟨S2x320000, .i32⟩ : BufTy).Contents (Elt F)) (x6 : (⟨S128x128, .f32⟩ : BufTy).Contents (Elt F)) (x7 : (⟨S128, .f32⟩ : BufTy).Contents (Elt F)) (x8 : (⟨S128x128, .f32⟩ : BufTy).Contents (Elt F)) (x9 : (⟨S128, .f32⟩ : BufTy).Contents (Elt F)) (x10 : (⟨S128x128, .f32⟩ : BufTy).Contents (Elt F)) (x11 : (⟨S128, .f32⟩ : BufTy).Contents (Elt F)) (x12 : (⟨S128x128, .f32⟩ : BufTy).Contents (Elt F)) (x13 : (⟨S128, .f32⟩ : BufTy).Contents (Elt F)) (x14 : (⟨S128x128, .f32⟩ : BufTy).Contents (Elt F)) (x15 : (⟨S128, .f32⟩ : BufTy).Contents (Elt F)) (x16 : (⟨S128x64, .f32⟩ : BufTy).Contents (Elt F)) (x17 : (⟨S64, .f32⟩ : BufTy).Contents (Elt F)) (x18 : (⟨S64x32, .f32⟩ : BufTy).Contents (Elt F)) (x19 : (⟨S32, .f32⟩ : BufTy).Contents (Elt F)) (x20 : (⟨S128x128, .f32⟩ : BufTy).Contents (Elt F)) (x21 : (⟨S128, .f32⟩ : BufTy).Contents (Elt F)) (x22 : (⟨S128x64, .f32⟩ : BufTy).Contents (Elt F)) (x23 : (⟨S64, .f32⟩ : BufTy).Contents (Elt F)) (x24 : (⟨S64x32, .f32⟩ : BufTy).Contents (Elt F)) (x25 : (⟨S32, .f32⟩ : BufTy).Contents (Elt F)) : Prop where
  h_v1 : W (Proc.devRef .tc main_v1) = val_main_v1 (F := F) x4
  h_v3 : W (Proc.devRef .tc main_v3) = val_main_v3 (F := F) x4
  h_v5 : W (Proc.devRef .tc main_v5) = val_main_v5 (F := F) x5
  h_v7 : W (Proc.devRef .tc main_v7) = val_main_v7 (F := F) x5
  h_v21 : W (Proc.devRef .tc main_v21) = val_main_v21 (F := F) x2 x4
  h_v35 : W (Proc.devRef .tc main_v35) = val_main_v35 (F := F) x3 x5
  h_v36 : W (Proc.devRef .tc main_v36) = val_main_v36 (F := F) x0 x6
  h_v38 : W (Proc.devRef .tc main_v38) = val_main_v38 (F := F) x4
  h_v39 : W (Proc.devRef .tc main_v39) = val_main_v39 (F := F) x4
  h_v41 : W (Proc.devRef .tc main_v41) = val_main_v41 (F := F) x2 x4
  h_v45 : W (Proc.devRef .tc main_v45) = val_main_v45 (F := F) x2 x4
  h_v47 : W (Proc.devRef .tc main_v47) = val_main_v47 (F := F) x4
  h_c_9 : W (Proc.devRef .tc main_c_9) = val_main_c_9 (F := F)
  h_arg1 : W (Proc.devRef .tc main_arg1) = x1
  h_arg7 : W (Proc.devRef .tc main_arg7) = x7
  h_arg8 : W (Proc.devRef .tc main_arg8) = x8
  h_arg9 : W (Proc.devRef .tc main_arg9) = x9
  h_arg10 : W (Proc.devRef .tc main_arg10) = x10
  h_arg11 : W (Proc.devRef .tc main_arg11) = x11
  h_arg12 : W (Proc.devRef .tc main_arg12) = x12
  h_arg13 : W (Proc.devRef .tc main_arg13) = x13
  h_arg14 : W (Proc.devRef .tc main_arg14) = x14
  h_arg15 : W (Proc.devRef .tc main_arg15) = x15
  h_arg16 : W (Proc.devRef .tc main_arg16) = x16
  h_arg17 : W (Proc.devRef .tc main_arg17) = x17
  h_arg18 : W (Proc.devRef .tc main_arg18) = x18
  h_arg19 : W (Proc.devRef .tc main_arg19) = x19
  h_arg20 : W (Proc.devRef .tc main_arg20) = x20
  h_arg21 : W (Proc.devRef .tc main_arg21) = x21
  h_arg22 : W (Proc.devRef .tc main_arg22) = x22
  h_arg23 : W (Proc.devRef .tc main_arg23) = x23
  h_arg24 : W (Proc.devRef .tc main_arg24) = x24
  h_arg25 : W (Proc.devRef .tc main_arg25) = x25

/-- The boundary after 2 of the twenty slices: 7 computed buffers and 19 arguments are still to be read. -/
structure Inv2 (W : Valuation τ sig (Elt F)) (x0 : (⟨S10000x128, .f32⟩ : BufTy).Contents (Elt F)) (x1 : (⟨S10000x128, .f32⟩ : BufTy).Contents (Elt F)) (x2 : (⟨S10000x10000, .f32⟩ : BufTy).Contents (Elt F)) (x3 : (⟨S10000x10000, .f32⟩ : BufTy).Contents (Elt F)) (x4 : (⟨S2x320000, .i32⟩ : BufTy).Contents (Elt F)) (x5 : (⟨S2x320000, .i32⟩ : BufTy).Contents (Elt F)) (x6 : (⟨S128x128, .f32⟩ : BufTy).Contents (Elt F)) (x7 : (⟨S128, .f32⟩ : BufTy).Contents (Elt F)) (x8 : (⟨S128x128, .f32⟩ : BufTy).Contents (Elt F)) (x9 : (⟨S128, .f32⟩ : BufTy).Contents (Elt F)) (x10 : (⟨S128x128, .f32⟩ : BufTy).Contents (Elt F)) (x11 : (⟨S128, .f32⟩ : BufTy).Contents (Elt F)) (x12 : (⟨S128x128, .f32⟩ : BufTy).Contents (Elt F)) (x13 : (⟨S128, .f32⟩ : BufTy).Contents (Elt F)) (x14 : (⟨S128x128, .f32⟩ : BufTy).Contents (Elt F)) (x15 : (⟨S128, .f32⟩ : BufTy).Contents (Elt F)) (x16 : (⟨S128x64, .f32⟩ : BufTy).Contents (Elt F)) (x17 : (⟨S64, .f32⟩ : BufTy).Contents (Elt F)) (x18 : (⟨S64x32, .f32⟩ : BufTy).Contents (Elt F)) (x19 : (⟨S32, .f32⟩ : BufTy).Contents (Elt F)) (x20 : (⟨S128x128, .f32⟩ : BufTy).Contents (Elt F)) (x21 : (⟨S128, .f32⟩ : BufTy).Contents (Elt F)) (x22 : (⟨S128x64, .f32⟩ : BufTy).Contents (Elt F)) (x23 : (⟨S64, .f32⟩ : BufTy).Contents (Elt F)) (x24 : (⟨S64x32, .f32⟩ : BufTy).Contents (Elt F)) (x25 : (⟨S32, .f32⟩ : BufTy).Contents (Elt F)) : Prop where
  h_v1 : W (Proc.devRef .tc main_v1) = val_main_v1 (F := F) x4
  h_v3 : W (Proc.devRef .tc main_v3) = val_main_v3 (F := F) x4
  h_v5 : W (Proc.devRef .tc main_v5) = val_main_v5 (F := F) x5
  h_v7 : W (Proc.devRef .tc main_v7) = val_main_v7 (F := F) x5
  h_v21 : W (Proc.devRef .tc main_v21) = val_main_v21 (F := F) x2 x4
  h_v35 : W (Proc.devRef .tc main_v35) = val_main_v35 (F := F) x3 x5
  h_v77 : W (Proc.devRef .tc main_v77) = val_main_v77 (F := F) x0 x2 x4 x6 x7
  h_arg1 : W (Proc.devRef .tc main_arg1) = x1
  h_arg8 : W (Proc.devRef .tc main_arg8) = x8
  h_arg9 : W (Proc.devRef .tc main_arg9) = x9
  h_arg10 : W (Proc.devRef .tc main_arg10) = x10
  h_arg11 : W (Proc.devRef .tc main_arg11) = x11
  h_arg12 : W (Proc.devRef .tc main_arg12) = x12
  h_arg13 : W (Proc.devRef .tc main_arg13) = x13
  h_arg14 : W (Proc.devRef .tc main_arg14) = x14
  h_arg15 : W (Proc.devRef .tc main_arg15) = x15
  h_arg16 : W (Proc.devRef .tc main_arg16) = x16
  h_arg17 : W (Proc.devRef .tc main_arg17) = x17
  h_arg18 : W (Proc.devRef .tc main_arg18) = x18
  h_arg19 : W (Proc.devRef .tc main_arg19) = x19
  h_arg20 : W (Proc.devRef .tc main_arg20) = x20
  h_arg21 : W (Proc.devRef .tc main_arg21) = x21
  h_arg22 : W (Proc.devRef .tc main_arg22) = x22
  h_arg23 : W (Proc.devRef .tc main_arg23) = x23
  h_arg24 : W (Proc.devRef .tc main_arg24) = x24
  h_arg25 : W (Proc.devRef .tc main_arg25) = x25

/-- The boundary after 3 of the twenty slices: 7 computed buffers and 19 arguments are still to be read. -/
structure Inv3 (W : Valuation τ sig (Elt F)) (x0 : (⟨S10000x128, .f32⟩ : BufTy).Contents (Elt F)) (x1 : (⟨S10000x128, .f32⟩ : BufTy).Contents (Elt F)) (x2 : (⟨S10000x10000, .f32⟩ : BufTy).Contents (Elt F)) (x3 : (⟨S10000x10000, .f32⟩ : BufTy).Contents (Elt F)) (x4 : (⟨S2x320000, .i32⟩ : BufTy).Contents (Elt F)) (x5 : (⟨S2x320000, .i32⟩ : BufTy).Contents (Elt F)) (x6 : (⟨S128x128, .f32⟩ : BufTy).Contents (Elt F)) (x7 : (⟨S128, .f32⟩ : BufTy).Contents (Elt F)) (x8 : (⟨S128x128, .f32⟩ : BufTy).Contents (Elt F)) (x9 : (⟨S128, .f32⟩ : BufTy).Contents (Elt F)) (x10 : (⟨S128x128, .f32⟩ : BufTy).Contents (Elt F)) (x11 : (⟨S128, .f32⟩ : BufTy).Contents (Elt F)) (x12 : (⟨S128x128, .f32⟩ : BufTy).Contents (Elt F)) (x13 : (⟨S128, .f32⟩ : BufTy).Contents (Elt F)) (x14 : (⟨S128x128, .f32⟩ : BufTy).Contents (Elt F)) (x15 : (⟨S128, .f32⟩ : BufTy).Contents (Elt F)) (x16 : (⟨S128x64, .f32⟩ : BufTy).Contents (Elt F)) (x17 : (⟨S64, .f32⟩ : BufTy).Contents (Elt F)) (x18 : (⟨S64x32, .f32⟩ : BufTy).Contents (Elt F)) (x19 : (⟨S32, .f32⟩ : BufTy).Contents (Elt F)) (x20 : (⟨S128x128, .f32⟩ : BufTy).Contents (Elt F)) (x21 : (⟨S128, .f32⟩ : BufTy).Contents (Elt F)) (x22 : (⟨S128x64, .f32⟩ : BufTy).Contents (Elt F)) (x23 : (⟨S64, .f32⟩ : BufTy).Contents (Elt F)) (x24 : (⟨S64x32, .f32⟩ : BufTy).Contents (Elt F)) (x25 : (⟨S32, .f32⟩ : BufTy).Contents (Elt F)) : Prop where
  h_v1 : W (Proc.devRef .tc main_v1) = val_main_v1 (F := F) x4
  h_v3 : W (Proc.devRef .tc main_v3) = val_main_v3 (F := F) x4
  h_v5 : W (Proc.devRef .tc main_v5) = val_main_v5 (F := F) x5
  h_v7 : W (Proc.devRef .tc main_v7) = val_main_v7 (F := F) x5
  h_v21 : W (Proc.devRef .tc main_v21) = val_main_v21 (F := F) x2 x4
  h_v35 : W (Proc.devRef .tc main_v35) = val_main_v35 (F := F) x3 x5
  h_v78 : W (Proc.devRef .tc main_v78) = val_main_v78 (F := F) x0 x2 x4 x6 x7
  h_arg1 : W (Proc.devRef .tc main_arg1) = x1
  h_arg8 : W (Proc.devRef .tc main_arg8) = x8
  h_arg9 : W (Proc.devRef .tc main_arg9) = x9
  h_arg10 : W (Proc.devRef .tc main_arg10) = x10
  h_arg11 : W (Proc.devRef .tc main_arg11) = x11
  h_arg12 : W (Proc.devRef .tc main_arg12) = x12
  h_arg13 : W (Proc.devRef .tc main_arg13) = x13
  h_arg14 : W (Proc.devRef .tc main_arg14) = x14
  h_arg15 : W (Proc.devRef .tc main_arg15) = x15
  h_arg16 : W (Proc.devRef .tc main_arg16) = x16
  h_arg17 : W (Proc.devRef .tc main_arg17) = x17
  h_arg18 : W (Proc.devRef .tc main_arg18) = x18
  h_arg19 : W (Proc.devRef .tc main_arg19) = x19
  h_arg20 : W (Proc.devRef .tc main_arg20) = x20
  h_arg21 : W (Proc.devRef .tc main_arg21) = x21
  h_arg22 : W (Proc.devRef .tc main_arg22) = x22
  h_arg23 : W (Proc.devRef .tc main_arg23) = x23
  h_arg24 : W (Proc.devRef .tc main_arg24) = x24
  h_arg25 : W (Proc.devRef .tc main_arg25) = x25

/-- The boundary after 4 of the twenty slices: 12 computed buffers and 19 arguments are still to be read. -/
structure Inv4 (W : Valuation τ sig (Elt F)) (x0 : (⟨S10000x128, .f32⟩ : BufTy).Contents (Elt F)) (x1 : (⟨S10000x128, .f32⟩ : BufTy).Contents (Elt F)) (x2 : (⟨S10000x10000, .f32⟩ : BufTy).Contents (Elt F)) (x3 : (⟨S10000x10000, .f32⟩ : BufTy).Contents (Elt F)) (x4 : (⟨S2x320000, .i32⟩ : BufTy).Contents (Elt F)) (x5 : (⟨S2x320000, .i32⟩ : BufTy).Contents (Elt F)) (x6 : (⟨S128x128, .f32⟩ : BufTy).Contents (Elt F)) (x7 : (⟨S128, .f32⟩ : BufTy).Contents (Elt F)) (x8 : (⟨S128x128, .f32⟩ : BufTy).Contents (Elt F)) (x9 : (⟨S128, .f32⟩ : BufTy).Contents (Elt F)) (x10 : (⟨S128x128, .f32⟩ : BufTy).Contents (Elt F)) (x11 : (⟨S128, .f32⟩ : BufTy).Contents (Elt F)) (x12 : (⟨S128x128, .f32⟩ : BufTy).Contents (Elt F)) (x13 : (⟨S128, .f32⟩ : BufTy).Contents (Elt F)) (x14 : (⟨S128x128, .f32⟩ : BufTy).Contents (Elt F)) (x15 : (⟨S128, .f32⟩ : BufTy).Contents (Elt F)) (x16 : (⟨S128x64, .f32⟩ : BufTy).Contents (Elt F)) (x17 : (⟨S64, .f32⟩ : BufTy).Contents (Elt F)) (x18 : (⟨S64x32, .f32⟩ : BufTy).Contents (Elt F)) (x19 : (⟨S32, .f32⟩ : BufTy).Contents (Elt F)) (x20 : (⟨S128x128, .f32⟩ : BufTy).Contents (Elt F)) (x21 : (⟨S128, .f32⟩ : BufTy).Contents (Elt F)) (x22 : (⟨S128x64, .f32⟩ : BufTy).Contents (Elt F)) (x23 : (⟨S64, .f32⟩ : BufTy).Contents (Elt F)) (x24 : (⟨S64x32, .f32⟩ : BufTy).Contents (Elt F)) (x25 : (⟨S32, .f32⟩ : BufTy).Contents (Elt F)) : Prop where
  h_v1 : W (Proc.devRef .tc main_v1) = val_main_v1 (F := F) x4
  h_v3 : W (Proc.devRef .tc main_v3) = val_main_v3 (F := F) x4
  h_v5 : W (Proc.devRef .tc main_v5) = val_main_v5 (F := F) x5
  h_v7 : W (Proc.devRef .tc main_v7) = val_main_v7 (F := F) x5
  h_v21 : W (Proc.devRef .tc main_v21) = val_main_v21 (F := F) x2 x4
  h_v35 : W (Proc.devRef .tc main_v35) = val_main_v35 (F := F) x3 x5
  h_v79 : W (Proc.devRef .tc main_v79) = val_main_v79 (F := F) x0 x2 x4 x6 x7 x8
  h_v81 : W (Proc.devRef .tc main_v81) = val_main_v81 (F := F) x4
  h_v82 : W (Proc.devRef .tc main_v82) = val_main_v82 (F := F) x4
  h_v88 : W (Proc.devRef .tc main_v88) = val_main_v88 (F := F) x2 x4
  h_v96 : W (Proc.devRef .tc main_v96) = val_main_v96 (F := F) x2 x4
  h_v97 : W (Proc.devRef .tc main_v97) = val_main_v97 (F := F)
  h_arg1 : W (Proc.devRef .tc main_arg1) = x1
  h_arg8 : W (Proc.devRef .tc main_arg8) = x8
  h_arg9 : W (Proc.devRef .tc main_arg9) = x9
  h_arg10 : W (Proc.devRef .tc main_arg10) = x10
  h_arg11 : W (Proc.devRef .tc main_arg11) = x11
  h_arg12 : W (Proc.devRef .tc main_arg12) = x12
  h_arg13 : W (Proc.devRef .tc main_arg13) = x13
  h_arg14 : W (Proc.devRef .tc main_arg14) = x14
  h_arg15 : W (Proc.devRef .tc main_arg15) = x15
  h_arg16 : W (Proc.devRef .tc main_arg16) = x16
  h_arg17 : W (Proc.devRef .tc main_arg17) = x17
  h_arg18 : W (Proc.devRef .tc main_arg18) = x18
  h_arg19 : W (Proc.devRef .tc main_arg19) = x19
  h_arg20 : W (Proc.devRef .tc main_arg20) = x20
  h_arg21 : W (Proc.devRef .tc main_arg21) = x21
  h_arg22 : W (Proc.devRef .tc main_arg22) = x22
  h_arg23 : W (Proc.devRef .tc main_arg23) = x23
  h_arg24 : W (Proc.devRef .tc main_arg24) = x24
  h_arg25 : W (Proc.devRef .tc main_arg25) = x25

/-- The boundary after 5 of the twenty slices: 7 computed buffers and 19 arguments are still to be read. -/
structure Inv5 (W : Valuation τ sig (Elt F)) (x0 : (⟨S10000x128, .f32⟩ : BufTy).Contents (Elt F)) (x1 : (⟨S10000x128, .f32⟩ : BufTy).Contents (Elt F)) (x2 : (⟨S10000x10000, .f32⟩ : BufTy).Contents (Elt F)) (x3 : (⟨S10000x10000, .f32⟩ : BufTy).Contents (Elt F)) (x4 : (⟨S2x320000, .i32⟩ : BufTy).Contents (Elt F)) (x5 : (⟨S2x320000, .i32⟩ : BufTy).Contents (Elt F)) (x6 : (⟨S128x128, .f32⟩ : BufTy).Contents (Elt F)) (x7 : (⟨S128, .f32⟩ : BufTy).Contents (Elt F)) (x8 : (⟨S128x128, .f32⟩ : BufTy).Contents (Elt F)) (x9 : (⟨S128, .f32⟩ : BufTy).Contents (Elt F)) (x10 : (⟨S128x128, .f32⟩ : BufTy).Contents (Elt F)) (x11 : (⟨S128, .f32⟩ : BufTy).Contents (Elt F)) (x12 : (⟨S128x128, .f32⟩ : BufTy).Contents (Elt F)) (x13 : (⟨S128, .f32⟩ : BufTy).Contents (Elt F)) (x14 : (⟨S128x128, .f32⟩ : BufTy).Contents (Elt F)) (x15 : (⟨S128, .f32⟩ : BufTy).Contents (Elt F)) (x16 : (⟨S128x64, .f32⟩ : BufTy).Contents (Elt F)) (x17 : (⟨S64, .f32⟩ : BufTy).Contents (Elt F)) (x18 : (⟨S64x32, .f32⟩ : BufTy).Contents (Elt F)) (x19 : (⟨S32, .f32⟩ : BufTy).Contents (Elt F)) (x20 : (⟨S128x128, .f32⟩ : BufTy).Contents (Elt F)) (x21 : (⟨S128, .f32⟩ : BufTy).Contents (Elt F)) (x22 : (⟨S128x64, .f32⟩ : BufTy).Contents (Elt F)) (x23 : (⟨S64, .f32⟩ : BufTy).Contents (Elt F)) (x24 : (⟨S64x32, .f32⟩ : BufTy).Contents (Elt F)) (x25 : (⟨S32, .f32⟩ : BufTy).Contents (Elt F)) : Prop where
  h_v1 : W (Proc.devRef .tc main_v1) = val_main_v1 (F := F) x4
  h_v3 : W (Proc.devRef .tc main_v3) = val_main_v3 (F := F) x4
  h_v5 : W (Proc.devRef .tc main_v5) = val_main_v5 (F := F) x5
  h_v7 : W (Proc.devRef .tc main_v7) = val_main_v7 (F := F) x5
  h_v21 : W (Proc.devRef .tc main_v21) = val_main_v21 (F := F) x2 x4
  h_v35 : W (Proc.devRef .tc main_v35) = val_main_v35 (F := F) x3 x5
  h_v120 : W (Proc.devRef .tc main_v120) = val_main_v120 (F := F) x0 x2 x4 x6 x7 x8 x9
  h_arg1 : W (Proc.devRef .tc main_arg1) = x1
  h_arg8 : W (Proc.devRef .tc main_arg8) = x8
  h_arg9 : W (Proc.devRef .tc main_arg9) = x9
  h_arg10 : W (Proc.devRef .tc main_arg10) = x10
  h_arg11 : W (Proc.devRef .tc main_arg11) = x11
  h_arg12 : W (Proc.devRef .tc main_arg12) = x12
  h_arg13 : W (Proc.devRef .tc main_arg13) = x13
  h_arg14 : W (Proc.devRef .tc main_arg14) = x14
  h_arg15 : W (Proc.devRef .tc main_arg15) = x15
  h_arg16 : W (Proc.devRef .tc main_arg16) = x16
  h_arg17 : W (Proc.devRef .tc main_arg17) = x17
  h_arg18 : W (Proc.devRef .tc main_arg18) = x18
  h_arg19 : W (Proc.devRef .tc main_arg19) = x19
  h_arg20 : W (Proc.devRef .tc main_arg20) = x20
  h_arg21 : W (Proc.devRef .tc main_arg21) = x21
  h_arg22 : W (Proc.devRef .tc main_arg22) = x22
  h_arg23 : W (Proc.devRef .tc main_arg23) = x23
  h_arg24 : W (Proc.devRef .tc main_arg24) = x24
  h_arg25 : W (Proc.devRef .tc main_arg25) = x25

/-- The boundary after 6 of the twenty slices: 7 computed buffers and 19 arguments are still to be read. -/
structure Inv6 (W : Valuation τ sig (Elt F)) (x0 : (⟨S10000x128, .f32⟩ : BufTy).Contents (Elt F)) (x1 : (⟨S10000x128, .f32⟩ : BufTy).Contents (Elt F)) (x2 : (⟨S10000x10000, .f32⟩ : BufTy).Contents (Elt F)) (x3 : (⟨S10000x10000, .f32⟩ : BufTy).Contents (Elt F)) (x4 : (⟨S2x320000, .i32⟩ : BufTy).Contents (Elt F)) (x5 : (⟨S2x320000, .i32⟩ : BufTy).Contents (Elt F)) (x6 : (⟨S128x128, .f32⟩ : BufTy).Contents (Elt F)) (x7 : (⟨S128, .f32⟩ : BufTy).Contents (Elt F)) (x8 : (⟨S128x128, .f32⟩ : BufTy).Contents (Elt F)) (x9 : (⟨S128, .f32⟩ : BufTy).Contents (Elt F)) (x10 : (⟨S128x128, .f32⟩ : BufTy).Contents (Elt F)) (x11 : (⟨S128, .f32⟩ : BufTy).Contents (Elt F)) (x12 : (⟨S128x128, .f32⟩ : BufTy).Contents (Elt F)) (x13 : (⟨S128, .f32⟩ : BufTy).Contents (Elt F)) (x14 : (⟨S128x128, .f32⟩ : BufTy).Contents (Elt F)) (x15 : (⟨S128, .f32⟩ : BufTy).Contents (Elt F)) (x16 : (⟨S128x64, .f32⟩ : BufTy).Contents (Elt F)) (x17 : (⟨S64, .f32⟩ : BufTy).Contents (Elt F)) (x18 : (⟨S64x32, .f32⟩ : BufTy).Contents (Elt F)) (x19 : (⟨S32, .f32⟩ : BufTy).Contents (Elt F)) (x20 : (⟨S128x128, .f32⟩ : BufTy).Contents (Elt F)) (x21 : (⟨S128, .f32⟩ : BufTy).Contents (Elt F)) (x22 : (⟨S128x64, .f32⟩ : BufTy).Contents (Elt F)) (x23 : (⟨S64, .f32⟩ : BufTy).Contents (Elt F)) (x24 : (⟨S64x32, .f32⟩ : BufTy).Contents (Elt F)) (x25 : (⟨S32, .f32⟩ : BufTy).Contents (Elt F)) : Prop where
  h_v1 : W (Proc.devRef .tc main_v1) = val_main_v1 (F := F) x4
  h_v3 : W (Proc.devRef .tc main_v3) = val_main_v3 (F := F) x4
  h_v5 : W (Proc.devRef .tc main_v5) = val_main_v5 (F := F) x5
  h_v7 : W (Proc.devRef .tc main_v7) = val_main_v7 (F := F) x5
  h_v21 : W (Proc.devRef .tc main_v21) = val_main_v21 (F := F) x2 x4
  h_v35 : W (Proc.devRef .tc main_v35) = val_main_v35 (F := F) x3 x5
  h_v121 : W (Proc.devRef .tc main_v121) = val_main_v121 (F := F) x0 x2 x4 x6 x7 x8 x9
  h_arg1 : W (Proc.devRef .tc main_arg1) = x1
  h_arg8 : W (Proc.devRef .tc main_arg8) = x8
  h_arg9 : W (Proc.devRef .tc main_arg9) = x9
  h_arg10 : W (Proc.devRef .tc main_arg10) = x10
  h_arg11 : W (Proc.devRef .tc main_arg11) = x11
  h_arg12 : W (Proc.devRef .tc main_arg12) = x12
  h_arg13 : W (Proc.devRef .tc main_arg13) = x13
  h_arg14 : W (Proc.devRef .tc main_arg14) = x14
  h_arg15 : W (Proc.devRef .tc main_arg15) = x15
  h_arg16 : W (Proc.devRef .tc main_arg16) = x16
  h_arg17 : W (Proc.devRef .tc main_arg17) = x17
  h_arg18 : W (Proc.devRef .tc main_arg18) = x18
  h_arg19 : W (Proc.devRef .tc main_arg19) = x19
  h_arg20 : W (Proc.devRef .tc main_arg20) = x20
  h_arg21 : W (Proc.devRef .tc main_arg21) = x21
  h_arg22 : W (Proc.devRef .tc main_arg22) = x22
  h_arg23 : W (Proc.devRef .tc main_arg23) = x23
  h_arg24 : W (Proc.devRef .tc main_arg24) = x24
  h_arg25 : W (Proc.devRef .tc main_arg25) = x25

/-- The boundary after 7 of the twenty slices: 7 computed buffers and 18 arguments are still to be read. -/
structure Inv7 (W : Valuation τ sig (Elt F)) (x0 : (⟨S10000x128, .f32⟩ : BufTy).Contents (Elt F)) (x1 : (⟨S10000x128, .f32⟩ : BufTy).Contents (Elt F)) (x2 : (⟨S10000x10000, .f32⟩ : BufTy).Contents (Elt F)) (x3 : (⟨S10000x10000, .f32⟩ : BufTy).Contents (Elt F)) (x4 : (⟨S2x320000, .i32⟩ : BufTy).Contents (Elt F)) (x5 : (⟨S2x320000, .i32⟩ : BufTy).Contents (Elt F)) (x6 : (⟨S128x128, .f32⟩ : BufTy).Contents (Elt F)) (x7 : (⟨S128, .f32⟩ : BufTy).Contents (Elt F)) (x8 : (⟨S128x128, .f32⟩ : BufTy).Contents (Elt F)) (x9 : (⟨S128, .f32⟩ : BufTy).Contents (Elt F)) (x10 : (⟨S128x128, .f32⟩ : BufTy).Contents (Elt F)) (x11 : (⟨S128, .f32⟩ : BufTy).Contents (Elt F)) (x12 : (⟨S128x128, .f32⟩ : BufTy).Contents (Elt F)) (x13 : (⟨S128, .f32⟩ : BufTy).Contents (Elt F)) (x14 : (⟨S128x128, .f32⟩ : BufTy).Contents (Elt F)) (x15 : (⟨S128, .f32⟩ : BufTy).Contents (Elt F)) (x16 : (⟨S128x64, .f32⟩ : BufTy).Contents (Elt F)) (x17 : (⟨S64, .f32⟩ : BufTy).Contents (Elt F)) (x18 : (⟨S64x32, .f32⟩ : BufTy).Contents (Elt F)) (x19 : (⟨S32, .f32⟩ : BufTy).Contents (Elt F)) (x20 : (⟨S128x128, .f32⟩ : BufTy).Contents (Elt F)) (x21 : (⟨S128, .f32⟩ : BufTy).Contents (Elt F)) (x22 : (⟨S128x64, .f32⟩ : BufTy).Contents (Elt F)) (x23 : (⟨S64, .f32⟩ : BufTy).Contents (Elt F)) (x24 : (⟨S64x32, .f32⟩ : BufTy).Contents (Elt F)) (x25 : (⟨S32, .f32⟩ : BufTy).Contents (Elt F)) : Prop where
  h_v5 : W (Proc.devRef .tc main_v5) = val_main_v5 (F := F) x5
  h_v7 : W (Proc.devRef .tc main_v7) = val_main_v7 (F := F) x5
  h_v35 : W (Proc.devRef .tc main_v35) = val_main_v35 (F := F) x3 x5
  h_v122 : W (Proc.devRef .tc main_v122) = val_main_v122 (F := F) x0 x2 x4 x6 x7 x8 x9
  h_v124 : W (Proc.devRef .tc main_v124) = val_main_v124 (F := F) x4
  h_v125 : W (Proc.devRef .tc main_v125) = val_main_v125 (F := F) x4
  h_v147 : W (Proc.devRef .tc main_v147) = val_main_v147 (F := F) x2 x4
  h_arg1 : W (Proc.devRef .tc main_arg1) = x1
  h_arg9 : W (Proc.devRef .tc main_arg9) = x9
  h_arg10 : W (Proc.devRef .tc main_arg10) = x10
  h_arg11 : W (Proc.devRef .tc main_arg11) = x11
  h_arg12 : W (Proc.devRef .tc main_arg12) = x12
  h_arg13 : W (Proc.devRef .tc main_arg13) = x13
  h_arg14 : W (Proc.devRef .tc main_arg14) = x14
  h_arg15 : W (Proc.devRef .tc main_arg15) = x15
  h_arg16 : W (Proc.devRef .tc main_arg16) = x16
  h_arg17 : W (Proc.devRef .tc main_arg17) = x17
  h_arg18 : W (Proc.devRef .tc main_arg18) = x18
  h_arg19 : W (Proc.devRef .tc main_arg19) = x19
  h_arg20 : W (Proc.devRef .tc main_arg20) = x20
  h_arg21 : W (Proc.devRef .tc main_arg21) = x21
  h_arg22 : W (Proc.devRef .tc main_arg22) = x22
  h_arg23 : W (Proc.devRef .tc main_arg23) = x23
  h_arg24 : W (Proc.devRef .tc main_arg24) = x24
  h_arg25 : W (Proc.devRef .tc main_arg25) = x25

/-- The boundary after 8 of the twenty slices: 4 computed buffers and 17 arguments are still to be read. -/
structure Inv8 (W : Valuation τ sig (Elt F)) (x0 : (⟨S10000x128, .f32⟩ : BufTy).Contents (Elt F)) (x1 : (⟨S10000x128, .f32⟩ : BufTy).Contents (Elt F)) (x2 : (⟨S10000x10000, .f32⟩ : BufTy).Contents (Elt F)) (x3 : (⟨S10000x10000, .f32⟩ : BufTy).Contents (Elt F)) (x4 : (⟨S2x320000, .i32⟩ : BufTy).Contents (Elt F)) (x5 : (⟨S2x320000, .i32⟩ : BufTy).Contents (Elt F)) (x6 : (⟨S128x128, .f32⟩ : BufTy).Contents (Elt F)) (x7 : (⟨S128, .f32⟩ : BufTy).Contents (Elt F)) (x8 : (⟨S128x128, .f32⟩ : BufTy).Contents (Elt F)) (x9 : (⟨S128, .f32⟩ : BufTy).Contents (Elt F)) (x10 : (⟨S128x128, .f32⟩ : BufTy).Contents (Elt F)) (x11 : (⟨S128, .f32⟩ : BufTy).Contents (Elt F)) (x12 : (⟨S128x128, .f32⟩ : BufTy).Contents (Elt F)) (x13 : (⟨S128, .f32⟩ : BufTy).Contents (Elt F)) (x14 : (⟨S128x128, .f32⟩ : BufTy).Contents (Elt F)) (x15 : (⟨S128, .f32⟩ : BufTy).Contents (Elt F)) (x16 : (⟨S128x64, .f32⟩ : BufTy).Contents (Elt F)) (x17 : (⟨S64, .f32⟩ : BufTy).Contents (Elt F)) (x18 : (⟨S64x32, .f32⟩ : BufTy).Contents (Elt F)) (x19 : (⟨S32, .f32⟩ : BufTy).Contents (Elt F)) (x20 : (⟨S128x128, .f32⟩ : BufTy).Contents (Elt F)) (x21 : (⟨S128, .f32⟩ : BufTy).Contents (Elt F)) (x22 : (⟨S128x64, .f32⟩ : BufTy).Contents (Elt F)) (x23 : (⟨S64, .f32⟩ : BufTy).Contents (Elt F)) (x24 : (⟨S64x32, .f32⟩ : BufTy).Contents (Elt F)) (x25 : (⟨S32, .f32⟩ : BufTy).Contents (Elt F)) : Prop where
  h_v5 : W (Proc.devRef .tc main_v5) = val_main_v5 (F := F) x5
  h_v7 : W (Proc.devRef .tc main_v7) = val_main_v7 (F := F) x5
  h_v35 : W (Proc.devRef .tc main_v35) = val_main_v35 (F := F) x3 x5
  h_v163 : W (Proc.devRef .tc main_v163) = val_main_v163 (F := F) x0 x2 x4 x6 x7 x8 x9
  h_arg1 : W (Proc.devRef .tc main_arg1) = x1
  h_arg10 : W (Proc.devRef .tc main_arg10) = x10
  h_arg11 : W (Proc.devRef .tc main_arg11) = x11
  h_arg12 : W (Proc.devRef .tc main_arg12) = x12
  h_arg13 : W (Proc.devRef .tc main_arg13) = x13
  h_arg14 : W (Proc.devRef .tc main_arg14) = x14
  h_arg15 : W (Proc.devRef .tc main_arg15) = x15
  h_arg16 : W (Proc.devRef .tc main_arg16) = x16
  h_arg17 : W (Proc.devRef .tc main_arg17) = x17
  h_arg18 : W (Proc.devRef .tc main_arg18) = x18
  h_arg19 : W (Proc.devRef .tc main_arg19) = x19
  h_arg20 : W (Proc.devRef .tc main_arg20) = x20
  h_arg21 : W (Proc.devRef .tc main_arg21) = x21
  h_arg22 : W (Proc.devRef .tc main_arg22) = x22
  h_arg23 : W (Proc.devRef .tc main_arg23) = x23
  h_arg24 : W (Proc.devRef .tc main_arg24) = x24
  h_arg25 : W (Proc.devRef .tc main_arg25) = x25

/-- The boundary after 9 of the twenty slices: 4 computed buffers and 17 arguments are still to be read. -/
structure Inv9 (W : Valuation τ sig (Elt F)) (x0 : (⟨S10000x128, .f32⟩ : BufTy).Contents (Elt F)) (x1 : (⟨S10000x128, .f32⟩ : BufTy).Contents (Elt F)) (x2 : (⟨S10000x10000, .f32⟩ : BufTy).Contents (Elt F)) (x3 : (⟨S10000x10000, .f32⟩ : BufTy).Contents (Elt F)) (x4 : (⟨S2x320000, .i32⟩ : BufTy).Contents (Elt F)) (x5 : (⟨S2x320000, .i32⟩ : BufTy).Contents (Elt F)) (x6 : (⟨S128x128, .f32⟩ : BufTy).Contents (Elt F)) (x7 : (⟨S128, .f32⟩ : BufTy).Contents (Elt F)) (x8 : (⟨S128x128, .f32⟩ : BufTy).Contents (Elt F)) (x9 : (⟨S128, .f32⟩ : BufTy).Contents (Elt F)) (x10 : (⟨S128x128, .f32⟩ : BufTy).Contents (Elt F)) (x11 : (⟨S128, .f32⟩ : BufTy).Contents (Elt F)) (x12 : (⟨S128x128, .f32⟩ : BufTy).Contents (Elt F)) (x13 : (⟨S128, .f32⟩ : BufTy).Contents (Elt F)) (x14 : (⟨S128x128, .f32⟩ : BufTy).Contents (Elt F)) (x15 : (⟨S128, .f32⟩ : BufTy).Contents (Elt F)) (x16 : (⟨S128x64, .f32⟩ : BufTy).Contents (Elt F)) (x17 : (⟨S64, .f32⟩ : BufTy).Contents (Elt F)) (x18 : (⟨S64x32, .f32⟩ : BufTy).Contents (Elt F)) (x19 : (⟨S32, .f32⟩ : BufTy).Contents (Elt F)) (x20 : (⟨S128x128, .f32⟩ : BufTy).Contents (Elt F)) (x21 : (⟨S128, .f32⟩ : BufTy).Contents (Elt F)) (x22 : (⟨S128x64, .f32⟩ : BufTy).Contents (Elt F)) (x23 : (⟨S64, .f32⟩ : BufTy).Contents (Elt F)) (x24 : (⟨S64x32, .f32⟩ : BufTy).Contents (Elt F)) (x25 : (⟨S32, .f32⟩ : BufTy).Contents (Elt F)) : Prop where
  h_v5 : W (Proc.devRef .tc main_v5) = val_main_v5 (F := F) x5
  h_v7 : W (Proc.devRef .tc main_v7) = val_main_v7 (F := F) x5
  h_v35 : W (Proc.devRef .tc main_v35) = val_main_v35 (F := F) x3 x5
  h_v164 : W (Proc.devRef .tc main_v164) = val_main_v164 (F := F) x0 x2 x4 x6 x7 x8 x9
  h_arg1 : W (Proc.devRef .tc main_arg1) = x1
  h_arg10 : W (Proc.devRef .tc main_arg10) = x10
  h_arg11 : W (Proc.devRef .tc main_arg11) = x11
  h_arg12 : W (Proc.devRef .tc main_arg12) = x12
  h_arg13 : W (Proc.devRef .tc main_arg13) = x13
  h_arg14 : W (Proc.devRef .tc main_arg14) = x14
  h_arg15 : W (Proc.devRef .tc main_arg15) = x15
  h_arg16 : W (Proc.devRef .tc main_arg16) = x16
  h_arg17 : W (Proc.devRef .tc main_arg17) = x17
  h_arg18 : W (Proc.devRef .tc main_arg18) = x18
  h_arg19 : W (Proc.devRef .tc main_arg19) = x19
  h_arg20 : W (Proc.devRef .tc main_arg20) = x20
  h_arg21 : W (Proc.devRef .tc main_arg21) = x21
  h_arg22 : W (Proc.devRef .tc main_arg22) = x22
  h_arg23 : W (Proc.devRef .tc main_arg23) = x23
  h_arg24 : W (Proc.devRef .tc main_arg24) = x24
  h_arg25 : W (Proc.devRef .tc main_arg25) = x25

/-- The boundary after 10 of the twenty slices: 8 computed buffers and 15 arguments are still to be read. -/
structure Inv10 (W : Valuation τ sig (Elt F)) (x0 : (⟨S10000x128, .f32⟩ : BufTy).Contents (Elt F)) (x1 : (⟨S10000x128, .f32⟩ : BufTy).Contents (Elt F)) (x2 : (⟨S10000x10000, .f32⟩ : BufTy).Contents (Elt F)) (x3 : (⟨S10000x10000, .f32⟩ : BufTy).Contents (Elt F)) (x4 : (⟨S2x320000, .i32⟩ : BufTy).Contents (Elt F)) (x5 : (⟨S2x320000, .i32⟩ : BufTy).Contents (Elt F)) (x6 : (⟨S128x128, .f32⟩ : BufTy).Contents (Elt F)) (x7 : (⟨S128, .f32⟩ : BufTy).Contents (Elt F)) (x8 : (⟨S128x128, .f32⟩ : BufTy).Contents (Elt F)) (x9 : (⟨S128, .f32⟩ : BufTy).Contents (Elt F)) (x10 : (⟨S128x128, .f32⟩ : BufTy).Contents (Elt F)) (x11 : (⟨S128, .f32⟩ : BufTy).Contents (Elt F)) (x12 : (⟨S128x128, .f32⟩ : BufTy).Contents (Elt F)) (x13 : (⟨S128, .f32⟩ : BufTy).Contents (Elt F)) (x14 : (⟨S128x128, .f32⟩ : BufTy).Contents (Elt F)) (x15 : (⟨S128, .f32⟩ : BufTy).Contents (Elt F)) (x16 : (⟨S128x64, .f32⟩ : BufTy).Contents (Elt F)) (x17 : (⟨S64, .f32⟩ : BufTy).Contents (Elt F)) (x18 : (⟨S64x32, .f32⟩ : BufTy).Contents (Elt F)) (x19 : (⟨S32, .f32⟩ : BufTy).Contents (Elt F)) (x20 : (⟨S128x128, .f32⟩ : BufTy).Contents (Elt F)) (x21 : (⟨S128, .f32⟩ : BufTy).Contents (Elt F)) (x22 : (⟨S128x64, .f32⟩ : BufTy).Contents (Elt F)) (x23 : (⟨S64, .f32⟩ : BufTy).Contents (Elt F)) (x24 : (⟨S64x32, .f32⟩ : BufTy).Contents (Elt F)) (x25 : (⟨S32, .f32⟩ : BufTy).Contents (Elt F)) : Prop where
  h_v5 : W (Proc.devRef .tc main_v5) = val_main_v5 (F := F) x5
  h_v7 : W (Proc.devRef .tc main_v7) = val_main_v7 (F := F) x5
  h_v35 : W (Proc.devRef .tc main_v35) = val_main_v35 (F := F) x3 x5
  h_v164 : W (Proc.devRef .tc main_v164) = val_main_v164 (F := F) x0 x2 x4 x6 x7 x8 x9
  h_v165 : W (Proc.devRef .tc main_v165) = val_main_v165 (F := F) x1 x10
  h_v168 : W (Proc.devRef .tc main_v168) = val_main_v168 (F := F) x5
  h_v190 : W (Proc.devRef .tc main_v190) = val_main_v190 (F := F) x3 x5
  h_v196 : W (Proc.devRef .tc main_v196) = val_main_v196 (F := F) x5
  h_arg11 : W (Proc.devRef .tc main_arg11) = x11
  h_arg12 : W (Proc.devRef .tc main_arg12) = x12
  h_arg13 : W (Proc.devRef .tc main_arg13) = x13
  h_arg14 : W (Proc.devRef .tc main_arg14) = x14
  h_arg15 : W (Proc.devRef .tc main_arg15) = x15
  h_arg16 : W (Proc.devRef .tc main_arg16) = x16
  h_arg17 : W (Proc.devRef .tc main_arg17) = x17
  h_arg18 : W (Proc.devRef .tc main_arg18) = x18
  h_arg19 : W (Proc.devRef .tc main_arg19) = x19
  h_arg20 : W (Proc.devRef .tc main_arg20) = x20
  h_arg21 : W (Proc.devRef .tc main_arg21) = x21
  h_arg22 : W (Proc.devRef .tc main_arg22) = x22
  h_arg23 : W (Proc.devRef .tc main_arg23) = x23
  h_arg24 : W (Proc.devRef .tc main_arg24) = x24
  h_arg25 : W (Proc.devRef .tc main_arg25) = x25

/-- The boundary after 11 of the twenty slices: 5 computed buffers and 14 arguments are still to be read. -/
structure Inv11 (W : Valuation τ sig (Elt F)) (x0 : (⟨S10000x128, .f32⟩ : BufTy).Contents (Elt F)) (x1 : (⟨S10000x128, .f32⟩ : BufTy).Contents (Elt F)) (x2 : (⟨S10000x10000, .f32⟩ : BufTy).Contents (Elt F)) (x3 : (⟨S10000x10000, .f32⟩ : BufTy).Contents (Elt F)) (x4 : (⟨S2x320000, .i32⟩ : BufTy).Contents (Elt F)) (x5 : (⟨S2x320000, .i32⟩ : BufTy).Contents (Elt F)) (x6 : (⟨S128x128, .f32⟩ : BufTy).Contents (Elt F)) (x7 : (⟨S128, .f32⟩ : BufTy).Contents (Elt F)) (x8 : (⟨S128x128, .f32⟩ : BufTy).Contents (Elt F)) (x9 : (⟨S128, .f32⟩ : BufTy).Contents (Elt F)) (x10 : (⟨S128x128, .f32⟩ : BufTy).Contents (Elt F)) (x11 : (⟨S128, .f32⟩ : BufTy).Contents (Elt F)) (x12 : (⟨S128x128, .f32⟩ : BufTy).Contents (Elt F)) (x13 : (⟨S128, .f32⟩ : BufTy).Contents (Elt F)) (x14 : (⟨S128x128, .f32⟩ : BufTy).Contents (Elt F)) (x15 : (⟨S128, .f32⟩ : BufTy).Contents (Elt F)) (x16 : (⟨S128x64, .f32⟩ : BufTy).Contents (Elt F)) (x17 : (⟨S64, .f32⟩ : BufTy).Contents (Elt F)) (x18 : (⟨S64x32, .f32⟩ : BufTy).Contents (Elt F)) (x19 : (⟨S32, .f32⟩ : BufTy).Contents (Elt F)) (x20 : (⟨S128x128, .f32⟩ : BufTy).Contents (Elt F)) (x21 : (⟨S128, .f32⟩ : BufTy).Contents (Elt F)) (x22 : (⟨S128x64, .f32⟩ : BufTy).Contents (Elt F)) (x23 : (⟨S64, .f32⟩ : BufTy).Contents (Elt F)) (x24 : (⟨S64x32, .f32⟩ : BufTy).Contents (Elt F)) (x25 : (⟨S32, .f32⟩ : BufTy).Contents (Elt F)) : Prop where
  h_v5 : W (Proc.devRef .tc main_v5) = val_main_v5 (F := F) x5
  h_v7 : W (Proc.devRef .tc main_v7) = val_main_v7 (F := F) x5
  h_v35 : W (Proc.devRef .tc main_v35) = val_main_v35 (F := F) x3 x5
  h_v164 : W (Proc.devRef .tc main_v164) = val_main_v164 (F := F) x0 x2 x4 x6 x7 x8 x9
  h_v206 : W (Proc.devRef .tc main_v206) = val_main_v206 (F := F) x1 x3 x5 x10 x11
  h_arg12 : W (Proc.devRef .tc main_arg12) = x12
  h_arg13 : W (Proc.devRef .tc main_arg13) = x13
  h_arg14 : W (Proc.devRef .tc main_arg14) = x14
  h_arg15 : W (Proc.devRef .tc main_arg15) = x15
  h_arg16 : W (Proc.devRef .tc main_arg16) = x16
  h_arg17 : W (Proc.devRef .tc main_arg17) = x17
  h_arg18 : W (Proc.devRef .tc main_arg18) = x18
  h_arg19 : W (Proc.devRef .tc main_arg19) = x19
  h_arg20 : W (Proc.devRef .tc main_arg20) = x20
  h_arg21 : W (Proc.devRef .tc main_arg21) = x21
  h_arg22 : W (Proc.devRef .tc main_arg22) = x22
  h_arg23 : W (Proc.devRef .tc main_arg23) = x23
  h_arg24 : W (Proc.devRef .tc main_arg24) = x24
  h_arg25 : W (Proc.devRef .tc main_arg25) = x25

/-- The boundary after 12 of the twenty slices: 5 computed buffers and 14 arguments are still to be read. -/
structure Inv12 (W : Valuation τ sig (Elt F)) (x0 : (⟨S10000x128, .f32⟩ : BufTy).Contents (Elt F)) (x1 : (⟨S10000x128, .f32⟩ : BufTy).Contents (Elt F)) (x2 : (⟨S10000x10000, .f32⟩ : BufTy).Contents (Elt F)) (x3 : (⟨S10000x10000, .f32⟩ : BufTy).Contents (Elt F)) (x4 : (⟨S2x320000, .i32⟩ : BufTy).Contents (Elt F)) (x5 : (⟨S2x320000, .i32⟩ : BufTy).Contents (Elt F)) (x6 : (⟨S128x128, .f32⟩ : BufTy).Contents (Elt F)) (x7 : (⟨S128, .f32⟩ : BufTy).Contents (Elt F)) (x8 : (⟨S128x128, .f32⟩ : BufTy).Contents (Elt F)) (x9 : (⟨S128, .f32⟩ : BufTy).Contents (Elt F)) (x10 : (⟨S128x128, .f32⟩ : BufTy).Contents (Elt F)) (x11 : (⟨S128, .f32⟩ : BufTy).Contents (Elt F)) (x12 : (⟨S128x128, .f32⟩ : BufTy).Contents (Elt F)) (x13 : (⟨S128, .f32⟩ : BufTy).Contents (Elt F)) (x14 : (⟨S128x128, .f32⟩ : BufTy).Contents (Elt F)) (x15 : (⟨S128, .f32⟩ : BufTy).Contents (Elt F)) (x16 : (⟨S128x64, .f32⟩ : BufTy).Contents (Elt F)) (x17 : (⟨S64, .f32⟩ : BufTy).Contents (Elt F)) (x18 : (⟨S64x32, .f32⟩ : BufTy).Contents (Elt F)) (x19 : (⟨S32, .f32⟩ : BufTy).Contents (Elt F)) (x20 : (⟨S128x128, .f32⟩ : BufTy).Contents (Elt F)) (x21 : (⟨S128, .f32⟩ : BufTy).Contents (Elt F)) (x22 : (⟨S128x64, .f32⟩ : BufTy).Contents (Elt F)) (x23 : (⟨S64, .f32⟩ : BufTy).Contents (Elt F)) (x24 : (⟨S64x32, .f32⟩ : BufTy).Contents (Elt F)) (x25 : (⟨S32, .f32⟩ : BufTy).Contents (Elt F)) : Prop where
  h_v5 : W (Proc.devRef .tc main_v5) = val_main_v5 (F := F) x5
  h_v7 : W (Proc.devRef .tc main_v7) = val_main_v7 (F := F) x5
  h_v35 : W (Proc.devRef .tc main_v35) = val_main_v35 (F := F) x3 x5
  h_v164 : W (Proc.devRef .tc main_v164) = val_main_v164 (F := F) x0 x2 x4 x6 x7 x8 x9
  h_v207 : W (Proc.devRef .tc main_v207) = val_main_v207 (F := F) x1 x3 x5 x10 x11
  h_arg12 : W (Proc.devRef .tc main_arg12) = x12
  h_arg13 : W (Proc.devRef .tc main_arg13) = x13
  h_arg14 : W (Proc.devRef .tc main_arg14) = x14
  h_arg15 : W (Proc.devRef .tc main_arg15) = x15
  h_arg16 : W (Proc.devRef .tc main_arg16) = x16
  h_arg17 : W (Proc.devRef .tc main_arg17) = x17
  h_arg18 : W (Proc.devRef .tc main_arg18) = x18
  h_arg19 : W (Proc.devRef .tc main_arg19) = x19
  h_arg20 : W (Proc.devRef .tc main_arg20) = x20
  h_arg21 : W (Proc.devRef .tc main_arg21) = x21
  h_arg22 : W (Proc.devRef .tc main_arg22) = x22
  h_arg23 : W (Proc.devRef .tc main_arg23) = x23
  h_arg24 : W (Proc.devRef .tc main_arg24) = x24
  h_arg25 : W (Proc.devRef .tc main_arg25) = x25

/-- The boundary after 13 of the twenty slices: 5 computed buffers and 14 arguments are still to be read. -/
structure Inv13 (W : Valuation τ sig (Elt F)) (x0 : (⟨S10000x128, .f32⟩ : BufTy).Contents (Elt F)) (x1 : (⟨S10000x128, .f32⟩ : BufTy).Contents (Elt F)) (x2 : (⟨S10000x10000, .f32⟩ : BufTy).Contents (Elt F)) (x3 : (⟨S10000x10000, .f32⟩ : BufTy).Contents (Elt F)) (x4 : (⟨S2x320000, .i32⟩ : BufTy).Contents (Elt F)) (x5 : (⟨S2x320000, .i32⟩ : BufTy).Contents (Elt F)) (x6 : (⟨S128x128, .f32⟩ : BufTy).Contents (Elt F)) (x7 : (⟨S128, .f32⟩ : BufTy).Contents (Elt F)) (x8 : (⟨S128x128, .f32⟩ : BufTy).Contents (Elt F)) (x9 : (⟨S128, .f32⟩ : BufTy).Contents (Elt F)) (x10 : (⟨S128x128, .f32⟩ : BufTy).Contents (Elt F)) (x11 : (⟨S128, .f32⟩ : BufTy).Contents (Elt F)) (x12 : (⟨S128x128, .f32⟩ : BufTy).Contents (Elt F)) (x13 : (⟨S128, .f32⟩ : BufTy).Contents (Elt F)) (x14 : (⟨S128x128, .f32⟩ : BufTy).Contents (Elt F)) (x15 : (⟨S128, .f32⟩ : BufTy).Contents (Elt F)) (x16 : (⟨S128x64, .f32⟩ : BufTy).Contents (Elt F)) (x17 : (⟨S64, .f32⟩ : BufTy).Contents (Elt F)) (x18 : (⟨S64x32, .f32⟩ : BufTy).Contents (Elt F)) (x19 : (⟨S32, .f32⟩ : BufTy).Contents (Elt F)) (x20 : (⟨S128x128, .f32⟩ : BufTy).Contents (Elt F)) (x21 : (⟨S128, .f32⟩ : BufTy).Contents (Elt F)) (x22 : (⟨S128x64, .f32⟩ : BufTy).Contents (Elt F)) (x23 : (⟨S64, .f32⟩ : BufTy).Contents (Elt F)) (x24 : (⟨S64x32, .f32⟩ : BufTy).Contents (Elt F)) (x25 : (⟨S32, .f32⟩ : BufTy).Contents (Elt F)) : Prop where
  h_v5 : W (Proc.devRef .tc main_v5) = val_main_v5 (F := F) x5
  h_v7 : W (Proc.devRef .tc main_v7) = val_main_v7 (F := F) x5
  h_v35 : W (Proc.devRef .tc main_v35) = val_main_v35 (F := F) x3 x5
  h_v164 : W (Proc.devRef .tc main_v164) = val_main_v164 (F := F) x0 x2 x4 x6 x7 x8 x9
  h_v246 : W (Proc.devRef .tc main_v246) = val_main_v246 (F := F) x1 x3 x5 x10 x11 x12
  h_arg12 : W (Proc.devRef .tc main_arg12) = x12
  h_arg13 : W (Proc.devRef .tc main_arg13) = x13
  h_arg14 : W (Proc.devRef .tc main_arg14) = x14
  h_arg15 : W (Proc.devRef .tc main_arg15) = x15
  h_arg16 : W (Proc.devRef .tc main_arg16) = x16
  h_arg17 : W (Proc.devRef .tc main_arg17) = x17
  h_arg18 : W (Proc.devRef .tc main_arg18) = x18
  h_arg19 : W (Proc.devRef .tc main_arg19) = x19
  h_arg20 : W (Proc.devRef .tc main_arg20) = x20
  h_arg21 : W (Proc.devRef .tc main_arg21) = x21
  h_arg22 : W (Proc.devRef .tc main_arg22) = x22
  h_arg23 : W (Proc.devRef .tc main_arg23) = x23
  h_arg24 : W (Proc.devRef .tc main_arg24) = x24
  h_arg25 : W (Proc.devRef .tc main_arg25) = x25

/-- The boundary after 14 of the twenty slices: 5 computed buffers and 14 arguments are still to be read. -/
structure Inv14 (W : Valuation τ sig (Elt F)) (x0 : (⟨S10000x128, .f32⟩ : BufTy).Contents (Elt F)) (x1 : (⟨S10000x128, .f32⟩ : BufTy).Contents (Elt F)) (x2 : (⟨S10000x10000, .f32⟩ : BufTy).Contents (Elt F)) (x3 : (⟨S10000x10000, .f32⟩ : BufTy).Contents (Elt F)) (x4 : (⟨S2x320000, .i32⟩ : BufTy).Contents (Elt F)) (x5 : (⟨S2x320000, .i32⟩ : BufTy).Contents (Elt F)) (x6 : (⟨S128x128, .f32⟩ : BufTy).Contents (Elt F)) (x7 : (⟨S128, .f32⟩ : BufTy).Contents (Elt F)) (x8 : (⟨S128x128, .f32⟩ : BufTy).Contents (Elt F)) (x9 : (⟨S128, .f32⟩ : BufTy).Contents (Elt F)) (x10 : (⟨S128x128, .f32⟩ : BufTy).Contents (Elt F)) (x11 : (⟨S128, .f32⟩ : BufTy).Contents (Elt F)) (x12 : (⟨S128x128, .f32⟩ : BufTy).Contents (Elt F)) (x13 : (⟨S128, .f32⟩ : BufTy).Contents (Elt F)) (x14 : (⟨S128x128, .f32⟩ : BufTy).Contents (Elt F)) (x15 : (⟨S128, .f32⟩ : BufTy).Contents (Elt F)) (x16 : (⟨S128x64, .f32⟩ : BufTy).Contents (Elt F)) (x17 : (⟨S64, .f32⟩ : BufTy).Contents (Elt F)) (x18 : (⟨S64x32, .f32⟩ : BufTy).Contents (Elt F)) (x19 : (⟨S32, .f32⟩ : BufTy).Contents (Elt F)) (x20 : (⟨S128x128, .f32⟩ : BufTy).Contents (Elt F)) (x21 : (⟨S128, .f32⟩ : BufTy).Contents (Elt F)) (x22 : (⟨S128x64, .f32⟩ : BufTy).Contents (Elt F)) (x23 : (⟨S64, .f32⟩ : BufTy).Contents (Elt F)) (x24 : (⟨S64x32, .f32⟩ : BufTy).Contents (Elt F)) (x25 : (⟨S32, .f32⟩ : BufTy).Contents (Elt F)) : Prop where
  h_v5 : W (Proc.devRef .tc main_v5) = val_main_v5 (F := F) x5
  h_v7 : W (Proc.devRef .tc main_v7) = val_main_v7 (F := F) x5
  h_v35 : W (Proc.devRef .tc main_v35) = val_main_v35 (F := F) x3 x5
  h_v164 : W (Proc.devRef .tc main_v164) = val_main_v164 (F := F) x0 x2 x4 x6 x7 x8 x9
  h_v249 : W (Proc.devRef .tc main_v249) = val_main_v249 (F := F) x1 x3 x5 x10 x11 x12 x13
  h_arg12 : W (Proc.devRef .tc main_arg12) = x12
  h_arg13 : W (Proc.devRef .tc main_arg13) = x13
  h_arg14 : W (Proc.devRef .tc main_arg14) = x14
  h_arg15 : W (Proc.devRef .tc main_arg15) = x15
  h_arg16 : W (Proc.devRef .tc main_arg16) = x16
  h_arg17 : W (Proc.devRef .tc main_arg17) = x17
  h_arg18 : W (Proc.devRef .tc main_arg18) = x18
  h_arg19 : W (Proc.devRef .tc main_arg19) = x19
  h_arg20 : W (Proc.devRef .tc main_arg20) = x20
  h_arg21 : W (Proc.devRef .tc main_arg21) = x21
  h_arg22 : W (Proc.devRef .tc main_arg22) = x22
  h_arg23 : W (Proc.devRef .tc main_arg23) = x23
  h_arg24 : W (Proc.devRef .tc main_arg24) = x24
  h_arg25 : W (Proc.devRef .tc main_arg25) = x25

/-- The boundary after 15 of the twenty slices: 5 computed buffers and 14 arguments are still to be read. -/
structure Inv15 (W : Valuation τ sig (Elt F)) (x0 : (⟨S10000x128, .f32⟩ : BufTy).Contents (Elt F)) (x1 : (⟨S10000x128, .f32⟩ : BufTy).Contents (Elt F)) (x2 : (⟨S10000x10000, .f32⟩ : BufTy).Contents (Elt F)) (x3 : (⟨S10000x10000, .f32⟩ : BufTy).Contents (Elt F)) (x4 : (⟨S2x320000, .i32⟩ : BufTy).Contents (Elt F)) (x5 : (⟨S2x320000, .i32⟩ : BufTy).Contents (Elt F)) (x6 : (⟨S128x128, .f32⟩ : BufTy).Contents (Elt F)) (x7 : (⟨S128, .f32⟩ : BufTy).Contents (Elt F)) (x8 : (⟨S128x128, .f32⟩ : BufTy).Contents (Elt F)) (x9 : (⟨S128, .f32⟩ : BufTy).Contents (Elt F)) (x10 : (⟨S128x128, .f32⟩ : BufTy).Contents (Elt F)) (x11 : (⟨S128, .f32⟩ : BufTy).Contents (Elt F)) (x12 : (⟨S128x128, .f32⟩ : BufTy).Contents (Elt F)) (x13 : (⟨S128, .f32⟩ : BufTy).Contents (Elt F)) (x14 : (⟨S128x128, .f32⟩ : BufTy).Contents (Elt F)) (x15 : (⟨S128, .f32⟩ : BufTy).Contents (Elt F)) (x16 : (⟨S128x64, .f32⟩ : BufTy).Contents (Elt F)) (x17 : (⟨S64, .f32⟩ : BufTy).Contents (Elt F)) (x18 : (⟨S64x32, .f32⟩ : BufTy).Contents (Elt F)) (x19 : (⟨S32, .f32⟩ : BufTy).Contents (Elt F)) (x20 : (⟨S128x128, .f32⟩ : BufTy).Contents (Elt F)) (x21 : (⟨S128, .f32⟩ : BufTy).Contents (Elt F)) (x22 : (⟨S128x64, .f32⟩ : BufTy).Contents (Elt F)) (x23 : (⟨S64, .f32⟩ : BufTy).Contents (Elt F)) (x24 : (⟨S64x32, .f32⟩ : BufTy).Contents (Elt F)) (x25 : (⟨S32, .f32⟩ : BufTy).Contents (Elt F)) : Prop where
  h_v5 : W (Proc.devRef .tc main_v5) = val_main_v5 (F := F) x5
  h_v7 : W (Proc.devRef .tc main_v7) = val_main_v7 (F := F) x5
  h_v35 : W (Proc.devRef .tc main_v35) = val_main_v35 (F := F) x3 x5
  h_v164 : W (Proc.devRef .tc main_v164) = val_main_v164 (F := F) x0 x2 x4 x6 x7 x8 x9
  h_v250 : W (Proc.devRef .tc main_v250) = val_main_v250 (F := F) x1 x3 x5 x10 x11 x12 x13
  h_arg12 : W (Proc.devRef .tc main_arg12) = x12
  h_arg13 : W (Proc.devRef .tc main_arg13) = x13
  h_arg14 : W (Proc.devRef .tc main_arg14) = x14
  h_arg15 : W (Proc.devRef .tc main_arg15) = x15
  h_arg16 : W (Proc.devRef .tc main_arg16) = x16
  h_arg17 : W (Proc.devRef .tc main_arg17) = x17
  h_arg18 : W (Proc.devRef .tc main_arg18) = x18
  h_arg19 : W (Proc.devRef .tc main_arg19) = x19
  h_arg20 : W (Proc.devRef .tc main_arg20) = x20
  h_arg21 : W (Proc.devRef .tc main_arg21) = x21
  h_arg22 : W (Proc.devRef .tc main_arg22) = x22
  h_arg23 : W (Proc.devRef .tc main_arg23) = x23
  h_arg24 : W (Proc.devRef .tc main_arg24) = x24
  h_arg25 : W (Proc.devRef .tc main_arg25) = x25

/-- The boundary after 16 of the twenty slices: 2 computed buffers and 12 arguments are still to be read. -/
structure Inv16 (W : Valuation τ sig (Elt F)) (x0 : (⟨S10000x128, .f32⟩ : BufTy).Contents (Elt F)) (x1 : (⟨S10000x128, .f32⟩ : BufTy).Contents (Elt F)) (x2 : (⟨S10000x10000, .f32⟩ : BufTy).Contents (Elt F)) (x3 : (⟨S10000x10000, .f32⟩ : BufTy).Contents (Elt F)) (x4 : (⟨S2x320000, .i32⟩ : BufTy).Contents (Elt F)) (x5 : (⟨S2x320000, .i32⟩ : BufTy).Contents (Elt F)) (x6 : (⟨S128x128, .f32⟩ : BufTy).Contents (Elt F)) (x7 : (⟨S128, .f32⟩ : BufTy).Contents (Elt F)) (x8 : (⟨S128x128, .f32⟩ : BufTy).Contents (Elt F)) (x9 : (⟨S128, .f32⟩ : BufTy).Contents (Elt F)) (x10 : (⟨S128x128, .f32⟩ : BufTy).Contents (Elt F)) (x11 : (⟨S128, .f32⟩ : BufTy).Contents (Elt F)) (x12 : (⟨S128x128, .f32⟩ : BufTy).Contents (Elt F)) (x13 : (⟨S128, .f32⟩ : BufTy).Contents (Elt F)) (x14 : (⟨S128x128, .f32⟩ : BufTy).Contents (Elt F)) (x15 : (⟨S128, .f32⟩ : BufTy).Contents (Elt F)) (x16 : (⟨S128x64, .f32⟩ : BufTy).Contents (Elt F)) (x17 : (⟨S64, .f32⟩ : BufTy).Contents (Elt F)) (x18 : (⟨S64x32, .f32⟩ : BufTy).Contents (Elt F)) (x19 : (⟨S32, .f32⟩ : BufTy).Contents (Elt F)) (x20 : (⟨S128x128, .f32⟩ : BufTy).Contents (Elt F)) (x21 : (⟨S128, .f32⟩ : BufTy).Contents (Elt F)) (x22 : (⟨S128x64, .f32⟩ : BufTy).Contents (Elt F)) (x23 : (⟨S64, .f32⟩ : BufTy).Contents (Elt F)) (x24 : (⟨S64x32, .f32⟩ : BufTy).Contents (Elt F)) (x25 : (⟨S32, .f32⟩ : BufTy).Contents (Elt F)) : Prop where
  h_v164 : W (Proc.devRef .tc main_v164) = val_main_v164 (F := F) x0 x2 x4 x6 x7 x8 x9
  h_v292 : W (Proc.devRef .tc main_v292) = val_main_v292 (F := F) x1 x3 x5 x10 x11 x12 x13
  h_arg14 : W (Proc.devRef .tc main_arg14) = x14
  h_arg15 : W (Proc.devRef .tc main_arg15) = x15
  h_arg16 : W (Proc.devRef .tc main_arg16) = x16
  h_arg17 : W (Proc.devRef .tc main_arg17) = x17
  h_arg18 : W (Proc.devRef .tc main_arg18) = x18
  h_arg19 : W (Proc.devRef .tc main_arg19) = x19
  h_arg20 : W (Proc.devRef .tc main_arg20) = x20
  h_arg21 : W (Proc.devRef .tc main_arg21) = x21
  h_arg22 : W (Proc.devRef .tc main_arg22) = x22
  h_arg23 : W (Proc.devRef .tc main_arg23) = x23
  h_arg24 : W (Proc.devRef .tc main_arg24) = x24
  h_arg25 : W (Proc.devRef .tc main_arg25) = x25

/-- The boundary after 17 of the twenty slices: 2 computed buffers and 12 arguments are still to be read. -/
structure Inv17 (W : Valuation τ sig (Elt F)) (x0 : (⟨S10000x128, .f32⟩ : BufTy).Contents (Elt F)) (x1 : (⟨S10000x128, .f32⟩ : BufTy).Contents (Elt F)) (x2 : (⟨S10000x10000, .f32⟩ : BufTy).Contents (Elt F)) (x3 : (⟨S10000x10000, .f32⟩ : BufTy).Contents (Elt F)) (x4 : (⟨S2x320000, .i32⟩ : BufTy).Contents (Elt F)) (x5 : (⟨S2x320000, .i32⟩ : BufTy).Contents (Elt F)) (x6 : (⟨S128x128, .f32⟩ : BufTy).Contents (Elt F)) (x7 : (⟨S128, .f32⟩ : BufTy).Contents (Elt F)) (x8 : (⟨S128x128, .f32⟩ : BufTy).Contents (Elt F)) (x9 : (⟨S128, .f32⟩ : BufTy).Contents (Elt F)) (x10 : (⟨S128x128, .f32⟩ : BufTy).Contents (Elt F)) (x11 : (⟨S128, .f32⟩ : BufTy).Contents (Elt F)) (x12 : (⟨S128x128, .f32⟩ : BufTy).Contents (Elt F)) (x13 : (⟨S128, .f32⟩ : BufTy).Contents (Elt F)) (x14 : (⟨S128x128, .f32⟩ : BufTy).Contents (Elt F)) (x15 : (⟨S128, .f32⟩ : BufTy).Contents (Elt F)) (x16 : (⟨S128x64, .f32⟩ : BufTy).Contents (Elt F)) (x17 : (⟨S64, .f32⟩ : BufTy).Contents (Elt F)) (x18 : (⟨S64x32, .f32⟩ : BufTy).Contents (Elt F)) (x19 : (⟨S32, .f32⟩ : BufTy).Contents (Elt F)) (x20 : (⟨S128x128, .f32⟩ : BufTy).Contents (Elt F)) (x21 : (⟨S128, .f32⟩ : BufTy).Contents (Elt F)) (x22 : (⟨S128x64, .f32⟩ : BufTy).Contents (Elt F)) (x23 : (⟨S64, .f32⟩ : BufTy).Contents (Elt F)) (x24 : (⟨S64x32, .f32⟩ : BufTy).Contents (Elt F)) (x25 : (⟨S32, .f32⟩ : BufTy).Contents (Elt F)) : Prop where
  h_v164 : W (Proc.devRef .tc main_v164) = val_main_v164 (F := F) x0 x2 x4 x6 x7 x8 x9
  h_v293 : W (Proc.devRef .tc main_v293) = val_main_v293 (F := F) x1 x3 x5 x10 x11 x12 x13
  h_arg14 : W (Proc.devRef .tc main_arg14) = x14
  h_arg15 : W (Proc.devRef .tc main_arg15) = x15
  h_arg16 : W (Proc.devRef .tc main_arg16) = x16
  h_arg17 : W (Proc.devRef .tc main_arg17) = x17
  h_arg18 : W (Proc.devRef .tc main_arg18) = x18
  h_arg19 : W (Proc.devRef .tc main_arg19) = x19
  h_arg20 : W (Proc.devRef .tc main_arg20) = x20
  h_arg21 : W (Proc.devRef .tc main_arg21) = x21
  h_arg22 : W (Proc.devRef .tc main_arg22) = x22
  h_arg23 : W (Proc.devRef .tc main_arg23) = x23
  h_arg24 : W (Proc.devRef .tc main_arg24) = x24
  h_arg25 : W (Proc.devRef .tc main_arg25) = x25

/-- The boundary after 18 of the twenty slices: 2 computed buffers and 6 arguments are still to be read. -/
structure Inv18 (W : Valuation τ sig (Elt F)) (x0 : (⟨S10000x128, .f32⟩ : BufTy).Contents (Elt F)) (x1 : (⟨S10000x128, .f32⟩ : BufTy).Contents (Elt F)) (x2 : (⟨S10000x10000, .f32⟩ : BufTy).Contents (Elt F)) (x3 : (⟨S10000x10000, .f32⟩ : BufTy).Contents (Elt F)) (x4 : (⟨S2x320000, .i32⟩ : BufTy).Contents (Elt F)) (x5 : (⟨S2x320000, .i32⟩ : BufTy).Contents (Elt F)) (x6 : (⟨S128x128, .f32⟩ : BufTy).Contents (Elt F)) (x7 : (⟨S128, .f32⟩ : BufTy).Contents (Elt F)) (x8 : (⟨S128x128, .f32⟩ : BufTy).Contents (Elt F)) (x9 : (⟨S128, .f32⟩ : BufTy).Contents (Elt F)) (x10 : (⟨S128x128, .f32⟩ : BufTy).Contents (Elt F)) (x11 : (⟨S128, .f32⟩ : BufTy).Contents (Elt F)) (x12 : (⟨S128x128, .f32⟩ : BufTy).Contents (Elt F)) (x13 : (⟨S128, .f32⟩ : BufTy).Contents (Elt F)) (x14 : (⟨S128x128, .f32⟩ : BufTy).Contents (Elt F)) (x15 : (⟨S128, .f32⟩ : BufTy).Contents (Elt F)) (x16 : (⟨S128x64, .f32⟩ : BufTy).Contents (Elt F)) (x17 : (⟨S64, .f32⟩ : BufTy).Contents (Elt F)) (x18 : (⟨S64x32, .f32⟩ : BufTy).Contents (Elt F)) (x19 : (⟨S32, .f32⟩ : BufTy).Contents (Elt F)) (x20 : (⟨S128x128, .f32⟩ : BufTy).Contents (Elt F)) (x21 : (⟨S128, .f32⟩ : BufTy).Contents (Elt F)) (x22 : (⟨S128x64, .f32⟩ : BufTy).Contents (Elt F)) (x23 : (⟨S64, .f32⟩ : BufTy).Contents (Elt F)) (x24 : (⟨S64x32, .f32⟩ : BufTy).Contents (Elt F)) (x25 : (⟨S32, .f32⟩ : BufTy).Contents (Elt F)) : Prop where
  h_v293 : W (Proc.devRef .tc main_v293) = val_main_v293 (F := F) x1 x3 x5 x10 x11 x12 x13
  h_v308 : W (Proc.devRef .tc main_v308) = val_main_v308 (F := F) x0 x2 x4 x6 x7 x8 x9 x14 x15 x16 x17 x18 x19
  h_arg20 : W (Proc.devRef .tc main_arg20) = x20
  h_arg21 : W (Proc.devRef .tc main_arg21) = x21
  h_arg22 : W (Proc.devRef .tc main_arg22) = x22
  h_arg23 : W (Proc.devRef .tc main_arg23) = x23
  h_arg24 : W (Proc.devRef .tc main_arg24) = x24
  h_arg25 : W (Proc.devRef .tc main_arg25) = x25

/-- The boundary after 19 of the twenty slices: 2 computed buffers and 0 arguments are still to be read. -/
structure Inv19 (W : Valuation τ sig (Elt F)) (x0 : (⟨S10000x128, .f32⟩ : BufTy).Contents (Elt F)) (x1 : (⟨S10000x128, .f32⟩ : BufTy).Contents (Elt F)) (x2 : (⟨S10000x10000, .f32⟩ : BufTy).Contents (Elt F)) (x3 : (⟨S10000x10000, .f32⟩ : BufTy).Contents (Elt F)) (x4 : (⟨S2x320000, .i32⟩ : BufTy).Contents (Elt F)) (x5 : (⟨S2x320000, .i32⟩ : BufTy).Contents (Elt F)) (x6 : (⟨S128x128, .f32⟩ : BufTy).Contents (Elt F)) (x7 : (⟨S128, .f32⟩ : BufTy).Contents (Elt F)) (x8 : (⟨S128x128, .f32⟩ : BufTy).Contents (Elt F)) (x9 : (⟨S128, .f32⟩ : BufTy).Contents (Elt F)) (x10 : (⟨S128x128, .f32⟩ : BufTy).Contents (Elt F)) (x11 : (⟨S128, .f32⟩ : BufTy).Contents (Elt F)) (x12 : (⟨S128x128, .f32⟩ : BufTy).Contents (Elt F)) (x13 : (⟨S128, .f32⟩ : BufTy).Contents (Elt F)) (x14 : (⟨S128x128, .f32⟩ : BufTy).Contents (Elt F)) (x15 : (⟨S128, .f32⟩ : BufTy).Contents (Elt F)) (x16 : (⟨S128x64, .f32⟩ : BufTy).Contents (Elt F)) (x17 : (⟨S64, .f32⟩ : BufTy).Contents (Elt F)) (x18 : (⟨S64x32, .f32⟩ : BufTy).Contents (Elt F)) (x19 : (⟨S32, .f32⟩ : BufTy).Contents (Elt F)) (x20 : (⟨S128x128, .f32⟩ : BufTy).Contents (Elt F)) (x21 : (⟨S128, .f32⟩ : BufTy).Contents (Elt F)) (x22 : (⟨S128x64, .f32⟩ : BufTy).Contents (Elt F)) (x23 : (⟨S64, .f32⟩ : BufTy).Contents (Elt F)) (x24 : (⟨S64x32, .f32⟩ : BufTy).Contents (Elt F)) (x25 : (⟨S32, .f32⟩ : BufTy).Contents (Elt F)) : Prop where
  h_v308 : W (Proc.devRef .tc main_v308) = val_main_v308 (F := F) x0 x2 x4 x6 x7 x8 x9 x14 x15 x16 x17 x18 x19
  h_v323 : W (Proc.devRef .tc main_v323) = val_main_v323 (F := F) x1 x3 x5 x10 x11 x12 x13 x20 x21 x22 x23 x24 x25

/-- The boundary after 20 of the twenty slices: 1 computed buffers and 0 arguments are still to be read. -/
structure Inv20 (W : Valuation τ sig (Elt F)) (x0 : (⟨S10000x128, .f32⟩ : BufTy).Contents (Elt F)) (x1 : (⟨S10000x128, .f32⟩ : BufTy).Contents (Elt F)) (x2 : (⟨S10000x10000, .f32⟩ : BufTy).Contents (Elt F)) (x3 : (⟨S10000x10000, .f32⟩ : BufTy).Contents (Elt F)) (x4 : (⟨S2x320000, .i32⟩ : BufTy).Contents (Elt F)) (x5 : (⟨S2x320000, .i32⟩ : BufTy).Contents (Elt F)) (x6 : (⟨S128x128, .f32⟩ : BufTy).Contents (Elt F)) (x7 : (⟨S128, .f32⟩ : BufTy).Contents (Elt F)) (x8 : (⟨S128x128, .f32⟩ : BufTy).Contents (Elt F)) (x9 : (⟨S128, .f32⟩ : BufTy).Contents (Elt F)) (x10 : (⟨S128x128, .f32⟩ : BufTy).Contents (Elt F)) (x11 : (⟨S128, .f32⟩ : BufTy).Contents (Elt F)) (x12 : (⟨S128x128, .f32⟩ : BufTy).Contents (Elt F)) (x13 : (⟨S128, .f32⟩ : BufTy).Contents (Elt F)) (x14 : (⟨S128x128, .f32⟩ : BufTy).Contents (Elt F)) (x15 : (⟨S128, .f32⟩ : BufTy).Contents (Elt F)) (x16 : (⟨S128x64, .f32⟩ : BufTy).Contents (Elt F)) (x17 : (⟨S64, .f32⟩ : BufTy).Contents (Elt F)) (x18 : (⟨S64x32, .f32⟩ : BufTy).Contents (Elt F)) (x19 : (⟨S32, .f32⟩ : BufTy).Contents (Elt F)) (x20 : (⟨S128x128, .f32⟩ : BufTy).Contents (Elt F)) (x21 : (⟨S128, .f32⟩ : BufTy).Contents (Elt F)) (x22 : (⟨S128x64, .f32⟩ : BufTy).Contents (Elt F)) (x23 : (⟨S64, .f32⟩ : BufTy).Contents (Elt F)) (x24 : (⟨S64x32, .f32⟩ : BufTy).Contents (Elt F)) (x25 : (⟨S32, .f32⟩ : BufTy).Contents (Elt F)) : Prop where
  h_v325 : W (Proc.devRef .tc main_v325) = val_main_v325 (F := F) x0 x1 x2 x3 x4 x5 x6 x7 x8 x9 x10 x11 x12 x13 x14 x15 x16 x17 x18 x19 x20 x21 x22 x23 x24 x25

end Cert.ReferenceIdeal.HandRun

end
-- ==== Proof.RefSliceOpsA.lean ====
/-
  The reference program's 412 operations (`OpsP.ops`), cut in program order into twenty consecutive slices; this module
  holds slices 1 … 1, each operation's text as the list states it. RefResult proves that the twenty slices, joined in order,
  are the list.
-/
import proofs.«154350_j35708358099201_1_alg».proof.Proof.Gen.ReferenceIdeal
import Idealize.ShloMosaic.Lib.StableHlo.Run

set_option maxRecDepth 8192

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- Slice 1: 60 operations (list 1 of the shared prefix). -/
abbrev slice1 : List (HloOp τ sig (Elt F)) :=
  ( unary main_arg4 main_v0 ((extractStridedSlice S1x320000 ![0, 0] · slices_S2x320000_S1x320000_0_0) : (⟨S2x320000, .i32⟩ : BufTy).Contents (Elt F) → (⟨S1x320000, .i32⟩ : BufTy).Contents (Elt F))
  :: reshape main_v0 main_v1 rfl shapeCasts_S1x320000_S320000
  :: unary main_arg4 main_v2 ((extractStridedSlice S1x320000 ![1, 0] · slices_S2x320000_S1x320000_1_0) : (⟨S2x320000, .i32⟩ : BufTy).Contents (Elt F) → (⟨S1x320000, .i32⟩ : BufTy).Contents (Elt F))
  :: reshape main_v2 main_v3 rfl shapeCasts_S1x320000_S320000
  :: unary main_arg5 main_v4 ((extractStridedSlice S1x320000 ![0, 0] · slices_S2x320000_S1x320000_0_0) : (⟨S2x320000, .i32⟩ : BufTy).Contents (Elt F) → (⟨S1x320000, .i32⟩ : BufTy).Contents (Elt F))
  :: reshape main_v4 main_v5 rfl shapeCasts_S1x320000_S320000
  :: unary main_arg5 main_v6 ((extractStridedSlice S1x320000 ![1, 0] · slices_S2x320000_S1x320000_1_0) : (⟨S2x320000, .i32⟩ : BufTy).Contents (Elt F) → (⟨S1x320000, .i32⟩ : BufTy).Contents (Elt F))
  :: reshape main_v6 main_v7 rfl shapeCasts_S1x320000_S320000
  :: nullary main_c (constantI S_ 32 0#32)
  :: unary main_c main_v8 (broadcastInDim S320000 ![] bcast_S_S320000 : (⟨S_, .i32⟩ : BufTy).Contents (Elt F) → (⟨S320000, .i32⟩ : BufTy).Contents (Elt F))
  :: binary main_v1 main_v8 main_v9 (cmpi .slt : (⟨S320000, .i32⟩ : BufTy).Contents (Elt F) → (⟨S320000, .i32⟩ : BufTy).Contents (Elt F) → (⟨S320000, .i1⟩ : BufTy).Contents (Elt F))
  :: nullary main_c_0 (constantI S_ 32 10000#32)
  :: unary main_c_0 main_v10 (broadcastInDim S320000 ![] bcast_S_S320000 : (⟨S_, .i32⟩ : BufTy).Contents (Elt F) → (⟨S320000, .i32⟩ : BufTy).Contents (Elt F))
  :: binary main_v1 main_v10 main_v11 (addi : (⟨S320000, .i32⟩ : BufTy).Contents (Elt F) → (⟨S320000, .i32⟩ : BufTy).Contents (Elt F) → (⟨S320000, .i32⟩ : BufTy).Contents (Elt F))
  :: ternary main_v9 main_v11 main_v1 main_v12 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F))
  :: nullary main_c_1 (constantI S_ 32 0#32)
  :: unary main_c_1 main_v13 (broadcastInDim S320000 ![] bcast_S_S320000 : (⟨S_, .i32⟩ : BufTy).Contents (Elt F) → (⟨S320000, .i32⟩ : BufTy).Contents (Elt F))
  :: binary main_v3 main_v13 main_v14 (cmpi .slt : (⟨S320000, .i32⟩ : BufTy).Contents (Elt F) → (⟨S320000, .i32⟩ : BufTy).Contents (Elt F) → (⟨S320000, .i1⟩ : BufTy).Contents (Elt F))
  :: nullary main_c_2 (constantI S_ 32 10000#32)
  :: unary main_c_2 main_v15 (broadcastInDim S320000 ![] bcast_S_S320000 : (⟨S_, .i32⟩ : BufTy).Contents (Elt F) → (⟨S320000, .i32⟩ : BufTy).Contents (Elt F))
  :: binary main_v3 main_v15 main_v16 (addi : (⟨S320000, .i32⟩ : BufTy).Contents (Elt F) → (⟨S320000, .i32⟩ : BufTy).Contents (Elt F) → (⟨S320000, .i32⟩ : BufTy).Contents (Elt F))
  :: ternary main_v14 main_v16 main_v3 main_v17 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F))
  :: unary main_v12 main_v18 (broadcastInDim S320000x1 ![0] bcast_S320000_S320000x1_0 : (⟨S320000, .i32⟩ : BufTy).Contents (Elt F) → (⟨S320000x1, .i32⟩ : BufTy).Contents (Elt F))
  :: unary main_v17 main_v19 (broadcastInDim S320000x1 ![0] bcast_S320000_S320000x1_0 : (⟨S320000, .i32⟩ : BufTy).Contents (Elt F) → (⟨S320000x1, .i32⟩ : BufTy).Contents (Elt F))
  :: binary main_v18 main_v19 main_v20 ((fun a b => concatenate S320000x2 1 [⟨S320000x1, a⟩, ⟨S320000x1, b⟩] concatenates_S320000x1_S320000x1_S320000x2_d1) : (⟨S320000x1, .i32⟩ : BufTy).Contents (Elt F) → (⟨S320000x1, .i32⟩ : BufTy).Contents (Elt F) → (⟨S320000x2, .i32⟩ : BufTy).Contents (Elt F))
  :: binary main_arg2 main_v20 main_v21 ((fun x i => Host.gather gather_S10000x10000_S320000x2_S320000_n_01_n_n_01_1_11 x i) : (⟨S10000x10000, .f32⟩ : BufTy).Contents (Elt F) → (⟨S320000x2, .i32⟩ : BufTy).Contents (Elt F) → (⟨S320000, .f32⟩ : BufTy).Contents (Elt F))
  :: nullary main_c_3 (constantI S_ 32 0#32)
  :: unary main_c_3 main_v22 (broadcastInDim S320000 ![] bcast_S_S320000 : (⟨S_, .i32⟩ : BufTy).Contents (Elt F) → (⟨S320000, .i32⟩ : BufTy).Contents (Elt F))
  :: binary main_v5 main_v22 main_v23 (cmpi .slt : (⟨S320000, .i32⟩ : BufTy).Contents (Elt F) → (⟨S320000, .i32⟩ : BufTy).Contents (Elt F) → (⟨S320000, .i1⟩ : BufTy).Contents (Elt F))
  :: nullary main_c_4 (constantI S_ 32 10000#32)
  :: unary main_c_4 main_v24 (broadcastInDim S320000 ![] bcast_S_S320000 : (⟨S_, .i32⟩ : BufTy).Contents (Elt F) → (⟨S320000, .i32⟩ : BufTy).Contents (Elt F))
  :: binary main_v5 main_v24 main_v25 (addi : (⟨S320000, .i32⟩ : BufTy).Contents (Elt F) → (⟨S320000, .i32⟩ : BufTy).Contents (Elt F) → (⟨S320000, .i32⟩ : BufTy).Contents (Elt F))
  :: ternary main_v23 main_v25 main_v5 main_v26 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F))
  :: nullary main_c_5 (constantI S_ 32 0#32)
  :: unary main_c_5 main_v27 (broadcastInDim S320000 ![] bcast_S_S320000 : (⟨S_, .i32⟩ : BufTy).Contents (Elt F) → (⟨S320000, .i32⟩ : BufTy).Contents (Elt F))
  :: binary main_v7 main_v27 main_v28 (cmpi .slt : (⟨S320000, .i32⟩ : BufTy).Contents (Elt F) → (⟨S320000, .i32⟩ : BufTy).Contents (Elt F) → (⟨S320000, .i1⟩ : BufTy).Contents (Elt F))
  :: nullary main_c_6 (constantI S_ 32 10000#32)
  :: unary main_c_6 main_v29 (broadcastInDim S320000 ![] bcast_S_S320000 : (⟨S_, .i32⟩ : BufTy).Contents (Elt F) → (⟨S320000, .i32⟩ : BufTy).Contents (Elt F))
  :: binary main_v7 main_v29 main_v30 (addi : (⟨S320000, .i32⟩ : BufTy).Contents (Elt F) → (⟨S320000, .i32⟩ : BufTy).Contents (Elt F) → (⟨S320000, .i32⟩ : BufTy).Contents (Elt F))
  :: ternary main_v28 main_v30 main_v7 main_v31 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F))
  :: unary main_v26 main_v32 (broadcastInDim S320000x1 ![0] bcast_S320000_S320000x1_0 : (⟨S320000, .i32⟩ : BufTy).Contents (Elt F) → (⟨S320000x1, .i32⟩ : BufTy).Contents (Elt F))
  :: unary main_v31 main_v33 (broadcastInDim S320000x1 ![0] bcast_S320000_S320000x1_0 : (⟨S320000, .i32⟩ : BufTy).Contents (Elt F) → (⟨S320000x1, .i32⟩ : BufTy).Contents (Elt F))
  :: binary main_v32 main_v33 main_v34 ((fun a b => concatenate S320000x2 1 [⟨S320000x1, a⟩, ⟨S320000x1, b⟩] concatenates_S320000x1_S320000x1_S320000x2_d1) : (⟨S320000x1, .i32⟩ : BufTy).Contents (Elt F) → (⟨S320000x1, .i32⟩ : BufTy).Contents (Elt F) → (⟨S320000x2, .i32⟩ : BufTy).Contents (Elt F))
  :: binary main_arg3 main_v34 main_v35 ((fun x i => Host.gather gather_S10000x10000_S320000x2_S320000_n_01_n_n_01_1_11 x i) : (⟨S10000x10000, .f32⟩ : BufTy).Contents (Elt F) → (⟨S320000x2, .i32⟩ : BufTy).Contents (Elt F) → (⟨S320000, .f32⟩ : BufTy).Contents (Elt F))
  :: binary main_arg0 main_arg6 main_v36 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F))
  :: nullary main_v37 (iotaInDim S10000 32 0)
  :: binary main_v1 main_v37 main_v38 ((fun a b => concatenate S330000 0 [⟨S320000, a⟩, ⟨S10000, b⟩] concatenates_S320000_S10000_S330000_d0) : (⟨S320000, .i32⟩ : BufTy).Contents (Elt F) → (⟨S10000, .i32⟩ : BufTy).Contents (Elt F) → (⟨S330000, .i32⟩ : BufTy).Contents (Elt F))
  :: binary main_v3 main_v37 main_v39 ((fun a b => concatenate S330000 0 [⟨S320000, a⟩, ⟨S10000, b⟩] concatenates_S320000_S10000_S330000_d0) : (⟨S320000, .i32⟩ : BufTy).Contents (Elt F) → (⟨S10000, .i32⟩ : BufTy).Contents (Elt F) → (⟨S330000, .i32⟩ : BufTy).Contents (Elt F))
  :: nullary main_cst (constant S_ .f32 0x3F800000#32)
  :: unary main_cst main_v40 (broadcastInDim S10000 ![] bcast_S_S10000 : (⟨S_, .f32⟩ : BufTy).Contents (Elt F) → (⟨S10000, .f32⟩ : BufTy).Contents (Elt F))
  :: binary main_v21 main_v40 main_v41 ((fun a b => concatenate S330000 0 [⟨S320000, a⟩, ⟨S10000, b⟩] concatenates_S320000_S10000_S330000_d0) : (⟨S320000, .f32⟩ : BufTy).Contents (Elt F) → (⟨S10000, .f32⟩ : BufTy).Contents (Elt F) → (⟨S330000, .f32⟩ : BufTy).Contents (Elt F))
  :: nullary main_cst_7 (constant S_ .f32 0x00000000#32)
  :: unary main_cst_7 main_v42 (broadcastInDim S10000 ![] bcast_S_S10000 : (⟨S_, .f32⟩ : BufTy).Contents (Elt F) → (⟨S10000, .f32⟩ : BufTy).Contents (Elt F))
  :: unary main_v39 main_v43 (broadcastInDim S330000x1 ![0] bcast_S330000_S330000x1_0 : (⟨S330000, .i32⟩ : BufTy).Contents (Elt F) → (⟨S330000x1, .i32⟩ : BufTy).Contents (Elt F))
  :: ternary main_v42 main_v43 main_v41 main_v44 ((fun x i u => Host.scatterAdd scatter_S10000_S330000x1_S330000_n_0_0_1 x i u) : (⟨S10000, .f32⟩ : BufTy).Contents (Elt F) → (⟨S330000x1, .i32⟩ : BufTy).Contents (Elt F) → (⟨S330000, .f32⟩ : BufTy).Contents (Elt F) → (⟨S10000, .f32⟩ : BufTy).Contents (Elt F))
  :: unary main_v44 main_v45 (Host.rsqrt : (⟨S10000, .f32⟩ : BufTy).Contents (Elt F) → (⟨S10000, .f32⟩ : BufTy).Contents (Elt F))
  :: nullary main_c_8 (constantI S_ 32 0#32)
  :: unary main_c_8 main_v46 (broadcastInDim S330000 ![] bcast_S_S330000 : (⟨S_, .i32⟩ : BufTy).Contents (Elt F) → (⟨S330000, .i32⟩ : BufTy).Contents (Elt F))
  :: binary main_v38 main_v46 main_v47 (cmpi .slt : (⟨S330000, .i32⟩ : BufTy).Contents (Elt F) → (⟨S330000, .i32⟩ : BufTy).Contents (Elt F) → (⟨S330000, .i1⟩ : BufTy).Contents (Elt F))
  :: nullary main_c_9 (constantI S_ 32 10000#32)
  :: [] )

end Cert.ReferenceIdeal.HandRun

end
-- ==== Proof.RefSliceStepsA.lean ====
/-
  Slices 1 … 1 of the twenty: each carries the boundary before it to the boundary after it (RefSliceInv). Every
  line of a step reads one buffer live after the slice: `carried` when no operation of the slice writes it, `computed`
  from the named facts about the buffers its operations read when the slice writes it (PrefixTac).
-/
import proofs.«154350_j35708358099201_1_alg».proof.Proof.RefSliceInv
import proofs.«154350_j35708358099201_1_alg».proof.Proof.RefSliceOpsA

set_option maxRecDepth 8192

noncomputable section

namespace Cert.ReferenceIdeal.HandRun

open Cert.ReferenceIdeal Cert.ReferenceIdeal.Gen Idealize.ShloMosaic Idealize.ShloMosaic.TcCoe Idealize.SL.Sem Idealize.ShloMosaic.StableHlo
open Cert.ReferenceIdeal.ReadP

variable {F : FTy → Type} [FloatOps F]

set_option maxHeartbeats 8000000 in
/-- Slice 1 (60 operations: list 1 of the shared prefix) carries the boundary before it to the boundary after it: each
    buffer live after the slice is either untouched by it, or written by it from buffers live before it. -/
theorem step1 {W : Valuation τ sig (Elt F)} {x0 : (⟨S10000x128, .f32⟩ : BufTy).Contents (Elt F)} {x1 : (⟨S10000x128, .f32⟩ : BufTy).Contents (Elt F)} {x2 : (⟨S10000x10000, .f32⟩ : BufTy).Contents (Elt F)} {x3 : (⟨S10000x10000, .f32⟩ : BufTy).Contents (Elt F)} {x4 : (⟨S2x320000, .i32⟩ : BufTy).Contents (Elt F)} {x5 : (⟨S2x320000, .i32⟩ : BufTy).Contents (Elt F)} {x6 : (⟨S128x128, .f32⟩ : BufTy).Contents (Elt F)} {x7 : (⟨S128, .f32⟩ : BufTy).Contents (Elt F)} {x8 : (⟨S128x128, .f32⟩ : BufTy).Contents (Elt F)} {x9 : (⟨S128, .f32⟩ : BufTy).Contents (Elt F)} {x10 : (⟨S128x128, .f32⟩ : BufTy).Contents (Elt F)} {x11 : (⟨S128, .f32⟩ : BufTy).Contents (Elt F)} {x12 : (⟨S128x128, .f32⟩ : BufTy).Contents (Elt F)} {x13 : (⟨S128, .f32⟩ : BufTy).Contents (Elt F)} {x14 : (⟨S128x128, .f32⟩ : BufTy).Contents (Elt F)} {x15 : (⟨S128, .f32⟩ : BufTy).Contents (Elt F)} {x16 : (⟨S128x64, .f32⟩ : BufTy).Contents (Elt F)} {x17 : (⟨S64, .f32⟩ : BufTy).Contents (Elt F)} {x18 : (⟨S64x32, .f32⟩ : BufTy).Contents (Elt F)} {x19 : (⟨S32, .f32⟩ : BufTy).Contents (Elt F)} {x20 : (⟨S128x128, .f32⟩ : BufTy).Contents (Elt F)} {x21 : (⟨S128, .f32⟩ : BufTy).Contents (Elt F)} {x22 : (⟨S128x64, .f32⟩ : BufTy).Contents (Elt F)} {x23 : (⟨S64, .f32⟩ : BufTy).Contents (Elt F)} {x24 : (⟨S64x32, .f32⟩ : BufTy).Contents (Elt F)} {x25 : (⟨S32, .f32⟩ : BufTy).Contents (Elt F)}
    (h : Inv0 W x0 x1 x2 x3 x4 x5 x6 x7 x8 x9 x10 x11 x12 x13 x14 x15 x16 x17 x18 x19 x20 x21 x22 x23 x24 x25) : Inv1 (StableHlo.after slice1 W) x0 x1 x2 x3 x4 x5 x6 x7 x8 x9 x10 x11 x12 x13 x14 x15 x16 x17 x18 x19 x20 x21 x22 x23 x24 x25 := by
  open_list slice1
  constructor
  · computed [h.h_arg4]
  · computed [h.h_arg4]
  · computed [h.h_arg5]
  · computed [h.h_arg5]
  · computed [h.h_arg2, h.h_arg4]
  · computed [h.h_arg3, h.h_arg5]
  · computed [h.h_arg0, h.h_arg6]
  · computed [h.h_arg4]
  · computed [h.h_arg4]
  · computed [h.h_arg2, h.h_arg4]
  · computed [h.h_arg4, h.h_arg2]
  · computed [h.h_arg4]
  · computed []
  · carried h.h_arg1
  · carried h.h_arg7
  · carried h.h_arg8
  · carried h.h_arg9
  · carried h.h_arg10
  · carried h.h_arg11
  · carried h.h_arg12
  · carried h.h_arg13
  · carried h.h_arg14
  · carried h.h_arg15
  · carried h.h_arg16
  · carried h.h_arg17
  · carried h.h_arg18
  · carried h.h_arg19
  · carried h.h_arg20
  · carried h.h_arg21
  · carried h.h_arg22
  · carried h.h_arg23
  · carried h.h_arg24
  · carried h.h_arg25

end Cert.ReferenceIdeal.HandRun

end
-- ==== Proof.RefSliceOpsB.lean ====
/-
  The reference program's 412 operations (`OpsP.ops`), cut in program order into twenty consecutive slices; this module
  holds slices 2 … 7, each operation's text as the list states it. RefResult proves that the twenty slices, joined in order,
  are the list.
-/
import proofs.«154350_j35708358099201_1_alg».proof.Proof.Gen.ReferenceIdeal
import Idealize.ShloMosaic.Lib.StableHlo.Run

set_option maxRecDepth 8192

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- Slice 2: 35 operations (list 2 of the shared prefix). -/
abbrev slice2 : List (HloOp τ sig (Elt F)) :=
  ( unary main_c_9 main_v48 (broadcastInDim S330000 ![] bcast_S_S330000 : (⟨S_, .i32⟩ : BufTy).Contents (Elt F) → (⟨S330000, .i32⟩ : BufTy).Contents (Elt F))
  :: binary main_v38 main_v48 main_v49 (addi : (⟨S330000, .i32⟩ : BufTy).Contents (Elt F) → (⟨S330000, .i32⟩ : BufTy).Contents (Elt F) → (⟨S330000, .i32⟩ : BufTy).Contents (Elt F))
  :: ternary main_v47 main_v49 main_v38 main_v50 (select : (⟨S330000, .i1⟩ : BufTy).Contents (Elt F) → (⟨S330000, .i32⟩ : BufTy).Contents (Elt F) → (⟨S330000, .i32⟩ : BufTy).Contents (Elt F) → (⟨S330000, .i32⟩ : BufTy).Contents (Elt F))
  :: unary main_v50 main_v51 (broadcastInDim S330000x1 ![0] bcast_S330000_S330000x1_0 : (⟨S330000, .i32⟩ : BufTy).Contents (Elt F) → (⟨S330000x1, .i32⟩ : BufTy).Contents (Elt F))
  :: binary main_v45 main_v51 main_v52 ((fun x i => Host.gather gather_S10000_S330000x1_S330000_n_0_n_n_0_1_1 x i) : (⟨S10000, .f32⟩ : BufTy).Contents (Elt F) → (⟨S330000x1, .i32⟩ : BufTy).Contents (Elt F) → (⟨S330000, .f32⟩ : BufTy).Contents (Elt F))
  :: binary main_v52 main_v41 main_v53 (mulf : (⟨S330000, .f32⟩ : BufTy).Contents (Elt F) → (⟨S330000, .f32⟩ : BufTy).Contents (Elt F) → (⟨S330000, .f32⟩ : BufTy).Contents (Elt F))
  :: nullary main_c_10 (constantI S_ 32 0#32)
  :: unary main_c_10 main_v54 (broadcastInDim S330000 ![] bcast_S_S330000 : (⟨S_, .i32⟩ : BufTy).Contents (Elt F) → (⟨S330000, .i32⟩ : BufTy).Contents (Elt F))
  :: binary main_v39 main_v54 main_v55 (cmpi .slt : (⟨S330000, .i32⟩ : BufTy).Contents (Elt F) → (⟨S330000, .i32⟩ : BufTy).Contents (Elt F) → (⟨S330000, .i1⟩ : BufTy).Contents (Elt F))
  :: nullary main_c_11 (constantI S_ 32 10000#32)
  :: unary main_c_11 main_v56 (broadcastInDim S330000 ![] bcast_S_S330000 : (⟨S_, .i32⟩ : BufTy).Contents (Elt F) → (⟨S330000, .i32⟩ : BufTy).Contents (Elt F))
  :: binary main_v39 main_v56 main_v57 (addi : (⟨S330000, .i32⟩ : BufTy).Contents (Elt F) → (⟨S330000, .i32⟩ : BufTy).Contents (Elt F) → (⟨S330000, .i32⟩ : BufTy).Contents (Elt F))
  :: ternary main_v55 main_v57 main_v39 main_v58 (select : (⟨S330000, .i1⟩ : BufTy).Contents (Elt F) → (⟨S330000, .i32⟩ : BufTy).Contents (Elt F) → (⟨S330000, .i32⟩ : BufTy).Contents (Elt F) → (⟨S330000, .i32⟩ : BufTy).Contents (Elt F))
  :: unary main_v58 main_v59 (broadcastInDim S330000x1 ![0] bcast_S330000_S330000x1_0 : (⟨S330000, .i32⟩ : BufTy).Contents (Elt F) → (⟨S330000x1, .i32⟩ : BufTy).Contents (Elt F))
  :: binary main_v45 main_v59 main_v60 ((fun x i => Host.gather gather_S10000_S330000x1_S330000_n_0_n_n_0_1_1 x i) : (⟨S10000, .f32⟩ : BufTy).Contents (Elt F) → (⟨S330000x1, .i32⟩ : BufTy).Contents (Elt F) → (⟨S330000, .f32⟩ : BufTy).Contents (Elt F))
  :: binary main_v53 main_v60 main_v61 (mulf : (⟨S330000, .f32⟩ : BufTy).Contents (Elt F) → (⟨S330000, .f32⟩ : BufTy).Contents (Elt F) → (⟨S330000, .f32⟩ : BufTy).Contents (Elt F))
  :: nullary main_c_12 (constantI S_ 32 0#32)
  :: unary main_c_12 main_v62 (broadcastInDim S330000 ![] bcast_S_S330000 : (⟨S_, .i32⟩ : BufTy).Contents (Elt F) → (⟨S330000, .i32⟩ : BufTy).Contents (Elt F))
  :: binary main_v38 main_v62 main_v63 (cmpi .slt : (⟨S330000, .i32⟩ : BufTy).Contents (Elt F) → (⟨S330000, .i32⟩ : BufTy).Contents (Elt F) → (⟨S330000, .i1⟩ : BufTy).Contents (Elt F))
  :: nullary main_c_13 (constantI S_ 32 10000#32)
  :: unary main_c_13 main_v64 (broadcastInDim S330000 ![] bcast_S_S330000 : (⟨S_, .i32⟩ : BufTy).Contents (Elt F) → (⟨S330000, .i32⟩ : BufTy).Contents (Elt F))
  :: binary main_v38 main_v64 main_v65 (addi : (⟨S330000, .i32⟩ : BufTy).Contents (Elt F) → (⟨S330000, .i32⟩ : BufTy).Contents (Elt F) → (⟨S330000, .i32⟩ : BufTy).Contents (Elt F))
  :: ternary main_v63 main_v65 main_v38 main_v66 (select : (⟨S330000, .i1⟩ : BufTy).Contents (Elt F) → (⟨S330000, .i32⟩ : BufTy).Contents (Elt F) → (⟨S330000, .i32⟩ : BufTy).Contents (Elt F) → (⟨S330000, .i32⟩ : BufTy).Contents (Elt F))
  :: unary main_v66 main_v67 (broadcastInDim S330000x1 ![0] bcast_S330000_S330000x1_0 : (⟨S330000, .i32⟩ : BufTy).Contents (Elt F) → (⟨S330000x1, .i32⟩ : BufTy).Contents (Elt F))
  :: binary main_v36 main_v67 main_v68 ((fun x i => Host.gather gather_S10000x128_S330000x1_S330000x128_1_0_n_n_0_1_1128 x i) : (⟨S10000x128, .f32⟩ : BufTy).Contents (Elt F) → (⟨S330000x1, .i32⟩ : BufTy).Contents (Elt F) → (⟨S330000x128, .f32⟩ : BufTy).Contents (Elt F))
  :: unary main_v61 main_v69 (broadcastInDim S330000x1 ![0] bcast_S330000_S330000x1_0 : (⟨S330000, .f32⟩ : BufTy).Contents (Elt F) → (⟨S330000x1, .f32⟩ : BufTy).Contents (Elt F))
  :: unary main_v69 main_v70 (broadcastInDim S330000x128 ![0, 1] bcast_S330000x1_S330000x128_0_1 : (⟨S330000x1, .f32⟩ : BufTy).Contents (Elt F) → (⟨S330000x128, .f32⟩ : BufTy).Contents (Elt F))
  :: binary main_v68 main_v70 main_v71 (mulf : (⟨S330000x128, .f32⟩ : BufTy).Contents (Elt F) → (⟨S330000x128, .f32⟩ : BufTy).Contents (Elt F) → (⟨S330000x128, .f32⟩ : BufTy).Contents (Elt F))
  :: nullary main_cst_14 (constant S_ .f32 0x00000000#32)
  :: unary main_cst_14 main_v72 (broadcastInDim S10000x128 ![] bcast_S_S10000x128 : (⟨S_, .f32⟩ : BufTy).Contents (Elt F) → (⟨S10000x128, .f32⟩ : BufTy).Contents (Elt F))
  :: unary main_v39 main_v73 (broadcastInDim S330000x1 ![0] bcast_S330000_S330000x1_0 : (⟨S330000, .i32⟩ : BufTy).Contents (Elt F) → (⟨S330000x1, .i32⟩ : BufTy).Contents (Elt F))
  :: ternary main_v72 main_v73 main_v71 main_v74 ((fun x i u => Host.scatterAdd scatter_S10000x128_S330000x1_S330000x128_1_0_0_1 x i u) : (⟨S10000x128, .f32⟩ : BufTy).Contents (Elt F) → (⟨S330000x1, .i32⟩ : BufTy).Contents (Elt F) → (⟨S330000x128, .f32⟩ : BufTy).Contents (Elt F) → (⟨S10000x128, .f32⟩ : BufTy).Contents (Elt F))
  :: unary main_arg7 main_v75 (broadcastInDim S1x128 ![1] bcast_S128_S1x128_1 : (⟨S128, .f32⟩ : BufTy).Contents (Elt F) → (⟨S1x128, .f32⟩ : BufTy).Contents (Elt F))
  :: unary main_v75 main_v76 (broadcastInDim S10000x128 ![0, 1] bcast_S1x128_S10000x128_0_1 : (⟨S1x128, .f32⟩ : BufTy).Contents (Elt F) → (⟨S10000x128, .f32⟩ : BufTy).Contents (Elt F))
  :: binary main_v74 main_v76 main_v77 (addf : (⟨S10000x128, .f32⟩ : BufTy).Contents (Elt F) → (⟨S10000x128, .f32⟩ : BufTy).Contents (Elt F) → (⟨S10000x128, .f32⟩ : BufTy).Contents (Elt F))
  :: [] )

/-- Slice 3: 3 operations (list 3 of the shared prefix). -/
abbrev slice3 : List (HloOp τ sig (Elt F)) :=
  ( TRef.nullary (TRef.of (T := ⟨S_, .f32⟩) main_call0_cst) (constant S_ .f32 0x00000000#32)
  :: TRef.unary (TRef.of (T := ⟨S_, .f32⟩) main_call0_cst) (TRef.of (T := ⟨S10000x128, .f32⟩) main_call0_v0) (broadcastInDim S10000x128 ![] bcast_S_S10000x128)
  :: TRef.binary (TRef.of (T := ⟨S10000x128, .f32⟩) main_v77) (TRef.of (T := ⟨S10000x128, .f32⟩) main_call0_v0) (TRef.of (T := ⟨S10000x128, .f32⟩) main_v78) maximumf
  :: [] )

/-- Slice 4: 24 operations (list 4 of the shared prefix). -/
abbrev slice4 : List (HloOp τ sig (Elt F)) :=
  ( binary main_v78 main_arg8 main_v79 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F))
  :: nullary main_v80 (iotaInDim S10000 32 0)
  :: binary main_v1 main_v80 main_v81 ((fun a b => concatenate S330000 0 [⟨S320000, a⟩, ⟨S10000, b⟩] concatenates_S320000_S10000_S330000_d0) : (⟨S320000, .i32⟩ : BufTy).Contents (Elt F) → (⟨S10000, .i32⟩ : BufTy).Contents (Elt F) → (⟨S330000, .i32⟩ : BufTy).Contents (Elt F))
  :: binary main_v3 main_v80 main_v82 ((fun a b => concatenate S330000 0 [⟨S320000, a⟩, ⟨S10000, b⟩] concatenates_S320000_S10000_S330000_d0) : (⟨S320000, .i32⟩ : BufTy).Contents (Elt F) → (⟨S10000, .i32⟩ : BufTy).Contents (Elt F) → (⟨S330000, .i32⟩ : BufTy).Contents (Elt F))
  :: nullary main_cst_15 (constant S_ .f32 0x3F800000#32)
  :: unary main_cst_15 main_v83 (broadcastInDim S10000 ![] bcast_S_S10000 : (⟨S_, .f32⟩ : BufTy).Contents (Elt F) → (⟨S10000, .f32⟩ : BufTy).Contents (Elt F))
  :: binary main_v21 main_v83 main_v84 ((fun a b => concatenate S330000 0 [⟨S320000, a⟩, ⟨S10000, b⟩] concatenates_S320000_S10000_S330000_d0) : (⟨S320000, .f32⟩ : BufTy).Contents (Elt F) → (⟨S10000, .f32⟩ : BufTy).Contents (Elt F) → (⟨S330000, .f32⟩ : BufTy).Contents (Elt F))
  :: nullary main_cst_16 (constant S_ .f32 0x00000000#32)
  :: unary main_cst_16 main_v85 (broadcastInDim S10000 ![] bcast_S_S10000 : (⟨S_, .f32⟩ : BufTy).Contents (Elt F) → (⟨S10000, .f32⟩ : BufTy).Contents (Elt F))
  :: unary main_v82 main_v86 (broadcastInDim S330000x1 ![0] bcast_S330000_S330000x1_0 : (⟨S330000, .i32⟩ : BufTy).Contents (Elt F) → (⟨S330000x1, .i32⟩ : BufTy).Contents (Elt F))
  :: ternary main_v85 main_v86 main_v84 main_v87 ((fun x i u => Host.scatterAdd scatter_S10000_S330000x1_S330000_n_0_0_1 x i u) : (⟨S10000, .f32⟩ : BufTy).Contents (Elt F) → (⟨S330000x1, .i32⟩ : BufTy).Contents (Elt F) → (⟨S330000, .f32⟩ : BufTy).Contents (Elt F) → (⟨S10000, .f32⟩ : BufTy).Contents (Elt F))
  :: unary main_v87 main_v88 (Host.rsqrt : (⟨S10000, .f32⟩ : BufTy).Contents (Elt F) → (⟨S10000, .f32⟩ : BufTy).Contents (Elt F))
  :: nullary main_c_17 (constantI S_ 32 0#32)
  :: unary main_c_17 main_v89 (broadcastInDim S330000 ![] bcast_S_S330000 : (⟨S_, .i32⟩ : BufTy).Contents (Elt F) → (⟨S330000, .i32⟩ : BufTy).Contents (Elt F))
  :: binary main_v81 main_v89 main_v90 (cmpi .slt : (⟨S330000, .i32⟩ : BufTy).Contents (Elt F) → (⟨S330000, .i32⟩ : BufTy).Contents (Elt F) → (⟨S330000, .i1⟩ : BufTy).Contents (Elt F))
  :: nullary main_c_18 (constantI S_ 32 10000#32)
  :: unary main_c_18 main_v91 (broadcastInDim S330000 ![] bcast_S_S330000 : (⟨S_, .i32⟩ : BufTy).Contents (Elt F) → (⟨S330000, .i32⟩ : BufTy).Contents (Elt F))
  :: binary main_v81 main_v91 main_v92 (addi : (⟨S330000, .i32⟩ : BufTy).Contents (Elt F) → (⟨S330000, .i32⟩ : BufTy).Contents (Elt F) → (⟨S330000, .i32⟩ : BufTy).Contents (Elt F))
  :: ternary main_v90 main_v92 main_v81 main_v93 (select : (⟨S330000, .i1⟩ : BufTy).Contents (Elt F) → (⟨S330000, .i32⟩ : BufTy).Contents (Elt F) → (⟨S330000, .i32⟩ : BufTy).Contents (Elt F) → (⟨S330000, .i32⟩ : BufTy).Contents (Elt F))
  :: unary main_v93 main_v94 (broadcastInDim S330000x1 ![0] bcast_S330000_S330000x1_0 : (⟨S330000, .i32⟩ : BufTy).Contents (Elt F) → (⟨S330000x1, .i32⟩ : BufTy).Contents (Elt F))
  :: binary main_v88 main_v94 main_v95 ((fun x i => Host.gather gather_S10000_S330000x1_S330000_n_0_n_n_0_1_1 x i) : (⟨S10000, .f32⟩ : BufTy).Contents (Elt F) → (⟨S330000x1, .i32⟩ : BufTy).Contents (Elt F) → (⟨S330000, .f32⟩ : BufTy).Contents (Elt F))
  :: binary main_v95 main_v84 main_v96 (mulf : (⟨S330000, .f32⟩ : BufTy).Contents (Elt F) → (⟨S330000, .f32⟩ : BufTy).Contents (Elt F) → (⟨S330000, .f32⟩ : BufTy).Contents (Elt F))
  :: nullary main_c_19 (constantI S_ 32 0#32)
  :: unary main_c_19 main_v97 (broadcastInDim S330000 ![] bcast_S_S330000 : (⟨S_, .i32⟩ : BufTy).Contents (Elt F) → (⟨S330000, .i32⟩ : BufTy).Contents (Elt F))
  :: [] )

/-- Slice 5: 27 operations (list 5 of the shared prefix). -/
abbrev slice5 : List (HloOp τ sig (Elt F)) :=
  ( binary main_v82 main_v97 main_v98 (cmpi .slt : (⟨S330000, .i32⟩ : BufTy).Contents (Elt F) → (⟨S330000, .i32⟩ : BufTy).Contents (Elt F) → (⟨S330000, .i1⟩ : BufTy).Contents (Elt F))
  :: nullary main_c_20 (constantI S_ 32 10000#32)
  :: unary main_c_20 main_v99 (broadcastInDim S330000 ![] bcast_S_S330000 : (⟨S_, .i32⟩ : BufTy).Contents (Elt F) → (⟨S330000, .i32⟩ : BufTy).Contents (Elt F))
  :: binary main_v82 main_v99 main_v100 (addi : (⟨S330000, .i32⟩ : BufTy).Contents (Elt F) → (⟨S330000, .i32⟩ : BufTy).Contents (Elt F) → (⟨S330000, .i32⟩ : BufTy).Contents (Elt F))
  :: ternary main_v98 main_v100 main_v82 main_v101 (select : (⟨S330000, .i1⟩ : BufTy).Contents (Elt F) → (⟨S330000, .i32⟩ : BufTy).Contents (Elt F) → (⟨S330000, .i32⟩ : BufTy).Contents (Elt F) → (⟨S330000, .i32⟩ : BufTy).Contents (Elt F))
  :: unary main_v101 main_v102 (broadcastInDim S330000x1 ![0] bcast_S330000_S330000x1_0 : (⟨S330000, .i32⟩ : BufTy).Contents (Elt F) → (⟨S330000x1, .i32⟩ : BufTy).Contents (Elt F))
  :: binary main_v88 main_v102 main_v103 ((fun x i => Host.gather gather_S10000_S330000x1_S330000_n_0_n_n_0_1_1 x i) : (⟨S10000, .f32⟩ : BufTy).Contents (Elt F) → (⟨S330000x1, .i32⟩ : BufTy).Contents (Elt F) → (⟨S330000, .f32⟩ : BufTy).Contents (Elt F))
  :: binary main_v96 main_v103 main_v104 (mulf : (⟨S330000, .f32⟩ : BufTy).Contents (Elt F) → (⟨S330000, .f32⟩ : BufTy).Contents (Elt F) → (⟨S330000, .f32⟩ : BufTy).Contents (Elt F))
  :: nullary main_c_21 (constantI S_ 32 0#32)
  :: unary main_c_21 main_v105 (broadcastInDim S330000 ![] bcast_S_S330000 : (⟨S_, .i32⟩ : BufTy).Contents (Elt F) → (⟨S330000, .i32⟩ : BufTy).Contents (Elt F))
  :: binary main_v81 main_v105 main_v106 (cmpi .slt : (⟨S330000, .i32⟩ : BufTy).Contents (Elt F) → (⟨S330000, .i32⟩ : BufTy).Contents (Elt F) → (⟨S330000, .i1⟩ : BufTy).Contents (Elt F))
  :: nullary main_c_22 (constantI S_ 32 10000#32)
  :: unary main_c_22 main_v107 (broadcastInDim S330000 ![] bcast_S_S330000 : (⟨S_, .i32⟩ : BufTy).Contents (Elt F) → (⟨S330000, .i32⟩ : BufTy).Contents (Elt F))
  :: binary main_v81 main_v107 main_v108 (addi : (⟨S330000, .i32⟩ : BufTy).Contents (Elt F) → (⟨S330000, .i32⟩ : BufTy).Contents (Elt F) → (⟨S330000, .i32⟩ : BufTy).Contents (Elt F))
  :: ternary main_v106 main_v108 main_v81 main_v109 (select : (⟨S330000, .i1⟩ : BufTy).Contents (Elt F) → (⟨S330000, .i32⟩ : BufTy).Contents (Elt F) → (⟨S330000, .i32⟩ : BufTy).Contents (Elt F) → (⟨S330000, .i32⟩ : BufTy).Contents (Elt F))
  :: unary main_v109 main_v110 (broadcastInDim S330000x1 ![0] bcast_S330000_S330000x1_0 : (⟨S330000, .i32⟩ : BufTy).Contents (Elt F) → (⟨S330000x1, .i32⟩ : BufTy).Contents (Elt F))
  :: binary main_v79 main_v110 main_v111 ((fun x i => Host.gather gather_S10000x128_S330000x1_S330000x128_1_0_n_n_0_1_1128 x i) : (⟨S10000x128, .f32⟩ : BufTy).Contents (Elt F) → (⟨S330000x1, .i32⟩ : BufTy).Contents (Elt F) → (⟨S330000x128, .f32⟩ : BufTy).Contents (Elt F))
  :: unary main_v104 main_v112 (broadcastInDim S330000x1 ![0] bcast_S330000_S330000x1_0 : (⟨S330000, .f32⟩ : BufTy).Contents (Elt F) → (⟨S330000x1, .f32⟩ : BufTy).Contents (Elt F))
  :: unary main_v112 main_v113 (broadcastInDim S330000x128 ![0, 1] bcast_S330000x1_S330000x128_0_1 : (⟨S330000x1, .f32⟩ : BufTy).Contents (Elt F) → (⟨S330000x128, .f32⟩ : BufTy).Contents (Elt F))
  :: binary main_v111 main_v113 main_v114 (mulf : (⟨S330000x128, .f32⟩ : BufTy).Contents (Elt F) → (⟨S330000x128, .f32⟩ : BufTy).Contents (Elt F) → (⟨S330000x128, .f32⟩ : BufTy).Contents (Elt F))
  :: nullary main_cst_23 (constant S_ .f32 0x00000000#32)
  :: unary main_cst_23 main_v115 (broadcastInDim S10000x128 ![] bcast_S_S10000x128 : (⟨S_, .f32⟩ : BufTy).Contents (Elt F) → (⟨S10000x128, .f32⟩ : BufTy).Contents (Elt F))
  :: unary main_v82 main_v116 (broadcastInDim S330000x1 ![0] bcast_S330000_S330000x1_0 : (⟨S330000, .i32⟩ : BufTy).Contents (Elt F) → (⟨S330000x1, .i32⟩ : BufTy).Contents (Elt F))
  :: ternary main_v115 main_v116 main_v114 main_v117 ((fun x i u => Host.scatterAdd scatter_S10000x128_S330000x1_S330000x128_1_0_0_1 x i u) : (⟨S10000x128, .f32⟩ : BufTy).Contents (Elt F) → (⟨S330000x1, .i32⟩ : BufTy).Contents (Elt F) → (⟨S330000x128, .f32⟩ : BufTy).Contents (Elt F) → (⟨S10000x128, .f32⟩ : BufTy).Contents (Elt F))
  :: unary main_arg9 main_v118 (broadcastInDim S1x128 ![1] bcast_S128_S1x128_1 : (⟨S128, .f32⟩ : BufTy).Contents (Elt F) → (⟨S1x128, .f32⟩ : BufTy).Contents (Elt F))
  :: unary main_v118 main_v119 (broadcastInDim S10000x128 ![0, 1] bcast_S1x128_S10000x128_0_1 : (⟨S1x128, .f32⟩ : BufTy).Contents (Elt F) → (⟨S10000x128, .f32⟩ : BufTy).Contents (Elt F))
  :: binary main_v117 main_v119 main_v120 (addf : (⟨S10000x128, .f32⟩ : BufTy).Contents (Elt F) → (⟨S10000x128, .f32⟩ : BufTy).Contents (Elt F) → (⟨S10000x128, .f32⟩ : BufTy).Contents (Elt F))
  :: [] )

/-- Slice 6: 3 operations (list 6 of the shared prefix). -/
abbrev slice6 : List (HloOp τ sig (Elt F)) :=
  ( TRef.nullary (TRef.of (T := ⟨S_, .f32⟩) main_call1_cst) (constant S_ .f32 0x00000000#32)
  :: TRef.unary (TRef.of (T := ⟨S_, .f32⟩) main_call1_cst) (TRef.of (T := ⟨S10000x128, .f32⟩) main_call1_v0) (broadcastInDim S10000x128 ![] bcast_S_S10000x128)
  :: TRef.binary (TRef.of (T := ⟨S10000x128, .f32⟩) main_v120) (TRef.of (T := ⟨S10000x128, .f32⟩) main_call1_v0) (TRef.of (T := ⟨S10000x128, .f32⟩) main_v121) maximumf
  :: [] )

/-- Slice 7: 32 operations (list 7 of the shared prefix). -/
abbrev slice7 : List (HloOp τ sig (Elt F)) :=
  ( binary main_v121 main_arg8 main_v122 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F))
  :: nullary main_v123 (iotaInDim S10000 32 0)
  :: binary main_v1 main_v123 main_v124 ((fun a b => concatenate S330000 0 [⟨S320000, a⟩, ⟨S10000, b⟩] concatenates_S320000_S10000_S330000_d0) : (⟨S320000, .i32⟩ : BufTy).Contents (Elt F) → (⟨S10000, .i32⟩ : BufTy).Contents (Elt F) → (⟨S330000, .i32⟩ : BufTy).Contents (Elt F))
  :: binary main_v3 main_v123 main_v125 ((fun a b => concatenate S330000 0 [⟨S320000, a⟩, ⟨S10000, b⟩] concatenates_S320000_S10000_S330000_d0) : (⟨S320000, .i32⟩ : BufTy).Contents (Elt F) → (⟨S10000, .i32⟩ : BufTy).Contents (Elt F) → (⟨S330000, .i32⟩ : BufTy).Contents (Elt F))
  :: nullary main_cst_24 (constant S_ .f32 0x3F800000#32)
  :: unary main_cst_24 main_v126 (broadcastInDim S10000 ![] bcast_S_S10000 : (⟨S_, .f32⟩ : BufTy).Contents (Elt F) → (⟨S10000, .f32⟩ : BufTy).Contents (Elt F))
  :: binary main_v21 main_v126 main_v127 ((fun a b => concatenate S330000 0 [⟨S320000, a⟩, ⟨S10000, b⟩] concatenates_S320000_S10000_S330000_d0) : (⟨S320000, .f32⟩ : BufTy).Contents (Elt F) → (⟨S10000, .f32⟩ : BufTy).Contents (Elt F) → (⟨S330000, .f32⟩ : BufTy).Contents (Elt F))
  :: nullary main_cst_25 (constant S_ .f32 0x00000000#32)
  :: unary main_cst_25 main_v128 (broadcastInDim S10000 ![] bcast_S_S10000 : (⟨S_, .f32⟩ : BufTy).Contents (Elt F) → (⟨S10000, .f32⟩ : BufTy).Contents (Elt F))
  :: unary main_v125 main_v129 (broadcastInDim S330000x1 ![0] bcast_S330000_S330000x1_0 : (⟨S330000, .i32⟩ : BufTy).Contents (Elt F) → (⟨S330000x1, .i32⟩ : BufTy).Contents (Elt F))
  :: ternary main_v128 main_v129 main_v127 main_v130 ((fun x i u => Host.scatterAdd scatter_S10000_S330000x1_S330000_n_0_0_1 x i u) : (⟨S10000, .f32⟩ : BufTy).Contents (Elt F) → (⟨S330000x1, .i32⟩ : BufTy).Contents (Elt F) → (⟨S330000, .f32⟩ : BufTy).Contents (Elt F) → (⟨S10000, .f32⟩ : BufTy).Contents (Elt F))
  :: unary main_v130 main_v131 (Host.rsqrt : (⟨S10000, .f32⟩ : BufTy).Contents (Elt F) → (⟨S10000, .f32⟩ : BufTy).Contents (Elt F))
  :: nullary main_c_26 (constantI S_ 32 0#32)
  :: unary main_c_26 main_v132 (broadcastInDim S330000 ![] bcast_S_S330000 : (⟨S_, .i32⟩ : BufTy).Contents (Elt F) → (⟨S330000, .i32⟩ : BufTy).Contents (Elt F))
  :: binary main_v124 main_v132 main_v133 (cmpi .slt : (⟨S330000, .i32⟩ : BufTy).Contents (Elt F) → (⟨S330000, .i32⟩ : BufTy).Contents (Elt F) → (⟨S330000, .i1⟩ : BufTy).Contents (Elt F))
  :: nullary main_c_27 (constantI S_ 32 10000#32)
  :: unary main_c_27 main_v134 (broadcastInDim S330000 ![] bcast_S_S330000 : (⟨S_, .i32⟩ : BufTy).Contents (Elt F) → (⟨S330000, .i32⟩ : BufTy).Contents (Elt F))
  :: binary main_v124 main_v134 main_v135 (addi : (⟨S330000, .i32⟩ : BufTy).Contents (Elt F) → (⟨S330000, .i32⟩ : BufTy).Contents (Elt F) → (⟨S330000, .i32⟩ : BufTy).Contents (Elt F))
  :: ternary main_v133 main_v135 main_v124 main_v136 (select : (⟨S330000, .i1⟩ : BufTy).Contents (Elt F) → (⟨S330000, .i32⟩ : BufTy).Contents (Elt F) → (⟨S330000, .i32⟩ : BufTy).Contents (Elt F) → (⟨S330000, .i32⟩ : BufTy).Contents (Elt F))
  :: unary main_v136 main_v137 (broadcastInDim S330000x1 ![0] bcast_S330000_S330000x1_0 : (⟨S330000, .i32⟩ : BufTy).Contents (Elt F) → (⟨S330000x1, .i32⟩ : BufTy).Contents (Elt F))
  :: binary main_v131 main_v137 main_v138 ((fun x i => Host.gather gather_S10000_S330000x1_S330000_n_0_n_n_0_1_1 x i) : (⟨S10000, .f32⟩ : BufTy).Contents (Elt F) → (⟨S330000x1, .i32⟩ : BufTy).Contents (Elt F) → (⟨S330000, .f32⟩ : BufTy).Contents (Elt F))
  :: binary main_v138 main_v127 main_v139 (mulf : (⟨S330000, .f32⟩ : BufTy).Contents (Elt F) → (⟨S330000, .f32⟩ : BufTy).Contents (Elt F) → (⟨S330000, .f32⟩ : BufTy).Contents (Elt F))
  :: nullary main_c_28 (constantI S_ 32 0#32)
  :: unary main_c_28 main_v140 (broadcastInDim S330000 ![] bcast_S_S330000 : (⟨S_, .i32⟩ : BufTy).Contents (Elt F) → (⟨S330000, .i32⟩ : BufTy).Contents (Elt F))
  :: binary main_v125 main_v140 main_v141 (cmpi .slt : (⟨S330000, .i32⟩ : BufTy).Contents (Elt F) → (⟨S330000, .i32⟩ : BufTy).Contents (Elt F) → (⟨S330000, .i1⟩ : BufTy).Contents (Elt F))
  :: nullary main_c_29 (constantI S_ 32 10000#32)
  :: unary main_c_29 main_v142 (broadcastInDim S330000 ![] bcast_S_S330000 : (⟨S_, .i32⟩ : BufTy).Contents (Elt F) → (⟨S330000, .i32⟩ : BufTy).Contents (Elt F))
  :: binary main_v125 main_v142 main_v143 (addi : (⟨S330000, .i32⟩ : BufTy).Contents (Elt F) → (⟨S330000, .i32⟩ : BufTy).Contents (Elt F) → (⟨S330000, .i32⟩ : BufTy).Contents (Elt F))
  :: ternary main_v141 main_v143 main_v125 main_v144 (select : (⟨S330000, .i1⟩ : BufTy).Contents (Elt F) → (⟨S330000, .i32⟩ : BufTy).Contents (Elt F) → (⟨S330000, .i32⟩ : BufTy).Contents (Elt F) → (⟨S330000, .i32⟩ : BufTy).Contents (Elt F))
  :: unary main_v144 main_v145 (broadcastInDim S330000x1 ![0] bcast_S330000_S330000x1_0 : (⟨S330000, .i32⟩ : BufTy).Contents (Elt F) → (⟨S330000x1, .i32⟩ : BufTy).Contents (Elt F))
  :: binary main_v131 main_v145 main_v146 ((fun x i => Host.gather gather_S10000_S330000x1_S330000_n_0_n_n_0_1_1 x i) : (⟨S10000, .f32⟩ : BufTy).Contents (Elt F) → (⟨S330000x1, .i32⟩ : BufTy).Contents (Elt F) → (⟨S330000, .f32⟩ : BufTy).Contents (Elt F))
  :: binary main_v139 main_v146 main_v147 (mulf : (⟨S330000, .f32⟩ : BufTy).Contents (Elt F) → (⟨S330000, .f32⟩ : BufTy).Contents (Elt F) → (⟨S330000, .f32⟩ : BufTy).Contents (Elt F))
  :: [] )

end Cert.ReferenceIdeal.HandRun

end
-- ==== Proof.RefSliceStepsB.lean ====
/-
  Slices 2 … 7 of the twenty: each carries the boundary before it to the boundary after it (RefSliceInv). Every
  line of a step reads one buffer live after the slice: `carried` when no operation of the slice writes it, `computed`
  from the named facts about the buffers its operations read when the slice writes it (PrefixTac).
-/
import proofs.«154350_j35708358099201_1_alg».proof.Proof.RefSliceInv
import proofs.«154350_j35708358099201_1_alg».proof.Proof.RefSliceOpsB

set_option maxRecDepth 8192

noncomputable section

namespace Cert.ReferenceIdeal.HandRun

open Cert.ReferenceIdeal Cert.ReferenceIdeal.Gen Idealize.ShloMosaic Idealize.ShloMosaic.TcCoe Idealize.SL.Sem Idealize.ShloMosaic.StableHlo
open Cert.ReferenceIdeal.ReadP

variable {F : FTy → Type} [FloatOps F]

set_option maxHeartbeats 8000000 in
/-- Slice 2 (35 operations: list 2 of the shared prefix) carries the boundary before it to the boundary after it: each
    buffer live after the slice is either untouched by it, or written by it from buffers live before it. -/
theorem step2 {W : Valuation τ sig (Elt F)} {x0 : (⟨S10000x128, .f32⟩ : BufTy).Contents (Elt F)} {x1 : (⟨S10000x128, .f32⟩ : BufTy).Contents (Elt F)} {x2 : (⟨S10000x10000, .f32⟩ : BufTy).Contents (Elt F)} {x3 : (⟨S10000x10000, .f32⟩ : BufTy).Contents (Elt F)} {x4 : (⟨S2x320000, .i32⟩ : BufTy).Contents (Elt F)} {x5 : (⟨S2x320000, .i32⟩ : BufTy).Contents (Elt F)} {x6 : (⟨S128x128, .f32⟩ : BufTy).Contents (Elt F)} {x7 : (⟨S128, .f32⟩ : BufTy).Contents (Elt F)} {x8 : (⟨S128x128, .f32⟩ : BufTy).Contents (Elt F)} {x9 : (⟨S128, .f32⟩ : BufTy).Contents (Elt F)} {x10 : (⟨S128x128, .f32⟩ : BufTy).Contents (Elt F)} {x11 : (⟨S128, .f32⟩ : BufTy).Contents (Elt F)} {x12 : (⟨S128x128, .f32⟩ : BufTy).Contents (Elt F)} {x13 : (⟨S128, .f32⟩ : BufTy).Contents (Elt F)} {x14 : (⟨S128x128, .f32⟩ : BufTy).Contents (Elt F)} {x15 : (⟨S128, .f32⟩ : BufTy).Contents (Elt F)} {x16 : (⟨S128x64, .f32⟩ : BufTy).Contents (Elt F)} {x17 : (⟨S64, .f32⟩ : BufTy).Contents (Elt F)} {x18 : (⟨S64x32, .f32⟩ : BufTy).Contents (Elt F)} {x19 : (⟨S32, .f32⟩ : BufTy).Contents (Elt F)} {x20 : (⟨S128x128, .f32⟩ : BufTy).Contents (Elt F)} {x21 : (⟨S128, .f32⟩ : BufTy).Contents (Elt F)} {x22 : (⟨S128x64, .f32⟩ : BufTy).Contents (Elt F)} {x23 : (⟨S64, .f32⟩ : BufTy).Contents (Elt F)} {x24 : (⟨S64x32, .f32⟩ : BufTy).Contents (Elt F)} {x25 : (⟨S32, .f32⟩ : BufTy).Contents (Elt F)}
    (h : Inv1 W x0 x1 x2 x3 x4 x5 x6 x7 x8 x9 x10 x11 x12 x13 x14 x15 x16 x17 x18 x19 x20 x21 x22 x23 x24 x25) : Inv2 (StableHlo.after slice2 W) x0 x1 x2 x3 x4 x5 x6 x7 x8 x9 x10 x11 x12 x13 x14 x15 x16 x17 x18 x19 x20 x21 x22 x23 x24 x25 := by
  open_list slice2
  constructor
  · carried h.h_v1
  · carried h.h_v3
  · carried h.h_v5
  · carried h.h_v7
  · carried h.h_v21
  · carried h.h_v35
  · computed [h.h_v39, h.h_v36, h.h_v38, h.h_v45, h.h_v47, h.h_c_9, h.h_v41, h.h_arg7]
  · carried h.h_arg1
  · carried h.h_arg8
  · carried h.h_arg9
  · carried h.h_arg10
  · carried h.h_arg11
  · carried h.h_arg12
  · carried h.h_arg13
  · carried h.h_arg14
  · carried h.h_arg15
  · carried h.h_arg16
  · carried h.h_arg17
  · carried h.h_arg18
  · carried h.h_arg19
  · carried h.h_arg20
  · carried h.h_arg21
  · carried h.h_arg22
  · carried h.h_arg23
  · carried h.h_arg24
  · carried h.h_arg25

set_option maxHeartbeats 8000000 in
/-- Slice 3 (3 operations: list 3 of the shared prefix) carries the boundary before it to the boundary after it: each
    buffer live after the slice is either untouched by it, or written by it from buffers live before it. -/
theorem step3 {W : Valuation τ sig (Elt F)} {x0 : (⟨S10000x128, .f32⟩ : BufTy).Contents (Elt F)} {x1 : (⟨S10000x128, .f32⟩ : BufTy).Contents (Elt F)} {x2 : (⟨S10000x10000, .f32⟩ : BufTy).Contents (Elt F)} {x3 : (⟨S10000x10000, .f32⟩ : BufTy).Contents (Elt F)} {x4 : (⟨S2x320000, .i32⟩ : BufTy).Contents (Elt F)} {x5 : (⟨S2x320000, .i32⟩ : BufTy).Contents (Elt F)} {x6 : (⟨S128x128, .f32⟩ : BufTy).Contents (Elt F)} {x7 : (⟨S128, .f32⟩ : BufTy).Contents (Elt F)} {x8 : (⟨S128x128, .f32⟩ : BufTy).Contents (Elt F)} {x9 : (⟨S128, .f32⟩ : BufTy).Contents (Elt F)} {x10 : (⟨S128x128, .f32⟩ : BufTy).Contents (Elt F)} {x11 : (⟨S128, .f32⟩ : BufTy).Contents (Elt F)} {x12 : (⟨S128x128, .f32⟩ : BufTy).Contents (Elt F)} {x13 : (⟨S128, .f32⟩ : BufTy).Contents (Elt F)} {x14 : (⟨S128x128, .f32⟩ : BufTy).Contents (Elt F)} {x15 : (⟨S128, .f32⟩ : BufTy).Contents (Elt F)} {x16 : (⟨S128x64, .f32⟩ : BufTy).Contents (Elt F)} {x17 : (⟨S64, .f32⟩ : BufTy).Contents (Elt F)} {x18 : (⟨S64x32, .f32⟩ : BufTy).Contents (Elt F)} {x19 : (⟨S32, .f32⟩ : BufTy).Contents (Elt F)} {x20 : (⟨S128x128, .f32⟩ : BufTy).Contents (Elt F)} {x21 : (⟨S128, .f32⟩ : BufTy).Contents (Elt F)} {x22 : (⟨S128x64, .f32⟩ : BufTy).Contents (Elt F)} {x23 : (⟨S64, .f32⟩ : BufTy).Contents (Elt F)} {x24 : (⟨S64x32, .f32⟩ : BufTy).Contents (Elt F)} {x25 : (⟨S32, .f32⟩ : BufTy).Contents (Elt F)}
    (h : Inv2 W x0 x1 x2 x3 x4 x5 x6 x7 x8 x9 x10 x11 x12 x13 x14 x15 x16 x17 x18 x19 x20 x21 x22 x23 x24 x25) : Inv3 (StableHlo.after slice3 W) x0 x1 x2 x3 x4 x5 x6 x7 x8 x9 x10 x11 x12 x13 x14 x15 x16 x17 x18 x19 x20 x21 x22 x23 x24 x25 := by
  open_list slice3
  constructor
  · carried h.h_v1
  · carried h.h_v3
  · carried h.h_v5
  · carried h.h_v7
  · carried h.h_v21
  · carried h.h_v35
  · computed [h.h_v77]
  · carried h.h_arg1
  · carried h.h_arg8
  · carried h.h_arg9
  · carried h.h_arg10
  · carried h.h_arg11
  · carried h.h_arg12
  · carried h.h_arg13
  · carried h.h_arg14
  · carried h.h_arg15
  · carried h.h_arg16
  · carried h.h_arg17
  · carried h.h_arg18
  · carried h.h_arg19
  · carried h.h_arg20
  · carried h.h_arg21
  · carried h.h_arg22
  · carried h.h_arg23
  · carried h.h_arg24
  · carried h.h_arg25

set_option maxHeartbeats 8000000 in
/-- Slice 4 (24 operations: list 4 of the shared prefix) carries the boundary before it to the boundary after it: each
    buffer live after the slice is either untouched by it, or written by it from buffers live before it. -/
theorem step4 {W : Valuation τ sig (Elt F)} {x0 : (⟨S10000x128, .f32⟩ : BufTy).Contents (Elt F)} {x1 : (⟨S10000x128, .f32⟩ : BufTy).Contents (Elt F)} {x2 : (⟨S10000x10000, .f32⟩ : BufTy).Contents (Elt F)} {x3 : (⟨S10000x10000, .f32⟩ : BufTy).Contents (Elt F)} {x4 : (⟨S2x320000, .i32⟩ : BufTy).Contents (Elt F)} {x5 : (⟨S2x320000, .i32⟩ : BufTy).Contents (Elt F)} {x6 : (⟨S128x128, .f32⟩ : BufTy).Contents (Elt F)} {x7 : (⟨S128, .f32⟩ : BufTy).Contents (Elt F)} {x8 : (⟨S128x128, .f32⟩ : BufTy).Contents (Elt F)} {x9 : (⟨S128, .f32⟩ : BufTy).Contents (Elt F)} {x10 : (⟨S128x128, .f32⟩ : BufTy).Contents (Elt F)} {x11 : (⟨S128, .f32⟩ : BufTy).Contents (Elt F)} {x12 : (⟨S128x128, .f32⟩ : BufTy).Contents (Elt F)} {x13 : (⟨S128, .f32⟩ : BufTy).Contents (Elt F)} {x14 : (⟨S128x128, .f32⟩ : BufTy).Contents (Elt F)} {x15 : (⟨S128, .f32⟩ : BufTy).Contents (Elt F)} {x16 : (⟨S128x64, .f32⟩ : BufTy).Contents (Elt F)} {x17 : (⟨S64, .f32⟩ : BufTy).Contents (Elt F)} {x18 : (⟨S64x32, .f32⟩ : BufTy).Contents (Elt F)} {x19 : (⟨S32, .f32⟩ : BufTy).Contents (Elt F)} {x20 : (⟨S128x128, .f32⟩ : BufTy).Contents (Elt F)} {x21 : (⟨S128, .f32⟩ : BufTy).Contents (Elt F)} {x22 : (⟨S128x64, .f32⟩ : BufTy).Contents (Elt F)} {x23 : (⟨S64, .f32⟩ : BufTy).Contents (Elt F)} {x24 : (⟨S64x32, .f32⟩ : BufTy).Contents (Elt F)} {x25 : (⟨S32, .f32⟩ : BufTy).Contents (Elt F)}
    (h : Inv3 W x0 x1 x2 x3 x4 x5 x6 x7 x8 x9 x10 x11 x12 x13 x14 x15 x16 x17 x18 x19 x20 x21 x22 x23 x24 x25) : Inv4 (StableHlo.after slice4 W) x0 x1 x2 x3 x4 x5 x6 x7 x8 x9 x10 x11 x12 x13 x14 x15 x16 x17 x18 x19 x20 x21 x22 x23 x24 x25 := by
  open_list slice4
  constructor
  · carried h.h_v1
  · carried h.h_v3
  · carried h.h_v5
  · carried h.h_v7
  · carried h.h_v21
  · carried h.h_v35
  · computed [h.h_v78, h.h_arg8]
  · computed [h.h_v1]
  · computed [h.h_v3]
  · computed [h.h_v3, h.h_v21]
  · computed [h.h_v3, h.h_v21, h.h_v1]
  · computed []
  · carried h.h_arg1
  · carried h.h_arg8
  · carried h.h_arg9
  · carried h.h_arg10
  · carried h.h_arg11
  · carried h.h_arg12
  · carried h.h_arg13
  · carried h.h_arg14
  · carried h.h_arg15
  · carried h.h_arg16
  · carried h.h_arg17
  · carried h.h_arg18
  · carried h.h_arg19
  · carried h.h_arg20
  · carried h.h_arg21
  · carried h.h_arg22
  · carried h.h_arg23
  · carried h.h_arg24
  · carried h.h_arg25

set_option maxHeartbeats 8000000 in
/-- Slice 5 (27 operations: list 5 of the shared prefix) carries the boundary before it to the boundary after it: each
    buffer live after the slice is either untouched by it, or written by it from buffers live before it. -/
theorem step5 {W : Valuation τ sig (Elt F)} {x0 : (⟨S10000x128, .f32⟩ : BufTy).Contents (Elt F)} {x1 : (⟨S10000x128, .f32⟩ : BufTy).Contents (Elt F)} {x2 : (⟨S10000x10000, .f32⟩ : BufTy).Contents (Elt F)} {x3 : (⟨S10000x10000, .f32⟩ : BufTy).Contents (Elt F)} {x4 : (⟨S2x320000, .i32⟩ : BufTy).Contents (Elt F)} {x5 : (⟨S2x320000, .i32⟩ : BufTy).Contents (Elt F)} {x6 : (⟨S128x128, .f32⟩ : BufTy).Contents (Elt F)} {x7 : (⟨S128, .f32⟩ : BufTy).Contents (Elt F)} {x8 : (⟨S128x128, .f32⟩ : BufTy).Contents (Elt F)} {x9 : (⟨S128, .f32⟩ : BufTy).Contents (Elt F)} {x10 : (⟨S128x128, .f32⟩ : BufTy).Contents (Elt F)} {x11 : (⟨S128, .f32⟩ : BufTy).Contents (Elt F)} {x12 : (⟨S128x128, .f32⟩ : BufTy).Contents (Elt F)} {x13 : (⟨S128, .f32⟩ : BufTy).Contents (Elt F)} {x14 : (⟨S128x128, .f32⟩ : BufTy).Contents (Elt F)} {x15 : (⟨S128, .f32⟩ : BufTy).Contents (Elt F)} {x16 : (⟨S128x64, .f32⟩ : BufTy).Contents (Elt F)} {x17 : (⟨S64, .f32⟩ : BufTy).Contents (Elt F)} {x18 : (⟨S64x32, .f32⟩ : BufTy).Contents (Elt F)} {x19 : (⟨S32, .f32⟩ : BufTy).Contents (Elt F)} {x20 : (⟨S128x128, .f32⟩ : BufTy).Contents (Elt F)} {x21 : (⟨S128, .f32⟩ : BufTy).Contents (Elt F)} {x22 : (⟨S128x64, .f32⟩ : BufTy).Contents (Elt F)} {x23 : (⟨S64, .f32⟩ : BufTy).Contents (Elt F)} {x24 : (⟨S64x32, .f32⟩ : BufTy).Contents (Elt F)} {x25 : (⟨S32, .f32⟩ : BufTy).Contents (Elt F)}
    (h : Inv4 W x0 x1 x2 x3 x4 x5 x6 x7 x8 x9 x10 x11 x12 x13 x14 x15 x16 x17 x18 x19 x20 x21 x22 x23 x24 x25) : Inv5 (StableHlo.after slice5 W) x0 x1 x2 x3 x4 x5 x6 x7 x8 x9 x10 x11 x12 x13 x14 x15 x16 x17 x18 x19 x20 x21 x22 x23 x24 x25 := by
  open_list slice5
  constructor
  · carried h.h_v1
  · carried h.h_v3
  · carried h.h_v5
  · carried h.h_v7
  · carried h.h_v21
  · carried h.h_v35
  · computed [h.h_v82, h.h_v79, h.h_v81, h.h_v96, h.h_v88, h.h_v97, h.h_arg9]
  · carried h.h_arg1
  · carried h.h_arg8
  · carried h.h_arg9
  · carried h.h_arg10
  · carried h.h_arg11
  · carried h.h_arg12
  · carried h.h_arg13
  · carried h.h_arg14
  · carried h.h_arg15
  · carried h.h_arg16
  · carried h.h_arg17
  · carried h.h_arg18
  · carried h.h_arg19
  · carried h.h_arg20
  · carried h.h_arg21
  · carried h.h_arg22
  · carried h.h_arg23
  · carried h.h_arg24
  · carried h.h_arg25

set_option maxHeartbeats 8000000 in
/-- Slice 6 (3 operations: list 6 of the shared prefix) carries the boundary before it to the boundary after it: each
    buffer live after the slice is either untouched by it, or written by it from buffers live before it. -/
theorem step6 {W : Valuation τ sig (Elt F)} {x0 : (⟨S10000x128, .f32⟩ : BufTy).Contents (Elt F)} {x1 : (⟨S10000x128, .f32⟩ : BufTy).Contents (Elt F)} {x2 : (⟨S10000x10000, .f32⟩ : BufTy).Contents (Elt F)} {x3 : (⟨S10000x10000, .f32⟩ : BufTy).Contents (Elt F)} {x4 : (⟨S2x320000, .i32⟩ : BufTy).Contents (Elt F)} {x5 : (⟨S2x320000, .i32⟩ : BufTy).Contents (Elt F)} {x6 : (⟨S128x128, .f32⟩ : BufTy).Contents (Elt F)} {x7 : (⟨S128, .f32⟩ : BufTy).Contents (Elt F)} {x8 : (⟨S128x128, .f32⟩ : BufTy).Contents (Elt F)} {x9 : (⟨S128, .f32⟩ : BufTy).Contents (Elt F)} {x10 : (⟨S128x128, .f32⟩ : BufTy).Contents (Elt F)} {x11 : (⟨S128, .f32⟩ : BufTy).Contents (Elt F)} {x12 : (⟨S128x128, .f32⟩ : BufTy).Contents (Elt F)} {x13 : (⟨S128, .f32⟩ : BufTy).Contents (Elt F)} {x14 : (⟨S128x128, .f32⟩ : BufTy).Contents (Elt F)} {x15 : (⟨S128, .f32⟩ : BufTy).Contents (Elt F)} {x16 : (⟨S128x64, .f32⟩ : BufTy).Contents (Elt F)} {x17 : (⟨S64, .f32⟩ : BufTy).Contents (Elt F)} {x18 : (⟨S64x32, .f32⟩ : BufTy).Contents (Elt F)} {x19 : (⟨S32, .f32⟩ : BufTy).Contents (Elt F)} {x20 : (⟨S128x128, .f32⟩ : BufTy).Contents (Elt F)} {x21 : (⟨S128, .f32⟩ : BufTy).Contents (Elt F)} {x22 : (⟨S128x64, .f32⟩ : BufTy).Contents (Elt F)} {x23 : (⟨S64, .f32⟩ : BufTy).Contents (Elt F)} {x24 : (⟨S64x32, .f32⟩ : BufTy).Contents (Elt F)} {x25 : (⟨S32, .f32⟩ : BufTy).Contents (Elt F)}
    (h : Inv5 W x0 x1 x2 x3 x4 x5 x6 x7 x8 x9 x10 x11 x12 x13 x14 x15 x16 x17 x18 x19 x20 x21 x22 x23 x24 x25) : Inv6 (StableHlo.after slice6 W) x0 x1 x2 x3 x4 x5 x6 x7 x8 x9 x10 x11 x12 x13 x14 x15 x16 x17 x18 x19 x20 x21 x22 x23 x24 x25 := by
  open_list slice6
  constructor
  · carried h.h_v1
  · carried h.h_v3
  · carried h.h_v5
  · carried h.h_v7
  · carried h.h_v21
  · carried h.h_v35
  · computed [h.h_v120]
  · carried h.h_arg1
  · carried h.h_arg8
  · carried h.h_arg9
  · carried h.h_arg10
  · carried h.h_arg11
  · carried h.h_arg12
  · carried h.h_arg13
  · carried h.h_arg14
  · carried h.h_arg15
  · carried h.h_arg16
  · carried h.h_arg17
  · carried h.h_arg18
  · carried h.h_arg19
  · carried h.h_arg20
  · carried h.h_arg21
  · carried h.h_arg22
  · carried h.h_arg23
  · carried h.h_arg24
  · carried h.h_arg25

set_option maxHeartbeats 8000000 in
/-- Slice 7 (32 operations: list 7 of the shared prefix) carries the boundary before it to the boundary after it: each
    buffer live after the slice is either untouched by it, or written by it from buffers live before it. -/
theorem step7 {W : Valuation τ sig (Elt F)} {x0 : (⟨S10000x128, .f32⟩ : BufTy).Contents (Elt F)} {x1 : (⟨S10000x128, .f32⟩ : BufTy).Contents (Elt F)} {x2 : (⟨S10000x10000, .f32⟩ : BufTy).Contents (Elt F)} {x3 : (⟨S10000x10000, .f32⟩ : BufTy).Contents (Elt F)} {x4 : (⟨S2x320000, .i32⟩ : BufTy).Contents (Elt F)} {x5 : (⟨S2x320000, .i32⟩ : BufTy).Contents (Elt F)} {x6 : (⟨S128x128, .f32⟩ : BufTy).Contents (Elt F)} {x7 : (⟨S128, .f32⟩ : BufTy).Contents (Elt F)} {x8 : (⟨S128x128, .f32⟩ : BufTy).Contents (Elt F)} {x9 : (⟨S128, .f32⟩ : BufTy).Contents (Elt F)} {x10 : (⟨S128x128, .f32⟩ : BufTy).Contents (Elt F)} {x11 : (⟨S128, .f32⟩ : BufTy).Contents (Elt F)} {x12 : (⟨S128x128, .f32⟩ : BufTy).Contents (Elt F)} {x13 : (⟨S128, .f32⟩ : BufTy).Contents (Elt F)} {x14 : (⟨S128x128, .f32⟩ : BufTy).Contents (Elt F)} {x15 : (⟨S128, .f32⟩ : BufTy).Contents (Elt F)} {x16 : (⟨S128x64, .f32⟩ : BufTy).Contents (Elt F)} {x17 : (⟨S64, .f32⟩ : BufTy).Contents (Elt F)} {x18 : (⟨S64x32, .f32⟩ : BufTy).Contents (Elt F)} {x19 : (⟨S32, .f32⟩ : BufTy).Contents (Elt F)} {x20 : (⟨S128x128, .f32⟩ : BufTy).Contents (Elt F)} {x21 : (⟨S128, .f32⟩ : BufTy).Contents (Elt F)} {x22 : (⟨S128x64, .f32⟩ : BufTy).Contents (Elt F)} {x23 : (⟨S64, .f32⟩ : BufTy).Contents (Elt F)} {x24 : (⟨S64x32, .f32⟩ : BufTy).Contents (Elt F)} {x25 : (⟨S32, .f32⟩ : BufTy).Contents (Elt F)}
    (h : Inv6 W x0 x1 x2 x3 x4 x5 x6 x7 x8 x9 x10 x11 x12 x13 x14 x15 x16 x17 x18 x19 x20 x21 x22 x23 x24 x25) : Inv7 (StableHlo.after slice7 W) x0 x1 x2 x3 x4 x5 x6 x7 x8 x9 x10 x11 x12 x13 x14 x15 x16 x17 x18 x19 x20 x21 x22 x23 x24 x25 := by
  open_list slice7
  constructor
  · carried h.h_v5
  · carried h.h_v7
  · carried h.h_v35
  · computed [h.h_v121, h.h_arg8]
  · computed [h.h_v1]
  · computed [h.h_v3]
  · computed [h.h_v3, h.h_v21, h.h_v1]
  · carried h.h_arg1
  · carried h.h_arg9
  · carried h.h_arg10
  · carried h.h_arg11
  · carried h.h_arg12
  · carried h.h_arg13
  · carried h.h_arg14
  · carried h.h_arg15
  · carried h.h_arg16
  · carried h.h_arg17
  · carried h.h_arg18
  · carried h.h_arg19
  · carried h.h_arg20
  · carried h.h_arg21
  · carried h.h_arg22
  · carried h.h_arg23
  · carried h.h_arg24
  · carried h.h_arg25

end Cert.ReferenceIdeal.HandRun

end
-- ==== Proof.RefSliceOpsC.lean ====
/-
  The reference program's 412 operations (`OpsP.ops`), cut in program order into twenty consecutive slices; this module
  holds slices 8 … 13, each operation's text as the list states it. RefResult proves that the twenty slices, joined in order,
  are the list.
-/
import proofs.«154350_j35708358099201_1_alg».proof.Proof.Gen.ReferenceIdeal
import Idealize.ShloMosaic.Lib.StableHlo.Run

set_option maxRecDepth 8192

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- Slice 8: 19 operations (list 8 of the shared prefix). -/
abbrev slice8 : List (HloOp τ sig (Elt F)) :=
  ( nullary main_c_30 (constantI S_ 32 0#32)
  :: unary main_c_30 main_v148 (broadcastInDim S330000 ![] bcast_S_S330000 : (⟨S_, .i32⟩ : BufTy).Contents (Elt F) → (⟨S330000, .i32⟩ : BufTy).Contents (Elt F))
  :: binary main_v124 main_v148 main_v149 (cmpi .slt : (⟨S330000, .i32⟩ : BufTy).Contents (Elt F) → (⟨S330000, .i32⟩ : BufTy).Contents (Elt F) → (⟨S330000, .i1⟩ : BufTy).Contents (Elt F))
  :: nullary main_c_31 (constantI S_ 32 10000#32)
  :: unary main_c_31 main_v150 (broadcastInDim S330000 ![] bcast_S_S330000 : (⟨S_, .i32⟩ : BufTy).Contents (Elt F) → (⟨S330000, .i32⟩ : BufTy).Contents (Elt F))
  :: binary main_v124 main_v150 main_v151 (addi : (⟨S330000, .i32⟩ : BufTy).Contents (Elt F) → (⟨S330000, .i32⟩ : BufTy).Contents (Elt F) → (⟨S330000, .i32⟩ : BufTy).Contents (Elt F))
  :: ternary main_v149 main_v151 main_v124 main_v152 (select : (⟨S330000, .i1⟩ : BufTy).Contents (Elt F) → (⟨S330000, .i32⟩ : BufTy).Contents (Elt F) → (⟨S330000, .i32⟩ : BufTy).Contents (Elt F) → (⟨S330000, .i32⟩ : BufTy).Contents (Elt F))
  :: unary main_v152 main_v153 (broadcastInDim S330000x1 ![0] bcast_S330000_S330000x1_0 : (⟨S330000, .i32⟩ : BufTy).Contents (Elt F) → (⟨S330000x1, .i32⟩ : BufTy).Contents (Elt F))
  :: binary main_v122 main_v153 main_v154 ((fun x i => Host.gather gather_S10000x128_S330000x1_S330000x128_1_0_n_n_0_1_1128 x i) : (⟨S10000x128, .f32⟩ : BufTy).Contents (Elt F) → (⟨S330000x1, .i32⟩ : BufTy).Contents (Elt F) → (⟨S330000x128, .f32⟩ : BufTy).Contents (Elt F))
  :: unary main_v147 main_v155 (broadcastInDim S330000x1 ![0] bcast_S330000_S330000x1_0 : (⟨S330000, .f32⟩ : BufTy).Contents (Elt F) → (⟨S330000x1, .f32⟩ : BufTy).Contents (Elt F))
  :: unary main_v155 main_v156 (broadcastInDim S330000x128 ![0, 1] bcast_S330000x1_S330000x128_0_1 : (⟨S330000x1, .f32⟩ : BufTy).Contents (Elt F) → (⟨S330000x128, .f32⟩ : BufTy).Contents (Elt F))
  :: binary main_v154 main_v156 main_v157 (mulf : (⟨S330000x128, .f32⟩ : BufTy).Contents (Elt F) → (⟨S330000x128, .f32⟩ : BufTy).Contents (Elt F) → (⟨S330000x128, .f32⟩ : BufTy).Contents (Elt F))
  :: nullary main_cst_32 (constant S_ .f32 0x00000000#32)
  :: unary main_cst_32 main_v158 (broadcastInDim S10000x128 ![] bcast_S_S10000x128 : (⟨S_, .f32⟩ : BufTy).Contents (Elt F) → (⟨S10000x128, .f32⟩ : BufTy).Contents (Elt F))
  :: unary main_v125 main_v159 (broadcastInDim S330000x1 ![0] bcast_S330000_S330000x1_0 : (⟨S330000, .i32⟩ : BufTy).Contents (Elt F) → (⟨S330000x1, .i32⟩ : BufTy).Contents (Elt F))
  :: ternary main_v158 main_v159 main_v157 main_v160 ((fun x i u => Host.scatterAdd scatter_S10000x128_S330000x1_S330000x128_1_0_0_1 x i u) : (⟨S10000x128, .f32⟩ : BufTy).Contents (Elt F) → (⟨S330000x1, .i32⟩ : BufTy).Contents (Elt F) → (⟨S330000x128, .f32⟩ : BufTy).Contents (Elt F) → (⟨S10000x128, .f32⟩ : BufTy).Contents (Elt F))
  :: unary main_arg9 main_v161 (broadcastInDim S1x128 ![1] bcast_S128_S1x128_1 : (⟨S128, .f32⟩ : BufTy).Contents (Elt F) → (⟨S1x128, .f32⟩ : BufTy).Contents (Elt F))
  :: unary main_v161 main_v162 (broadcastInDim S10000x128 ![0, 1] bcast_S1x128_S10000x128_0_1 : (⟨S1x128, .f32⟩ : BufTy).Contents (Elt F) → (⟨S10000x128, .f32⟩ : BufTy).Contents (Elt F))
  :: binary main_v160 main_v162 main_v163 (addf : (⟨S10000x128, .f32⟩ : BufTy).Contents (Elt F) → (⟨S10000x128, .f32⟩ : BufTy).Contents (Elt F) → (⟨S10000x128, .f32⟩ : BufTy).Contents (Elt F))
  :: [] )

/-- Slice 9: 3 operations (list 9 of the shared prefix). -/
abbrev slice9 : List (HloOp τ sig (Elt F)) :=
  ( TRef.nullary (TRef.of (T := ⟨S_, .f32⟩) main_call2_cst) (constant S_ .f32 0x00000000#32)
  :: TRef.unary (TRef.of (T := ⟨S_, .f32⟩) main_call2_cst) (TRef.of (T := ⟨S10000x128, .f32⟩) main_call2_v0) (broadcastInDim S10000x128 ![] bcast_S_S10000x128)
  :: TRef.binary (TRef.of (T := ⟨S10000x128, .f32⟩) main_v163) (TRef.of (T := ⟨S10000x128, .f32⟩) main_call2_v0) (TRef.of (T := ⟨S10000x128, .f32⟩) main_v164) maximumf
  :: [] )

/-- Slice 10: 40 operations (list 10 of the shared prefix). -/
abbrev slice10 : List (HloOp τ sig (Elt F)) :=
  ( binary main_arg1 main_arg10 main_v165 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F))
  :: nullary main_v166 (iotaInDim S10000 32 0)
  :: binary main_v5 main_v166 main_v167 ((fun a b => concatenate S330000 0 [⟨S320000, a⟩, ⟨S10000, b⟩] concatenates_S320000_S10000_S330000_d0) : (⟨S320000, .i32⟩ : BufTy).Contents (Elt F) → (⟨S10000, .i32⟩ : BufTy).Contents (Elt F) → (⟨S330000, .i32⟩ : BufTy).Contents (Elt F))
  :: binary main_v7 main_v166 main_v168 ((fun a b => concatenate S330000 0 [⟨S320000, a⟩, ⟨S10000, b⟩] concatenates_S320000_S10000_S330000_d0) : (⟨S320000, .i32⟩ : BufTy).Contents (Elt F) → (⟨S10000, .i32⟩ : BufTy).Contents (Elt F) → (⟨S330000, .i32⟩ : BufTy).Contents (Elt F))
  :: nullary main_cst_33 (constant S_ .f32 0x3F800000#32)
  :: unary main_cst_33 main_v169 (broadcastInDim S10000 ![] bcast_S_S10000 : (⟨S_, .f32⟩ : BufTy).Contents (Elt F) → (⟨S10000, .f32⟩ : BufTy).Contents (Elt F))
  :: binary main_v35 main_v169 main_v170 ((fun a b => concatenate S330000 0 [⟨S320000, a⟩, ⟨S10000, b⟩] concatenates_S320000_S10000_S330000_d0) : (⟨S320000, .f32⟩ : BufTy).Contents (Elt F) → (⟨S10000, .f32⟩ : BufTy).Contents (Elt F) → (⟨S330000, .f32⟩ : BufTy).Contents (Elt F))
  :: nullary main_cst_34 (constant S_ .f32 0x00000000#32)
  :: unary main_cst_34 main_v171 (broadcastInDim S10000 ![] bcast_S_S10000 : (⟨S_, .f32⟩ : BufTy).Contents (Elt F) → (⟨S10000, .f32⟩ : BufTy).Contents (Elt F))
  :: unary main_v168 main_v172 (broadcastInDim S330000x1 ![0] bcast_S330000_S330000x1_0 : (⟨S330000, .i32⟩ : BufTy).Contents (Elt F) → (⟨S330000x1, .i32⟩ : BufTy).Contents (Elt F))
  :: ternary main_v171 main_v172 main_v170 main_v173 ((fun x i u => Host.scatterAdd scatter_S10000_S330000x1_S330000_n_0_0_1 x i u) : (⟨S10000, .f32⟩ : BufTy).Contents (Elt F) → (⟨S330000x1, .i32⟩ : BufTy).Contents (Elt F) → (⟨S330000, .f32⟩ : BufTy).Contents (Elt F) → (⟨S10000, .f32⟩ : BufTy).Contents (Elt F))
  :: unary main_v173 main_v174 (Host.rsqrt : (⟨S10000, .f32⟩ : BufTy).Contents (Elt F) → (⟨S10000, .f32⟩ : BufTy).Contents (Elt F))
  :: nullary main_c_35 (constantI S_ 32 0#32)
  :: unary main_c_35 main_v175 (broadcastInDim S330000 ![] bcast_S_S330000 : (⟨S_, .i32⟩ : BufTy).Contents (Elt F) → (⟨S330000, .i32⟩ : BufTy).Contents (Elt F))
  :: binary main_v167 main_v175 main_v176 (cmpi .slt : (⟨S330000, .i32⟩ : BufTy).Contents (Elt F) → (⟨S330000, .i32⟩ : BufTy).Contents (Elt F) → (⟨S330000, .i1⟩ : BufTy).Contents (Elt F))
  :: nullary main_c_36 (constantI S_ 32 10000#32)
  :: unary main_c_36 main_v177 (broadcastInDim S330000 ![] bcast_S_S330000 : (⟨S_, .i32⟩ : BufTy).Contents (Elt F) → (⟨S330000, .i32⟩ : BufTy).Contents (Elt F))
  :: binary main_v167 main_v177 main_v178 (addi : (⟨S330000, .i32⟩ : BufTy).Contents (Elt F) → (⟨S330000, .i32⟩ : BufTy).Contents (Elt F) → (⟨S330000, .i32⟩ : BufTy).Contents (Elt F))
  :: ternary main_v176 main_v178 main_v167 main_v179 (select : (⟨S330000, .i1⟩ : BufTy).Contents (Elt F) → (⟨S330000, .i32⟩ : BufTy).Contents (Elt F) → (⟨S330000, .i32⟩ : BufTy).Contents (Elt F) → (⟨S330000, .i32⟩ : BufTy).Contents (Elt F))
  :: unary main_v179 main_v180 (broadcastInDim S330000x1 ![0] bcast_S330000_S330000x1_0 : (⟨S330000, .i32⟩ : BufTy).Contents (Elt F) → (⟨S330000x1, .i32⟩ : BufTy).Contents (Elt F))
  :: binary main_v174 main_v180 main_v181 ((fun x i => Host.gather gather_S10000_S330000x1_S330000_n_0_n_n_0_1_1 x i) : (⟨S10000, .f32⟩ : BufTy).Contents (Elt F) → (⟨S330000x1, .i32⟩ : BufTy).Contents (Elt F) → (⟨S330000, .f32⟩ : BufTy).Contents (Elt F))
  :: binary main_v181 main_v170 main_v182 (mulf : (⟨S330000, .f32⟩ : BufTy).Contents (Elt F) → (⟨S330000, .f32⟩ : BufTy).Contents (Elt F) → (⟨S330000, .f32⟩ : BufTy).Contents (Elt F))
  :: nullary main_c_37 (constantI S_ 32 0#32)
  :: unary main_c_37 main_v183 (broadcastInDim S330000 ![] bcast_S_S330000 : (⟨S_, .i32⟩ : BufTy).Contents (Elt F) → (⟨S330000, .i32⟩ : BufTy).Contents (Elt F))
  :: binary main_v168 main_v183 main_v184 (cmpi .slt : (⟨S330000, .i32⟩ : BufTy).Contents (Elt F) → (⟨S330000, .i32⟩ : BufTy).Contents (Elt F) → (⟨S330000, .i1⟩ : BufTy).Contents (Elt F))
  :: nullary main_c_38 (constantI S_ 32 10000#32)
  :: unary main_c_38 main_v185 (broadcastInDim S330000 ![] bcast_S_S330000 : (⟨S_, .i32⟩ : BufTy).Contents (Elt F) → (⟨S330000, .i32⟩ : BufTy).Contents (Elt F))
  :: binary main_v168 main_v185 main_v186 (addi : (⟨S330000, .i32⟩ : BufTy).Contents (Elt F) → (⟨S330000, .i32⟩ : BufTy).Contents (Elt F) → (⟨S330000, .i32⟩ : BufTy).Contents (Elt F))
  :: ternary main_v184 main_v186 main_v168 main_v187 (select : (⟨S330000, .i1⟩ : BufTy).Contents (Elt F) → (⟨S330000, .i32⟩ : BufTy).Contents (Elt F) → (⟨S330000, .i32⟩ : BufTy).Contents (Elt F) → (⟨S330000, .i32⟩ : BufTy).Contents (Elt F))
  :: unary main_v187 main_v188 (broadcastInDim S330000x1 ![0] bcast_S330000_S330000x1_0 : (⟨S330000, .i32⟩ : BufTy).Contents (Elt F) → (⟨S330000x1, .i32⟩ : BufTy).Contents (Elt F))
  :: binary main_v174 main_v188 main_v189 ((fun x i => Host.gather gather_S10000_S330000x1_S330000_n_0_n_n_0_1_1 x i) : (⟨S10000, .f32⟩ : BufTy).Contents (Elt F) → (⟨S330000x1, .i32⟩ : BufTy).Contents (Elt F) → (⟨S330000, .f32⟩ : BufTy).Contents (Elt F))
  :: binary main_v182 main_v189 main_v190 (mulf : (⟨S330000, .f32⟩ : BufTy).Contents (Elt F) → (⟨S330000, .f32⟩ : BufTy).Contents (Elt F) → (⟨S330000, .f32⟩ : BufTy).Contents (Elt F))
  :: nullary main_c_39 (constantI S_ 32 0#32)
  :: unary main_c_39 main_v191 (broadcastInDim S330000 ![] bcast_S_S330000 : (⟨S_, .i32⟩ : BufTy).Contents (Elt F) → (⟨S330000, .i32⟩ : BufTy).Contents (Elt F))
  :: binary main_v167 main_v191 main_v192 (cmpi .slt : (⟨S330000, .i32⟩ : BufTy).Contents (Elt F) → (⟨S330000, .i32⟩ : BufTy).Contents (Elt F) → (⟨S330000, .i1⟩ : BufTy).Contents (Elt F))
  :: nullary main_c_40 (constantI S_ 32 10000#32)
  :: unary main_c_40 main_v193 (broadcastInDim S330000 ![] bcast_S_S330000 : (⟨S_, .i32⟩ : BufTy).Contents (Elt F) → (⟨S330000, .i32⟩ : BufTy).Contents (Elt F))
  :: binary main_v167 main_v193 main_v194 (addi : (⟨S330000, .i32⟩ : BufTy).Contents (Elt F) → (⟨S330000, .i32⟩ : BufTy).Contents (Elt F) → (⟨S330000, .i32⟩ : BufTy).Contents (Elt F))
  :: ternary main_v192 main_v194 main_v167 main_v195 (select : (⟨S330000, .i1⟩ : BufTy).Contents (Elt F) → (⟨S330000, .i32⟩ : BufTy).Contents (Elt F) → (⟨S330000, .i32⟩ : BufTy).Contents (Elt F) → (⟨S330000, .i32⟩ : BufTy).Contents (Elt F))
  :: unary main_v195 main_v196 (broadcastInDim S330000x1 ![0] bcast_S330000_S330000x1_0 : (⟨S330000, .i32⟩ : BufTy).Contents (Elt F) → (⟨S330000x1, .i32⟩ : BufTy).Contents (Elt F))
  :: [] )

/-- Slice 11: 11 operations (list 11 of the shared prefix). -/
abbrev slice11 : List (HloOp τ sig (Elt F)) :=
  ( binary main_v165 main_v196 main_v197 ((fun x i => Host.gather gather_S10000x128_S330000x1_S330000x128_1_0_n_n_0_1_1128 x i) : (⟨S10000x128, .f32⟩ : BufTy).Contents (Elt F) → (⟨S330000x1, .i32⟩ : BufTy).Contents (Elt F) → (⟨S330000x128, .f32⟩ : BufTy).Contents (Elt F))
  :: unary main_v190 main_v198 (broadcastInDim S330000x1 ![0] bcast_S330000_S330000x1_0 : (⟨S330000, .f32⟩ : BufTy).Contents (Elt F) → (⟨S330000x1, .f32⟩ : BufTy).Contents (Elt F))
  :: unary main_v198 main_v199 (broadcastInDim S330000x128 ![0, 1] bcast_S330000x1_S330000x128_0_1 : (⟨S330000x1, .f32⟩ : BufTy).Contents (Elt F) → (⟨S330000x128, .f32⟩ : BufTy).Contents (Elt F))
  :: binary main_v197 main_v199 main_v200 (mulf : (⟨S330000x128, .f32⟩ : BufTy).Contents (Elt F) → (⟨S330000x128, .f32⟩ : BufTy).Contents (Elt F) → (⟨S330000x128, .f32⟩ : BufTy).Contents (Elt F))
  :: nullary main_cst_41 (constant S_ .f32 0x00000000#32)
  :: unary main_cst_41 main_v201 (broadcastInDim S10000x128 ![] bcast_S_S10000x128 : (⟨S_, .f32⟩ : BufTy).Contents (Elt F) → (⟨S10000x128, .f32⟩ : BufTy).Contents (Elt F))
  :: unary main_v168 main_v202 (broadcastInDim S330000x1 ![0] bcast_S330000_S330000x1_0 : (⟨S330000, .i32⟩ : BufTy).Contents (Elt F) → (⟨S330000x1, .i32⟩ : BufTy).Contents (Elt F))
  :: ternary main_v201 main_v202 main_v200 main_v203 ((fun x i u => Host.scatterAdd scatter_S10000x128_S330000x1_S330000x128_1_0_0_1 x i u) : (⟨S10000x128, .f32⟩ : BufTy).Contents (Elt F) → (⟨S330000x1, .i32⟩ : BufTy).Contents (Elt F) → (⟨S330000x128, .f32⟩ : BufTy).Contents (Elt F) → (⟨S10000x128, .f32⟩ : BufTy).Contents (Elt F))
  :: unary main_arg11 main_v204 (broadcastInDim S1x128 ![1] bcast_S128_S1x128_1 : (⟨S128, .f32⟩ : BufTy).Contents (Elt F) → (⟨S1x128, .f32⟩ : BufTy).Contents (Elt F))
  :: unary main_v204 main_v205 (broadcastInDim S10000x128 ![0, 1] bcast_S1x128_S10000x128_0_1 : (⟨S1x128, .f32⟩ : BufTy).Contents (Elt F) → (⟨S10000x128, .f32⟩ : BufTy).Contents (Elt F))
  :: binary main_v203 main_v205 main_v206 (addf : (⟨S10000x128, .f32⟩ : BufTy).Contents (Elt F) → (⟨S10000x128, .f32⟩ : BufTy).Contents (Elt F) → (⟨S10000x128, .f32⟩ : BufTy).Contents (Elt F))
  :: [] )

/-- Slice 12: 3 operations (list 12 of the shared prefix). -/
abbrev slice12 : List (HloOp τ sig (Elt F)) :=
  ( TRef.nullary (TRef.of (T := ⟨S_, .f32⟩) main_call3_cst) (constant S_ .f32 0x00000000#32)
  :: TRef.unary (TRef.of (T := ⟨S_, .f32⟩) main_call3_cst) (TRef.of (T := ⟨S10000x128, .f32⟩) main_call3_v0) (broadcastInDim S10000x128 ![] bcast_S_S10000x128)
  :: TRef.binary (TRef.of (T := ⟨S10000x128, .f32⟩) main_v206) (TRef.of (T := ⟨S10000x128, .f32⟩) main_call3_v0) (TRef.of (T := ⟨S10000x128, .f32⟩) main_v207) maximumf
  :: [] )

/-- Slice 13: 48 operations (list 13 of the shared prefix). -/
abbrev slice13 : List (HloOp τ sig (Elt F)) :=
  ( binary main_v207 main_arg12 main_v208 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F))
  :: nullary main_v209 (iotaInDim S10000 32 0)
  :: binary main_v5 main_v209 main_v210 ((fun a b => concatenate S330000 0 [⟨S320000, a⟩, ⟨S10000, b⟩] concatenates_S320000_S10000_S330000_d0) : (⟨S320000, .i32⟩ : BufTy).Contents (Elt F) → (⟨S10000, .i32⟩ : BufTy).Contents (Elt F) → (⟨S330000, .i32⟩ : BufTy).Contents (Elt F))
  :: binary main_v7 main_v209 main_v211 ((fun a b => concatenate S330000 0 [⟨S320000, a⟩, ⟨S10000, b⟩] concatenates_S320000_S10000_S330000_d0) : (⟨S320000, .i32⟩ : BufTy).Contents (Elt F) → (⟨S10000, .i32⟩ : BufTy).Contents (Elt F) → (⟨S330000, .i32⟩ : BufTy).Contents (Elt F))
  :: nullary main_cst_42 (constant S_ .f32 0x3F800000#32)
  :: unary main_cst_42 main_v212 (broadcastInDim S10000 ![] bcast_S_S10000 : (⟨S_, .f32⟩ : BufTy).Contents (Elt F) → (⟨S10000, .f32⟩ : BufTy).Contents (Elt F))
  :: binary main_v35 main_v212 main_v213 ((fun a b => concatenate S330000 0 [⟨S320000, a⟩, ⟨S10000, b⟩] concatenates_S320000_S10000_S330000_d0) : (⟨S320000, .f32⟩ : BufTy).Contents (Elt F) → (⟨S10000, .f32⟩ : BufTy).Contents (Elt F) → (⟨S330000, .f32⟩ : BufTy).Contents (Elt F))
  :: nullary main_cst_43 (constant S_ .f32 0x00000000#32)
  :: unary main_cst_43 main_v214 (broadcastInDim S10000 ![] bcast_S_S10000 : (⟨S_, .f32⟩ : BufTy).Contents (Elt F) → (⟨S10000, .f32⟩ : BufTy).Contents (Elt F))
  :: unary main_v211 main_v215 (broadcastInDim S330000x1 ![0] bcast_S330000_S330000x1_0 : (⟨S330000, .i32⟩ : BufTy).Contents (Elt F) → (⟨S330000x1, .i32⟩ : BufTy).Contents (Elt F))
  :: ternary main_v214 main_v215 main_v213 main_v216 ((fun x i u => Host.scatterAdd scatter_S10000_S330000x1_S330000_n_0_0_1 x i u) : (⟨S10000, .f32⟩ : BufTy).Contents (Elt F) → (⟨S330000x1, .i32⟩ : BufTy).Contents (Elt F) → (⟨S330000, .f32⟩ : BufTy).Contents (Elt F) → (⟨S10000, .f32⟩ : BufTy).Contents (Elt F))
  :: unary main_v216 main_v217 (Host.rsqrt : (⟨S10000, .f32⟩ : BufTy).Contents (Elt F) → (⟨S10000, .f32⟩ : BufTy).Contents (Elt F))
  :: nullary main_c_44 (constantI S_ 32 0#32)
  :: unary main_c_44 main_v218 (broadcastInDim S330000 ![] bcast_S_S330000 : (⟨S_, .i32⟩ : BufTy).Contents (Elt F) → (⟨S330000, .i32⟩ : BufTy).Contents (Elt F))
  :: binary main_v210 main_v218 main_v219 (cmpi .slt : (⟨S330000, .i32⟩ : BufTy).Contents (Elt F) → (⟨S330000, .i32⟩ : BufTy).Contents (Elt F) → (⟨S330000, .i1⟩ : BufTy).Contents (Elt F))
  :: nullary main_c_45 (constantI S_ 32 10000#32)
  :: unary main_c_45 main_v220 (broadcastInDim S330000 ![] bcast_S_S330000 : (⟨S_, .i32⟩ : BufTy).Contents (Elt F) → (⟨S330000, .i32⟩ : BufTy).Contents (Elt F))
  :: binary main_v210 main_v220 main_v221 (addi : (⟨S330000, .i32⟩ : BufTy).Contents (Elt F) → (⟨S330000, .i32⟩ : BufTy).Contents (Elt F) → (⟨S330000, .i32⟩ : BufTy).Contents (Elt F))
  :: ternary main_v219 main_v221 main_v210 main_v222 (select : (⟨S330000, .i1⟩ : BufTy).Contents (Elt F) → (⟨S330000, .i32⟩ : BufTy).Contents (Elt F) → (⟨S330000, .i32⟩ : BufTy).Contents (Elt F) → (⟨S330000, .i32⟩ : BufTy).Contents (Elt F))
  :: unary main_v222 main_v223 (broadcastInDim S330000x1 ![0] bcast_S330000_S330000x1_0 : (⟨S330000, .i32⟩ : BufTy).Contents (Elt F) → (⟨S330000x1, .i32⟩ : BufTy).Contents (Elt F))
  :: binary main_v217 main_v223 main_v224 ((fun x i => Host.gather gather_S10000_S330000x1_S330000_n_0_n_n_0_1_1 x i) : (⟨S10000, .f32⟩ : BufTy).Contents (Elt F) → (⟨S330000x1, .i32⟩ : BufTy).Contents (Elt F) → (⟨S330000, .f32⟩ : BufTy).Contents (Elt F))
  :: binary main_v224 main_v213 main_v225 (mulf : (⟨S330000, .f32⟩ : BufTy).Contents (Elt F) → (⟨S330000, .f32⟩ : BufTy).Contents (Elt F) → (⟨S330000, .f32⟩ : BufTy).Contents (Elt F))
  :: nullary main_c_46 (constantI S_ 32 0#32)
  :: unary main_c_46 main_v226 (broadcastInDim S330000 ![] bcast_S_S330000 : (⟨S_, .i32⟩ : BufTy).Contents (Elt F) → (⟨S330000, .i32⟩ : BufTy).Contents (Elt F))
  :: binary main_v211 main_v226 main_v227 (cmpi .slt : (⟨S330000, .i32⟩ : BufTy).Contents (Elt F) → (⟨S330000, .i32⟩ : BufTy).Contents (Elt F) → (⟨S330000, .i1⟩ : BufTy).Contents (Elt F))
  :: nullary main_c_47 (constantI S_ 32 10000#32)
  :: unary main_c_47 main_v228 (broadcastInDim S330000 ![] bcast_S_S330000 : (⟨S_, .i32⟩ : BufTy).Contents (Elt F) → (⟨S330000, .i32⟩ : BufTy).Contents (Elt F))
  :: binary main_v211 main_v228 main_v229 (addi : (⟨S330000, .i32⟩ : BufTy).Contents (Elt F) → (⟨S330000, .i32⟩ : BufTy).Contents (Elt F) → (⟨S330000, .i32⟩ : BufTy).Contents (Elt F))
  :: ternary main_v227 main_v229 main_v211 main_v230 (select : (⟨S330000, .i1⟩ : BufTy).Contents (Elt F) → (⟨S330000, .i32⟩ : BufTy).Contents (Elt F) → (⟨S330000, .i32⟩ : BufTy).Contents (Elt F) → (⟨S330000, .i32⟩ : BufTy).Contents (Elt F))
  :: unary main_v230 main_v231 (broadcastInDim S330000x1 ![0] bcast_S330000_S330000x1_0 : (⟨S330000, .i32⟩ : BufTy).Contents (Elt F) → (⟨S330000x1, .i32⟩ : BufTy).Contents (Elt F))
  :: binary main_v217 main_v231 main_v232 ((fun x i => Host.gather gather_S10000_S330000x1_S330000_n_0_n_n_0_1_1 x i) : (⟨S10000, .f32⟩ : BufTy).Contents (Elt F) → (⟨S330000x1, .i32⟩ : BufTy).Contents (Elt F) → (⟨S330000, .f32⟩ : BufTy).Contents (Elt F))
  :: binary main_v225 main_v232 main_v233 (mulf : (⟨S330000, .f32⟩ : BufTy).Contents (Elt F) → (⟨S330000, .f32⟩ : BufTy).Contents (Elt F) → (⟨S330000, .f32⟩ : BufTy).Contents (Elt F))
  :: nullary main_c_48 (constantI S_ 32 0#32)
  :: unary main_c_48 main_v234 (broadcastInDim S330000 ![] bcast_S_S330000 : (⟨S_, .i32⟩ : BufTy).Contents (Elt F) → (⟨S330000, .i32⟩ : BufTy).Contents (Elt F))
  :: binary main_v210 main_v234 main_v235 (cmpi .slt : (⟨S330000, .i32⟩ : BufTy).Contents (Elt F) → (⟨S330000, .i32⟩ : BufTy).Contents (Elt F) → (⟨S330000, .i1⟩ : BufTy).Contents (Elt F))
  :: nullary main_c_49 (constantI S_ 32 10000#32)
  :: unary main_c_49 main_v236 (broadcastInDim S330000 ![] bcast_S_S330000 : (⟨S_, .i32⟩ : BufTy).Contents (Elt F) → (⟨S330000, .i32⟩ : BufTy).Contents (Elt F))
  :: binary main_v210 main_v236 main_v237 (addi : (⟨S330000, .i32⟩ : BufTy).Contents (Elt F) → (⟨S330000, .i32⟩ : BufTy).Contents (Elt F) → (⟨S330000, .i32⟩ : BufTy).Contents (Elt F))
  :: ternary main_v235 main_v237 main_v210 main_v238 (select : (⟨S330000, .i1⟩ : BufTy).Contents (Elt F) → (⟨S330000, .i32⟩ : BufTy).Contents (Elt F) → (⟨S330000, .i32⟩ : BufTy).Contents (Elt F) → (⟨S330000, .i32⟩ : BufTy).Contents (Elt F))
  :: unary main_v238 main_v239 (broadcastInDim S330000x1 ![0] bcast_S330000_S330000x1_0 : (⟨S330000, .i32⟩ : BufTy).Contents (Elt F) → (⟨S330000x1, .i32⟩ : BufTy).Contents (Elt F))
  :: binary main_v208 main_v239 main_v240 ((fun x i => Host.gather gather_S10000x128_S330000x1_S330000x128_1_0_n_n_0_1_1128 x i) : (⟨S10000x128, .f32⟩ : BufTy).Contents (Elt F) → (⟨S330000x1, .i32⟩ : BufTy).Contents (Elt F) → (⟨S330000x128, .f32⟩ : BufTy).Contents (Elt F))
  :: unary main_v233 main_v241 (broadcastInDim S330000x1 ![0] bcast_S330000_S330000x1_0 : (⟨S330000, .f32⟩ : BufTy).Contents (Elt F) → (⟨S330000x1, .f32⟩ : BufTy).Contents (Elt F))
  :: unary main_v241 main_v242 (broadcastInDim S330000x128 ![0, 1] bcast_S330000x1_S330000x128_0_1 : (⟨S330000x1, .f32⟩ : BufTy).Contents (Elt F) → (⟨S330000x128, .f32⟩ : BufTy).Contents (Elt F))
  :: binary main_v240 main_v242 main_v243 (mulf : (⟨S330000x128, .f32⟩ : BufTy).Contents (Elt F) → (⟨S330000x128, .f32⟩ : BufTy).Contents (Elt F) → (⟨S330000x128, .f32⟩ : BufTy).Contents (Elt F))
  :: nullary main_cst_50 (constant S_ .f32 0x00000000#32)
  :: unary main_cst_50 main_v244 (broadcastInDim S10000x128 ![] bcast_S_S10000x128 : (⟨S_, .f32⟩ : BufTy).Contents (Elt F) → (⟨S10000x128, .f32⟩ : BufTy).Contents (Elt F))
  :: unary main_v211 main_v245 (broadcastInDim S330000x1 ![0] bcast_S330000_S330000x1_0 : (⟨S330000, .i32⟩ : BufTy).Contents (Elt F) → (⟨S330000x1, .i32⟩ : BufTy).Contents (Elt F))
  :: ternary main_v244 main_v245 main_v243 main_v246 ((fun x i u => Host.scatterAdd scatter_S10000x128_S330000x1_S330000x128_1_0_0_1 x i u) : (⟨S10000x128, .f32⟩ : BufTy).Contents (Elt F) → (⟨S330000x1, .i32⟩ : BufTy).Contents (Elt F) → (⟨S330000x128, .f32⟩ : BufTy).Contents (Elt F) → (⟨S10000x128, .f32⟩ : BufTy).Contents (Elt F))
  :: [] )

end Cert.ReferenceIdeal.HandRun

end
-- ==== Proof.RefSliceStepsC.lean ====
/-
  Slices 8 … 13 of the twenty: each carries the boundary before it to the boundary after it (RefSliceInv). Every
  line of a step reads one buffer live after the slice: `carried` when no operation of the slice writes it, `computed`
  from the named facts about the buffers its operations read when the slice writes it (PrefixTac).
-/
import proofs.«154350_j35708358099201_1_alg».proof.Proof.RefSliceInv
import proofs.«154350_j35708358099201_1_alg».proof.Proof.RefSliceOpsC

set_option maxRecDepth 8192

noncomputable section

namespace Cert.ReferenceIdeal.HandRun

open Cert.ReferenceIdeal Cert.ReferenceIdeal.Gen Idealize.ShloMosaic Idealize.ShloMosaic.TcCoe Idealize.SL.Sem Idealize.ShloMosaic.StableHlo
open Cert.ReferenceIdeal.ReadP

variable {F : FTy → Type} [FloatOps F]

set_option maxHeartbeats 8000000 in
/-- Slice 8 (19 operations: list 8 of the shared prefix) carries the boundary before it to the boundary after it: each
    buffer live after the slice is either untouched by it, or written by it from buffers live before it. -/
theorem step8 {W : Valuation τ sig (Elt F)} {x0 : (⟨S10000x128, .f32⟩ : BufTy).Contents (Elt F)} {x1 : (⟨S10000x128, .f32⟩ : BufTy).Contents (Elt F)} {x2 : (⟨S10000x10000, .f32⟩ : BufTy).Contents (Elt F)} {x3 : (⟨S10000x10000, .f32⟩ : BufTy).Contents (Elt F)} {x4 : (⟨S2x320000, .i32⟩ : BufTy).Contents (Elt F)} {x5 : (⟨S2x320000, .i32⟩ : BufTy).Contents (Elt F)} {x6 : (⟨S128x128, .f32⟩ : BufTy).Contents (Elt F)} {x7 : (⟨S128, .f32⟩ : BufTy).Contents (Elt F)} {x8 : (⟨S128x128, .f32⟩ : BufTy).Contents (Elt F)} {x9 : (⟨S128, .f32⟩ : BufTy).Contents (Elt F)} {x10 : (⟨S128x128, .f32⟩ : BufTy).Contents (Elt F)} {x11 : (⟨S128, .f32⟩ : BufTy).Contents (Elt F)} {x12 : (⟨S128x128, .f32⟩ : BufTy).Contents (Elt F)} {x13 : (⟨S128, .f32⟩ : BufTy).Contents (Elt F)} {x14 : (⟨S128x128, .f32⟩ : BufTy).Contents (Elt F)} {x15 : (⟨S128, .f32⟩ : BufTy).Contents (Elt F)} {x16 : (⟨S128x64, .f32⟩ : BufTy).Contents (Elt F)} {x17 : (⟨S64, .f32⟩ : BufTy).Contents (Elt F)} {x18 : (⟨S64x32, .f32⟩ : BufTy).Contents (Elt F)} {x19 : (⟨S32, .f32⟩ : BufTy).Contents (Elt F)} {x20 : (⟨S128x128, .f32⟩ : BufTy).Contents (Elt F)} {x21 : (⟨S128, .f32⟩ : BufTy).Contents (Elt F)} {x22 : (⟨S128x64, .f32⟩ : BufTy).Contents (Elt F)} {x23 : (⟨S64, .f32⟩ : BufTy).Contents (Elt F)} {x24 : (⟨S64x32, .f32⟩ : BufTy).Contents (Elt F)} {x25 : (⟨S32, .f32⟩ : BufTy).Contents (Elt F)}
    (h : Inv7 W x0 x1 x2 x3 x4 x5 x6 x7 x8 x9 x10 x11 x12 x13 x14 x15 x16 x17 x18 x19 x20 x21 x22 x23 x24 x25) : Inv8 (StableHlo.after slice8 W) x0 x1 x2 x3 x4 x5 x6 x7 x8 x9 x10 x11 x12 x13 x14 x15 x16 x17 x18 x19 x20 x21 x22 x23 x24 x25 := by
  open_list slice8
  constructor
  · carried h.h_v5
  · carried h.h_v7
  · carried h.h_v35
  · computed [h.h_v125, h.h_v122, h.h_v124, h.h_v147, h.h_arg9]
  · carried h.h_arg1
  · carried h.h_arg10
  · carried h.h_arg11
  · carried h.h_arg12
  · carried h.h_arg13
  · carried h.h_arg14
  · carried h.h_arg15
  · carried h.h_arg16
  · carried h.h_arg17
  · carried h.h_arg18
  · carried h.h_arg19
  · carried h.h_arg20
  · carried h.h_arg21
  · carried h.h_arg22
  · carried h.h_arg23
  · carried h.h_arg24
  · carried h.h_arg25

set_option maxHeartbeats 8000000 in
/-- Slice 9 (3 operations: list 9 of the shared prefix) carries the boundary before it to the boundary after it: each
    buffer live after the slice is either untouched by it, or written by it from buffers live before it. -/
theorem step9 {W : Valuation τ sig (Elt F)} {x0 : (⟨S10000x128, .f32⟩ : BufTy).Contents (Elt F)} {x1 : (⟨S10000x128, .f32⟩ : BufTy).Contents (Elt F)} {x2 : (⟨S10000x10000, .f32⟩ : BufTy).Contents (Elt F)} {x3 : (⟨S10000x10000, .f32⟩ : BufTy).Contents (Elt F)} {x4 : (⟨S2x320000, .i32⟩ : BufTy).Contents (Elt F)} {x5 : (⟨S2x320000, .i32⟩ : BufTy).Contents (Elt F)} {x6 : (⟨S128x128, .f32⟩ : BufTy).Contents (Elt F)} {x7 : (⟨S128, .f32⟩ : BufTy).Contents (Elt F)} {x8 : (⟨S128x128, .f32⟩ : BufTy).Contents (Elt F)} {x9 : (⟨S128, .f32⟩ : BufTy).Contents (Elt F)} {x10 : (⟨S128x128, .f32⟩ : BufTy).Contents (Elt F)} {x11 : (⟨S128, .f32⟩ : BufTy).Contents (Elt F)} {x12 : (⟨S128x128, .f32⟩ : BufTy).Contents (Elt F)} {x13 : (⟨S128, .f32⟩ : BufTy).Contents (Elt F)} {x14 : (⟨S128x128, .f32⟩ : BufTy).Contents (Elt F)} {x15 : (⟨S128, .f32⟩ : BufTy).Contents (Elt F)} {x16 : (⟨S128x64, .f32⟩ : BufTy).Contents (Elt F)} {x17 : (⟨S64, .f32⟩ : BufTy).Contents (Elt F)} {x18 : (⟨S64x32, .f32⟩ : BufTy).Contents (Elt F)} {x19 : (⟨S32, .f32⟩ : BufTy).Contents (Elt F)} {x20 : (⟨S128x128, .f32⟩ : BufTy).Contents (Elt F)} {x21 : (⟨S128, .f32⟩ : BufTy).Contents (Elt F)} {x22 : (⟨S128x64, .f32⟩ : BufTy).Contents (Elt F)} {x23 : (⟨S64, .f32⟩ : BufTy).Contents (Elt F)} {x24 : (⟨S64x32, .f32⟩ : BufTy).Contents (Elt F)} {x25 : (⟨S32, .f32⟩ : BufTy).Contents (Elt F)}
    (h : Inv8 W x0 x1 x2 x3 x4 x5 x6 x7 x8 x9 x10 x11 x12 x13 x14 x15 x16 x17 x18 x19 x20 x21 x22 x23 x24 x25) : Inv9 (StableHlo.after slice9 W) x0 x1 x2 x3 x4 x5 x6 x7 x8 x9 x10 x11 x12 x13 x14 x15 x16 x17 x18 x19 x20 x21 x22 x23 x24 x25 := by
  open_list slice9
  constructor
  · carried h.h_v5
  · carried h.h_v7
  · carried h.h_v35
  · computed [h.h_v163]
  · carried h.h_arg1
  · carried h.h_arg10
  · carried h.h_arg11
  · carried h.h_arg12
  · carried h.h_arg13
  · carried h.h_arg14
  · carried h.h_arg15
  · carried h.h_arg16
  · carried h.h_arg17
  · carried h.h_arg18
  · carried h.h_arg19
  · carried h.h_arg20
  · carried h.h_arg21
  · carried h.h_arg22
  · carried h.h_arg23
  · carried h.h_arg24
  · carried h.h_arg25

set_option maxHeartbeats 8000000 in
/-- Slice 10 (40 operations: list 10 of the shared prefix) carries the boundary before it to the boundary after it: each
    buffer live after the slice is either untouched by it, or written by it from buffers live before it. -/
theorem step10 {W : Valuation τ sig (Elt F)} {x0 : (⟨S10000x128, .f32⟩ : BufTy).Contents (Elt F)} {x1 : (⟨S10000x128, .f32⟩ : BufTy).Contents (Elt F)} {x2 : (⟨S10000x10000, .f32⟩ : BufTy).Contents (Elt F)} {x3 : (⟨S10000x10000, .f32⟩ : BufTy).Contents (Elt F)} {x4 : (⟨S2x320000, .i32⟩ : BufTy).Contents (Elt F)} {x5 : (⟨S2x320000, .i32⟩ : BufTy).Contents (Elt F)} {x6 : (⟨S128x128, .f32⟩ : BufTy).Contents (Elt F)} {x7 : (⟨S128, .f32⟩ : BufTy).Contents (Elt F)} {x8 : (⟨S128x128, .f32⟩ : BufTy).Contents (Elt F)} {x9 : (⟨S128, .f32⟩ : BufTy).Contents (Elt F)} {x10 : (⟨S128x128, .f32⟩ : BufTy).Contents (Elt F)} {x11 : (⟨S128, .f32⟩ : BufTy).Contents (Elt F)} {x12 : (⟨S128x128, .f32⟩ : BufTy).Contents (Elt F)} {x13 : (⟨S128, .f32⟩ : BufTy).Contents (Elt F)} {x14 : (⟨S128x128, .f32⟩ : BufTy).Contents (Elt F)} {x15 : (⟨S128, .f32⟩ : BufTy).Contents (Elt F)} {x16 : (⟨S128x64, .f32⟩ : BufTy).Contents (Elt F)} {x17 : (⟨S64, .f32⟩ : BufTy).Contents (Elt F)} {x18 : (⟨S64x32, .f32⟩ : BufTy).Contents (Elt F)} {x19 : (⟨S32, .f32⟩ : BufTy).Contents (Elt F)} {x20 : (⟨S128x128, .f32⟩ : BufTy).Contents (Elt F)} {x21 : (⟨S128, .f32⟩ : BufTy).Contents (Elt F)} {x22 : (⟨S128x64, .f32⟩ : BufTy).Contents (Elt F)} {x23 : (⟨S64, .f32⟩ : BufTy).Contents (Elt F)} {x24 : (⟨S64x32, .f32⟩ : BufTy).Contents (Elt F)} {x25 : (⟨S32, .f32⟩ : BufTy).Contents (Elt F)}
    (h : Inv9 W x0 x1 x2 x3 x4 x5 x6 x7 x8 x9 x10 x11 x12 x13 x14 x15 x16 x17 x18 x19 x20 x21 x22 x23 x24 x25) : Inv10 (StableHlo.after slice10 W) x0 x1 x2 x3 x4 x5 x6 x7 x8 x9 x10 x11 x12 x13 x14 x15 x16 x17 x18 x19 x20 x21 x22 x23 x24 x25 := by
  open_list slice10
  constructor
  · carried h.h_v5
  · carried h.h_v7
  · carried h.h_v35
  · carried h.h_v164
  · computed [h.h_arg1, h.h_arg10]
  · computed [h.h_v7]
  · computed [h.h_v7, h.h_v35, h.h_v5]
  · computed [h.h_v5]
  · carried h.h_arg11
  · carried h.h_arg12
  · carried h.h_arg13
  · carried h.h_arg14
  · carried h.h_arg15
  · carried h.h_arg16
  · carried h.h_arg17
  · carried h.h_arg18
  · carried h.h_arg19
  · carried h.h_arg20
  · carried h.h_arg21
  · carried h.h_arg22
  · carried h.h_arg23
  · carried h.h_arg24
  · carried h.h_arg25

set_option maxHeartbeats 8000000 in
/-- Slice 11 (11 operations: list 11 of the shared prefix) carries the boundary before it to the boundary after it: each
    buffer live after the slice is either untouched by it, or written by it from buffers live before it. -/
theorem step11 {W : Valuation τ sig (Elt F)} {x0 : (⟨S10000x128, .f32⟩ : BufTy).Contents (Elt F)} {x1 : (⟨S10000x128, .f32⟩ : BufTy).Contents (Elt F)} {x2 : (⟨S10000x10000, .f32⟩ : BufTy).Contents (Elt F)} {x3 : (⟨S10000x10000, .f32⟩ : BufTy).Contents (Elt F)} {x4 : (⟨S2x320000, .i32⟩ : BufTy).Contents (Elt F)} {x5 : (⟨S2x320000, .i32⟩ : BufTy).Contents (Elt F)} {x6 : (⟨S128x128, .f32⟩ : BufTy).Contents (Elt F)} {x7 : (⟨S128, .f32⟩ : BufTy).Contents (Elt F)} {x8 : (⟨S128x128, .f32⟩ : BufTy).Contents (Elt F)} {x9 : (⟨S128, .f32⟩ : BufTy).Contents (Elt F)} {x10 : (⟨S128x128, .f32⟩ : BufTy).Contents (Elt F)} {x11 : (⟨S128, .f32⟩ : BufTy).Contents (Elt F)} {x12 : (⟨S128x128, .f32⟩ : BufTy).Contents (Elt F)} {x13 : (⟨S128, .f32⟩ : BufTy).Contents (Elt F)} {x14 : (⟨S128x128, .f32⟩ : BufTy).Contents (Elt F)} {x15 : (⟨S128, .f32⟩ : BufTy).Contents (Elt F)} {x16 : (⟨S128x64, .f32⟩ : BufTy).Contents (Elt F)} {x17 : (⟨S64, .f32⟩ : BufTy).Contents (Elt F)} {x18 : (⟨S64x32, .f32⟩ : BufTy).Contents (Elt F)} {x19 : (⟨S32, .f32⟩ : BufTy).Contents (Elt F)} {x20 : (⟨S128x128, .f32⟩ : BufTy).Contents (Elt F)} {x21 : (⟨S128, .f32⟩ : BufTy).Contents (Elt F)} {x22 : (⟨S128x64, .f32⟩ : BufTy).Contents (Elt F)} {x23 : (⟨S64, .f32⟩ : BufTy).Contents (Elt F)} {x24 : (⟨S64x32, .f32⟩ : BufTy).Contents (Elt F)} {x25 : (⟨S32, .f32⟩ : BufTy).Contents (Elt F)}
    (h : Inv10 W x0 x1 x2 x3 x4 x5 x6 x7 x8 x9 x10 x11 x12 x13 x14 x15 x16 x17 x18 x19 x20 x21 x22 x23 x24 x25) : Inv11 (StableHlo.after slice11 W) x0 x1 x2 x3 x4 x5 x6 x7 x8 x9 x10 x11 x12 x13 x14 x15 x16 x17 x18 x19 x20 x21 x22 x23 x24 x25 := by
  open_list slice11
  constructor
  · carried h.h_v5
  · carried h.h_v7
  · carried h.h_v35
  · carried h.h_v164
  · computed [h.h_v168, h.h_v165, h.h_v196, h.h_v190, h.h_arg11]
  · carried h.h_arg12
  · carried h.h_arg13
  · carried h.h_arg14
  · carried h.h_arg15
  · carried h.h_arg16
  · carried h.h_arg17
  · carried h.h_arg18
  · carried h.h_arg19
  · carried h.h_arg20
  · carried h.h_arg21
  · carried h.h_arg22
  · carried h.h_arg23
  · carried h.h_arg24
  · carried h.h_arg25

set_option maxHeartbeats 8000000 in
/-- Slice 12 (3 operations: list 12 of the shared prefix) carries the boundary before it to the boundary after it: each
    buffer live after the slice is either untouched by it, or written by it from buffers live before it. -/
theorem step12 {W : Valuation τ sig (Elt F)} {x0 : (⟨S10000x128, .f32⟩ : BufTy).Contents (Elt F)} {x1 : (⟨S10000x128, .f32⟩ : BufTy).Contents (Elt F)} {x2 : (⟨S10000x10000, .f32⟩ : BufTy).Contents (Elt F)} {x3 : (⟨S10000x10000, .f32⟩ : BufTy).Contents (Elt F)} {x4 : (⟨S2x320000, .i32⟩ : BufTy).Contents (Elt F)} {x5 : (⟨S2x320000, .i32⟩ : BufTy).Contents (Elt F)} {x6 : (⟨S128x128, .f32⟩ : BufTy).Contents (Elt F)} {x7 : (⟨S128, .f32⟩ : BufTy).Contents (Elt F)} {x8 : (⟨S128x128, .f32⟩ : BufTy).Contents (Elt F)} {x9 : (⟨S128, .f32⟩ : BufTy).Contents (Elt F)} {x10 : (⟨S128x128, .f32⟩ : BufTy).Contents (Elt F)} {x11 : (⟨S128, .f32⟩ : BufTy).Contents (Elt F)} {x12 : (⟨S128x128, .f32⟩ : BufTy).Contents (Elt F)} {x13 : (⟨S128, .f32⟩ : BufTy).Contents (Elt F)} {x14 : (⟨S128x128, .f32⟩ : BufTy).Contents (Elt F)} {x15 : (⟨S128, .f32⟩ : BufTy).Contents (Elt F)} {x16 : (⟨S128x64, .f32⟩ : BufTy).Contents (Elt F)} {x17 : (⟨S64, .f32⟩ : BufTy).Contents (Elt F)} {x18 : (⟨S64x32, .f32⟩ : BufTy).Contents (Elt F)} {x19 : (⟨S32, .f32⟩ : BufTy).Contents (Elt F)} {x20 : (⟨S128x128, .f32⟩ : BufTy).Contents (Elt F)} {x21 : (⟨S128, .f32⟩ : BufTy).Contents (Elt F)} {x22 : (⟨S128x64, .f32⟩ : BufTy).Contents (Elt F)} {x23 : (⟨S64, .f32⟩ : BufTy).Contents (Elt F)} {x24 : (⟨S64x32, .f32⟩ : BufTy).Contents (Elt F)} {x25 : (⟨S32, .f32⟩ : BufTy).Contents (Elt F)}
    (h : Inv11 W x0 x1 x2 x3 x4 x5 x6 x7 x8 x9 x10 x11 x12 x13 x14 x15 x16 x17 x18 x19 x20 x21 x22 x23 x24 x25) : Inv12 (StableHlo.after slice12 W) x0 x1 x2 x3 x4 x5 x6 x7 x8 x9 x10 x11 x12 x13 x14 x15 x16 x17 x18 x19 x20 x21 x22 x23 x24 x25 := by
  open_list slice12
  constructor
  · carried h.h_v5
  · carried h.h_v7
  · carried h.h_v35
  · carried h.h_v164
  · computed [h.h_v206]
  · carried h.h_arg12
  · carried h.h_arg13
  · carried h.h_arg14
  · carried h.h_arg15
  · carried h.h_arg16
  · carried h.h_arg17
  · carried h.h_arg18
  · carried h.h_arg19
  · carried h.h_arg20
  · carried h.h_arg21
  · carried h.h_arg22
  · carried h.h_arg23
  · carried h.h_arg24
  · carried h.h_arg25

set_option maxHeartbeats 8000000 in
/-- Slice 13 (48 operations: list 13 of the shared prefix) carries the boundary before it to the boundary after it: each
    buffer live after the slice is either untouched by it, or written by it from buffers live before it. -/
theorem step13 {W : Valuation τ sig (Elt F)} {x0 : (⟨S10000x128, .f32⟩ : BufTy).Contents (Elt F)} {x1 : (⟨S10000x128, .f32⟩ : BufTy).Contents (Elt F)} {x2 : (⟨S10000x10000, .f32⟩ : BufTy).Contents (Elt F)} {x3 : (⟨S10000x10000, .f32⟩ : BufTy).Contents (Elt F)} {x4 : (⟨S2x320000, .i32⟩ : BufTy).Contents (Elt F)} {x5 : (⟨S2x320000, .i32⟩ : BufTy).Contents (Elt F)} {x6 : (⟨S128x128, .f32⟩ : BufTy).Contents (Elt F)} {x7 : (⟨S128, .f32⟩ : BufTy).Contents (Elt F)} {x8 : (⟨S128x128, .f32⟩ : BufTy).Contents (Elt F)} {x9 : (⟨S128, .f32⟩ : BufTy).Contents (Elt F)} {x10 : (⟨S128x128, .f32⟩ : BufTy).Contents (Elt F)} {x11 : (⟨S128, .f32⟩ : BufTy).Contents (Elt F)} {x12 : (⟨S128x128, .f32⟩ : BufTy).Contents (Elt F)} {x13 : (⟨S128, .f32⟩ : BufTy).Contents (Elt F)} {x14 : (⟨S128x128, .f32⟩ : BufTy).Contents (Elt F)} {x15 : (⟨S128, .f32⟩ : BufTy).Contents (Elt F)} {x16 : (⟨S128x64, .f32⟩ : BufTy).Contents (Elt F)} {x17 : (⟨S64, .f32⟩ : BufTy).Contents (Elt F)} {x18 : (⟨S64x32, .f32⟩ : BufTy).Contents (Elt F)} {x19 : (⟨S32, .f32⟩ : BufTy).Contents (Elt F)} {x20 : (⟨S128x128, .f32⟩ : BufTy).Contents (Elt F)} {x21 : (⟨S128, .f32⟩ : BufTy).Contents (Elt F)} {x22 : (⟨S128x64, .f32⟩ : BufTy).Contents (Elt F)} {x23 : (⟨S64, .f32⟩ : BufTy).Contents (Elt F)} {x24 : (⟨S64x32, .f32⟩ : BufTy).Contents (Elt F)} {x25 : (⟨S32, .f32⟩ : BufTy).Contents (Elt F)}
    (h : Inv12 W x0 x1 x2 x3 x4 x5 x6 x7 x8 x9 x10 x11 x12 x13 x14 x15 x16 x17 x18 x19 x20 x21 x22 x23 x24 x25) : Inv13 (StableHlo.after slice13 W) x0 x1 x2 x3 x4 x5 x6 x7 x8 x9 x10 x11 x12 x13 x14 x15 x16 x17 x18 x19 x20 x21 x22 x23 x24 x25 := by
  open_list slice13
  constructor
  · carried h.h_v5
  · carried h.h_v7
  · carried h.h_v35
  · carried h.h_v164
  · computed [h.h_v7, h.h_v207, h.h_arg12, h.h_v5, h.h_v35]
  · carried h.h_arg12
  · carried h.h_arg13
  · carried h.h_arg14
  · carried h.h_arg15
  · carried h.h_arg16
  · carried h.h_arg17
  · carried h.h_arg18
  · carried h.h_arg19
  · carried h.h_arg20
  · carried h.h_arg21
  · carried h.h_arg22
  · carried h.h_arg23
  · carried h.h_arg24
  · carried h.h_arg25

end Cert.ReferenceIdeal.HandRun

end
-- ==== Proof.RefSliceOpsD.lean ====
/-
  The reference program's 412 operations (`OpsP.ops`), cut in program order into twenty consecutive slices; this module
  holds slices 14 … 20, each operation's text as the list states it. RefResult proves that the twenty slices, joined in order,
  are the list.
-/
import proofs.«154350_j35708358099201_1_alg».proof.Proof.Gen.ReferenceIdeal
import Idealize.ShloMosaic.Lib.StableHlo.Run

set_option maxRecDepth 8192

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- Slice 14: 3 operations (list 14 of the shared prefix). -/
abbrev slice14 : List (HloOp τ sig (Elt F)) :=
  ( unary main_arg13 main_v247 (broadcastInDim S1x128 ![1] bcast_S128_S1x128_1 : (⟨S128, .f32⟩ : BufTy).Contents (Elt F) → (⟨S1x128, .f32⟩ : BufTy).Contents (Elt F))
  :: unary main_v247 main_v248 (broadcastInDim S10000x128 ![0, 1] bcast_S1x128_S10000x128_0_1 : (⟨S1x128, .f32⟩ : BufTy).Contents (Elt F) → (⟨S10000x128, .f32⟩ : BufTy).Contents (Elt F))
  :: binary main_v246 main_v248 main_v249 (addf : (⟨S10000x128, .f32⟩ : BufTy).Contents (Elt F) → (⟨S10000x128, .f32⟩ : BufTy).Contents (Elt F) → (⟨S10000x128, .f32⟩ : BufTy).Contents (Elt F))
  :: [] )

/-- Slice 15: 3 operations (list 15 of the shared prefix). -/
abbrev slice15 : List (HloOp τ sig (Elt F)) :=
  ( TRef.nullary (TRef.of (T := ⟨S_, .f32⟩) main_call4_cst) (constant S_ .f32 0x00000000#32)
  :: TRef.unary (TRef.of (T := ⟨S_, .f32⟩) main_call4_cst) (TRef.of (T := ⟨S10000x128, .f32⟩) main_call4_v0) (broadcastInDim S10000x128 ![] bcast_S_S10000x128)
  :: TRef.binary (TRef.of (T := ⟨S10000x128, .f32⟩) main_v249) (TRef.of (T := ⟨S10000x128, .f32⟩) main_call4_v0) (TRef.of (T := ⟨S10000x128, .f32⟩) main_v250) maximumf
  :: [] )

/-- Slice 16: 51 operations (list 16 of the shared prefix). -/
abbrev slice16 : List (HloOp τ sig (Elt F)) :=
  ( binary main_v250 main_arg12 main_v251 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F))
  :: nullary main_v252 (iotaInDim S10000 32 0)
  :: binary main_v5 main_v252 main_v253 ((fun a b => concatenate S330000 0 [⟨S320000, a⟩, ⟨S10000, b⟩] concatenates_S320000_S10000_S330000_d0) : (⟨S320000, .i32⟩ : BufTy).Contents (Elt F) → (⟨S10000, .i32⟩ : BufTy).Contents (Elt F) → (⟨S330000, .i32⟩ : BufTy).Contents (Elt F))
  :: binary main_v7 main_v252 main_v254 ((fun a b => concatenate S330000 0 [⟨S320000, a⟩, ⟨S10000, b⟩] concatenates_S320000_S10000_S330000_d0) : (⟨S320000, .i32⟩ : BufTy).Contents (Elt F) → (⟨S10000, .i32⟩ : BufTy).Contents (Elt F) → (⟨S330000, .i32⟩ : BufTy).Contents (Elt F))
  :: nullary main_cst_51 (constant S_ .f32 0x3F800000#32)
  :: unary main_cst_51 main_v255 (broadcastInDim S10000 ![] bcast_S_S10000 : (⟨S_, .f32⟩ : BufTy).Contents (Elt F) → (⟨S10000, .f32⟩ : BufTy).Contents (Elt F))
  :: binary main_v35 main_v255 main_v256 ((fun a b => concatenate S330000 0 [⟨S320000, a⟩, ⟨S10000, b⟩] concatenates_S320000_S10000_S330000_d0) : (⟨S320000, .f32⟩ : BufTy).Contents (Elt F) → (⟨S10000, .f32⟩ : BufTy).Contents (Elt F) → (⟨S330000, .f32⟩ : BufTy).Contents (Elt F))
  :: nullary main_cst_52 (constant S_ .f32 0x00000000#32)
  :: unary main_cst_52 main_v257 (broadcastInDim S10000 ![] bcast_S_S10000 : (⟨S_, .f32⟩ : BufTy).Contents (Elt F) → (⟨S10000, .f32⟩ : BufTy).Contents (Elt F))
  :: unary main_v254 main_v258 (broadcastInDim S330000x1 ![0] bcast_S330000_S330000x1_0 : (⟨S330000, .i32⟩ : BufTy).Contents (Elt F) → (⟨S330000x1, .i32⟩ : BufTy).Contents (Elt F))
  :: ternary main_v257 main_v258 main_v256 main_v259 ((fun x i u => Host.scatterAdd scatter_S10000_S330000x1_S330000_n_0_0_1 x i u) : (⟨S10000, .f32⟩ : BufTy).Contents (Elt F) → (⟨S330000x1, .i32⟩ : BufTy).Contents (Elt F) → (⟨S330000, .f32⟩ : BufTy).Contents (Elt F) → (⟨S10000, .f32⟩ : BufTy).Contents (Elt F))
  :: unary main_v259 main_v260 (Host.rsqrt : (⟨S10000, .f32⟩ : BufTy).Contents (Elt F) → (⟨S10000, .f32⟩ : BufTy).Contents (Elt F))
  :: nullary main_c_53 (constantI S_ 32 0#32)
  :: unary main_c_53 main_v261 (broadcastInDim S330000 ![] bcast_S_S330000 : (⟨S_, .i32⟩ : BufTy).Contents (Elt F) → (⟨S330000, .i32⟩ : BufTy).Contents (Elt F))
  :: binary main_v253 main_v261 main_v262 (cmpi .slt : (⟨S330000, .i32⟩ : BufTy).Contents (Elt F) → (⟨S330000, .i32⟩ : BufTy).Contents (Elt F) → (⟨S330000, .i1⟩ : BufTy).Contents (Elt F))
  :: nullary main_c_54 (constantI S_ 32 10000#32)
  :: unary main_c_54 main_v263 (broadcastInDim S330000 ![] bcast_S_S330000 : (⟨S_, .i32⟩ : BufTy).Contents (Elt F) → (⟨S330000, .i32⟩ : BufTy).Contents (Elt F))
  :: binary main_v253 main_v263 main_v264 (addi : (⟨S330000, .i32⟩ : BufTy).Contents (Elt F) → (⟨S330000, .i32⟩ : BufTy).Contents (Elt F) → (⟨S330000, .i32⟩ : BufTy).Contents (Elt F))
  :: ternary main_v262 main_v264 main_v253 main_v265 (select : (⟨S330000, .i1⟩ : BufTy).Contents (Elt F) → (⟨S330000, .i32⟩ : BufTy).Contents (Elt F) → (⟨S330000, .i32⟩ : BufTy).Contents (Elt F) → (⟨S330000, .i32⟩ : BufTy).Contents (Elt F))
  :: unary main_v265 main_v266 (broadcastInDim S330000x1 ![0] bcast_S330000_S330000x1_0 : (⟨S330000, .i32⟩ : BufTy).Contents (Elt F) → (⟨S330000x1, .i32⟩ : BufTy).Contents (Elt F))
  :: binary main_v260 main_v266 main_v267 ((fun x i => Host.gather gather_S10000_S330000x1_S330000_n_0_n_n_0_1_1 x i) : (⟨S10000, .f32⟩ : BufTy).Contents (Elt F) → (⟨S330000x1, .i32⟩ : BufTy).Contents (Elt F) → (⟨S330000, .f32⟩ : BufTy).Contents (Elt F))
  :: binary main_v267 main_v256 main_v268 (mulf : (⟨S330000, .f32⟩ : BufTy).Contents (Elt F) → (⟨S330000, .f32⟩ : BufTy).Contents (Elt F) → (⟨S330000, .f32⟩ : BufTy).Contents (Elt F))
  :: nullary main_c_55 (constantI S_ 32 0#32)
  :: unary main_c_55 main_v269 (broadcastInDim S330000 ![] bcast_S_S330000 : (⟨S_, .i32⟩ : BufTy).Contents (Elt F) → (⟨S330000, .i32⟩ : BufTy).Contents (Elt F))
  :: binary main_v254 main_v269 main_v270 (cmpi .slt : (⟨S330000, .i32⟩ : BufTy).Contents (Elt F) → (⟨S330000, .i32⟩ : BufTy).Contents (Elt F) → (⟨S330000, .i1⟩ : BufTy).Contents (Elt F))
  :: nullary main_c_56 (constantI S_ 32 10000#32)
  :: unary main_c_56 main_v271 (broadcastInDim S330000 ![] bcast_S_S330000 : (⟨S_, .i32⟩ : BufTy).Contents (Elt F) → (⟨S330000, .i32⟩ : BufTy).Contents (Elt F))
  :: binary main_v254 main_v271 main_v272 (addi : (⟨S330000, .i32⟩ : BufTy).Contents (Elt F) → (⟨S330000, .i32⟩ : BufTy).Contents (Elt F) → (⟨S330000, .i32⟩ : BufTy).Contents (Elt F))
  :: ternary main_v270 main_v272 main_v254 main_v273 (select : (⟨S330000, .i1⟩ : BufTy).Contents (Elt F) → (⟨S330000, .i32⟩ : BufTy).Contents (Elt F) → (⟨S330000, .i32⟩ : BufTy).Contents (Elt F) → (⟨S330000, .i32⟩ : BufTy).Contents (Elt F))
  :: unary main_v273 main_v274 (broadcastInDim S330000x1 ![0] bcast_S330000_S330000x1_0 : (⟨S330000, .i32⟩ : BufTy).Contents (Elt F) → (⟨S330000x1, .i32⟩ : BufTy).Contents (Elt F))
  :: binary main_v260 main_v274 main_v275 ((fun x i => Host.gather gather_S10000_S330000x1_S330000_n_0_n_n_0_1_1 x i) : (⟨S10000, .f32⟩ : BufTy).Contents (Elt F) → (⟨S330000x1, .i32⟩ : BufTy).Contents (Elt F) → (⟨S330000, .f32⟩ : BufTy).Contents (Elt F))
  :: binary main_v268 main_v275 main_v276 (mulf : (⟨S330000, .f32⟩ : BufTy).Contents (Elt F) → (⟨S330000, .f32⟩ : BufTy).Contents (Elt F) → (⟨S330000, .f32⟩ : BufTy).Contents (Elt F))
  :: nullary main_c_57 (constantI S_ 32 0#32)
  :: unary main_c_57 main_v277 (broadcastInDim S330000 ![] bcast_S_S330000 : (⟨S_, .i32⟩ : BufTy).Contents (Elt F) → (⟨S330000, .i32⟩ : BufTy).Contents (Elt F))
  :: binary main_v253 main_v277 main_v278 (cmpi .slt : (⟨S330000, .i32⟩ : BufTy).Contents (Elt F) → (⟨S330000, .i32⟩ : BufTy).Contents (Elt F) → (⟨S330000, .i1⟩ : BufTy).Contents (Elt F))
  :: nullary main_c_58 (constantI S_ 32 10000#32)
  :: unary main_c_58 main_v279 (broadcastInDim S330000 ![] bcast_S_S330000 : (⟨S_, .i32⟩ : BufTy).Contents (Elt F) → (⟨S330000, .i32⟩ : BufTy).Contents (Elt F))
  :: binary main_v253 main_v279 main_v280 (addi : (⟨S330000, .i32⟩ : BufTy).Contents (Elt F) → (⟨S330000, .i32⟩ : BufTy).Contents (Elt F) → (⟨S330000, .i32⟩ : BufTy).Contents (Elt F))
  :: ternary main_v278 main_v280 main_v253 main_v281 (select : (⟨S330000, .i1⟩ : BufTy).Contents (Elt F) → (⟨S330000, .i32⟩ : BufTy).Contents (Elt F) → (⟨S330000, .i32⟩ : BufTy).Contents (Elt F) → (⟨S330000, .i32⟩ : BufTy).Contents (Elt F))
  :: unary main_v281 main_v282 (broadcastInDim S330000x1 ![0] bcast_S330000_S330000x1_0 : (⟨S330000, .i32⟩ : BufTy).Contents (Elt F) → (⟨S330000x1, .i32⟩ : BufTy).Contents (Elt F))
  :: binary main_v251 main_v282 main_v283 ((fun x i => Host.gather gather_S10000x128_S330000x1_S330000x128_1_0_n_n_0_1_1128 x i) : (⟨S10000x128, .f32⟩ : BufTy).Contents (Elt F) → (⟨S330000x1, .i32⟩ : BufTy).Contents (Elt F) → (⟨S330000x128, .f32⟩ : BufTy).Contents (Elt F))
  :: unary main_v276 main_v284 (broadcastInDim S330000x1 ![0] bcast_S330000_S330000x1_0 : (⟨S330000, .f32⟩ : BufTy).Contents (Elt F) → (⟨S330000x1, .f32⟩ : BufTy).Contents (Elt F))
  :: unary main_v284 main_v285 (broadcastInDim S330000x128 ![0, 1] bcast_S330000x1_S330000x128_0_1 : (⟨S330000x1, .f32⟩ : BufTy).Contents (Elt F) → (⟨S330000x128, .f32⟩ : BufTy).Contents (Elt F))
  :: binary main_v283 main_v285 main_v286 (mulf : (⟨S330000x128, .f32⟩ : BufTy).Contents (Elt F) → (⟨S330000x128, .f32⟩ : BufTy).Contents (Elt F) → (⟨S330000x128, .f32⟩ : BufTy).Contents (Elt F))
  :: nullary main_cst_59 (constant S_ .f32 0x00000000#32)
  :: unary main_cst_59 main_v287 (broadcastInDim S10000x128 ![] bcast_S_S10000x128 : (⟨S_, .f32⟩ : BufTy).Contents (Elt F) → (⟨S10000x128, .f32⟩ : BufTy).Contents (Elt F))
  :: unary main_v254 main_v288 (broadcastInDim S330000x1 ![0] bcast_S330000_S330000x1_0 : (⟨S330000, .i32⟩ : BufTy).Contents (Elt F) → (⟨S330000x1, .i32⟩ : BufTy).Contents (Elt F))
  :: ternary main_v287 main_v288 main_v286 main_v289 ((fun x i u => Host.scatterAdd scatter_S10000x128_S330000x1_S330000x128_1_0_0_1 x i u) : (⟨S10000x128, .f32⟩ : BufTy).Contents (Elt F) → (⟨S330000x1, .i32⟩ : BufTy).Contents (Elt F) → (⟨S330000x128, .f32⟩ : BufTy).Contents (Elt F) → (⟨S10000x128, .f32⟩ : BufTy).Contents (Elt F))
  :: unary main_arg13 main_v290 (broadcastInDim S1x128 ![1] bcast_S128_S1x128_1 : (⟨S128, .f32⟩ : BufTy).Contents (Elt F) → (⟨S1x128, .f32⟩ : BufTy).Contents (Elt F))
  :: unary main_v290 main_v291 (broadcastInDim S10000x128 ![0, 1] bcast_S1x128_S10000x128_0_1 : (⟨S1x128, .f32⟩ : BufTy).Contents (Elt F) → (⟨S10000x128, .f32⟩ : BufTy).Contents (Elt F))
  :: binary main_v289 main_v291 main_v292 (addf : (⟨S10000x128, .f32⟩ : BufTy).Contents (Elt F) → (⟨S10000x128, .f32⟩ : BufTy).Contents (Elt F) → (⟨S10000x128, .f32⟩ : BufTy).Contents (Elt F))
  :: [] )

/-- Slice 17: 3 operations (list 17 of the shared prefix). -/
abbrev slice17 : List (HloOp τ sig (Elt F)) :=
  ( TRef.nullary (TRef.of (T := ⟨S_, .f32⟩) main_call5_cst) (constant S_ .f32 0x00000000#32)
  :: TRef.unary (TRef.of (T := ⟨S_, .f32⟩) main_call5_cst) (TRef.of (T := ⟨S10000x128, .f32⟩) main_call5_v0) (broadcastInDim S10000x128 ![] bcast_S_S10000x128)
  :: TRef.binary (TRef.of (T := ⟨S10000x128, .f32⟩) main_v292) (TRef.of (T := ⟨S10000x128, .f32⟩) main_call5_v0) (TRef.of (T := ⟨S10000x128, .f32⟩) main_v293) maximumf
  :: [] )

/-- Slice 18: 21 operations (the first head). -/
abbrev slice18 : List (HloOp τ sig (Elt F)) :=
  ( binary main_v164 main_arg14 main_v294 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F))
  :: unary main_arg15 main_v295 (broadcastInDim S1x128 ![1] bcast_S128_S1x128_1 : (⟨S128, .f32⟩ : BufTy).Contents (Elt F) → (⟨S1x128, .f32⟩ : BufTy).Contents (Elt F))
  :: unary main_v295 main_v296 (broadcastInDim S10000x128 ![0, 1] bcast_S1x128_S10000x128_0_1 : (⟨S1x128, .f32⟩ : BufTy).Contents (Elt F) → (⟨S10000x128, .f32⟩ : BufTy).Contents (Elt F))
  :: binary main_v294 main_v296 main_v297 (addf : (⟨S10000x128, .f32⟩ : BufTy).Contents (Elt F) → (⟨S10000x128, .f32⟩ : BufTy).Contents (Elt F) → (⟨S10000x128, .f32⟩ : BufTy).Contents (Elt F))
  :: TRef.nullary (TRef.of (T := ⟨S_, .f32⟩) main_call6_cst) (constant S_ .f32 0x00000000#32)
  :: TRef.unary (TRef.of (T := ⟨S_, .f32⟩) main_call6_cst) (TRef.of (T := ⟨S10000x128, .f32⟩) main_call6_v0) (broadcastInDim S10000x128 ![] bcast_S_S10000x128)
  :: TRef.binary (TRef.of (T := ⟨S10000x128, .f32⟩) main_v297) (TRef.of (T := ⟨S10000x128, .f32⟩) main_call6_v0) (TRef.of (T := ⟨S10000x128, .f32⟩) main_v298) maximumf
  :: binary main_v298 main_arg16 main_v299 ((fun l r => Host.dotGeneral dot_S10000x128_S128x64_S10000x64_1_0_0_1_n_n none l r) : (⟨S10000x128, .f32⟩ : BufTy).Contents (Elt F) → (⟨S128x64, .f32⟩ : BufTy).Contents (Elt F) → (⟨S10000x64, .f32⟩ : BufTy).Contents (Elt F))
  :: unary main_arg17 main_v300 (broadcastInDim S1x64 ![1] bcast_S64_S1x64_1 : (⟨S64, .f32⟩ : BufTy).Contents (Elt F) → (⟨S1x64, .f32⟩ : BufTy).Contents (Elt F))
  :: unary main_v300 main_v301 (broadcastInDim S10000x64 ![0, 1] bcast_S1x64_S10000x64_0_1 : (⟨S1x64, .f32⟩ : BufTy).Contents (Elt F) → (⟨S10000x64, .f32⟩ : BufTy).Contents (Elt F))
  :: binary main_v299 main_v301 main_v302 (addf : (⟨S10000x64, .f32⟩ : BufTy).Contents (Elt F) → (⟨S10000x64, .f32⟩ : BufTy).Contents (Elt F) → (⟨S10000x64, .f32⟩ : BufTy).Contents (Elt F))
  :: TRef.nullary (TRef.of (T := ⟨S_, .f32⟩) main_call7_cst) (constant S_ .f32 0x00000000#32)
  :: TRef.unary (TRef.of (T := ⟨S_, .f32⟩) main_call7_cst) (TRef.of (T := ⟨S10000x64, .f32⟩) main_call7_v0) (broadcastInDim S10000x64 ![] bcast_S_S10000x64)
  :: TRef.binary (TRef.of (T := ⟨S10000x64, .f32⟩) main_v302) (TRef.of (T := ⟨S10000x64, .f32⟩) main_call7_v0) (TRef.of (T := ⟨S10000x64, .f32⟩) main_v303) maximumf
  :: binary main_v303 main_arg18 main_v304 ((fun l r => Host.dotGeneral dot_S10000x64_S64x32_S10000x32_1_0_0_1_n_n none l r) : (⟨S10000x64, .f32⟩ : BufTy).Contents (Elt F) → (⟨S64x32, .f32⟩ : BufTy).Contents (Elt F) → (⟨S10000x32, .f32⟩ : BufTy).Contents (Elt F))
  :: unary main_arg19 main_v305 (broadcastInDim S1x32 ![1] bcast_S32_S1x32_1 : (⟨S32, .f32⟩ : BufTy).Contents (Elt F) → (⟨S1x32, .f32⟩ : BufTy).Contents (Elt F))
  :: unary main_v305 main_v306 (broadcastInDim S10000x32 ![0, 1] bcast_S1x32_S10000x32_0_1 : (⟨S1x32, .f32⟩ : BufTy).Contents (Elt F) → (⟨S10000x32, .f32⟩ : BufTy).Contents (Elt F))
  :: binary main_v304 main_v306 main_v307 (addf : (⟨S10000x32, .f32⟩ : BufTy).Contents (Elt F) → (⟨S10000x32, .f32⟩ : BufTy).Contents (Elt F) → (⟨S10000x32, .f32⟩ : BufTy).Contents (Elt F))
  :: TRef.nullary (TRef.of (T := ⟨S_, .f32⟩) main_call8_cst) (constant S_ .f32 0x00000000#32)
  :: TRef.unary (TRef.of (T := ⟨S_, .f32⟩) main_call8_cst) (TRef.of (T := ⟨S10000x32, .f32⟩) main_call8_v0) (broadcastInDim S10000x32 ![] bcast_S_S10000x32)
  :: TRef.binary (TRef.of (T := ⟨S10000x32, .f32⟩) main_v307) (TRef.of (T := ⟨S10000x32, .f32⟩) main_call8_v0) (TRef.of (T := ⟨S10000x32, .f32⟩) main_v308) maximumf
  :: [] )

/-- Slice 19: 21 operations (the second head). -/
abbrev slice19 : List (HloOp τ sig (Elt F)) :=
  ( binary main_v293 main_arg20 main_v309 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F))
  :: unary main_arg21 main_v310 (broadcastInDim S1x128 ![1] bcast_S128_S1x128_1 : (⟨S128, .f32⟩ : BufTy).Contents (Elt F) → (⟨S1x128, .f32⟩ : BufTy).Contents (Elt F))
  :: unary main_v310 main_v311 (broadcastInDim S10000x128 ![0, 1] bcast_S1x128_S10000x128_0_1 : (⟨S1x128, .f32⟩ : BufTy).Contents (Elt F) → (⟨S10000x128, .f32⟩ : BufTy).Contents (Elt F))
  :: binary main_v309 main_v311 main_v312 (addf : (⟨S10000x128, .f32⟩ : BufTy).Contents (Elt F) → (⟨S10000x128, .f32⟩ : BufTy).Contents (Elt F) → (⟨S10000x128, .f32⟩ : BufTy).Contents (Elt F))
  :: TRef.nullary (TRef.of (T := ⟨S_, .f32⟩) main_call9_cst) (constant S_ .f32 0x00000000#32)
  :: TRef.unary (TRef.of (T := ⟨S_, .f32⟩) main_call9_cst) (TRef.of (T := ⟨S10000x128, .f32⟩) main_call9_v0) (broadcastInDim S10000x128 ![] bcast_S_S10000x128)
  :: TRef.binary (TRef.of (T := ⟨S10000x128, .f32⟩) main_v312) (TRef.of (T := ⟨S10000x128, .f32⟩) main_call9_v0) (TRef.of (T := ⟨S10000x128, .f32⟩) main_v313) maximumf
  :: binary main_v313 main_arg22 main_v314 ((fun l r => Host.dotGeneral dot_S10000x128_S128x64_S10000x64_1_0_0_1_n_n none l r) : (⟨S10000x128, .f32⟩ : BufTy).Contents (Elt F) → (⟨S128x64, .f32⟩ : BufTy).Contents (Elt F) → (⟨S10000x64, .f32⟩ : BufTy).Contents (Elt F))
  :: unary main_arg23 main_v315 (broadcastInDim S1x64 ![1] bcast_S64_S1x64_1 : (⟨S64, .f32⟩ : BufTy).Contents (Elt F) → (⟨S1x64, .f32⟩ : BufTy).Contents (Elt F))
  :: unary main_v315 main_v316 (broadcastInDim S10000x64 ![0, 1] bcast_S1x64_S10000x64_0_1 : (⟨S1x64, .f32⟩ : BufTy).Contents (Elt F) → (⟨S10000x64, .f32⟩ : BufTy).Contents (Elt F))
  :: binary main_v314 main_v316 main_v317 (addf : (⟨S10000x64, .f32⟩ : BufTy).Contents (Elt F) → (⟨S10000x64, .f32⟩ : BufTy).Contents (Elt F) → (⟨S10000x64, .f32⟩ : BufTy).Contents (Elt F))
  :: TRef.nullary (TRef.of (T := ⟨S_, .f32⟩) main_call10_cst) (constant S_ .f32 0x00000000#32)
  :: TRef.unary (TRef.of (T := ⟨S_, .f32⟩) main_call10_cst) (TRef.of (T := ⟨S10000x64, .f32⟩) main_call10_v0) (broadcastInDim S10000x64 ![] bcast_S_S10000x64)
  :: TRef.binary (TRef.of (T := ⟨S10000x64, .f32⟩) main_v317) (TRef.of (T := ⟨S10000x64, .f32⟩) main_call10_v0) (TRef.of (T := ⟨S10000x64, .f32⟩) main_v318) maximumf
  :: binary main_v318 main_arg24 main_v319 ((fun l r => Host.dotGeneral dot_S10000x64_S64x32_S10000x32_1_0_0_1_n_n none l r) : (⟨S10000x64, .f32⟩ : BufTy).Contents (Elt F) → (⟨S64x32, .f32⟩ : BufTy).Contents (Elt F) → (⟨S10000x32, .f32⟩ : BufTy).Contents (Elt F))
  :: unary main_arg25 main_v320 (broadcastInDim S1x32 ![1] bcast_S32_S1x32_1 : (⟨S32, .f32⟩ : BufTy).Contents (Elt F) → (⟨S1x32, .f32⟩ : BufTy).Contents (Elt F))
  :: unary main_v320 main_v321 (broadcastInDim S10000x32 ![0, 1] bcast_S1x32_S10000x32_0_1 : (⟨S1x32, .f32⟩ : BufTy).Contents (Elt F) → (⟨S10000x32, .f32⟩ : BufTy).Contents (Elt F))
  :: binary main_v319 main_v321 main_v322 (addf : (⟨S10000x32, .f32⟩ : BufTy).Contents (Elt F) → (⟨S10000x32, .f32⟩ : BufTy).Contents (Elt F) → (⟨S10000x32, .f32⟩ : BufTy).Contents (Elt F))
  :: TRef.nullary (TRef.of (T := ⟨S_, .f32⟩) main_call11_cst) (constant S_ .f32 0x00000000#32)
  :: TRef.unary (TRef.of (T := ⟨S_, .f32⟩) main_call11_cst) (TRef.of (T := ⟨S10000x32, .f32⟩) main_call11_v0) (broadcastInDim S10000x32 ![] bcast_S_S10000x32)
  :: TRef.binary (TRef.of (T := ⟨S10000x32, .f32⟩) main_v322) (TRef.of (T := ⟨S10000x32, .f32⟩) main_call11_v0) (TRef.of (T := ⟨S10000x32, .f32⟩) main_v323) maximumf
  :: [] )

/-- Slice 20: 2 operations (the transpose and the final product). -/
abbrev slice20 : List (HloOp τ sig (Elt F)) :=
  ( unary main_v323 main_v324 ((transpose S32x10000 [1, 0] · transposes_S10000x32_S32x10000_1_0) : (⟨S10000x32, .f32⟩ : BufTy).Contents (Elt F) → (⟨S32x10000, .f32⟩ : BufTy).Contents (Elt F))
  :: binary main_v308 main_v324 main_v325 ((fun l r => Host.dotGeneral dot_S10000x32_S32x10000_S10000x10000_1_0_0_1_n_n none l r) : (⟨S10000x32, .f32⟩ : BufTy).Contents (Elt F) → (⟨S32x10000, .f32⟩ : BufTy).Contents (Elt F) → (⟨S10000x10000, .f32⟩ : BufTy).Contents (Elt F))
  :: [] )

end Cert.ReferenceIdeal.HandRun

end
-- ==== Proof.RefSliceStepsD.lean ====
/-
  Slices 14 … 20 of the twenty: each carries the boundary before it to the boundary after it (RefSliceInv). Every
  line of a step reads one buffer live after the slice: `carried` when no operation of the slice writes it, `computed`
  from the named facts about the buffers its operations read when the slice writes it (PrefixTac).
-/
import proofs.«154350_j35708358099201_1_alg».proof.Proof.RefSliceInv
import proofs.«154350_j35708358099201_1_alg».proof.Proof.RefSliceOpsD

set_option maxRecDepth 8192

noncomputable section

namespace Cert.ReferenceIdeal.HandRun

open Cert.ReferenceIdeal Cert.ReferenceIdeal.Gen Idealize.ShloMosaic Idealize.ShloMosaic.TcCoe Idealize.SL.Sem Idealize.ShloMosaic.StableHlo
open Cert.ReferenceIdeal.ReadP

variable {F : FTy → Type} [FloatOps F]

set_option maxHeartbeats 8000000 in
/-- Slice 14 (3 operations: list 14 of the shared prefix) carries the boundary before it to the boundary after it: each
    buffer live after the slice is either untouched by it, or written by it from buffers live before it. -/
theorem step14 {W : Valuation τ sig (Elt F)} {x0 : (⟨S10000x128, .f32⟩ : BufTy).Contents (Elt F)} {x1 : (⟨S10000x128, .f32⟩ : BufTy).Contents (Elt F)} {x2 : (⟨S10000x10000, .f32⟩ : BufTy).Contents (Elt F)} {x3 : (⟨S10000x10000, .f32⟩ : BufTy).Contents (Elt F)} {x4 : (⟨S2x320000, .i32⟩ : BufTy).Contents (Elt F)} {x5 : (⟨S2x320000, .i32⟩ : BufTy).Contents (Elt F)} {x6 : (⟨S128x128, .f32⟩ : BufTy).Contents (Elt F)} {x7 : (⟨S128, .f32⟩ : BufTy).Contents (Elt F)} {x8 : (⟨S128x128, .f32⟩ : BufTy).Contents (Elt F)} {x9 : (⟨S128, .f32⟩ : BufTy).Contents (Elt F)} {x10 : (⟨S128x128, .f32⟩ : BufTy).Contents (Elt F)} {x11 : (⟨S128, .f32⟩ : BufTy).Contents (Elt F)} {x12 : (⟨S128x128, .f32⟩ : BufTy).Contents (Elt F)} {x13 : (⟨S128, .f32⟩ : BufTy).Contents (Elt F)} {x14 : (⟨S128x128, .f32⟩ : BufTy).Contents (Elt F)} {x15 : (⟨S128, .f32⟩ : BufTy).Contents (Elt F)} {x16 : (⟨S128x64, .f32⟩ : BufTy).Contents (Elt F)} {x17 : (⟨S64, .f32⟩ : BufTy).Contents (Elt F)} {x18 : (⟨S64x32, .f32⟩ : BufTy).Contents (Elt F)} {x19 : (⟨S32, .f32⟩ : BufTy).Contents (Elt F)} {x20 : (⟨S128x128, .f32⟩ : BufTy).Contents (Elt F)} {x21 : (⟨S128, .f32⟩ : BufTy).Contents (Elt F)} {x22 : (⟨S128x64, .f32⟩ : BufTy).Contents (Elt F)} {x23 : (⟨S64, .f32⟩ : BufTy).Contents (Elt F)} {x24 : (⟨S64x32, .f32⟩ : BufTy).Contents (Elt F)} {x25 : (⟨S32, .f32⟩ : BufTy).Contents (Elt F)}
    (h : Inv13 W x0 x1 x2 x3 x4 x5 x6 x7 x8 x9 x10 x11 x12 x13 x14 x15 x16 x17 x18 x19 x20 x21 x22 x23 x24 x25) : Inv14 (StableHlo.after slice14 W) x0 x1 x2 x3 x4 x5 x6 x7 x8 x9 x10 x11 x12 x13 x14 x15 x16 x17 x18 x19 x20 x21 x22 x23 x24 x25 := by
  open_list slice14
  constructor
  · carried h.h_v5
  · carried h.h_v7
  · carried h.h_v35
  · carried h.h_v164
  · computed [h.h_v246, h.h_arg13]
  · carried h.h_arg12
  · carried h.h_arg13
  · carried h.h_arg14
  · carried h.h_arg15
  · carried h.h_arg16
  · carried h.h_arg17
  · carried h.h_arg18
  · carried h.h_arg19
  · carried h.h_arg20
  · carried h.h_arg21
  · carried h.h_arg22
  · carried h.h_arg23
  · carried h.h_arg24
  · carried h.h_arg25

set_option maxHeartbeats 8000000 in
/-- Slice 15 (3 operations: list 15 of the shared prefix) carries the boundary before it to the boundary after it: each
    buffer live after the slice is either untouched by it, or written by it from buffers live before it. -/
theorem step15 {W : Valuation τ sig (Elt F)} {x0 : (⟨S10000x128, .f32⟩ : BufTy).Contents (Elt F)} {x1 : (⟨S10000x128, .f32⟩ : BufTy).Contents (Elt F)} {x2 : (⟨S10000x10000, .f32⟩ : BufTy).Contents (Elt F)} {x3 : (⟨S10000x10000, .f32⟩ : BufTy).Contents (Elt F)} {x4 : (⟨S2x320000, .i32⟩ : BufTy).Contents (Elt F)} {x5 : (⟨S2x320000, .i32⟩ : BufTy).Contents (Elt F)} {x6 : (⟨S128x128, .f32⟩ : BufTy).Contents (Elt F)} {x7 : (⟨S128, .f32⟩ : BufTy).Contents (Elt F)} {x8 : (⟨S128x128, .f32⟩ : BufTy).Contents (Elt F)} {x9 : (⟨S128, .f32⟩ : BufTy).Contents (Elt F)} {x10 : (⟨S128x128, .f32⟩ : BufTy).Contents (Elt F)} {x11 : (⟨S128, .f32⟩ : BufTy).Contents (Elt F)} {x12 : (⟨S128x128, .f32⟩ : BufTy).Contents (Elt F)} {x13 : (⟨S128, .f32⟩ : BufTy).Contents (Elt F)} {x14 : (⟨S128x128, .f32⟩ : BufTy).Contents (Elt F)} {x15 : (⟨S128, .f32⟩ : BufTy).Contents (Elt F)} {x16 : (⟨S128x64, .f32⟩ : BufTy).Contents (Elt F)} {x17 : (⟨S64, .f32⟩ : BufTy).Contents (Elt F)} {x18 : (⟨S64x32, .f32⟩ : BufTy).Contents (Elt F)} {x19 : (⟨S32, .f32⟩ : BufTy).Contents (Elt F)} {x20 : (⟨S128x128, .f32⟩ : BufTy).Contents (Elt F)} {x21 : (⟨S128, .f32⟩ : BufTy).Contents (Elt F)} {x22 : (⟨S128x64, .f32⟩ : BufTy).Contents (Elt F)} {x23 : (⟨S64, .f32⟩ : BufTy).Contents (Elt F)} {x24 : (⟨S64x32, .f32⟩ : BufTy).Contents (Elt F)} {x25 : (⟨S32, .f32⟩ : BufTy).Contents (Elt F)}
    (h : Inv14 W x0 x1 x2 x3 x4 x5 x6 x7 x8 x9 x10 x11 x12 x13 x14 x15 x16 x17 x18 x19 x20 x21 x22 x23 x24 x25) : Inv15 (StableHlo.after slice15 W) x0 x1 x2 x3 x4 x5 x6 x7 x8 x9 x10 x11 x12 x13 x14 x15 x16 x17 x18 x19 x20 x21 x22 x23 x24 x25 := by
  open_list slice15
  constructor
  · carried h.h_v5
  · carried h.h_v7
  · carried h.h_v35
  · carried h.h_v164
  · computed [h.h_v249]
  · carried h.h_arg12
  · carried h.h_arg13
  · carried h.h_arg14
  · carried h.h_arg15
  · carried h.h_arg16
  · carried h.h_arg17
  · carried h.h_arg18
  · carried h.h_arg19
  · carried h.h_arg20
  · carried h.h_arg21
  · carried h.h_arg22
  · carried h.h_arg23
  · carried h.h_arg24
  · carried h.h_arg25

set_option maxHeartbeats 8000000 in
/-- Slice 16 (51 operations: list 16 of the shared prefix) carries the boundary before it to the boundary after it: each
    buffer live after the slice is either untouched by it, or written by it from buffers live before it. -/
theorem step16 {W : Valuation τ sig (Elt F)} {x0 : (⟨S10000x128, .f32⟩ : BufTy).Contents (Elt F)} {x1 : (⟨S10000x128, .f32⟩ : BufTy).Contents (Elt F)} {x2 : (⟨S10000x10000, .f32⟩ : BufTy).Contents (Elt F)} {x3 : (⟨S10000x10000, .f32⟩ : BufTy).Contents (Elt F)} {x4 : (⟨S2x320000, .i32⟩ : BufTy).Contents (Elt F)} {x5 : (⟨S2x320000, .i32⟩ : BufTy).Contents (Elt F)} {x6 : (⟨S128x128, .f32⟩ : BufTy).Contents (Elt F)} {x7 : (⟨S128, .f32⟩ : BufTy).Contents (Elt F)} {x8 : (⟨S128x128, .f32⟩ : BufTy).Contents (Elt F)} {x9 : (⟨S128, .f32⟩ : BufTy).Contents (Elt F)} {x10 : (⟨S128x128, .f32⟩ : BufTy).Contents (Elt F)} {x11 : (⟨S128, .f32⟩ : BufTy).Contents (Elt F)} {x12 : (⟨S128x128, .f32⟩ : BufTy).Contents (Elt F)} {x13 : (⟨S128, .f32⟩ : BufTy).Contents (Elt F)} {x14 : (⟨S128x128, .f32⟩ : BufTy).Contents (Elt F)} {x15 : (⟨S128, .f32⟩ : BufTy).Contents (Elt F)} {x16 : (⟨S128x64, .f32⟩ : BufTy).Contents (Elt F)} {x17 : (⟨S64, .f32⟩ : BufTy).Contents (Elt F)} {x18 : (⟨S64x32, .f32⟩ : BufTy).Contents (Elt F)} {x19 : (⟨S32, .f32⟩ : BufTy).Contents (Elt F)} {x20 : (⟨S128x128, .f32⟩ : BufTy).Contents (Elt F)} {x21 : (⟨S128, .f32⟩ : BufTy).Contents (Elt F)} {x22 : (⟨S128x64, .f32⟩ : BufTy).Contents (Elt F)} {x23 : (⟨S64, .f32⟩ : BufTy).Contents (Elt F)} {x24 : (⟨S64x32, .f32⟩ : BufTy).Contents (Elt F)} {x25 : (⟨S32, .f32⟩ : BufTy).Contents (Elt F)}
    (h : Inv15 W x0 x1 x2 x3 x4 x5 x6 x7 x8 x9 x10 x11 x12 x13 x14 x15 x16 x17 x18 x19 x20 x21 x22 x23 x24 x25) : Inv16 (StableHlo.after slice16 W) x0 x1 x2 x3 x4 x5 x6 x7 x8 x9 x10 x11 x12 x13 x14 x15 x16 x17 x18 x19 x20 x21 x22 x23 x24 x25 := by
  open_list slice16
  constructor
  · carried h.h_v164
  · computed [h.h_v7, h.h_v250, h.h_arg12, h.h_v5, h.h_v35, h.h_arg13]
  · carried h.h_arg14
  · carried h.h_arg15
  · carried h.h_arg16
  · carried h.h_arg17
  · carried h.h_arg18
  · carried h.h_arg19
  · carried h.h_arg20
  · carried h.h_arg21
  · carried h.h_arg22
  · carried h.h_arg23
  · carried h.h_arg24
  · carried h.h_arg25

set_option maxHeartbeats 8000000 in
/-- Slice 17 (3 operations: list 17 of the shared prefix) carries the boundary before it to the boundary after it: each
    buffer live after the slice is either untouched by it, or written by it from buffers live before it. -/
theorem step17 {W : Valuation τ sig (Elt F)} {x0 : (⟨S10000x128, .f32⟩ : BufTy).Contents (Elt F)} {x1 : (⟨S10000x128, .f32⟩ : BufTy).Contents (Elt F)} {x2 : (⟨S10000x10000, .f32⟩ : BufTy).Contents (Elt F)} {x3 : (⟨S10000x10000, .f32⟩ : BufTy).Contents (Elt F)} {x4 : (⟨S2x320000, .i32⟩ : BufTy).Contents (Elt F)} {x5 : (⟨S2x320000, .i32⟩ : BufTy).Contents (Elt F)} {x6 : (⟨S128x128, .f32⟩ : BufTy).Contents (Elt F)} {x7 : (⟨S128, .f32⟩ : BufTy).Contents (Elt F)} {x8 : (⟨S128x128, .f32⟩ : BufTy).Contents (Elt F)} {x9 : (⟨S128, .f32⟩ : BufTy).Contents (Elt F)} {x10 : (⟨S128x128, .f32⟩ : BufTy).Contents (Elt F)} {x11 : (⟨S128, .f32⟩ : BufTy).Contents (Elt F)} {x12 : (⟨S128x128, .f32⟩ : BufTy).Contents (Elt F)} {x13 : (⟨S128, .f32⟩ : BufTy).Contents (Elt F)} {x14 : (⟨S128x128, .f32⟩ : BufTy).Contents (Elt F)} {x15 : (⟨S128, .f32⟩ : BufTy).Contents (Elt F)} {x16 : (⟨S128x64, .f32⟩ : BufTy).Contents (Elt F)} {x17 : (⟨S64, .f32⟩ : BufTy).Contents (Elt F)} {x18 : (⟨S64x32, .f32⟩ : BufTy).Contents (Elt F)} {x19 : (⟨S32, .f32⟩ : BufTy).Contents (Elt F)} {x20 : (⟨S128x128, .f32⟩ : BufTy).Contents (Elt F)} {x21 : (⟨S128, .f32⟩ : BufTy).Contents (Elt F)} {x22 : (⟨S128x64, .f32⟩ : BufTy).Contents (Elt F)} {x23 : (⟨S64, .f32⟩ : BufTy).Contents (Elt F)} {x24 : (⟨S64x32, .f32⟩ : BufTy).Contents (Elt F)} {x25 : (⟨S32, .f32⟩ : BufTy).Contents (Elt F)}
    (h : Inv16 W x0 x1 x2 x3 x4 x5 x6 x7 x8 x9 x10 x11 x12 x13 x14 x15 x16 x17 x18 x19 x20 x21 x22 x23 x24 x25) : Inv17 (StableHlo.after slice17 W) x0 x1 x2 x3 x4 x5 x6 x7 x8 x9 x10 x11 x12 x13 x14 x15 x16 x17 x18 x19 x20 x21 x22 x23 x24 x25 := by
  open_list slice17
  constructor
  · carried h.h_v164
  · computed [h.h_v292]
  · carried h.h_arg14
  · carried h.h_arg15
  · carried h.h_arg16
  · carried h.h_arg17
  · carried h.h_arg18
  · carried h.h_arg19
  · carried h.h_arg20
  · carried h.h_arg21
  · carried h.h_arg22
  · carried h.h_arg23
  · carried h.h_arg24
  · carried h.h_arg25

set_option maxHeartbeats 8000000 in
/-- Slice 18 (21 operations: the first head) carries the boundary before it to the boundary after it: each
    buffer live after the slice is either untouched by it, or written by it from buffers live before it. -/
theorem step18 {W : Valuation τ sig (Elt F)} {x0 : (⟨S10000x128, .f32⟩ : BufTy).Contents (Elt F)} {x1 : (⟨S10000x128, .f32⟩ : BufTy).Contents (Elt F)} {x2 : (⟨S10000x10000, .f32⟩ : BufTy).Contents (Elt F)} {x3 : (⟨S10000x10000, .f32⟩ : BufTy).Contents (Elt F)} {x4 : (⟨S2x320000, .i32⟩ : BufTy).Contents (Elt F)} {x5 : (⟨S2x320000, .i32⟩ : BufTy).Contents (Elt F)} {x6 : (⟨S128x128, .f32⟩ : BufTy).Contents (Elt F)} {x7 : (⟨S128, .f32⟩ : BufTy).Contents (Elt F)} {x8 : (⟨S128x128, .f32⟩ : BufTy).Contents (Elt F)} {x9 : (⟨S128, .f32⟩ : BufTy).Contents (Elt F)} {x10 : (⟨S128x128, .f32⟩ : BufTy).Contents (Elt F)} {x11 : (⟨S128, .f32⟩ : BufTy).Contents (Elt F)} {x12 : (⟨S128x128, .f32⟩ : BufTy).Contents (Elt F)} {x13 : (⟨S128, .f32⟩ : BufTy).Contents (Elt F)} {x14 : (⟨S128x128, .f32⟩ : BufTy).Contents (Elt F)} {x15 : (⟨S128, .f32⟩ : BufTy).Contents (Elt F)} {x16 : (⟨S128x64, .f32⟩ : BufTy).Contents (Elt F)} {x17 : (⟨S64, .f32⟩ : BufTy).Contents (Elt F)} {x18 : (⟨S64x32, .f32⟩ : BufTy).Contents (Elt F)} {x19 : (⟨S32, .f32⟩ : BufTy).Contents (Elt F)} {x20 : (⟨S128x128, .f32⟩ : BufTy).Contents (Elt F)} {x21 : (⟨S128, .f32⟩ : BufTy).Contents (Elt F)} {x22 : (⟨S128x64, .f32⟩ : BufTy).Contents (Elt F)} {x23 : (⟨S64, .f32⟩ : BufTy).Contents (Elt F)} {x24 : (⟨S64x32, .f32⟩ : BufTy).Contents (Elt F)} {x25 : (⟨S32, .f32⟩ : BufTy).Contents (Elt F)}
    (h : Inv17 W x0 x1 x2 x3 x4 x5 x6 x7 x8 x9 x10 x11 x12 x13 x14 x15 x16 x17 x18 x19 x20 x21 x22 x23 x24 x25) : Inv18 (StableHlo.after slice18 W) x0 x1 x2 x3 x4 x5 x6 x7 x8 x9 x10 x11 x12 x13 x14 x15 x16 x17 x18 x19 x20 x21 x22 x23 x24 x25 := by
  open_list slice18
  constructor
  · carried h.h_v293
  · computed [h.h_v164, h.h_arg14, h.h_arg15, h.h_arg16, h.h_arg17, h.h_arg18, h.h_arg19]
  · carried h.h_arg20
  · carried h.h_arg21
  · carried h.h_arg22
  · carried h.h_arg23
  · carried h.h_arg24
  · carried h.h_arg25

set_option maxHeartbeats 8000000 in
/-- Slice 19 (21 operations: the second head) carries the boundary before it to the boundary after it: each
    buffer live after the slice is either untouched by it, or written by it from buffers live before it. -/
theorem step19 {W : Valuation τ sig (Elt F)} {x0 : (⟨S10000x128, .f32⟩ : BufTy).Contents (Elt F)} {x1 : (⟨S10000x128, .f32⟩ : BufTy).Contents (Elt F)} {x2 : (⟨S10000x10000, .f32⟩ : BufTy).Contents (Elt F)} {x3 : (⟨S10000x10000, .f32⟩ : BufTy).Contents (Elt F)} {x4 : (⟨S2x320000, .i32⟩ : BufTy).Contents (Elt F)} {x5 : (⟨S2x320000, .i32⟩ : BufTy).Contents (Elt F)} {x6 : (⟨S128x128, .f32⟩ : BufTy).Contents (Elt F)} {x7 : (⟨S128, .f32⟩ : BufTy).Contents (Elt F)} {x8 : (⟨S128x128, .f32⟩ : BufTy).Contents (Elt F)} {x9 : (⟨S128, .f32⟩ : BufTy).Contents (Elt F)} {x10 : (⟨S128x128, .f32⟩ : BufTy).Contents (Elt F)} {x11 : (⟨S128, .f32⟩ : BufTy).Contents (Elt F)} {x12 : (⟨S128x128, .f32⟩ : BufTy).Contents (Elt F)} {x13 : (⟨S128, .f32⟩ : BufTy).Contents (Elt F)} {x14 : (⟨S128x128, .f32⟩ : BufTy).Contents (Elt F)} {x15 : (⟨S128, .f32⟩ : BufTy).Contents (Elt F)} {x16 : (⟨S128x64, .f32⟩ : BufTy).Contents (Elt F)} {x17 : (⟨S64, .f32⟩ : BufTy).Contents (Elt F)} {x18 : (⟨S64x32, .f32⟩ : BufTy).Contents (Elt F)} {x19 : (⟨S32, .f32⟩ : BufTy).Contents (Elt F)} {x20 : (⟨S128x128, .f32⟩ : BufTy).Contents (Elt F)} {x21 : (⟨S128, .f32⟩ : BufTy).Contents (Elt F)} {x22 : (⟨S128x64, .f32⟩ : BufTy).Contents (Elt F)} {x23 : (⟨S64, .f32⟩ : BufTy).Contents (Elt F)} {x24 : (⟨S64x32, .f32⟩ : BufTy).Contents (Elt F)} {x25 : (⟨S32, .f32⟩ : BufTy).Contents (Elt F)}
    (h : Inv18 W x0 x1 x2 x3 x4 x5 x6 x7 x8 x9 x10 x11 x12 x13 x14 x15 x16 x17 x18 x19 x20 x21 x22 x23 x24 x25) : Inv19 (StableHlo.after slice19 W) x0 x1 x2 x3 x4 x5 x6 x7 x8 x9 x10 x11 x12 x13 x14 x15 x16 x17 x18 x19 x20 x21 x22 x23 x24 x25 := by
  open_list slice19
  constructor
  · carried h.h_v308
  · computed [h.h_v293, h.h_arg20, h.h_arg21, h.h_arg22, h.h_arg23, h.h_arg24, h.h_arg25]

set_option maxHeartbeats 8000000 in
/-- Slice 20 (2 operations: the transpose and the final product) carries the boundary before it to the boundary after it: each
    buffer live after the slice is either untouched by it, or written by it from buffers live before it. -/
theorem step20 {W : Valuation τ sig (Elt F)} {x0 : (⟨S10000x128, .f32⟩ : BufTy).Contents (Elt F)} {x1 : (⟨S10000x128, .f32⟩ : BufTy).Contents (Elt F)} {x2 : (⟨S10000x10000, .f32⟩ : BufTy).Contents (Elt F)} {x3 : (⟨S10000x10000, .f32⟩ : BufTy).Contents (Elt F)} {x4 : (⟨S2x320000, .i32⟩ : BufTy).Contents (Elt F)} {x5 : (⟨S2x320000, .i32⟩ : BufTy).Contents (Elt F)} {x6 : (⟨S128x128, .f32⟩ : BufTy).Contents (Elt F)} {x7 : (⟨S128, .f32⟩ : BufTy).Contents (Elt F)} {x8 : (⟨S128x128, .f32⟩ : BufTy).Contents (Elt F)} {x9 : (⟨S128, .f32⟩ : BufTy).Contents (Elt F)} {x10 : (⟨S128x128, .f32⟩ : BufTy).Contents (Elt F)} {x11 : (⟨S128, .f32⟩ : BufTy).Contents (Elt F)} {x12 : (⟨S128x128, .f32⟩ : BufTy).Contents (Elt F)} {x13 : (⟨S128, .f32⟩ : BufTy).Contents (Elt F)} {x14 : (⟨S128x128, .f32⟩ : BufTy).Contents (Elt F)} {x15 : (⟨S128, .f32⟩ : BufTy).Contents (Elt F)} {x16 : (⟨S128x64, .f32⟩ : BufTy).Contents (Elt F)} {x17 : (⟨S64, .f32⟩ : BufTy).Contents (Elt F)} {x18 : (⟨S64x32, .f32⟩ : BufTy).Contents (Elt F)} {x19 : (⟨S32, .f32⟩ : BufTy).Contents (Elt F)} {x20 : (⟨S128x128, .f32⟩ : BufTy).Contents (Elt F)} {x21 : (⟨S128, .f32⟩ : BufTy).Contents (Elt F)} {x22 : (⟨S128x64, .f32⟩ : BufTy).Contents (Elt F)} {x23 : (⟨S64, .f32⟩ : BufTy).Contents (Elt F)} {x24 : (⟨S64x32, .f32⟩ : BufTy).Contents (Elt F)} {x25 : (⟨S32, .f32⟩ : BufTy).Contents (Elt F)}
    (h : Inv19 W x0 x1 x2 x3 x4 x5 x6 x7 x8 x9 x10 x11 x12 x13 x14 x15 x16 x17 x18 x19 x20 x21 x22 x23 x24 x25) : Inv20 (StableHlo.after slice20 W) x0 x1 x2 x3 x4 x5 x6 x7 x8 x9 x10 x11 x12 x13 x14 x15 x16 x17 x18 x19 x20 x21 x22 x23 x24 x25 := by
  open_list slice20
  constructor
  · computed [h.h_v308, h.h_v323]

end Cert.ReferenceIdeal.HandRun

end
-- ==== Proof.RefResult.lean ====
/-
  The reference program's result. Its 412 operations are the twenty slices of RefSliceOpsA … D joined in order, so the
  contents after the whole list are the contents after the slices run one after the other; the twenty steps of
  RefSliceStepsA … D carry the launch boundary to the last one, where the result buffer `main_v325` holds the stage
  `val_main_v325` of the launch contents of the twenty-six arguments. Nothing is evaluated on the way: a step only
  matches one slice's operations against the stages of the same names.
-/
import proofs.«154350_j35708358099201_1_alg».proof.Proof.RefRunOpsP
import proofs.«154350_j35708358099201_1_alg».proof.Proof.RefSliceStepsA
import proofs.«154350_j35708358099201_1_alg».proof.Proof.RefSliceStepsB
import proofs.«154350_j35708358099201_1_alg».proof.Proof.RefSliceStepsC
import proofs.«154350_j35708358099201_1_alg».proof.Proof.RefSliceStepsD
import Idealize.ShloMosaic.Lib.Pipeline.Frame

noncomputable section

namespace Cert.ReferenceIdeal.HandRun

open Cert.ReferenceIdeal Cert.ReferenceIdeal.Gen Idealize.ShloMosaic Idealize.ShloMosaic.TcCoe Idealize.SL.Sem Idealize.ShloMosaic.StableHlo
open Cert.ReferenceIdeal.ReadP

variable {F : FTy → Type} [FloatOps F]

set_option maxRecDepth 32768 in
/-- The twenty slices, joined in order, are the list of the 412 operations: the same operations in the same order. -/
theorem ops_eq : (OpsP.ops : List (HloOp τ sig (Elt F)))
    = slice1 ++ (slice2 ++ (slice3 ++ (slice4 ++ (slice5 ++ (slice6 ++ (slice7 ++ (slice8 ++ (slice9 ++ (slice10 ++ (slice11 ++ (slice12 ++ (slice13 ++ (slice14 ++ (slice15 ++ (slice16 ++ (slice17 ++ (slice18 ++ (slice19 ++ (slice20))))))))))))))))))) := rfl

/-- The contents after the twenty slices run one after the other from contents `V`. -/
abbrev sliceFold (V : Valuation τ sig (Elt F)) : Valuation τ sig (Elt F) :=
  StableHlo.after slice20 <| StableHlo.after slice19 <| StableHlo.after slice18 <| StableHlo.after slice17 <|
  StableHlo.after slice16 <| StableHlo.after slice15 <| StableHlo.after slice14 <| StableHlo.after slice13 <|
  StableHlo.after slice12 <| StableHlo.after slice11 <| StableHlo.after slice10 <| StableHlo.after slice9 <|
  StableHlo.after slice8 <| StableHlo.after slice7 <| StableHlo.after slice6 <| StableHlo.after slice5 <|
  StableHlo.after slice4 <| StableHlo.after slice3 <| StableHlo.after slice2 <| StableHlo.after slice1 <| V

/-- Running the list is running its slices one after the other: the fold over a join is the fold over the second
    part from the contents after the first. -/
theorem after_ops (V : Valuation τ sig (Elt F)) : StableHlo.after OpsP.ops V = sliceFold V := by
  rw [ops_eq]
  repeat rw [StableHlo.after_append]

/-- At the launch every argument holds its own array: the boundary before the first slice, at the arrays `V` gives. -/
theorem inv0 (V : Valuation τ sig (Elt F)) :
    Inv0 V
      (V (Proc.devRef .tc main_arg0)) (V (Proc.devRef .tc main_arg1)) (V (Proc.devRef .tc main_arg2))
      (V (Proc.devRef .tc main_arg3)) (V (Proc.devRef .tc main_arg4)) (V (Proc.devRef .tc main_arg5))
      (V (Proc.devRef .tc main_arg6)) (V (Proc.devRef .tc main_arg7)) (V (Proc.devRef .tc main_arg8))
      (V (Proc.devRef .tc main_arg9)) (V (Proc.devRef .tc main_arg10)) (V (Proc.devRef .tc main_arg11))
      (V (Proc.devRef .tc main_arg12)) (V (Proc.devRef .tc main_arg13)) (V (Proc.devRef .tc main_arg14))
      (V (Proc.devRef .tc main_arg15)) (V (Proc.devRef .tc main_arg16)) (V (Proc.devRef .tc main_arg17))
      (V (Proc.devRef .tc main_arg18)) (V (Proc.devRef .tc main_arg19)) (V (Proc.devRef .tc main_arg20))
      (V (Proc.devRef .tc main_arg21)) (V (Proc.devRef .tc main_arg22)) (V (Proc.devRef .tc main_arg23))
      (V (Proc.devRef .tc main_arg24)) (V (Proc.devRef .tc main_arg25)) :=
  ⟨rfl, rfl, rfl, rfl, rfl, rfl, rfl, rfl, rfl, rfl, rfl, rfl, rfl, rfl, rfl, rfl, rfl, rfl, rfl, rfl, rfl, rfl, rfl, rfl, rfl, rfl⟩

/-- The twenty steps in order: the boundary after the last slice, at the arrays `V` gives. -/
theorem inv20 (V : Valuation τ sig (Elt F)) :
    Inv20 (sliceFold V)
      (V (Proc.devRef .tc main_arg0)) (V (Proc.devRef .tc main_arg1)) (V (Proc.devRef .tc main_arg2))
      (V (Proc.devRef .tc main_arg3)) (V (Proc.devRef .tc main_arg4)) (V (Proc.devRef .tc main_arg5))
      (V (Proc.devRef .tc main_arg6)) (V (Proc.devRef .tc main_arg7)) (V (Proc.devRef .tc main_arg8))
      (V (Proc.devRef .tc main_arg9)) (V (Proc.devRef .tc main_arg10)) (V (Proc.devRef .tc main_arg11))
      (V (Proc.devRef .tc main_arg12)) (V (Proc.devRef .tc main_arg13)) (V (Proc.devRef .tc main_arg14))
      (V (Proc.devRef .tc main_arg15)) (V (Proc.devRef .tc main_arg16)) (V (Proc.devRef .tc main_arg17))
      (V (Proc.devRef .tc main_arg18)) (V (Proc.devRef .tc main_arg19)) (V (Proc.devRef .tc main_arg20))
      (V (Proc.devRef .tc main_arg21)) (V (Proc.devRef .tc main_arg22)) (V (Proc.devRef .tc main_arg23))
      (V (Proc.devRef .tc main_arg24)) (V (Proc.devRef .tc main_arg25)) :=
  step20 <| step19 <| step18 <| step17 <| step16 <| step15 <| step14 <| step13 <| step12 <| step11 <| step10 <| step9 <|
    step8 <| step7 <| step6 <| step5 <| step4 <| step3 <| step2 <| step1 <| inv0 V

/-- After the 412 operations, from any contents `V`, the result buffer holds the last stage at `V`'s argument arrays. -/
theorem result_after (V : Valuation τ sig (Elt F)) :
    StableHlo.after OpsP.ops V (Proc.devRef .tc main_v325)
      = val_main_v325 (F := F)
          (V (Proc.devRef .tc main_arg0)) (V (Proc.devRef .tc main_arg1)) (V (Proc.devRef .tc main_arg2))
          (V (Proc.devRef .tc main_arg3)) (V (Proc.devRef .tc main_arg4)) (V (Proc.devRef .tc main_arg5))
          (V (Proc.devRef .tc main_arg6)) (V (Proc.devRef .tc main_arg7)) (V (Proc.devRef .tc main_arg8))
          (V (Proc.devRef .tc main_arg9)) (V (Proc.devRef .tc main_arg10)) (V (Proc.devRef .tc main_arg11))
          (V (Proc.devRef .tc main_arg12)) (V (Proc.devRef .tc main_arg13)) (V (Proc.devRef .tc main_arg14))
          (V (Proc.devRef .tc main_arg15)) (V (Proc.devRef .tc main_arg16)) (V (Proc.devRef .tc main_arg17))
          (V (Proc.devRef .tc main_arg18)) (V (Proc.devRef .tc main_arg19)) (V (Proc.devRef .tc main_arg20))
          (V (Proc.devRef .tc main_arg21)) (V (Proc.devRef .tc main_arg22)) (V (Proc.devRef .tc main_arg23))
          (V (Proc.devRef .tc main_arg24)) (V (Proc.devRef .tc main_arg25)) := by
  rw [after_ops]
  exact (inv20 V).h_v325

end Cert.ReferenceIdeal.HandRun

end
-- ==== Proof.RefRunH.lean ====
/-
  The reference's run.

  @main of the reference is a straight line of 412 host operations (module RefRunOpsP: the list `ops`, and that
  @main is their sequence). On a signature that scopes nothing, every weakly fair execution of such a line
  terminates with every buffer at the fold of the operations' results over the launch's contents (`run_seq`).
  Two readings of that fold give the run's statement:
  * an argument's buffer is written by no operation, so the fold leaves it at the launch's contents (`arg_kept`:
    each operation writes exactly one reference, the 412 written references are listed in order and no argument
    is among them);
  * the result's buffer holds the composition of the operations' functions in program order, which is the last
    stage's value `val_main_v325` of the stage-by-stage reading of the program (`result_after`, read slice by
    slice).
-/
import proofs.«154350_j35708358099201_1_alg».proof.Proof.RefRunArgs
import proofs.«154350_j35708358099201_1_alg».proof.Proof.RefResult
import proofs.«154350_j35708358099201_1_alg».proof.Proof.RefReadP

noncomputable section

namespace Cert.ReferenceIdeal.HandRun

open Cert.ReferenceIdeal Cert.ReferenceIdeal.Gen Cert.ReferenceIdeal.OpsP Cert.ReferenceIdeal.ReadP Idealize.ShloMosaic Idealize.ShloMosaic.TcCoe Idealize.SL.Sem Idealize.ShloMosaic.StableHlo

variable {F : FTy → Type} [FloatOps F]

set_option maxRecDepth 8192 in
set_option maxHeartbeats 16000000 in
/-- On every device, for any float values, from any memory with zero counters: every weakly fair execution of
    @main terminates with the result buffer at the last stage's value of the launch's argument arrays and the
    arguments unchanged. -/
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v325)
          = val_main_v325 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25) :=
  (θ_run defs _ _).mono (fun _ h c => ⟨(h c main_v325).trans (result_after (launchContents m c)),
      (h c main_arg0).trans (arg_kept (launchContents m c) main_arg0 (by decide)),
      (h c main_arg1).trans (arg_kept (launchContents m c) main_arg1 (by decide)),
      (h c main_arg2).trans (arg_kept (launchContents m c) main_arg2 (by decide)),
      (h c main_arg3).trans (arg_kept (launchContents m c) main_arg3 (by decide)),
      (h c main_arg4).trans (arg_kept (launchContents m c) main_arg4 (by decide)),
      (h c main_arg5).trans (arg_kept (launchContents m c) main_arg5 (by decide)),
      (h c main_arg6).trans (arg_kept (launchContents m c) main_arg6 (by decide)),
      (h c main_arg7).trans (arg_kept (launchContents m c) main_arg7 (by decide)),
      (h c main_arg8).trans (arg_kept (launchContents m c) main_arg8 (by decide)),
      (h c main_arg9).trans (arg_kept (launchContents m c) main_arg9 (by decide)),
      (h c main_arg10).trans (arg_kept (launchContents m c) main_arg10 (by decide)),
      (h c main_arg11).trans (arg_kept (launchContents m c) main_arg11 (by decide)),
      (h c main_arg12).trans (arg_kept (launchContents m c) main_arg12 (by decide)),
      (h c main_arg13).trans (arg_kept (launchContents m c) main_arg13 (by decide)),
      (h c main_arg14).trans (arg_kept (launchContents m c) main_arg14 (by decide)),
      (h c main_arg15).trans (arg_kept (launchContents m c) main_arg15 (by decide)),
      (h c main_arg16).trans (arg_kept (launchContents m c) main_arg16 (by decide)),
      (h c main_arg17).trans (arg_kept (launchContents m c) main_arg17 (by decide)),
      (h c main_arg18).trans (arg_kept (launchContents m c) main_arg18 (by decide)),
      (h c main_arg19).trans (arg_kept (launchContents m c) main_arg19 (by decide)),
      (h c main_arg20).trans (arg_kept (launchContents m c) main_arg20 (by decide)),
      (h c main_arg21).trans (arg_kept (launchContents m c) main_arg21 (by decide)),
      (h c main_arg22).trans (arg_kept (launchContents m c) main_arg22 (by decide)),
      (h c main_arg23).trans (arg_kept (launchContents m c) main_arg23 (by decide)),
      (h c main_arg24).trans (arg_kept (launchContents m c) main_arg24 (by decide)),
      (h c main_arg25).trans (arg_kept (launchContents m c) main_arg25 (by decide))⟩)
    (run_seq scopedRefs_eq scopedSems_eq defs main (fun _ => ops) main_eq (fun _ => ops_sub) m ρ)

end Cert.ReferenceIdeal.HandRun

end
-- ==== Proof.RefFrameH.lean ====
/-
  The reference program runs and leaves its arguments unchanged.

  The reference's run (module RefRunH) states, for every memory `m` with zero counters and every generator
  register file `ρ`, that every weakly fair execution of @main terminates and that, on every device, the result
  buffer holds the last stage's value of the arguments AND each of the twenty-six argument buffers holds what it
  held at launch. The frame claim is the second half of that conjunction: the first conjunct (the value of the
  result) is dropped, the precondition on the arguments is not needed.
-/
import proofs.«154350_j35708358099201_1_alg».proof.Defs
import proofs.«154350_j35708358099201_1_alg».proof.Proof.Gen.ReferenceIdeal
import proofs.«154350_j35708358099201_1_alg».proof.Proof.Gen.Pre_finite_inputs
import proofs.«154350_j35708358099201_1_alg».proof.Proof.RefRunH

noncomputable section

namespace Cert.ReferenceIdeal.Hand

open Idealize.ShloMosaic Idealize.ShloMosaic.TcCoe Idealize.SL.Sem

/-- Every weakly fair execution of the reference terminates with its argument arrays unchanged: the run's
    postcondition without its first conjunct. -/
theorem frame_ri : Cert.frame_ReferenceIdeal := fun m ρ _ =>
  (θ_run Cert.ReferenceIdeal.defs _ _).mono (fun _ h c => (h c).2) (Cert.ReferenceIdeal.HandRun.run (F := Ideal) m ρ)

end Cert.ReferenceIdeal.Hand

end
-- ==== Proof.RefValue.lean ====
/-
  The reference's value is the specification's.

  The reference computes, for two graphs, a stack of three graph-convolution layers (the stages up to
  `val_main_v164` for the first graph, a function of the arguments 0, 2, 4, 6, 7, 8, 9, and up to `val_main_v293`
  for the second, of the arguments 1, 3, 5, 10, 11, 12, 13), then on each stack's output `h` (10000 × 128) a
  three-layer perceptron
      x = max (max (max (h · W₁ + b₁) 0 · W₂ + b₂) 0 · W₃ + b₃) 0        (10000 × 32),
  with the weights 14 … 19 for the first graph and 20 … 25 for the second, and returns the 10000 × 10000 matrix of
  inner products  result (i, j) = ∑ k < 32, x (i, k) · y (j, k).

  First each of the seven stages after the stacks is read at an index, at the ideal instance, where a contraction
  is the sum of the products (`…_read`): a layer's entry is the rectified sum over the features of the stage before
  it times a column of the weights, plus the bias of that column; the result's entry is the sum over the 32 output
  features of a row of the first head times a row of the second (the transposition read through). The index
  functions `lidx_…`, `ridx_…`, `idx_…` are those of the stage-by-stage module: `lidx_d i k = (i 0, k)`,
  `ridx_d i k = (k, i 1)` for a contraction `d`, `idx_b (idx_b' i) = (i 1)` for a bias broadcast along the rows,
  `idx_main_v324 (ridx_main_v325 i k) = (i 1, k)` under the last contraction.
  Then each layer IS the specification's `dense` of the stage before it (`…_eq_dense`: the index functions are
  the specification's pairs, coordinate by coordinate), each perceptron its `head` (`…_eq_head`), and the result its
  `gram` of the two heads (`ref_result`). The two stacks' outputs stay the named stages and are never opened.
-/
import proofs.«154350_j35708358099201_1_alg».proof.Proof.RefReadP
import proofs.«154350_j35708358099201_1_alg».proof.Proof.Spec

noncomputable section

namespace Cert.ReferenceIdeal.HandValue

open Cert.ReferenceIdeal Cert.ReferenceIdeal.Gen Cert.ReferenceIdeal.ReadP Idealize.ShloMosaic Idealize.ShloMosaic.TcCoe Idealize.SL.Sem Idealize.ShloMosaic.StableHlo Idealize.ShloMosaic.ValueIdx

/-! ## The two perceptrons and the product, index by index -/

/-- First head, layer 1 (128 → 128) at an index: the rectified sum over the 128 features of the first graph stack's output, weighted by column `i 1` of the weight matrix, plus the bias at `i 1`. -/
theorem val_main_v298_read (x0 : (⟨S10000x128, .f32⟩ : BufTy).Contents (Elt Ideal)) (x2 : (⟨S10000x10000, .f32⟩ : BufTy).Contents (Elt Ideal)) (x4 : (⟨S2x320000, .i32⟩ : BufTy).Contents (Elt Ideal)) (x6 : (⟨S128x128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) (x14 : (⟨S128x128, .f32⟩ : BufTy).Contents (Elt Ideal)) (x15 : (⟨S128, .f32⟩ : BufTy).Contents (Elt Ideal)) (i : S10000x128.Idx) :
    val_main_v298 (F := Ideal) x0 x2 x4 x6 x7 x8 x9 x14 x15 i
      = FloatOps.maximumf (F := Ideal) (φ := .f32)
          (FloatOps.addf (F := Ideal) (φ := .f32)
            (∑ k : Fin 128, val_main_v164 (F := Ideal) x0 x2 x4 x6 x7 x8 x9 (lidx_main_v294 i k) * x14 (ridx_main_v294 i k))
            (x15 (idx_main_v295 (idx_main_v296 i))))
          (FloatOps.ofBits (F := Ideal) .f32 0x00000000#32) := by
  rw [val_main_v298_apply, val_main_v297_apply, val_main_v294_apply, val_main_v296_apply, val_main_v295_apply, val_main_call6_v0_apply, val_main_call6_cst_apply]

/-- First head, layer 2 (128 → 64) at an index. -/
theorem val_main_v303_read (x0 : (⟨S10000x128, .f32⟩ : BufTy).Contents (Elt Ideal)) (x2 : (⟨S10000x10000, .f32⟩ : BufTy).Contents (Elt Ideal)) (x4 : (⟨S2x320000, .i32⟩ : BufTy).Contents (Elt Ideal)) (x6 : (⟨S128x128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) (x14 : (⟨S128x128, .f32⟩ : BufTy).Contents (Elt Ideal)) (x15 : (⟨S128, .f32⟩ : BufTy).Contents (Elt Ideal)) (x16 : (⟨S128x64, .f32⟩ : BufTy).Contents (Elt Ideal)) (x17 : (⟨S64, .f32⟩ : BufTy).Contents (Elt Ideal)) (i : S10000x64.Idx) :
    val_main_v303 (F := Ideal) x0 x2 x4 x6 x7 x8 x9 x14 x15 x16 x17 i
      = FloatOps.maximumf (F := Ideal) (φ := .f32)
          (FloatOps.addf (F := Ideal) (φ := .f32)
            (∑ k : Fin 128, val_main_v298 (F := Ideal) x0 x2 x4 x6 x7 x8 x9 x14 x15 (lidx_main_v299 i k) * x16 (ridx_main_v299 i k))
            (x17 (idx_main_v300 (idx_main_v301 i))))
          (FloatOps.ofBits (F := Ideal) .f32 0x00000000#32) := by
  rw [val_main_v303_apply, val_main_v302_apply, val_main_v299_apply, val_main_v301_apply, val_main_v300_apply, val_main_call7_v0_apply, val_main_call7_cst_apply]

/-- First head, layer 3 (64 → 32) at an index. -/
theorem val_main_v308_read (x0 : (⟨S10000x128, .f32⟩ : BufTy).Contents (Elt Ideal)) (x2 : (⟨S10000x10000, .f32⟩ : BufTy).Contents (Elt Ideal)) (x4 : (⟨S2x320000, .i32⟩ : BufTy).Contents (Elt Ideal)) (x6 : (⟨S128x128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) (x14 : (⟨S128x128, .f32⟩ : BufTy).Contents (Elt Ideal)) (x15 : (⟨S128, .f32⟩ : BufTy).Contents (Elt Ideal)) (x16 : (⟨S128x64, .f32⟩ : BufTy).Contents (Elt Ideal)) (x17 : (⟨S64, .f32⟩ : BufTy).Contents (Elt Ideal)) (x18 : (⟨S64x32, .f32⟩ : BufTy).Contents (Elt Ideal)) (x19 : (⟨S32, .f32⟩ : BufTy).Contents (Elt Ideal)) (i : S10000x32.Idx) :
    val_main_v308 (F := Ideal) x0 x2 x4 x6 x7 x8 x9 x14 x15 x16 x17 x18 x19 i
      = FloatOps.maximumf (F := Ideal) (φ := .f32)
          (FloatOps.addf (F := Ideal) (φ := .f32)
            (∑ k : Fin 64, val_main_v303 (F := Ideal) x0 x2 x4 x6 x7 x8 x9 x14 x15 x16 x17 (lidx_main_v304 i k) * x18 (ridx_main_v304 i k))
            (x19 (idx_main_v305 (idx_main_v306 i))))
          (FloatOps.ofBits (F := Ideal) .f32 0x00000000#32) := by
  rw [val_main_v308_apply, val_main_v307_apply, val_main_v304_apply, val_main_v306_apply, val_main_v305_apply, val_main_call8_v0_apply, val_main_call8_cst_apply]

/-- Second head, layer 1 (128 → 128) at an index, over the second graph stack's output. -/
theorem val_main_v313_read (x1 : (⟨S10000x128, .f32⟩ : BufTy).Contents (Elt Ideal)) (x3 : (⟨S10000x10000, .f32⟩ : BufTy).Contents (Elt Ideal)) (x5 : (⟨S2x320000, .i32⟩ : BufTy).Contents (Elt Ideal)) (x10 : (⟨S128x128, .f32⟩ : BufTy).Contents (Elt Ideal)) (x11 : (⟨S128, .f32⟩ : BufTy).Contents (Elt Ideal)) (x12 : (⟨S128x128, .f32⟩ : BufTy).Contents (Elt Ideal)) (x13 : (⟨S128, .f32⟩ : BufTy).Contents (Elt Ideal)) (x20 : (⟨S128x128, .f32⟩ : BufTy).Contents (Elt Ideal)) (x21 : (⟨S128, .f32⟩ : BufTy).Contents (Elt Ideal)) (i : S10000x128.Idx) :
    val_main_v313 (F := Ideal) x1 x3 x5 x10 x11 x12 x13 x20 x21 i
      = FloatOps.maximumf (F := Ideal) (φ := .f32)
          (FloatOps.addf (F := Ideal) (φ := .f32)
            (∑ k : Fin 128, val_main_v293 (F := Ideal) x1 x3 x5 x10 x11 x12 x13 (lidx_main_v309 i k) * x20 (ridx_main_v309 i k))
            (x21 (idx_main_v310 (idx_main_v311 i))))
          (FloatOps.ofBits (F := Ideal) .f32 0x00000000#32) := by
  rw [val_main_v313_apply, val_main_v312_apply, val_main_v309_apply, val_main_v311_apply, val_main_v310_apply, val_main_call9_v0_apply, val_main_call9_cst_apply]

/-- Second head, layer 2 (128 → 64) at an index. -/
theorem val_main_v318_read (x1 : (⟨S10000x128, .f32⟩ : BufTy).Contents (Elt Ideal)) (x3 : (⟨S10000x10000, .f32⟩ : BufTy).Contents (Elt Ideal)) (x5 : (⟨S2x320000, .i32⟩ : BufTy).Contents (Elt Ideal)) (x10 : (⟨S128x128, .f32⟩ : BufTy).Contents (Elt Ideal)) (x11 : (⟨S128, .f32⟩ : BufTy).Contents (Elt Ideal)) (x12 : (⟨S128x128, .f32⟩ : BufTy).Contents (Elt Ideal)) (x13 : (⟨S128, .f32⟩ : BufTy).Contents (Elt Ideal)) (x20 : (⟨S128x128, .f32⟩ : BufTy).Contents (Elt Ideal)) (x21 : (⟨S128, .f32⟩ : BufTy).Contents (Elt Ideal)) (x22 : (⟨S128x64, .f32⟩ : BufTy).Contents (Elt Ideal)) (x23 : (⟨S64, .f32⟩ : BufTy).Contents (Elt Ideal)) (i : S10000x64.Idx) :
    val_main_v318 (F := Ideal) x1 x3 x5 x10 x11 x12 x13 x20 x21 x22 x23 i
      = FloatOps.maximumf (F := Ideal) (φ := .f32)
          (FloatOps.addf (F := Ideal) (φ := .f32)
            (∑ k : Fin 128, val_main_v313 (F := Ideal) x1 x3 x5 x10 x11 x12 x13 x20 x21 (lidx_main_v314 i k) * x22 (ridx_main_v314 i k))
            (x23 (idx_main_v315 (idx_main_v316 i))))
          (FloatOps.ofBits (F := Ideal) .f32 0x00000000#32) := by
  rw [val_main_v318_apply, val_main_v317_apply, val_main_v314_apply, val_main_v316_apply, val_main_v315_apply, val_main_call10_v0_apply, val_main_call10_cst_apply]

/-- Second head, layer 3 (64 → 32) at an index. -/
theorem val_main_v323_read (x1 : (⟨S10000x128, .f32⟩ : BufTy).Contents (Elt Ideal)) (x3 : (⟨S10000x10000, .f32⟩ : BufTy).Contents (Elt Ideal)) (x5 : (⟨S2x320000, .i32⟩ : BufTy).Contents (Elt Ideal)) (x10 : (⟨S128x128, .f32⟩ : BufTy).Contents (Elt Ideal)) (x11 : (⟨S128, .f32⟩ : BufTy).Contents (Elt Ideal)) (x12 : (⟨S128x128, .f32⟩ : BufTy).Contents (Elt Ideal)) (x13 : (⟨S128, .f32⟩ : BufTy).Contents (Elt Ideal)) (x20 : (⟨S128x128, .f32⟩ : BufTy).Contents (Elt Ideal)) (x21 : (⟨S128, .f32⟩ : BufTy).Contents (Elt Ideal)) (x22 : (⟨S128x64, .f32⟩ : BufTy).Contents (Elt Ideal)) (x23 : (⟨S64, .f32⟩ : BufTy).Contents (Elt Ideal)) (x24 : (⟨S64x32, .f32⟩ : BufTy).Contents (Elt Ideal)) (x25 : (⟨S32, .f32⟩ : BufTy).Contents (Elt Ideal)) (i : S10000x32.Idx) :
    val_main_v323 (F := Ideal) x1 x3 x5 x10 x11 x12 x13 x20 x21 x22 x23 x24 x25 i
      = FloatOps.maximumf (F := Ideal) (φ := .f32)
          (FloatOps.addf (F := Ideal) (φ := .f32)
            (∑ k : Fin 64, val_main_v318 (F := Ideal) x1 x3 x5 x10 x11 x12 x13 x20 x21 x22 x23 (lidx_main_v319 i k) * x24 (ridx_main_v319 i k))
            (x25 (idx_main_v320 (idx_main_v321 i))))
          (FloatOps.ofBits (F := Ideal) .f32 0x00000000#32) := by
  rw [val_main_v323_apply, val_main_v322_apply, val_main_v319_apply, val_main_v321_apply, val_main_v320_apply, val_main_call11_v0_apply, val_main_call11_cst_apply]

/-- The result at an index `i = (i 0, i 1)`: the inner product, over the 32 output features, of row `i 0` of the
    first head's output with row `i 1` of the second head's output (the transposition read through). -/
theorem result_read (x0 : (⟨S10000x128, .f32⟩ : BufTy).Contents (Elt Ideal)) (x1 : (⟨S10000x128, .f32⟩ : BufTy).Contents (Elt Ideal)) (x2 : (⟨S10000x10000, .f32⟩ : BufTy).Contents (Elt Ideal)) (x3 : (⟨S10000x10000, .f32⟩ : BufTy).Contents (Elt Ideal)) (x4 : (⟨S2x320000, .i32⟩ : BufTy).Contents (Elt Ideal)) (x5 : (⟨S2x320000, .i32⟩ : BufTy).Contents (Elt Ideal)) (x6 : (⟨S128x128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) (x10 : (⟨S128x128, .f32⟩ : BufTy).Contents (Elt Ideal)) (x11 : (⟨S128, .f32⟩ : BufTy).Contents (Elt Ideal)) (x12 : (⟨S128x128, .f32⟩ : BufTy).Contents (Elt Ideal)) (x13 : (⟨S128, .f32⟩ : BufTy).Contents (Elt Ideal)) (x14 : (⟨S128x128, .f32⟩ : BufTy).Contents (Elt Ideal)) (x15 : (⟨S128, .f32⟩ : BufTy).Contents (Elt Ideal)) (x16 : (⟨S128x64, .f32⟩ : BufTy).Contents (Elt Ideal)) (x17 : (⟨S64, .f32⟩ : BufTy).Contents (Elt Ideal)) (x18 : (⟨S64x32, .f32⟩ : BufTy).Contents (Elt Ideal)) (x19 : (⟨S32, .f32⟩ : BufTy).Contents (Elt Ideal)) (x20 : (⟨S128x128, .f32⟩ : BufTy).Contents (Elt Ideal)) (x21 : (⟨S128, .f32⟩ : BufTy).Contents (Elt Ideal)) (x22 : (⟨S128x64, .f32⟩ : BufTy).Contents (Elt Ideal)) (x23 : (⟨S64, .f32⟩ : BufTy).Contents (Elt Ideal)) (x24 : (⟨S64x32, .f32⟩ : BufTy).Contents (Elt Ideal)) (x25 : (⟨S32, .f32⟩ : BufTy).Contents (Elt Ideal)) (i : S10000x10000.Idx) :
    val_main_v325 (F := Ideal) x0 x1 x2 x3 x4 x5 x6 x7 x8 x9 x10 x11 x12 x13 x14 x15 x16 x17 x18 x19 x20 x21 x22 x23 x24 x25 i
      = ∑ k : Fin 32, val_main_v308 (F := Ideal) x0 x2 x4 x6 x7 x8 x9 x14 x15 x16 x17 x18 x19 (lidx_main_v325 i k)
          * val_main_v323 (F := Ideal) x1 x3 x5 x10 x11 x12 x13 x20 x21 x22 x23 x24 x25 (idx_main_v324 (ridx_main_v325 i k)) := by
  rw [val_main_v325_apply]
  refine Finset.sum_congr rfl fun k _ => ?_
  rw [val_main_v324_apply]

/-! ## The stages are the specification's -/

/-- The stage is the dense layer with rectification of the specification, applied to the stage before it. -/
theorem val_main_v298_eq_dense (x0 : (⟨S10000x128, .f32⟩ : BufTy).Contents (Elt Ideal)) (x2 : (⟨S10000x10000, .f32⟩ : BufTy).Contents (Elt Ideal)) (x4 : (⟨S2x320000, .i32⟩ : BufTy).Contents (Elt Ideal)) (x6 : (⟨S128x128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) (x14 : (⟨S128x128, .f32⟩ : BufTy).Contents (Elt Ideal)) (x15 : (⟨S128, .f32⟩ : BufTy).Contents (Elt Ideal)) :
    val_main_v298 (F := Ideal) x0 x2 x4 x6 x7 x8 x9 x14 x15
      = Cert.Spec.dense (n := 10000) (K := 128) (M := 128) (val_main_v164 (F := Ideal) x0 x2 x4 x6 x7 x8 x9) x14 x15 := by
  funext i
  obtain ⟨r, j, rfl⟩ : ∃ (r : Fin 10000) (j : Fin 128), i = ix2 r j := ⟨i 0, i 1, eq_ix2 i⟩
  rw [val_main_v298_read, Cert.Spec.dense_apply]
  have hl : ∀ k : Fin 128, lidx_main_v294 (ix2 r j) k = ix2 r k := fun k => funext fun a => match a with
    | ⟨0, _⟩ => rfl
    | ⟨1, _⟩ => rfl
  have hr : ∀ k : Fin 128, ridx_main_v294 (ix2 r j) k = ix2 k j := fun k => funext fun a => match a with
    | ⟨0, _⟩ => rfl
    | ⟨1, _⟩ => rfl
  have hb : idx_main_v295 (idx_main_v296 (ix2 r j)) = ix1 j := funext fun a => match a with
    | ⟨0, _⟩ => rfl
  simp only [hl, hr, hb]
  rfl

/-- The stage is the dense layer with rectification of the specification, applied to the stage before it. -/
theorem val_main_v303_eq_dense (x0 : (⟨S10000x128, .f32⟩ : BufTy).Contents (Elt Ideal)) (x2 : (⟨S10000x10000, .f32⟩ : BufTy).Contents (Elt Ideal)) (x4 : (⟨S2x320000, .i32⟩ : BufTy).Contents (Elt Ideal)) (x6 : (⟨S128x128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) (x14 : (⟨S128x128, .f32⟩ : BufTy).Contents (Elt Ideal)) (x15 : (⟨S128, .f32⟩ : BufTy).Contents (Elt Ideal)) (x16 : (⟨S128x64, .f32⟩ : BufTy).Contents (Elt Ideal)) (x17 : (⟨S64, .f32⟩ : BufTy).Contents (Elt Ideal)) :
    val_main_v303 (F := Ideal) x0 x2 x4 x6 x7 x8 x9 x14 x15 x16 x17
      = Cert.Spec.dense (n := 10000) (K := 128) (M := 64) (val_main_v298 (F := Ideal) x0 x2 x4 x6 x7 x8 x9 x14 x15) x16 x17 := by
  funext i
  obtain ⟨r, j, rfl⟩ : ∃ (r : Fin 10000) (j : Fin 64), i = ix2 r j := ⟨i 0, i 1, eq_ix2 i⟩
  rw [val_main_v303_read, Cert.Spec.dense_apply]
  have hl : ∀ k : Fin 128, lidx_main_v299 (ix2 r j) k = ix2 r k := fun k => funext fun a => match a with
    | ⟨0, _⟩ => rfl
    | ⟨1, _⟩ => rfl
  have hr : ∀ k : Fin 128, ridx_main_v299 (ix2 r j) k = ix2 k j := fun k => funext fun a => match a with
    | ⟨0, _⟩ => rfl
    | ⟨1, _⟩ => rfl
  have hb : idx_main_v300 (idx_main_v301 (ix2 r j)) = ix1 j := funext fun a => match a with
    | ⟨0, _⟩ => rfl
  simp only [hl, hr, hb]
  rfl

/-- The stage is the dense layer with rectification of the specification, applied to the stage before it. -/
theorem val_main_v308_eq_dense (x0 : (⟨S10000x128, .f32⟩ : BufTy).Contents (Elt Ideal)) (x2 : (⟨S10000x10000, .f32⟩ : BufTy).Contents (Elt Ideal)) (x4 : (⟨S2x320000, .i32⟩ : BufTy).Contents (Elt Ideal)) (x6 : (⟨S128x128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) (x14 : (⟨S128x128, .f32⟩ : BufTy).Contents (Elt Ideal)) (x15 : (⟨S128, .f32⟩ : BufTy).Contents (Elt Ideal)) (x16 : (⟨S128x64, .f32⟩ : BufTy).Contents (Elt Ideal)) (x17 : (⟨S64, .f32⟩ : BufTy).Contents (Elt Ideal)) (x18 : (⟨S64x32, .f32⟩ : BufTy).Contents (Elt Ideal)) (x19 : (⟨S32, .f32⟩ : BufTy).Contents (Elt Ideal)) :
    val_main_v308 (F := Ideal) x0 x2 x4 x6 x7 x8 x9 x14 x15 x16 x17 x18 x19
      = Cert.Spec.dense (n := 10000) (K := 64) (M := 32) (val_main_v303 (F := Ideal) x0 x2 x4 x6 x7 x8 x9 x14 x15 x16 x17) x18 x19 := by
  funext i
  obtain ⟨r, j, rfl⟩ : ∃ (r : Fin 10000) (j : Fin 32), i = ix2 r j := ⟨i 0, i 1, eq_ix2 i⟩
  rw [val_main_v308_read, Cert.Spec.dense_apply]
  have hl : ∀ k : Fin 64, lidx_main_v304 (ix2 r j) k = ix2 r k := fun k => funext fun a => match a with
    | ⟨0, _⟩ => rfl
    | ⟨1, _⟩ => rfl
  have hr : ∀ k : Fin 64, ridx_main_v304 (ix2 r j) k = ix2 k j := fun k => funext fun a => match a with
    | ⟨0, _⟩ => rfl
    | ⟨1, _⟩ => rfl
  have hb : idx_main_v305 (idx_main_v306 (ix2 r j)) = ix1 j := funext fun a => match a with
    | ⟨0, _⟩ => rfl
  simp only [hl, hr, hb]
  rfl

/-- The stage is the dense layer with rectification of the specification, applied to the stage before it. -/
theorem val_main_v313_eq_dense (x1 : (⟨S10000x128, .f32⟩ : BufTy).Contents (Elt Ideal)) (x3 : (⟨S10000x10000, .f32⟩ : BufTy).Contents (Elt Ideal)) (x5 : (⟨S2x320000, .i32⟩ : BufTy).Contents (Elt Ideal)) (x10 : (⟨S128x128, .f32⟩ : BufTy).Contents (Elt Ideal)) (x11 : (⟨S128, .f32⟩ : BufTy).Contents (Elt Ideal)) (x12 : (⟨S128x128, .f32⟩ : BufTy).Contents (Elt Ideal)) (x13 : (⟨S128, .f32⟩ : BufTy).Contents (Elt Ideal)) (x20 : (⟨S128x128, .f32⟩ : BufTy).Contents (Elt Ideal)) (x21 : (⟨S128, .f32⟩ : BufTy).Contents (Elt Ideal)) :
    val_main_v313 (F := Ideal) x1 x3 x5 x10 x11 x12 x13 x20 x21
      = Cert.Spec.dense (n := 10000) (K := 128) (M := 128) (val_main_v293 (F := Ideal) x1 x3 x5 x10 x11 x12 x13) x20 x21 := by
  funext i
  obtain ⟨r, j, rfl⟩ : ∃ (r : Fin 10000) (j : Fin 128), i = ix2 r j := ⟨i 0, i 1, eq_ix2 i⟩
  rw [val_main_v313_read, Cert.Spec.dense_apply]
  have hl : ∀ k : Fin 128, lidx_main_v309 (ix2 r j) k = ix2 r k := fun k => funext fun a => match a with
    | ⟨0, _⟩ => rfl
    | ⟨1, _⟩ => rfl
  have hr : ∀ k : Fin 128, ridx_main_v309 (ix2 r j) k = ix2 k j := fun k => funext fun a => match a with
    | ⟨0, _⟩ => rfl
    | ⟨1, _⟩ => rfl
  have hb : idx_main_v310 (idx_main_v311 (ix2 r j)) = ix1 j := funext fun a => match a with
    | ⟨0, _⟩ => rfl
  simp only [hl, hr, hb]
  rfl

/-- The stage is the dense layer with rectification of the specification, applied to the stage before it. -/
theorem val_main_v318_eq_dense (x1 : (⟨S10000x128, .f32⟩ : BufTy).Contents (Elt Ideal)) (x3 : (⟨S10000x10000, .f32⟩ : BufTy).Contents (Elt Ideal)) (x5 : (⟨S2x320000, .i32⟩ : BufTy).Contents (Elt Ideal)) (x10 : (⟨S128x128, .f32⟩ : BufTy).Contents (Elt Ideal)) (x11 : (⟨S128, .f32⟩ : BufTy).Contents (Elt Ideal)) (x12 : (⟨S128x128, .f32⟩ : BufTy).Contents (Elt Ideal)) (x13 : (⟨S128, .f32⟩ : BufTy).Contents (Elt Ideal)) (x20 : (⟨S128x128, .f32⟩ : BufTy).Contents (Elt Ideal)) (x21 : (⟨S128, .f32⟩ : BufTy).Contents (Elt Ideal)) (x22 : (⟨S128x64, .f32⟩ : BufTy).Contents (Elt Ideal)) (x23 : (⟨S64, .f32⟩ : BufTy).Contents (Elt Ideal)) :
    val_main_v318 (F := Ideal) x1 x3 x5 x10 x11 x12 x13 x20 x21 x22 x23
      = Cert.Spec.dense (n := 10000) (K := 128) (M := 64) (val_main_v313 (F := Ideal) x1 x3 x5 x10 x11 x12 x13 x20 x21) x22 x23 := by
  funext i
  obtain ⟨r, j, rfl⟩ : ∃ (r : Fin 10000) (j : Fin 64), i = ix2 r j := ⟨i 0, i 1, eq_ix2 i⟩
  rw [val_main_v318_read, Cert.Spec.dense_apply]
  have hl : ∀ k : Fin 128, lidx_main_v314 (ix2 r j) k = ix2 r k := fun k => funext fun a => match a with
    | ⟨0, _⟩ => rfl
    | ⟨1, _⟩ => rfl
  have hr : ∀ k : Fin 128, ridx_main_v314 (ix2 r j) k = ix2 k j := fun k => funext fun a => match a with
    | ⟨0, _⟩ => rfl
    | ⟨1, _⟩ => rfl
  have hb : idx_main_v315 (idx_main_v316 (ix2 r j)) = ix1 j := funext fun a => match a with
    | ⟨0, _⟩ => rfl
  simp only [hl, hr, hb]
  rfl

/-- The stage is the dense layer with rectification of the specification, applied to the stage before it. -/
theorem val_main_v323_eq_dense (x1 : (⟨S10000x128, .f32⟩ : BufTy).Contents (Elt Ideal)) (x3 : (⟨S10000x10000, .f32⟩ : BufTy).Contents (Elt Ideal)) (x5 : (⟨S2x320000, .i32⟩ : BufTy).Contents (Elt Ideal)) (x10 : (⟨S128x128, .f32⟩ : BufTy).Contents (Elt Ideal)) (x11 : (⟨S128, .f32⟩ : BufTy).Contents (Elt Ideal)) (x12 : (⟨S128x128, .f32⟩ : BufTy).Contents (Elt Ideal)) (x13 : (⟨S128, .f32⟩ : BufTy).Contents (Elt Ideal)) (x20 : (⟨S128x128, .f32⟩ : BufTy).Contents (Elt Ideal)) (x21 : (⟨S128, .f32⟩ : BufTy).Contents (Elt Ideal)) (x22 : (⟨S128x64, .f32⟩ : BufTy).Contents (Elt Ideal)) (x23 : (⟨S64, .f32⟩ : BufTy).Contents (Elt Ideal)) (x24 : (⟨S64x32, .f32⟩ : BufTy).Contents (Elt Ideal)) (x25 : (⟨S32, .f32⟩ : BufTy).Contents (Elt Ideal)) :
    val_main_v323 (F := Ideal) x1 x3 x5 x10 x11 x12 x13 x20 x21 x22 x23 x24 x25
      = Cert.Spec.dense (n := 10000) (K := 64) (M := 32) (val_main_v318 (F := Ideal) x1 x3 x5 x10 x11 x12 x13 x20 x21 x22 x23) x24 x25 := by
  funext i
  obtain ⟨r, j, rfl⟩ : ∃ (r : Fin 10000) (j : Fin 32), i = ix2 r j := ⟨i 0, i 1, eq_ix2 i⟩
  rw [val_main_v323_read, Cert.Spec.dense_apply]
  have hl : ∀ k : Fin 64, lidx_main_v319 (ix2 r j) k = ix2 r k := fun k => funext fun a => match a with
    | ⟨0, _⟩ => rfl
    | ⟨1, _⟩ => rfl
  have hr : ∀ k : Fin 64, ridx_main_v319 (ix2 r j) k = ix2 k j := fun k => funext fun a => match a with
    | ⟨0, _⟩ => rfl
    | ⟨1, _⟩ => rfl
  have hb : idx_main_v320 (idx_main_v321 (ix2 r j)) = ix1 j := funext fun a => match a with
    | ⟨0, _⟩ => rfl
  simp only [hl, hr, hb]
  rfl

/-- The first perceptron is the specification's three-layer head of the first graph stack's output. -/
theorem val_main_v308_eq_head (x0 : (⟨S10000x128, .f32⟩ : BufTy).Contents (Elt Ideal)) (x2 : (⟨S10000x10000, .f32⟩ : BufTy).Contents (Elt Ideal)) (x4 : (⟨S2x320000, .i32⟩ : BufTy).Contents (Elt Ideal)) (x6 : (⟨S128x128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) (x14 : (⟨S128x128, .f32⟩ : BufTy).Contents (Elt Ideal)) (x15 : (⟨S128, .f32⟩ : BufTy).Contents (Elt Ideal)) (x16 : (⟨S128x64, .f32⟩ : BufTy).Contents (Elt Ideal)) (x17 : (⟨S64, .f32⟩ : BufTy).Contents (Elt Ideal)) (x18 : (⟨S64x32, .f32⟩ : BufTy).Contents (Elt Ideal)) (x19 : (⟨S32, .f32⟩ : BufTy).Contents (Elt Ideal)) :
    val_main_v308 (F := Ideal) x0 x2 x4 x6 x7 x8 x9 x14 x15 x16 x17 x18 x19
      = Cert.Spec.head (n := 10000) (val_main_v164 (F := Ideal) x0 x2 x4 x6 x7 x8 x9) x14 x15 x16 x17 x18 x19 := by
  unfold Cert.Spec.head
  rw [val_main_v308_eq_dense, val_main_v303_eq_dense, val_main_v298_eq_dense]

/-- The second perceptron is the specification's three-layer head of the second graph stack's output. -/
theorem val_main_v323_eq_head (x1 : (⟨S10000x128, .f32⟩ : BufTy).Contents (Elt Ideal)) (x3 : (⟨S10000x10000, .f32⟩ : BufTy).Contents (Elt Ideal)) (x5 : (⟨S2x320000, .i32⟩ : BufTy).Contents (Elt Ideal)) (x10 : (⟨S128x128, .f32⟩ : BufTy).Contents (Elt Ideal)) (x11 : (⟨S128, .f32⟩ : BufTy).Contents (Elt Ideal)) (x12 : (⟨S128x128, .f32⟩ : BufTy).Contents (Elt Ideal)) (x13 : (⟨S128, .f32⟩ : BufTy).Contents (Elt Ideal)) (x20 : (⟨S128x128, .f32⟩ : BufTy).Contents (Elt Ideal)) (x21 : (⟨S128, .f32⟩ : BufTy).Contents (Elt Ideal)) (x22 : (⟨S128x64, .f32⟩ : BufTy).Contents (Elt Ideal)) (x23 : (⟨S64, .f32⟩ : BufTy).Contents (Elt Ideal)) (x24 : (⟨S64x32, .f32⟩ : BufTy).Contents (Elt Ideal)) (x25 : (⟨S32, .f32⟩ : BufTy).Contents (Elt Ideal)) :
    val_main_v323 (F := Ideal) x1 x3 x5 x10 x11 x12 x13 x20 x21 x22 x23 x24 x25
      = Cert.Spec.head (n := 10000) (val_main_v293 (F := Ideal) x1 x3 x5 x10 x11 x12 x13) x20 x21 x22 x23 x24 x25 := by
  unfold Cert.Spec.head
  rw [val_main_v323_eq_dense, val_main_v318_eq_dense, val_main_v313_eq_dense]

/-- The reference's result is the matrix of inner products of the two heads' outputs: the specification. -/
theorem ref_result (x0 : (⟨S10000x128, .f32⟩ : BufTy).Contents (Elt Ideal)) (x1 : (⟨S10000x128, .f32⟩ : BufTy).Contents (Elt Ideal)) (x2 : (⟨S10000x10000, .f32⟩ : BufTy).Contents (Elt Ideal)) (x3 : (⟨S10000x10000, .f32⟩ : BufTy).Contents (Elt Ideal)) (x4 : (⟨S2x320000, .i32⟩ : BufTy).Contents (Elt Ideal)) (x5 : (⟨S2x320000, .i32⟩ : BufTy).Contents (Elt Ideal)) (x6 : (⟨S128x128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) (x10 : (⟨S128x128, .f32⟩ : BufTy).Contents (Elt Ideal)) (x11 : (⟨S128, .f32⟩ : BufTy).Contents (Elt Ideal)) (x12 : (⟨S128x128, .f32⟩ : BufTy).Contents (Elt Ideal)) (x13 : (⟨S128, .f32⟩ : BufTy).Contents (Elt Ideal)) (x14 : (⟨S128x128, .f32⟩ : BufTy).Contents (Elt Ideal)) (x15 : (⟨S128, .f32⟩ : BufTy).Contents (Elt Ideal)) (x16 : (⟨S128x64, .f32⟩ : BufTy).Contents (Elt Ideal)) (x17 : (⟨S64, .f32⟩ : BufTy).Contents (Elt Ideal)) (x18 : (⟨S64x32, .f32⟩ : BufTy).Contents (Elt Ideal)) (x19 : (⟨S32, .f32⟩ : BufTy).Contents (Elt Ideal)) (x20 : (⟨S128x128, .f32⟩ : BufTy).Contents (Elt Ideal)) (x21 : (⟨S128, .f32⟩ : BufTy).Contents (Elt Ideal)) (x22 : (⟨S128x64, .f32⟩ : BufTy).Contents (Elt Ideal)) (x23 : (⟨S64, .f32⟩ : BufTy).Contents (Elt Ideal)) (x24 : (⟨S64x32, .f32⟩ : BufTy).Contents (Elt Ideal)) (x25 : (⟨S32, .f32⟩ : BufTy).Contents (Elt Ideal)) :
    val_main_v325 (F := Ideal) x0 x1 x2 x3 x4 x5 x6 x7 x8 x9 x10 x11 x12 x13 x14 x15 x16 x17 x18 x19 x20 x21 x22 x23 x24 x25
      = Cert.Spec.gram (n := 10000) (m := 10000)
          (Cert.Spec.head (n := 10000) (val_main_v164 (F := Ideal) x0 x2 x4 x6 x7 x8 x9) x14 x15 x16 x17 x18 x19)
          (Cert.Spec.head (n := 10000) (val_main_v293 (F := Ideal) x1 x3 x5 x10 x11 x12 x13) x20 x21 x22 x23 x24 x25) := by
  funext i
  obtain ⟨r, s, rfl⟩ : ∃ (r : Fin 10000) (s : Fin 10000), i = ix2 r s := ⟨i 0, i 1, eq_ix2 i⟩
  rw [result_read, Cert.Spec.gram_apply, val_main_v308_eq_head, val_main_v323_eq_head]
  have hl : ∀ k : Fin 32, lidx_main_v325 (ix2 r s) k = ix2 r k := fun k => funext fun a => match a with
    | ⟨0, _⟩ => rfl
    | ⟨1, _⟩ => rfl
  have hr : ∀ k : Fin 32, idx_main_v324 (ridx_main_v325 (ix2 r s) k) = ix2 s k := fun k => funext fun a => match a with
    | ⟨0, _⟩ => rfl
    | ⟨1, _⟩ => rfl
  simp only [hl, hr]

end Cert.ReferenceIdeal.HandValue

end
-- ==== Proof.RefRunValueH.lean ====
/-
  The reference's run, with its result stated as the specification.

  Every weakly fair execution of the reference terminates; its result buffer then holds the last stage's value of
  the launch's argument arrays (the run), which is the specification's matrix of inner products of the two
  three-layer heads, each applied to its graph stack's output (`ref_result`); and the twenty-six argument
  buffers hold what they held at launch.
-/
import proofs.«154350_j35708358099201_1_alg».proof.Proof.RefRunH
import proofs.«154350_j35708358099201_1_alg».proof.Proof.RefValue

noncomputable section

namespace Cert.ReferenceIdeal.HandValue

open Cert.ReferenceIdeal Cert.ReferenceIdeal.Gen Cert.ReferenceIdeal.ReadP Idealize.ShloMosaic Idealize.ShloMosaic.TcCoe Idealize.SL.Sem Idealize.ShloMosaic.StableHlo Idealize.ShloMosaic.ValueIdx

/-- At the ideal instance, from any memory with zero counters: every weakly fair execution of the reference
    terminates with the result buffer at the specification's value of the launch's argument arrays, and the
    arguments unchanged. -/
theorem ref_run (m' : (ℓ : Loc nD τ sig) → Buf (Elt Ideal) ℓ) (ρ' : Dev nD → PrngReg) :
    θ_run (defs (F := Ideal)) (onTc (τ := τ) (main (F := Ideal))) ⟨m', fun _ => 0, ρ'⟩ fun r => ∀ c : Dev nD,
      r.2.mem ((c.tc : Thread nD τ).loc main_v325)
        = Cert.Spec.gram (n := 10000) (m := 10000)
          (Cert.Spec.head (n := 10000) (val_main_v164 (F := Ideal) (m' ((c.tc : Thread nD τ).loc main_arg0)) (m' ((c.tc : Thread nD τ).loc main_arg2)) (m' ((c.tc : Thread nD τ).loc main_arg4)) (m' ((c.tc : Thread nD τ).loc main_arg6)) (m' ((c.tc : Thread nD τ).loc main_arg7)) (m' ((c.tc : Thread nD τ).loc main_arg8)) (m' ((c.tc : Thread nD τ).loc main_arg9))) (m' ((c.tc : Thread nD τ).loc main_arg14)) (m' ((c.tc : Thread nD τ).loc main_arg15)) (m' ((c.tc : Thread nD τ).loc main_arg16)) (m' ((c.tc : Thread nD τ).loc main_arg17)) (m' ((c.tc : Thread nD τ).loc main_arg18)) (m' ((c.tc : Thread nD τ).loc main_arg19)))
          (Cert.Spec.head (n := 10000) (val_main_v293 (F := Ideal) (m' ((c.tc : Thread nD τ).loc main_arg1)) (m' ((c.tc : Thread nD τ).loc main_arg3)) (m' ((c.tc : Thread nD τ).loc main_arg5)) (m' ((c.tc : Thread nD τ).loc main_arg10)) (m' ((c.tc : Thread nD τ).loc main_arg11)) (m' ((c.tc : Thread nD τ).loc main_arg12)) (m' ((c.tc : Thread nD τ).loc main_arg13))) (m' ((c.tc : Thread nD τ).loc main_arg20)) (m' ((c.tc : Thread nD τ).loc main_arg21)) (m' ((c.tc : Thread nD τ).loc main_arg22)) (m' ((c.tc : Thread nD τ).loc main_arg23)) (m' ((c.tc : Thread nD τ).loc main_arg24)) (m' ((c.tc : Thread nD τ).loc main_arg25)))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5)
      ∧ r.2.mem ((c.tc : Thread nD τ).loc main_arg6) = m' ((c.tc : Thread nD τ).loc main_arg6)
      ∧ r.2.mem ((c.tc : Thread nD τ).loc main_arg7) = m' ((c.tc : Thread nD τ).loc main_arg7)
      ∧ r.2.mem ((c.tc : Thread nD τ).loc main_arg8) = m' ((c.tc : Thread nD τ).loc main_arg8)
      ∧ r.2.mem ((c.tc : Thread nD τ).loc main_arg9) = m' ((c.tc : Thread nD τ).loc main_arg9)
      ∧ r.2.mem ((c.tc : Thread nD τ).loc main_arg10) = m' ((c.tc : Thread nD τ).loc main_arg10)
      ∧ r.2.mem ((c.tc : Thread nD τ).loc main_arg11) = m' ((c.tc : Thread nD τ).loc main_arg11)
      ∧ r.2.mem ((c.tc : Thread nD τ).loc main_arg12) = m' ((c.tc : Thread nD τ).loc main_arg12)
      ∧ r.2.mem ((c.tc : Thread nD τ).loc main_arg13) = m' ((c.tc : Thread nD τ).loc main_arg13)
      ∧ r.2.mem ((c.tc : Thread nD τ).loc main_arg14) = m' ((c.tc : Thread nD τ).loc main_arg14)
      ∧ r.2.mem ((c.tc : Thread nD τ).loc main_arg15) = m' ((c.tc : Thread nD τ).loc main_arg15)
      ∧ r.2.mem ((c.tc : Thread nD τ).loc main_arg16) = m' ((c.tc : Thread nD τ).loc main_arg16)
      ∧ r.2.mem ((c.tc : Thread nD τ).loc main_arg17) = m' ((c.tc : Thread nD τ).loc main_arg17)
      ∧ r.2.mem ((c.tc : Thread nD τ).loc main_arg18) = m' ((c.tc : Thread nD τ).loc main_arg18)
      ∧ r.2.mem ((c.tc : Thread nD τ).loc main_arg19) = m' ((c.tc : Thread nD τ).loc main_arg19)
      ∧ r.2.mem ((c.tc : Thread nD τ).loc main_arg20) = m' ((c.tc : Thread nD τ).loc main_arg20)
      ∧ r.2.mem ((c.tc : Thread nD τ).loc main_arg21) = m' ((c.tc : Thread nD τ).loc main_arg21)
      ∧ r.2.mem ((c.tc : Thread nD τ).loc main_arg22) = m' ((c.tc : Thread nD τ).loc main_arg22)
      ∧ r.2.mem ((c.tc : Thread nD τ).loc main_arg23) = m' ((c.tc : Thread nD τ).loc main_arg23)
      ∧ r.2.mem ((c.tc : Thread nD τ).loc main_arg24) = m' ((c.tc : Thread nD τ).loc main_arg24)
      ∧ r.2.mem ((c.tc : Thread nD τ).loc main_arg25) = m' ((c.tc : Thread nD τ).loc main_arg25) :=
  (θ_run defs _ _).mono
    (fun _ h c => ⟨(h c).1.trans (ref_result ..), (h c).2⟩)
    (Cert.ReferenceIdeal.HandRun.run (F := Ideal) m' ρ')

end Cert.ReferenceIdeal.HandValue

end
-- ==== Proof.lean ====
/- The certificate of a two-graph convolutional model whose two dense heads and final product run as TPU kernels.
   Both programs first run the same host operations: for each of the two graphs, edge weights gathered from a dense
   matrix, then three graph-convolution layers (degree by a scatter-add, symmetric normalisation by rsqrt, messages
   gathered, scaled and scatter-added, a bias, a relu). The kernel program then sends each graph's features through a
   three-layer dense head relu(relu(relu(h·W1 + b1)·W2 + b2)·W3 + b3) in ten row blocks of 1000 with the weights resident,
   and forms x·yᵀ on a 10 × 8 grid of 1000 × 1280 output blocks, whose last column block overhangs the 10000 columns and
   is clipped at write-back; the reference computes the same heads and the same product as whole-array operations.
   On the extended reals a row of a dense layer depends only on that row of its input, a matrix product is the sum over
   the contracted axis whatever its tiling, and an output column below 10000 reads only rows of y below 10000: so the
   blocks the kernels write are the restrictions of the whole-array functions, and the two results are one function of
   the arguments — the product of the two heads applied to the shared prefix's two outputs. The frames: every launch
   gives its windows' arrays back (the inputs as entered), no host operation writes an argument. -/
import proofs.«154350_j35708358099201_1_alg».proof.Defs
import proofs.«154350_j35708358099201_1_alg».proof.Proof.Gen.Kernel
import proofs.«154350_j35708358099201_1_alg».proof.Proof.Gen.KernelIdeal
import proofs.«154350_j35708358099201_1_alg».proof.Proof.Gen.ReferenceIdeal
import proofs.«154350_j35708358099201_1_alg».proof.Proof.Gen.Pre_finite_inputs
import proofs.«154350_j35708358099201_1_alg».proof.Proof.BitsRun
import proofs.«154350_j35708358099201_1_alg».proof.Proof.IdealRun
import proofs.«154350_j35708358099201_1_alg».proof.Proof.IdealValue
import proofs.«154350_j35708358099201_1_alg».proof.Proof.IdealMlp0Value
import proofs.«154350_j35708358099201_1_alg».proof.Proof.IdealMlp1Value
import proofs.«154350_j35708358099201_1_alg».proof.Proof.PrefixKernel
import proofs.«154350_j35708358099201_1_alg».proof.Proof.RefFrameH
import proofs.«154350_j35708358099201_1_alg».proof.Proof.RefRunValueH
import Idealize.ShloMosaic.Adequacy
import Idealize.ShloMosaic.Init

noncomputable section

namespace Cert.Proof

open Idealize.ShloMosaic Idealize.SL.Sem

/-- The word-level program runs and leaves its arguments as launched. -/
theorem frame_k : Cert.frame_Kernel := fun m ρ _ => Cert.Kernel.Hand.frame (F := Bits) m ρ
/-- So does the idealized program. -/
theorem frame_ki : Cert.frame_KernelIdeal := fun m ρ _ => Cert.KernelIdeal.Hand.frame (F := Ideal) m ρ
/-- So does the reference. -/
theorem frame_ri : Cert.frame_ReferenceIdeal := Cert.ReferenceIdeal.Hand.frame_ri
/-- The idealization rewrote nothing. -/
theorem preserves : Cert.preserves_Kernel_KernelIdeal := trivial

/-- On the extended reals both programs end with the product of the two heads of the shared prefix's outputs: the kernel
    program's result array is that function of its arguments (the prefix leaves the heads' inputs at the reference's stages of
    the arguments, each head's ten row blocks assemble to the head of the whole array, the eighty clipped blocks of the
    product to the whole product), the reference's is the same function of its own, and the
    arguments agree. -/
theorem algebraic : Cert.algebraic_KernelIdeal_ReferenceIdeal := by
  intro m ρ m' ρ' _ hagree
  refine ⟨fun c => Cert.KernelIdeal.HandValue.RES m c,
    Cert.KernelIdeal.HandValue.kernel_run_of m ρ
      (fun c => Cert.KernelIdeal.Hand.kernel_x (Cert.KernelIdeal.Hand.W0 m ρ c))
      (fun c => Cert.KernelIdeal.Hand.kernel_y (Cert.KernelIdeal.Hand.W0 m ρ c))
      (fun V c => Cert.KernelIdeal.HandValue.final0 V c)
      (fun V c => Cert.KernelIdeal.HandValue.final1 V c), ?_⟩
  refine (θ_run Cert.ReferenceIdeal.defs _ _).mono (fun _ h c => ⟨(h c).1.trans ?_, (h c).2⟩)
    (Cert.ReferenceIdeal.HandValue.ref_run m' ρ')
  obtain ⟨h0, h1, h2, h3, h4, h5, h6, h7, h8, h9, h10, h11, h12, h13, h14, h15, h16, h17, h18, h19, h20, h21, h22, h23, h24, h25⟩ := hagree c
  rw [h0, h1, h2, h3, h4, h5, h6, h7, h8, h9, h10, h11, h12, h13, h14, h15, h16, h17, h18, h19, h20, h21, h22, h23, h24, h25]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
